-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x26x1 : Shape := ⟨3, ![4096, 26, 1]⟩
abbrev S4096x26 : Shape := ⟨2, ![4096, 26]⟩
abbrev S1 : Shape := ⟨1, ![1]⟩
abbrev S26x1000x1 : Shape := ⟨3, ![26, 1000, 1]⟩
abbrev S26x1000x128 : Shape := ⟨3, ![26, 1000, 128]⟩
abbrev S3355x1024 : Shape := ⟨2, ![3355, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S_ : Shape := ⟨0, ![]⟩

class Facts : Prop where
  bcast_S_S4096x26 : S_.BroadcastsInDim S4096x26 (![] : Fin 0 → Fin S4096x26.rank)
  reducesTo_S4096x26_S_d0_1 : S4096x26.ReducesTo [0, 1] S_
  h_S_ : 0 < S_.numel
  bcast_S_S1 : S_.BroadcastsInDim S1 (![] : Fin 0 → Fin S1.rank)
  reducesTo_S1_S_d0 : S1.ReducesTo [0] S_
  bcast_S_S26x1000x1 : S_.BroadcastsInDim S26x1000x1 (![] : Fin 0 → Fin S26x1000x1.rank)
  reducesTo_S26x1000x1_S_d0_1_2 : S26x1000x1.ReducesTo [0, 1, 2] S_
  bcast_S_S26x1000x128 : S_.BroadcastsInDim S26x1000x128 (![] : Fin 0 → Fin S26x1000x128.rank)
  reducesTo_S26x1000x128_S_d0_1_2 : S26x1000x128.ReducesTo [0, 1, 2] S_
  bcast_S_S3355x1024 : S_.BroadcastsInDim S3355x1024 (![] : Fin 0 → Fin S3355x1024.rank)
  reducesTo_S3355x1024_S_d0_1 : S3355x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S4096x26x1 : S_.BroadcastsInDim S4096x26x1 (![] : Fin 0 → Fin S4096x26x1.rank)
  reducesTo_S4096x26x1_S_d0_1_2 : S4096x26x1.ReducesTo [0, 1, 2] S_

variable [Facts]

def fn_part3 {F : FTy → Type} [FloatOps F] (main_arg0 : IVec S4096x26x1 32) (main_v48 : IVec S_ 1) (main_v50 : IVec S4096x26x1 1) : IVec S_ 1 :=
  let main_c_19 : IVec S_ 32 := constantI S_ 32 999#32
  let main_v51 : IVec S4096x26x1 32 := broadcastInDim S4096x26x1 ![] bcast_S_S4096x26x1 main_c_19
  let main_v52 : IVec S4096x26x1 1 := cmpi .sle main_arg0 main_v51
  let main_v53 : IVec S4096x26x1 1 := andi main_v50 main_v52
  let main_c_20 : IVec S_ 1 := constantI S_ 1 1#1
  let main_v54 : IVec S_ 1 := (fun x v => Host.reduce IntOp.andi x v reducesTo_S4096x26x1_S_d0_1_2 h_S_) main_v53 main_c_20
  let main_v55 : IVec S_ 1 := andi main_v48 main_v54
  main_v55

def fn_part2 {F : FTy → Type} [FloatOps F] (main_arg0 : IVec S4096x26x1 32) (main_arg8 : FVec F S512 .f32) (main_arg9 : FVec F S512x1 .f32) (main_arg10 : FVec F S1 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg9
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S4096x26x1 32 := broadcastInDim S4096x26x1 ![] bcast_S_S4096x26x1 main_c_18
  let main_v50 : IVec S4096x26x1 1 := cmpi .sge main_arg0 main_v49
  fn_part3 (F := F) main_arg0 main_v48 main_v50

def fn_part1 {F : FTy → Type} [FloatOps F] (main_arg0 : IVec S4096x26x1 32) (main_arg5 : FVec F S3355x1024 .f32) (main_arg6 : FVec F S1024 .f32) (main_arg7 : FVec F S1024x512 .f32) (main_arg8 : FVec F S512 .f32) (main_arg9 : FVec F S512x1 .f32) (main_arg10 : FVec F S1 .f32) (main_v13 : IVec S_ 1) (main_v16 : IVec S26x1000x128 1) : IVec S_ 1 :=
  let main_c_5 : IVec S_ 1 := constantI S_ 1 1#1
  let main_v17 : IVec S_ 1 := (fun x v => Host.reduce IntOp.andi x v reducesTo_S26x1000x128_S_d0_1_2 h_S_) main_v16 main_c_5
  let main_v18 : IVec S_ 1 := andi main_v13 main_v17
  let main_v19 : FVec F S3355x1024 .f32 := Host.absf main_arg5
  let main_cst_6 : FVec F S_ .f32 := constant S_ .f32 0x7F800000#32
  let main_v20 : FVec F S3355x1024 .f32 := broadcastInDim S3355x1024 ![] bcast_S_S3355x1024 main_cst_6
  let main_v21 : IVec S3355x1024 1 := cmpf .olt main_v19 main_v20
  let main_c_7 : IVec S_ 1 := constantI S_ 1 1#1
  let main_v22 : IVec S_ 1 := (fun x v => Host.reduce IntOp.andi x v reducesTo_S3355x1024_S_d0_1 h_S_) main_v21 main_c_7
  let main_v23 : IVec S_ 1 := andi main_v18 main_v22
  let main_v24 : FVec F S1024 .f32 := Host.absf main_arg6
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg7
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg0 main_arg8 main_arg9 main_arg10 main_v33

def fn {F : FTy → Type} [FloatOps F] (main_arg0 : IVec S4096x26x1 32) (main_arg1 : FVec F S4096x26 .f32) (main_arg2 : FVec F S1 .f32) (main_arg3 : FVec F S26x1000x1 .f32) (main_arg4 : FVec F S26x1000x128 .f32) (main_arg5 : FVec F S3355x1024 .f32) (main_arg6 : FVec F S1024 .f32) (main_arg7 : FVec F S1024x512 .f32) (main_arg8 : FVec F S512 .f32) (main_arg9 : FVec F S512x1 .f32) (main_arg10 : FVec F S1 .f32) : IVec S_ 1 :=
  let main_v0 : FVec F S4096x26 .f32 := Host.absf main_arg1
  let main_cst : FVec F S_ .f32 := constant S_ .f32 0x7F800000#32
  let main_v1 : FVec F S4096x26 .f32 := broadcastInDim S4096x26 ![] bcast_S_S4096x26 main_cst
  let main_v2 : IVec S4096x26 1 := cmpf .olt main_v0 main_v1
  let main_c : IVec S_ 1 := constantI S_ 1 1#1
  let main_v3 : IVec S_ 1 := (fun x v => Host.reduce IntOp.andi x v reducesTo_S4096x26_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S26x1000x1 .f32 := Host.absf main_arg3
  let main_cst_2 : FVec F S_ .f32 := constant S_ .f32 0x7F800000#32
  let main_v10 : FVec F S26x1000x1 .f32 := broadcastInDim S26x1000x1 ![] bcast_S_S26x1000x1 main_cst_2
  let main_v11 : IVec S26x1000x1 1 := cmpf .olt main_v9 main_v10
  let main_c_3 : IVec S_ 1 := constantI S_ 1 1#1
  let main_v12 : IVec S_ 1 := (fun x v => Host.reduce IntOp.andi x v reducesTo_S26x1000x1_S_d0_1_2 h_S_) main_v11 main_c_3
  let main_v13 : IVec S_ 1 := andi main_v8 main_v12
  let main_v14 : FVec F S26x1000x128 .f32 := Host.absf main_arg4
  let main_cst_4 : FVec F S_ .f32 := constant S_ .f32 0x7F800000#32
  let main_v15 : FVec F S26x1000x128 .f32 := broadcastInDim S26x1000x128 ![] bcast_S_S26x1000x128 main_cst_4
  let main_v16 : IVec S26x1000x128 1 := cmpf .olt main_v14 main_v15
  fn_part1 (F := F) main_arg0 main_arg5 main_arg6 main_arg7 main_arg8 main_arg9 main_arg10 main_v13 main_v16
-- ==== Kernel.lean ====
abbrev S4096x26x1 : Shape := ⟨3, ![4096, 26, 1]⟩
abbrev S4096x26 : Shape := ⟨2, ![4096, 26]⟩
abbrev S1 : Shape := ⟨1, ![1]⟩
abbrev S26x1000x1 : Shape := ⟨3, ![26, 1000, 1]⟩
abbrev S26x1000x128 : Shape := ⟨3, ![26, 1000, 128]⟩
abbrev S3355x1024 : Shape := ⟨2, ![3355, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S26 : Shape := ⟨1, ![26]⟩
abbrev S_ : Shape := ⟨0, ![]⟩
abbrev S1x26 : Shape := ⟨2, ![1, 26]⟩
abbrev S1x32x128x26 : Shape := ⟨4, ![1, 32, 128, 26]⟩
abbrev S1x32x26x128 : Shape := ⟨4, ![1, 32, 26, 128]⟩
abbrev S1x106496 : Shape := ⟨2, ![1, 106496]⟩
abbrev S4096x6 : Shape := ⟨2, ![4096, 6]⟩
abbrev S4096x32 : Shape := ⟨2, ![4096, 32]⟩
abbrev S1x131072 : Shape := ⟨2, ![1, 131072]⟩
abbrev S26000x128 : Shape := ⟨2, ![26000, 128]⟩
abbrev S26000 : Shape := ⟨1, ![26000]⟩
abbrev S8 : Shape := ⟨1, ![8]⟩
abbrev S26008 : Shape := ⟨1, ![26008]⟩
abbrev S26x1024 : Shape := ⟨2, ![26, 1024]⟩
abbrev S6x1024 : Shape := ⟨2, ![6, 1024]⟩
abbrev S32x1024 : Shape := ⟨2, ![32, 1024]⟩
abbrev S3328x1024 : Shape := ⟨2, ![3328, 1024]⟩
abbrev S1x1024 : Shape := ⟨2, ![1, 1024]⟩
abbrev S1x1 : Shape := ⟨2, ![1, 1]⟩
abbrev S106496 : Shape := ⟨1, ![106496]⟩
abbrev S131072 : Shape := ⟨1, ![131072]⟩
abbrev S4096x3328 : Shape := ⟨2, ![4096, 3328]⟩
abbrev S3328 : Shape := ⟨1, ![3328]⟩
abbrev S4096 : Shape := ⟨1, ![4096]⟩
abbrev S128x128 : Shape := ⟨2, ![128, 128]⟩
abbrev S128 : Shape := ⟨1, ![128]⟩
abbrev S16 : Shape := ⟨1, ![16]⟩
abbrev S1x16 : Shape := ⟨2, ![1, 16]⟩
abbrev S1x512 : Shape := ⟨2, ![1, 512]⟩
abbrev S4096x1 : Shape := ⟨2, ![4096, 1]⟩
abbrev S512x3328 : Shape := ⟨2, ![512, 3328]⟩
abbrev S512x32 : Shape := ⟨2, ![512, 32]⟩
abbrev S512x1024 : Shape := ⟨2, ![512, 1024]⟩
abbrev S512x512 : Shape := ⟨2, ![512, 512]⟩

abbrev nBuf : Table → Nat
  | .hbm => 67
  | .local .tc .vmem => 14
  | .local .tc .smem => 1
  | .local .scVector .vmem => 9
  | _ => 0

abbrev bufTy : (tb : Table) → Fin (nBuf tb) → BufTy
  | .hbm, ⟨0, _⟩ => ⟨S4096x26x1, .i32⟩
  | .hbm, ⟨1, _⟩ => ⟨S4096x26, .f32⟩
  | .hbm, ⟨2, _⟩ => ⟨S1, .f32⟩
  | .hbm, ⟨3, _⟩ => ⟨S26x1000x1, .f32⟩
  | .hbm, ⟨4, _⟩ => ⟨S26x1000x128, .f32⟩
  | .hbm, ⟨5, _⟩ => ⟨S3355x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S4096x26, .i32⟩
  | .hbm, ⟨12, _⟩ => ⟨S26, .i32⟩
  | .hbm, ⟨13, _⟩ => ⟨S_, .i32⟩
  | .hbm, ⟨14, _⟩ => ⟨S26, .i32⟩
  | .hbm, ⟨15, _⟩ => ⟨S26, .i32⟩
  | .hbm, ⟨16, _⟩ => ⟨S1x26, .i32⟩
  | .hbm, ⟨17, _⟩ => ⟨S4096x26, .i32⟩
  | .hbm, ⟨18, _⟩ => ⟨S4096x26, .i32⟩
  | .hbm, ⟨19, _⟩ => ⟨S1x32x128x26, .i32⟩
  | .hbm, ⟨20, _⟩ => ⟨S1x32x26x128, .i32⟩
  | .hbm, ⟨21, _⟩ => ⟨S1x106496, .i32⟩
  | .hbm, ⟨22, _⟩ => ⟨S1x32x128x26, .f32⟩
  | .hbm, ⟨23, _⟩ => ⟨S1x32x26x128, .f32⟩
  | .hbm, ⟨24, _⟩ => ⟨S1x106496, .f32⟩
  | .hbm, ⟨25, _⟩ => ⟨S4096x26, .i32⟩
  | .hbm, ⟨26, _⟩ => ⟨S4096x26, .i32⟩
  | .hbm, ⟨27, _⟩ => ⟨S_, .i32⟩
  | .hbm, ⟨28, _⟩ => ⟨S4096x6, .i32⟩
  | .hbm, ⟨29, _⟩ => ⟨S4096x32, .i32⟩
  | .hbm, ⟨30, _⟩ => ⟨S1x131072, .i32⟩
  | .hbm, ⟨31, _⟩ => ⟨S26000x128, .f32⟩
  | .hbm, ⟨32, _⟩ => ⟨S26000, .f32⟩
  | .hbm, ⟨33, _⟩ => ⟨S_, .f32⟩
  | .hbm, ⟨34, _⟩ => ⟨S8, .f32⟩
  | .hbm, ⟨35, _⟩ => ⟨S26008, .f32⟩
  | .hbm, ⟨36, _⟩ => ⟨S_, .f32⟩
  | .hbm, ⟨37, _⟩ => ⟨S4096x6, .f32⟩
  | .hbm, ⟨38, _⟩ => ⟨S4096x32, .f32⟩
  | .hbm, ⟨39, _⟩ => ⟨S26x1024, .f32⟩
  | .hbm, ⟨40, _⟩ => ⟨S_, .f32⟩
  | .hbm, ⟨41, _⟩ => ⟨S6x1024, .f32⟩
  | .hbm, ⟨42, _⟩ => ⟨S32x1024, .f32⟩
  | .hbm, ⟨43, _⟩ => ⟨S32x1024, .bf16⟩
  | .hbm, ⟨44, _⟩ => ⟨S3328x1024, .f32⟩
  | .hbm, ⟨45, _⟩ => ⟨S3328x1024, .bf16⟩
  | .hbm, ⟨46, _⟩ => ⟨S1, .bf16⟩
  | .hbm, ⟨47, _⟩ => ⟨S1, .f32⟩
  | .hbm, ⟨48, _⟩ => ⟨S1x1024, .f32⟩
  | .hbm, ⟨49, _⟩ => ⟨S1x1, .f32⟩
  | .hbm, ⟨50, _⟩ => ⟨S1x1024, .f32⟩
  | .hbm, ⟨51, _⟩ => ⟨S1x1024, .bf16⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1024x512, .bf16⟩
  | .hbm, ⟨57, _⟩ => ⟨S512x1, .bf16⟩
  | .hbm, ⟨58, _⟩ => ⟨S106496, .i32⟩
  | .hbm, ⟨59, _⟩ => ⟨S131072, .i32⟩
  | .hbm, ⟨60, _⟩ => ⟨S106496, .f32⟩
  | .hbm, ⟨61, _⟩ => ⟨S4096x3328, .f32⟩
  | .hbm, ⟨62, _⟩ => ⟨S131072, .f32⟩
  | .hbm, ⟨63, _⟩ => ⟨S4096x32, .f32⟩
  | .hbm, ⟨64, _⟩ => ⟨S1x512, .f32⟩
  | .hbm, ⟨65, _⟩ => ⟨S1x1, .f32⟩
  | .hbm, ⟨66, _⟩ => ⟨S4096x1, .f32⟩
  | .local .tc .vmem, ⟨0, _⟩ => ⟨S512x3328, .f32⟩
  | .local .tc .vmem, ⟨1, _⟩ => ⟨S512x3328, .f32⟩
  | .local .tc .vmem, ⟨2, _⟩ => ⟨S512x32, .f32⟩
  | .local .tc .vmem, ⟨3, _⟩ => ⟨S512x32, .f32⟩
  | .local .tc .vmem, ⟨4, _⟩ => ⟨S512x32, .f32⟩
  | .local .tc .vmem, ⟨5, _⟩ => ⟨S512x32, .f32⟩
  | .local .tc .vmem, ⟨6, _⟩ => ⟨S3328x1024, .bf16⟩
  | .local .tc .vmem, ⟨7, _⟩ => ⟨S32x1024, .bf16⟩
  | .local .tc .vmem, ⟨8, _⟩ => ⟨S1x1024, .f32⟩
  | .local .tc .vmem, ⟨9, _⟩ => ⟨S1024x512, .bf16⟩
  | .local .tc .vmem, ⟨10, _⟩ => ⟨S1x512, .f32⟩
  | .local .tc .vmem, ⟨11, _⟩ => ⟨S512x1, .bf16⟩
  | .local .tc .vmem, ⟨12, _⟩ => ⟨S512x1, .f32⟩
  | .local .tc .vmem, ⟨13, _⟩ => ⟨S512x1, .f32⟩
  | .local .tc .smem, ⟨0, _⟩ => ⟨S1x1, .f32⟩
  | .local .scVector .vmem, ⟨0, _⟩ => ⟨S3328, .i32⟩
  | .local .scVector .vmem, ⟨1, _⟩ => ⟨S4096, .i32⟩
  | .local .scVector .vmem, ⟨2, _⟩ => ⟨S26008, .f32⟩
  | .local .scVector .vmem, ⟨3, _⟩ => ⟨S4096, .f32⟩
  | .local .scVector .vmem, ⟨4, _⟩ => ⟨S3328, .f32⟩
  | .local .scVector .vmem, ⟨5, _⟩ => ⟨S128x128, .f32⟩
  | .local .scVector .vmem, ⟨6, _⟩ => ⟨S128x128, .f32⟩
  | .local .scVector .vmem, ⟨7, _⟩ => ⟨S128x128, .f32⟩
  | .local .scVector .vmem, ⟨8, _⟩ => ⟨S128x128, .f32⟩
  | _, _ => ⟨S4096x26x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_2 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45_0 : Ref sig .tc := ⟨.hbm, 61, rfl⟩
abbrev main_v45_1 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v18_scv : Ref sig .scVector := ⟨.hbm, 31, rfl⟩
abbrev main_v42_scv : Ref sig .scVector := ⟨.hbm, 58, rfl⟩
abbrev main_v43_scv : Ref sig .scVector := ⟨.hbm, 59, rfl⟩
abbrev main_v21_scv : Ref sig .scVector := ⟨.hbm, 35, rfl⟩
abbrev main_v44_scv : Ref sig .scVector := ⟨.hbm, 60, rfl⟩
abbrev main_v45_0_scv : Ref sig .scVector := ⟨.hbm, 61, rfl⟩
abbrev main_v45_1_scv : Ref sig .scVector := ⟨.hbm, 62, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg10_0 : Ref sig .tc := ⟨.vmem, 12, rfl⟩
abbrev cc1_stg10_1 : Ref sig .tc := ⟨.vmem, 13, rfl⟩
abbrev cc1_stg9_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c3328_i32 : BitVec 32 := 3328#32
  let v3 : BitVec 32 := Scalar.muli v1 c3328_i32
  ![v3.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c32_i32 : BitVec 32 := 32#32
  let v8 : BitVec 32 := Scalar.muli v2 c32_i32
  ![v8.toNat]
@[reducible] def k0_t1_loop : Scf.Loop 32 :=
  let c0_i32_6 : BitVec 32 := 0#32
  let c256_i32 : BitVec 32 := 256#32
  let v9 : BitVec 32 := Scalar.addi c0_i32_6 c256_i32
  let c1_i32 : BitVec 32 := 1#32
  ⟨c0_i32_6, v9, c1_i32⟩
def k0_off3 (k0_t1 : Fin k0_t1_loop.trips) : Fin 1 → Nat :=
  let c0_i32_6 : BitVec 32 := 0#32
  let c1_i32 : BitVec 32 := 1#32
  let arg26 : BitVec 32 := Scf.iv c0_i32_6 c1_i32 k0_t1
  let c16_i32 : BitVec 32 := 16#32
  let v241 : BitVec 32 := Scalar.muli arg26 c16_i32
  let v242 : Index := Scalar.indexCast v241
  ![v242.toNat]

def k0_chk1 (v243 : IVec S16 32) : Prop :=
  (∀ a x, ((![v243] : Fin 1 → IVec S16 32) a x).toNat < S26008.size a)
instance k0_chk1.dec : ∀ (v243 : IVec S16 32), Decidable (k0_chk1 v243) := fun v243 => decidable_of_iff' _ (Iff.of_eq (k0_chk1.eq_1 v243))
theorem k0_idx1_inb : ∀ (v243 : IVec S16 32) (k0_hw1 : k0_chk1 v243), ∀ a x, ((![v243] : Fin 1 → IVec S16 32) a x).toNat < S26008.size a := fun v243 k0_hw1 => k0_hw1
def k0_off4 (k0_t1 : Fin k0_t1_loop.trips) : Fin 1 → Nat :=
  let c0_i32_6 : BitVec 32 := 0#32
  let c1_i32 : BitVec 32 := 1#32
  let arg26 : BitVec 32 := Scf.iv c0_i32_6 c1_i32 k0_t1
  let c16_i32_370 : BitVec 32 := 16#32
  let v245 : BitVec 32 := Scalar.muli arg26 c16_i32_370
  let v246 : Index := Scalar.indexCast v245
  ![v246.toNat]
@[reducible] def k0_t2_loop : Scf.Loop 32 :=
  let c0_i32_16 : BitVec 32 := 0#32
  let c128_i32_17 : BitVec 32 := 128#32
  let v15 : BitVec 32 := Scalar.addi c0_i32_16 c128_i32_17
  let c1_i32_18 : BitVec 32 := 1#32
  ⟨c0_i32_16, v15, c1_i32_18⟩

def k0_chk2 (v242 : IVec S16 32) : Prop :=
  (∀ a x, ((![v242] : Fin 1 → IVec S16 32) a x).toNat < S3328.size a)
instance k0_chk2.dec : ∀ (v242 : IVec S16 32), Decidable (k0_chk2 v242) := fun v242 => decidable_of_iff' _ (Iff.of_eq (k0_chk2.eq_1 v242))
theorem k0_idx2_inb : ∀ (v242 : IVec S16 32) (k0_hw2 : k0_chk2 v242), ∀ a x, ((![v242] : Fin 1 → IVec S16 32) a x).toNat < S3328.size a := fun v242 k0_hw2 => k0_hw2
def k0_off5 (k0_t2 : Fin k0_t2_loop.trips) : Fin 2 → Nat :=
  let c0_i32_16 : BitVec 32 := 0#32
  let c1_i32_18 : BitVec 32 := 1#32
  let arg26 : BitVec 32 := Scf.iv c0_i32_16 c1_i32_18 k0_t2
  let v244 : Index := Scalar.indexCast arg26
  let c0 : Index := 0#32
  ![v244.toNat, 0]
def k0_off6 (k0_t2 : Fin k0_t2_loop.trips) : Fin 2 → Nat :=
  let c0_i32_16 : BitVec 32 := 0#32
  let c1_i32_18 : BitVec 32 := 1#32
  let arg26 : BitVec 32 := Scf.iv c0_i32_16 c1_i32_18 k0_t2
  let v249 : Index := Scalar.indexCast arg26
  let c16 : Index := 16#32
  ![v249.toNat, 16]
def k0_off7 (k0_t2 : Fin k0_t2_loop.trips) : Fin 2 → Nat :=
  let c0_i32_16 : BitVec 32 := 0#32
  let c1_i32_18 : BitVec 32 := 1#32
  let arg26 : BitVec 32 := Scf.iv c0_i32_16 c1_i32_18 k0_t2
  let v254 : Index := Scalar.indexCast arg26
  let c32 : Index := 32#32
  ![v254.toNat, 32]
def k0_off8 (k0_t2 : Fin k0_t2_loop.trips) : Fin 2 → Nat :=
  let c0_i32_16 : BitVec 32 := 0#32
  let c1_i32_18 : BitVec 32 := 1#32
  let arg26 : BitVec 32 := Scf.iv c0_i32_16 c1_i32_18 k0_t2
  let v259 : Index := Scalar.indexCast arg26
  let c48 : Index := 48#32
  ![v259.toNat, 48]
def k0_off9 (k0_t2 : Fin k0_t2_loop.trips) : Fin 2 → Nat :=
  let c0_i32_16 : BitVec 32 := 0#32
  let c1_i32_18 : BitVec 32 := 1#32
  let arg26 : BitVec 32 := Scf.iv c0_i32_16 c1_i32_18 k0_t2
  let v264 : Index := Scalar.indexCast arg26
  let c64 : Index := 64#32
  ![v264.toNat, 64]
def k0_off10 (k0_t2 : Fin k0_t2_loop.trips) : Fin 2 → Nat :=
  let c0_i32_16 : BitVec 32 := 0#32
  let c1_i32_18 : BitVec 32 := 1#32
  let arg26 : BitVec 32 := Scf.iv c0_i32_16 c1_i32_18 k0_t2
  let v269 : Index := Scalar.indexCast arg26
  let c80 : Index := 80#32
  ![v269.toNat, 80]
def k0_off11 (k0_t2 : Fin k0_t2_loop.trips) : Fin 2 → Nat :=
  let c0_i32_16 : BitVec 32 := 0#32
  let c1_i32_18 : BitVec 32 := 1#32
  let arg26 : BitVec 32 := Scf.iv c0_i32_16 c1_i32_18 k0_t2
  let v274 : Index := Scalar.indexCast arg26
  let c96 : Index := 96#32
  ![v274.toNat, 96]
def k0_off12 (k0_t2 : Fin k0_t2_loop.trips) : Fin 2 → Nat :=
  let c0_i32_16 : BitVec 32 := 0#32
  let c1_i32_18 : BitVec 32 := 1#32
  let arg26 : BitVec 32 := Scf.iv c0_i32_16 c1_i32_18 k0_t2
  let v279 : Index := Scalar.indexCast arg26
  let c112 : Index := 112#32
  ![v279.toNat, 112]
def k0_off13 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_20 : BitVec 32 := 0#32
  ![v2.toNat, 0]
@[reducible] def k0_t3_loop : Scf.Loop 32 :=
  let c0_i32_28 : BitVec 32 := 0#32
  let c128_i32_29 : BitVec 32 := 128#32
  let v22 : BitVec 32 := Scalar.addi c0_i32_28 c128_i32_29
  let c1_i32_30 : BitVec 32 := 1#32
  ⟨c0_i32_28, v22, c1_i32_30⟩

def k0_chk3 (v242 : IVec S16 32) : Prop :=
  (∀ a x, ((![v242] : Fin 1 → IVec S16 32) a x).toNat < S3328.size a)
instance k0_chk3.dec : ∀ (v242 : IVec S16 32), Decidable (k0_chk3 v242) := fun v242 => decidable_of_iff' _ (Iff.of_eq (k0_chk3.eq_1 v242))
theorem k0_idx3_inb : ∀ (v242 : IVec S16 32) (k0_hw3 : k0_chk3 v242), ∀ a x, ((![v242] : Fin 1 → IVec S16 32) a x).toNat < S3328.size a := fun v242 k0_hw3 => k0_hw3
def k0_off14 (k0_t3 : Fin k0_t3_loop.trips) : Fin 2 → Nat :=
  let c0_i32_28 : BitVec 32 := 0#32
  let c1_i32_30 : BitVec 32 := 1#32
  let arg26 : BitVec 32 := Scf.iv c0_i32_28 c1_i32_30 k0_t3
  let v244 : Index := Scalar.indexCast arg26
  let c0 : Index := 0#32
  ![v244.toNat, 0]
def k0_off15 (k0_t3 : Fin k0_t3_loop.trips) : Fin 2 → Nat :=
  let c0_i32_28 : BitVec 32 := 0#32
  let c1_i32_30 : BitVec 32 := 1#32
  let arg26 : BitVec 32 := Scf.iv c0_i32_28 c1_i32_30 k0_t3
  let v249 : Index := Scalar.indexCast arg26
  let c16 : Index := 16#32
  ![v249.toNat, 16]
def k0_off16 (k0_t3 : Fin k0_t3_loop.trips) : Fin 2 → Nat :=
  let c0_i32_28 : BitVec 32 := 0#32
  let c1_i32_30 : BitVec 32 := 1#32
  let arg26 : BitVec 32 := Scf.iv c0_i32_28 c1_i32_30 k0_t3
  let v254 : Index := Scalar.indexCast arg26
  let c32 : Index := 32#32
  ![v254.toNat, 32]
def k0_off17 (k0_t3 : Fin k0_t3_loop.trips) : Fin 2 → Nat :=
  let c0_i32_28 : BitVec 32 := 0#32
  let c1_i32_30 : BitVec 32 := 1#32
  let arg26 : BitVec 32 := Scf.iv c0_i32_28 c1_i32_30 k0_t3
  let v259 : Index := Scalar.indexCast arg26
  let c48 : Index := 48#32
  ![v259.toNat, 48]
def k0_off18 (k0_t3 : Fin k0_t3_loop.trips) : Fin 2 → Nat :=
  let c0_i32_28 : BitVec 32 := 0#32
  let c1_i32_30 : BitVec 32 := 1#32
  let arg26 : BitVec 32 := Scf.iv c0_i32_28 c1_i32_30 k0_t3
  let v264 : Index := Scalar.indexCast arg26
  let c64 : Index := 64#32
  ![v264.toNat, 64]
def k0_off19 (k0_t3 : Fin k0_t3_loop.trips) : Fin 2 → Nat :=
  let c0_i32_28 : BitVec 32 := 0#32
  let c1_i32_30 : BitVec 32 := 1#32
  let arg26 : BitVec 32 := Scf.iv c0_i32_28 c1_i32_30 k0_t3
  let v269 : Index := Scalar.indexCast arg26
  let c80 : Index := 80#32
  ![v269.toNat, 80]
def k0_off20 (k0_t3 : Fin k0_t3_loop.trips) : Fin 2 → Nat :=
  let c0_i32_28 : BitVec 32 := 0#32
  let c1_i32_30 : BitVec 32 := 1#32
  let arg26 : BitVec 32 := Scf.iv c0_i32_28 c1_i32_30 k0_t3
  let v274 : Index := Scalar.indexCast arg26
  let c96 : Index := 96#32
  ![v274.toNat, 96]
def k0_off21 (k0_t3 : Fin k0_t3_loop.trips) : Fin 2 → Nat :=
  let c0_i32_28 : BitVec 32 := 0#32
  let c1_i32_30 : BitVec 32 := 1#32
  let arg26 : BitVec 32 := Scf.iv c0_i32_28 c1_i32_30 k0_t3
  let v279 : Index := Scalar.indexCast arg26
  let c112 : Index := 112#32
  ![v279.toNat, 112]
def k0_off22 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c128_i32_32 : BitVec 32 := 128#32
  ![v2.toNat, 128]
@[reducible] def k0_t4_loop : Scf.Loop 32 :=
  let c0_i32_42 : BitVec 32 := 0#32
  let c128_i32_43 : BitVec 32 := 128#32
  let v31 : BitVec 32 := Scalar.addi c0_i32_42 c128_i32_43
  let c1_i32_44 : BitVec 32 := 1#32
  ⟨c0_i32_42, v31, c1_i32_44⟩

def k0_chk4 (v242 : IVec S16 32) : Prop :=
  (∀ a x, ((![v242] : Fin 1 → IVec S16 32) a x).toNat < S3328.size a)
instance k0_chk4.dec : ∀ (v242 : IVec S16 32), Decidable (k0_chk4 v242) := fun v242 => decidable_of_iff' _ (Iff.of_eq (k0_chk4.eq_1 v242))
theorem k0_idx4_inb : ∀ (v242 : IVec S16 32) (k0_hw4 : k0_chk4 v242), ∀ a x, ((![v242] : Fin 1 → IVec S16 32) a x).toNat < S3328.size a := fun v242 k0_hw4 => k0_hw4
def k0_off23 (k0_t4 : Fin k0_t4_loop.trips) : Fin 2 → Nat :=
  let c0_i32_42 : BitVec 32 := 0#32
  let c1_i32_44 : BitVec 32 := 1#32
  let arg26 : BitVec 32 := Scf.iv c0_i32_42 c1_i32_44 k0_t4
  let v244 : Index := Scalar.indexCast arg26
  let c0 : Index := 0#32
  ![v244.toNat, 0]
def k0_off24 (k0_t4 : Fin k0_t4_loop.trips) : Fin 2 → Nat :=
  let c0_i32_42 : BitVec 32 := 0#32
  let c1_i32_44 : BitVec 32 := 1#32
  let arg26 : BitVec 32 := Scf.iv c0_i32_42 c1_i32_44 k0_t4
  let v249 : Index := Scalar.indexCast arg26
  let c16 : Index := 16#32
  ![v249.toNat, 16]
def k0_off25 (k0_t4 : Fin k0_t4_loop.trips) : Fin 2 → Nat :=
  let c0_i32_42 : BitVec 32 := 0#32
  let c1_i32_44 : BitVec 32 := 1#32
  let arg26 : BitVec 32 := Scf.iv c0_i32_42 c1_i32_44 k0_t4
  let v254 : Index := Scalar.indexCast arg26
  let c32 : Index := 32#32
  ![v254.toNat, 32]
def k0_off26 (k0_t4 : Fin k0_t4_loop.trips) : Fin 2 → Nat :=
  let c0_i32_42 : BitVec 32 := 0#32
  let c1_i32_44 : BitVec 32 := 1#32
  let arg26 : BitVec 32 := Scf.iv c0_i32_42 c1_i32_44 k0_t4
  let v259 : Index := Scalar.indexCast arg26
  let c48 : Index := 48#32
  ![v259.toNat, 48]
def k0_off27 (k0_t4 : Fin k0_t4_loop.trips) : Fin 2 → Nat :=
  let c0_i32_42 : BitVec 32 := 0#32
  let c1_i32_44 : BitVec 32 := 1#32
  let arg26 : BitVec 32 := Scf.iv c0_i32_42 c1_i32_44 k0_t4
  let v264 : Index := Scalar.indexCast arg26
  let c64 : Index := 64#32
  ![v264.toNat, 64]
def k0_off28 (k0_t4 : Fin k0_t4_loop.trips) : Fin 2 → Nat :=
  let c0_i32_42 : BitVec 32 := 0#32
  let c1_i32_44 : BitVec 32 := 1#32
  let arg26 : BitVec 32 := Scf.iv c0_i32_42 c1_i32_44 k0_t4
  let v269 : Index := Scalar.indexCast arg26
  let c80 : Index := 80#32
  ![v269.toNat, 80]
def k0_off29 (k0_t4 : Fin k0_t4_loop.trips) : Fin 2 → Nat :=
  let c0_i32_42 : BitVec 32 := 0#32
  let c1_i32_44 : BitVec 32 := 1#32
  let arg26 : BitVec 32 := Scf.iv c0_i32_42 c1_i32_44 k0_t4
  let v274 : Index := Scalar.indexCast arg26
  let c96 : Index := 96#32
  ![v274.toNat, 96]
def k0_off30 (k0_t4 : Fin k0_t4_loop.trips) : Fin 2 → Nat :=
  let c0_i32_42 : BitVec 32 := 0#32
  let c1_i32_44 : BitVec 32 := 1#32
  let arg26 : BitVec 32 := Scf.iv c0_i32_42 c1_i32_44 k0_t4
  let v279 : Index := Scalar.indexCast arg26
  let c112 : Index := 112#32
  ![v279.toNat, 112]
def k0_off31 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c256_i32_46 : BitVec 32 := 256#32
  ![v2.toNat, 256]
@[reducible] def k0_t5_loop : Scf.Loop 32 :=
  let c0_i32_56 : BitVec 32 := 0#32
  let c128_i32_57 : BitVec 32 := 128#32
  let v40 : BitVec 32 := Scalar.addi c0_i32_56 c128_i32_57
  let c1_i32_58 : BitVec 32 := 1#32
  ⟨c0_i32_56, v40, c1_i32_58⟩

def k0_chk5 (v242 : IVec S16 32) : Prop :=
  (∀ a x, ((![v242] : Fin 1 → IVec S16 32) a x).toNat < S3328.size a)
instance k0_chk5.dec : ∀ (v242 : IVec S16 32), Decidable (k0_chk5 v242) := fun v242 => decidable_of_iff' _ (Iff.of_eq (k0_chk5.eq_1 v242))
theorem k0_idx5_inb : ∀ (v242 : IVec S16 32) (k0_hw5 : k0_chk5 v242), ∀ a x, ((![v242] : Fin 1 → IVec S16 32) a x).toNat < S3328.size a := fun v242 k0_hw5 => k0_hw5
def k0_off32 (k0_t5 : Fin k0_t5_loop.trips) : Fin 2 → Nat :=
  let c0_i32_56 : BitVec 32 := 0#32
  let c1_i32_58 : BitVec 32 := 1#32
  let arg26 : BitVec 32 := Scf.iv c0_i32_56 c1_i32_58 k0_t5
  let v244 : Index := Scalar.indexCast arg26
  let c0 : Index := 0#32
  ![v244.toNat, 0]
def k0_off33 (k0_t5 : Fin k0_t5_loop.trips) : Fin 2 → Nat :=
  let c0_i32_56 : BitVec 32 := 0#32
  let c1_i32_58 : BitVec 32 := 1#32
  let arg26 : BitVec 32 := Scf.iv c0_i32_56 c1_i32_58 k0_t5
  let v249 : Index := Scalar.indexCast arg26
  let c16 : Index := 16#32
  ![v249.toNat, 16]
def k0_off34 (k0_t5 : Fin k0_t5_loop.trips) : Fin 2 → Nat :=
  let c0_i32_56 : BitVec 32 := 0#32
  let c1_i32_58 : BitVec 32 := 1#32
  let arg26 : BitVec 32 := Scf.iv c0_i32_56 c1_i32_58 k0_t5
  let v254 : Index := Scalar.indexCast arg26
  let c32 : Index := 32#32
  ![v254.toNat, 32]
def k0_off35 (k0_t5 : Fin k0_t5_loop.trips) : Fin 2 → Nat :=
  let c0_i32_56 : BitVec 32 := 0#32
  let c1_i32_58 : BitVec 32 := 1#32
  let arg26 : BitVec 32 := Scf.iv c0_i32_56 c1_i32_58 k0_t5
  let v259 : Index := Scalar.indexCast arg26
  let c48 : Index := 48#32
  ![v259.toNat, 48]
def k0_off36 (k0_t5 : Fin k0_t5_loop.trips) : Fin 2 → Nat :=
  let c0_i32_56 : BitVec 32 := 0#32
  let c1_i32_58 : BitVec 32 := 1#32
  let arg26 : BitVec 32 := Scf.iv c0_i32_56 c1_i32_58 k0_t5
  let v264 : Index := Scalar.indexCast arg26
  let c64 : Index := 64#32
  ![v264.toNat, 64]
def k0_off37 (k0_t5 : Fin k0_t5_loop.trips) : Fin 2 → Nat :=
  let c0_i32_56 : BitVec 32 := 0#32
  let c1_i32_58 : BitVec 32 := 1#32
  let arg26 : BitVec 32 := Scf.iv c0_i32_56 c1_i32_58 k0_t5
  let v269 : Index := Scalar.indexCast arg26
  let c80 : Index := 80#32
  ![v269.toNat, 80]
def k0_off38 (k0_t5 : Fin k0_t5_loop.trips) : Fin 2 → Nat :=
  let c0_i32_56 : BitVec 32 := 0#32
  let c1_i32_58 : BitVec 32 := 1#32
  let arg26 : BitVec 32 := Scf.iv c0_i32_56 c1_i32_58 k0_t5
  let v274 : Index := Scalar.indexCast arg26
  let c96 : Index := 96#32
  ![v274.toNat, 96]
def k0_off39 (k0_t5 : Fin k0_t5_loop.trips) : Fin 2 → Nat :=
  let c0_i32_56 : BitVec 32 := 0#32
  let c1_i32_58 : BitVec 32 := 1#32
  let arg26 : BitVec 32 := Scf.iv c0_i32_56 c1_i32_58 k0_t5
  let v279 : Index := Scalar.indexCast arg26
  let c112 : Index := 112#32
  ![v279.toNat, 112]
def k0_off40 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c384_i32_60 : BitVec 32 := 384#32
  ![v2.toNat, 384]
@[reducible] def k0_t6_loop : Scf.Loop 32 :=
  let c0_i32_70 : BitVec 32 := 0#32
  let c128_i32_71 : BitVec 32 := 128#32
  let v49 : BitVec 32 := Scalar.addi c0_i32_70 c128_i32_71
  let c1_i32_72 : BitVec 32 := 1#32
  ⟨c0_i32_70, v49, c1_i32_72⟩

def k0_chk6 (v242 : IVec S16 32) : Prop :=
  (∀ a x, ((![v242] : Fin 1 → IVec S16 32) a x).toNat < S3328.size a)
instance k0_chk6.dec : ∀ (v242 : IVec S16 32), Decidable (k0_chk6 v242) := fun v242 => decidable_of_iff' _ (Iff.of_eq (k0_chk6.eq_1 v242))
theorem k0_idx6_inb : ∀ (v242 : IVec S16 32) (k0_hw6 : k0_chk6 v242), ∀ a x, ((![v242] : Fin 1 → IVec S16 32) a x).toNat < S3328.size a := fun v242 k0_hw6 => k0_hw6
def k0_off41 (k0_t6 : Fin k0_t6_loop.trips) : Fin 2 → Nat :=
  let c0_i32_70 : BitVec 32 := 0#32
  let c1_i32_72 : BitVec 32 := 1#32
  let arg26 : BitVec 32 := Scf.iv c0_i32_70 c1_i32_72 k0_t6
  let v244 : Index := Scalar.indexCast arg26
  let c0 : Index := 0#32
  ![v244.toNat, 0]
def k0_off42 (k0_t6 : Fin k0_t6_loop.trips) : Fin 2 → Nat :=
  let c0_i32_70 : BitVec 32 := 0#32
  let c1_i32_72 : BitVec 32 := 1#32
  let arg26 : BitVec 32 := Scf.iv c0_i32_70 c1_i32_72 k0_t6
  let v249 : Index := Scalar.indexCast arg26
  let c16 : Index := 16#32
  ![v249.toNat, 16]
def k0_off43 (k0_t6 : Fin k0_t6_loop.trips) : Fin 2 → Nat :=
  let c0_i32_70 : BitVec 32 := 0#32
  let c1_i32_72 : BitVec 32 := 1#32
  let arg26 : BitVec 32 := Scf.iv c0_i32_70 c1_i32_72 k0_t6
  let v254 : Index := Scalar.indexCast arg26
  let c32 : Index := 32#32
  ![v254.toNat, 32]
def k0_off44 (k0_t6 : Fin k0_t6_loop.trips) : Fin 2 → Nat :=
  let c0_i32_70 : BitVec 32 := 0#32
  let c1_i32_72 : BitVec 32 := 1#32
  let arg26 : BitVec 32 := Scf.iv c0_i32_70 c1_i32_72 k0_t6
  let v259 : Index := Scalar.indexCast arg26
  let c48 : Index := 48#32
  ![v259.toNat, 48]
def k0_off45 (k0_t6 : Fin k0_t6_loop.trips) : Fin 2 → Nat :=
  let c0_i32_70 : BitVec 32 := 0#32
  let c1_i32_72 : BitVec 32 := 1#32
  let arg26 : BitVec 32 := Scf.iv c0_i32_70 c1_i32_72 k0_t6
  let v264 : Index := Scalar.indexCast arg26
  let c64 : Index := 64#32
  ![v264.toNat, 64]
def k0_off46 (k0_t6 : Fin k0_t6_loop.trips) : Fin 2 → Nat :=
  let c0_i32_70 : BitVec 32 := 0#32
  let c1_i32_72 : BitVec 32 := 1#32
  let arg26 : BitVec 32 := Scf.iv c0_i32_70 c1_i32_72 k0_t6
  let v269 : Index := Scalar.indexCast arg26
  let c80 : Index := 80#32
  ![v269.toNat, 80]
def k0_off47 (k0_t6 : Fin k0_t6_loop.trips) : Fin 2 → Nat :=
  let c0_i32_70 : BitVec 32 := 0#32
  let c1_i32_72 : BitVec 32 := 1#32
  let arg26 : BitVec 32 := Scf.iv c0_i32_70 c1_i32_72 k0_t6
  let v274 : Index := Scalar.indexCast arg26
  let c96 : Index := 96#32
  ![v274.toNat, 96]
def k0_off48 (k0_t6 : Fin k0_t6_loop.trips) : Fin 2 → Nat :=
  let c0_i32_70 : BitVec 32 := 0#32
  let c1_i32_72 : BitVec 32 := 1#32
  let arg26 : BitVec 32 := Scf.iv c0_i32_70 c1_i32_72 k0_t6
  let v279 : Index := Scalar.indexCast arg26
  let c112 : Index := 112#32
  ![v279.toNat, 112]
def k0_off49 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c512_i32_74 : BitVec 32 := 512#32
  ![v2.toNat, 512]
@[reducible] def k0_t7_loop : Scf.Loop 32 :=
  let c0_i32_84 : BitVec 32 := 0#32
  let c128_i32_85 : BitVec 32 := 128#32
  let v58 : BitVec 32 := Scalar.addi c0_i32_84 c128_i32_85
  let c1_i32_86 : BitVec 32 := 1#32
  ⟨c0_i32_84, v58, c1_i32_86⟩

def k0_chk7 (v242 : IVec S16 32) : Prop :=
  (∀ a x, ((![v242] : Fin 1 → IVec S16 32) a x).toNat < S3328.size a)
instance k0_chk7.dec : ∀ (v242 : IVec S16 32), Decidable (k0_chk7 v242) := fun v242 => decidable_of_iff' _ (Iff.of_eq (k0_chk7.eq_1 v242))
theorem k0_idx7_inb : ∀ (v242 : IVec S16 32) (k0_hw7 : k0_chk7 v242), ∀ a x, ((![v242] : Fin 1 → IVec S16 32) a x).toNat < S3328.size a := fun v242 k0_hw7 => k0_hw7
def k0_off50 (k0_t7 : Fin k0_t7_loop.trips) : Fin 2 → Nat :=
  let c0_i32_84 : BitVec 32 := 0#32
  let c1_i32_86 : BitVec 32 := 1#32
  let arg26 : BitVec 32 := Scf.iv c0_i32_84 c1_i32_86 k0_t7
  let v244 : Index := Scalar.indexCast arg26
  let c0 : Index := 0#32
  ![v244.toNat, 0]
def k0_off51 (k0_t7 : Fin k0_t7_loop.trips) : Fin 2 → Nat :=
  let c0_i32_84 : BitVec 32 := 0#32
  let c1_i32_86 : BitVec 32 := 1#32
  let arg26 : BitVec 32 := Scf.iv c0_i32_84 c1_i32_86 k0_t7
  let v249 : Index := Scalar.indexCast arg26
  let c16 : Index := 16#32
  ![v249.toNat, 16]
def k0_off52 (k0_t7 : Fin k0_t7_loop.trips) : Fin 2 → Nat :=
  let c0_i32_84 : BitVec 32 := 0#32
  let c1_i32_86 : BitVec 32 := 1#32
  let arg26 : BitVec 32 := Scf.iv c0_i32_84 c1_i32_86 k0_t7
  let v254 : Index := Scalar.indexCast arg26
  let c32 : Index := 32#32
  ![v254.toNat, 32]
def k0_off53 (k0_t7 : Fin k0_t7_loop.trips) : Fin 2 → Nat :=
  let c0_i32_84 : BitVec 32 := 0#32
  let c1_i32_86 : BitVec 32 := 1#32
  let arg26 : BitVec 32 := Scf.iv c0_i32_84 c1_i32_86 k0_t7
  let v259 : Index := Scalar.indexCast arg26
  let c48 : Index := 48#32
  ![v259.toNat, 48]
def k0_off54 (k0_t7 : Fin k0_t7_loop.trips) : Fin 2 → Nat :=
  let c0_i32_84 : BitVec 32 := 0#32
  let c1_i32_86 : BitVec 32 := 1#32
  let arg26 : BitVec 32 := Scf.iv c0_i32_84 c1_i32_86 k0_t7
  let v264 : Index := Scalar.indexCast arg26
  let c64 : Index := 64#32
  ![v264.toNat, 64]
def k0_off55 (k0_t7 : Fin k0_t7_loop.trips) : Fin 2 → Nat :=
  let c0_i32_84 : BitVec 32 := 0#32
  let c1_i32_86 : BitVec 32 := 1#32
  let arg26 : BitVec 32 := Scf.iv c0_i32_84 c1_i32_86 k0_t7
  let v269 : Index := Scalar.indexCast arg26
  let c80 : Index := 80#32
  ![v269.toNat, 80]
def k0_off56 (k0_t7 : Fin k0_t7_loop.trips) : Fin 2 → Nat :=
  let c0_i32_84 : BitVec 32 := 0#32
  let c1_i32_86 : BitVec 32 := 1#32
  let arg26 : BitVec 32 := Scf.iv c0_i32_84 c1_i32_86 k0_t7
  let v274 : Index := Scalar.indexCast arg26
  let c96 : Index := 96#32
  ![v274.toNat, 96]
def k0_off57 (k0_t7 : Fin k0_t7_loop.trips) : Fin 2 → Nat :=
  let c0_i32_84 : BitVec 32 := 0#32
  let c1_i32_86 : BitVec 32 := 1#32
  let arg26 : BitVec 32 := Scf.iv c0_i32_84 c1_i32_86 k0_t7
  let v279 : Index := Scalar.indexCast arg26
  let c112 : Index := 112#32
  ![v279.toNat, 112]
def k0_off58 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c640_i32_88 : BitVec 32 := 640#32
  ![v2.toNat, 640]
@[reducible] def k0_t8_loop : Scf.Loop 32 :=
  let c0_i32_98 : BitVec 32 := 0#32
  let c128_i32_99 : BitVec 32 := 128#32
  let v67 : BitVec 32 := Scalar.addi c0_i32_98 c128_i32_99
  let c1_i32_100 : BitVec 32 := 1#32
  ⟨c0_i32_98, v67, c1_i32_100⟩

def k0_chk8 (v242 : IVec S16 32) : Prop :=
  (∀ a x, ((![v242] : Fin 1 → IVec S16 32) a x).toNat < S3328.size a)
instance k0_chk8.dec : ∀ (v242 : IVec S16 32), Decidable (k0_chk8 v242) := fun v242 => decidable_of_iff' _ (Iff.of_eq (k0_chk8.eq_1 v242))
theorem k0_idx8_inb : ∀ (v242 : IVec S16 32) (k0_hw8 : k0_chk8 v242), ∀ a x, ((![v242] : Fin 1 → IVec S16 32) a x).toNat < S3328.size a := fun v242 k0_hw8 => k0_hw8
def k0_off59 (k0_t8 : Fin k0_t8_loop.trips) : Fin 2 → Nat :=
  let c0_i32_98 : BitVec 32 := 0#32
  let c1_i32_100 : BitVec 32 := 1#32
  let arg26 : BitVec 32 := Scf.iv c0_i32_98 c1_i32_100 k0_t8
  let v244 : Index := Scalar.indexCast arg26
  let c0 : Index := 0#32
  ![v244.toNat, 0]
def k0_off60 (k0_t8 : Fin k0_t8_loop.trips) : Fin 2 → Nat :=
  let c0_i32_98 : BitVec 32 := 0#32
  let c1_i32_100 : BitVec 32 := 1#32
  let arg26 : BitVec 32 := Scf.iv c0_i32_98 c1_i32_100 k0_t8
  let v249 : Index := Scalar.indexCast arg26
  let c16 : Index := 16#32
  ![v249.toNat, 16]
def k0_off61 (k0_t8 : Fin k0_t8_loop.trips) : Fin 2 → Nat :=
  let c0_i32_98 : BitVec 32 := 0#32
  let c1_i32_100 : BitVec 32 := 1#32
  let arg26 : BitVec 32 := Scf.iv c0_i32_98 c1_i32_100 k0_t8
  let v254 : Index := Scalar.indexCast arg26
  let c32 : Index := 32#32
  ![v254.toNat, 32]
def k0_off62 (k0_t8 : Fin k0_t8_loop.trips) : Fin 2 → Nat :=
  let c0_i32_98 : BitVec 32 := 0#32
  let c1_i32_100 : BitVec 32 := 1#32
  let arg26 : BitVec 32 := Scf.iv c0_i32_98 c1_i32_100 k0_t8
  let v259 : Index := Scalar.indexCast arg26
  let c48 : Index := 48#32
  ![v259.toNat, 48]
def k0_off63 (k0_t8 : Fin k0_t8_loop.trips) : Fin 2 → Nat :=
  let c0_i32_98 : BitVec 32 := 0#32
  let c1_i32_100 : BitVec 32 := 1#32
  let arg26 : BitVec 32 := Scf.iv c0_i32_98 c1_i32_100 k0_t8
  let v264 : Index := Scalar.indexCast arg26
  let c64 : Index := 64#32
  ![v264.toNat, 64]
def k0_off64 (k0_t8 : Fin k0_t8_loop.trips) : Fin 2 → Nat :=
  let c0_i32_98 : BitVec 32 := 0#32
  let c1_i32_100 : BitVec 32 := 1#32
  let arg26 : BitVec 32 := Scf.iv c0_i32_98 c1_i32_100 k0_t8
  let v269 : Index := Scalar.indexCast arg26
  let c80 : Index := 80#32
  ![v269.toNat, 80]
def k0_off65 (k0_t8 : Fin k0_t8_loop.trips) : Fin 2 → Nat :=
  let c0_i32_98 : BitVec 32 := 0#32
  let c1_i32_100 : BitVec 32 := 1#32
  let arg26 : BitVec 32 := Scf.iv c0_i32_98 c1_i32_100 k0_t8
  let v274 : Index := Scalar.indexCast arg26
  let c96 : Index := 96#32
  ![v274.toNat, 96]
def k0_off66 (k0_t8 : Fin k0_t8_loop.trips) : Fin 2 → Nat :=
  let c0_i32_98 : BitVec 32 := 0#32
  let c1_i32_100 : BitVec 32 := 1#32
  let arg26 : BitVec 32 := Scf.iv c0_i32_98 c1_i32_100 k0_t8
  let v279 : Index := Scalar.indexCast arg26
  let c112 : Index := 112#32
  ![v279.toNat, 112]
def k0_off67 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c768_i32_102 : BitVec 32 := 768#32
  ![v2.toNat, 768]
@[reducible] def k0_t9_loop : Scf.Loop 32 :=
  let c0_i32_112 : BitVec 32 := 0#32
  let c128_i32_113 : BitVec 32 := 128#32
  let v76 : BitVec 32 := Scalar.addi c0_i32_112 c128_i32_113
  let c1_i32_114 : BitVec 32 := 1#32
  ⟨c0_i32_112, v76, c1_i32_114⟩

def k0_chk9 (v242 : IVec S16 32) : Prop :=
  (∀ a x, ((![v242] : Fin 1 → IVec S16 32) a x).toNat < S3328.size a)
instance k0_chk9.dec : ∀ (v242 : IVec S16 32), Decidable (k0_chk9 v242) := fun v242 => decidable_of_iff' _ (Iff.of_eq (k0_chk9.eq_1 v242))
theorem k0_idx9_inb : ∀ (v242 : IVec S16 32) (k0_hw9 : k0_chk9 v242), ∀ a x, ((![v242] : Fin 1 → IVec S16 32) a x).toNat < S3328.size a := fun v242 k0_hw9 => k0_hw9
def k0_off68 (k0_t9 : Fin k0_t9_loop.trips) : Fin 2 → Nat :=
  let c0_i32_112 : BitVec 32 := 0#32
  let c1_i32_114 : BitVec 32 := 1#32
  let arg26 : BitVec 32 := Scf.iv c0_i32_112 c1_i32_114 k0_t9
  let v244 : Index := Scalar.indexCast arg26
  let c0 : Index := 0#32
  ![v244.toNat, 0]
def k0_off69 (k0_t9 : Fin k0_t9_loop.trips) : Fin 2 → Nat :=
  let c0_i32_112 : BitVec 32 := 0#32
  let c1_i32_114 : BitVec 32 := 1#32
  let arg26 : BitVec 32 := Scf.iv c0_i32_112 c1_i32_114 k0_t9
  let v249 : Index := Scalar.indexCast arg26
  let c16 : Index := 16#32
  ![v249.toNat, 16]
def k0_off70 (k0_t9 : Fin k0_t9_loop.trips) : Fin 2 → Nat :=
  let c0_i32_112 : BitVec 32 := 0#32
  let c1_i32_114 : BitVec 32 := 1#32
  let arg26 : BitVec 32 := Scf.iv c0_i32_112 c1_i32_114 k0_t9
  let v254 : Index := Scalar.indexCast arg26
  let c32 : Index := 32#32
  ![v254.toNat, 32]
def k0_off71 (k0_t9 : Fin k0_t9_loop.trips) : Fin 2 → Nat :=
  let c0_i32_112 : BitVec 32 := 0#32
  let c1_i32_114 : BitVec 32 := 1#32
  let arg26 : BitVec 32 := Scf.iv c0_i32_112 c1_i32_114 k0_t9
  let v259 : Index := Scalar.indexCast arg26
  let c48 : Index := 48#32
  ![v259.toNat, 48]
def k0_off72 (k0_t9 : Fin k0_t9_loop.trips) : Fin 2 → Nat :=
  let c0_i32_112 : BitVec 32 := 0#32
  let c1_i32_114 : BitVec 32 := 1#32
  let arg26 : BitVec 32 := Scf.iv c0_i32_112 c1_i32_114 k0_t9
  let v264 : Index := Scalar.indexCast arg26
  let c64 : Index := 64#32
  ![v264.toNat, 64]
def k0_off73 (k0_t9 : Fin k0_t9_loop.trips) : Fin 2 → Nat :=
  let c0_i32_112 : BitVec 32 := 0#32
  let c1_i32_114 : BitVec 32 := 1#32
  let arg26 : BitVec 32 := Scf.iv c0_i32_112 c1_i32_114 k0_t9
  let v269 : Index := Scalar.indexCast arg26
  let c80 : Index := 80#32
  ![v269.toNat, 80]
def k0_off74 (k0_t9 : Fin k0_t9_loop.trips) : Fin 2 → Nat :=
  let c0_i32_112 : BitVec 32 := 0#32
  let c1_i32_114 : BitVec 32 := 1#32
  let arg26 : BitVec 32 := Scf.iv c0_i32_112 c1_i32_114 k0_t9
  let v274 : Index := Scalar.indexCast arg26
  let c96 : Index := 96#32
  ![v274.toNat, 96]
def k0_off75 (k0_t9 : Fin k0_t9_loop.trips) : Fin 2 → Nat :=
  let c0_i32_112 : BitVec 32 := 0#32
  let c1_i32_114 : BitVec 32 := 1#32
  let arg26 : BitVec 32 := Scf.iv c0_i32_112 c1_i32_114 k0_t9
  let v279 : Index := Scalar.indexCast arg26
  let c112 : Index := 112#32
  ![v279.toNat, 112]
def k0_off76 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c896_i32_116 : BitVec 32 := 896#32
  ![v2.toNat, 896]
@[reducible] def k0_t10_loop : Scf.Loop 32 :=
  let c0_i32_126 : BitVec 32 := 0#32
  let c128_i32_127 : BitVec 32 := 128#32
  let v85 : BitVec 32 := Scalar.addi c0_i32_126 c128_i32_127
  let c1_i32_128 : BitVec 32 := 1#32
  ⟨c0_i32_126, v85, c1_i32_128⟩

def k0_chk10 (v242 : IVec S16 32) : Prop :=
  (∀ a x, ((![v242] : Fin 1 → IVec S16 32) a x).toNat < S3328.size a)
instance k0_chk10.dec : ∀ (v242 : IVec S16 32), Decidable (k0_chk10 v242) := fun v242 => decidable_of_iff' _ (Iff.of_eq (k0_chk10.eq_1 v242))
theorem k0_idx10_inb : ∀ (v242 : IVec S16 32) (k0_hw10 : k0_chk10 v242), ∀ a x, ((![v242] : Fin 1 → IVec S16 32) a x).toNat < S3328.size a := fun v242 k0_hw10 => k0_hw10
def k0_off77 (k0_t10 : Fin k0_t10_loop.trips) : Fin 2 → Nat :=
  let c0_i32_126 : BitVec 32 := 0#32
  let c1_i32_128 : BitVec 32 := 1#32
  let arg26 : BitVec 32 := Scf.iv c0_i32_126 c1_i32_128 k0_t10
  let v244 : Index := Scalar.indexCast arg26
  let c0 : Index := 0#32
  ![v244.toNat, 0]
def k0_off78 (k0_t10 : Fin k0_t10_loop.trips) : Fin 2 → Nat :=
  let c0_i32_126 : BitVec 32 := 0#32
  let c1_i32_128 : BitVec 32 := 1#32
  let arg26 : BitVec 32 := Scf.iv c0_i32_126 c1_i32_128 k0_t10
  let v249 : Index := Scalar.indexCast arg26
  let c16 : Index := 16#32
  ![v249.toNat, 16]
def k0_off79 (k0_t10 : Fin k0_t10_loop.trips) : Fin 2 → Nat :=
  let c0_i32_126 : BitVec 32 := 0#32
  let c1_i32_128 : BitVec 32 := 1#32
  let arg26 : BitVec 32 := Scf.iv c0_i32_126 c1_i32_128 k0_t10
  let v254 : Index := Scalar.indexCast arg26
  let c32 : Index := 32#32
  ![v254.toNat, 32]
def k0_off80 (k0_t10 : Fin k0_t10_loop.trips) : Fin 2 → Nat :=
  let c0_i32_126 : BitVec 32 := 0#32
  let c1_i32_128 : BitVec 32 := 1#32
  let arg26 : BitVec 32 := Scf.iv c0_i32_126 c1_i32_128 k0_t10
  let v259 : Index := Scalar.indexCast arg26
  let c48 : Index := 48#32
  ![v259.toNat, 48]
def k0_off81 (k0_t10 : Fin k0_t10_loop.trips) : Fin 2 → Nat :=
  let c0_i32_126 : BitVec 32 := 0#32
  let c1_i32_128 : BitVec 32 := 1#32
  let arg26 : BitVec 32 := Scf.iv c0_i32_126 c1_i32_128 k0_t10
  let v264 : Index := Scalar.indexCast arg26
  let c64 : Index := 64#32
  ![v264.toNat, 64]
def k0_off82 (k0_t10 : Fin k0_t10_loop.trips) : Fin 2 → Nat :=
  let c0_i32_126 : BitVec 32 := 0#32
  let c1_i32_128 : BitVec 32 := 1#32
  let arg26 : BitVec 32 := Scf.iv c0_i32_126 c1_i32_128 k0_t10
  let v269 : Index := Scalar.indexCast arg26
  let c80 : Index := 80#32
  ![v269.toNat, 80]
def k0_off83 (k0_t10 : Fin k0_t10_loop.trips) : Fin 2 → Nat :=
  let c0_i32_126 : BitVec 32 := 0#32
  let c1_i32_128 : BitVec 32 := 1#32
  let arg26 : BitVec 32 := Scf.iv c0_i32_126 c1_i32_128 k0_t10
  let v274 : Index := Scalar.indexCast arg26
  let c96 : Index := 96#32
  ![v274.toNat, 96]
def k0_off84 (k0_t10 : Fin k0_t10_loop.trips) : Fin 2 → Nat :=
  let c0_i32_126 : BitVec 32 := 0#32
  let c1_i32_128 : BitVec 32 := 1#32
  let arg26 : BitVec 32 := Scf.iv c0_i32_126 c1_i32_128 k0_t10
  let v279 : Index := Scalar.indexCast arg26
  let c112 : Index := 112#32
  ![v279.toNat, 112]
def k0_off85 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1024_i32_130 : BitVec 32 := 1024#32
  ![v2.toNat, 1024]
@[reducible] def k0_t11_loop : Scf.Loop 32 :=
  let c0_i32_140 : BitVec 32 := 0#32
  let c128_i32_141 : BitVec 32 := 128#32
  let v94 : BitVec 32 := Scalar.addi c0_i32_140 c128_i32_141
  let c1_i32_142 : BitVec 32 := 1#32
  ⟨c0_i32_140, v94, c1_i32_142⟩

def k0_chk11 (v242 : IVec S16 32) : Prop :=
  (∀ a x, ((![v242] : Fin 1 → IVec S16 32) a x).toNat < S3328.size a)
instance k0_chk11.dec : ∀ (v242 : IVec S16 32), Decidable (k0_chk11 v242) := fun v242 => decidable_of_iff' _ (Iff.of_eq (k0_chk11.eq_1 v242))
theorem k0_idx11_inb : ∀ (v242 : IVec S16 32) (k0_hw11 : k0_chk11 v242), ∀ a x, ((![v242] : Fin 1 → IVec S16 32) a x).toNat < S3328.size a := fun v242 k0_hw11 => k0_hw11
def k0_off86 (k0_t11 : Fin k0_t11_loop.trips) : Fin 2 → Nat :=
  let c0_i32_140 : BitVec 32 := 0#32
  let c1_i32_142 : BitVec 32 := 1#32
  let arg26 : BitVec 32 := Scf.iv c0_i32_140 c1_i32_142 k0_t11
  let v244 : Index := Scalar.indexCast arg26
  let c0 : Index := 0#32
  ![v244.toNat, 0]
def k0_off87 (k0_t11 : Fin k0_t11_loop.trips) : Fin 2 → Nat :=
  let c0_i32_140 : BitVec 32 := 0#32
  let c1_i32_142 : BitVec 32 := 1#32
  let arg26 : BitVec 32 := Scf.iv c0_i32_140 c1_i32_142 k0_t11
  let v249 : Index := Scalar.indexCast arg26
  let c16 : Index := 16#32
  ![v249.toNat, 16]
def k0_off88 (k0_t11 : Fin k0_t11_loop.trips) : Fin 2 → Nat :=
  let c0_i32_140 : BitVec 32 := 0#32
  let c1_i32_142 : BitVec 32 := 1#32
  let arg26 : BitVec 32 := Scf.iv c0_i32_140 c1_i32_142 k0_t11
  let v254 : Index := Scalar.indexCast arg26
  let c32 : Index := 32#32
  ![v254.toNat, 32]
def k0_off89 (k0_t11 : Fin k0_t11_loop.trips) : Fin 2 → Nat :=
  let c0_i32_140 : BitVec 32 := 0#32
  let c1_i32_142 : BitVec 32 := 1#32
  let arg26 : BitVec 32 := Scf.iv c0_i32_140 c1_i32_142 k0_t11
  let v259 : Index := Scalar.indexCast arg26
  let c48 : Index := 48#32
  ![v259.toNat, 48]
def k0_off90 (k0_t11 : Fin k0_t11_loop.trips) : Fin 2 → Nat :=
  let c0_i32_140 : BitVec 32 := 0#32
  let c1_i32_142 : BitVec 32 := 1#32
  let arg26 : BitVec 32 := Scf.iv c0_i32_140 c1_i32_142 k0_t11
  let v264 : Index := Scalar.indexCast arg26
  let c64 : Index := 64#32
  ![v264.toNat, 64]
def k0_off91 (k0_t11 : Fin k0_t11_loop.trips) : Fin 2 → Nat :=
  let c0_i32_140 : BitVec 32 := 0#32
  let c1_i32_142 : BitVec 32 := 1#32
  let arg26 : BitVec 32 := Scf.iv c0_i32_140 c1_i32_142 k0_t11
  let v269 : Index := Scalar.indexCast arg26
  let c80 : Index := 80#32
  ![v269.toNat, 80]
def k0_off92 (k0_t11 : Fin k0_t11_loop.trips) : Fin 2 → Nat :=
  let c0_i32_140 : BitVec 32 := 0#32
  let c1_i32_142 : BitVec 32 := 1#32
  let arg26 : BitVec 32 := Scf.iv c0_i32_140 c1_i32_142 k0_t11
  let v274 : Index := Scalar.indexCast arg26
  let c96 : Index := 96#32
  ![v274.toNat, 96]
def k0_off93 (k0_t11 : Fin k0_t11_loop.trips) : Fin 2 → Nat :=
  let c0_i32_140 : BitVec 32 := 0#32
  let c1_i32_142 : BitVec 32 := 1#32
  let arg26 : BitVec 32 := Scf.iv c0_i32_140 c1_i32_142 k0_t11
  let v279 : Index := Scalar.indexCast arg26
  let c112 : Index := 112#32
  ![v279.toNat, 112]
def k0_off94 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1152_i32_144 : BitVec 32 := 1152#32
  ![v2.toNat, 1152]
@[reducible] def k0_t12_loop : Scf.Loop 32 :=
  let c0_i32_154 : BitVec 32 := 0#32
  let c128_i32_155 : BitVec 32 := 128#32
  let v103 : BitVec 32 := Scalar.addi c0_i32_154 c128_i32_155
  let c1_i32_156 : BitVec 32 := 1#32
  ⟨c0_i32_154, v103, c1_i32_156⟩

def k0_chk12 (v242 : IVec S16 32) : Prop :=
  (∀ a x, ((![v242] : Fin 1 → IVec S16 32) a x).toNat < S3328.size a)
instance k0_chk12.dec : ∀ (v242 : IVec S16 32), Decidable (k0_chk12 v242) := fun v242 => decidable_of_iff' _ (Iff.of_eq (k0_chk12.eq_1 v242))
theorem k0_idx12_inb : ∀ (v242 : IVec S16 32) (k0_hw12 : k0_chk12 v242), ∀ a x, ((![v242] : Fin 1 → IVec S16 32) a x).toNat < S3328.size a := fun v242 k0_hw12 => k0_hw12
def k0_off95 (k0_t12 : Fin k0_t12_loop.trips) : Fin 2 → Nat :=
  let c0_i32_154 : BitVec 32 := 0#32
  let c1_i32_156 : BitVec 32 := 1#32
  let arg26 : BitVec 32 := Scf.iv c0_i32_154 c1_i32_156 k0_t12
  let v244 : Index := Scalar.indexCast arg26
  let c0 : Index := 0#32
  ![v244.toNat, 0]
def k0_off96 (k0_t12 : Fin k0_t12_loop.trips) : Fin 2 → Nat :=
  let c0_i32_154 : BitVec 32 := 0#32
  let c1_i32_156 : BitVec 32 := 1#32
  let arg26 : BitVec 32 := Scf.iv c0_i32_154 c1_i32_156 k0_t12
  let v249 : Index := Scalar.indexCast arg26
  let c16 : Index := 16#32
  ![v249.toNat, 16]
def k0_off97 (k0_t12 : Fin k0_t12_loop.trips) : Fin 2 → Nat :=
  let c0_i32_154 : BitVec 32 := 0#32
  let c1_i32_156 : BitVec 32 := 1#32
  let arg26 : BitVec 32 := Scf.iv c0_i32_154 c1_i32_156 k0_t12
  let v254 : Index := Scalar.indexCast arg26
  let c32 : Index := 32#32
  ![v254.toNat, 32]
def k0_off98 (k0_t12 : Fin k0_t12_loop.trips) : Fin 2 → Nat :=
  let c0_i32_154 : BitVec 32 := 0#32
  let c1_i32_156 : BitVec 32 := 1#32
  let arg26 : BitVec 32 := Scf.iv c0_i32_154 c1_i32_156 k0_t12
  let v259 : Index := Scalar.indexCast arg26
  let c48 : Index := 48#32
  ![v259.toNat, 48]
def k0_off99 (k0_t12 : Fin k0_t12_loop.trips) : Fin 2 → Nat :=
  let c0_i32_154 : BitVec 32 := 0#32
  let c1_i32_156 : BitVec 32 := 1#32
  let arg26 : BitVec 32 := Scf.iv c0_i32_154 c1_i32_156 k0_t12
  let v264 : Index := Scalar.indexCast arg26
  let c64 : Index := 64#32
  ![v264.toNat, 64]
def k0_off100 (k0_t12 : Fin k0_t12_loop.trips) : Fin 2 → Nat :=
  let c0_i32_154 : BitVec 32 := 0#32
  let c1_i32_156 : BitVec 32 := 1#32
  let arg26 : BitVec 32 := Scf.iv c0_i32_154 c1_i32_156 k0_t12
  let v269 : Index := Scalar.indexCast arg26
  let c80 : Index := 80#32
  ![v269.toNat, 80]
def k0_off101 (k0_t12 : Fin k0_t12_loop.trips) : Fin 2 → Nat :=
  let c0_i32_154 : BitVec 32 := 0#32
  let c1_i32_156 : BitVec 32 := 1#32
  let arg26 : BitVec 32 := Scf.iv c0_i32_154 c1_i32_156 k0_t12
  let v274 : Index := Scalar.indexCast arg26
  let c96 : Index := 96#32
  ![v274.toNat, 96]
def k0_off102 (k0_t12 : Fin k0_t12_loop.trips) : Fin 2 → Nat :=
  let c0_i32_154 : BitVec 32 := 0#32
  let c1_i32_156 : BitVec 32 := 1#32
  let arg26 : BitVec 32 := Scf.iv c0_i32_154 c1_i32_156 k0_t12
  let v279 : Index := Scalar.indexCast arg26
  let c112 : Index := 112#32
  ![v279.toNat, 112]
def k0_off103 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1280_i32_158 : BitVec 32 := 1280#32
  ![v2.toNat, 1280]
@[reducible] def k0_t13_loop : Scf.Loop 32 :=
  let c0_i32_168 : BitVec 32 := 0#32
  let c128_i32_169 : BitVec 32 := 128#32
  let v112 : BitVec 32 := Scalar.addi c0_i32_168 c128_i32_169
  let c1_i32_170 : BitVec 32 := 1#32
  ⟨c0_i32_168, v112, c1_i32_170⟩

def k0_chk13 (v242 : IVec S16 32) : Prop :=
  (∀ a x, ((![v242] : Fin 1 → IVec S16 32) a x).toNat < S3328.size a)
instance k0_chk13.dec : ∀ (v242 : IVec S16 32), Decidable (k0_chk13 v242) := fun v242 => decidable_of_iff' _ (Iff.of_eq (k0_chk13.eq_1 v242))
theorem k0_idx13_inb : ∀ (v242 : IVec S16 32) (k0_hw13 : k0_chk13 v242), ∀ a x, ((![v242] : Fin 1 → IVec S16 32) a x).toNat < S3328.size a := fun v242 k0_hw13 => k0_hw13
def k0_off104 (k0_t13 : Fin k0_t13_loop.trips) : Fin 2 → Nat :=
  let c0_i32_168 : BitVec 32 := 0#32
  let c1_i32_170 : BitVec 32 := 1#32
  let arg26 : BitVec 32 := Scf.iv c0_i32_168 c1_i32_170 k0_t13
  let v244 : Index := Scalar.indexCast arg26
  let c0 : Index := 0#32
  ![v244.toNat, 0]
def k0_off105 (k0_t13 : Fin k0_t13_loop.trips) : Fin 2 → Nat :=
  let c0_i32_168 : BitVec 32 := 0#32
  let c1_i32_170 : BitVec 32 := 1#32
  let arg26 : BitVec 32 := Scf.iv c0_i32_168 c1_i32_170 k0_t13
  let v249 : Index := Scalar.indexCast arg26
  let c16 : Index := 16#32
  ![v249.toNat, 16]
def k0_off106 (k0_t13 : Fin k0_t13_loop.trips) : Fin 2 → Nat :=
  let c0_i32_168 : BitVec 32 := 0#32
  let c1_i32_170 : BitVec 32 := 1#32
  let arg26 : BitVec 32 := Scf.iv c0_i32_168 c1_i32_170 k0_t13
  let v254 : Index := Scalar.indexCast arg26
  let c32 : Index := 32#32
  ![v254.toNat, 32]
def k0_off107 (k0_t13 : Fin k0_t13_loop.trips) : Fin 2 → Nat :=
  let c0_i32_168 : BitVec 32 := 0#32
  let c1_i32_170 : BitVec 32 := 1#32
  let arg26 : BitVec 32 := Scf.iv c0_i32_168 c1_i32_170 k0_t13
  let v259 : Index := Scalar.indexCast arg26
  let c48 : Index := 48#32
  ![v259.toNat, 48]
def k0_off108 (k0_t13 : Fin k0_t13_loop.trips) : Fin 2 → Nat :=
  let c0_i32_168 : BitVec 32 := 0#32
  let c1_i32_170 : BitVec 32 := 1#32
  let arg26 : BitVec 32 := Scf.iv c0_i32_168 c1_i32_170 k0_t13
  let v264 : Index := Scalar.indexCast arg26
  let c64 : Index := 64#32
  ![v264.toNat, 64]
def k0_off109 (k0_t13 : Fin k0_t13_loop.trips) : Fin 2 → Nat :=
  let c0_i32_168 : BitVec 32 := 0#32
  let c1_i32_170 : BitVec 32 := 1#32
  let arg26 : BitVec 32 := Scf.iv c0_i32_168 c1_i32_170 k0_t13
  let v269 : Index := Scalar.indexCast arg26
  let c80 : Index := 80#32
  ![v269.toNat, 80]
def k0_off110 (k0_t13 : Fin k0_t13_loop.trips) : Fin 2 → Nat :=
  let c0_i32_168 : BitVec 32 := 0#32
  let c1_i32_170 : BitVec 32 := 1#32
  let arg26 : BitVec 32 := Scf.iv c0_i32_168 c1_i32_170 k0_t13
  let v274 : Index := Scalar.indexCast arg26
  let c96 : Index := 96#32
  ![v274.toNat, 96]
def k0_off111 (k0_t13 : Fin k0_t13_loop.trips) : Fin 2 → Nat :=
  let c0_i32_168 : BitVec 32 := 0#32
  let c1_i32_170 : BitVec 32 := 1#32
  let arg26 : BitVec 32 := Scf.iv c0_i32_168 c1_i32_170 k0_t13
  let v279 : Index := Scalar.indexCast arg26
  let c112 : Index := 112#32
  ![v279.toNat, 112]
def k0_off112 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1408_i32_172 : BitVec 32 := 1408#32
  ![v2.toNat, 1408]
@[reducible] def k0_t14_loop : Scf.Loop 32 :=
  let c0_i32_182 : BitVec 32 := 0#32
  let c128_i32_183 : BitVec 32 := 128#32
  let v121 : BitVec 32 := Scalar.addi c0_i32_182 c128_i32_183
  let c1_i32_184 : BitVec 32 := 1#32
  ⟨c0_i32_182, v121, c1_i32_184⟩

def k0_chk14 (v242 : IVec S16 32) : Prop :=
  (∀ a x, ((![v242] : Fin 1 → IVec S16 32) a x).toNat < S3328.size a)
instance k0_chk14.dec : ∀ (v242 : IVec S16 32), Decidable (k0_chk14 v242) := fun v242 => decidable_of_iff' _ (Iff.of_eq (k0_chk14.eq_1 v242))
theorem k0_idx14_inb : ∀ (v242 : IVec S16 32) (k0_hw14 : k0_chk14 v242), ∀ a x, ((![v242] : Fin 1 → IVec S16 32) a x).toNat < S3328.size a := fun v242 k0_hw14 => k0_hw14
def k0_off113 (k0_t14 : Fin k0_t14_loop.trips) : Fin 2 → Nat :=
  let c0_i32_182 : BitVec 32 := 0#32
  let c1_i32_184 : BitVec 32 := 1#32
  let arg26 : BitVec 32 := Scf.iv c0_i32_182 c1_i32_184 k0_t14
  let v244 : Index := Scalar.indexCast arg26
  let c0 : Index := 0#32
  ![v244.toNat, 0]
def k0_off114 (k0_t14 : Fin k0_t14_loop.trips) : Fin 2 → Nat :=
  let c0_i32_182 : BitVec 32 := 0#32
  let c1_i32_184 : BitVec 32 := 1#32
  let arg26 : BitVec 32 := Scf.iv c0_i32_182 c1_i32_184 k0_t14
  let v249 : Index := Scalar.indexCast arg26
  let c16 : Index := 16#32
  ![v249.toNat, 16]
def k0_off115 (k0_t14 : Fin k0_t14_loop.trips) : Fin 2 → Nat :=
  let c0_i32_182 : BitVec 32 := 0#32
  let c1_i32_184 : BitVec 32 := 1#32
  let arg26 : BitVec 32 := Scf.iv c0_i32_182 c1_i32_184 k0_t14
  let v254 : Index := Scalar.indexCast arg26
  let c32 : Index := 32#32
  ![v254.toNat, 32]
def k0_off116 (k0_t14 : Fin k0_t14_loop.trips) : Fin 2 → Nat :=
  let c0_i32_182 : BitVec 32 := 0#32
  let c1_i32_184 : BitVec 32 := 1#32
  let arg26 : BitVec 32 := Scf.iv c0_i32_182 c1_i32_184 k0_t14
  let v259 : Index := Scalar.indexCast arg26
  let c48 : Index := 48#32
  ![v259.toNat, 48]
def k0_off117 (k0_t14 : Fin k0_t14_loop.trips) : Fin 2 → Nat :=
  let c0_i32_182 : BitVec 32 := 0#32
  let c1_i32_184 : BitVec 32 := 1#32
  let arg26 : BitVec 32 := Scf.iv c0_i32_182 c1_i32_184 k0_t14
  let v264 : Index := Scalar.indexCast arg26
  let c64 : Index := 64#32
  ![v264.toNat, 64]
def k0_off118 (k0_t14 : Fin k0_t14_loop.trips) : Fin 2 → Nat :=
  let c0_i32_182 : BitVec 32 := 0#32
  let c1_i32_184 : BitVec 32 := 1#32
  let arg26 : BitVec 32 := Scf.iv c0_i32_182 c1_i32_184 k0_t14
  let v269 : Index := Scalar.indexCast arg26
  let c80 : Index := 80#32
  ![v269.toNat, 80]
def k0_off119 (k0_t14 : Fin k0_t14_loop.trips) : Fin 2 → Nat :=
  let c0_i32_182 : BitVec 32 := 0#32
  let c1_i32_184 : BitVec 32 := 1#32
  let arg26 : BitVec 32 := Scf.iv c0_i32_182 c1_i32_184 k0_t14
  let v274 : Index := Scalar.indexCast arg26
  let c96 : Index := 96#32
  ![v274.toNat, 96]
def k0_off120 (k0_t14 : Fin k0_t14_loop.trips) : Fin 2 → Nat :=
  let c0_i32_182 : BitVec 32 := 0#32
  let c1_i32_184 : BitVec 32 := 1#32
  let arg26 : BitVec 32 := Scf.iv c0_i32_182 c1_i32_184 k0_t14
  let v279 : Index := Scalar.indexCast arg26
  let c112 : Index := 112#32
  ![v279.toNat, 112]
def k0_off121 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1536_i32_186 : BitVec 32 := 1536#32
  ![v2.toNat, 1536]
@[reducible] def k0_t15_loop : Scf.Loop 32 :=
  let c0_i32_196 : BitVec 32 := 0#32
  let c128_i32_197 : BitVec 32 := 128#32
  let v130 : BitVec 32 := Scalar.addi c0_i32_196 c128_i32_197
  let c1_i32_198 : BitVec 32 := 1#32
  ⟨c0_i32_196, v130, c1_i32_198⟩

def k0_chk15 (v242 : IVec S16 32) : Prop :=
  (∀ a x, ((![v242] : Fin 1 → IVec S16 32) a x).toNat < S3328.size a)
instance k0_chk15.dec : ∀ (v242 : IVec S16 32), Decidable (k0_chk15 v242) := fun v242 => decidable_of_iff' _ (Iff.of_eq (k0_chk15.eq_1 v242))
theorem k0_idx15_inb : ∀ (v242 : IVec S16 32) (k0_hw15 : k0_chk15 v242), ∀ a x, ((![v242] : Fin 1 → IVec S16 32) a x).toNat < S3328.size a := fun v242 k0_hw15 => k0_hw15
def k0_off122 (k0_t15 : Fin k0_t15_loop.trips) : Fin 2 → Nat :=
  let c0_i32_196 : BitVec 32 := 0#32
  let c1_i32_198 : BitVec 32 := 1#32
  let arg26 : BitVec 32 := Scf.iv c0_i32_196 c1_i32_198 k0_t15
  let v244 : Index := Scalar.indexCast arg26
  let c0 : Index := 0#32
  ![v244.toNat, 0]
def k0_off123 (k0_t15 : Fin k0_t15_loop.trips) : Fin 2 → Nat :=
  let c0_i32_196 : BitVec 32 := 0#32
  let c1_i32_198 : BitVec 32 := 1#32
  let arg26 : BitVec 32 := Scf.iv c0_i32_196 c1_i32_198 k0_t15
  let v249 : Index := Scalar.indexCast arg26
  let c16 : Index := 16#32
  ![v249.toNat, 16]
def k0_off124 (k0_t15 : Fin k0_t15_loop.trips) : Fin 2 → Nat :=
  let c0_i32_196 : BitVec 32 := 0#32
  let c1_i32_198 : BitVec 32 := 1#32
  let arg26 : BitVec 32 := Scf.iv c0_i32_196 c1_i32_198 k0_t15
  let v254 : Index := Scalar.indexCast arg26
  let c32 : Index := 32#32
  ![v254.toNat, 32]
def k0_off125 (k0_t15 : Fin k0_t15_loop.trips) : Fin 2 → Nat :=
  let c0_i32_196 : BitVec 32 := 0#32
  let c1_i32_198 : BitVec 32 := 1#32
  let arg26 : BitVec 32 := Scf.iv c0_i32_196 c1_i32_198 k0_t15
  let v259 : Index := Scalar.indexCast arg26
  let c48 : Index := 48#32
  ![v259.toNat, 48]
def k0_off126 (k0_t15 : Fin k0_t15_loop.trips) : Fin 2 → Nat :=
  let c0_i32_196 : BitVec 32 := 0#32
  let c1_i32_198 : BitVec 32 := 1#32
  let arg26 : BitVec 32 := Scf.iv c0_i32_196 c1_i32_198 k0_t15
  let v264 : Index := Scalar.indexCast arg26
  let c64 : Index := 64#32
  ![v264.toNat, 64]
def k0_off127 (k0_t15 : Fin k0_t15_loop.trips) : Fin 2 → Nat :=
  let c0_i32_196 : BitVec 32 := 0#32
  let c1_i32_198 : BitVec 32 := 1#32
  let arg26 : BitVec 32 := Scf.iv c0_i32_196 c1_i32_198 k0_t15
  let v269 : Index := Scalar.indexCast arg26
  let c80 : Index := 80#32
  ![v269.toNat, 80]
def k0_off128 (k0_t15 : Fin k0_t15_loop.trips) : Fin 2 → Nat :=
  let c0_i32_196 : BitVec 32 := 0#32
  let c1_i32_198 : BitVec 32 := 1#32
  let arg26 : BitVec 32 := Scf.iv c0_i32_196 c1_i32_198 k0_t15
  let v274 : Index := Scalar.indexCast arg26
  let c96 : Index := 96#32
  ![v274.toNat, 96]
def k0_off129 (k0_t15 : Fin k0_t15_loop.trips) : Fin 2 → Nat :=
  let c0_i32_196 : BitVec 32 := 0#32
  let c1_i32_198 : BitVec 32 := 1#32
  let arg26 : BitVec 32 := Scf.iv c0_i32_196 c1_i32_198 k0_t15
  let v279 : Index := Scalar.indexCast arg26
  let c112 : Index := 112#32
  ![v279.toNat, 112]
def k0_off130 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1664_i32_200 : BitVec 32 := 1664#32
  ![v2.toNat, 1664]
@[reducible] def k0_t16_loop : Scf.Loop 32 :=
  let c0_i32_210 : BitVec 32 := 0#32
  let c128_i32_211 : BitVec 32 := 128#32
  let v139 : BitVec 32 := Scalar.addi c0_i32_210 c128_i32_211
  let c1_i32_212 : BitVec 32 := 1#32
  ⟨c0_i32_210, v139, c1_i32_212⟩

def k0_chk16 (v242 : IVec S16 32) : Prop :=
  (∀ a x, ((![v242] : Fin 1 → IVec S16 32) a x).toNat < S3328.size a)
instance k0_chk16.dec : ∀ (v242 : IVec S16 32), Decidable (k0_chk16 v242) := fun v242 => decidable_of_iff' _ (Iff.of_eq (k0_chk16.eq_1 v242))
theorem k0_idx16_inb : ∀ (v242 : IVec S16 32) (k0_hw16 : k0_chk16 v242), ∀ a x, ((![v242] : Fin 1 → IVec S16 32) a x).toNat < S3328.size a := fun v242 k0_hw16 => k0_hw16
def k0_off131 (k0_t16 : Fin k0_t16_loop.trips) : Fin 2 → Nat :=
  let c0_i32_210 : BitVec 32 := 0#32
  let c1_i32_212 : BitVec 32 := 1#32
  let arg26 : BitVec 32 := Scf.iv c0_i32_210 c1_i32_212 k0_t16
  let v244 : Index := Scalar.indexCast arg26
  let c0 : Index := 0#32
  ![v244.toNat, 0]
def k0_off132 (k0_t16 : Fin k0_t16_loop.trips) : Fin 2 → Nat :=
  let c0_i32_210 : BitVec 32 := 0#32
  let c1_i32_212 : BitVec 32 := 1#32
  let arg26 : BitVec 32 := Scf.iv c0_i32_210 c1_i32_212 k0_t16
  let v249 : Index := Scalar.indexCast arg26
  let c16 : Index := 16#32
  ![v249.toNat, 16]
def k0_off133 (k0_t16 : Fin k0_t16_loop.trips) : Fin 2 → Nat :=
  let c0_i32_210 : BitVec 32 := 0#32
  let c1_i32_212 : BitVec 32 := 1#32
  let arg26 : BitVec 32 := Scf.iv c0_i32_210 c1_i32_212 k0_t16
  let v254 : Index := Scalar.indexCast arg26
  let c32 : Index := 32#32
  ![v254.toNat, 32]
def k0_off134 (k0_t16 : Fin k0_t16_loop.trips) : Fin 2 → Nat :=
  let c0_i32_210 : BitVec 32 := 0#32
  let c1_i32_212 : BitVec 32 := 1#32
  let arg26 : BitVec 32 := Scf.iv c0_i32_210 c1_i32_212 k0_t16
  let v259 : Index := Scalar.indexCast arg26
  let c48 : Index := 48#32
  ![v259.toNat, 48]
def k0_off135 (k0_t16 : Fin k0_t16_loop.trips) : Fin 2 → Nat :=
  let c0_i32_210 : BitVec 32 := 0#32
  let c1_i32_212 : BitVec 32 := 1#32
  let arg26 : BitVec 32 := Scf.iv c0_i32_210 c1_i32_212 k0_t16
  let v264 : Index := Scalar.indexCast arg26
  let c64 : Index := 64#32
  ![v264.toNat, 64]
def k0_off136 (k0_t16 : Fin k0_t16_loop.trips) : Fin 2 → Nat :=
  let c0_i32_210 : BitVec 32 := 0#32
  let c1_i32_212 : BitVec 32 := 1#32
  let arg26 : BitVec 32 := Scf.iv c0_i32_210 c1_i32_212 k0_t16
  let v269 : Index := Scalar.indexCast arg26
  let c80 : Index := 80#32
  ![v269.toNat, 80]
def k0_off137 (k0_t16 : Fin k0_t16_loop.trips) : Fin 2 → Nat :=
  let c0_i32_210 : BitVec 32 := 0#32
  let c1_i32_212 : BitVec 32 := 1#32
  let arg26 : BitVec 32 := Scf.iv c0_i32_210 c1_i32_212 k0_t16
  let v274 : Index := Scalar.indexCast arg26
  let c96 : Index := 96#32
  ![v274.toNat, 96]
def k0_off138 (k0_t16 : Fin k0_t16_loop.trips) : Fin 2 → Nat :=
  let c0_i32_210 : BitVec 32 := 0#32
  let c1_i32_212 : BitVec 32 := 1#32
  let arg26 : BitVec 32 := Scf.iv c0_i32_210 c1_i32_212 k0_t16
  let v279 : Index := Scalar.indexCast arg26
  let c112 : Index := 112#32
  ![v279.toNat, 112]
def k0_off139 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1792_i32_214 : BitVec 32 := 1792#32
  ![v2.toNat, 1792]
@[reducible] def k0_t17_loop : Scf.Loop 32 :=
  let c0_i32_224 : BitVec 32 := 0#32
  let c128_i32_225 : BitVec 32 := 128#32
  let v148 : BitVec 32 := Scalar.addi c0_i32_224 c128_i32_225
  let c1_i32_226 : BitVec 32 := 1#32
  ⟨c0_i32_224, v148, c1_i32_226⟩

def k0_chk17 (v242 : IVec S16 32) : Prop :=
  (∀ a x, ((![v242] : Fin 1 → IVec S16 32) a x).toNat < S3328.size a)
instance k0_chk17.dec : ∀ (v242 : IVec S16 32), Decidable (k0_chk17 v242) := fun v242 => decidable_of_iff' _ (Iff.of_eq (k0_chk17.eq_1 v242))
theorem k0_idx17_inb : ∀ (v242 : IVec S16 32) (k0_hw17 : k0_chk17 v242), ∀ a x, ((![v242] : Fin 1 → IVec S16 32) a x).toNat < S3328.size a := fun v242 k0_hw17 => k0_hw17
def k0_off140 (k0_t17 : Fin k0_t17_loop.trips) : Fin 2 → Nat :=
  let c0_i32_224 : BitVec 32 := 0#32
  let c1_i32_226 : BitVec 32 := 1#32
  let arg26 : BitVec 32 := Scf.iv c0_i32_224 c1_i32_226 k0_t17
  let v244 : Index := Scalar.indexCast arg26
  let c0 : Index := 0#32
  ![v244.toNat, 0]
def k0_off141 (k0_t17 : Fin k0_t17_loop.trips) : Fin 2 → Nat :=
  let c0_i32_224 : BitVec 32 := 0#32
  let c1_i32_226 : BitVec 32 := 1#32
  let arg26 : BitVec 32 := Scf.iv c0_i32_224 c1_i32_226 k0_t17
  let v249 : Index := Scalar.indexCast arg26
  let c16 : Index := 16#32
  ![v249.toNat, 16]
def k0_off142 (k0_t17 : Fin k0_t17_loop.trips) : Fin 2 → Nat :=
  let c0_i32_224 : BitVec 32 := 0#32
  let c1_i32_226 : BitVec 32 := 1#32
  let arg26 : BitVec 32 := Scf.iv c0_i32_224 c1_i32_226 k0_t17
  let v254 : Index := Scalar.indexCast arg26
  let c32 : Index := 32#32
  ![v254.toNat, 32]
def k0_off143 (k0_t17 : Fin k0_t17_loop.trips) : Fin 2 → Nat :=
  let c0_i32_224 : BitVec 32 := 0#32
  let c1_i32_226 : BitVec 32 := 1#32
  let arg26 : BitVec 32 := Scf.iv c0_i32_224 c1_i32_226 k0_t17
  let v259 : Index := Scalar.indexCast arg26
  let c48 : Index := 48#32
  ![v259.toNat, 48]
def k0_off144 (k0_t17 : Fin k0_t17_loop.trips) : Fin 2 → Nat :=
  let c0_i32_224 : BitVec 32 := 0#32
  let c1_i32_226 : BitVec 32 := 1#32
  let arg26 : BitVec 32 := Scf.iv c0_i32_224 c1_i32_226 k0_t17
  let v264 : Index := Scalar.indexCast arg26
  let c64 : Index := 64#32
  ![v264.toNat, 64]
def k0_off145 (k0_t17 : Fin k0_t17_loop.trips) : Fin 2 → Nat :=
  let c0_i32_224 : BitVec 32 := 0#32
  let c1_i32_226 : BitVec 32 := 1#32
  let arg26 : BitVec 32 := Scf.iv c0_i32_224 c1_i32_226 k0_t17
  let v269 : Index := Scalar.indexCast arg26
  let c80 : Index := 80#32
  ![v269.toNat, 80]
def k0_off146 (k0_t17 : Fin k0_t17_loop.trips) : Fin 2 → Nat :=
  let c0_i32_224 : BitVec 32 := 0#32
  let c1_i32_226 : BitVec 32 := 1#32
  let arg26 : BitVec 32 := Scf.iv c0_i32_224 c1_i32_226 k0_t17
  let v274 : Index := Scalar.indexCast arg26
  let c96 : Index := 96#32
  ![v274.toNat, 96]
def k0_off147 (k0_t17 : Fin k0_t17_loop.trips) : Fin 2 → Nat :=
  let c0_i32_224 : BitVec 32 := 0#32
  let c1_i32_226 : BitVec 32 := 1#32
  let arg26 : BitVec 32 := Scf.iv c0_i32_224 c1_i32_226 k0_t17
  let v279 : Index := Scalar.indexCast arg26
  let c112 : Index := 112#32
  ![v279.toNat, 112]
def k0_off148 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c1920_i32_228 : BitVec 32 := 1920#32
  ![v2.toNat, 1920]
@[reducible] def k0_t18_loop : Scf.Loop 32 :=
  let c0_i32_238 : BitVec 32 := 0#32
  let c128_i32_239 : BitVec 32 := 128#32
  let v157 : BitVec 32 := Scalar.addi c0_i32_238 c128_i32_239
  let c1_i32_240 : BitVec 32 := 1#32
  ⟨c0_i32_238, v157, c1_i32_240⟩

def k0_chk18 (v242 : IVec S16 32) : Prop :=
  (∀ a x, ((![v242] : Fin 1 → IVec S16 32) a x).toNat < S3328.size a)
instance k0_chk18.dec : ∀ (v242 : IVec S16 32), Decidable (k0_chk18 v242) := fun v242 => decidable_of_iff' _ (Iff.of_eq (k0_chk18.eq_1 v242))
theorem k0_idx18_inb : ∀ (v242 : IVec S16 32) (k0_hw18 : k0_chk18 v242), ∀ a x, ((![v242] : Fin 1 → IVec S16 32) a x).toNat < S3328.size a := fun v242 k0_hw18 => k0_hw18
def k0_off149 (k0_t18 : Fin k0_t18_loop.trips) : Fin 2 → Nat :=
  let c0_i32_238 : BitVec 32 := 0#32
  let c1_i32_240 : BitVec 32 := 1#32
  let arg26 : BitVec 32 := Scf.iv c0_i32_238 c1_i32_240 k0_t18
  let v244 : Index := Scalar.indexCast arg26
  let c0 : Index := 0#32
  ![v244.toNat, 0]
def k0_off150 (k0_t18 : Fin k0_t18_loop.trips) : Fin 2 → Nat :=
  let c0_i32_238 : BitVec 32 := 0#32
  let c1_i32_240 : BitVec 32 := 1#32
  let arg26 : BitVec 32 := Scf.iv c0_i32_238 c1_i32_240 k0_t18
  let v249 : Index := Scalar.indexCast arg26
  let c16 : Index := 16#32
  ![v249.toNat, 16]
def k0_off151 (k0_t18 : Fin k0_t18_loop.trips) : Fin 2 → Nat :=
  let c0_i32_238 : BitVec 32 := 0#32
  let c1_i32_240 : BitVec 32 := 1#32
  let arg26 : BitVec 32 := Scf.iv c0_i32_238 c1_i32_240 k0_t18
  let v254 : Index := Scalar.indexCast arg26
  let c32 : Index := 32#32
  ![v254.toNat, 32]
def k0_off152 (k0_t18 : Fin k0_t18_loop.trips) : Fin 2 → Nat :=
  let c0_i32_238 : BitVec 32 := 0#32
  let c1_i32_240 : BitVec 32 := 1#32
  let arg26 : BitVec 32 := Scf.iv c0_i32_238 c1_i32_240 k0_t18
  let v259 : Index := Scalar.indexCast arg26
  let c48 : Index := 48#32
  ![v259.toNat, 48]
def k0_off153 (k0_t18 : Fin k0_t18_loop.trips) : Fin 2 → Nat :=
  let c0_i32_238 : BitVec 32 := 0#32
  let c1_i32_240 : BitVec 32 := 1#32
  let arg26 : BitVec 32 := Scf.iv c0_i32_238 c1_i32_240 k0_t18
  let v264 : Index := Scalar.indexCast arg26
  let c64 : Index := 64#32
  ![v264.toNat, 64]
def k0_off154 (k0_t18 : Fin k0_t18_loop.trips) : Fin 2 → Nat :=
  let c0_i32_238 : BitVec 32 := 0#32
  let c1_i32_240 : BitVec 32 := 1#32
  let arg26 : BitVec 32 := Scf.iv c0_i32_238 c1_i32_240 k0_t18
  let v269 : Index := Scalar.indexCast arg26
  let c80 : Index := 80#32
  ![v269.toNat, 80]
def k0_off155 (k0_t18 : Fin k0_t18_loop.trips) : Fin 2 → Nat :=
  let c0_i32_238 : BitVec 32 := 0#32
  let c1_i32_240 : BitVec 32 := 1#32
  let arg26 : BitVec 32 := Scf.iv c0_i32_238 c1_i32_240 k0_t18
  let v274 : Index := Scalar.indexCast arg26
  let c96 : Index := 96#32
  ![v274.toNat, 96]
def k0_off156 (k0_t18 : Fin k0_t18_loop.trips) : Fin 2 → Nat :=
  let c0_i32_238 : BitVec 32 := 0#32
  let c1_i32_240 : BitVec 32 := 1#32
  let arg26 : BitVec 32 := Scf.iv c0_i32_238 c1_i32_240 k0_t18
  let v279 : Index := Scalar.indexCast arg26
  let c112 : Index := 112#32
  ![v279.toNat, 112]
def k0_off157 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2048_i32_242 : BitVec 32 := 2048#32
  ![v2.toNat, 2048]
@[reducible] def k0_t19_loop : Scf.Loop 32 :=
  let c0_i32_252 : BitVec 32 := 0#32
  let c128_i32_253 : BitVec 32 := 128#32
  let v166 : BitVec 32 := Scalar.addi c0_i32_252 c128_i32_253
  let c1_i32_254 : BitVec 32 := 1#32
  ⟨c0_i32_252, v166, c1_i32_254⟩

def k0_chk19 (v242 : IVec S16 32) : Prop :=
  (∀ a x, ((![v242] : Fin 1 → IVec S16 32) a x).toNat < S3328.size a)
instance k0_chk19.dec : ∀ (v242 : IVec S16 32), Decidable (k0_chk19 v242) := fun v242 => decidable_of_iff' _ (Iff.of_eq (k0_chk19.eq_1 v242))
theorem k0_idx19_inb : ∀ (v242 : IVec S16 32) (k0_hw19 : k0_chk19 v242), ∀ a x, ((![v242] : Fin 1 → IVec S16 32) a x).toNat < S3328.size a := fun v242 k0_hw19 => k0_hw19
def k0_off158 (k0_t19 : Fin k0_t19_loop.trips) : Fin 2 → Nat :=
  let c0_i32_252 : BitVec 32 := 0#32
  let c1_i32_254 : BitVec 32 := 1#32
  let arg26 : BitVec 32 := Scf.iv c0_i32_252 c1_i32_254 k0_t19
  let v244 : Index := Scalar.indexCast arg26
  let c0 : Index := 0#32
  ![v244.toNat, 0]
def k0_off159 (k0_t19 : Fin k0_t19_loop.trips) : Fin 2 → Nat :=
  let c0_i32_252 : BitVec 32 := 0#32
  let c1_i32_254 : BitVec 32 := 1#32
  let arg26 : BitVec 32 := Scf.iv c0_i32_252 c1_i32_254 k0_t19
  let v249 : Index := Scalar.indexCast arg26
  let c16 : Index := 16#32
  ![v249.toNat, 16]
def k0_off160 (k0_t19 : Fin k0_t19_loop.trips) : Fin 2 → Nat :=
  let c0_i32_252 : BitVec 32 := 0#32
  let c1_i32_254 : BitVec 32 := 1#32
  let arg26 : BitVec 32 := Scf.iv c0_i32_252 c1_i32_254 k0_t19
  let v254 : Index := Scalar.indexCast arg26
  let c32 : Index := 32#32
  ![v254.toNat, 32]
def k0_off161 (k0_t19 : Fin k0_t19_loop.trips) : Fin 2 → Nat :=
  let c0_i32_252 : BitVec 32 := 0#32
  let c1_i32_254 : BitVec 32 := 1#32
  let arg26 : BitVec 32 := Scf.iv c0_i32_252 c1_i32_254 k0_t19
  let v259 : Index := Scalar.indexCast arg26
  let c48 : Index := 48#32
  ![v259.toNat, 48]
def k0_off162 (k0_t19 : Fin k0_t19_loop.trips) : Fin 2 → Nat :=
  let c0_i32_252 : BitVec 32 := 0#32
  let c1_i32_254 : BitVec 32 := 1#32
  let arg26 : BitVec 32 := Scf.iv c0_i32_252 c1_i32_254 k0_t19
  let v264 : Index := Scalar.indexCast arg26
  let c64 : Index := 64#32
  ![v264.toNat, 64]
def k0_off163 (k0_t19 : Fin k0_t19_loop.trips) : Fin 2 → Nat :=
  let c0_i32_252 : BitVec 32 := 0#32
  let c1_i32_254 : BitVec 32 := 1#32
  let arg26 : BitVec 32 := Scf.iv c0_i32_252 c1_i32_254 k0_t19
  let v269 : Index := Scalar.indexCast arg26
  let c80 : Index := 80#32
  ![v269.toNat, 80]
def k0_off164 (k0_t19 : Fin k0_t19_loop.trips) : Fin 2 → Nat :=
  let c0_i32_252 : BitVec 32 := 0#32
  let c1_i32_254 : BitVec 32 := 1#32
  let arg26 : BitVec 32 := Scf.iv c0_i32_252 c1_i32_254 k0_t19
  let v274 : Index := Scalar.indexCast arg26
  let c96 : Index := 96#32
  ![v274.toNat, 96]
def k0_off165 (k0_t19 : Fin k0_t19_loop.trips) : Fin 2 → Nat :=
  let c0_i32_252 : BitVec 32 := 0#32
  let c1_i32_254 : BitVec 32 := 1#32
  let arg26 : BitVec 32 := Scf.iv c0_i32_252 c1_i32_254 k0_t19
  let v279 : Index := Scalar.indexCast arg26
  let c112 : Index := 112#32
  ![v279.toNat, 112]
def k0_off166 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2176_i32_256 : BitVec 32 := 2176#32
  ![v2.toNat, 2176]
@[reducible] def k0_t20_loop : Scf.Loop 32 :=
  let c0_i32_266 : BitVec 32 := 0#32
  let c128_i32_267 : BitVec 32 := 128#32
  let v175 : BitVec 32 := Scalar.addi c0_i32_266 c128_i32_267
  let c1_i32_268 : BitVec 32 := 1#32
  ⟨c0_i32_266, v175, c1_i32_268⟩

def k0_chk20 (v242 : IVec S16 32) : Prop :=
  (∀ a x, ((![v242] : Fin 1 → IVec S16 32) a x).toNat < S3328.size a)
instance k0_chk20.dec : ∀ (v242 : IVec S16 32), Decidable (k0_chk20 v242) := fun v242 => decidable_of_iff' _ (Iff.of_eq (k0_chk20.eq_1 v242))
theorem k0_idx20_inb : ∀ (v242 : IVec S16 32) (k0_hw20 : k0_chk20 v242), ∀ a x, ((![v242] : Fin 1 → IVec S16 32) a x).toNat < S3328.size a := fun v242 k0_hw20 => k0_hw20
def k0_off167 (k0_t20 : Fin k0_t20_loop.trips) : Fin 2 → Nat :=
  let c0_i32_266 : BitVec 32 := 0#32
  let c1_i32_268 : BitVec 32 := 1#32
  let arg26 : BitVec 32 := Scf.iv c0_i32_266 c1_i32_268 k0_t20
  let v244 : Index := Scalar.indexCast arg26
  let c0 : Index := 0#32
  ![v244.toNat, 0]
def k0_off168 (k0_t20 : Fin k0_t20_loop.trips) : Fin 2 → Nat :=
  let c0_i32_266 : BitVec 32 := 0#32
  let c1_i32_268 : BitVec 32 := 1#32
  let arg26 : BitVec 32 := Scf.iv c0_i32_266 c1_i32_268 k0_t20
  let v249 : Index := Scalar.indexCast arg26
  let c16 : Index := 16#32
  ![v249.toNat, 16]
def k0_off169 (k0_t20 : Fin k0_t20_loop.trips) : Fin 2 → Nat :=
  let c0_i32_266 : BitVec 32 := 0#32
  let c1_i32_268 : BitVec 32 := 1#32
  let arg26 : BitVec 32 := Scf.iv c0_i32_266 c1_i32_268 k0_t20
  let v254 : Index := Scalar.indexCast arg26
  let c32 : Index := 32#32
  ![v254.toNat, 32]
def k0_off170 (k0_t20 : Fin k0_t20_loop.trips) : Fin 2 → Nat :=
  let c0_i32_266 : BitVec 32 := 0#32
  let c1_i32_268 : BitVec 32 := 1#32
  let arg26 : BitVec 32 := Scf.iv c0_i32_266 c1_i32_268 k0_t20
  let v259 : Index := Scalar.indexCast arg26
  let c48 : Index := 48#32
  ![v259.toNat, 48]
def k0_off171 (k0_t20 : Fin k0_t20_loop.trips) : Fin 2 → Nat :=
  let c0_i32_266 : BitVec 32 := 0#32
  let c1_i32_268 : BitVec 32 := 1#32
  let arg26 : BitVec 32 := Scf.iv c0_i32_266 c1_i32_268 k0_t20
  let v264 : Index := Scalar.indexCast arg26
  let c64 : Index := 64#32
  ![v264.toNat, 64]
def k0_off172 (k0_t20 : Fin k0_t20_loop.trips) : Fin 2 → Nat :=
  let c0_i32_266 : BitVec 32 := 0#32
  let c1_i32_268 : BitVec 32 := 1#32
  let arg26 : BitVec 32 := Scf.iv c0_i32_266 c1_i32_268 k0_t20
  let v269 : Index := Scalar.indexCast arg26
  let c80 : Index := 80#32
  ![v269.toNat, 80]
def k0_off173 (k0_t20 : Fin k0_t20_loop.trips) : Fin 2 → Nat :=
  let c0_i32_266 : BitVec 32 := 0#32
  let c1_i32_268 : BitVec 32 := 1#32
  let arg26 : BitVec 32 := Scf.iv c0_i32_266 c1_i32_268 k0_t20
  let v274 : Index := Scalar.indexCast arg26
  let c96 : Index := 96#32
  ![v274.toNat, 96]
def k0_off174 (k0_t20 : Fin k0_t20_loop.trips) : Fin 2 → Nat :=
  let c0_i32_266 : BitVec 32 := 0#32
  let c1_i32_268 : BitVec 32 := 1#32
  let arg26 : BitVec 32 := Scf.iv c0_i32_266 c1_i32_268 k0_t20
  let v279 : Index := Scalar.indexCast arg26
  let c112 : Index := 112#32
  ![v279.toNat, 112]
def k0_off175 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2304_i32_270 : BitVec 32 := 2304#32
  ![v2.toNat, 2304]
@[reducible] def k0_t21_loop : Scf.Loop 32 :=
  let c0_i32_280 : BitVec 32 := 0#32
  let c128_i32_281 : BitVec 32 := 128#32
  let v184 : BitVec 32 := Scalar.addi c0_i32_280 c128_i32_281
  let c1_i32_282 : BitVec 32 := 1#32
  ⟨c0_i32_280, v184, c1_i32_282⟩

def k0_chk21 (v242 : IVec S16 32) : Prop :=
  (∀ a x, ((![v242] : Fin 1 → IVec S16 32) a x).toNat < S3328.size a)
instance k0_chk21.dec : ∀ (v242 : IVec S16 32), Decidable (k0_chk21 v242) := fun v242 => decidable_of_iff' _ (Iff.of_eq (k0_chk21.eq_1 v242))
theorem k0_idx21_inb : ∀ (v242 : IVec S16 32) (k0_hw21 : k0_chk21 v242), ∀ a x, ((![v242] : Fin 1 → IVec S16 32) a x).toNat < S3328.size a := fun v242 k0_hw21 => k0_hw21
def k0_off176 (k0_t21 : Fin k0_t21_loop.trips) : Fin 2 → Nat :=
  let c0_i32_280 : BitVec 32 := 0#32
  let c1_i32_282 : BitVec 32 := 1#32
  let arg26 : BitVec 32 := Scf.iv c0_i32_280 c1_i32_282 k0_t21
  let v244 : Index := Scalar.indexCast arg26
  let c0 : Index := 0#32
  ![v244.toNat, 0]
def k0_off177 (k0_t21 : Fin k0_t21_loop.trips) : Fin 2 → Nat :=
  let c0_i32_280 : BitVec 32 := 0#32
  let c1_i32_282 : BitVec 32 := 1#32
  let arg26 : BitVec 32 := Scf.iv c0_i32_280 c1_i32_282 k0_t21
  let v249 : Index := Scalar.indexCast arg26
  let c16 : Index := 16#32
  ![v249.toNat, 16]
def k0_off178 (k0_t21 : Fin k0_t21_loop.trips) : Fin 2 → Nat :=
  let c0_i32_280 : BitVec 32 := 0#32
  let c1_i32_282 : BitVec 32 := 1#32
  let arg26 : BitVec 32 := Scf.iv c0_i32_280 c1_i32_282 k0_t21
  let v254 : Index := Scalar.indexCast arg26
  let c32 : Index := 32#32
  ![v254.toNat, 32]
def k0_off179 (k0_t21 : Fin k0_t21_loop.trips) : Fin 2 → Nat :=
  let c0_i32_280 : BitVec 32 := 0#32
  let c1_i32_282 : BitVec 32 := 1#32
  let arg26 : BitVec 32 := Scf.iv c0_i32_280 c1_i32_282 k0_t21
  let v259 : Index := Scalar.indexCast arg26
  let c48 : Index := 48#32
  ![v259.toNat, 48]
def k0_off180 (k0_t21 : Fin k0_t21_loop.trips) : Fin 2 → Nat :=
  let c0_i32_280 : BitVec 32 := 0#32
  let c1_i32_282 : BitVec 32 := 1#32
  let arg26 : BitVec 32 := Scf.iv c0_i32_280 c1_i32_282 k0_t21
  let v264 : Index := Scalar.indexCast arg26
  let c64 : Index := 64#32
  ![v264.toNat, 64]
def k0_off181 (k0_t21 : Fin k0_t21_loop.trips) : Fin 2 → Nat :=
  let c0_i32_280 : BitVec 32 := 0#32
  let c1_i32_282 : BitVec 32 := 1#32
  let arg26 : BitVec 32 := Scf.iv c0_i32_280 c1_i32_282 k0_t21
  let v269 : Index := Scalar.indexCast arg26
  let c80 : Index := 80#32
  ![v269.toNat, 80]
def k0_off182 (k0_t21 : Fin k0_t21_loop.trips) : Fin 2 → Nat :=
  let c0_i32_280 : BitVec 32 := 0#32
  let c1_i32_282 : BitVec 32 := 1#32
  let arg26 : BitVec 32 := Scf.iv c0_i32_280 c1_i32_282 k0_t21
  let v274 : Index := Scalar.indexCast arg26
  let c96 : Index := 96#32
  ![v274.toNat, 96]
def k0_off183 (k0_t21 : Fin k0_t21_loop.trips) : Fin 2 → Nat :=
  let c0_i32_280 : BitVec 32 := 0#32
  let c1_i32_282 : BitVec 32 := 1#32
  let arg26 : BitVec 32 := Scf.iv c0_i32_280 c1_i32_282 k0_t21
  let v279 : Index := Scalar.indexCast arg26
  let c112 : Index := 112#32
  ![v279.toNat, 112]
def k0_off184 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2432_i32_284 : BitVec 32 := 2432#32
  ![v2.toNat, 2432]
@[reducible] def k0_t22_loop : Scf.Loop 32 :=
  let c0_i32_294 : BitVec 32 := 0#32
  let c128_i32_295 : BitVec 32 := 128#32
  let v193 : BitVec 32 := Scalar.addi c0_i32_294 c128_i32_295
  let c1_i32_296 : BitVec 32 := 1#32
  ⟨c0_i32_294, v193, c1_i32_296⟩

def k0_chk22 (v242 : IVec S16 32) : Prop :=
  (∀ a x, ((![v242] : Fin 1 → IVec S16 32) a x).toNat < S3328.size a)
instance k0_chk22.dec : ∀ (v242 : IVec S16 32), Decidable (k0_chk22 v242) := fun v242 => decidable_of_iff' _ (Iff.of_eq (k0_chk22.eq_1 v242))
theorem k0_idx22_inb : ∀ (v242 : IVec S16 32) (k0_hw22 : k0_chk22 v242), ∀ a x, ((![v242] : Fin 1 → IVec S16 32) a x).toNat < S3328.size a := fun v242 k0_hw22 => k0_hw22
def k0_off185 (k0_t22 : Fin k0_t22_loop.trips) : Fin 2 → Nat :=
  let c0_i32_294 : BitVec 32 := 0#32
  let c1_i32_296 : BitVec 32 := 1#32
  let arg26 : BitVec 32 := Scf.iv c0_i32_294 c1_i32_296 k0_t22
  let v244 : Index := Scalar.indexCast arg26
  let c0 : Index := 0#32
  ![v244.toNat, 0]
def k0_off186 (k0_t22 : Fin k0_t22_loop.trips) : Fin 2 → Nat :=
  let c0_i32_294 : BitVec 32 := 0#32
  let c1_i32_296 : BitVec 32 := 1#32
  let arg26 : BitVec 32 := Scf.iv c0_i32_294 c1_i32_296 k0_t22
  let v249 : Index := Scalar.indexCast arg26
  let c16 : Index := 16#32
  ![v249.toNat, 16]
def k0_off187 (k0_t22 : Fin k0_t22_loop.trips) : Fin 2 → Nat :=
  let c0_i32_294 : BitVec 32 := 0#32
  let c1_i32_296 : BitVec 32 := 1#32
  let arg26 : BitVec 32 := Scf.iv c0_i32_294 c1_i32_296 k0_t22
  let v254 : Index := Scalar.indexCast arg26
  let c32 : Index := 32#32
  ![v254.toNat, 32]
def k0_off188 (k0_t22 : Fin k0_t22_loop.trips) : Fin 2 → Nat :=
  let c0_i32_294 : BitVec 32 := 0#32
  let c1_i32_296 : BitVec 32 := 1#32
  let arg26 : BitVec 32 := Scf.iv c0_i32_294 c1_i32_296 k0_t22
  let v259 : Index := Scalar.indexCast arg26
  let c48 : Index := 48#32
  ![v259.toNat, 48]
def k0_off189 (k0_t22 : Fin k0_t22_loop.trips) : Fin 2 → Nat :=
  let c0_i32_294 : BitVec 32 := 0#32
  let c1_i32_296 : BitVec 32 := 1#32
  let arg26 : BitVec 32 := Scf.iv c0_i32_294 c1_i32_296 k0_t22
  let v264 : Index := Scalar.indexCast arg26
  let c64 : Index := 64#32
  ![v264.toNat, 64]
def k0_off190 (k0_t22 : Fin k0_t22_loop.trips) : Fin 2 → Nat :=
  let c0_i32_294 : BitVec 32 := 0#32
  let c1_i32_296 : BitVec 32 := 1#32
  let arg26 : BitVec 32 := Scf.iv c0_i32_294 c1_i32_296 k0_t22
  let v269 : Index := Scalar.indexCast arg26
  let c80 : Index := 80#32
  ![v269.toNat, 80]
def k0_off191 (k0_t22 : Fin k0_t22_loop.trips) : Fin 2 → Nat :=
  let c0_i32_294 : BitVec 32 := 0#32
  let c1_i32_296 : BitVec 32 := 1#32
  let arg26 : BitVec 32 := Scf.iv c0_i32_294 c1_i32_296 k0_t22
  let v274 : Index := Scalar.indexCast arg26
  let c96 : Index := 96#32
  ![v274.toNat, 96]
def k0_off192 (k0_t22 : Fin k0_t22_loop.trips) : Fin 2 → Nat :=
  let c0_i32_294 : BitVec 32 := 0#32
  let c1_i32_296 : BitVec 32 := 1#32
  let arg26 : BitVec 32 := Scf.iv c0_i32_294 c1_i32_296 k0_t22
  let v279 : Index := Scalar.indexCast arg26
  let c112 : Index := 112#32
  ![v279.toNat, 112]
def k0_off193 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2560_i32_298 : BitVec 32 := 2560#32
  ![v2.toNat, 2560]
@[reducible] def k0_t23_loop : Scf.Loop 32 :=
  let c0_i32_308 : BitVec 32 := 0#32
  let c128_i32_309 : BitVec 32 := 128#32
  let v202 : BitVec 32 := Scalar.addi c0_i32_308 c128_i32_309
  let c1_i32_310 : BitVec 32 := 1#32
  ⟨c0_i32_308, v202, c1_i32_310⟩

def k0_chk23 (v242 : IVec S16 32) : Prop :=
  (∀ a x, ((![v242] : Fin 1 → IVec S16 32) a x).toNat < S3328.size a)
instance k0_chk23.dec : ∀ (v242 : IVec S16 32), Decidable (k0_chk23 v242) := fun v242 => decidable_of_iff' _ (Iff.of_eq (k0_chk23.eq_1 v242))
theorem k0_idx23_inb : ∀ (v242 : IVec S16 32) (k0_hw23 : k0_chk23 v242), ∀ a x, ((![v242] : Fin 1 → IVec S16 32) a x).toNat < S3328.size a := fun v242 k0_hw23 => k0_hw23
def k0_off194 (k0_t23 : Fin k0_t23_loop.trips) : Fin 2 → Nat :=
  let c0_i32_308 : BitVec 32 := 0#32
  let c1_i32_310 : BitVec 32 := 1#32
  let arg26 : BitVec 32 := Scf.iv c0_i32_308 c1_i32_310 k0_t23
  let v244 : Index := Scalar.indexCast arg26
  let c0 : Index := 0#32
  ![v244.toNat, 0]
def k0_off195 (k0_t23 : Fin k0_t23_loop.trips) : Fin 2 → Nat :=
  let c0_i32_308 : BitVec 32 := 0#32
  let c1_i32_310 : BitVec 32 := 1#32
  let arg26 : BitVec 32 := Scf.iv c0_i32_308 c1_i32_310 k0_t23
  let v249 : Index := Scalar.indexCast arg26
  let c16 : Index := 16#32
  ![v249.toNat, 16]
def k0_off196 (k0_t23 : Fin k0_t23_loop.trips) : Fin 2 → Nat :=
  let c0_i32_308 : BitVec 32 := 0#32
  let c1_i32_310 : BitVec 32 := 1#32
  let arg26 : BitVec 32 := Scf.iv c0_i32_308 c1_i32_310 k0_t23
  let v254 : Index := Scalar.indexCast arg26
  let c32 : Index := 32#32
  ![v254.toNat, 32]
def k0_off197 (k0_t23 : Fin k0_t23_loop.trips) : Fin 2 → Nat :=
  let c0_i32_308 : BitVec 32 := 0#32
  let c1_i32_310 : BitVec 32 := 1#32
  let arg26 : BitVec 32 := Scf.iv c0_i32_308 c1_i32_310 k0_t23
  let v259 : Index := Scalar.indexCast arg26
  let c48 : Index := 48#32
  ![v259.toNat, 48]
def k0_off198 (k0_t23 : Fin k0_t23_loop.trips) : Fin 2 → Nat :=
  let c0_i32_308 : BitVec 32 := 0#32
  let c1_i32_310 : BitVec 32 := 1#32
  let arg26 : BitVec 32 := Scf.iv c0_i32_308 c1_i32_310 k0_t23
  let v264 : Index := Scalar.indexCast arg26
  let c64 : Index := 64#32
  ![v264.toNat, 64]
def k0_off199 (k0_t23 : Fin k0_t23_loop.trips) : Fin 2 → Nat :=
  let c0_i32_308 : BitVec 32 := 0#32
  let c1_i32_310 : BitVec 32 := 1#32
  let arg26 : BitVec 32 := Scf.iv c0_i32_308 c1_i32_310 k0_t23
  let v269 : Index := Scalar.indexCast arg26
  let c80 : Index := 80#32
  ![v269.toNat, 80]
def k0_off200 (k0_t23 : Fin k0_t23_loop.trips) : Fin 2 → Nat :=
  let c0_i32_308 : BitVec 32 := 0#32
  let c1_i32_310 : BitVec 32 := 1#32
  let arg26 : BitVec 32 := Scf.iv c0_i32_308 c1_i32_310 k0_t23
  let v274 : Index := Scalar.indexCast arg26
  let c96 : Index := 96#32
  ![v274.toNat, 96]
def k0_off201 (k0_t23 : Fin k0_t23_loop.trips) : Fin 2 → Nat :=
  let c0_i32_308 : BitVec 32 := 0#32
  let c1_i32_310 : BitVec 32 := 1#32
  let arg26 : BitVec 32 := Scf.iv c0_i32_308 c1_i32_310 k0_t23
  let v279 : Index := Scalar.indexCast arg26
  let c112 : Index := 112#32
  ![v279.toNat, 112]
def k0_off202 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2688_i32_312 : BitVec 32 := 2688#32
  ![v2.toNat, 2688]
@[reducible] def k0_t24_loop : Scf.Loop 32 :=
  let c0_i32_322 : BitVec 32 := 0#32
  let c128_i32_323 : BitVec 32 := 128#32
  let v211 : BitVec 32 := Scalar.addi c0_i32_322 c128_i32_323
  let c1_i32_324 : BitVec 32 := 1#32
  ⟨c0_i32_322, v211, c1_i32_324⟩

def k0_chk24 (v242 : IVec S16 32) : Prop :=
  (∀ a x, ((![v242] : Fin 1 → IVec S16 32) a x).toNat < S3328.size a)
instance k0_chk24.dec : ∀ (v242 : IVec S16 32), Decidable (k0_chk24 v242) := fun v242 => decidable_of_iff' _ (Iff.of_eq (k0_chk24.eq_1 v242))
theorem k0_idx24_inb : ∀ (v242 : IVec S16 32) (k0_hw24 : k0_chk24 v242), ∀ a x, ((![v242] : Fin 1 → IVec S16 32) a x).toNat < S3328.size a := fun v242 k0_hw24 => k0_hw24
def k0_off203 (k0_t24 : Fin k0_t24_loop.trips) : Fin 2 → Nat :=
  let c0_i32_322 : BitVec 32 := 0#32
  let c1_i32_324 : BitVec 32 := 1#32
  let arg26 : BitVec 32 := Scf.iv c0_i32_322 c1_i32_324 k0_t24
  let v244 : Index := Scalar.indexCast arg26
  let c0 : Index := 0#32
  ![v244.toNat, 0]
def k0_off204 (k0_t24 : Fin k0_t24_loop.trips) : Fin 2 → Nat :=
  let c0_i32_322 : BitVec 32 := 0#32
  let c1_i32_324 : BitVec 32 := 1#32
  let arg26 : BitVec 32 := Scf.iv c0_i32_322 c1_i32_324 k0_t24
  let v249 : Index := Scalar.indexCast arg26
  let c16 : Index := 16#32
  ![v249.toNat, 16]
def k0_off205 (k0_t24 : Fin k0_t24_loop.trips) : Fin 2 → Nat :=
  let c0_i32_322 : BitVec 32 := 0#32
  let c1_i32_324 : BitVec 32 := 1#32
  let arg26 : BitVec 32 := Scf.iv c0_i32_322 c1_i32_324 k0_t24
  let v254 : Index := Scalar.indexCast arg26
  let c32 : Index := 32#32
  ![v254.toNat, 32]
def k0_off206 (k0_t24 : Fin k0_t24_loop.trips) : Fin 2 → Nat :=
  let c0_i32_322 : BitVec 32 := 0#32
  let c1_i32_324 : BitVec 32 := 1#32
  let arg26 : BitVec 32 := Scf.iv c0_i32_322 c1_i32_324 k0_t24
  let v259 : Index := Scalar.indexCast arg26
  let c48 : Index := 48#32
  ![v259.toNat, 48]
def k0_off207 (k0_t24 : Fin k0_t24_loop.trips) : Fin 2 → Nat :=
  let c0_i32_322 : BitVec 32 := 0#32
  let c1_i32_324 : BitVec 32 := 1#32
  let arg26 : BitVec 32 := Scf.iv c0_i32_322 c1_i32_324 k0_t24
  let v264 : Index := Scalar.indexCast arg26
  let c64 : Index := 64#32
  ![v264.toNat, 64]
def k0_off208 (k0_t24 : Fin k0_t24_loop.trips) : Fin 2 → Nat :=
  let c0_i32_322 : BitVec 32 := 0#32
  let c1_i32_324 : BitVec 32 := 1#32
  let arg26 : BitVec 32 := Scf.iv c0_i32_322 c1_i32_324 k0_t24
  let v269 : Index := Scalar.indexCast arg26
  let c80 : Index := 80#32
  ![v269.toNat, 80]
def k0_off209 (k0_t24 : Fin k0_t24_loop.trips) : Fin 2 → Nat :=
  let c0_i32_322 : BitVec 32 := 0#32
  let c1_i32_324 : BitVec 32 := 1#32
  let arg26 : BitVec 32 := Scf.iv c0_i32_322 c1_i32_324 k0_t24
  let v274 : Index := Scalar.indexCast arg26
  let c96 : Index := 96#32
  ![v274.toNat, 96]
def k0_off210 (k0_t24 : Fin k0_t24_loop.trips) : Fin 2 → Nat :=
  let c0_i32_322 : BitVec 32 := 0#32
  let c1_i32_324 : BitVec 32 := 1#32
  let arg26 : BitVec 32 := Scf.iv c0_i32_322 c1_i32_324 k0_t24
  let v279 : Index := Scalar.indexCast arg26
  let c112 : Index := 112#32
  ![v279.toNat, 112]
def k0_off211 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2816_i32_326 : BitVec 32 := 2816#32
  ![v2.toNat, 2816]
@[reducible] def k0_t25_loop : Scf.Loop 32 :=
  let c0_i32_336 : BitVec 32 := 0#32
  let c128_i32_337 : BitVec 32 := 128#32
  let v220 : BitVec 32 := Scalar.addi c0_i32_336 c128_i32_337
  let c1_i32_338 : BitVec 32 := 1#32
  ⟨c0_i32_336, v220, c1_i32_338⟩

def k0_chk25 (v242 : IVec S16 32) : Prop :=
  (∀ a x, ((![v242] : Fin 1 → IVec S16 32) a x).toNat < S3328.size a)
instance k0_chk25.dec : ∀ (v242 : IVec S16 32), Decidable (k0_chk25 v242) := fun v242 => decidable_of_iff' _ (Iff.of_eq (k0_chk25.eq_1 v242))
theorem k0_idx25_inb : ∀ (v242 : IVec S16 32) (k0_hw25 : k0_chk25 v242), ∀ a x, ((![v242] : Fin 1 → IVec S16 32) a x).toNat < S3328.size a := fun v242 k0_hw25 => k0_hw25
def k0_off212 (k0_t25 : Fin k0_t25_loop.trips) : Fin 2 → Nat :=
  let c0_i32_336 : BitVec 32 := 0#32
  let c1_i32_338 : BitVec 32 := 1#32
  let arg26 : BitVec 32 := Scf.iv c0_i32_336 c1_i32_338 k0_t25
  let v244 : Index := Scalar.indexCast arg26
  let c0 : Index := 0#32
  ![v244.toNat, 0]
def k0_off213 (k0_t25 : Fin k0_t25_loop.trips) : Fin 2 → Nat :=
  let c0_i32_336 : BitVec 32 := 0#32
  let c1_i32_338 : BitVec 32 := 1#32
  let arg26 : BitVec 32 := Scf.iv c0_i32_336 c1_i32_338 k0_t25
  let v249 : Index := Scalar.indexCast arg26
  let c16 : Index := 16#32
  ![v249.toNat, 16]
def k0_off214 (k0_t25 : Fin k0_t25_loop.trips) : Fin 2 → Nat :=
  let c0_i32_336 : BitVec 32 := 0#32
  let c1_i32_338 : BitVec 32 := 1#32
  let arg26 : BitVec 32 := Scf.iv c0_i32_336 c1_i32_338 k0_t25
  let v254 : Index := Scalar.indexCast arg26
  let c32 : Index := 32#32
  ![v254.toNat, 32]
def k0_off215 (k0_t25 : Fin k0_t25_loop.trips) : Fin 2 → Nat :=
  let c0_i32_336 : BitVec 32 := 0#32
  let c1_i32_338 : BitVec 32 := 1#32
  let arg26 : BitVec 32 := Scf.iv c0_i32_336 c1_i32_338 k0_t25
  let v259 : Index := Scalar.indexCast arg26
  let c48 : Index := 48#32
  ![v259.toNat, 48]
def k0_off216 (k0_t25 : Fin k0_t25_loop.trips) : Fin 2 → Nat :=
  let c0_i32_336 : BitVec 32 := 0#32
  let c1_i32_338 : BitVec 32 := 1#32
  let arg26 : BitVec 32 := Scf.iv c0_i32_336 c1_i32_338 k0_t25
  let v264 : Index := Scalar.indexCast arg26
  let c64 : Index := 64#32
  ![v264.toNat, 64]
def k0_off217 (k0_t25 : Fin k0_t25_loop.trips) : Fin 2 → Nat :=
  let c0_i32_336 : BitVec 32 := 0#32
  let c1_i32_338 : BitVec 32 := 1#32
  let arg26 : BitVec 32 := Scf.iv c0_i32_336 c1_i32_338 k0_t25
  let v269 : Index := Scalar.indexCast arg26
  let c80 : Index := 80#32
  ![v269.toNat, 80]
def k0_off218 (k0_t25 : Fin k0_t25_loop.trips) : Fin 2 → Nat :=
  let c0_i32_336 : BitVec 32 := 0#32
  let c1_i32_338 : BitVec 32 := 1#32
  let arg26 : BitVec 32 := Scf.iv c0_i32_336 c1_i32_338 k0_t25
  let v274 : Index := Scalar.indexCast arg26
  let c96 : Index := 96#32
  ![v274.toNat, 96]
def k0_off219 (k0_t25 : Fin k0_t25_loop.trips) : Fin 2 → Nat :=
  let c0_i32_336 : BitVec 32 := 0#32
  let c1_i32_338 : BitVec 32 := 1#32
  let arg26 : BitVec 32 := Scf.iv c0_i32_336 c1_i32_338 k0_t25
  let v279 : Index := Scalar.indexCast arg26
  let c112 : Index := 112#32
  ![v279.toNat, 112]
def k0_off220 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c2944_i32_340 : BitVec 32 := 2944#32
  ![v2.toNat, 2944]
@[reducible] def k0_t26_loop : Scf.Loop 32 :=
  let c0_i32_346 : BitVec 32 := 0#32
  let c128_i32_347 : BitVec 32 := 128#32
  let v225 : BitVec 32 := Scalar.addi c0_i32_346 c128_i32_347
  let c1_i32_348 : BitVec 32 := 1#32
  ⟨c0_i32_346, v225, c1_i32_348⟩

def k0_chk26 (v242 : IVec S16 32) : Prop :=
  (∀ a x, ((![v242] : Fin 1 → IVec S16 32) a x).toNat < S3328.size a)
instance k0_chk26.dec : ∀ (v242 : IVec S16 32), Decidable (k0_chk26 v242) := fun v242 => decidable_of_iff' _ (Iff.of_eq (k0_chk26.eq_1 v242))
theorem k0_idx26_inb : ∀ (v242 : IVec S16 32) (k0_hw26 : k0_chk26 v242), ∀ a x, ((![v242] : Fin 1 → IVec S16 32) a x).toNat < S3328.size a := fun v242 k0_hw26 => k0_hw26
def k0_off221 (k0_t26 : Fin k0_t26_loop.trips) : Fin 2 → Nat :=
  let c0_i32_346 : BitVec 32 := 0#32
  let c1_i32_348 : BitVec 32 := 1#32
  let arg26 : BitVec 32 := Scf.iv c0_i32_346 c1_i32_348 k0_t26
  let v244 : Index := Scalar.indexCast arg26
  let c0 : Index := 0#32
  ![v244.toNat, 0]
def k0_off222 (k0_t26 : Fin k0_t26_loop.trips) : Fin 2 → Nat :=
  let c0_i32_346 : BitVec 32 := 0#32
  let c1_i32_348 : BitVec 32 := 1#32
  let arg26 : BitVec 32 := Scf.iv c0_i32_346 c1_i32_348 k0_t26
  let v249 : Index := Scalar.indexCast arg26
  let c16 : Index := 16#32
  ![v249.toNat, 16]
def k0_off223 (k0_t26 : Fin k0_t26_loop.trips) : Fin 2 → Nat :=
  let c0_i32_346 : BitVec 32 := 0#32
  let c1_i32_348 : BitVec 32 := 1#32
  let arg26 : BitVec 32 := Scf.iv c0_i32_346 c1_i32_348 k0_t26
  let v254 : Index := Scalar.indexCast arg26
  let c32 : Index := 32#32
  ![v254.toNat, 32]
def k0_off224 (k0_t26 : Fin k0_t26_loop.trips) : Fin 2 → Nat :=
  let c0_i32_346 : BitVec 32 := 0#32
  let c1_i32_348 : BitVec 32 := 1#32
  let arg26 : BitVec 32 := Scf.iv c0_i32_346 c1_i32_348 k0_t26
  let v259 : Index := Scalar.indexCast arg26
  let c48 : Index := 48#32
  ![v259.toNat, 48]
def k0_off225 (k0_t26 : Fin k0_t26_loop.trips) : Fin 2 → Nat :=
  let c0_i32_346 : BitVec 32 := 0#32
  let c1_i32_348 : BitVec 32 := 1#32
  let arg26 : BitVec 32 := Scf.iv c0_i32_346 c1_i32_348 k0_t26
  let v264 : Index := Scalar.indexCast arg26
  let c64 : Index := 64#32
  ![v264.toNat, 64]
def k0_off226 (k0_t26 : Fin k0_t26_loop.trips) : Fin 2 → Nat :=
  let c0_i32_346 : BitVec 32 := 0#32
  let c1_i32_348 : BitVec 32 := 1#32
  let arg26 : BitVec 32 := Scf.iv c0_i32_346 c1_i32_348 k0_t26
  let v269 : Index := Scalar.indexCast arg26
  let c80 : Index := 80#32
  ![v269.toNat, 80]
def k0_off227 (k0_t26 : Fin k0_t26_loop.trips) : Fin 2 → Nat :=
  let c0_i32_346 : BitVec 32 := 0#32
  let c1_i32_348 : BitVec 32 := 1#32
  let arg26 : BitVec 32 := Scf.iv c0_i32_346 c1_i32_348 k0_t26
  let v274 : Index := Scalar.indexCast arg26
  let c96 : Index := 96#32
  ![v274.toNat, 96]
def k0_off228 (k0_t26 : Fin k0_t26_loop.trips) : Fin 2 → Nat :=
  let c0_i32_346 : BitVec 32 := 0#32
  let c1_i32_348 : BitVec 32 := 1#32
  let arg26 : BitVec 32 := Scf.iv c0_i32_346 c1_i32_348 k0_t26
  let v279 : Index := Scalar.indexCast arg26
  let c112 : Index := 112#32
  ![v279.toNat, 112]
def k0_off229 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3072_i32_350 : BitVec 32 := 3072#32
  ![v2.toNat, 3072]
@[reducible] def k0_t27_loop : Scf.Loop 32 :=
  let c0_i32_356 : BitVec 32 := 0#32
  let c128_i32_357 : BitVec 32 := 128#32
  let v230 : BitVec 32 := Scalar.addi c0_i32_356 c128_i32_357
  let c1_i32_358 : BitVec 32 := 1#32
  ⟨c0_i32_356, v230, c1_i32_358⟩

def k0_chk27 (v242 : IVec S16 32) : Prop :=
  (∀ a x, ((![v242] : Fin 1 → IVec S16 32) a x).toNat < S3328.size a)
instance k0_chk27.dec : ∀ (v242 : IVec S16 32), Decidable (k0_chk27 v242) := fun v242 => decidable_of_iff' _ (Iff.of_eq (k0_chk27.eq_1 v242))
theorem k0_idx27_inb : ∀ (v242 : IVec S16 32) (k0_hw27 : k0_chk27 v242), ∀ a x, ((![v242] : Fin 1 → IVec S16 32) a x).toNat < S3328.size a := fun v242 k0_hw27 => k0_hw27
def k0_off230 (k0_t27 : Fin k0_t27_loop.trips) : Fin 2 → Nat :=
  let c0_i32_356 : BitVec 32 := 0#32
  let c1_i32_358 : BitVec 32 := 1#32
  let arg26 : BitVec 32 := Scf.iv c0_i32_356 c1_i32_358 k0_t27
  let v244 : Index := Scalar.indexCast arg26
  let c0 : Index := 0#32
  ![v244.toNat, 0]
def k0_off231 (k0_t27 : Fin k0_t27_loop.trips) : Fin 2 → Nat :=
  let c0_i32_356 : BitVec 32 := 0#32
  let c1_i32_358 : BitVec 32 := 1#32
  let arg26 : BitVec 32 := Scf.iv c0_i32_356 c1_i32_358 k0_t27
  let v249 : Index := Scalar.indexCast arg26
  let c16 : Index := 16#32
  ![v249.toNat, 16]
def k0_off232 (k0_t27 : Fin k0_t27_loop.trips) : Fin 2 → Nat :=
  let c0_i32_356 : BitVec 32 := 0#32
  let c1_i32_358 : BitVec 32 := 1#32
  let arg26 : BitVec 32 := Scf.iv c0_i32_356 c1_i32_358 k0_t27
  let v254 : Index := Scalar.indexCast arg26
  let c32 : Index := 32#32
  ![v254.toNat, 32]
def k0_off233 (k0_t27 : Fin k0_t27_loop.trips) : Fin 2 → Nat :=
  let c0_i32_356 : BitVec 32 := 0#32
  let c1_i32_358 : BitVec 32 := 1#32
  let arg26 : BitVec 32 := Scf.iv c0_i32_356 c1_i32_358 k0_t27
  let v259 : Index := Scalar.indexCast arg26
  let c48 : Index := 48#32
  ![v259.toNat, 48]
def k0_off234 (k0_t27 : Fin k0_t27_loop.trips) : Fin 2 → Nat :=
  let c0_i32_356 : BitVec 32 := 0#32
  let c1_i32_358 : BitVec 32 := 1#32
  let arg26 : BitVec 32 := Scf.iv c0_i32_356 c1_i32_358 k0_t27
  let v264 : Index := Scalar.indexCast arg26
  let c64 : Index := 64#32
  ![v264.toNat, 64]
def k0_off235 (k0_t27 : Fin k0_t27_loop.trips) : Fin 2 → Nat :=
  let c0_i32_356 : BitVec 32 := 0#32
  let c1_i32_358 : BitVec 32 := 1#32
  let arg26 : BitVec 32 := Scf.iv c0_i32_356 c1_i32_358 k0_t27
  let v269 : Index := Scalar.indexCast arg26
  let c80 : Index := 80#32
  ![v269.toNat, 80]
def k0_off236 (k0_t27 : Fin k0_t27_loop.trips) : Fin 2 → Nat :=
  let c0_i32_356 : BitVec 32 := 0#32
  let c1_i32_358 : BitVec 32 := 1#32
  let arg26 : BitVec 32 := Scf.iv c0_i32_356 c1_i32_358 k0_t27
  let v274 : Index := Scalar.indexCast arg26
  let c96 : Index := 96#32
  ![v274.toNat, 96]
def k0_off237 (k0_t27 : Fin k0_t27_loop.trips) : Fin 2 → Nat :=
  let c0_i32_356 : BitVec 32 := 0#32
  let c1_i32_358 : BitVec 32 := 1#32
  let arg26 : BitVec 32 := Scf.iv c0_i32_356 c1_i32_358 k0_t27
  let v279 : Index := Scalar.indexCast arg26
  let c112 : Index := 112#32
  ![v279.toNat, 112]
def k0_off238 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c3200_i32_360 : BitVec 32 := 3200#32
  ![v2.toNat, 3200]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3328 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3328x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S512x1 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .smem S1x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x26x1_S4096x26 : S4096x26x1.ShapeCasts S4096x26
  bcast_S_S26 : S_.BroadcastsInDim S26 (![] : Fin 0 → Fin S26.rank)
  bcast_S26_S1x26_1 : S26.BroadcastsInDim S1x26 (![1] : Fin 1 → Fin S1x26.rank)
  bcast_S1x26_S4096x26_0_1 : S1x26.BroadcastsInDim S4096x26 (![0, 1] : Fin 2 → Fin S4096x26.rank)
  shapeCasts_S4096x26_S1x32x128x26 : S4096x26.ShapeCasts S1x32x128x26
  transposes_S1x32x128x26_S1x32x26x128_0_1_3_2 : S1x32x128x26.Transposes [0, 1, 3, 2] S1x32x26x128
  shapeCasts_S1x32x26x128_S1x106496 : S1x32x26x128.ShapeCasts S1x106496
  bcast_S_S4096x6 : S_.BroadcastsInDim S4096x6 (![] : Fin 0 → Fin S4096x6.rank)
  concatenates_S4096x26_S4096x6_S4096x32_d1 : Shape.Concatenates [S4096x26, S4096x6] S4096x32 1
  shapeCasts_S4096x32_S1x131072 : S4096x32.ShapeCasts S1x131072
  shapeCasts_S26x1000x128_S26000x128 : S26x1000x128.ShapeCasts S26000x128
  shapeCasts_S26x1000x1_S26000 : S26x1000x1.ShapeCasts S26000
  bcast_S_S8 : S_.BroadcastsInDim S8 (![] : Fin 0 → Fin S8.rank)
  concatenates_S26000_S8_S26008_d0 : Shape.Concatenates [S26000, S8] S26008 0
  slices_S3355x1024_S26x1024_1_0 : S3355x1024.Slices ![1, 0] S26x1024
  bcast_S_S6x1024 : S_.BroadcastsInDim S6x1024 (![] : Fin 0 → Fin S6x1024.rank)
  concatenates_S26x1024_S6x1024_S32x1024_d0 : Shape.Concatenates [S26x1024, S6x1024] S32x1024 0
  bitsLt_bf16_f32 : FTy.bits .bf16 < FTy.bits .f32
  slices_S3355x1024_S3328x1024_27_0 : S3355x1024.Slices ![27, 0] S3328x1024
  bcast_S1024_S1x1024_1 : S1024.BroadcastsInDim S1x1024 (![1] : Fin 1 → Fin S1x1024.rank)
  bcast_S1_S1x1_0 : S1.BroadcastsInDim S1x1 (![0] : Fin 1 → Fin S1x1.rank)
  slices_S3355x1024_S1x1024_0_0 : S3355x1024.Slices ![0, 0] S1x1024
  bcast_S1x1_S1x1024_0_1 : S1x1.BroadcastsInDim S1x1024 (![0, 1] : Fin 2 → Fin S1x1024.rank)
  shapeCasts_S1x106496_S106496 : S1x106496.ShapeCasts S106496
  shapeCasts_S1x131072_S131072 : S1x131072.ShapeCasts S131072
  inb_S3328_S128_0 : ∀ a, (![0] : Fin 1 → Nat) a + S128.size a ≤ S3328.size a
  inb_S26000x128_S26000x128_0_0 : ∀ a, (![0, 0] : Fin 2 → Nat) a + S26000x128.size a ≤ S26000x128.size a
  gathers_S26000x128_S128x128 : S26000x128.Gathers 0 S128x128
  inb_S3328_S128_128 : ∀ a, (![128] : Fin 1 → Nat) a + S128.size a ≤ S3328.size a
  h_S16 : 0 < S16.numel
  h_S26008 : 0 < S26008.numel
  inb_S3328_S128_256 : ∀ a, (![256] : Fin 1 → Nat) a + S128.size a ≤ S3328.size a
  h_S3328 : 0 < S3328.numel
  h_S1x16 : 0 < S1x16.numel
  shapeCasts_S1x16_S16 : S1x16.ShapeCasts S16
  shapeCasts_S16_S1x16 : S16.ShapeCasts S1x16
  inb_S3328_S128_384 : ∀ a, (![384] : Fin 1 → Nat) a + S128.size a ≤ S3328.size a
  inb_S3328_S128_512 : ∀ a, (![512] : Fin 1 → Nat) a + S128.size a ≤ S3328.size a
  inb_S3328_S128_640 : ∀ a, (![640] : Fin 1 → Nat) a + S128.size a ≤ S3328.size a
  inb_S3328_S128_768 : ∀ a, (![768] : Fin 1 → Nat) a + S128.size a ≤ S3328.size a
  inb_S3328_S128_896 : ∀ a, (![896] : Fin 1 → Nat) a + S128.size a ≤ S3328.size a
  inb_S3328_S128_1024 : ∀ a, (![1024] : Fin 1 → Nat) a + S128.size a ≤ S3328.size a
  inb_S3328_S128_1152 : ∀ a, (![1152] : Fin 1 → Nat) a + S128.size a ≤ S3328.size a
  inb_S3328_S128_1280 : ∀ a, (![1280] : Fin 1 → Nat) a + S128.size a ≤ S3328.size a
  inb_S3328_S128_1408 : ∀ a, (![1408] : Fin 1 → Nat) a + S128.size a ≤ S3328.size a
  inb_S3328_S128_1536 : ∀ a, (![1536] : Fin 1 → Nat) a + S128.size a ≤ S3328.size a
  inb_S3328_S128_1664 : ∀ a, (![1664] : Fin 1 → Nat) a + S128.size a ≤ S3328.size a
  inb_S3328_S128_1792 : ∀ a, (![1792] : Fin 1 → Nat) a + S128.size a ≤ S3328.size a
  inb_S3328_S128_1920 : ∀ a, (![1920] : Fin 1 → Nat) a + S128.size a ≤ S3328.size a
  inb_S3328_S128_2048 : ∀ a, (![2048] : Fin 1 → Nat) a + S128.size a ≤ S3328.size a
  inb_S3328_S128_2176 : ∀ a, (![2176] : Fin 1 → Nat) a + S128.size a ≤ S3328.size a
  inb_S3328_S128_2304 : ∀ a, (![2304] : Fin 1 → Nat) a + S128.size a ≤ S3328.size a
  inb_S3328_S128_2432 : ∀ a, (![2432] : Fin 1 → Nat) a + S128.size a ≤ S3328.size a
  inb_S3328_S128_2560 : ∀ a, (![2560] : Fin 1 → Nat) a + S128.size a ≤ S3328.size a
  inb_S3328_S128_2688 : ∀ a, (![2688] : Fin 1 → Nat) a + S128.size a ≤ S3328.size a
  inb_S3328_S128_2816 : ∀ a, (![2816] : Fin 1 → Nat) a + S128.size a ≤ S3328.size a
  inb_S3328_S128_2944 : ∀ a, (![2944] : Fin 1 → Nat) a + S128.size a ≤ S3328.size a
  inb_S3328_S128_3072 : ∀ a, (![3072] : Fin 1 → Nat) a + S128.size a ≤ S3328.size a
  inb_S3328_S128_3200 : ∀ a, (![3200] : Fin 1 → Nat) a + S128.size a ≤ S3328.size a
  shapeCasts_S131072_S4096x32 : S131072.ShapeCasts S4096x32
  shapeCasts_S512_S1x512 : S512.ShapeCasts S1x512
  shapeCasts_S1_S1x1 : S1.ShapeCasts S1x1
  inb_S512x3328_S512x3328_0_0 : ∀ a, (![0, 0] : Fin 2 → Nat) a + S512x3328.size a ≤ S512x3328.size a
  h_S512x3328 : 0 < S512x3328.numel
  shapeCasts_S512x3328_S512x3328 : S512x3328.ShapeCasts S512x3328
  inb_S3328x1024_S3328x1024_0_0 : ∀ a, (![0, 0] : Fin 2 → Nat) a + S3328x1024.size a ≤ S3328x1024.size a
  h_S3328x1024 : 0 < S3328x1024.numel
  shapeCasts_S3328x1024_S3328x1024 : S3328x1024.ShapeCasts S3328x1024
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1_S1x1_0_0 : ∀ a, (![0, 0] : Fin 2 → Nat) a + S1x1.size a ≤ S1x1.size a
  numel1_S1x1 : S1x1.numel = 1
  dot_S512x3328_S3328x1024_S512x1024_1_0_0_1_n_n_wf : DotDims.WF S512x3328 S3328x1024 S512x1024 [1] [0] [0] [1] [] []
  dot_S512x32_S32x1024_S512x1024_1_0_0_1_n_n_wf : DotDims.WF S512x32 S32x1024 S512x1024 [1] [0] [0] [1] [] []
  dot_S512x1024_S1024x512_S512x512_1_0_0_1_n_n_wf : DotDims.WF S512x1024 S1024x512 S512x512 [1] [0] [0] [1] [] []
  dot_S512x512_S512x1_S512x1_1_0_0_1_n_n_wf : DotDims.WF S512x512 S512x1 S512x1 [1] [0] [0] [1] [] []
  hcc0_scratch9 : 0 + S_.numel ≤ 28
  hcc0_scratch10 : 1 + S_.numel ≤ 28
  hcc0_scratch11 : 2 + S_.numel ≤ 28
  hcc0_scratch12 : 3 + S_.numel ≤ 28
  hcc0_scratch13 : 4 + S_.numel ≤ 28
  hcc0_scratch14 : 5 + S_.numel ≤ 28
  hcc0_scratch15 : 6 + S_.numel ≤ 28
  hcc0_scratch16 : 7 + S_.numel ≤ 28
  hcc0_scoped0 : 8 + S_.numel ≤ 28
  hcc0_scoped1 : 9 + S_.numel ≤ 28
  hcc0_scoped2 : 10 + S_.numel ≤ 28
  hcc0_scoped3 : 11 + S_.numel ≤ 28
  hcc0_scoped4 : 12 + S_.numel ≤ 28
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S3328.size a ≤ S106496.size a
  k0_off2_inb : ∀ i : grid0.Coords, ∀ a, (k0_off2 i) a + S4096.size a ≤ S131072.size a
  k0_t1_ok : k0_t1_loop.OK
  k0_off3_inb : ∀ k0_t1 : Fin k0_t1_loop.trips, ∀ a, (k0_off3 k0_t1) a + S16.size a ≤ S4096.size a
  k0_off4_inb : ∀ k0_t1 : Fin k0_t1_loop.trips, ∀ a, (k0_off4 k0_t1) a + S16.size a ≤ S4096.size a
  k0_t2_ok : k0_t2_loop.OK
  k0_off5_inb : ∀ k0_t2 : Fin k0_t2_loop.trips, ∀ a, (k0_off5 k0_t2) a + S1x16.size a ≤ S128x128.size a
  k0_off6_inb : ∀ k0_t2 : Fin k0_t2_loop.trips, ∀ a, (k0_off6 k0_t2) a + S1x16.size a ≤ S128x128.size a
  k0_off7_inb : ∀ k0_t2 : Fin k0_t2_loop.trips, ∀ a, (k0_off7 k0_t2) a + S1x16.size a ≤ S128x128.size a
  k0_off8_inb : ∀ k0_t2 : Fin k0_t2_loop.trips, ∀ a, (k0_off8 k0_t2) a + S1x16.size a ≤ S128x128.size a
  k0_off9_inb : ∀ k0_t2 : Fin k0_t2_loop.trips, ∀ a, (k0_off9 k0_t2) a + S1x16.size a ≤ S128x128.size a
  k0_off10_inb : ∀ k0_t2 : Fin k0_t2_loop.trips, ∀ a, (k0_off10 k0_t2) a + S1x16.size a ≤ S128x128.size a
  k0_off11_inb : ∀ k0_t2 : Fin k0_t2_loop.trips, ∀ a, (k0_off11 k0_t2) a + S1x16.size a ≤ S128x128.size a
  k0_off12_inb : ∀ k0_t2 : Fin k0_t2_loop.trips, ∀ a, (k0_off12 k0_t2) a + S1x16.size a ≤ S128x128.size a
  k0_off13_inb : ∀ i : grid0.Coords, ∀ a, (k0_off13 i) a + S128x128.size a ≤ S4096x3328.size a
  k0_t3_ok : k0_t3_loop.OK
  k0_off14_inb : ∀ k0_t3 : Fin k0_t3_loop.trips, ∀ a, (k0_off14 k0_t3) a + S1x16.size a ≤ S128x128.size a
  k0_off15_inb : ∀ k0_t3 : Fin k0_t3_loop.trips, ∀ a, (k0_off15 k0_t3) a + S1x16.size a ≤ S128x128.size a
  k0_off16_inb : ∀ k0_t3 : Fin k0_t3_loop.trips, ∀ a, (k0_off16 k0_t3) a + S1x16.size a ≤ S128x128.size a
  k0_off17_inb : ∀ k0_t3 : Fin k0_t3_loop.trips, ∀ a, (k0_off17 k0_t3) a + S1x16.size a ≤ S128x128.size a
  k0_off18_inb : ∀ k0_t3 : Fin k0_t3_loop.trips, ∀ a, (k0_off18 k0_t3) a + S1x16.size a ≤ S128x128.size a
  k0_off19_inb : ∀ k0_t3 : Fin k0_t3_loop.trips, ∀ a, (k0_off19 k0_t3) a + S1x16.size a ≤ S128x128.size a
  k0_off20_inb : ∀ k0_t3 : Fin k0_t3_loop.trips, ∀ a, (k0_off20 k0_t3) a + S1x16.size a ≤ S128x128.size a
  k0_off21_inb : ∀ k0_t3 : Fin k0_t3_loop.trips, ∀ a, (k0_off21 k0_t3) a + S1x16.size a ≤ S128x128.size a
  k0_off22_inb : ∀ i : grid0.Coords, ∀ a, (k0_off22 i) a + S128x128.size a ≤ S4096x3328.size a
  k0_t4_ok : k0_t4_loop.OK
  k0_off23_inb : ∀ k0_t4 : Fin k0_t4_loop.trips, ∀ a, (k0_off23 k0_t4) a + S1x16.size a ≤ S128x128.size a
  k0_off24_inb : ∀ k0_t4 : Fin k0_t4_loop.trips, ∀ a, (k0_off24 k0_t4) a + S1x16.size a ≤ S128x128.size a
  k0_off25_inb : ∀ k0_t4 : Fin k0_t4_loop.trips, ∀ a, (k0_off25 k0_t4) a + S1x16.size a ≤ S128x128.size a
  k0_off26_inb : ∀ k0_t4 : Fin k0_t4_loop.trips, ∀ a, (k0_off26 k0_t4) a + S1x16.size a ≤ S128x128.size a
  k0_off27_inb : ∀ k0_t4 : Fin k0_t4_loop.trips, ∀ a, (k0_off27 k0_t4) a + S1x16.size a ≤ S128x128.size a
  k0_off28_inb : ∀ k0_t4 : Fin k0_t4_loop.trips, ∀ a, (k0_off28 k0_t4) a + S1x16.size a ≤ S128x128.size a
  k0_off29_inb : ∀ k0_t4 : Fin k0_t4_loop.trips, ∀ a, (k0_off29 k0_t4) a + S1x16.size a ≤ S128x128.size a
  k0_off30_inb : ∀ k0_t4 : Fin k0_t4_loop.trips, ∀ a, (k0_off30 k0_t4) a + S1x16.size a ≤ S128x128.size a
  k0_off31_inb : ∀ i : grid0.Coords, ∀ a, (k0_off31 i) a + S128x128.size a ≤ S4096x3328.size a
  k0_t5_ok : k0_t5_loop.OK
  k0_off32_inb : ∀ k0_t5 : Fin k0_t5_loop.trips, ∀ a, (k0_off32 k0_t5) a + S1x16.size a ≤ S128x128.size a
  k0_off33_inb : ∀ k0_t5 : Fin k0_t5_loop.trips, ∀ a, (k0_off33 k0_t5) a + S1x16.size a ≤ S128x128.size a
  k0_off34_inb : ∀ k0_t5 : Fin k0_t5_loop.trips, ∀ a, (k0_off34 k0_t5) a + S1x16.size a ≤ S128x128.size a
  k0_off35_inb : ∀ k0_t5 : Fin k0_t5_loop.trips, ∀ a, (k0_off35 k0_t5) a + S1x16.size a ≤ S128x128.size a
  k0_off36_inb : ∀ k0_t5 : Fin k0_t5_loop.trips, ∀ a, (k0_off36 k0_t5) a + S1x16.size a ≤ S128x128.size a
  k0_off37_inb : ∀ k0_t5 : Fin k0_t5_loop.trips, ∀ a, (k0_off37 k0_t5) a + S1x16.size a ≤ S128x128.size a
  k0_off38_inb : ∀ k0_t5 : Fin k0_t5_loop.trips, ∀ a, (k0_off38 k0_t5) a + S1x16.size a ≤ S128x128.size a
  k0_off39_inb : ∀ k0_t5 : Fin k0_t5_loop.trips, ∀ a, (k0_off39 k0_t5) a + S1x16.size a ≤ S128x128.size a
  k0_off40_inb : ∀ i : grid0.Coords, ∀ a, (k0_off40 i) a + S128x128.size a ≤ S4096x3328.size a
  k0_t6_ok : k0_t6_loop.OK
  k0_off41_inb : ∀ k0_t6 : Fin k0_t6_loop.trips, ∀ a, (k0_off41 k0_t6) a + S1x16.size a ≤ S128x128.size a
  k0_off42_inb : ∀ k0_t6 : Fin k0_t6_loop.trips, ∀ a, (k0_off42 k0_t6) a + S1x16.size a ≤ S128x128.size a
  k0_off43_inb : ∀ k0_t6 : Fin k0_t6_loop.trips, ∀ a, (k0_off43 k0_t6) a + S1x16.size a ≤ S128x128.size a
  k0_off44_inb : ∀ k0_t6 : Fin k0_t6_loop.trips, ∀ a, (k0_off44 k0_t6) a + S1x16.size a ≤ S128x128.size a
  k0_off45_inb : ∀ k0_t6 : Fin k0_t6_loop.trips, ∀ a, (k0_off45 k0_t6) a + S1x16.size a ≤ S128x128.size a
  k0_off46_inb : ∀ k0_t6 : Fin k0_t6_loop.trips, ∀ a, (k0_off46 k0_t6) a + S1x16.size a ≤ S128x128.size a
  k0_off47_inb : ∀ k0_t6 : Fin k0_t6_loop.trips, ∀ a, (k0_off47 k0_t6) a + S1x16.size a ≤ S128x128.size a
  k0_off48_inb : ∀ k0_t6 : Fin k0_t6_loop.trips, ∀ a, (k0_off48 k0_t6) a + S1x16.size a ≤ S128x128.size a
  k0_off49_inb : ∀ i : grid0.Coords, ∀ a, (k0_off49 i) a + S128x128.size a ≤ S4096x3328.size a
  k0_t7_ok : k0_t7_loop.OK
  k0_off50_inb : ∀ k0_t7 : Fin k0_t7_loop.trips, ∀ a, (k0_off50 k0_t7) a + S1x16.size a ≤ S128x128.size a
  k0_off51_inb : ∀ k0_t7 : Fin k0_t7_loop.trips, ∀ a, (k0_off51 k0_t7) a + S1x16.size a ≤ S128x128.size a
  k0_off52_inb : ∀ k0_t7 : Fin k0_t7_loop.trips, ∀ a, (k0_off52 k0_t7) a + S1x16.size a ≤ S128x128.size a
  k0_off53_inb : ∀ k0_t7 : Fin k0_t7_loop.trips, ∀ a, (k0_off53 k0_t7) a + S1x16.size a ≤ S128x128.size a
  k0_off54_inb : ∀ k0_t7 : Fin k0_t7_loop.trips, ∀ a, (k0_off54 k0_t7) a + S1x16.size a ≤ S128x128.size a
  k0_off55_inb : ∀ k0_t7 : Fin k0_t7_loop.trips, ∀ a, (k0_off55 k0_t7) a + S1x16.size a ≤ S128x128.size a
  k0_off56_inb : ∀ k0_t7 : Fin k0_t7_loop.trips, ∀ a, (k0_off56 k0_t7) a + S1x16.size a ≤ S128x128.size a
  k0_off57_inb : ∀ k0_t7 : Fin k0_t7_loop.trips, ∀ a, (k0_off57 k0_t7) a + S1x16.size a ≤ S128x128.size a
  k0_off58_inb : ∀ i : grid0.Coords, ∀ a, (k0_off58 i) a + S128x128.size a ≤ S4096x3328.size a
  k0_t8_ok : k0_t8_loop.OK
  k0_off59_inb : ∀ k0_t8 : Fin k0_t8_loop.trips, ∀ a, (k0_off59 k0_t8) a + S1x16.size a ≤ S128x128.size a
  k0_off60_inb : ∀ k0_t8 : Fin k0_t8_loop.trips, ∀ a, (k0_off60 k0_t8) a + S1x16.size a ≤ S128x128.size a
  k0_off61_inb : ∀ k0_t8 : Fin k0_t8_loop.trips, ∀ a, (k0_off61 k0_t8) a + S1x16.size a ≤ S128x128.size a
  k0_off62_inb : ∀ k0_t8 : Fin k0_t8_loop.trips, ∀ a, (k0_off62 k0_t8) a + S1x16.size a ≤ S128x128.size a
  k0_off63_inb : ∀ k0_t8 : Fin k0_t8_loop.trips, ∀ a, (k0_off63 k0_t8) a + S1x16.size a ≤ S128x128.size a
  k0_off64_inb : ∀ k0_t8 : Fin k0_t8_loop.trips, ∀ a, (k0_off64 k0_t8) a + S1x16.size a ≤ S128x128.size a
  k0_off65_inb : ∀ k0_t8 : Fin k0_t8_loop.trips, ∀ a, (k0_off65 k0_t8) a + S1x16.size a ≤ S128x128.size a
  k0_off66_inb : ∀ k0_t8 : Fin k0_t8_loop.trips, ∀ a, (k0_off66 k0_t8) a + S1x16.size a ≤ S128x128.size a
  k0_off67_inb : ∀ i : grid0.Coords, ∀ a, (k0_off67 i) a + S128x128.size a ≤ S4096x3328.size a
  k0_t9_ok : k0_t9_loop.OK
  k0_off68_inb : ∀ k0_t9 : Fin k0_t9_loop.trips, ∀ a, (k0_off68 k0_t9) a + S1x16.size a ≤ S128x128.size a
  k0_off69_inb : ∀ k0_t9 : Fin k0_t9_loop.trips, ∀ a, (k0_off69 k0_t9) a + S1x16.size a ≤ S128x128.size a
  k0_off70_inb : ∀ k0_t9 : Fin k0_t9_loop.trips, ∀ a, (k0_off70 k0_t9) a + S1x16.size a ≤ S128x128.size a
  k0_off71_inb : ∀ k0_t9 : Fin k0_t9_loop.trips, ∀ a, (k0_off71 k0_t9) a + S1x16.size a ≤ S128x128.size a
  k0_off72_inb : ∀ k0_t9 : Fin k0_t9_loop.trips, ∀ a, (k0_off72 k0_t9) a + S1x16.size a ≤ S128x128.size a
  k0_off73_inb : ∀ k0_t9 : Fin k0_t9_loop.trips, ∀ a, (k0_off73 k0_t9) a + S1x16.size a ≤ S128x128.size a
  k0_off74_inb : ∀ k0_t9 : Fin k0_t9_loop.trips, ∀ a, (k0_off74 k0_t9) a + S1x16.size a ≤ S128x128.size a
  k0_off75_inb : ∀ k0_t9 : Fin k0_t9_loop.trips, ∀ a, (k0_off75 k0_t9) a + S1x16.size a ≤ S128x128.size a
  k0_off76_inb : ∀ i : grid0.Coords, ∀ a, (k0_off76 i) a + S128x128.size a ≤ S4096x3328.size a
  k0_t10_ok : k0_t10_loop.OK
  k0_off77_inb : ∀ k0_t10 : Fin k0_t10_loop.trips, ∀ a, (k0_off77 k0_t10) a + S1x16.size a ≤ S128x128.size a
  k0_off78_inb : ∀ k0_t10 : Fin k0_t10_loop.trips, ∀ a, (k0_off78 k0_t10) a + S1x16.size a ≤ S128x128.size a
  k0_off79_inb : ∀ k0_t10 : Fin k0_t10_loop.trips, ∀ a, (k0_off79 k0_t10) a + S1x16.size a ≤ S128x128.size a
  k0_off80_inb : ∀ k0_t10 : Fin k0_t10_loop.trips, ∀ a, (k0_off80 k0_t10) a + S1x16.size a ≤ S128x128.size a
  k0_off81_inb : ∀ k0_t10 : Fin k0_t10_loop.trips, ∀ a, (k0_off81 k0_t10) a + S1x16.size a ≤ S128x128.size a
  k0_off82_inb : ∀ k0_t10 : Fin k0_t10_loop.trips, ∀ a, (k0_off82 k0_t10) a + S1x16.size a ≤ S128x128.size a
  k0_off83_inb : ∀ k0_t10 : Fin k0_t10_loop.trips, ∀ a, (k0_off83 k0_t10) a + S1x16.size a ≤ S128x128.size a
  k0_off84_inb : ∀ k0_t10 : Fin k0_t10_loop.trips, ∀ a, (k0_off84 k0_t10) a + S1x16.size a ≤ S128x128.size a
  k0_off85_inb : ∀ i : grid0.Coords, ∀ a, (k0_off85 i) a + S128x128.size a ≤ S4096x3328.size a
  k0_t11_ok : k0_t11_loop.OK
  k0_off86_inb : ∀ k0_t11 : Fin k0_t11_loop.trips, ∀ a, (k0_off86 k0_t11) a + S1x16.size a ≤ S128x128.size a
  k0_off87_inb : ∀ k0_t11 : Fin k0_t11_loop.trips, ∀ a, (k0_off87 k0_t11) a + S1x16.size a ≤ S128x128.size a
  k0_off88_inb : ∀ k0_t11 : Fin k0_t11_loop.trips, ∀ a, (k0_off88 k0_t11) a + S1x16.size a ≤ S128x128.size a
  k0_off89_inb : ∀ k0_t11 : Fin k0_t11_loop.trips, ∀ a, (k0_off89 k0_t11) a + S1x16.size a ≤ S128x128.size a
  k0_off90_inb : ∀ k0_t11 : Fin k0_t11_loop.trips, ∀ a, (k0_off90 k0_t11) a + S1x16.size a ≤ S128x128.size a
  k0_off91_inb : ∀ k0_t11 : Fin k0_t11_loop.trips, ∀ a, (k0_off91 k0_t11) a + S1x16.size a ≤ S128x128.size a
  k0_off92_inb : ∀ k0_t11 : Fin k0_t11_loop.trips, ∀ a, (k0_off92 k0_t11) a + S1x16.size a ≤ S128x128.size a
  k0_off93_inb : ∀ k0_t11 : Fin k0_t11_loop.trips, ∀ a, (k0_off93 k0_t11) a + S1x16.size a ≤ S128x128.size a
  k0_off94_inb : ∀ i : grid0.Coords, ∀ a, (k0_off94 i) a + S128x128.size a ≤ S4096x3328.size a
  k0_t12_ok : k0_t12_loop.OK
  k0_off95_inb : ∀ k0_t12 : Fin k0_t12_loop.trips, ∀ a, (k0_off95 k0_t12) a + S1x16.size a ≤ S128x128.size a
  k0_off96_inb : ∀ k0_t12 : Fin k0_t12_loop.trips, ∀ a, (k0_off96 k0_t12) a + S1x16.size a ≤ S128x128.size a
  k0_off97_inb : ∀ k0_t12 : Fin k0_t12_loop.trips, ∀ a, (k0_off97 k0_t12) a + S1x16.size a ≤ S128x128.size a
  k0_off98_inb : ∀ k0_t12 : Fin k0_t12_loop.trips, ∀ a, (k0_off98 k0_t12) a + S1x16.size a ≤ S128x128.size a
  k0_off99_inb : ∀ k0_t12 : Fin k0_t12_loop.trips, ∀ a, (k0_off99 k0_t12) a + S1x16.size a ≤ S128x128.size a
  k0_off100_inb : ∀ k0_t12 : Fin k0_t12_loop.trips, ∀ a, (k0_off100 k0_t12) a + S1x16.size a ≤ S128x128.size a
  k0_off101_inb : ∀ k0_t12 : Fin k0_t12_loop.trips, ∀ a, (k0_off101 k0_t12) a + S1x16.size a ≤ S128x128.size a
  k0_off102_inb : ∀ k0_t12 : Fin k0_t12_loop.trips, ∀ a, (k0_off102 k0_t12) a + S1x16.size a ≤ S128x128.size a
  k0_off103_inb : ∀ i : grid0.Coords, ∀ a, (k0_off103 i) a + S128x128.size a ≤ S4096x3328.size a
  k0_t13_ok : k0_t13_loop.OK
  k0_off104_inb : ∀ k0_t13 : Fin k0_t13_loop.trips, ∀ a, (k0_off104 k0_t13) a + S1x16.size a ≤ S128x128.size a
  k0_off105_inb : ∀ k0_t13 : Fin k0_t13_loop.trips, ∀ a, (k0_off105 k0_t13) a + S1x16.size a ≤ S128x128.size a
  k0_off106_inb : ∀ k0_t13 : Fin k0_t13_loop.trips, ∀ a, (k0_off106 k0_t13) a + S1x16.size a ≤ S128x128.size a
  k0_off107_inb : ∀ k0_t13 : Fin k0_t13_loop.trips, ∀ a, (k0_off107 k0_t13) a + S1x16.size a ≤ S128x128.size a
  k0_off108_inb : ∀ k0_t13 : Fin k0_t13_loop.trips, ∀ a, (k0_off108 k0_t13) a + S1x16.size a ≤ S128x128.size a
  k0_off109_inb : ∀ k0_t13 : Fin k0_t13_loop.trips, ∀ a, (k0_off109 k0_t13) a + S1x16.size a ≤ S128x128.size a
  k0_off110_inb : ∀ k0_t13 : Fin k0_t13_loop.trips, ∀ a, (k0_off110 k0_t13) a + S1x16.size a ≤ S128x128.size a
  k0_off111_inb : ∀ k0_t13 : Fin k0_t13_loop.trips, ∀ a, (k0_off111 k0_t13) a + S1x16.size a ≤ S128x128.size a
  k0_off112_inb : ∀ i : grid0.Coords, ∀ a, (k0_off112 i) a + S128x128.size a ≤ S4096x3328.size a
  k0_t14_ok : k0_t14_loop.OK
  k0_off113_inb : ∀ k0_t14 : Fin k0_t14_loop.trips, ∀ a, (k0_off113 k0_t14) a + S1x16.size a ≤ S128x128.size a
  k0_off114_inb : ∀ k0_t14 : Fin k0_t14_loop.trips, ∀ a, (k0_off114 k0_t14) a + S1x16.size a ≤ S128x128.size a
  k0_off115_inb : ∀ k0_t14 : Fin k0_t14_loop.trips, ∀ a, (k0_off115 k0_t14) a + S1x16.size a ≤ S128x128.size a
  k0_off116_inb : ∀ k0_t14 : Fin k0_t14_loop.trips, ∀ a, (k0_off116 k0_t14) a + S1x16.size a ≤ S128x128.size a
  k0_off117_inb : ∀ k0_t14 : Fin k0_t14_loop.trips, ∀ a, (k0_off117 k0_t14) a + S1x16.size a ≤ S128x128.size a
  k0_off118_inb : ∀ k0_t14 : Fin k0_t14_loop.trips, ∀ a, (k0_off118 k0_t14) a + S1x16.size a ≤ S128x128.size a
  k0_off119_inb : ∀ k0_t14 : Fin k0_t14_loop.trips, ∀ a, (k0_off119 k0_t14) a + S1x16.size a ≤ S128x128.size a
  k0_off120_inb : ∀ k0_t14 : Fin k0_t14_loop.trips, ∀ a, (k0_off120 k0_t14) a + S1x16.size a ≤ S128x128.size a
  k0_off121_inb : ∀ i : grid0.Coords, ∀ a, (k0_off121 i) a + S128x128.size a ≤ S4096x3328.size a
  k0_t15_ok : k0_t15_loop.OK
  k0_off122_inb : ∀ k0_t15 : Fin k0_t15_loop.trips, ∀ a, (k0_off122 k0_t15) a + S1x16.size a ≤ S128x128.size a
  k0_off123_inb : ∀ k0_t15 : Fin k0_t15_loop.trips, ∀ a, (k0_off123 k0_t15) a + S1x16.size a ≤ S128x128.size a
  k0_off124_inb : ∀ k0_t15 : Fin k0_t15_loop.trips, ∀ a, (k0_off124 k0_t15) a + S1x16.size a ≤ S128x128.size a
  k0_off125_inb : ∀ k0_t15 : Fin k0_t15_loop.trips, ∀ a, (k0_off125 k0_t15) a + S1x16.size a ≤ S128x128.size a
  k0_off126_inb : ∀ k0_t15 : Fin k0_t15_loop.trips, ∀ a, (k0_off126 k0_t15) a + S1x16.size a ≤ S128x128.size a
  k0_off127_inb : ∀ k0_t15 : Fin k0_t15_loop.trips, ∀ a, (k0_off127 k0_t15) a + S1x16.size a ≤ S128x128.size a
  k0_off128_inb : ∀ k0_t15 : Fin k0_t15_loop.trips, ∀ a, (k0_off128 k0_t15) a + S1x16.size a ≤ S128x128.size a
  k0_off129_inb : ∀ k0_t15 : Fin k0_t15_loop.trips, ∀ a, (k0_off129 k0_t15) a + S1x16.size a ≤ S128x128.size a
  k0_off130_inb : ∀ i : grid0.Coords, ∀ a, (k0_off130 i) a + S128x128.size a ≤ S4096x3328.size a
  k0_t16_ok : k0_t16_loop.OK
  k0_off131_inb : ∀ k0_t16 : Fin k0_t16_loop.trips, ∀ a, (k0_off131 k0_t16) a + S1x16.size a ≤ S128x128.size a
  k0_off132_inb : ∀ k0_t16 : Fin k0_t16_loop.trips, ∀ a, (k0_off132 k0_t16) a + S1x16.size a ≤ S128x128.size a
  k0_off133_inb : ∀ k0_t16 : Fin k0_t16_loop.trips, ∀ a, (k0_off133 k0_t16) a + S1x16.size a ≤ S128x128.size a
  k0_off134_inb : ∀ k0_t16 : Fin k0_t16_loop.trips, ∀ a, (k0_off134 k0_t16) a + S1x16.size a ≤ S128x128.size a
  k0_off135_inb : ∀ k0_t16 : Fin k0_t16_loop.trips, ∀ a, (k0_off135 k0_t16) a + S1x16.size a ≤ S128x128.size a
  k0_off136_inb : ∀ k0_t16 : Fin k0_t16_loop.trips, ∀ a, (k0_off136 k0_t16) a + S1x16.size a ≤ S128x128.size a
  k0_off137_inb : ∀ k0_t16 : Fin k0_t16_loop.trips, ∀ a, (k0_off137 k0_t16) a + S1x16.size a ≤ S128x128.size a
  k0_off138_inb : ∀ k0_t16 : Fin k0_t16_loop.trips, ∀ a, (k0_off138 k0_t16) a + S1x16.size a ≤ S128x128.size a
  k0_off139_inb : ∀ i : grid0.Coords, ∀ a, (k0_off139 i) a + S128x128.size a ≤ S4096x3328.size a
  k0_t17_ok : k0_t17_loop.OK
  k0_off140_inb : ∀ k0_t17 : Fin k0_t17_loop.trips, ∀ a, (k0_off140 k0_t17) a + S1x16.size a ≤ S128x128.size a
  k0_off141_inb : ∀ k0_t17 : Fin k0_t17_loop.trips, ∀ a, (k0_off141 k0_t17) a + S1x16.size a ≤ S128x128.size a
  k0_off142_inb : ∀ k0_t17 : Fin k0_t17_loop.trips, ∀ a, (k0_off142 k0_t17) a + S1x16.size a ≤ S128x128.size a
  k0_off143_inb : ∀ k0_t17 : Fin k0_t17_loop.trips, ∀ a, (k0_off143 k0_t17) a + S1x16.size a ≤ S128x128.size a
  k0_off144_inb : ∀ k0_t17 : Fin k0_t17_loop.trips, ∀ a, (k0_off144 k0_t17) a + S1x16.size a ≤ S128x128.size a
  k0_off145_inb : ∀ k0_t17 : Fin k0_t17_loop.trips, ∀ a, (k0_off145 k0_t17) a + S1x16.size a ≤ S128x128.size a
  k0_off146_inb : ∀ k0_t17 : Fin k0_t17_loop.trips, ∀ a, (k0_off146 k0_t17) a + S1x16.size a ≤ S128x128.size a
  k0_off147_inb : ∀ k0_t17 : Fin k0_t17_loop.trips, ∀ a, (k0_off147 k0_t17) a + S1x16.size a ≤ S128x128.size a
  k0_off148_inb : ∀ i : grid0.Coords, ∀ a, (k0_off148 i) a + S128x128.size a ≤ S4096x3328.size a
  k0_t18_ok : k0_t18_loop.OK
  k0_off149_inb : ∀ k0_t18 : Fin k0_t18_loop.trips, ∀ a, (k0_off149 k0_t18) a + S1x16.size a ≤ S128x128.size a
  k0_off150_inb : ∀ k0_t18 : Fin k0_t18_loop.trips, ∀ a, (k0_off150 k0_t18) a + S1x16.size a ≤ S128x128.size a
  k0_off151_inb : ∀ k0_t18 : Fin k0_t18_loop.trips, ∀ a, (k0_off151 k0_t18) a + S1x16.size a ≤ S128x128.size a
  k0_off152_inb : ∀ k0_t18 : Fin k0_t18_loop.trips, ∀ a, (k0_off152 k0_t18) a + S1x16.size a ≤ S128x128.size a
  k0_off153_inb : ∀ k0_t18 : Fin k0_t18_loop.trips, ∀ a, (k0_off153 k0_t18) a + S1x16.size a ≤ S128x128.size a
  k0_off154_inb : ∀ k0_t18 : Fin k0_t18_loop.trips, ∀ a, (k0_off154 k0_t18) a + S1x16.size a ≤ S128x128.size a
  k0_off155_inb : ∀ k0_t18 : Fin k0_t18_loop.trips, ∀ a, (k0_off155 k0_t18) a + S1x16.size a ≤ S128x128.size a
  k0_off156_inb : ∀ k0_t18 : Fin k0_t18_loop.trips, ∀ a, (k0_off156 k0_t18) a + S1x16.size a ≤ S128x128.size a
  k0_off157_inb : ∀ i : grid0.Coords, ∀ a, (k0_off157 i) a + S128x128.size a ≤ S4096x3328.size a
  k0_t19_ok : k0_t19_loop.OK
  k0_off158_inb : ∀ k0_t19 : Fin k0_t19_loop.trips, ∀ a, (k0_off158 k0_t19) a + S1x16.size a ≤ S128x128.size a
  k0_off159_inb : ∀ k0_t19 : Fin k0_t19_loop.trips, ∀ a, (k0_off159 k0_t19) a + S1x16.size a ≤ S128x128.size a
  k0_off160_inb : ∀ k0_t19 : Fin k0_t19_loop.trips, ∀ a, (k0_off160 k0_t19) a + S1x16.size a ≤ S128x128.size a
  k0_off161_inb : ∀ k0_t19 : Fin k0_t19_loop.trips, ∀ a, (k0_off161 k0_t19) a + S1x16.size a ≤ S128x128.size a
  k0_off162_inb : ∀ k0_t19 : Fin k0_t19_loop.trips, ∀ a, (k0_off162 k0_t19) a + S1x16.size a ≤ S128x128.size a
  k0_off163_inb : ∀ k0_t19 : Fin k0_t19_loop.trips, ∀ a, (k0_off163 k0_t19) a + S1x16.size a ≤ S128x128.size a
  k0_off164_inb : ∀ k0_t19 : Fin k0_t19_loop.trips, ∀ a, (k0_off164 k0_t19) a + S1x16.size a ≤ S128x128.size a
  k0_off165_inb : ∀ k0_t19 : Fin k0_t19_loop.trips, ∀ a, (k0_off165 k0_t19) a + S1x16.size a ≤ S128x128.size a
  k0_off166_inb : ∀ i : grid0.Coords, ∀ a, (k0_off166 i) a + S128x128.size a ≤ S4096x3328.size a
  k0_t20_ok : k0_t20_loop.OK
  k0_off167_inb : ∀ k0_t20 : Fin k0_t20_loop.trips, ∀ a, (k0_off167 k0_t20) a + S1x16.size a ≤ S128x128.size a
  k0_off168_inb : ∀ k0_t20 : Fin k0_t20_loop.trips, ∀ a, (k0_off168 k0_t20) a + S1x16.size a ≤ S128x128.size a
  k0_off169_inb : ∀ k0_t20 : Fin k0_t20_loop.trips, ∀ a, (k0_off169 k0_t20) a + S1x16.size a ≤ S128x128.size a
  k0_off170_inb : ∀ k0_t20 : Fin k0_t20_loop.trips, ∀ a, (k0_off170 k0_t20) a + S1x16.size a ≤ S128x128.size a
  k0_off171_inb : ∀ k0_t20 : Fin k0_t20_loop.trips, ∀ a, (k0_off171 k0_t20) a + S1x16.size a ≤ S128x128.size a
  k0_off172_inb : ∀ k0_t20 : Fin k0_t20_loop.trips, ∀ a, (k0_off172 k0_t20) a + S1x16.size a ≤ S128x128.size a
  k0_off173_inb : ∀ k0_t20 : Fin k0_t20_loop.trips, ∀ a, (k0_off173 k0_t20) a + S1x16.size a ≤ S128x128.size a
  k0_off174_inb : ∀ k0_t20 : Fin k0_t20_loop.trips, ∀ a, (k0_off174 k0_t20) a + S1x16.size a ≤ S128x128.size a
  k0_off175_inb : ∀ i : grid0.Coords, ∀ a, (k0_off175 i) a + S128x128.size a ≤ S4096x3328.size a
  k0_t21_ok : k0_t21_loop.OK
  k0_off176_inb : ∀ k0_t21 : Fin k0_t21_loop.trips, ∀ a, (k0_off176 k0_t21) a + S1x16.size a ≤ S128x128.size a
  k0_off177_inb : ∀ k0_t21 : Fin k0_t21_loop.trips, ∀ a, (k0_off177 k0_t21) a + S1x16.size a ≤ S128x128.size a
  k0_off178_inb : ∀ k0_t21 : Fin k0_t21_loop.trips, ∀ a, (k0_off178 k0_t21) a + S1x16.size a ≤ S128x128.size a
  k0_off179_inb : ∀ k0_t21 : Fin k0_t21_loop.trips, ∀ a, (k0_off179 k0_t21) a + S1x16.size a ≤ S128x128.size a
  k0_off180_inb : ∀ k0_t21 : Fin k0_t21_loop.trips, ∀ a, (k0_off180 k0_t21) a + S1x16.size a ≤ S128x128.size a
  k0_off181_inb : ∀ k0_t21 : Fin k0_t21_loop.trips, ∀ a, (k0_off181 k0_t21) a + S1x16.size a ≤ S128x128.size a
  k0_off182_inb : ∀ k0_t21 : Fin k0_t21_loop.trips, ∀ a, (k0_off182 k0_t21) a + S1x16.size a ≤ S128x128.size a
  k0_off183_inb : ∀ k0_t21 : Fin k0_t21_loop.trips, ∀ a, (k0_off183 k0_t21) a + S1x16.size a ≤ S128x128.size a
  k0_off184_inb : ∀ i : grid0.Coords, ∀ a, (k0_off184 i) a + S128x128.size a ≤ S4096x3328.size a
  k0_t22_ok : k0_t22_loop.OK
  k0_off185_inb : ∀ k0_t22 : Fin k0_t22_loop.trips, ∀ a, (k0_off185 k0_t22) a + S1x16.size a ≤ S128x128.size a
  k0_off186_inb : ∀ k0_t22 : Fin k0_t22_loop.trips, ∀ a, (k0_off186 k0_t22) a + S1x16.size a ≤ S128x128.size a
  k0_off187_inb : ∀ k0_t22 : Fin k0_t22_loop.trips, ∀ a, (k0_off187 k0_t22) a + S1x16.size a ≤ S128x128.size a
  k0_off188_inb : ∀ k0_t22 : Fin k0_t22_loop.trips, ∀ a, (k0_off188 k0_t22) a + S1x16.size a ≤ S128x128.size a
  k0_off189_inb : ∀ k0_t22 : Fin k0_t22_loop.trips, ∀ a, (k0_off189 k0_t22) a + S1x16.size a ≤ S128x128.size a
  k0_off190_inb : ∀ k0_t22 : Fin k0_t22_loop.trips, ∀ a, (k0_off190 k0_t22) a + S1x16.size a ≤ S128x128.size a
  k0_off191_inb : ∀ k0_t22 : Fin k0_t22_loop.trips, ∀ a, (k0_off191 k0_t22) a + S1x16.size a ≤ S128x128.size a
  k0_off192_inb : ∀ k0_t22 : Fin k0_t22_loop.trips, ∀ a, (k0_off192 k0_t22) a + S1x16.size a ≤ S128x128.size a
  k0_off193_inb : ∀ i : grid0.Coords, ∀ a, (k0_off193 i) a + S128x128.size a ≤ S4096x3328.size a
  k0_t23_ok : k0_t23_loop.OK
  k0_off194_inb : ∀ k0_t23 : Fin k0_t23_loop.trips, ∀ a, (k0_off194 k0_t23) a + S1x16.size a ≤ S128x128.size a
  k0_off195_inb : ∀ k0_t23 : Fin k0_t23_loop.trips, ∀ a, (k0_off195 k0_t23) a + S1x16.size a ≤ S128x128.size a
  k0_off196_inb : ∀ k0_t23 : Fin k0_t23_loop.trips, ∀ a, (k0_off196 k0_t23) a + S1x16.size a ≤ S128x128.size a
  k0_off197_inb : ∀ k0_t23 : Fin k0_t23_loop.trips, ∀ a, (k0_off197 k0_t23) a + S1x16.size a ≤ S128x128.size a
  k0_off198_inb : ∀ k0_t23 : Fin k0_t23_loop.trips, ∀ a, (k0_off198 k0_t23) a + S1x16.size a ≤ S128x128.size a
  k0_off199_inb : ∀ k0_t23 : Fin k0_t23_loop.trips, ∀ a, (k0_off199 k0_t23) a + S1x16.size a ≤ S128x128.size a
  k0_off200_inb : ∀ k0_t23 : Fin k0_t23_loop.trips, ∀ a, (k0_off200 k0_t23) a + S1x16.size a ≤ S128x128.size a
  k0_off201_inb : ∀ k0_t23 : Fin k0_t23_loop.trips, ∀ a, (k0_off201 k0_t23) a + S1x16.size a ≤ S128x128.size a
  k0_off202_inb : ∀ i : grid0.Coords, ∀ a, (k0_off202 i) a + S128x128.size a ≤ S4096x3328.size a
  k0_t24_ok : k0_t24_loop.OK
  k0_off203_inb : ∀ k0_t24 : Fin k0_t24_loop.trips, ∀ a, (k0_off203 k0_t24) a + S1x16.size a ≤ S128x128.size a
  k0_off204_inb : ∀ k0_t24 : Fin k0_t24_loop.trips, ∀ a, (k0_off204 k0_t24) a + S1x16.size a ≤ S128x128.size a
  k0_off205_inb : ∀ k0_t24 : Fin k0_t24_loop.trips, ∀ a, (k0_off205 k0_t24) a + S1x16.size a ≤ S128x128.size a
  k0_off206_inb : ∀ k0_t24 : Fin k0_t24_loop.trips, ∀ a, (k0_off206 k0_t24) a + S1x16.size a ≤ S128x128.size a
  k0_off207_inb : ∀ k0_t24 : Fin k0_t24_loop.trips, ∀ a, (k0_off207 k0_t24) a + S1x16.size a ≤ S128x128.size a
  k0_off208_inb : ∀ k0_t24 : Fin k0_t24_loop.trips, ∀ a, (k0_off208 k0_t24) a + S1x16.size a ≤ S128x128.size a
  k0_off209_inb : ∀ k0_t24 : Fin k0_t24_loop.trips, ∀ a, (k0_off209 k0_t24) a + S1x16.size a ≤ S128x128.size a
  k0_off210_inb : ∀ k0_t24 : Fin k0_t24_loop.trips, ∀ a, (k0_off210 k0_t24) a + S1x16.size a ≤ S128x128.size a
  k0_off211_inb : ∀ i : grid0.Coords, ∀ a, (k0_off211 i) a + S128x128.size a ≤ S4096x3328.size a
  k0_t25_ok : k0_t25_loop.OK
  k0_off212_inb : ∀ k0_t25 : Fin k0_t25_loop.trips, ∀ a, (k0_off212 k0_t25) a + S1x16.size a ≤ S128x128.size a
  k0_off213_inb : ∀ k0_t25 : Fin k0_t25_loop.trips, ∀ a, (k0_off213 k0_t25) a + S1x16.size a ≤ S128x128.size a
  k0_off214_inb : ∀ k0_t25 : Fin k0_t25_loop.trips, ∀ a, (k0_off214 k0_t25) a + S1x16.size a ≤ S128x128.size a
  k0_off215_inb : ∀ k0_t25 : Fin k0_t25_loop.trips, ∀ a, (k0_off215 k0_t25) a + S1x16.size a ≤ S128x128.size a
  k0_off216_inb : ∀ k0_t25 : Fin k0_t25_loop.trips, ∀ a, (k0_off216 k0_t25) a + S1x16.size a ≤ S128x128.size a
  k0_off217_inb : ∀ k0_t25 : Fin k0_t25_loop.trips, ∀ a, (k0_off217 k0_t25) a + S1x16.size a ≤ S128x128.size a
  k0_off218_inb : ∀ k0_t25 : Fin k0_t25_loop.trips, ∀ a, (k0_off218 k0_t25) a + S1x16.size a ≤ S128x128.size a
  k0_off219_inb : ∀ k0_t25 : Fin k0_t25_loop.trips, ∀ a, (k0_off219 k0_t25) a + S1x16.size a ≤ S128x128.size a
  k0_off220_inb : ∀ i : grid0.Coords, ∀ a, (k0_off220 i) a + S128x128.size a ≤ S4096x3328.size a
  k0_t26_ok : k0_t26_loop.OK
  k0_off221_inb : ∀ k0_t26 : Fin k0_t26_loop.trips, ∀ a, (k0_off221 k0_t26) a + S1x16.size a ≤ S128x128.size a
  k0_off222_inb : ∀ k0_t26 : Fin k0_t26_loop.trips, ∀ a, (k0_off222 k0_t26) a + S1x16.size a ≤ S128x128.size a
  k0_off223_inb : ∀ k0_t26 : Fin k0_t26_loop.trips, ∀ a, (k0_off223 k0_t26) a + S1x16.size a ≤ S128x128.size a
  k0_off224_inb : ∀ k0_t26 : Fin k0_t26_loop.trips, ∀ a, (k0_off224 k0_t26) a + S1x16.size a ≤ S128x128.size a
  k0_off225_inb : ∀ k0_t26 : Fin k0_t26_loop.trips, ∀ a, (k0_off225 k0_t26) a + S1x16.size a ≤ S128x128.size a
  k0_off226_inb : ∀ k0_t26 : Fin k0_t26_loop.trips, ∀ a, (k0_off226 k0_t26) a + S1x16.size a ≤ S128x128.size a
  k0_off227_inb : ∀ k0_t26 : Fin k0_t26_loop.trips, ∀ a, (k0_off227 k0_t26) a + S1x16.size a ≤ S128x128.size a
  k0_off228_inb : ∀ k0_t26 : Fin k0_t26_loop.trips, ∀ a, (k0_off228 k0_t26) a + S1x16.size a ≤ S128x128.size a
  k0_off229_inb : ∀ i : grid0.Coords, ∀ a, (k0_off229 i) a + S128x128.size a ≤ S4096x3328.size a
  k0_t27_ok : k0_t27_loop.OK
  k0_off230_inb : ∀ k0_t27 : Fin k0_t27_loop.trips, ∀ a, (k0_off230 k0_t27) a + S1x16.size a ≤ S128x128.size a
  k0_off231_inb : ∀ k0_t27 : Fin k0_t27_loop.trips, ∀ a, (k0_off231 k0_t27) a + S1x16.size a ≤ S128x128.size a
  k0_off232_inb : ∀ k0_t27 : Fin k0_t27_loop.trips, ∀ a, (k0_off232 k0_t27) a + S1x16.size a ≤ S128x128.size a
  k0_off233_inb : ∀ k0_t27 : Fin k0_t27_loop.trips, ∀ a, (k0_off233 k0_t27) a + S1x16.size a ≤ S128x128.size a
  k0_off234_inb : ∀ k0_t27 : Fin k0_t27_loop.trips, ∀ a, (k0_off234 k0_t27) a + S1x16.size a ≤ S128x128.size a
  k0_off235_inb : ∀ k0_t27 : Fin k0_t27_loop.trips, ∀ a, (k0_off235 k0_t27) a + S1x16.size a ≤ S128x128.size a
  k0_off236_inb : ∀ k0_t27 : Fin k0_t27_loop.trips, ∀ a, (k0_off236 k0_t27) a + S1x16.size a ≤ S128x128.size a
  k0_off237_inb : ∀ k0_t27 : Fin k0_t27_loop.trips, ∀ a, (k0_off237 k0_t27) a + S1x16.size a ≤ S128x128.size a
  k0_off238_inb : ∀ i : grid0.Coords, ∀ a, (k0_off238 i) a + S128x128.size a ≤ S4096x3328.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3328.size a ≤ S4096x3328.size a
  hwx1_0 : ∀ i : grid1.Coords, EltTy.bits .f32 = 32 ∨ (Rect.block (s := S4096x3328) S512x3328.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x32.size a ≤ S4096x32.size a
  hwx1_1 : ∀ i : grid1.Coords, EltTy.bits .f32 = 32 ∨ (Rect.block (s := S4096x32) S512x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x32.size a ≤ S4096x32.size a
  hwx1_2 : ∀ i : grid1.Coords, EltTy.bits .f32 = 32 ∨ (Rect.block (s := S4096x32) S512x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3328x1024.size a ≤ S3328x1024.size a
  hwx1_3 : ∀ i : grid1.Coords, EltTy.bits .bf16 = 32 ∨ (Rect.block (s := S3328x1024) S3328x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x1024.size a ≤ S32x1024.size a
  hwx1_4 : ∀ i : grid1.Coords, EltTy.bits .bf16 = 32 ∨ (Rect.block (s := S32x1024) S32x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x512.size a ≤ S1024x512.size a
  hwx1_6 : ∀ i : grid1.Coords, EltTy.bits .bf16 = 32 ∨ (Rect.block (s := S1024x512) S1024x512.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x512.size a ≤ S1x512.size a
  hwx1_7 : ∀ i : grid1.Coords, EltTy.bits .f32 = 32 ∨ (Rect.block (s := S1x512) S1x512.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S512x1.size a ≤ S512x1.size a
  hwx1_8 : ∀ i : grid1.Coords, EltTy.bits .bf16 = 32 ∨ (Rect.block (s := S512x1) S512x1.size (cc1_transform_8 i) (hinb1_8 i)).WholeWords (EltTy.packing .bf16)
  hstage1_9 : ∀ j, (stage1_9 j).IsWhole
  nbuf1_9 : grid1.bufCount reads1_9 false = 1
  hreads1_9 : ∀ i i' : grid1.Coords, (∀ a, reads1_9 a = true → i a = i' a) → cc1_transform_9 i = cc1_transform_9 i'
  hinb1_9 : ∀ (i : grid1.Coords) a, (cc1_transform_9 i a + 1) * S1x1.size a ≤ S1x1.size a
  hwx1_9 : ∀ i : grid1.Coords, EltTy.bits .f32 = 32 ∨ (Rect.block (s := S1x1) S1x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x1.size a ≤ S4096x1.size a
  hwx1_10 : ∀ i : grid1.Coords, EltTy.bits .f32 = 32 ∨ (Rect.block (s := S4096x1) S512x1.size (cc1_transform_10 i) (hinb1_10 i)).WholeWords (EltTy.packing .f32)

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scratch13 : DmaSems sig S_ := SemArray.consecutive 4 S_ hcc0_scratch13
abbrev cc0_scratch14 : DmaSems sig S_ := SemArray.consecutive 5 S_ hcc0_scratch14
abbrev cc0_scratch15 : DmaSems sig S_ := SemArray.consecutive 6 S_ hcc0_scratch15
abbrev cc0_scratch16 : DmaSems sig S_ := SemArray.consecutive 7 S_ hcc0_scratch16
abbrev cc0_scoped0 : DmaSems sig S_ := SemArray.consecutive 8 S_ hcc0_scoped0
abbrev cc0_scoped1 : DmaSems sig S_ := SemArray.consecutive 9 S_ hcc0_scoped1
abbrev cc0_scoped2 : DmaSems sig S_ := SemArray.consecutive 10 S_ hcc0_scoped2
abbrev cc0_scoped3 : DmaSems sig S_ := SemArray.consecutive 11 S_ hcc0_scoped3
abbrev cc0_scoped4 : DmaSems sig S_ := SemArray.consecutive 12 S_ hcc0_scoped4
def dot_S512x3328_S3328x1024_S512x1024_1_0_0_1_n_n : DotDims S512x3328 S3328x1024 S512x1024 where
  lhsContracting := [1]
  rhsContracting := [0]
  lhsNonContracting := [0]
  rhsNonContracting := [1]
  lhsBatch := []
  rhsBatch := []
  wf := dot_S512x3328_S3328x1024_S512x1024_1_0_0_1_n_n_wf
def dot_S512x32_S32x1024_S512x1024_1_0_0_1_n_n : DotDims S512x32 S32x1024 S512x1024 where
  lhsContracting := [1]
  rhsContracting := [0]
  lhsNonContracting := [0]
  rhsNonContracting := [1]
  lhsBatch := []
  rhsBatch := []
  wf := dot_S512x32_S32x1024_S512x1024_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf

abbrev win1_0 : Pipeline.Window sig grid1 :=
  Pipeline.Window.ofSpec (Memref.whole main_v45_0) S512x3328.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S512x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S512x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S3328x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S32x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S1024x512.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S1x512.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v41) S512x1.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48) S1x1.size cc1_transform_9 reads1_9 false false 1 stage1_9 sem1_9
    hrank1 hreads1_9 hinb1_9 nbuf1_9 (Memref.isWhole_whole _) hwx1_9 hstage1_9

abbrev win1_10 : Pipeline.Window sig grid1 :=
  Pipeline.Window.ofSpec (Memref.whole main_v49) S512x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S4096x26x1 : Shape := ⟨3, ![4096, 26, 1]⟩
abbrev S4096x26 : Shape := ⟨2, ![4096, 26]⟩
abbrev S1 : Shape := ⟨1, ![1]⟩
abbrev S26x1000x1 : Shape := ⟨3, ![26, 1000, 1]⟩
abbrev S26x1000x128 : Shape := ⟨3, ![26, 1000, 128]⟩
abbrev S3355x1024 : Shape := ⟨2, ![3355, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S26 : Shape := ⟨1, ![26]⟩
abbrev S1x26 : Shape := ⟨2, ![1, 26]⟩
abbrev S_ : Shape := ⟨0, ![]⟩
abbrev S4096x26x2 : Shape := ⟨3, ![4096, 26, 2]⟩
abbrev S4096x26x128 : Shape := ⟨3, ![4096, 26, 128]⟩
abbrev S4096x3328 : Shape := ⟨2, ![4096, 3328]⟩
abbrev S4096x1 : Shape := ⟨2, ![4096, 1]⟩
abbrev S1x1 : Shape := ⟨2, ![1, 1]⟩
abbrev S4096x3355 : Shape := ⟨2, ![4096, 3355]⟩
abbrev S4096x1024 : Shape := ⟨2, ![4096, 1024]⟩
abbrev S1x1024 : Shape := ⟨2, ![1, 1024]⟩
abbrev S4096x512 : Shape := ⟨2, ![4096, 512]⟩
abbrev S1x512 : Shape := ⟨2, ![1, 512]⟩

abbrev nBuf : Space → Nat
  | .hbm => 79
  | .vmem => 0
  | .smem => 0
  | _ => 0

abbrev bufTy : (tb : Table) → Fin (tcTables nBuf tb) → BufTy
  | .hbm, ⟨0, _⟩ => ⟨S4096x26x1, .i32⟩
  | .hbm, ⟨1, _⟩ => ⟨S4096x26, .f32⟩
  | .hbm, ⟨2, _⟩ => ⟨S1, .f32⟩
  | .hbm, ⟨3, _⟩ => ⟨S26x1000x1, .f32⟩
  | .hbm, ⟨4, _⟩ => ⟨S26x1000x128, .f32⟩
  | .hbm, ⟨5, _⟩ => ⟨S3355x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512x1, .f32⟩
  | .hbm, ⟨10, _⟩ => ⟨S1, .f32⟩
  | .hbm, ⟨11, _⟩ => ⟨S4096x26, .i32⟩
  | .hbm, ⟨12, _⟩ => ⟨S26, .i32⟩
  | .hbm, ⟨13, _⟩ => ⟨S1x26, .i32⟩
  | .hbm, ⟨14, _⟩ => ⟨S_, .i32⟩
  | .hbm, ⟨15, _⟩ => ⟨S1x26, .i32⟩
  | .hbm, ⟨16, _⟩ => ⟨S1x26, .i1⟩
  | .hbm, ⟨17, _⟩ => ⟨S_, .i32⟩
  | .hbm, ⟨18, _⟩ => ⟨S1x26, .i32⟩
  | .hbm, ⟨19, _⟩ => ⟨S1x26, .i32⟩
  | .hbm, ⟨20, _⟩ => ⟨S1x26, .i32⟩
  | .hbm, ⟨21, _⟩ => ⟨S_, .i32⟩
  | .hbm, ⟨22, _⟩ => ⟨S4096x26, .i32⟩
  | .hbm, ⟨23, _⟩ => ⟨S4096x26, .i1⟩
  | .hbm, ⟨24, _⟩ => ⟨S_, .i32⟩
  | .hbm, ⟨25, _⟩ => ⟨S4096x26, .i32⟩
  | .hbm, ⟨26, _⟩ => ⟨S4096x26, .i32⟩
  | .hbm, ⟨27, _⟩ => ⟨S4096x26, .i32⟩
  | .hbm, ⟨28, _⟩ => ⟨S4096x26, .i32⟩
  | .hbm, ⟨29, _⟩ => ⟨S4096x26x1, .i32⟩
  | .hbm, ⟨30, _⟩ => ⟨S4096x26x1, .i32⟩
  | .hbm, ⟨31, _⟩ => ⟨S4096x26x2, .i32⟩
  | .hbm, ⟨32, _⟩ => ⟨S4096x26x1, .f32⟩
  | .hbm, ⟨33, _⟩ => ⟨S4096x26x1, .f32⟩
  | .hbm, ⟨34, _⟩ => ⟨S4096x26x1, .f32⟩
  | .hbm, ⟨35, _⟩ => ⟨S4096x26, .f32⟩
  | .hbm, ⟨36, _⟩ => ⟨S_, .i32⟩
  | .hbm, ⟨37, _⟩ => ⟨S1x26, .i32⟩
  | .hbm, ⟨38, _⟩ => ⟨S1x26, .i1⟩
  | .hbm, ⟨39, _⟩ => ⟨S_, .i32⟩
  | .hbm, ⟨40, _⟩ => ⟨S1x26, .i32⟩
  | .hbm, ⟨41, _⟩ => ⟨S1x26, .i32⟩
  | .hbm, ⟨42, _⟩ => ⟨S1x26, .i32⟩
  | .hbm, ⟨43, _⟩ => ⟨S_, .i32⟩
  | .hbm, ⟨44, _⟩ => ⟨S4096x26, .i32⟩
  | .hbm, ⟨45, _⟩ => ⟨S4096x26, .i1⟩
  | .hbm, ⟨46, _⟩ => ⟨S_, .i32⟩
  | .hbm, ⟨47, _⟩ => ⟨S4096x26, .i32⟩
  | .hbm, ⟨48, _⟩ => ⟨S4096x26, .i32⟩
  | .hbm, ⟨49, _⟩ => ⟨S4096x26, .i32⟩
  | .hbm, ⟨50, _⟩ => ⟨S4096x26, .i32⟩
  | .hbm, ⟨51, _⟩ => ⟨S4096x26x1, .i32⟩
  | .hbm, ⟨52, _⟩ => ⟨S4096x26x1, .i32⟩
  | .hbm, ⟨53, _⟩ => ⟨S4096x26x2, .i32⟩
  | .hbm, ⟨54, _⟩ => ⟨S4096x26x128, .f32⟩
  | .hbm, ⟨55, _⟩ => ⟨S4096x26x1, .f32⟩
  | .hbm, ⟨56, _⟩ => ⟨S4096x26x128, .f32⟩
  | .hbm, ⟨57, _⟩ => ⟨S4096x26x128, .f32⟩
  | .hbm, ⟨58, _⟩ => ⟨S4096x3328, .f32⟩
  | .hbm, ⟨59, _⟩ => ⟨S_, .f32⟩
  | .hbm, ⟨60, _⟩ => ⟨S4096x1, .f32⟩
  | .hbm, ⟨61, _⟩ => ⟨S1x1, .f32⟩
  | .hbm, ⟨62, _⟩ => ⟨S4096x1, .f32⟩
  | .hbm, ⟨63, _⟩ => ⟨S4096x1, .f32⟩
  | .hbm, ⟨64, _⟩ => ⟨S4096x3355, .f32⟩
  | .hbm, ⟨65, _⟩ => ⟨S4096x1024, .f32⟩
  | .hbm, ⟨66, _⟩ => ⟨S1x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x512, .f32⟩
  | .hbm, ⟨71, _⟩ => ⟨S1x512, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S4096x1, .f32⟩
  | .hbm, ⟨76, _⟩ => ⟨S1x1, .f32⟩
  | .hbm, ⟨77, _⟩ => ⟨S4096x1, .f32⟩
  | .hbm, ⟨78, _⟩ => ⟨S4096x1, .f32⟩
  | _, _ => ⟨S4096x26x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_v4 : Ref sig .tc := ⟨.hbm, 16, rfl⟩
abbrev main_c_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c_1 : Ref sig .tc := ⟨.hbm, 21, rfl⟩
abbrev main_v8 : Ref sig .tc := ⟨.hbm, 22, rfl⟩
abbrev main_v9 : Ref sig .tc := ⟨.hbm, 23, rfl⟩
abbrev main_c_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_c_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]

class Facts₀ : Prop where
  shapeCasts_S4096x26x1_S4096x26 : S4096x26x1.ShapeCasts S4096x26
  bcast_S26_S1x26_1 : S26.BroadcastsInDim S1x26 (![1] : Fin 1 → Fin S1x26.rank)
  bcast_S_S1x26 : S_.BroadcastsInDim S1x26 (![] : Fin 0 → Fin S1x26.rank)
  bcast_S_S4096x26 : S_.BroadcastsInDim S4096x26 (![] : Fin 0 → Fin S4096x26.rank)
  bcast_S1x26_S4096x26_0_1 : S1x26.BroadcastsInDim S4096x26 (![0, 1] : Fin 2 → Fin S4096x26.rank)
  bcast_S4096x26_S4096x26x1_0_1 : S4096x26.BroadcastsInDim S4096x26x1 (![0, 1] : Fin 2 → Fin S4096x26x1.rank)
  concatenates_S4096x26x1_S4096x26x1_S4096x26x2_d2 : Shape.Concatenates [S4096x26x1, S4096x26x1] S4096x26x2 2
  bcast_S4096x26x1_S4096x26x128_0_1_2 : S4096x26x1.BroadcastsInDim S4096x26x128 (![0, 1, 2] : Fin 3 → Fin S4096x26x128.rank)
  shapeCasts_S4096x26x128_S4096x3328 : S4096x26x128.ShapeCasts S4096x3328
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  concatenates_S4096x1_S4096x26_S4096x3328_S4096x3355_d1 : Shape.Concatenates [S4096x1, S4096x26, S4096x3328] S4096x3355 1
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  gather_S26x1000x1_S4096x26x2_S4096x26x1_2_01_n_n_01_2_111_wf : GatherDims.WF S26x1000x1 S4096x26x2 S4096x26x1 [2] [0, 1] [] [0, 1] [] 2 ![1, 1, 1]
  gather_S26x1000x128_S4096x26x2_S4096x26x128_2_01_n_n_01_2_11128_wf : GatherDims.WF S26x1000x128 S4096x26x2 S4096x26x128 [2] [0, 1] [] [0, 1] [] 2 ![1, 1, 128]
  dot_S4096x3355_S3355x1024_S4096x1024_1_0_0_1_n_n_wf : DotDims.WF S4096x3355 S3355x1024 S4096x1024 [1] [0] [0] [1] [] []
  dot_S4096x1024_S1024x512_S4096x512_1_0_0_1_n_n_wf : DotDims.WF S4096x1024 S1024x512 S4096x512 [1] [0] [0] [1] [] []
  dot_S4096x512_S512x1_S4096x1_1_0_0_1_n_n_wf : DotDims.WF S4096x512 S512x1 S4096x1 [1] [0] [0] [1] [] []

variable [Facts₀]

def gather_S26x1000x1_S4096x26x2_S4096x26x1_2_01_n_n_01_2_111 : GatherDims S26x1000x1 S4096x26x2 S4096x26x1 where
  offsetDims := [2]
  collapsedSliceDims := [0, 1]
  operandBatchingDims := []
  startIndicesBatchingDims := []
  startIndexMap := [0, 1]
  indexVectorDim := 2
  sliceSizes := ![1, 1, 1]
  wf := gather_S26x1000x1_S4096x26x2_S4096x26x1_2_01_n_n_01_2_111_wf
def gather_S26x1000x128_S4096x26x2_S4096x26x128_2_01_n_n_01_2_11128 : GatherDims S26x1000x128 S4096x26x2 S4096x26x128 where
  offsetDims := [2]
  collapsedSliceDims := [0, 1]
  operandBatchingDims := []
  startIndicesBatchingDims := []
  startIndexMap := [0, 1]
  indexVectorDim := 2
  sliceSizes := ![1, 1, 128]
  wf := gather_S26x1000x128_S4096x26x2_S4096x26x128_2_01_n_n_01_2_11128_wf
def dot_S4096x3355_S3355x1024_S4096x1024_1_0_0_1_n_n : DotDims S4096x3355 S3355x1024 S4096x1024 where
  lhsContracting := [1]
  rhsContracting := [0]
  lhsNonContracting := [0]
  rhsNonContracting := [1]
  lhsBatch := []
  rhsBatch := []
  wf := dot_S4096x3355_S3355x1024_S4096x1024_1_0_0_1_n_n_wf
def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x512_S512x1_S4096x1_1_0_0_1_n_n : DotDims S4096x512 S512x1 S4096x1 where
  lhsContracting := [1]
  rhsContracting := [0]
  lhsNonContracting := [0]
  rhsNonContracting := [1]
  lhsBatch := []
  rhsBatch := []
  wf := dot_S4096x512_S512x1_S4096x1_1_0_0_1_n_n_wf

class Facts : Prop extends Facts₀ where

variable [Facts]
-- ==== Proof.LaunchBase.lean ====
/-
  The program as the SparseCore launch theorem sees it: the call's configuration, the body table under it, the
  facts about the four handshake semaphores, and the ghost state (the handshakes' rounds beside the transfers'
  counters). Generic in the float instance.
-/
import proofs.«207592_g65111704207794_cont_9to1_m_407_36_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207592_g65111704207794_cont_9to1_m_407_36_alg».proof.Proof.Gen.KernelIdeal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels under the SparseCore call: the kernels' and the one TensorCore pipeline's. -/
abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.KI

end
-- ==== Proof.LaunchFin.lean ====
/-
  Reading the final memory: buffers held whole at a valuation are, in any state the assertion holds of, at that
  valuation's contents.
-/
import proofs.«207592_g65111704207794_cont_9to1_m_407_36_alg».proof.Proof.LaunchBase

noncomputable section

namespace Cert.Proof.KI

open Cert.KernelIdeal

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} {U : Type} [URA U]

local notation "𝕄" => MT nD τ sig (HIx 1) (Elt F) ℕ U ℕ

/-- Every buffer of a held set reads, in the state, what the valuation says. -/
theorem held_agree (c : Thread nD τ) (B : Finset (DevRef τ sig)) (W : Valuation τ sig (Elt F)) (s' : Phys nD τ sig (Elt F)) :
    iprop((held c B W : sProp 𝕄) ∗ SI s') ⊢ (⌜∀ b ∈ B, s'.mem.mem (c.1, b) = W b⌝ : sProp 𝕄) := by
  induction B using Finset.induction_on with
  | empty =>
    iintro -
    ipureintro; intro b hb; exact absurd hb (Finset.notMem_empty b)
  | insert a B ha ih =>
    unfold held at ih ⊢
    rw [SparseCore.bigSep_insert' ha]
    iintro ⟨⟨Ha, HB⟩, HSI⟩
    ihave H := (persistent_entails_right (SI_pointsTo_agree (st := s') (ℓ := (c.1, a)) (I := Finset.univ) (q := fullShare) (f := W a))) $$ [HSI Ha]
    · isplitl [HSI] <;> iassumption
    icases H with ⟨%h1, HSI, -⟩
    ihave H2 := ih $$ [HB HSI]
    · isplitl [HB] <;> iassumption
    icases H2 with %h2
    ipureintro; intro b hb
    rcases Finset.mem_insert.mp hb with rfl | hb
    · exact funext fun i => h1 i (Finset.mem_univ i)
    · exact h2 b hb

end Cert.Proof.KI

end
-- ==== Proof.TcAlg.lean ====
/-
  The resource algebra of the run: the staging cells' rounds beside the handshakes', and the pipelined region's share of the launch element.

  The program's threads meet at two kinds of cells: the handshakes between the TensorCore, the sequencers and the
  vector subcores (rounds whose duties are numbered), and the staging buffers' DMA semaphores of the one pipelined
  region the TensorCore runs (rounds with one unnamed duty). The user algebra therefore holds one copy of the rounds
  algebra for each, beside the counters of the local transfers. From the pipeline's launch element every device gets
  the ghost state of its staging cells and the duty tokens of the transfers the pipeline's loop issues.
-/
import proofs.«207592_g65111704207794_cont_9to1_m_407_36_alg».proof.Proof.Gen.KernelIdeal.Launch
import Idealize.ShloMosaic.Lib.SparseCore.Launch
import Idealize.ShloMosaic.Lib.Pipeline.Regions

noncomputable section

namespace Cert.Proof.TcAlg

open Cert.KernelIdeal Cert.KernelIdeal.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program's configuration -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift

/-- The prefetched tables' admissible contents: the pipeline has no table. -/
abbrev adm : (p : Fin 1) → (pcfgs (F := F) p).Adm := fun p => (cfgs p).toPCfg_adm

/-! ## The resource algebra -/

/-- The handshakes' rounds (duties numbered), -/
abbrev UH : Type := URounds (GSem nD τ sig) ℕ
/-- beside the staging cells' rounds (one duty) and the local transfers' counters. -/
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) :=
  (Emb.inl : Emb (UR sig nD τ) (UR sig nD τ × Counters)).trans embR

instance EP_landsIn : (EP (F := F)).LandsIn (upEmb : UEmb _ (MT nD τ sig (HIx 1) (Elt F) ℕ UU ℕ)) := by
  unfold EP embR; infer_instance

/-! ## The pipeline's launch element and what it funds -/

/-- The launch element of the staging cells' rounds: at the staging cells and the transfers the region's loop issues. -/
def uP : UR sig nD τ := initOf (Pipeline.cells cfgs cellOf_inj) (Pipeline.launchToks cfgs cellOf_inj)

/-- What device `d`'s TensorCore holds of it until the region is entered: its staging cells' ghost state and the
    duty tokens of its transfers. -/
abbrev Gd (d : Dev nD) : sProp 𝕄 :=
  iprop(Pipeline.cellsGhost (Pipeline.pin (pcfgs (F := F)) adm) EP 0 d ∗ Pipeline.toksInit (Pipeline.pin (pcfgs (F := F)) adm) EP 0 d)

/-- The launch element, owned through the pipeline's embedding, deals every device its share. -/
theorem fundP : (BI.own ((EP (F := F)) uP) : sProp 𝕄) ⊢ |==> bigSep Finset.univ fun d : Dev nD => Gd (F := F) d := by
  unfold uP
  refine (Pipeline.fund_ghost (Pipeline.pin (pcfgs (F := F)) adm) EP cellOf_inj).trans ?_
  rw [show (bigSep Finset.univ fun c : Dev nD => bigSep Finset.univ fun p : Fin 1 => Pipeline.cellsGhost (Pipeline.pin (pcfgs (F := F)) adm) EP p c)
        = (bigSep Finset.univ fun c : Dev nD => Pipeline.cellsGhost (Pipeline.pin (pcfgs (F := F)) adm) EP 0 c : sProp 𝕄)
      from bigSep_congr fun d _ => bigSep_univ_of_subsingleton (0 : Fin 1),
    show (bigSep Finset.univ fun c : Dev nD => bigSep Finset.univ fun p : Fin 1 => (Pipeline.toksInit (Pipeline.pin (pcfgs (F := F)) adm) EP p c : sProp 𝕄))
        = (bigSep Finset.univ fun c : Dev nD => Pipeline.toksInit (Pipeline.pin (pcfgs (F := F)) adm) EP 0 c : sProp 𝕄)
      from bigSep_congr fun d _ => bigSep_univ_of_subsingleton (0 : Fin 1),
    ← bigSep_sep']

/-- The whole launch element of the user algebra: the handshakes', the pipeline's, no counter yet. -/
def u₀ : UU := (initOf (K (F := F)).hsCells (K (F := F)).hsToks, (uP, 1))

/-- It splits into the handshakes' launch element, owned through their embedding, and every device's share of the
    pipeline's. -/
theorem u₀_split : (ownU (u₀ (F := F)) : sProp 𝕄)
    ⊢ |==> iprop(BI.own (EH (initOf (K (F := F)).hsCells (K (F := F)).hsToks)) ∗ bigSep Finset.univ fun d : Dev nD => Gd (F := F) d) := by
  unfold u₀
  iintro Hu
  ihave H := (ownU_pair (initOf (K (F := F)).hsCells (K (F := F)).hsToks) ((uP, 1) : UR sig nD τ × Counters)) $$ Hu
  icases H with ⟨HH, HR⟩
  ihave HR' := (own_pair_emb (embR : Emb (UR sig nD τ × Counters) (MT nD τ sig (HIx 1) (Elt F) ℕ UU ℕ)) uP (1 : Counters)) $$ HR
  icases HR' with ⟨HP, -⟩
  imod (fundP (F := F)) $$ HP with HG
  imodintro
  isplitl [HH]; · iexact HH
  iexact HG

end Cert.Proof.TcAlg

end
-- ==== Proof.LaunchPay.lean ====
/-
  What the SparseCore call's handshakes carry, stated over ANY per-tile assertions `GO` (what a tile is handed) and
  `TD` (what it hands back): a SparseCore's start carries its sixteen tiles' `GO`s, its done their `TD`s, so the
  split among the tiles is the identity. The launch element of the ghost state funds the handshakes only.
-/
import proofs.«207592_g65111704207794_cont_9to1_m_407_36_alg».proof.Proof.LaunchFin
import proofs.«207592_g65111704207794_cont_9to1_m_407_36_alg».proof.Proof.TcAlg

noncomputable section

namespace Cert.Proof.KI

open Cert.KernelIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds, the staging cells' rounds, the transfers' counters -/

open Cert.Proof.TcAlg (UH UU EH EP Gd)

local notation "𝕄" => MT nD τ sig (HIx 1) (Elt F) ℕ UU ℕ

variable (GO TD : Dev nD → Fin 2 → Fin 16 → sProp (MT nD τ sig (HIx 1) (Elt F) ℕ UU ℕ))

/-- The one call: SparseCore `c` takes its tiles' `GO`s and brings back their `TD`s. -/
theorem nCore_q (q : Fin 1) : (K (F := F)).nCore q = 2 := match q with | 0 => rfl
theorem nSub_q (q : Fin 1) : (K (F := F)).nSub q = 16 := match q with | 0 => rfl

def P : (K (F := F)).Pay (nD := nD) (Val := Elt F) (Name := ℕ) (U := UU) where
  st := fun q d c => bigSep Finset.univ fun i : Fin 16 => GO d (Fin.cast (nCore_q q) c) i
  dn := fun q d c => bigSep Finset.univ fun i : Fin 16 => TD d (Fin.cast (nCore_q q) c) i
  go := fun q d c i => GO d (Fin.cast (nCore_q q) c) (Fin.cast (nSub_q q) i)
  td := fun q d c i => TD d (Fin.cast (nCore_q q) c) (Fin.cast (nSub_q q) i)
  x := fun _ _ => iprop(emp)

theorem P_storable (hG : ∀ d c i, BI.Storable (upEmb : UEmb _ 𝕄) (GO d c i)) (hT : ∀ d c i, BI.Storable (upEmb : UEmb _ 𝕄) (TD d c i)) :
    (P (F := F) GO TD).IsStorable where
  st q d c := by
    haveI := hG
    exact (inferInstance : BI.Storable (upEmb : UEmb _ 𝕄) (bigSep Finset.univ fun i : Fin 16 => GO d (Fin.cast (nCore_q q) c) i))
  dn q d c := by
    haveI := hT
    exact (inferInstance : BI.Storable (upEmb : UEmb _ 𝕄) (bigSep Finset.univ fun i : Fin 16 => TD d (Fin.cast (nCore_q q) c) i))
  go q d c i := hG d _ _
  td q d c i := hT d _ _

theorem bigSep_tasks (Φ : Fin 16 → sProp 𝕄) :
    (bigSep Finset.univ fun i : Fin ((K (F := F)).nSub 0) => Φ (Fin.cast (nSub_q 0) i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast (nCore_q 0) c)) = bigSep Finset.univ Φ :=
  bigSep_congr fun _ _ => congrArg Φ (Fin.ext rfl)

/-- The split among a SparseCore's tiles: its start carries exactly their shares. -/
theorem vecSplit : (K (F := F)).VecSplit' (P GO TD) 0 := by
  intro d c
  show (bigSep Finset.univ fun i : Fin 16 => GO d (Fin.cast (nCore_q 0) c) i) ⊢ |={Set.univ}=> iprop(
      (bigSep Finset.univ fun i : Fin ((K (F := F)).nSub 0) => GO d (Fin.cast (nCore_q 0) c) (Fin.cast (nSub_q 0) i))
      ∗ ((bigSep Finset.univ fun i : Fin ((K (F := F)).nSub 0) => TD d (Fin.cast (nCore_q 0) c) (Fin.cast (nSub_q 0) i))
          -∗ bigSep Finset.univ fun i : Fin 16 => TD d (Fin.cast (nCore_q 0) c) i))
  rw [bigSep_tasks (F := F) (fun i => GO d (Fin.cast (nCore_q 0) c) i), bigSep_tasks (F := F) (fun i => TD d (Fin.cast (nCore_q 0) c) i)]
  iintro H; imodintro
  isplitl [H]; · iexact H
  iintro H; iexact H

/-- What the call takes for the two SparseCores, and what it hands back: every tile's share. -/
theorem st0_eq (d : Dev nD) :
    (bigSep Finset.univ fun c : Fin ((K (F := F)).nCore 0) => (P GO TD).st 0 d c) = bigSep Finset.univ fun c : Fin 2 => bigSep Finset.univ fun i : Fin 16 => GO d c i :=
  bigSep_cores (F := F) (fun c => bigSep Finset.univ fun i : Fin 16 => GO d c i)
theorem dn0_eq (d : Dev nD) :
    (bigSep Finset.univ fun c : Fin ((K (F := F)).nCore 0) => (P GO TD).dn 0 d c) = bigSep Finset.univ fun c : Fin 2 => bigSep Finset.univ fun i : Fin 16 => TD d c i :=
  bigSep_cores (F := F) (fun c => bigSep Finset.univ fun i : Fin 16 => TD d c i)

/-! ## The launch element of the ghost state -/

theorem bigSep_emp' {I : Type} (s : Finset I) : (bigSep s fun _ => iprop(emp)) = (iprop(emp) : sProp 𝕄) := bigSep_emp_const s

/-- The launch element funds the handshakes' rounds and every TensorCore's staging cells; the tiles' proofs consume
    nothing of it. -/
theorem hu₀ [FloatOps F] : (ownU (Cert.Proof.TcAlg.u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P GO TD).x q thr) := by
  iintro Hu
  imod (Cert.Proof.TcAlg.u₀_split (F := F)) $$ Hu with H
  icases H with ⟨HH, HG⟩
  imodintro
  isplitl [HH]; · iexact HH
  isplitl [HG]; · iexact HG
  rw [show (bigSep Finset.univ fun thr : Thread nD τ => bigSep Finset.univ fun q : Fin 1 => (P (F := F) GO TD).x q thr) = bigSep Finset.univ fun _ => iprop(emp) from
    bigSep_congr fun _ _ => bigSep_univ_of_subsingleton (0 : Fin 1), bigSep_emp']
  iempintro

end Cert.Proof.KI

end
-- ==== Proof.LaunchTile.lean ====
/-
  The vector-subcore call's obligation from the proof of one task at a symbolic place: the body table's entry for a
  tile is the kernel function at the tile's coordinates, and the launch theorem's pre- and postcondition are the
  task's, the records of waits weakened.
-/
import proofs.«207592_g65111704207794_cont_9to1_m_407_36_alg».proof.Proof.LaunchPay

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.TcAlg (UH UU EH EP Gd)

variable {F : FTy → Type} [FloatOps F]

local notation "𝕄" => MT nD τ sig (HIx 1) (Elt F) ℕ UU ℕ

/-- A tile's coordinates in the kernel's grid: its SparseCore, its subcore. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The kernel function as the body table calls it for the tile at `L`: the seven arrays whole, the tile's nine
    scratch buffers whole, its semaphores. -/
abbrev tileProg (L : grid0.Coords) : Prog (TpuEff nD τ sig (Elt F) Λ₀ (.scVector (cV L) (jV L))) PUnit :=
  cc0__sc_gather (F := F) L (Memref.whole main_v18_scv) (Memref.isWhole_whole _) (Memref.whole main_v42_scv) (Memref.isWhole_whole _)
    (Memref.whole main_v43_scv) (Memref.isWhole_whole _) (Memref.whole main_v21_scv) (Memref.isWhole_whole _) (Memref.whole main_v44_scv) (Memref.isWhole_whole _)
    (Memref.whole main_v45_0_scv) (Memref.isWhole_whole _) (Memref.whole main_v45_1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scratch9 cc0_scratch10 cc0_scratch11 cc0_scratch12 cc0_scratch13 cc0_scratch14 cc0_scratch15 cc0_scratch16
    cc0_scoped0 cc0_scoped1 cc0_scoped2 cc0_scoped3 cc0_scoped4

theorem defs₀_vector (c : Fin τ.nSC) (s : Fin τ.nSub) :
    defs₀ (F := F) (.scVector c s) 0 () = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (GOt TDt : Dev nD → grid0.Coords → sProp (MT nD τ sig (HIx 1) (Elt F) ℕ UU ℕ))

/-- What tile `i` of SparseCore `c` is handed and hands back, at its coordinates. -/
abbrev GOof : Dev nD → Fin 2 → Fin 16 → sProp (MT nD τ sig (HIx 1) (Elt F) ℕ UU ℕ) := fun d c i => GOt d (coordsV c i)
abbrev TDof : Dev nD → Fin 2 → Fin 16 → sProp (MT nD τ sig (HIx 1) (Elt F) ℕ UU ℕ) := fun d c i => TDt d (coordsV c i)

/-- The proof of one task at a symbolic place, in the form the wrapper takes. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ GOt d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(TDt d L ∗ scopedBufs (V d (cV L) (jV L)) ∗ scopedSems0 (V d (cV L) (jV L))
            ∗ ∃ W', ⌜∀ p ∈ W', p ∈ W ∨ p.2 = none⌝ ∗ owes (V d (cV L) (jV L)) O W')

set_option maxRecDepth 16384 in
theorem tileObl (hbody : TileBody (F := F) GOt TDt) :
    (K (F := F)).TileObl (D (F := F)) 𝒱 (P (GOof GOt) (TDof TDt)) v₀ 0 := by
  intro d c i O W hO _ _
  simp only [show (P (GOof GOt) (TDof TDt)).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) O W hO).trans (wp_mono frame _ _ fun _ => obl_post)

end Cert.Proof.KI

end
-- ==== Proof.ScSpec.lean ====
/-
  The values the vector-subcore task leaves in its two results, index by index, as functions of the
  contents of the arrays it reads: the embedding table, the two index lists, the first-order weights and
  the feature values.
-/
import proofs.«207592_g65111704207794_cont_9to1_m_407_36_alg».proof.KernelIdeal

noncomputable section

namespace Cert.Proof.ScSpec

open Cert.KernelIdeal
open Idealize.ShloMosaic

variable {F : FTy → Type} [FloatOps F]

/-- The position, in a worker's transposed list of 26 chunks of 128, of batch row `b` (worker `b / 128`,
    row `b % 128` of it) and chunk `c`. -/
def pos (b c : ℕ) : ℕ := (b / 128) * 3328 + c * 128 + b % 128

theorem pos_lt {b c : ℕ} (hb : b < 4096) (hc : c < 26) : pos b c < 106496 := by
  unfold pos
  have h1 : b / 128 ≤ 31 := by omega
  have h2 : b % 128 < 128 := Nat.mod_lt _ (by decide)
  omega

/-- An index of a rank-one shape of extent `n` from a number (taken modulo `n`). -/
def ix1 (n : ℕ) (hn : 0 < n) (k : ℕ) : (⟨1, ![n]⟩ : Shape).Idx := fun a =>
  match a with
  | 0 => (⟨k % n, Nat.mod_lt _ hn⟩ : Fin n)

/-- An index of a rank-two shape from two numbers (each taken modulo its extent). -/
def ix2 (n m : ℕ) (hn : 0 < n) (hm : 0 < m) (i j : ℕ) : (⟨2, ![n, m]⟩ : Shape).Idx := fun a =>
  match a with
  | 0 => (⟨i % n, Nat.mod_lt _ hn⟩ : Fin n)
  | 1 => (⟨j % m, Nat.mod_lt _ hm⟩ : Fin m)

/-- The second-order result: row `b`, column `c * 128 + e` holds element `e` of the table row the transposed
    index list names at `pos b c`, times the feature value at the same position. -/
def E2 (T : S26000x128.Idx → F .f32) (I2 : S106496.Idx → BitVec 32) (XV : S106496.Idx → F .f32) :
    S4096x3328.Idx → F .f32 := fun x =>
  FloatOps.mulf (T (ix2 26000 128 (by decide) (by decide) (I2 (ix1 106496 (by decide) (pos (x 0).val ((x 1).val / 128)))).toNat ((x 1).val % 128)))
    (XV (ix1 106496 (by decide) (pos (x 0).val ((x 1).val / 128))))

/-- The first-order result: position `k` holds the weight the padded index list names there. -/
def SS (IS : S131072.Idx → BitVec 32) (WF : S26008.Idx → F .f32) : S131072.Idx → F .f32 := fun k =>
  WF (ix1 26008 (by decide) (IS k).toNat)

end Cert.Proof.ScSpec
-- ==== Proof.ScViews.lean ====
/-
  The arrays, slices and scratch buffers of the vector-subcore task as the program addresses them, the
  elements of each array one task holds, and what it holds before and after it runs.
-/
import proofs.«207592_g65111704207794_cont_9to1_m_407_36_alg».proof.Proof.ScSpec
import proofs.«207592_g65111704207794_cont_9to1_m_407_36_alg».proof.Proof.TcAlg
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207592_g65111704207794_cont_9to1_m_407_36_alg».proof.Proof.Gen.KernelIdeal
import proofs.«207592_g65111704207794_cont_9to1_m_407_36_alg».proof.Proof.Gen.KernelIdeal.Skeleton

noncomputable section

namespace Cert.Proof.ScViews

open Cert.KernelIdeal Cert.KernelIdeal.Gen
open Cert.Proof.ScSpec
open Cert.Proof.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays in HBM and the scratch buffers, whole, as the task names them -/

abbrev tV : Memref sig .scVector .hbm S26000x128 .f32 := Memref.whole main_v18_scv
abbrev i2V : Memref sig .scVector .hbm S106496 .i32 := Memref.whole main_v42_scv
abbrev isV : Memref sig .scVector .hbm S131072 .i32 := Memref.whole main_v43_scv
abbrev wfV : Memref sig .scVector .hbm S26008 .f32 := Memref.whole main_v21_scv
abbrev xvV : Memref sig .scVector .hbm S106496 .f32 := Memref.whole main_v44_scv
abbrev e2V : Memref sig .scVector .hbm S4096x3328 .f32 := Memref.whole main_v45_0_scv
abbrev soV : Memref sig .scVector .hbm S131072 .f32 := Memref.whole main_v45_1_scv
abbrev s0V : Memref sig .scVector .vmem S3328 .i32 := Memref.whole cc0_scratch0
abbrev s1V : Memref sig .scVector .vmem S4096 .i32 := Memref.whole cc0_scratch1
abbrev s2V : Memref sig .scVector .vmem S26008 .f32 := Memref.whole cc0_scratch2
abbrev s3V : Memref sig .scVector .vmem S4096 .f32 := Memref.whole cc0_scratch3
abbrev s4V : Memref sig .scVector .vmem S3328 .f32 := Memref.whole cc0_scratch4
abbrev r0V : Memref sig .scVector .vmem S128x128 .f32 := Memref.whole cc0_scratch5
abbrev r1V : Memref sig .scVector .vmem S128x128 .f32 := Memref.whole cc0_scratch6
abbrev r2V : Memref sig .scVector .vmem S128x128 .f32 := Memref.whole cc0_scratch7
abbrev r3V : Memref sig .scVector .vmem S128x128 .f32 := Memref.whole cc0_scratch8

abbrev tLoc (d : Dev nD) : Loc nD τ sig := (SparseCore.T d).loc main_v18
abbrev i2Loc (d : Dev nD) : Loc nD τ sig := (SparseCore.T d).loc main_v42
abbrev isLoc (d : Dev nD) : Loc nD τ sig := (SparseCore.T d).loc main_v43
abbrev wfLoc (d : Dev nD) : Loc nD τ sig := (SparseCore.T d).loc main_v21
abbrev xvLoc (d : Dev nD) : Loc nD τ sig := (SparseCore.T d).loc main_v44
abbrev e2Loc (d : Dev nD) : Loc nD τ sig := (SparseCore.T d).loc main_v45_0
abbrev soLoc (d : Dev nD) : Loc nD τ sig := (SparseCore.T d).loc main_v45_1

abbrev cV (L : grid0.Coords) : Fin τ.nSC := (L 0).castLE hcore0
abbrev jV (L : grid0.Coords) : Fin τ.nSub := (L 1).castLE hsub0

/-! ## One task's slices -/

abbrev i2Sl (L : grid0.Coords) : Memref sig .scVector .hbm S3328 .i32 :=
  (i2V).slice (Rect.unit (s := S106496) (k0_off1 L) S3328.size (k0_off1_inb L)) (fun _ => rfl)
abbrev xvSl (L : grid0.Coords) : Memref sig .scVector .hbm S3328 .f32 :=
  (xvV).slice (Rect.unit (s := S106496) (k0_off1 L) S3328.size (k0_off1_inb L)) (fun _ => rfl)
abbrev isSl (L : grid0.Coords) : Memref sig .scVector .hbm S4096 .i32 :=
  (isV).slice (Rect.unit (s := S131072) (k0_off2 L) S4096.size (k0_off2_inb L)) (fun _ => rfl)
abbrev soSl (L : grid0.Coords) : Memref sig .scVector .hbm S4096 .f32 :=
  (soV).slice (Rect.unit (s := S131072) (k0_off2 L) S4096.size (k0_off2_inb L)) (fun _ => rfl)

abbrev i2Set (L : grid0.Coords) : Finset S106496.Idx := (i2Sl L).view.set
abbrev xvSet (L : grid0.Coords) : Finset S106496.Idx := (xvSl L).view.set
abbrev isSet (L : grid0.Coords) : Finset S131072.Idx := (isSl L).view.set
abbrev soSet (L : grid0.Coords) : Finset S131072.Idx := (soSl L).view.set

/-- The first of the task's 128 rows of the second-order result. -/
abbrev e2Row0 (L : grid0.Coords) : ℕ := 256 * (L 1).val + 128 * (L 0).val

theorem e2Rows_inb (L : grid0.Coords) : ∀ a, (![e2Row0 L, 0] : Fin 2 → ℕ) a + (![128, 3328] : Fin 2 → ℕ) a ≤ S4096x3328.size a := by
  have h1 : (L 1).val < 16 := (L 1).isLt
  have h0 : (L 0).val < 2 := (L 0).isLt
  refine Rect.inb₂ ?_ ?_
  · show 256 * (L 1).val + 128 * (L 0).val + 128 ≤ 4096; omega
  · show 0 + 3328 ≤ 3328; omega

/-- The task's 128 rows of the second-order result, all columns. -/
abbrev e2Rect (L : grid0.Coords) : Rect S4096x3328 := Rect.unit (s := S4096x3328) ![e2Row0 L, 0] ![128, 3328] (e2Rows_inb L)
abbrev e2Rows (L : grid0.Coords) : Finset S4096x3328.Idx := ((e2V).view.slice (e2Rect L)).set

/-! ## What one task holds of the arrays, before and after -/

section Held
variable (d : Dev nD) (L : grid0.Coords) (qT qW : PosShare TreeShare)
variable (Tb : Buf (Elt F) (tLoc d)) (I2 : Buf (Elt F) (i2Loc d)) (IS : Buf (Elt F) (isLoc d))
  (WF : Buf (Elt F) (wfLoc d)) (XV : Buf (Elt F) (xvLoc d))

/-- Before: a share of the table and of the weights, the task's slices of the two index lists and of the feature
    values, and its rows and slice of the two results at whatever they hold. -/
abbrev GO : sProp 𝕄 :=
  iprop((tLoc d ↦{qT} Tb) ∗ (wfLoc d ↦{qW} WF) ∗ (i2Loc d ↦[i2Set L]{fullShare} I2) ∗ (xvLoc d ↦[xvSet L]{fullShare} XV)
    ∗ (isLoc d ↦[isSet L]{fullShare} IS) ∗ (∃ f, e2Loc d ↦[e2Rows L]{fullShare} f) ∗ (∃ f, soLoc d ↦[soSet L]{fullShare} f))

/-- After: the same, the results at their values. -/
abbrev TD : sProp 𝕄 :=
  iprop((tLoc d ↦{qT} Tb) ∗ (wfLoc d ↦{qW} WF) ∗ (i2Loc d ↦[i2Set L]{fullShare} I2) ∗ (xvLoc d ↦[xvSet L]{fullShare} XV)
    ∗ (isLoc d ↦[isSet L]{fullShare} IS) ∗ (e2Loc d ↦[e2Rows L]{fullShare} (E2 Tb I2 XV : Buf (Elt F) (e2Loc d)))
    ∗ (soLoc d ↦[soSet L]{fullShare} (SS IS WF : Buf (Elt F) (soLoc d))))

end Held

/-- The task's program, on the whole arrays and its own scratch and semaphores, as the body table passes them. -/
abbrev task (L : grid0.Coords) : Prog (TpuEff nD τ sig (Elt F) Λ₀ (.scVector (cV L) (jV L))) PUnit :=
  cc0__sc_gather L tV (Memref.isWhole_whole _) i2V (Memref.isWhole_whole _) isV (Memref.isWhole_whole _) wfV (Memref.isWhole_whole _)
    xvV (Memref.isWhole_whole _) e2V (Memref.isWhole_whole _) soV (Memref.isWhole_whole _)
    s0V (Memref.isWhole_whole _) s1V (Memref.isWhole_whole _) s2V (Memref.isWhole_whole _) s3V (Memref.isWhole_whole _) s4V (Memref.isWhole_whole _)
    r0V (Memref.isWhole_whole _) r1V (Memref.isWhole_whole _) r2V (Memref.isWhole_whole _) r3V (Memref.isWhole_whole _)
    cc0_scratch9 cc0_scratch10 cc0_scratch11 cc0_scratch12 cc0_scratch13 cc0_scratch14 cc0_scratch15 cc0_scratch16
    cc0_scoped0 cc0_scoped1 cc0_scoped2 cc0_scoped3 cc0_scoped4

/-! ## The task's own semaphores and scratch buffers among its thread's -/

section Own

variable (d : Dev nD) (L : grid0.Coords)

/-- The task's thread's cell of one of its own DMA semaphores. -/
abbrev cell (s : DmaSems sig S_) : GSem nD τ sig := (V d (cV L) (jV L), SemLoc.dma s.sem)
abbrev sref (b : Ref sig .scVector) : DevRef τ sig := (Proc.scVector (cV L) (jV L)).devRef b
abbrev sloc (b : Ref sig .scVector) : Loc nD τ sig := (V d (cV L) (jV L)).loc b

omit [FloatOps F] in
theorem cell_ne {a b : DmaSems sig S_} (h : a.sem ≠ b.sem) : cell d L a ≠ cell d L b :=
  fun e => h (SemLoc.dma.inj (Prod.mk.inj e).2)
omit [FloatOps F] in
theorem sref_ne {a b : Ref sig .scVector} (h : a ≠ b) : sref L a ≠ sref L b :=
  fun e => h (Proc.devRef_injective _ e)

abbrev semSet : Finset (GSem nD τ sig) := ({cell d L cc0_scratch9, cell d L cc0_scratch10, cell d L cc0_scratch11, cell d L cc0_scratch12, cell d L cc0_scratch13, cell d L cc0_scratch14, cell d L cc0_scratch15, cell d L cc0_scratch16, cell d L cc0_scoped0, cell d L cc0_scoped1, cell d L cc0_scoped2, cell d L cc0_scoped3, cell d L cc0_scoped4} : Finset (GSem nD τ sig))
abbrev bufSet : Finset (DevRef τ sig) := ({sref L cc0_scratch0, sref L cc0_scratch1, sref L cc0_scratch2, sref L cc0_scratch3, sref L cc0_scratch4, sref L cc0_scratch5, sref L cc0_scratch6, sref L cc0_scratch7, sref L cc0_scratch8} : Finset (DevRef τ sig))

omit [FloatOps F] in
theorem semSet_split (Φ : GSem nD τ sig → sProp 𝕄) :
    bigSep (semSet d L) Φ = iprop(Φ (cell d L cc0_scratch9) ∗ Φ (cell d L cc0_scratch10) ∗ Φ (cell d L cc0_scratch11) ∗ Φ (cell d L cc0_scratch12) ∗ Φ (cell d L cc0_scratch13) ∗ Φ (cell d L cc0_scratch14) ∗ Φ (cell d L cc0_scratch15) ∗ Φ (cell d L cc0_scratch16) ∗ Φ (cell d L cc0_scoped0) ∗ Φ (cell d L cc0_scoped1) ∗ Φ (cell d L cc0_scoped2) ∗ Φ (cell d L cc0_scoped3) ∗ Φ (cell d L cc0_scoped4)) := by
  unfold semSet
  rw [SparseCore.bigSep_insert' (by simp only [Finset.mem_insert, Finset.mem_singleton, not_or]; exact ⟨cell_ne d L (a := cc0_scratch9) (b := cc0_scratch10) (by decide), cell_ne d L (a := cc0_scratch9) (b := cc0_scratch11) (by decide), cell_ne d L (a := cc0_scratch9) (b := cc0_scratch12) (by decide), cell_ne d L (a := cc0_scratch9) (b := cc0_scratch13) (by decide), cell_ne d L (a := cc0_scratch9) (b := cc0_scratch14) (by decide), cell_ne d L (a := cc0_scratch9) (b := cc0_scratch15) (by decide), cell_ne d L (a := cc0_scratch9) (b := cc0_scratch16) (by decide), cell_ne d L (a := cc0_scratch9) (b := cc0_scoped0) (by decide), cell_ne d L (a := cc0_scratch9) (b := cc0_scoped1) (by decide), cell_ne d L (a := cc0_scratch9) (b := cc0_scoped2) (by decide), cell_ne d L (a := cc0_scratch9) (b := cc0_scoped3) (by decide), cell_ne d L (a := cc0_scratch9) (b := cc0_scoped4) (by decide)⟩)]
  rw [SparseCore.bigSep_insert' (by simp only [Finset.mem_insert, Finset.mem_singleton, not_or]; exact ⟨cell_ne d L (a := cc0_scratch10) (b := cc0_scratch11) (by decide), cell_ne d L (a := cc0_scratch10) (b := cc0_scratch12) (by decide), cell_ne d L (a := cc0_scratch10) (b := cc0_scratch13) (by decide), cell_ne d L (a := cc0_scratch10) (b := cc0_scratch14) (by decide), cell_ne d L (a := cc0_scratch10) (b := cc0_scratch15) (by decide), cell_ne d L (a := cc0_scratch10) (b := cc0_scratch16) (by decide), cell_ne d L (a := cc0_scratch10) (b := cc0_scoped0) (by decide), cell_ne d L (a := cc0_scratch10) (b := cc0_scoped1) (by decide), cell_ne d L (a := cc0_scratch10) (b := cc0_scoped2) (by decide), cell_ne d L (a := cc0_scratch10) (b := cc0_scoped3) (by decide), cell_ne d L (a := cc0_scratch10) (b := cc0_scoped4) (by decide)⟩)]
  rw [SparseCore.bigSep_insert' (by simp only [Finset.mem_insert, Finset.mem_singleton, not_or]; exact ⟨cell_ne d L (a := cc0_scratch11) (b := cc0_scratch12) (by decide), cell_ne d L (a := cc0_scratch11) (b := cc0_scratch13) (by decide), cell_ne d L (a := cc0_scratch11) (b := cc0_scratch14) (by decide), cell_ne d L (a := cc0_scratch11) (b := cc0_scratch15) (by decide), cell_ne d L (a := cc0_scratch11) (b := cc0_scratch16) (by decide), cell_ne d L (a := cc0_scratch11) (b := cc0_scoped0) (by decide), cell_ne d L (a := cc0_scratch11) (b := cc0_scoped1) (by decide), cell_ne d L (a := cc0_scratch11) (b := cc0_scoped2) (by decide), cell_ne d L (a := cc0_scratch11) (b := cc0_scoped3) (by decide), cell_ne d L (a := cc0_scratch11) (b := cc0_scoped4) (by decide)⟩)]
  rw [SparseCore.bigSep_insert' (by simp only [Finset.mem_insert, Finset.mem_singleton, not_or]; exact ⟨cell_ne d L (a := cc0_scratch12) (b := cc0_scratch13) (by decide), cell_ne d L (a := cc0_scratch12) (b := cc0_scratch14) (by decide), cell_ne d L (a := cc0_scratch12) (b := cc0_scratch15) (by decide), cell_ne d L (a := cc0_scratch12) (b := cc0_scratch16) (by decide), cell_ne d L (a := cc0_scratch12) (b := cc0_scoped0) (by decide), cell_ne d L (a := cc0_scratch12) (b := cc0_scoped1) (by decide), cell_ne d L (a := cc0_scratch12) (b := cc0_scoped2) (by decide), cell_ne d L (a := cc0_scratch12) (b := cc0_scoped3) (by decide), cell_ne d L (a := cc0_scratch12) (b := cc0_scoped4) (by decide)⟩)]
  rw [SparseCore.bigSep_insert' (by simp only [Finset.mem_insert, Finset.mem_singleton, not_or]; exact ⟨cell_ne d L (a := cc0_scratch13) (b := cc0_scratch14) (by decide), cell_ne d L (a := cc0_scratch13) (b := cc0_scratch15) (by decide), cell_ne d L (a := cc0_scratch13) (b := cc0_scratch16) (by decide), cell_ne d L (a := cc0_scratch13) (b := cc0_scoped0) (by decide), cell_ne d L (a := cc0_scratch13) (b := cc0_scoped1) (by decide), cell_ne d L (a := cc0_scratch13) (b := cc0_scoped2) (by decide), cell_ne d L (a := cc0_scratch13) (b := cc0_scoped3) (by decide), cell_ne d L (a := cc0_scratch13) (b := cc0_scoped4) (by decide)⟩)]
  rw [SparseCore.bigSep_insert' (by simp only [Finset.mem_insert, Finset.mem_singleton, not_or]; exact ⟨cell_ne d L (a := cc0_scratch14) (b := cc0_scratch15) (by decide), cell_ne d L (a := cc0_scratch14) (b := cc0_scratch16) (by decide), cell_ne d L (a := cc0_scratch14) (b := cc0_scoped0) (by decide), cell_ne d L (a := cc0_scratch14) (b := cc0_scoped1) (by decide), cell_ne d L (a := cc0_scratch14) (b := cc0_scoped2) (by decide), cell_ne d L (a := cc0_scratch14) (b := cc0_scoped3) (by decide), cell_ne d L (a := cc0_scratch14) (b := cc0_scoped4) (by decide)⟩)]
  rw [SparseCore.bigSep_insert' (by simp only [Finset.mem_insert, Finset.mem_singleton, not_or]; exact ⟨cell_ne d L (a := cc0_scratch15) (b := cc0_scratch16) (by decide), cell_ne d L (a := cc0_scratch15) (b := cc0_scoped0) (by decide), cell_ne d L (a := cc0_scratch15) (b := cc0_scoped1) (by decide), cell_ne d L (a := cc0_scratch15) (b := cc0_scoped2) (by decide), cell_ne d L (a := cc0_scratch15) (b := cc0_scoped3) (by decide), cell_ne d L (a := cc0_scratch15) (b := cc0_scoped4) (by decide)⟩)]
  rw [SparseCore.bigSep_insert' (by simp only [Finset.mem_insert, Finset.mem_singleton, not_or]; exact ⟨cell_ne d L (a := cc0_scratch16) (b := cc0_scoped0) (by decide), cell_ne d L (a := cc0_scratch16) (b := cc0_scoped1) (by decide), cell_ne d L (a := cc0_scratch16) (b := cc0_scoped2) (by decide), cell_ne d L (a := cc0_scratch16) (b := cc0_scoped3) (by decide), cell_ne d L (a := cc0_scratch16) (b := cc0_scoped4) (by decide)⟩)]
  rw [SparseCore.bigSep_insert' (by simp only [Finset.mem_insert, Finset.mem_singleton, not_or]; exact ⟨cell_ne d L (a := cc0_scoped0) (b := cc0_scoped1) (by decide), cell_ne d L (a := cc0_scoped0) (b := cc0_scoped2) (by decide), cell_ne d L (a := cc0_scoped0) (b := cc0_scoped3) (by decide), cell_ne d L (a := cc0_scoped0) (b := cc0_scoped4) (by decide)⟩)]
  rw [SparseCore.bigSep_insert' (by simp only [Finset.mem_insert, Finset.mem_singleton, not_or]; exact ⟨cell_ne d L (a := cc0_scoped1) (b := cc0_scoped2) (by decide), cell_ne d L (a := cc0_scoped1) (b := cc0_scoped3) (by decide), cell_ne d L (a := cc0_scoped1) (b := cc0_scoped4) (by decide)⟩)]
  rw [SparseCore.bigSep_insert' (by simp only [Finset.mem_insert, Finset.mem_singleton, not_or]; exact ⟨cell_ne d L (a := cc0_scoped2) (b := cc0_scoped3) (by decide), cell_ne d L (a := cc0_scoped2) (b := cc0_scoped4) (by decide)⟩)]
  rw [SparseCore.bigSep_insert' (by simp only [Finset.mem_insert, Finset.mem_singleton, not_or]; exact cell_ne d L (a := cc0_scoped3) (b := cc0_scoped4) (by decide))]
  rw [bigSep_singleton]

omit [FloatOps F] in
theorem bufSet_split (Φ : DevRef τ sig → sProp 𝕄) :
    bigSep (bufSet L) Φ = iprop(Φ (sref L cc0_scratch0) ∗ Φ (sref L cc0_scratch1) ∗ Φ (sref L cc0_scratch2) ∗ Φ (sref L cc0_scratch3) ∗ Φ (sref L cc0_scratch4) ∗ Φ (sref L cc0_scratch5) ∗ Φ (sref L cc0_scratch6) ∗ Φ (sref L cc0_scratch7) ∗ Φ (sref L cc0_scratch8)) := by
  unfold bufSet
  rw [SparseCore.bigSep_insert' (by simp only [Finset.mem_insert, Finset.mem_singleton, not_or]; exact ⟨sref_ne L (a := cc0_scratch0) (b := cc0_scratch1) (by decide), sref_ne L (a := cc0_scratch0) (b := cc0_scratch2) (by decide), sref_ne L (a := cc0_scratch0) (b := cc0_scratch3) (by decide), sref_ne L (a := cc0_scratch0) (b := cc0_scratch4) (by decide), sref_ne L (a := cc0_scratch0) (b := cc0_scratch5) (by decide), sref_ne L (a := cc0_scratch0) (b := cc0_scratch6) (by decide), sref_ne L (a := cc0_scratch0) (b := cc0_scratch7) (by decide), sref_ne L (a := cc0_scratch0) (b := cc0_scratch8) (by decide)⟩)]
  rw [SparseCore.bigSep_insert' (by simp only [Finset.mem_insert, Finset.mem_singleton, not_or]; exact ⟨sref_ne L (a := cc0_scratch1) (b := cc0_scratch2) (by decide), sref_ne L (a := cc0_scratch1) (b := cc0_scratch3) (by decide), sref_ne L (a := cc0_scratch1) (b := cc0_scratch4) (by decide), sref_ne L (a := cc0_scratch1) (b := cc0_scratch5) (by decide), sref_ne L (a := cc0_scratch1) (b := cc0_scratch6) (by decide), sref_ne L (a := cc0_scratch1) (b := cc0_scratch7) (by decide), sref_ne L (a := cc0_scratch1) (b := cc0_scratch8) (by decide)⟩)]
  rw [SparseCore.bigSep_insert' (by simp only [Finset.mem_insert, Finset.mem_singleton, not_or]; exact ⟨sref_ne L (a := cc0_scratch2) (b := cc0_scratch3) (by decide), sref_ne L (a := cc0_scratch2) (b := cc0_scratch4) (by decide), sref_ne L (a := cc0_scratch2) (b := cc0_scratch5) (by decide), sref_ne L (a := cc0_scratch2) (b := cc0_scratch6) (by decide), sref_ne L (a := cc0_scratch2) (b := cc0_scratch7) (by decide), sref_ne L (a := cc0_scratch2) (b := cc0_scratch8) (by decide)⟩)]
  rw [SparseCore.bigSep_insert' (by simp only [Finset.mem_insert, Finset.mem_singleton, not_or]; exact ⟨sref_ne L (a := cc0_scratch3) (b := cc0_scratch4) (by decide), sref_ne L (a := cc0_scratch3) (b := cc0_scratch5) (by decide), sref_ne L (a := cc0_scratch3) (b := cc0_scratch6) (by decide), sref_ne L (a := cc0_scratch3) (b := cc0_scratch7) (by decide), sref_ne L (a := cc0_scratch3) (b := cc0_scratch8) (by decide)⟩)]
  rw [SparseCore.bigSep_insert' (by simp only [Finset.mem_insert, Finset.mem_singleton, not_or]; exact ⟨sref_ne L (a := cc0_scratch4) (b := cc0_scratch5) (by decide), sref_ne L (a := cc0_scratch4) (b := cc0_scratch6) (by decide), sref_ne L (a := cc0_scratch4) (b := cc0_scratch7) (by decide), sref_ne L (a := cc0_scratch4) (b := cc0_scratch8) (by decide)⟩)]
  rw [SparseCore.bigSep_insert' (by simp only [Finset.mem_insert, Finset.mem_singleton, not_or]; exact ⟨sref_ne L (a := cc0_scratch5) (b := cc0_scratch6) (by decide), sref_ne L (a := cc0_scratch5) (b := cc0_scratch7) (by decide), sref_ne L (a := cc0_scratch5) (b := cc0_scratch8) (by decide)⟩)]
  rw [SparseCore.bigSep_insert' (by simp only [Finset.mem_insert, Finset.mem_singleton, not_or]; exact ⟨sref_ne L (a := cc0_scratch6) (b := cc0_scratch7) (by decide), sref_ne L (a := cc0_scratch6) (b := cc0_scratch8) (by decide)⟩)]
  rw [SparseCore.bigSep_insert' (by simp only [Finset.mem_insert, Finset.mem_singleton, not_or]; exact sref_ne L (a := cc0_scratch7) (b := cc0_scratch8) (by decide))]
  rw [bigSep_singleton]

omit [FloatOps F] in
theorem ownSems0_V :
    (ownSems0 (V d (cV L) (jV L)) : sProp 𝕄)
      = iprop((semVal (cell d L cc0_scratch9) 0 ∗ semVal (cell d L cc0_scratch10) 0 ∗ semVal (cell d L cc0_scratch11) 0 ∗ semVal (cell d L cc0_scratch12) 0 ∗ semVal (cell d L cc0_scratch13) 0 ∗ semVal (cell d L cc0_scratch14) 0 ∗ semVal (cell d L cc0_scratch15) 0 ∗ semVal (cell d L cc0_scratch16) 0 ∗ semVal (cell d L cc0_scoped0) 0 ∗ semVal (cell d L cc0_scoped1) 0 ∗ semVal (cell d L cc0_scoped2) 0 ∗ semVal (cell d L cc0_scoped3) 0 ∗ semVal (cell d L cc0_scoped4) 0)
          ∗ bigSep (ownCells (V d (cV L) (jV L)) \ semSet d L) fun g => semVal g 0) := by
  unfold SparseCore.Cfg.ownSems0
  rw [SparseCore.bigSep_sdiff_split' (t := semSet d L) ?hsub, semSet_split]
  case hsub =>
    intro g hg
    simp only [Finset.mem_insert, Finset.mem_singleton] at hg
    rcases hg with h | h | h | h | h | h | h | h | h | h | h | h | h
    · exact h ▸ (mem_ownCells (g := cell d L cc0_scratch9)).mpr ⟨rfl, by show (SemLoc.dma cc0_scratch9.sem : SemLoc sig).isScoped .scVector = true; decide⟩
    · exact h ▸ (mem_ownCells (g := cell d L cc0_scratch10)).mpr ⟨rfl, by show (SemLoc.dma cc0_scratch10.sem : SemLoc sig).isScoped .scVector = true; decide⟩
    · exact h ▸ (mem_ownCells (g := cell d L cc0_scratch11)).mpr ⟨rfl, by show (SemLoc.dma cc0_scratch11.sem : SemLoc sig).isScoped .scVector = true; decide⟩
    · exact h ▸ (mem_ownCells (g := cell d L cc0_scratch12)).mpr ⟨rfl, by show (SemLoc.dma cc0_scratch12.sem : SemLoc sig).isScoped .scVector = true; decide⟩
    · exact h ▸ (mem_ownCells (g := cell d L cc0_scratch13)).mpr ⟨rfl, by show (SemLoc.dma cc0_scratch13.sem : SemLoc sig).isScoped .scVector = true; decide⟩
    · exact h ▸ (mem_ownCells (g := cell d L cc0_scratch14)).mpr ⟨rfl, by show (SemLoc.dma cc0_scratch14.sem : SemLoc sig).isScoped .scVector = true; decide⟩
    · exact h ▸ (mem_ownCells (g := cell d L cc0_scratch15)).mpr ⟨rfl, by show (SemLoc.dma cc0_scratch15.sem : SemLoc sig).isScoped .scVector = true; decide⟩
    · exact h ▸ (mem_ownCells (g := cell d L cc0_scratch16)).mpr ⟨rfl, by show (SemLoc.dma cc0_scratch16.sem : SemLoc sig).isScoped .scVector = true; decide⟩
    · exact h ▸ (mem_ownCells (g := cell d L cc0_scoped0)).mpr ⟨rfl, by show (SemLoc.dma cc0_scoped0.sem : SemLoc sig).isScoped .scVector = true; decide⟩
    · exact h ▸ (mem_ownCells (g := cell d L cc0_scoped1)).mpr ⟨rfl, by show (SemLoc.dma cc0_scoped1.sem : SemLoc sig).isScoped .scVector = true; decide⟩
    · exact h ▸ (mem_ownCells (g := cell d L cc0_scoped2)).mpr ⟨rfl, by show (SemLoc.dma cc0_scoped2.sem : SemLoc sig).isScoped .scVector = true; decide⟩
    · exact h ▸ (mem_ownCells (g := cell d L cc0_scoped3)).mpr ⟨rfl, by show (SemLoc.dma cc0_scoped3.sem : SemLoc sig).isScoped .scVector = true; decide⟩
    · exact h ▸ (mem_ownCells (g := cell d L cc0_scoped4)).mpr ⟨rfl, by show (SemLoc.dma cc0_scoped4.sem : SemLoc sig).isScoped .scVector = true; decide⟩

omit [FloatOps F] in
theorem ownBufs_V :
    (ownBufs (V d (cV L) (jV L)) : sProp 𝕄)
      = iprop(((∃ f, sloc d L cc0_scratch0 ↦{fullShare} f) ∗ (∃ f, sloc d L cc0_scratch1 ↦{fullShare} f) ∗ (∃ f, sloc d L cc0_scratch2 ↦{fullShare} f) ∗ (∃ f, sloc d L cc0_scratch3 ↦{fullShare} f) ∗ (∃ f, sloc d L cc0_scratch4 ↦{fullShare} f) ∗ (∃ f, sloc d L cc0_scratch5 ↦{fullShare} f) ∗ (∃ f, sloc d L cc0_scratch6 ↦{fullShare} f) ∗ (∃ f, sloc d L cc0_scratch7 ↦{fullShare} f) ∗ (∃ f, sloc d L cc0_scratch8 ↦{fullShare} f))
          ∗ bigSep (ownRefs (τ := τ) (.scVector (cV L) (jV L)) \ bufSet L) fun b => iprop(∃ f, ((d, b) : Loc nD τ sig) ↦{fullShare} f)) := by
  unfold SparseCore.Cfg.ownBufs
  rw [SparseCore.bigSep_sdiff_split' (t := bufSet L) ?hsub, bufSet_split]
  case hsub =>
    intro g hg
    simp only [Finset.mem_insert, Finset.mem_singleton] at hg
    rcases hg with h | h | h | h | h | h | h | h | h
    · exact h ▸ SparseCore.Cfg.mem_ownRefs_of_owner (p := Proc.scVector (cV L) (jV L)) (b := sref L cc0_scratch0) rfl
    · exact h ▸ SparseCore.Cfg.mem_ownRefs_of_owner (p := Proc.scVector (cV L) (jV L)) (b := sref L cc0_scratch1) rfl
    · exact h ▸ SparseCore.Cfg.mem_ownRefs_of_owner (p := Proc.scVector (cV L) (jV L)) (b := sref L cc0_scratch2) rfl
    · exact h ▸ SparseCore.Cfg.mem_ownRefs_of_owner (p := Proc.scVector (cV L) (jV L)) (b := sref L cc0_scratch3) rfl
    · exact h ▸ SparseCore.Cfg.mem_ownRefs_of_owner (p := Proc.scVector (cV L) (jV L)) (b := sref L cc0_scratch4) rfl
    · exact h ▸ SparseCore.Cfg.mem_ownRefs_of_owner (p := Proc.scVector (cV L) (jV L)) (b := sref L cc0_scratch5) rfl
    · exact h ▸ SparseCore.Cfg.mem_ownRefs_of_owner (p := Proc.scVector (cV L) (jV L)) (b := sref L cc0_scratch6) rfl
    · exact h ▸ SparseCore.Cfg.mem_ownRefs_of_owner (p := Proc.scVector (cV L) (jV L)) (b := sref L cc0_scratch7) rfl
    · exact h ▸ SparseCore.Cfg.mem_ownRefs_of_owner (p := Proc.scVector (cV L) (jV L)) (b := sref L cc0_scratch8) rfl

end Own

end Cert.Proof.ScViews
-- ==== Proof.LaunchSplit.lean ====
/-
  How the call's seven arrays split among the thirty-two tasks and join again. The table and the first-order weights
  are read by every task: each gets one read share of the thirty-two split off the full share. The two index lists
  and the feature values are cut into thirty-two consecutive slices, the second-order result into thirty-two bands of
  128 rows, the first-order result into thirty-two slices; task (core c, subcore i) has number 2 i + c. The bands and
  slices are pairwise disjoint and cover their arrays, so an array held whole is its pieces held apart, and pieces
  all holding ONE whole-array function join to the array at that function.
-/
import proofs.«207592_g65111704207794_cont_9to1_m_407_36_alg».proof.Proof.LaunchTile
import proofs.«207592_g65111704207794_cont_9to1_m_407_36_alg».proof.Proof.ScViews

noncomputable section

namespace Cert.Proof.KI

open Cert.KernelIdeal Cert.KernelIdeal.Gen
open Cert.Proof.ScSpec (E2 SS)
open Cert.Proof.ScViews (tLoc i2Loc isLoc wfLoc xvLoc e2Loc soLoc i2Set xvSet isSet soSet e2Rows GO TD)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.TcAlg (UH UU EH EP Gd)

variable {F : FTy → Type} [FloatOps F]

local notation "𝕄" => MT nD τ sig (HIx 1) (Elt F) ℕ UU ℕ

/-! ## Tasks and their numbers -/

/-- A task: its SparseCore and its subcore. -/
abbrev TI : Type := Fin 2 × Fin 16

/-- The task's number: twice the subcore plus the core. -/
def wid (t : TI) : ℕ := 2 * t.2.val + t.1.val

theorem wid_lt (t : TI) : wid t < 32 := by
  have h1 := t.1.isLt; have h2 := t.2.isLt; unfold wid; omega

theorem wid_inj {t t' : TI} (h : wid t = wid t') : t = t' := by
  have h1 := t.1.isLt; have h2 := t'.1.isLt
  unfold wid at h
  exact Prod.ext (Fin.ext (by omega)) (Fin.ext (by omega))

/-- Tasks are numbered bijectively by 0, …, 31. -/
def widEquiv : TI ≃ Fin 32 where
  toFun t := ⟨wid t, wid_lt t⟩
  invFun k := (⟨k.val % 2, Nat.mod_lt _ (by decide)⟩, ⟨k.val / 2, by have := k.isLt; omega⟩)
  left_inv t := by
    have h1 := t.1.isLt
    refine Prod.ext (Fin.ext ?_) (Fin.ext ?_) <;> simp only [wid] <;> omega
  right_inv k := by
    refine Fin.ext ?_
    simp only [wid]; omega

abbrev LL (t : TI) : grid0.Coords := coordsV t.1 t.2

/-- The task's read share of an array all tasks read. -/
abbrev qOf (L : grid0.Coords) : PosShare TreeShare :=
  Transfers.shareTokN fullShare (2 * (L 1).val + (L 0).val)

/-! ## Thirty-two consecutive pieces of a range are disjoint and cover it -/

section Pieces

variable {X : Type} [DecidableEq X] [Fintype X] (Kt : TI → Finset X) (r : X → ℕ) (sz : ℕ)

theorem pieces_disjoint (hmem : ∀ t x, x ∈ Kt t ↔ sz * wid t ≤ r x ∧ r x < sz * wid t + sz) :
    ∀ t ∈ (Finset.univ : Finset TI), ∀ t' ∈ (Finset.univ : Finset TI), t ≠ t' → Disjoint (Kt t) (Kt t') := by
  intro t _ t' _ hne
  rw [Finset.disjoint_left]
  intro x hx hx'
  obtain ⟨a1, a2⟩ := (hmem t x).1 hx
  obtain ⟨b1, b2⟩ := (hmem t' x).1 hx'
  have hw : wid t ≠ wid t' := fun e => hne (wid_inj e)
  rcases Nat.lt_or_gt_of_ne hw with h | h
  · have : sz * wid t + sz ≤ sz * wid t' := by
      calc sz * wid t + sz = sz * (wid t + 1) := by ring
        _ ≤ sz * wid t' := Nat.mul_le_mul_left _ h
    omega
  · have : sz * wid t' + sz ≤ sz * wid t := by
      calc sz * wid t' + sz = sz * (wid t' + 1) := by ring
        _ ≤ sz * wid t := Nat.mul_le_mul_left _ h
    omega

theorem pieces_cover (hsz : 0 < sz) (hr : ∀ x, r x < 32 * sz)
    (hmem : ∀ t x, x ∈ Kt t ↔ sz * wid t ≤ r x ∧ r x < sz * wid t + sz) :
    (Finset.univ : Finset TI).biUnion Kt = Finset.univ := by
  refine Finset.eq_univ_iff_forall.mpr fun x => Finset.mem_biUnion.mpr ?_
  have hk : r x / sz < 32 := (Nat.div_lt_iff_lt_mul hsz).mpr (hr x)
  refine ⟨widEquiv.symm ⟨r x / sz, hk⟩, Finset.mem_univ _, (hmem _ x).2 ?_⟩
  have hw : wid (widEquiv.symm ⟨r x / sz, hk⟩) = r x / sz := congrArg Fin.val (widEquiv.apply_symm_apply ⟨r x / sz, hk⟩)
  rw [hw]
  have h1 := Nat.div_add_mod (r x) sz
  have h2 := Nat.mod_lt (r x) hsz
  constructor <;> omega

end Pieces

/-! ## The tasks' pieces of each array -/

theorem mem_i2Set (L : grid0.Coords) (x : S106496.Idx) :
    x ∈ i2Set L ↔ 3328 * (2 * (L 1).val + (L 0).val) ≤ (x 0).val ∧ (x 0).val < 3328 * (2 * (L 1).val + (L 0).val) + 3328 := by
  show x ∈ ((View.whole (main_v42_scv : Ref sig .scVector)).slice (Rect.unit (s := S106496) (k0_off1 L) S3328.size (k0_off1_inb L))).set ↔ _
  rw [View.set_slice_whole, Rect.mem_set_unit, k0_off1_eq]
  constructor
  · intro h; have h0 := h 0
    simp only [Matrix.cons_val_zero] at h0
    have e : S3328.size 0 = 3328 := rfl
    omega
  · intro h a
    match a with
    | 0 =>
      simp only [Matrix.cons_val_zero]
      have e : S3328.size 0 = 3328 := rfl
      omega

theorem mem_xvSet (L : grid0.Coords) (x : S106496.Idx) :
    x ∈ xvSet L ↔ 3328 * (2 * (L 1).val + (L 0).val) ≤ (x 0).val ∧ (x 0).val < 3328 * (2 * (L 1).val + (L 0).val) + 3328 := by
  show x ∈ ((View.whole (main_v44_scv : Ref sig .scVector)).slice (Rect.unit (s := S106496) (k0_off1 L) S3328.size (k0_off1_inb L))).set ↔ _
  rw [View.set_slice_whole, Rect.mem_set_unit, k0_off1_eq]
  constructor
  · intro h; have h0 := h 0
    simp only [Matrix.cons_val_zero] at h0
    have e : S3328.size 0 = 3328 := rfl
    omega
  · intro h a
    match a with
    | 0 =>
      simp only [Matrix.cons_val_zero]
      have e : S3328.size 0 = 3328 := rfl
      omega

theorem mem_isSet (L : grid0.Coords) (x : S131072.Idx) :
    x ∈ isSet L ↔ 4096 * (2 * (L 1).val + (L 0).val) ≤ (x 0).val ∧ (x 0).val < 4096 * (2 * (L 1).val + (L 0).val) + 4096 := by
  show x ∈ ((View.whole (main_v43_scv : Ref sig .scVector)).slice (Rect.unit (s := S131072) (k0_off2 L) S4096.size (k0_off2_inb L))).set ↔ _
  rw [View.set_slice_whole, Rect.mem_set_unit, k0_off2_eq]
  constructor
  · intro h; have h0 := h 0
    simp only [Matrix.cons_val_zero] at h0
    have e : S4096.size 0 = 4096 := rfl
    omega
  · intro h a
    match a with
    | 0 =>
      simp only [Matrix.cons_val_zero]
      have e : S4096.size 0 = 4096 := rfl
      omega

theorem mem_soSet (L : grid0.Coords) (x : S131072.Idx) :
    x ∈ soSet L ↔ 4096 * (2 * (L 1).val + (L 0).val) ≤ (x 0).val ∧ (x 0).val < 4096 * (2 * (L 1).val + (L 0).val) + 4096 := by
  show x ∈ ((View.whole (main_v45_1_scv : Ref sig .scVector)).slice (Rect.unit (s := S131072) (k0_off2 L) S4096.size (k0_off2_inb L))).set ↔ _
  rw [View.set_slice_whole, Rect.mem_set_unit, k0_off2_eq]
  constructor
  · intro h; have h0 := h 0
    simp only [Matrix.cons_val_zero] at h0
    have e : S4096.size 0 = 4096 := rfl
    omega
  · intro h a
    match a with
    | 0 =>
      simp only [Matrix.cons_val_zero]
      have e : S4096.size 0 = 4096 := rfl
      omega

theorem mem_e2Rows (L : grid0.Coords) (x : S4096x3328.Idx) :
    x ∈ e2Rows L ↔ 128 * (2 * (L 1).val + (L 0).val) ≤ (x 0).val ∧ (x 0).val < 128 * (2 * (L 1).val + (L 0).val) + 128 := by
  show x ∈ ((View.whole (main_v45_0_scv : Ref sig .scVector)).slice (Cert.Proof.ScViews.e2Rect L)).set ↔ _
  rw [View.set_slice_whole, Rect.mem_set_unit]
  have h1 : (x 1).val < 3328 := (x 1).isLt
  constructor
  · intro h; have h0 := h 0
    simp only [Matrix.cons_val_zero, Cert.Proof.ScViews.e2Row0] at h0
    omega
  · intro h a
    match a with
    | 0 =>
      simp only [Matrix.cons_val_zero, Cert.Proof.ScViews.e2Row0]
      omega
    | 1 =>
      show 0 ≤ (x 1).val ∧ (x 1).val < 0 + 3328
      omega

theorem LL_zero (t : TI) : ((LL t) 0).val = t.1.val := rfl
theorem LL_one (t : TI) : ((LL t) 1).val = t.2.val := rfl

theorem i2_disjoint : ∀ t ∈ (Finset.univ : Finset TI), ∀ t' ∈ (Finset.univ : Finset TI), t ≠ t' → Disjoint (i2Set (LL t)) (i2Set (LL t')) :=
  pieces_disjoint (fun t => i2Set (LL t)) (fun x => (x 0).val) 3328 (fun t x => mem_i2Set (LL t) x)
theorem i2_cover : (Finset.univ : Finset TI).biUnion (fun t => i2Set (LL t)) = Finset.univ :=
  pieces_cover (fun t => i2Set (LL t)) (fun x => (x 0).val) 3328 (by decide) (fun x => (x 0).isLt) (fun t x => mem_i2Set (LL t) x)
theorem xv_disjoint : ∀ t ∈ (Finset.univ : Finset TI), ∀ t' ∈ (Finset.univ : Finset TI), t ≠ t' → Disjoint (xvSet (LL t)) (xvSet (LL t')) :=
  pieces_disjoint (fun t => xvSet (LL t)) (fun x => (x 0).val) 3328 (fun t x => mem_xvSet (LL t) x)
theorem xv_cover : (Finset.univ : Finset TI).biUnion (fun t => xvSet (LL t)) = Finset.univ :=
  pieces_cover (fun t => xvSet (LL t)) (fun x => (x 0).val) 3328 (by decide) (fun x => (x 0).isLt) (fun t x => mem_xvSet (LL t) x)
theorem is_disjoint : ∀ t ∈ (Finset.univ : Finset TI), ∀ t' ∈ (Finset.univ : Finset TI), t ≠ t' → Disjoint (isSet (LL t)) (isSet (LL t')) :=
  pieces_disjoint (fun t => isSet (LL t)) (fun x => (x 0).val) 4096 (fun t x => mem_isSet (LL t) x)
theorem is_cover : (Finset.univ : Finset TI).biUnion (fun t => isSet (LL t)) = Finset.univ :=
  pieces_cover (fun t => isSet (LL t)) (fun x => (x 0).val) 4096 (by decide) (fun x => (x 0).isLt) (fun t x => mem_isSet (LL t) x)
theorem so_disjoint : ∀ t ∈ (Finset.univ : Finset TI), ∀ t' ∈ (Finset.univ : Finset TI), t ≠ t' → Disjoint (soSet (LL t)) (soSet (LL t')) :=
  pieces_disjoint (fun t => soSet (LL t)) (fun x => (x 0).val) 4096 (fun t x => mem_soSet (LL t) x)
theorem so_cover : (Finset.univ : Finset TI).biUnion (fun t => soSet (LL t)) = Finset.univ :=
  pieces_cover (fun t => soSet (LL t)) (fun x => (x 0).val) 4096 (by decide) (fun x => (x 0).isLt) (fun t x => mem_soSet (LL t) x)
theorem e2_disjoint : ∀ t ∈ (Finset.univ : Finset TI), ∀ t' ∈ (Finset.univ : Finset TI), t ≠ t' → Disjoint (e2Rows (LL t)) (e2Rows (LL t')) :=
  pieces_disjoint (fun t => e2Rows (LL t)) (fun x => (x 0).val) 128 (fun t x => mem_e2Rows (LL t) x)
theorem e2_cover : (Finset.univ : Finset TI).biUnion (fun t => e2Rows (LL t)) = Finset.univ :=
  pieces_cover (fun t => e2Rows (LL t)) (fun x => (x 0).val) 128 (by decide) (fun x => (x 0).isLt) (fun t x => mem_e2Rows (LL t) x)

/-! ## The arrays split among the tasks, and joined -/

section SplitJoin

variable (d : Dev nD) (Tb : Buf (Elt F) (tLoc d)) (I2 : Buf (Elt F) (i2Loc d)) (IS : Buf (Elt F) (isLoc d))
  (WF : Buf (Elt F) (wfLoc d)) (XV : Buf (Elt F) (xvLoc d))

/-- What the task at `L` is handed, and what it hands back: its read shares, its slices, its pieces of the results. -/
abbrev GOt (L : grid0.Coords) : sProp (MT nD τ sig (HIx 1) (Elt F) ℕ UU ℕ) := GO d L (qOf L) (qOf L) Tb I2 IS WF XV
abbrev TDt (L : grid0.Coords) : sProp (MT nD τ sig (HIx 1) (Elt F) ℕ UU ℕ) := TD d L (qOf L) (qOf L) Tb I2 IS WF XV

omit [FloatOps F] in
/-- The thirty-two read tokens of an array, indexed by the tasks. -/
theorem toks_tasks {ℓ : Loc nD τ sig} (f : Buf (Elt F) ℓ) :
    (bigSep Finset.univ fun i : Fin 32 => (ℓ ↦{Transfers.shareTok fullShare 32 i} f : sProp 𝕄))
      = bigSep Finset.univ fun t : TI => ℓ ↦{qOf (LL t)} f :=
  bigSep_univ_equiv widEquiv (fun i : Fin 32 => (ℓ ↦{Transfers.shareTok fullShare 32 i} f : sProp 𝕄))

omit [FloatOps F] in
theorem i2_pieces (f : Buf (Elt F) (i2Loc d)) :
    (i2Loc d ↦{fullShare} f : sProp 𝕄) = bigSep Finset.univ fun t : TI => i2Loc d ↦[i2Set (LL t)]{fullShare} f := by
  rw [← pointsTo_biUnion Finset.univ (ℓ := i2Loc d) (fun t : TI => i2Set (LL t)) i2_disjoint, i2_cover]
omit [FloatOps F] in
theorem xv_pieces (f : Buf (Elt F) (xvLoc d)) :
    (xvLoc d ↦{fullShare} f : sProp 𝕄) = bigSep Finset.univ fun t : TI => xvLoc d ↦[xvSet (LL t)]{fullShare} f := by
  rw [← pointsTo_biUnion Finset.univ (ℓ := xvLoc d) (fun t : TI => xvSet (LL t)) xv_disjoint, xv_cover]
omit [FloatOps F] in
theorem is_pieces (f : Buf (Elt F) (isLoc d)) :
    (isLoc d ↦{fullShare} f : sProp 𝕄) = bigSep Finset.univ fun t : TI => isLoc d ↦[isSet (LL t)]{fullShare} f := by
  rw [← pointsTo_biUnion Finset.univ (ℓ := isLoc d) (fun t : TI => isSet (LL t)) is_disjoint, is_cover]
omit [FloatOps F] in
theorem so_pieces (f : Buf (Elt F) (soLoc d)) :
    (soLoc d ↦{fullShare} f : sProp 𝕄) = bigSep Finset.univ fun t : TI => soLoc d ↦[soSet (LL t)]{fullShare} f := by
  rw [← pointsTo_biUnion Finset.univ (ℓ := soLoc d) (fun t : TI => soSet (LL t)) so_disjoint, so_cover]
omit [FloatOps F] in
theorem e2_pieces (f : Buf (Elt F) (e2Loc d)) :
    (e2Loc d ↦{fullShare} f : sProp 𝕄) = bigSep Finset.univ fun t : TI => e2Loc d ↦[e2Rows (LL t)]{fullShare} f := by
  rw [← pointsTo_biUnion Finset.univ (ℓ := e2Loc d) (fun t : TI => e2Rows (LL t)) e2_disjoint, e2_cover]

omit [FloatOps F] in
/-- Pieces held at one function are pieces each held at some function. -/
theorem pieces_exists {ℓ : Loc nD τ sig} (Kt : TI → Finset (Idx ℓ)) (f : Buf (Elt F) ℓ) :
    (bigSep Finset.univ fun t : TI => (ℓ ↦[Kt t]{fullShare} f : sProp 𝕄))
      ⊢ bigSep Finset.univ fun t : TI => (iprop(∃ g, ℓ ↦[Kt t]{fullShare} g) : sProp 𝕄) :=
  bigSep_mono fun t _ => exists_intro (Φ := fun g : Buf (Elt F) ℓ => (ℓ ↦[Kt t]{fullShare} g : sProp 𝕄)) f

/-- The seven arrays held whole are every task's part, and the remainders of the two shared arrays' shares. -/
theorem scSplitTI (f0 : Buf (Elt F) (e2Loc d)) (f1 : Buf (Elt F) (soLoc d)) :
    iprop((tLoc d ↦{fullShare} Tb) ∗ (wfLoc d ↦{fullShare} WF) ∗ (i2Loc d ↦{fullShare} I2) ∗ (xvLoc d ↦{fullShare} XV)
        ∗ (isLoc d ↦{fullShare} IS) ∗ (e2Loc d ↦{fullShare} f0) ∗ (soLoc d ↦{fullShare} f1))
      ⊢ (iprop((bigSep Finset.univ fun t : TI => GOt d Tb I2 IS WF XV (LL t))
          ∗ (tLoc d ↦{Transfers.shareDrop fullShare 32} Tb) ∗ (wfLoc d ↦{Transfers.shareDrop fullShare 32} WF)) : sProp 𝕄) := by
  unfold GOt GO
  rw [bigSep_sep', bigSep_sep', bigSep_sep', bigSep_sep', bigSep_sep', bigSep_sep', i2_pieces, xv_pieces, is_pieces, e2_pieces, so_pieces]
  iintro ⟨Ht, Hw, Hi2, Hxv, His, He2, Hso⟩
  ihave Ht' := (Transfers.pointsTo_toks_split (ℓ := tLoc d) (S := Finset.univ) (f := Tb) fullShare 32) $$ Ht
  icases Ht' with ⟨Htr, Htt⟩
  ihave Hw' := (Transfers.pointsTo_toks_split (ℓ := wfLoc d) (S := Finset.univ) (f := WF) fullShare 32) $$ Hw
  icases Hw' with ⟨Hwr, Hwt⟩
  ihave Htt' := (Entails.of_eq (toks_tasks (F := F) (ℓ := tLoc d) Tb)) $$ Htt
  ihave Hwt' := (Entails.of_eq (toks_tasks (F := F) (ℓ := wfLoc d) WF)) $$ Hwt
  isplitr [Htr Hwr]
  · isplitl [Htt']; · iexact Htt'
    isplitl [Hwt']; · iexact Hwt'
    isplitl [Hi2]; · iexact Hi2
    isplitl [Hxv]; · iexact Hxv
    isplitl [His]; · iexact His
    isplitl [He2]
    · iapply (pieces_exists (F := F) (ℓ := e2Loc d) (fun t : TI => e2Rows (LL t)) f0) $$ He2
    · iapply (pieces_exists (F := F) (ℓ := soLoc d) (fun t : TI => soSet (LL t)) f1) $$ Hso
  · isplitl [Htr] <;> iassumption

/-- Every task's part back, the results at their values, and the remainders, are the seven arrays whole: the
    operands unchanged, the two results at their whole-array functions. -/
theorem scJoinTI :
    (iprop((bigSep Finset.univ fun t : TI => TDt d Tb I2 IS WF XV (LL t))
          ∗ (tLoc d ↦{Transfers.shareDrop fullShare 32} Tb) ∗ (wfLoc d ↦{Transfers.shareDrop fullShare 32} WF)) : sProp 𝕄)
      ⊢ iprop((tLoc d ↦{fullShare} Tb) ∗ (wfLoc d ↦{fullShare} WF) ∗ (i2Loc d ↦{fullShare} I2) ∗ (xvLoc d ↦{fullShare} XV)
        ∗ (isLoc d ↦{fullShare} IS) ∗ (e2Loc d ↦{fullShare} (E2 Tb I2 XV : Buf (Elt F) (e2Loc d)))
        ∗ (soLoc d ↦{fullShare} (SS IS WF : Buf (Elt F) (soLoc d)))) := by
  unfold TDt TD
  rw [bigSep_sep', bigSep_sep', bigSep_sep', bigSep_sep', bigSep_sep', bigSep_sep', i2_pieces, xv_pieces, is_pieces, e2_pieces, so_pieces]
  iintro ⟨⟨Htt, Hwt, Hi2, Hxv, His, He2, Hso⟩, Htr, Hwr⟩
  ihave Htt' := (Entails.of_eq (toks_tasks (F := F) (ℓ := tLoc d) Tb).symm) $$ Htt
  ihave Hwt' := (Entails.of_eq (toks_tasks (F := F) (ℓ := wfLoc d) WF).symm) $$ Hwt
  isplitl [Htr Htt']
  · iapply (Transfers.pointsTo_toks_join (ℓ := tLoc d) (S := Finset.univ) (f := Tb) fullShare 32)
    isplitl [Htr] <;> iassumption
  isplitl [Hwr Hwt']
  · iapply (Transfers.pointsTo_toks_join (ℓ := wfLoc d) (S := Finset.univ) (f := WF) fullShare 32)
    isplitl [Hwr] <;> iassumption
  isplitl [Hi2]; · iexact Hi2
  isplitl [Hxv]; · iexact Hxv
  isplitl [His]; · iexact His
  isplitl [He2]; · iexact He2
  iexact Hso

end SplitJoin

end Cert.Proof.KI

end
-- ==== Proof.HostOps.lean ====
/-
  The host operations of the entry function, as two lists: the ones that run before the SparseCore call and the
  three that run after it. The entry function is the first list, the call, the second list, the TensorCore call
  and the return; each list runs, inside a weakest precondition at the TensorCore's thread, from the unscoped
  buffers held whole at a valuation to the same buffers held at the fold of the operations' results.
  Generic in the float instance.
-/
import proofs.«207592_g65111704207794_cont_9to1_m_407_36_alg».proof.Proof.Gen.KernelIdeal
import Idealize.ShloMosaic.Lib.StableHlo.Run
import Idealize.ShloMosaic.Lib.Pipeline.Frame
import Idealize.ShloMosaic.Lib.SparseCore.Launch

noncomputable section

namespace Cert.Proof.HostOps

open Cert.KernelIdeal Cert.KernelIdeal.Gen Idealize.ShloMosaic Idealize.ShloMosaic.TcCoe Idealize.SL.Sem Idealize.ShloMosaic.StableHlo
open Idealize.SL Idealize.SL.RA Idealize.SL.BI
open scoped Idealize.SL.BI
open Idealize.SL.BI.BIBase Idealize.SL.BI.Laws Idealize.SL.ProofMode

variable {F : FTy → Type} [FloatOps F]

/-- The 50 operations before the SparseCore call, in order. -/
abbrev hostOps0 : List (HloOp τ sig (Elt F)) :=
  [ reshape main_arg0 main_v0 rfl shapeCasts_S4096x26x1_S4096x26,
    nullary main_v1 (iotaInDim S26 32 0),
    nullary main_c (constantI S_ 32 1000#32),
    unary main_c main_v2 (broadcastInDim S26 ![] bcast_S_S26 : (⟨S_, .i32⟩ : BufTy).Contents (Elt F) → (⟨S26, .i32⟩ : BufTy).Contents (Elt F)),
    binary main_v1 main_v2 main_v3 (muli : (⟨S26, .i32⟩ : BufTy).Contents (Elt F) → (⟨S26, .i32⟩ : BufTy).Contents (Elt F) → (⟨S26, .i32⟩ : BufTy).Contents (Elt F)),
    unary main_v3 main_v4 (broadcastInDim S1x26 ![1] bcast_S26_S1x26_1 : (⟨S26, .i32⟩ : BufTy).Contents (Elt F) → (⟨S1x26, .i32⟩ : BufTy).Contents (Elt F)),
    unary main_v4 main_v5 (broadcastInDim S4096x26 ![0, 1] bcast_S1x26_S4096x26_0_1 : (⟨S1x26, .i32⟩ : BufTy).Contents (Elt F) → (⟨S4096x26, .i32⟩ : BufTy).Contents (Elt F)),
    binary main_v0 main_v5 main_v6 (addi : (⟨S4096x26, .i32⟩ : BufTy).Contents (Elt F) → (⟨S4096x26, .i32⟩ : BufTy).Contents (Elt F) → (⟨S4096x26, .i32⟩ : BufTy).Contents (Elt F)),
    reshape main_v6 main_v7 rfl shapeCasts_S4096x26_S1x32x128x26,
    unary main_v7 main_v8 ((transpose S1x32x26x128 [0, 1, 3, 2] · transposes_S1x32x128x26_S1x32x26x128_0_1_3_2) : (⟨S1x32x128x26, .i32⟩ : BufTy).Contents (Elt F) → (⟨S1x32x26x128, .i32⟩ : BufTy).Contents (Elt F)),
    reshape main_v8 main_v9 rfl shapeCasts_S1x32x26x128_S1x106496,
    reshape main_arg1 main_v10 rfl shapeCasts_S4096x26_S1x32x128x26,
    unary main_v10 main_v11 ((transpose S1x32x26x128 [0, 1, 3, 2] · transposes_S1x32x128x26_S1x32x26x128_0_1_3_2) : (⟨S1x32x128x26, .f32⟩ : BufTy).Contents (Elt F) → (⟨S1x32x26x128, .f32⟩ : BufTy).Contents (Elt F)),
    reshape main_v11 main_v12 rfl shapeCasts_S1x32x26x128_S1x106496,
    unary main_v4 main_v13 (broadcastInDim S4096x26 ![0, 1] bcast_S1x26_S4096x26_0_1 : (⟨S1x26, .i32⟩ : BufTy).Contents (Elt F) → (⟨S4096x26, .i32⟩ : BufTy).Contents (Elt F)),
    binary main_v0 main_v13 main_v14 (addi : (⟨S4096x26, .i32⟩ : BufTy).Contents (Elt F) → (⟨S4096x26, .i32⟩ : BufTy).Contents (Elt F) → (⟨S4096x26, .i32⟩ : BufTy).Contents (Elt F)),
    nullary main_c_0 (constantI S_ 32 26000#32),
    unary main_c_0 main_v15 (broadcastInDim S4096x6 ![] bcast_S_S4096x6 : (⟨S_, .i32⟩ : BufTy).Contents (Elt F) → (⟨S4096x6, .i32⟩ : BufTy).Contents (Elt F)),
    binary main_v14 main_v15 main_v16 ((fun a b => concatenate S4096x32 1 [⟨S4096x26, a⟩, ⟨S4096x6, b⟩] concatenates_S4096x26_S4096x6_S4096x32_d1) : (⟨S4096x26, .i32⟩ : BufTy).Contents (Elt F) → (⟨S4096x6, .i32⟩ : BufTy).Contents (Elt F) → (⟨S4096x32, .i32⟩ : BufTy).Contents (Elt F)),
    reshape main_v16 main_v17 rfl shapeCasts_S4096x32_S1x131072,
    reshape main_arg4 main_v18 rfl shapeCasts_S26x1000x128_S26000x128,
    reshape main_arg3 main_v19 rfl shapeCasts_S26x1000x1_S26000,
    nullary main_cst (constant S_ .f32 0x00000000#32),
    unary main_cst main_v20 (broadcastInDim S8 ![] bcast_S_S8 : (⟨S_, .f32⟩ : BufTy).Contents (Elt F) → (⟨S8, .f32⟩ : BufTy).Contents (Elt F)),
    binary main_v19 main_v20 main_v21 ((fun a b => concatenate S26008 0 [⟨S26000, a⟩, ⟨S8, b⟩] concatenates_S26000_S8_S26008_d0) : (⟨S26000, .f32⟩ : BufTy).Contents (Elt F) → (⟨S8, .f32⟩ : BufTy).Contents (Elt F) → (⟨S26008, .f32⟩ : BufTy).Contents (Elt F)),
    nullary main_cst_1 (constant S_ .f32 0x00000000#32),
    unary main_cst_1 main_v22 (broadcastInDim S4096x6 ![] bcast_S_S4096x6 : (⟨S_, .f32⟩ : BufTy).Contents (Elt F) → (⟨S4096x6, .f32⟩ : BufTy).Contents (Elt F)),
    binary main_arg1 main_v22 main_v23 ((fun a b => concatenate S4096x32 1 [⟨S4096x26, a⟩, ⟨S4096x6, b⟩] concatenates_S4096x26_S4096x6_S4096x32_d1) : (⟨S4096x26, .f32⟩ : BufTy).Contents (Elt F) → (⟨S4096x6, .f32⟩ : BufTy).Contents (Elt F) → (⟨S4096x32, .f32⟩ : BufTy).Contents (Elt F)),
    unary main_arg5 main_v24 ((extractStridedSlice S26x1024 ![1, 0] · slices_S3355x1024_S26x1024_1_0) : (⟨S3355x1024, .f32⟩ : BufTy).Contents (Elt F) → (⟨S26x1024, .f32⟩ : BufTy).Contents (Elt F)),
    nullary main_cst_2 (constant S_ .f32 0x00000000#32),
    unary main_cst_2 main_v25 (broadcastInDim S6x1024 ![] bcast_S_S6x1024 : (⟨S_, .f32⟩ : BufTy).Contents (Elt F) → (⟨S6x1024, .f32⟩ : BufTy).Contents (Elt F)),
    binary main_v24 main_v25 main_v26 ((fun a b => concatenate S32x1024 0 [⟨S26x1024, a⟩, ⟨S6x1024, b⟩] concatenates_S26x1024_S6x1024_S32x1024_d0) : (⟨S26x1024, .f32⟩ : BufTy).Contents (Elt F) → (⟨S6x1024, .f32⟩ : BufTy).Contents (Elt F) → (⟨S32x1024, .f32⟩ : BufTy).Contents (Elt F)),
    unary main_v26 main_v27 ((truncf .bf16 · bitsLt_bf16_f32) : (⟨S32x1024, .f32⟩ : BufTy).Contents (Elt F) → (⟨S32x1024, .bf16⟩ : BufTy).Contents (Elt F)),
    unary main_arg5 main_v28 ((extractStridedSlice S3328x1024 ![27, 0] · slices_S3355x1024_S3328x1024_27_0) : (⟨S3355x1024, .f32⟩ : BufTy).Contents (Elt F) → (⟨S3328x1024, .f32⟩ : BufTy).Contents (Elt F)),
    unary main_v28 main_v29 ((truncf .bf16 · bitsLt_bf16_f32) : (⟨S3328x1024, .f32⟩ : BufTy).Contents (Elt F) → (⟨S3328x1024, .bf16⟩ : BufTy).Contents (Elt F)),
    unary main_arg2 main_v30 ((truncf .bf16 · bitsLt_bf16_f32) : (⟨S1, .f32⟩ : BufTy).Contents (Elt F) → (⟨S1, .bf16⟩ : BufTy).Contents (Elt F)),
    unary main_v30 main_v31 ((extf .f32 · bitsLt_bf16_f32) : (⟨S1, .bf16⟩ : BufTy).Contents (Elt F) → (⟨S1, .f32⟩ : BufTy).Contents (Elt F)),
    unary main_arg6 main_v32 (broadcastInDim S1x1024 ![1] bcast_S1024_S1x1024_1 : (⟨S1024, .f32⟩ : BufTy).Contents (Elt F) → (⟨S1x1024, .f32⟩ : BufTy).Contents (Elt F)),
    unary main_v31 main_v33 (broadcastInDim S1x1 ![0] bcast_S1_S1x1_0 : (⟨S1, .f32⟩ : BufTy).Contents (Elt F) → (⟨S1x1, .f32⟩ : BufTy).Contents (Elt F)),
    unary main_arg5 main_v34 ((extractStridedSlice S1x1024 ![0, 0] · slices_S3355x1024_S1x1024_0_0) : (⟨S3355x1024, .f32⟩ : BufTy).Contents (Elt F) → (⟨S1x1024, .f32⟩ : BufTy).Contents (Elt F)),
    unary main_v34 main_v35 ((truncf .bf16 · bitsLt_bf16_f32) : (⟨S1x1024, .f32⟩ : BufTy).Contents (Elt F) → (⟨S1x1024, .bf16⟩ : BufTy).Contents (Elt F)),
    unary main_v35 main_v36 ((extf .f32 · bitsLt_bf16_f32) : (⟨S1x1024, .bf16⟩ : BufTy).Contents (Elt F) → (⟨S1x1024, .f32⟩ : BufTy).Contents (Elt F)),
    unary main_v33 main_v37 (broadcastInDim S1x1024 ![0, 1] bcast_S1x1_S1x1024_0_1 : (⟨S1x1, .f32⟩ : BufTy).Contents (Elt F) → (⟨S1x1024, .f32⟩ : BufTy).Contents (Elt F)),
    binary main_v37 main_v36 main_v38 (mulf : (⟨S1x1024, .f32⟩ : BufTy).Contents (Elt F) → (⟨S1x1024, .f32⟩ : BufTy).Contents (Elt F) → (⟨S1x1024, .f32⟩ : BufTy).Contents (Elt F)),
    binary main_v32 main_v38 main_v39 (addf : (⟨S1x1024, .f32⟩ : BufTy).Contents (Elt F) → (⟨S1x1024, .f32⟩ : BufTy).Contents (Elt F) → (⟨S1x1024, .f32⟩ : BufTy).Contents (Elt F)),
    unary main_arg7 main_v40 ((truncf .bf16 · bitsLt_bf16_f32) : (⟨S1024x512, .f32⟩ : BufTy).Contents (Elt F) → (⟨S1024x512, .bf16⟩ : BufTy).Contents (Elt F)),
    unary main_arg9 main_v41 ((truncf .bf16 · bitsLt_bf16_f32) : (⟨S512x1, .f32⟩ : BufTy).Contents (Elt F) → (⟨S512x1, .bf16⟩ : BufTy).Contents (Elt F)),
    reshape main_v9 main_v42 rfl shapeCasts_S1x106496_S106496,
    reshape main_v17 main_v43 rfl shapeCasts_S1x131072_S131072,
    reshape main_v12 main_v44 rfl shapeCasts_S1x106496_S106496 ]

/-- The 3 operations between the SparseCore call and the TensorCore call, in order. -/
abbrev hostOps1 : List (HloOp τ sig (Elt F)) :=
  [ reshape main_v45_1 main_v46 rfl shapeCasts_S131072_S4096x32,
    reshape main_arg8 main_v47 rfl shapeCasts_S512_S1x512,
    reshape main_arg10 main_v48 rfl shapeCasts_S1_S1x1 ]

/-- What the entry function does once the first list has run. -/
abbrev mainRest (d : Dev nD) : Prog (TpuEff nD τ sig (Elt F) (SparseCore.Sig (Pipeline.Sig Λ₀ (Fin 1) fun p => (pcfgs (F := F) p).Adm) 1) .tc) PUnit :=
  sc.run d 0 >>= fun _ => seq hostOps1 >>= fun _ =>
    (Prog.lift (.customCall (SparseCore.inner (Pipeline.entry 0)) ()) >>= fun _ => pure ⟨⟩)

set_option maxRecDepth 8192 in
set_option maxHeartbeats 4000000 in
/-- The entry function: the first list, the SparseCore call, the second list, the TensorCore call, the return. -/
theorem main_eq (d : Dev nD) : main (F := F) d = seq hostOps0 >>= fun _ => mainRest d := rfl

set_option maxRecDepth 8192 in
theorem hostOps0_sub : (hostOps0 : List (HloOp τ sig (Elt F))).Forall fun op => op.bufs ⊆ tcRefs τ sig :=
  ⟨reshape_bufs_sub .., nullary_bufs_sub .., nullary_bufs_sub .., unary_bufs_sub .., binary_bufs_sub .., unary_bufs_sub .., unary_bufs_sub .., binary_bufs_sub .., reshape_bufs_sub .., unary_bufs_sub .., reshape_bufs_sub .., reshape_bufs_sub .., unary_bufs_sub .., reshape_bufs_sub .., unary_bufs_sub .., binary_bufs_sub .., nullary_bufs_sub .., unary_bufs_sub .., binary_bufs_sub .., reshape_bufs_sub .., reshape_bufs_sub .., reshape_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., binary_bufs_sub .., binary_bufs_sub .., unary_bufs_sub .., unary_bufs_sub .., reshape_bufs_sub .., reshape_bufs_sub .., reshape_bufs_sub ..⟩

theorem hostOps1_sub : (hostOps1 : List (HloOp τ sig (Elt F))).Forall fun op => op.bufs ⊆ tcRefs τ sig :=
  ⟨reshape_bufs_sub .., reshape_bufs_sub .., reshape_bufs_sub ..⟩

/-- Every operation of the first list touches unscoped TensorCore buffers only. -/
theorem hostOps0_uc : ∀ op ∈ (hostOps0 : List (HloOp τ sig (Elt F))), op.bufs ⊆ Pipeline.ucRefs τ sig :=
  fun op h => Pipeline.sub_ucRefs op (List.forall_iff_forall_mem.mp hostOps0_sub op h)
theorem hostOps1_uc : ∀ op ∈ (hostOps1 : List (HloOp τ sig (Elt F))), op.bufs ⊆ Pipeline.ucRefs τ sig :=
  fun op h => Pipeline.sub_ucRefs op (List.forall_iff_forall_mem.mp hostOps1_sub op h)

set_option maxRecDepth 8192 in
/-- Every operation determines its results. -/
theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-! ## Running the lists inside a weakest precondition -/

section Rules

variable {Ix : Type} [DecidableEq Ix] {Name : Type} [DecidableEq Name] {U : Type} [URA U] {Lvl : Type} [Preorder Lvl]
variable {Λ : Labels} {defs : Defs nD τ sig (Elt F) Λ} (𝒱 : Variants) (bd : Option 𝒱.V) (E : Set Name)

local notation "𝕄" => MT nD τ sig Ix (Elt F) Name U Lvl

/-- The device's buffers at launch, as a valuation. -/
abbrev V0 (m : (ℓ : Loc nD τ sig) → Buf (Elt F) ℓ) (d : Dev nD) : Valuation τ sig (Elt F) := fun b => m (d, b)

omit [FloatOps F] [Preorder Lvl] in
/-- The launch's unscoped buffers are the unscoped set held at the launch valuation. -/
theorem unscopedBufs_V0 (m : (ℓ : Loc nD τ sig) → Buf (Elt F) ℓ) (d : Dev nD) :
    (unscopedBufs (Ix := Ix) (Name := Name) (U := U) (Lvl := Lvl) d (fun b => m ((d.tc : Thread nD τ).loc b)) : sProp 𝕄)
      = held (d.tc : Thread nD τ) (Pipeline.ucRefs τ sig) (V0 m d) :=
  Pipeline.unscopedBufs_held (Ix := Ix) (Name := Name) (U := U) (Lvl := Lvl) d (V0 m d)

/-- The first list at the head of a TensorCore program, from the unscoped buffers held at `V`. -/
theorem wp_hostOps0 (d : Dev nD) {β : Type} (k : PUnit → Prog (TpuEff nD τ sig (Elt F) Λ .tc) β) {Q : β → sProp 𝕄}
    (V : Valuation τ sig (Elt F)) :
    iprop(boundary (d.tc : Thread nD τ) ∗ (held (d.tc : Thread nD τ) (Pipeline.ucRefs τ sig) V : sProp 𝕄))
      ⊢ iprop(((boundary (d.tc : Thread nD τ) ∗ (held (d.tc : Thread nD τ) (Pipeline.ucRefs τ sig) (after hostOps0 V) : sProp 𝕄))
                -∗ wp frame (wpE defs 𝒱 d.tc bd) E (k ⟨⟩) Q)
        -∗ wp frame (wpE defs 𝒱 d.tc bd) E (seq hostOps0 >>= k) Q) :=
  wp_seq 𝒱 bd E d (Pipeline.ucRefs τ sig) k hostOps0 hostOps0_uc hostOps0_fresh V

/-- The second list at the head of a TensorCore program, from the unscoped buffers held at `V`. -/
theorem wp_hostOps1 (d : Dev nD) {β : Type} (k : PUnit → Prog (TpuEff nD τ sig (Elt F) Λ .tc) β) {Q : β → sProp 𝕄}
    (V : Valuation τ sig (Elt F)) :
    iprop(boundary (d.tc : Thread nD τ) ∗ (held (d.tc : Thread nD τ) (Pipeline.ucRefs τ sig) V : sProp 𝕄))
      ⊢ iprop(((boundary (d.tc : Thread nD τ) ∗ (held (d.tc : Thread nD τ) (Pipeline.ucRefs τ sig) (after hostOps1 V) : sProp 𝕄))
                -∗ wp frame (wpE defs 𝒱 d.tc bd) E (k ⟨⟩) Q)
        -∗ wp frame (wpE defs 𝒱 d.tc bd) E (seq hostOps1 >>= k) Q) :=
  wp_seq 𝒱 bd E d (Pipeline.ucRefs τ sig) k hostOps1 hostOps1_uc hostOps1_fresh V

omit [FloatOps F] in
/-- Every unscoped TensorCore reference is in the held set. -/
theorem mem_ucRefs (r : Ref sig .tc) (h : r.isScoped = false) : Proc.devRef (τ := τ) .tc r ∈ Pipeline.ucRefs τ sig :=
  Finset.mem_filter.mpr ⟨devRef_mem_tcRefs r, by simpa using h⟩

end Rules

end Cert.Proof.HostOps

end
-- ==== Proof.HostTerms.lean ====
/-
  The pure terms the host operations compute, and each term read at an index.
  The index list of the gather: entry w*3328 + c*128 + r is the integer argument at row w*128 + r, column c, plus
  c*1000. The scale list: entry w*3328 + c*128 + r is the float argument at row w*128 + r, column c. The padded
  index list of the first-order weights: entry b*32 + f is the integer argument at (b, f) plus f*1000 for f < 26 and
  26000 for 26 ≤ f < 32. The tables are the weight arguments with their two leading axes merged; the first-order
  table is followed by eight zeros. The TensorCore call's operands are the weight arguments sliced, padded with zeros,
  and narrowed to the 16-bit format.
  Generic in the float instance: narrowing, widening, product and sum stay the instance's own operations.
-/
import proofs.«207592_g65111704207794_cont_9to1_m_407_36_alg».proof.Proof.Gen.KernelIdeal
import Idealize.ShloMosaic.Lib.Pipeline.Value
import Idealize.ShloMosaic.Lib.ValueIdx
import Idealize.ShloMosaic.Lib.ValueIdxCoords
import Idealize.ShloMosaic.Lib.ValueLayout

noncomputable section

namespace Cert.Proof.HostTerms

open Cert.KernelIdeal Cert.KernelIdeal.Gen Idealize.ShloMosaic
open Idealize.ShloMosaic.ValueIdx Idealize.ShloMosaic.Pipeline

variable {F : FTy → Type} [FloatOps F]

/-! ## The terms -/

/-- Column c of every row: c times 1000. -/
def offs : IVec S4096x26 32 :=
  broadcastInDim S4096x26 ![0, 1] bcast_S1x26_S4096x26_0_1 (broadcastInDim S1x26 ![1] bcast_S26_S1x26_1 (muli (iotaInDim S26 32 0) (broadcastInDim S26 ![] bcast_S_S26 (constantI S_ 32 1000#32))))

/-- The integer argument with its unit axis dropped, plus the column offsets. -/
def idxOff (xi : IVec S4096x26x1 32) : IVec S4096x26 32 :=
  addi (shapeCast S4096x26 xi shapeCasts_S4096x26x1_S4096x26) offs

/-- A 4096 x 26 array laid out tile by tile: 32 tiles of 128 rows, each tile column by column. -/
def relayout {α : Type} (x : S4096x26.Idx → α) : S106496.Idx → α :=
  shapeCast S106496 (shapeCast S1x106496 (transpose S1x32x26x128 [0, 1, 3, 2] (shapeCast S1x32x128x26 x shapeCasts_S4096x26_S1x32x128x26) transposes_S1x32x128x26_S1x32x26x128_0_1_3_2) shapeCasts_S1x32x26x128_S1x106496) shapeCasts_S1x106496_S106496

/-- A 4096 x 26 array padded to 32 columns. -/
def pad32 {α : Type} (x : S4096x26.Idx → α) (z : S4096x6.Idx → α) : S4096x32.Idx → α :=
  concatenate S4096x32 1 [⟨S4096x26, x⟩, ⟨S4096x6, z⟩] concatenates_S4096x26_S4096x6_S4096x32_d1

/-- A 4096 x 32 array flattened row by row. -/
def flatten32 {α : Type} (y : S4096x32.Idx → α) : S131072.Idx → α :=
  shapeCast S131072 (shapeCast S1x131072 y shapeCasts_S4096x32_S1x131072) shapeCasts_S1x131072_S131072

def v42T (xi : IVec S4096x26x1 32) : IVec S106496 32 := relayout (idxOff xi)
def v44T (xv : FVec F S4096x26 .f32) : FVec F S106496 .f32 := relayout xv
def v43T (xi : IVec S4096x26x1 32) : IVec S131072 32 :=
  flatten32 (pad32 (idxOff xi) (broadcastInDim S4096x6 ![] bcast_S_S4096x6 (constantI S_ 32 26000#32)))
def v18T (ws : FVec F S26x1000x128 .f32) : FVec F S26000x128 .f32 := shapeCast S26000x128 ws shapeCasts_S26x1000x128_S26000x128
def v21T (wf : FVec F S26x1000x1 .f32) : FVec F S26008 .f32 :=
  concatenate S26008 0 [⟨S26000, (shapeCast S26000 wf shapeCasts_S26x1000x1_S26000)⟩, ⟨S8, (broadcastInDim S8 ![] bcast_S_S8 (constant (F := F) S_ .f32 0x00000000#32))⟩] concatenates_S26000_S8_S26008_d0
def v23T (xv : FVec F S4096x26 .f32) : FVec F S4096x32 .f32 :=
  pad32 xv (broadcastInDim S4096x6 ![] bcast_S_S4096x6 (constant (F := F) S_ .f32 0x00000000#32))
def v27T (w1 : FVec F S3355x1024 .f32) : FVec F S32x1024 .bf16 :=
  truncf .bf16 (concatenate S32x1024 0 [⟨S26x1024, (extractStridedSlice S26x1024 ![1, 0] w1 slices_S3355x1024_S26x1024_1_0)⟩, ⟨S6x1024, (broadcastInDim S6x1024 ![] bcast_S_S6x1024 (constant (F := F) S_ .f32 0x00000000#32))⟩] concatenates_S26x1024_S6x1024_S32x1024_d0) bitsLt_bf16_f32
def v29T (w1 : FVec F S3355x1024 .f32) : FVec F S3328x1024 .bf16 :=
  truncf .bf16 (extractStridedSlice S3328x1024 ![27, 0] w1 slices_S3355x1024_S3328x1024_27_0) bitsLt_bf16_f32
def v39T (b1 : FVec F S1024 .f32) (fm : FVec F S1 .f32) (w1 : FVec F S3355x1024 .f32) : FVec F S1x1024 .f32 :=
  addf (broadcastInDim S1x1024 ![1] bcast_S1024_S1x1024_1 b1) (mulf (broadcastInDim S1x1024 ![0, 1] bcast_S1x1_S1x1024_0_1 (broadcastInDim S1x1 ![0] bcast_S1_S1x1_0 (extf .f32 (truncf .bf16 fm bitsLt_bf16_f32) bitsLt_bf16_f32))) (extf .f32 (truncf .bf16 (extractStridedSlice S1x1024 ![0, 0] w1 slices_S3355x1024_S1x1024_0_0) bitsLt_bf16_f32) bitsLt_bf16_f32))
def v40T (w2 : FVec F S1024x512 .f32) : FVec F S1024x512 .bf16 := truncf .bf16 w2 bitsLt_bf16_f32
def v41T (w3 : FVec F S512x1 .f32) : FVec F S512x1 .bf16 := truncf .bf16 w3 bitsLt_bf16_f32

/-! ## The layouts read at an index -/

section Layout
variable {α : Type}

theorem relayout_apply (x : S4096x26.Idx → α) (w : Fin 32) (c : Fin 26) (r : Fin 128) (k : S106496.Idx)
    (hk : (k 0).val = w.val * 3328 + c.val * 128 + r.val) :
    relayout x k = x (ix2 ⟨w.val * 128 + r.val, by omega⟩ c) := by
  have hw := w.isLt; have hc := c.isLt; have hr := r.isLt
  have hk0 : (k 0).val < 106496 := (k 0).isLt
  unfold relayout
  refine (shapeCast_apply _ _ k (ix2 (0 : Fin 1) (⟨(k 0).val, hk0⟩ : Fin 106496)) (by
    rw [Shape.rowMajor_val_two, Shape.rowMajor_val_one]
    show 0 * 106496 + (k 0).val = (k 0).val
    omega)).trans ?_
  refine (shapeCast_apply _ _ _ (ix4 (0 : Fin 1) w c r) (by
    rw [Shape.rowMajor_val_four, Shape.rowMajor_val_two]
    show ((0 * 32 + w.val) * 26 + c.val) * 128 + r.val = 0 * 106496 + (k 0).val
    omega)).trans ?_
  refine (transpose_apply _ _ _ _ (ix4 (0 : Fin 1) w r c)
    (fun b => match b with | ⟨0, _⟩ => rfl | ⟨1, _⟩ => rfl | ⟨2, _⟩ => rfl | ⟨3, _⟩ => rfl)).trans ?_
  exact shapeCast_apply _ _ _ (ix2 ⟨w.val * 128 + r.val, by omega⟩ c) (by
    rw [Shape.rowMajor_val_two, Shape.rowMajor_val_four]
    show (w.val * 128 + r.val) * 26 + c.val = ((0 * 32 + w.val) * 128 + r.val) * 26 + c.val
    omega)

theorem pad32_left (x : S4096x26.Idx → α) (z : S4096x6.Idx → α) (b : Fin 4096) (f : Fin 32) (hf : f.val < 26) :
    pad32 x z (ix2 b f) = x (ix2 b ⟨f.val, hf⟩) :=
  concatenate_pair_apply_left (s₁ := S4096x26) (s₂ := S4096x6) (1 : Fin 2) x z _ (ix2 b f) rfl (ix2 b ⟨f.val, hf⟩)
    (fun a => match a with | ⟨0, _⟩ => rfl | ⟨1, _⟩ => rfl)

theorem pad32_right (x : S4096x26.Idx → α) (z : S4096x6.Idx → α) (b : Fin 4096) (f : Fin 32) (hf : 26 ≤ f.val) :
    pad32 x z (ix2 b f) = z (ix2 b ⟨f.val - 26, by have := f.isLt; omega⟩) :=
  concatenate_pair_apply_right (s₁ := S4096x26) (s₂ := S4096x6) (1 : Fin 2) x z _ (ix2 b f) rfl rfl (ix2 b ⟨f.val - 26, by have := f.isLt; omega⟩)
    (fun a ha => match a, ha with | ⟨0, _⟩, _ => rfl | ⟨1, _⟩, ha => (ha (Fin.ext rfl)).elim)
    (by show f.val - 26 + 26 = f.val; omega)

theorem flatten32_apply (y : S4096x32.Idx → α) (b : Fin 4096) (f : Fin 32) (k : S131072.Idx)
    (hk : (k 0).val = b.val * 32 + f.val) : flatten32 y k = y (ix2 b f) := by
  have hk0 : (k 0).val < 131072 := (k 0).isLt
  unfold flatten32
  refine (shapeCast_apply _ _ k (ix2 (0 : Fin 1) (⟨(k 0).val, hk0⟩ : Fin 131072)) (by
    rw [Shape.rowMajor_val_two, Shape.rowMajor_val_one]
    show 0 * 131072 + (k 0).val = (k 0).val
    omega)).trans ?_
  exact shapeCast_apply _ _ _ (ix2 b f) (by
    rw [Shape.rowMajor_val_two, Shape.rowMajor_val_two]
    show b.val * 32 + f.val = 0 * 131072 + (k 0).val
    omega)

end Layout

/-! ## The index lists -/

theorem offs_apply (j : S4096x26.Idx) : offs j = IntOp.muli (BitVec.ofNat 32 (j 1).val) 1000#32 := rfl

/-- Row b, column c of the offset indices: the integer argument there plus c times 1000. -/
theorem idxOff_apply (xi : IVec S4096x26x1 32) (b : Fin 4096) (c : Fin 26) :
    idxOff xi (ix2 b c) = IntOp.addi (xi (ix3 b c u0)) (IntOp.muli (BitVec.ofNat 32 c.val) 1000#32) := by
  show IntOp.addi (shapeCast S4096x26 xi shapeCasts_S4096x26x1_S4096x26 (ix2 b c)) (offs (ix2 b c)) = _
  rw [shapeCast_apply xi _ (ix2 b c) (ix3 b c u0) (by
    rw [Shape.rowMajor_val_three, Shape.rowMajor_val_two]
    show (b.val * 26 + c.val) * 1 + 0 = b.val * 26 + c.val
    omega)]
  rfl

/-- The gather's index list: entry w*3328 + c*128 + r. -/
theorem v42T_apply (xi : IVec S4096x26x1 32) (w : Fin 32) (c : Fin 26) (r : Fin 128) (k : S106496.Idx)
    (hk : (k 0).val = w.val * 3328 + c.val * 128 + r.val) :
    v42T xi k = IntOp.addi (xi (ix3 ⟨w.val * 128 + r.val, by omega⟩ c u0)) (IntOp.muli (BitVec.ofNat 32 c.val) 1000#32) := by
  unfold v42T
  rw [relayout_apply _ w c r k hk, idxOff_apply]

/-- The scale list: entry w*3328 + c*128 + r. -/
theorem v44T_apply (xv : FVec F S4096x26 .f32) (w : Fin 32) (c : Fin 26) (r : Fin 128) (k : S106496.Idx)
    (hk : (k 0).val = w.val * 3328 + c.val * 128 + r.val) :
    v44T xv k = xv (ix2 ⟨w.val * 128 + r.val, by omega⟩ c) := by
  unfold v44T
  exact relayout_apply _ w c r k hk

/-- The padded index list: entry b*32 + f for f < 26. -/
theorem v43T_apply_lt (xi : IVec S4096x26x1 32) (b : Fin 4096) (f : Fin 32) (hf : f.val < 26) (k : S131072.Idx)
    (hk : (k 0).val = b.val * 32 + f.val) :
    v43T xi k = IntOp.addi (xi (ix3 b ⟨f.val, hf⟩ u0)) (IntOp.muli (BitVec.ofNat 32 f.val) 1000#32) := by
  unfold v43T
  rw [flatten32_apply _ b f k hk, pad32_left _ _ b f hf, idxOff_apply]

/-- The padded index list: entry b*32 + f for 26 ≤ f. -/
theorem v43T_apply_ge (xi : IVec S4096x26x1 32) (b : Fin 4096) (f : Fin 32) (hf : 26 ≤ f.val) (k : S131072.Idx)
    (hk : (k 0).val = b.val * 32 + f.val) : v43T xi k = 26000#32 := by
  unfold v43T
  rw [flatten32_apply _ b f k hk, pad32_right _ _ b f hf]
  rfl

/-! ## The tables -/

theorem v18T_apply (ws : FVec F S26x1000x128 .f32) (c : Fin 26) (v : Fin 1000) (e : Fin 128) (j : S26000x128.Idx)
    (hj0 : (j 0).val = c.val * 1000 + v.val) (hj1 : (j 1).val = e.val) : v18T ws j = ws (ix3 c v e) :=
  shapeCast_apply ws _ j (ix3 c v e) (by
    rw [Shape.rowMajor_val_three, Shape.rowMajor_val_two]
    show (c.val * 1000 + v.val) * 128 + e.val = (j 0).val * 128 + (j 1).val
    rw [hj0, hj1])

theorem v21T_apply_lt (wf : FVec F S26x1000x1 .f32) (c : Fin 26) (v : Fin 1000) (j : S26008.Idx)
    (hj : (j 0).val = c.val * 1000 + v.val) : v21T wf j = wf (ix3 c v u0) := by
  have hc := c.isLt; have hv := v.isLt
  unfold v21T
  refine (concatenate_pair_apply_left (s₁ := S26000) (s₂ := S8) (0 : Fin 1) _ _ _ j rfl (ix1 ⟨c.val * 1000 + v.val, by omega⟩)
    (fun a => match a with | ⟨0, _⟩ => hj.symm)).trans ?_
  exact shapeCast_apply wf _ _ (ix3 c v u0) (by
    rw [Shape.rowMajor_val_three, Shape.rowMajor_val_one]
    show (c.val * 1000 + v.val) * 1 + 0 = c.val * 1000 + v.val
    omega)

theorem v21T_apply_ge (wf : FVec F S26x1000x1 .f32) (j : S26008.Idx) (hj : 26000 ≤ (j 0).val) :
    v21T wf j = FloatOps.ofBits .f32 0x00000000#32 := by
  have hlt : (j 0).val < 26008 := (j 0).isLt
  unfold v21T
  exact concatenate_pair_apply_right (s₁ := S26000) (s₂ := S8) (0 : Fin 1) _ _ _ j rfl rfl (ix1 ⟨(j 0).val - 26000, by omega⟩)
    (fun a ha => match a, ha with | ⟨0, _⟩, ha => (ha (Fin.ext rfl)).elim)
    (by show (j 0).val - 26000 + 26000 = (j 0).val; omega)

/-! ## The TensorCore call's operands -/

theorem v23T_apply_lt (xv : FVec F S4096x26 .f32) (b : Fin 4096) (f : Fin 32) (hf : f.val < 26) :
    v23T xv (ix2 b f) = xv (ix2 b ⟨f.val, hf⟩) := pad32_left _ _ b f hf

theorem v23T_apply_ge (xv : FVec F S4096x26 .f32) (b : Fin 4096) (f : Fin 32) (hf : 26 ≤ f.val) :
    v23T xv (ix2 b f) = FloatOps.ofBits .f32 0x00000000#32 := by
  unfold v23T; rw [pad32_right _ _ b f hf]; rfl

theorem v27T_apply_lt (w1 : FVec F S3355x1024 .f32) (f : Fin 32) (i : Fin 1024) (hf : f.val < 26) :
    v27T w1 (ix2 f i) = FloatOps.truncf .bf16 bitsLt_bf16_f32 (w1 (ix2 ⟨1 + f.val, by omega⟩ i)) := by
  unfold v27T
  refine congrArg (FloatOps.truncf .bf16 bitsLt_bf16_f32) ?_
  refine (concatenate_pair_apply_left (s₁ := S26x1024) (s₂ := S6x1024) (0 : Fin 2) _ _ _ (ix2 f i) rfl (ix2 ⟨f.val, hf⟩ i)
    (fun a => match a with | ⟨0, _⟩ => rfl | ⟨1, _⟩ => rfl)).trans ?_
  exact extractStridedSlice_apply _ w1 _ _ (ix2 ⟨1 + f.val, by omega⟩ i)
    (fun a => match a with | ⟨0, _⟩ => rfl | ⟨1, _⟩ => by show i.val = 0 + i.val; omega)

theorem v27T_apply_ge (w1 : FVec F S3355x1024 .f32) (f : Fin 32) (i : Fin 1024) (hf : 26 ≤ f.val) :
    v27T w1 (ix2 f i) = FloatOps.truncf .bf16 bitsLt_bf16_f32 (FloatOps.ofBits .f32 0x00000000#32) := by
  have hlt := f.isLt
  unfold v27T
  refine congrArg (FloatOps.truncf .bf16 bitsLt_bf16_f32) ?_
  exact concatenate_pair_apply_right (s₁ := S26x1024) (s₂ := S6x1024) (0 : Fin 2) _ _ _ (ix2 f i) rfl rfl (ix2 ⟨f.val - 26, by omega⟩ i)
    (fun a ha => match a, ha with | ⟨0, _⟩, ha => (ha (Fin.ext rfl)).elim | ⟨1, _⟩, _ => rfl)
    (by show f.val - 26 + 26 = f.val; omega)

theorem v29T_apply (w1 : FVec F S3355x1024 .f32) (j : Fin 3328) (i : Fin 1024) :
    v29T w1 (ix2 j i) = FloatOps.truncf .bf16 bitsLt_bf16_f32 (w1 (ix2 ⟨27 + j.val, by omega⟩ i)) := by
  unfold v29T
  refine congrArg (FloatOps.truncf .bf16 bitsLt_bf16_f32) ?_
  exact extractStridedSlice_apply _ w1 _ _ (ix2 ⟨27 + j.val, by omega⟩ i)
    (fun a => match a with | ⟨0, _⟩ => rfl | ⟨1, _⟩ => by show i.val = 0 + i.val; omega)

theorem v39T_apply (b1 : FVec F S1024 .f32) (fm : FVec F S1 .f32) (w1 : FVec F S3355x1024 .f32) (u : Fin 1) (i : Fin 1024) :
    v39T b1 fm w1 (ix2 u i)
      = FloatOps.addf (b1 (ix1 i))
          (FloatOps.mulf (FloatOps.extf .f32 bitsLt_bf16_f32 (FloatOps.truncf .bf16 bitsLt_bf16_f32 (fm (ix1 u0))))
            (FloatOps.extf .f32 bitsLt_bf16_f32 (FloatOps.truncf .bf16 bitsLt_bf16_f32 (w1 (ix2 ⟨0, by omega⟩ i))))) := by
  have e1 : broadcastInDim S1x1024 ![1] bcast_S1024_S1x1024_1 b1 (ix2 u i) = b1 (ix1 i) :=
    broadcastInDim_apply _ _ b1 (ix2 u i) (ix1 i) (fun a => match a with | ⟨0, _⟩ => rfl)
  have e2 : ∀ (y : FVec F S1 .f32), broadcastInDim S1x1024 ![0, 1] bcast_S1x1_S1x1024_0_1 (broadcastInDim S1x1 ![0] bcast_S1_S1x1_0 y) (ix2 u i) = y (ix1 u0) := fun y =>
    (broadcastInDim_apply _ _ _ (ix2 u i) (ix2 u0 u0) (fun a => match a with | ⟨0, _⟩ => rfl | ⟨1, _⟩ => rfl)).trans
      (broadcastInDim_apply _ _ y (ix2 u0 u0) (ix1 u0) (fun a => match a with | ⟨0, _⟩ => rfl))
  have e3 : extractStridedSlice S1x1024 ![0, 0] w1 slices_S3355x1024_S1x1024_0_0 (ix2 u i) = w1 (ix2 ⟨0, by omega⟩ i) :=
    extractStridedSlice_apply _ w1 _ _ (ix2 ⟨0, by omega⟩ i)
      (fun a => match a with | ⟨0, _⟩ => by show 0 = 0 + u.val; omega | ⟨1, _⟩ => by show i.val = 0 + i.val; omega)
  show FloatOps.addf (broadcastInDim S1x1024 ![1] bcast_S1024_S1x1024_1 b1 (ix2 u i))
      (FloatOps.mulf (broadcastInDim S1x1024 ![0, 1] bcast_S1x1_S1x1024_0_1 (broadcastInDim S1x1 ![0] bcast_S1_S1x1_0 (extf .f32 (truncf .bf16 fm bitsLt_bf16_f32) bitsLt_bf16_f32)) (ix2 u i))
        (FloatOps.extf .f32 bitsLt_bf16_f32 (FloatOps.truncf .bf16 bitsLt_bf16_f32 (extractStridedSlice S1x1024 ![0, 0] w1 slices_S3355x1024_S1x1024_0_0 (ix2 u i))))) = _
  rw [e1, e2, e3]
  rfl

theorem v40T_apply (w2 : FVec F S1024x512 .f32) (j : S1024x512.Idx) :
    v40T w2 j = FloatOps.truncf .bf16 bitsLt_bf16_f32 (w2 j) := rfl
theorem v41T_apply (w3 : FVec F S512x1 .f32) (j : S512x1.Idx) :
    v41T w3 j = FloatOps.truncf .bf16 bitsLt_bf16_f32 (w3 j) := rfl

end Cert.Proof.HostTerms

end
-- ==== Proof.HostVals.lean ====
/-
  What the buffers hold once the host operations have run: after the first list each buffer a kernel reads is a pure
  term of the argument arrays (the terms and their reading at an index are in the module of the terms); a buffer a
  list does not write keeps its contents; after the second list the three reshaped buffers.
  Generic in the float instance.
-/
import proofs.«207592_g65111704207794_cont_9to1_m_407_36_alg».proof.Proof.HostOps
import proofs.«207592_g65111704207794_cont_9to1_m_407_36_alg».proof.Proof.HostTerms

noncomputable section

namespace Cert.Proof.HostVals

open Cert.KernelIdeal Cert.KernelIdeal.Gen Idealize.ShloMosaic Idealize.ShloMosaic.TcCoe Idealize.SL.Sem Idealize.ShloMosaic.StableHlo
open Idealize.ShloMosaic.ValueIdx Idealize.ShloMosaic.Pipeline
open Cert.Proof.HostOps Cert.Proof.HostTerms

variable {F : FTy → Type} [FloatOps F]

/-! ## The buffers after the first list of host operations -/

section After

variable (V : Valuation τ sig (Elt F))

set_option maxRecDepth 8192
set_option maxHeartbeats 4000000

theorem after0_v42 : after hostOps0 V (Proc.devRef .tc main_v42) = v42T (V (Proc.devRef .tc main_arg0)) := by after_results_simp <;> rfl
theorem after0_v43 : after hostOps0 V (Proc.devRef .tc main_v43) = v43T (V (Proc.devRef .tc main_arg0)) := by after_results_simp <;> rfl
theorem after0_v44 : after hostOps0 V (Proc.devRef .tc main_v44) = v44T (F := F) (V (Proc.devRef .tc main_arg1)) := by after_results_simp <;> rfl
theorem after0_v18 : after hostOps0 V (Proc.devRef .tc main_v18) = v18T (F := F) (V (Proc.devRef .tc main_arg4)) := by after_results_simp <;> rfl
theorem after0_v21 : after hostOps0 V (Proc.devRef .tc main_v21) = v21T (F := F) (V (Proc.devRef .tc main_arg3)) := by after_results_simp <;> rfl
theorem after0_v23 : after hostOps0 V (Proc.devRef .tc main_v23) = v23T (F := F) (V (Proc.devRef .tc main_arg1)) := by after_results_simp <;> rfl
theorem after0_v27 : after hostOps0 V (Proc.devRef .tc main_v27) = v27T (F := F) (V (Proc.devRef .tc main_arg5)) := by after_results_simp <;> rfl
theorem after0_v29 : after hostOps0 V (Proc.devRef .tc main_v29) = v29T (F := F) (V (Proc.devRef .tc main_arg5)) := by after_results_simp <;> rfl
theorem after0_v39 : after hostOps0 V (Proc.devRef .tc main_v39)
    = v39T (F := F) (V (Proc.devRef .tc main_arg6)) (V (Proc.devRef .tc main_arg2)) (V (Proc.devRef .tc main_arg5)) := by after_results_simp <;> rfl
theorem after0_v40 : after hostOps0 V (Proc.devRef .tc main_v40) = v40T (F := F) (V (Proc.devRef .tc main_arg7)) := by after_results_simp <;> rfl
theorem after0_v41 : after hostOps0 V (Proc.devRef .tc main_v41) = v41T (F := F) (V (Proc.devRef .tc main_arg9)) := by after_results_simp <;> rfl

/-- The buffers the first list writes. -/
def written0 : List (Ref sig .tc) := [main_v0, main_v1, main_c, main_v2, main_v3, main_v4, main_v5, main_v6, main_v7, main_v8, main_v9, main_v10, main_v11, main_v12, main_v13, main_v14, main_c_0, main_v15, main_v16, main_v17, main_v18, main_v19, main_cst, main_v20, main_v21, main_cst_1, main_v22, main_v23, main_v24, main_cst_2, main_v25, main_v26, main_v27, main_v28, main_v29, main_v30, main_v31, main_v32, main_v33, main_v34, main_v35, main_v36, main_v37, main_v38, main_v39, main_v40, main_v41, main_v42, main_v43, main_v44]
/-- The buffers the second list writes. -/
def written1 : List (Ref sig .tc) := [main_v46, main_v47, main_v48]

omit [FloatOps F] in
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- A buffer the first list does not write keeps its contents: the arguments, and the SparseCore call's results. -/
theorem after0_of_not_written (r : Ref sig .tc) (hr : r ∉ written0) : after hostOps0 V (Proc.devRef .tc r) = V (Proc.devRef .tc r) :=
  after_of_writes_sub (W := written0) hostOps0 V
    ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ hr

/-- A buffer the second list does not write keeps its contents. -/
theorem after1_of_not_written (r : Ref sig .tc) (hr : r ∉ written1) : after hostOps1 V (Proc.devRef .tc r) = V (Proc.devRef .tc r) :=
  after_of_writes_sub (W := written1) hostOps1 V
    ⟨writes_sub_of_mem (by decide), writes_sub_of_mem (by decide), writes_sub_of_mem (by decide)⟩ hr

theorem after1_v46 : after hostOps1 V (Proc.devRef .tc main_v46)
    = shapeCast S4096x32 (V (Proc.devRef .tc main_v45_1)) shapeCasts_S131072_S4096x32 := by after_results_simp <;> rfl
theorem after1_v47 : after hostOps1 V (Proc.devRef .tc main_v47)
    = shapeCast S1x512 (V (Proc.devRef .tc main_arg8)) shapeCasts_S512_S1x512 := by after_results_simp <;> rfl
theorem after1_v48 : after hostOps1 V (Proc.devRef .tc main_v48)
    = shapeCast S1x1 (V (Proc.devRef .tc main_arg10)) shapeCasts_S1_S1x1 := by after_results_simp <;> rfl

end After

end Cert.Proof.HostVals

end
-- ==== Proof.HostBounds.lean ====
/-
  The index lists stay inside their tables. Every entry of the integer argument is at most 999 (the precondition), so
  an entry plus its column offset c*1000, c < 26, is below 26000 and the 32-bit addition does not wrap: every entry of
  the gather's index list names a row of the 26000-row table, and every entry of the padded index list (26000 in the
  padding columns) names an entry of the 26008-entry first-order table.
-/
import proofs.«207592_g65111704207794_cont_9to1_m_407_36_alg».proof.Proof.HostTerms

noncomputable section

namespace Cert.Proof.HostBounds

open Cert.KernelIdeal Cert.KernelIdeal.Gen Idealize.ShloMosaic
open Idealize.ShloMosaic.ValueIdx Idealize.ShloMosaic.Pipeline
open Cert.Proof.HostTerms

/-- An entry at most 999 plus the offset of column c < 26, as 32-bit words: the sum as naturals. -/
theorem toNat_addi_offset (x : BitVec 32) (c : Nat) (hx : x.toNat ≤ 999) (hc : c < 26) :
    (IntOp.addi x (IntOp.muli (BitVec.ofNat 32 c) 1000#32)).toNat = x.toNat + c * 1000 := by
  simp only [IntOp.addi, IntOp.muli, BitVec.toNat_add, BitVec.toNat_mul, BitVec.toNat_ofNat, Nat.reducePow, Nat.reduceMod]
  omega

variable (xi : IVec S4096x26x1 32) (hxi : ∀ i, (xi i).toNat ≤ 999)
include hxi

/-- Entry w*3328 + c*128 + r of the gather's index list, as a natural: the argument's entry plus c*1000. -/
theorem v42T_toNat (w : Fin 32) (c : Fin 26) (r : Fin 128) (k : S106496.Idx)
    (hk : (k 0).val = w.val * 3328 + c.val * 128 + r.val) :
    (v42T xi k).toNat = (xi (ix3 ⟨w.val * 128 + r.val, by omega⟩ c u0)).toNat + c.val * 1000 := by
  rw [v42T_apply xi w c r k hk, toNat_addi_offset _ _ (hxi _) c.isLt]

/-- Every entry of the gather's index list names a row of the table. -/
theorem v42T_lt (k : S106496.Idx) : (v42T xi k).toNat < 26000 := by
  have hk0 : (k 0).val < 106496 := (k 0).isLt
  have e := v42T_toNat xi hxi ⟨(k 0).val / 3328, by omega⟩ ⟨(k 0).val % 3328 / 128, by omega⟩ ⟨(k 0).val % 128, by omega⟩ k
    (by show (k 0).val = (k 0).val / 3328 * 3328 + (k 0).val % 3328 / 128 * 128 + (k 0).val % 128; omega)
  rw [e]
  refine Nat.lt_of_le_of_lt (Nat.add_le_add_right (hxi _) _) ?_
  show 999 + (k 0).val % 3328 / 128 * 1000 < 26000
  omega

/-- Entry b*32 + f, f < 26, of the padded index list, as a natural. -/
theorem v43T_toNat_lt (b : Fin 4096) (f : Fin 32) (hf : f.val < 26) (k : S131072.Idx)
    (hk : (k 0).val = b.val * 32 + f.val) :
    (v43T xi k).toNat = (xi (ix3 b ⟨f.val, hf⟩ u0)).toNat + f.val * 1000 := by
  rw [v43T_apply_lt xi b f hf k hk, toNat_addi_offset _ _ (hxi _) hf]

/-- Every entry of the padded index list names an entry of the first-order table with its eight zeros. -/
theorem v43T_lt (k : S131072.Idx) : (v43T xi k).toNat < 26008 := by
  have hk0 : (k 0).val < 131072 := (k 0).isLt
  have hk : (k 0).val = (⟨(k 0).val / 32, by omega⟩ : Fin 4096).val * 32 + (⟨(k 0).val % 32, by omega⟩ : Fin 32).val := by
    show (k 0).val = (k 0).val / 32 * 32 + (k 0).val % 32; omega
  by_cases hf : (k 0).val % 32 < 26
  · rw [v43T_toNat_lt xi hxi _ _ hf k hk]
    refine Nat.lt_of_le_of_lt (Nat.add_le_add_right (hxi _) _) ?_
    show 999 + (k 0).val % 32 * 1000 < 26008
    omega
  · rw [v43T_apply_ge xi _ _ (by show 26 ≤ (k 0).val % 32; omega) k hk]
    decide

end Cert.Proof.HostBounds

end
-- ==== Proof.PreOK.lean ====
/-
  The precondition read back. The precondition is a conjunction, computed as the program computes it: for each float
  argument, "every entry has absolute value below plus infinity", and for the integer argument, "every entry is at
  least 0 and at most 999 as a signed word"; each "every entry" is a reduction by `and` from 1 over all axes, and the
  claim states that the whole conjunction is 1.
  Part one, for any float instance: every entry of the integer argument, read unsigned, is at most 999.
  Part two, at the extended reals: every entry of every float argument is a real number.
-/
import proofs.«207592_g65111704207794_cont_9to1_m_407_36_alg».proof.Pre_input_domain
import Idealize.ShloMosaic.Lib.ReduceAll
import Idealize.ShloMosaic.PureOps.Ideal

noncomputable section

namespace Cert.Proof.PreOK

open Cert.Pre_input_domain Idealize.ShloMosaic

/-- The shape of a scalar has one index. -/
instance subsingleton_S_ : Subsingleton S_.Idx := ⟨fun a b => funext fun d => d.elim0⟩

/-- The index of a scalar. -/
def j0 : S_.Idx := fun d => d.elim0

/-- A word that is at least 0 and at most 999 as a signed word is at most 999 as an unsigned one. -/
theorem toNat_le_of_signed (v : BitVec 32)
    (e : IntOp.andi (IntOp.cmpi .sge v 0#32) (IntOp.cmpi .sle v 999#32) = 1#1) : v.toNat ≤ 999 := by
  rw [IntOp.andi_eq_one, IntOp.cmpi_sge, IntOp.cmpi_sle] at e
  obtain ⟨h0, h1⟩ := e
  have z : (0#32 : BitVec 32).toInt = 0 := by decide
  have n : (999#32 : BitVec 32).toInt = 999 := by decide
  rw [z] at h0; rw [n] at h1
  have hlt := v.isLt
  rw [BitVec.toInt_eq_toNat_cond] at h0 h1
  split at h0 <;> omega

section Generic

variable {F : FTy → Type} [FloatOps F] [Facts]

/-- The integer argument's conjunct, taken out of the whole conjunction. -/
theorem int_conjunct (a0 : IVec S4096x26x1 32) (a1 : FVec F S4096x26 .f32) (a2 : FVec F S1 .f32) (a3 : FVec F S26x1000x1 .f32)
    (a4 : FVec F S26x1000x128 .f32) (a5 : FVec F S3355x1024 .f32) (a6 : FVec F S1024 .f32) (a7 : FVec F S1024x512 .f32)
    (a8 : FVec F S512 .f32) (a9 : FVec F S512x1 .f32) (a10 : FVec F S1 .f32)
    (h : fn (F := F) a0 a1 a2 a3 a4 a5 a6 a7 a8 a9 a10 = fun _ => 1#1) (i : S4096x26x1.Idx) :
    IntOp.andi (IntOp.cmpi .sge (a0 i) 0#32) (IntOp.cmpi .sle (a0 i) 999#32) = 1#1 := by
  have e := congrFun h j0
  unfold fn fn_part1 fn_part2 fn_part3 at e
  dsimp only at e
  simp only [andi, IntOp.andi_eq_one] at e
  have e54 := e.2
  have := Host.reduce_andi_all _ _ _ _ _ e54 i
  exact this

/-- PART ONE: under the precondition every entry of the integer argument, read unsigned, is at most 999. -/
theorem xi_le (a0 : IVec S4096x26x1 32) (a1 : FVec F S4096x26 .f32) (a2 : FVec F S1 .f32) (a3 : FVec F S26x1000x1 .f32)
    (a4 : FVec F S26x1000x128 .f32) (a5 : FVec F S3355x1024 .f32) (a6 : FVec F S1024 .f32) (a7 : FVec F S1024x512 .f32)
    (a8 : FVec F S512 .f32) (a9 : FVec F S512x1 .f32) (a10 : FVec F S1 .f32)
    (h : fn (F := F) a0 a1 a2 a3 a4 a5 a6 a7 a8 a9 a10 = fun _ => 1#1) (i : S4096x26x1.Idx) : (a0 i).toNat ≤ 999 :=
  toNat_le_of_signed _ (int_conjunct a0 a1 a2 a3 a4 a5 a6 a7 a8 a9 a10 h i)

end Generic

/-! ## Part two: at the extended reals every float entry is a real number -/

section Finite

variable [Facts]

/-- The bit pattern the precondition compares against is plus infinity. -/
theorem inf_bits : Ideal.ofBits .f32 0x7F800000#32 = (⊤ : EReal) := by
  simp [Ideal.ofBits, Ideal.ieee]

/-- An extended real whose absolute value is below plus infinity is a real number. -/
theorem real_of_abs_lt (x : Ideal .f32)
    (h : FloatOps.cmpf (F := Ideal) .olt (FloatOps.hostAbsf x) (FloatOps.ofBits (F := Ideal) .f32 0x7F800000#32) = 1#1) :
    ∃ r : ℝ, x = (r : EReal) := by
  have h' : Ideal.cmp .olt (max x (-x)) (Ideal.ofBits .f32 0x7F800000#32) = 1#1 := h
  rw [inf_bits] at h'
  have hlt : max x (-x) < (⊤ : EReal) := by
    unfold Ideal.cmp at h'
    by_contra hn
    simp [hn] at h'
  induction x using EReal.rec with
  | bot => simp at hlt
  | top => simp at hlt
  | coe r => exact ⟨r, rfl⟩

/-- One float argument's conjunct read back: every entry of the array is a real number. -/
theorem real_of_all {s : Shape} (a : FVec Ideal s .f32) (hb : S_.BroadcastsInDim s (![] : Fin 0 → Fin s.rank))
    {axes : List (Fin s.rank)} (hred : s.ReducesTo axes S_) (hu : 0 < S_.numel)
    (e : Host.reduce IntOp.andi (cmpf .olt (Host.absf a) (broadcastInDim s ![] hb (constant (F := Ideal) S_ .f32 0x7F800000#32)))
      (constantI S_ 1 1#1) hred hu j0 = 1#1) (i : s.Idx) : ∃ r : ℝ, a i = (r : EReal) :=
  real_of_abs_lt (a i) (Host.reduce_andi_all _ _ _ _ _ e i)

/-- PART TWO: under the precondition, at the extended reals, every entry of every float argument is a real number. -/
theorem finite_of_pre (a0 : IVec S4096x26x1 32) (a1 : FVec Ideal S4096x26 .f32) (a2 : FVec Ideal S1 .f32) (a3 : FVec Ideal S26x1000x1 .f32)
    (a4 : FVec Ideal S26x1000x128 .f32) (a5 : FVec Ideal S3355x1024 .f32) (a6 : FVec Ideal S1024 .f32) (a7 : FVec Ideal S1024x512 .f32)
    (a8 : FVec Ideal S512 .f32) (a9 : FVec Ideal S512x1 .f32) (a10 : FVec Ideal S1 .f32)
    (h : fn (F := Ideal) a0 a1 a2 a3 a4 a5 a6 a7 a8 a9 a10 = fun _ => 1#1) :
    (∀ i, ∃ r : ℝ, a1 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) ∧ (∀ i, ∃ r : ℝ, a8 i = (r : EReal)) ∧ (∀ i, ∃ r : ℝ, a9 i = (r : EReal))
      ∧ (∀ i, ∃ r : ℝ, a10 i = (r : EReal)) := by
  have e := congrFun h j0
  unfold fn fn_part1 fn_part2 fn_part3 at e
  dsimp only at e
  simp only [andi, IntOp.andi_eq_one] at e
  obtain ⟨⟨⟨⟨⟨⟨⟨⟨⟨⟨e1, e2⟩, e3⟩, e4⟩, e5⟩, e6⟩, e7⟩, e8⟩, e9⟩, e10⟩, -⟩ := e
  exact ⟨fun i => real_of_all a1 _ _ _ e1 i, fun i => real_of_all a2 _ _ _ e2 i,
    fun i => real_of_all a3 _ _ _ e3 i, fun i => real_of_all a4 _ _ _ e4 i,
    fun i => real_of_all a5 _ _ _ e5 i, fun i => real_of_all a6 _ _ _ e6 i,
    fun i => real_of_all a7 _ _ _ e7 i, fun i => real_of_all a8 _ _ _ e8 i,
    fun i => real_of_all a9 _ _ _ e9 i, fun i => real_of_all a10 _ _ _ e10 i⟩

end Finite

end Cert.Proof.PreOK

end
-- ==== Proof.LaunchVals.lean ====
/-
  The contents of the arrays at the moments that matter: after the host operations that precede the SparseCore call
  (the table, the two index lists, the first-order weights, the feature values), and the ranges the precondition gives
  the two index lists: every entry of the transposed list names a row of the table, every entry of the padded list a
  word of the padded first-order weights.
-/
import proofs.«207592_g65111704207794_cont_9to1_m_407_36_alg».proof.Proof.LaunchSplit
import proofs.«207592_g65111704207794_cont_9to1_m_407_36_alg».proof.Proof.HostOps
import proofs.«207592_g65111704207794_cont_9to1_m_407_36_alg».proof.Proof.HostVals
import proofs.«207592_g65111704207794_cont_9to1_m_407_36_alg».proof.Proof.HostBounds
import proofs.«207592_g65111704207794_cont_9to1_m_407_36_alg».proof.Proof.PreOK

noncomputable section

namespace Cert.Proof.KI

open Cert.KernelIdeal Cert.KernelIdeal.Gen
open Cert.Proof.ScViews (tLoc i2Loc isLoc wfLoc xvLoc e2Loc soLoc)
open Cert.Proof.HostOps (hostOps0 hostOps1 V0)

open Idealize.ShloMosaic
open Idealize.ShloMosaic.SparseCore (S V T)
open Idealize.ShloMosaic.StableHlo (after)

variable {F : FTy → Type} [FloatOps F]

variable (m : (ℓ : Loc nD τ sig) → Buf (Elt F) ℓ)

/-- The arrays after the host operations before the call. -/
abbrev W1 (d : Dev nD) : Valuation τ sig (Elt F) := after hostOps0 (V0 m d)

abbrev cTb (d : Dev nD) : Buf (Elt F) (tLoc d) := W1 m d (Proc.devRef .tc main_v18)
abbrev cI2 (d : Dev nD) : Buf (Elt F) (i2Loc d) := W1 m d (Proc.devRef .tc main_v42)
abbrev cIS (d : Dev nD) : Buf (Elt F) (isLoc d) := W1 m d (Proc.devRef .tc main_v43)
abbrev cWF (d : Dev nD) : Buf (Elt F) (wfLoc d) := W1 m d (Proc.devRef .tc main_v21)
abbrev cXV (d : Dev nD) : Buf (Elt F) (xvLoc d) := W1 m d (Proc.devRef .tc main_v44)

/-- The precondition, as the memory's argument arrays satisfy it on every device. -/
def PreM [Cert.Pre_input_domain.Facts] : Prop :=
  ∀ d : Dev nD,
    Cert.Pre_input_domain.fn (F := F) (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) (m ((d.tc : Thread nD τ).loc main_arg5)) (m ((d.tc : Thread nD τ).loc main_arg6))
      (m ((d.tc : Thread nD τ).loc main_arg7)) (m ((d.tc : Thread nD τ).loc main_arg8)) (m ((d.tc : Thread nD τ).loc main_arg9)) (m ((d.tc : Thread nD τ).loc main_arg10))
      = fun _ => 1#1

theorem xi_le [Cert.Pre_input_domain.Facts] (hpre : PreM m) (d : Dev nD) (i : S4096x26x1.Idx) :
    ((V0 m d (Proc.devRef .tc main_arg0) : IVec S4096x26x1 32) i).toNat ≤ 999 :=
  Cert.Proof.PreOK.xi_le _ _ _ _ _ _ _ _ _ _ _ (hpre d) i

theorem cI2_lt [Cert.Pre_input_domain.Facts] (hpre : PreM m) (d : Dev nD) (k : S106496.Idx) : ((cI2 m d : IVec S106496 32) k).toNat < 26000 := by
  show ((after hostOps0 (V0 m d) (Proc.devRef .tc main_v42) : IVec S106496 32) k).toNat < 26000
  rw [Cert.Proof.HostVals.after0_v42]
  exact Cert.Proof.HostBounds.v42T_lt _ (xi_le m hpre d) k

theorem cIS_lt [Cert.Pre_input_domain.Facts] (hpre : PreM m) (d : Dev nD) (k : S131072.Idx) : ((cIS m d : IVec S131072 32) k).toNat < 26008 := by
  show ((after hostOps0 (V0 m d) (Proc.devRef .tc main_v43) : IVec S131072 32) k).toNat < 26008
  rw [Cert.Proof.HostVals.after0_v43]
  exact Cert.Proof.HostBounds.v43T_lt _ (xi_le m hpre d) k

end Cert.Proof.KI

end
-- ==== Proof.HostGlue.lean ====
/-
  The SparseCore call's seven buffers (the table, the first-order table, the two index lists, the scale list, and the
  call's two results) taken out of the unscoped buffers held at a valuation, and put back after the call at the
  valuation updated at the two results; the twelve buffers the claim speaks of (the eleven arguments and the result)
  as a subset of the unscoped buffers; and what the composite valuation — the first list of host operations, the call,
  the second list — holds at the arguments and at the TensorCore call's operands.
  Generic in the float instance.
-/
import proofs.«207592_g65111704207794_cont_9to1_m_407_36_alg».proof.Proof.HostVals

noncomputable section

namespace Cert.Proof.HostGlue

open Cert.KernelIdeal Cert.KernelIdeal.Gen Idealize.ShloMosaic Idealize.ShloMosaic.TcCoe Idealize.SL.Sem Idealize.ShloMosaic.StableHlo
open Idealize.SL Idealize.SL.RA Idealize.SL.BI
open scoped Idealize.SL.BI
open Idealize.SL.BI.BIBase Idealize.SL.BI.Laws Idealize.SL.ProofMode
open Idealize.ShloMosaic.ValueIdx Idealize.ShloMosaic.Pipeline
open Cert.Proof.HostOps Cert.Proof.HostTerms Cert.Proof.HostVals

variable {F : FTy → Type}

abbrev r18 : DevRef τ sig := Proc.devRef .tc (main_v18 : Ref sig .tc)
abbrev r21 : DevRef τ sig := Proc.devRef .tc (main_v21 : Ref sig .tc)
abbrev r42 : DevRef τ sig := Proc.devRef .tc (main_v42 : Ref sig .tc)
abbrev r44 : DevRef τ sig := Proc.devRef .tc (main_v44 : Ref sig .tc)
abbrev r43 : DevRef τ sig := Proc.devRef .tc (main_v43 : Ref sig .tc)
abbrev r450 : DevRef τ sig := Proc.devRef .tc (main_v45_0 : Ref sig .tc)
abbrev r451 : DevRef τ sig := Proc.devRef .tc (main_v45_1 : Ref sig .tc)

/-- The seven buffers of the SparseCore call: table, first-order table, index list, scale list, padded index list, and
    the two results. -/
abbrev T7 : Finset (DevRef τ sig) := {r18, r21, r42, r44, r43, r450, r451}

theorem T7_sub : T7 ⊆ Pipeline.ucRefs τ sig := by
  intro b hb
  simp only [T7, Finset.mem_insert, Finset.mem_singleton] at hb
  rcases hb with rfl | rfl | rfl | rfl | rfl | rfl | rfl <;> exact mem_ucRefs _ rfl

/-- A valuation with the call's two results replaced. -/
def scPut (W : Valuation τ sig (Elt F)) (e2v : r450.ty.Contents (Elt F)) (sov : r451.ty.Contents (Elt F)) : Valuation τ sig (Elt F) :=
  Function.update (Function.update W r450 e2v) r451 sov

section Put
variable (W : Valuation τ sig (Elt F)) (e2v : r450.ty.Contents (Elt F)) (sov : r451.ty.Contents (Elt F))

theorem scPut_of_ne {b : DevRef τ sig} (h0 : b ≠ r450) (h1 : b ≠ r451) : scPut W e2v sov b = W b := by
  unfold scPut; rw [Function.update_of_ne h1, Function.update_of_ne h0]
theorem scPut_so : scPut W e2v sov r451 = sov := Function.update_self _ _ _
theorem scPut_e2 : scPut W e2v sov r450 = e2v := by
  unfold scPut; rw [Function.update_of_ne (show r450 ≠ r451 by decide), Function.update_self]
/-- A TensorCore reference other than the two results keeps its contents. -/
theorem scPut_of_ref_ne {r : Ref sig .tc} (h0 : r ≠ main_v45_0) (h1 : r ≠ main_v45_1) :
    scPut W e2v sov (Proc.devRef .tc r) = W (Proc.devRef .tc r) :=
  scPut_of_ne W e2v sov (devRef_ne_of_ne h0) (devRef_ne_of_ne h1)

end Put

section Held

variable {Ix : Type} [DecidableEq Ix] {Name : Type} [DecidableEq Name] {U : Type} [URA U] {Lvl : Type}

local notation "𝕄" => MT nD τ sig Ix (Elt F) Name U Lvl

theorem sep_assoc_eq (P Q R : sProp 𝕄) : iprop((P ∗ Q) ∗ R) = iprop(P ∗ (Q ∗ R)) := sep_assoc.antisymm sep_assoc'

variable (d : Dev nD) (W : Valuation τ sig (Elt F))

/-- The seven buffers held at a valuation, one by one. -/
theorem held_T7 :
    (held (SparseCore.T d) T7 W : sProp 𝕄) = iprop(((SparseCore.T d).loc main_v18 ↦{fullShare} W (Proc.devRef .tc main_v18))
      ∗ ((SparseCore.T d).loc main_v21 ↦{fullShare} W (Proc.devRef .tc main_v21))
      ∗ ((SparseCore.T d).loc main_v42 ↦{fullShare} W (Proc.devRef .tc main_v42))
      ∗ ((SparseCore.T d).loc main_v44 ↦{fullShare} W (Proc.devRef .tc main_v44))
      ∗ ((SparseCore.T d).loc main_v43 ↦{fullShare} W (Proc.devRef .tc main_v43))
      ∗ ((SparseCore.T d).loc main_v45_0 ↦{fullShare} W (Proc.devRef .tc main_v45_0))
      ∗ ((SparseCore.T d).loc main_v45_1 ↦{fullShare} W (Proc.devRef .tc main_v45_1))) := by
  unfold held T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- TAKE: the unscoped buffers are the seven, one by one, and the rest. -/
theorem sc_take :
    (held (SparseCore.T d) (Pipeline.ucRefs τ sig) W : sProp 𝕄)
      = iprop(((SparseCore.T d).loc main_v18 ↦{fullShare} W (Proc.devRef .tc main_v18))
        ∗ ((SparseCore.T d).loc main_v21 ↦{fullShare} W (Proc.devRef .tc main_v21))
        ∗ ((SparseCore.T d).loc main_v42 ↦{fullShare} W (Proc.devRef .tc main_v42))
        ∗ ((SparseCore.T d).loc main_v44 ↦{fullShare} W (Proc.devRef .tc main_v44))
        ∗ ((SparseCore.T d).loc main_v43 ↦{fullShare} W (Proc.devRef .tc main_v43))
        ∗ ((SparseCore.T d).loc main_v45_0 ↦{fullShare} W (Proc.devRef .tc main_v45_0))
        ∗ ((SparseCore.T d).loc main_v45_1 ↦{fullShare} W (Proc.devRef .tc main_v45_1))
        ∗ held (SparseCore.T d) (Pipeline.ucRefs τ sig \ T7) W) := by
  rw [held_sub_split (SparseCore.T d) T7_sub W, held_T7]
  simp only [sep_assoc_eq]

variable (e2v : r450.ty.Contents (Elt F)) (sov : r451.ty.Contents (Elt F))

/-- The rest does not see the two results. -/
theorem held_rest_scPut :
    (held (SparseCore.T d) (Pipeline.ucRefs τ sig \ T7) (scPut W e2v sov) : sProp 𝕄) = held (SparseCore.T d) (Pipeline.ucRefs τ sig \ T7) W :=
  held_congr (SparseCore.T d) fun b hb => by
    have hn : b ∉ T7 := (Finset.mem_sdiff.mp hb).2
    refine scPut_of_ne W e2v sov (fun e => hn ?_) (fun e => hn ?_) <;> (rw [e]; decide)

/-- PUT: after the call the five operands as they were, the two results at what the call left, and the rest, are the
    unscoped buffers held at the updated valuation. -/
theorem sc_put :
    iprop(((SparseCore.T d).loc main_v18 ↦{fullShare} W (Proc.devRef .tc main_v18))
        ∗ ((SparseCore.T d).loc main_v21 ↦{fullShare} W (Proc.devRef .tc main_v21))
        ∗ ((SparseCore.T d).loc main_v42 ↦{fullShare} W (Proc.devRef .tc main_v42))
        ∗ ((SparseCore.T d).loc main_v44 ↦{fullShare} W (Proc.devRef .tc main_v44))
        ∗ ((SparseCore.T d).loc main_v43 ↦{fullShare} W (Proc.devRef .tc main_v43))
        ∗ ((SparseCore.T d).loc main_v45_0 ↦{fullShare} e2v) ∗ ((SparseCore.T d).loc main_v45_1 ↦{fullShare} sov)
        ∗ held (SparseCore.T d) (Pipeline.ucRefs τ sig \ T7) W)
      = (held (SparseCore.T d) (Pipeline.ucRefs τ sig) (scPut W e2v sov) : sProp 𝕄) := by
  rw [sc_take d (scPut W e2v sov), held_rest_scPut,
    scPut_of_ref_ne W e2v sov (r := main_v18) (by decide) (by decide), scPut_of_ref_ne W e2v sov (r := main_v21) (by decide) (by decide),
    scPut_of_ref_ne W e2v sov (r := main_v42) (by decide) (by decide), scPut_of_ref_ne W e2v sov (r := main_v44) (by decide) (by decide),
    scPut_of_ref_ne W e2v sov (r := main_v43) (by decide) (by decide)]
  rw [show scPut W e2v sov (Proc.devRef .tc main_v45_0) = e2v from scPut_e2 W e2v sov,
    show scPut W e2v sov (Proc.devRef .tc main_v45_1) = sov from scPut_so W e2v sov]

/-! ## The claim's twelve buffers -/

/-- The eleven arguments and the result. -/
abbrev FINset : Finset (DevRef τ sig) := {Proc.devRef .tc (main_arg0 : Ref sig .tc), Proc.devRef .tc (main_arg1 : Ref sig .tc), Proc.devRef .tc (main_arg2 : Ref sig .tc), Proc.devRef .tc (main_arg3 : Ref sig .tc), Proc.devRef .tc (main_arg4 : Ref sig .tc), Proc.devRef .tc (main_arg5 : Ref sig .tc), Proc.devRef .tc (main_arg6 : Ref sig .tc), Proc.devRef .tc (main_arg7 : Ref sig .tc), Proc.devRef .tc (main_arg8 : Ref sig .tc), Proc.devRef .tc (main_arg9 : Ref sig .tc), Proc.devRef .tc (main_arg10 : Ref sig .tc), Proc.devRef .tc (main_v49 : Ref sig .tc)}

theorem FINset_sub : FINset ⊆ Pipeline.ucRefs τ sig := by
  intro b hb
  simp only [FINset, Finset.mem_insert, Finset.mem_singleton] at hb
  rcases hb with rfl | rfl | rfl | rfl | rfl | rfl | rfl | rfl | rfl | rfl | rfl | rfl <;> exact mem_ucRefs _ rfl

/-- The unscoped buffers are the twelve and the rest. -/
theorem fin_take :
    (held (SparseCore.T d) (Pipeline.ucRefs τ sig) W : sProp 𝕄)
      = iprop(held (SparseCore.T d) FINset W ∗ held (SparseCore.T d) (Pipeline.ucRefs τ sig \ FINset) W) :=
  held_sub_split (SparseCore.T d) FINset_sub W

/-- The twelve buffers held at a valuation, one by one. -/
theorem held_FINset :
    (held (SparseCore.T d) FINset W : sProp 𝕄) = iprop(((SparseCore.T d).loc main_arg0 ↦{fullShare} W (Proc.devRef .tc main_arg0))
      ∗ ((SparseCore.T d).loc main_arg1 ↦{fullShare} W (Proc.devRef .tc main_arg1))
      ∗ ((SparseCore.T d).loc main_arg2 ↦{fullShare} W (Proc.devRef .tc main_arg2))
      ∗ ((SparseCore.T d).loc main_arg3 ↦{fullShare} W (Proc.devRef .tc main_arg3))
      ∗ ((SparseCore.T d).loc main_arg4 ↦{fullShare} W (Proc.devRef .tc main_arg4))
      ∗ ((SparseCore.T d).loc main_arg5 ↦{fullShare} W (Proc.devRef .tc main_arg5))
      ∗ ((SparseCore.T d).loc main_arg6 ↦{fullShare} W (Proc.devRef .tc main_arg6))
      ∗ ((SparseCore.T d).loc main_arg7 ↦{fullShare} W (Proc.devRef .tc main_arg7))
      ∗ ((SparseCore.T d).loc main_arg8 ↦{fullShare} W (Proc.devRef .tc main_arg8))
      ∗ ((SparseCore.T d).loc main_arg9 ↦{fullShare} W (Proc.devRef .tc main_arg9))
      ∗ ((SparseCore.T d).loc main_arg10 ↦{fullShare} W (Proc.devRef .tc main_arg10))
      ∗ ((SparseCore.T d).loc main_v49 ↦{fullShare} W (Proc.devRef .tc main_v49))) := by
  unfold held FINset
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Held

/-! ## The TensorCore call's eleven buffers -/

section TcRegion

variable {Ix : Type} [DecidableEq Ix] {Name : Type} [DecidableEq Name] {U : Type} [URA U] {Lvl : Type}

local notation "𝕄" => MT nD τ sig Ix (Elt F) Name U Lvl

abbrev r49 : DevRef τ sig := Proc.devRef .tc (main_v49 : Ref sig .tc)

/-- The eleven buffers of the TensorCore call, in the order of its operands, the result last. -/
abbrev T11 : Finset (DevRef τ sig) := {Proc.devRef .tc (main_v45_0 : Ref sig .tc), Proc.devRef .tc (main_v23 : Ref sig .tc), Proc.devRef .tc (main_v46 : Ref sig .tc), Proc.devRef .tc (main_v29 : Ref sig .tc), Proc.devRef .tc (main_v27 : Ref sig .tc), Proc.devRef .tc (main_v39 : Ref sig .tc), Proc.devRef .tc (main_v40 : Ref sig .tc), Proc.devRef .tc (main_v47 : Ref sig .tc), Proc.devRef .tc (main_v41 : Ref sig .tc), Proc.devRef .tc (main_v48 : Ref sig .tc), Proc.devRef .tc (main_v49 : Ref sig .tc)}

theorem T11_sub : T11 ⊆ Pipeline.ucRefs τ sig := by
  intro b hb
  simp only [T11, Finset.mem_insert, Finset.mem_singleton] at hb
  rcases hb with rfl | rfl | rfl | rfl | rfl | rfl | rfl | rfl | rfl | rfl | rfl <;> exact mem_ucRefs _ rfl

variable (d : Dev nD) (Wv : Valuation τ sig (Elt F))

/-- The eleven buffers held at a valuation, one by one. -/
theorem held_T11 :
    (held (SparseCore.T d) T11 Wv : sProp 𝕄) = iprop(((SparseCore.T d).loc main_v45_0 ↦{fullShare} Wv (Proc.devRef .tc main_v45_0))
      ∗ ((SparseCore.T d).loc main_v23 ↦{fullShare} Wv (Proc.devRef .tc main_v23))
      ∗ ((SparseCore.T d).loc main_v46 ↦{fullShare} Wv (Proc.devRef .tc main_v46))
      ∗ ((SparseCore.T d).loc main_v29 ↦{fullShare} Wv (Proc.devRef .tc main_v29))
      ∗ ((SparseCore.T d).loc main_v27 ↦{fullShare} Wv (Proc.devRef .tc main_v27))
      ∗ ((SparseCore.T d).loc main_v39 ↦{fullShare} Wv (Proc.devRef .tc main_v39))
      ∗ ((SparseCore.T d).loc main_v40 ↦{fullShare} Wv (Proc.devRef .tc main_v40))
      ∗ ((SparseCore.T d).loc main_v47 ↦{fullShare} Wv (Proc.devRef .tc main_v47))
      ∗ ((SparseCore.T d).loc main_v41 ↦{fullShare} Wv (Proc.devRef .tc main_v41))
      ∗ ((SparseCore.T d).loc main_v48 ↦{fullShare} Wv (Proc.devRef .tc main_v48))
      ∗ ((SparseCore.T d).loc main_v49 ↦{fullShare} Wv (Proc.devRef .tc main_v49))) := by
  unfold held T11
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- TAKE: the unscoped buffers are the eleven, one by one, and the rest. -/
theorem tc_take :
    (held (SparseCore.T d) (Pipeline.ucRefs τ sig) Wv : sProp 𝕄)
      = iprop(((SparseCore.T d).loc main_v45_0 ↦{fullShare} Wv (Proc.devRef .tc main_v45_0))
        ∗ ((SparseCore.T d).loc main_v23 ↦{fullShare} Wv (Proc.devRef .tc main_v23))
        ∗ ((SparseCore.T d).loc main_v46 ↦{fullShare} Wv (Proc.devRef .tc main_v46))
        ∗ ((SparseCore.T d).loc main_v29 ↦{fullShare} Wv (Proc.devRef .tc main_v29))
        ∗ ((SparseCore.T d).loc main_v27 ↦{fullShare} Wv (Proc.devRef .tc main_v27))
        ∗ ((SparseCore.T d).loc main_v39 ↦{fullShare} Wv (Proc.devRef .tc main_v39))
        ∗ ((SparseCore.T d).loc main_v40 ↦{fullShare} Wv (Proc.devRef .tc main_v40))
        ∗ ((SparseCore.T d).loc main_v47 ↦{fullShare} Wv (Proc.devRef .tc main_v47))
        ∗ ((SparseCore.T d).loc main_v41 ↦{fullShare} Wv (Proc.devRef .tc main_v41))
        ∗ ((SparseCore.T d).loc main_v48 ↦{fullShare} Wv (Proc.devRef .tc main_v48))
        ∗ ((SparseCore.T d).loc main_v49 ↦{fullShare} Wv (Proc.devRef .tc main_v49))
        ∗ held (SparseCore.T d) (Pipeline.ucRefs τ sig \ T11) Wv) := by
  rw [held_sub_split (SparseCore.T d) T11_sub Wv, held_T11]
  simp only [sep_assoc_eq]

/-- A valuation with the call's result replaced. -/
def tcPut (Wv : Valuation τ sig (Elt F)) (out : r49.ty.Contents (Elt F)) : Valuation τ sig (Elt F) := Function.update Wv r49 out

variable (out : r49.ty.Contents (Elt F))

theorem tcPut_out : tcPut Wv out r49 = out := Function.update_self _ _ _
theorem tcPut_of_ne {b : DevRef τ sig} (h : b ≠ r49) : tcPut Wv out b = Wv b := Function.update_of_ne h _ _
theorem tcPut_of_ref_ne {r : Ref sig .tc} (h : r ≠ main_v49) : tcPut Wv out (Proc.devRef .tc r) = Wv (Proc.devRef .tc r) :=
  tcPut_of_ne Wv out (devRef_ne_of_ne h)

theorem held_rest_tcPut :
    (held (SparseCore.T d) (Pipeline.ucRefs τ sig \ T11) (tcPut Wv out) : sProp 𝕄) = held (SparseCore.T d) (Pipeline.ucRefs τ sig \ T11) Wv :=
  held_congr (SparseCore.T d) fun b hb => by
    have hn : b ∉ T11 := (Finset.mem_sdiff.mp hb).2
    refine tcPut_of_ne Wv out (fun e => hn ?_)
    rw [e]; decide

/-- PUT: after the call the ten operands as they were, the result at what the call left, and the rest, are the
    unscoped buffers held at the updated valuation. -/
theorem tc_put :
    iprop(((SparseCore.T d).loc main_v45_0 ↦{fullShare} Wv (Proc.devRef .tc main_v45_0))
        ∗ ((SparseCore.T d).loc main_v23 ↦{fullShare} Wv (Proc.devRef .tc main_v23))
        ∗ ((SparseCore.T d).loc main_v46 ↦{fullShare} Wv (Proc.devRef .tc main_v46))
        ∗ ((SparseCore.T d).loc main_v29 ↦{fullShare} Wv (Proc.devRef .tc main_v29))
        ∗ ((SparseCore.T d).loc main_v27 ↦{fullShare} Wv (Proc.devRef .tc main_v27))
        ∗ ((SparseCore.T d).loc main_v39 ↦{fullShare} Wv (Proc.devRef .tc main_v39))
        ∗ ((SparseCore.T d).loc main_v40 ↦{fullShare} Wv (Proc.devRef .tc main_v40))
        ∗ ((SparseCore.T d).loc main_v47 ↦{fullShare} Wv (Proc.devRef .tc main_v47))
        ∗ ((SparseCore.T d).loc main_v41 ↦{fullShare} Wv (Proc.devRef .tc main_v41))
        ∗ ((SparseCore.T d).loc main_v48 ↦{fullShare} Wv (Proc.devRef .tc main_v48))
        ∗ ((SparseCore.T d).loc main_v49 ↦{fullShare} out)
        ∗ held (SparseCore.T d) (Pipeline.ucRefs τ sig \ T11) Wv)
      = (held (SparseCore.T d) (Pipeline.ucRefs τ sig) (tcPut Wv out) : sProp 𝕄) := by
  rw [tc_take d (tcPut Wv out), held_rest_tcPut,
    tcPut_of_ref_ne Wv out (r := main_v45_0) (by decide), tcPut_of_ref_ne Wv out (r := main_v23) (by decide), tcPut_of_ref_ne Wv out (r := main_v46) (by decide), tcPut_of_ref_ne Wv out (r := main_v29) (by decide), tcPut_of_ref_ne Wv out (r := main_v27) (by decide), tcPut_of_ref_ne Wv out (r := main_v39) (by decide), tcPut_of_ref_ne Wv out (r := main_v40) (by decide), tcPut_of_ref_ne Wv out (r := main_v47) (by decide), tcPut_of_ref_ne Wv out (r := main_v41) (by decide), tcPut_of_ref_ne Wv out (r := main_v48) (by decide)]
  rw [show tcPut Wv out (Proc.devRef .tc main_v49) = out from tcPut_out Wv out]

end TcRegion

/-! ## The composite valuation: first list, call, second list -/

section Composite

variable [FloatOps F] (m : (ℓ : Loc nD τ sig) → Buf (Elt F) ℓ) (d : Dev nD)
  (e2v : r450.ty.Contents (Elt F)) (sov : r451.ty.Contents (Elt F))

/-- The valuation once the first list, the SparseCore call (leaving `e2v`, `sov`) and the second list have run. -/
abbrev Wc : Valuation τ sig (Elt F) := after hostOps1 (scPut (after hostOps0 (V0 m d)) e2v sov)

/-- A buffer neither list writes, other than the call's results, holds its launch contents. -/
theorem Wc_untouched (r : Ref sig .tc) (h0 : r ∉ written0) (h1 : r ∉ written1) (h2 : r ≠ main_v45_0) (h3 : r ≠ main_v45_1) :
    Wc m d e2v sov (Proc.devRef .tc r) = m ((SparseCore.T d).loc r) := by
  unfold Wc
  rw [after1_of_not_written _ r h1, scPut_of_ref_ne _ _ _ h2 h3, after0_of_not_written _ r h0]

theorem Wc_arg0 : Wc m d e2v sov (Proc.devRef .tc main_arg0) = m ((SparseCore.T d).loc main_arg0) :=
  Wc_untouched m d e2v sov main_arg0 (by decide) (by decide) (by decide) (by decide)
theorem Wc_arg1 : Wc m d e2v sov (Proc.devRef .tc main_arg1) = m ((SparseCore.T d).loc main_arg1) :=
  Wc_untouched m d e2v sov main_arg1 (by decide) (by decide) (by decide) (by decide)
theorem Wc_arg2 : Wc m d e2v sov (Proc.devRef .tc main_arg2) = m ((SparseCore.T d).loc main_arg2) :=
  Wc_untouched m d e2v sov main_arg2 (by decide) (by decide) (by decide) (by decide)
theorem Wc_arg3 : Wc m d e2v sov (Proc.devRef .tc main_arg3) = m ((SparseCore.T d).loc main_arg3) :=
  Wc_untouched m d e2v sov main_arg3 (by decide) (by decide) (by decide) (by decide)
theorem Wc_arg4 : Wc m d e2v sov (Proc.devRef .tc main_arg4) = m ((SparseCore.T d).loc main_arg4) :=
  Wc_untouched m d e2v sov main_arg4 (by decide) (by decide) (by decide) (by decide)
theorem Wc_arg5 : Wc m d e2v sov (Proc.devRef .tc main_arg5) = m ((SparseCore.T d).loc main_arg5) :=
  Wc_untouched m d e2v sov main_arg5 (by decide) (by decide) (by decide) (by decide)
theorem Wc_arg6 : Wc m d e2v sov (Proc.devRef .tc main_arg6) = m ((SparseCore.T d).loc main_arg6) :=
  Wc_untouched m d e2v sov main_arg6 (by decide) (by decide) (by decide) (by decide)
theorem Wc_arg7 : Wc m d e2v sov (Proc.devRef .tc main_arg7) = m ((SparseCore.T d).loc main_arg7) :=
  Wc_untouched m d e2v sov main_arg7 (by decide) (by decide) (by decide) (by decide)
theorem Wc_arg8 : Wc m d e2v sov (Proc.devRef .tc main_arg8) = m ((SparseCore.T d).loc main_arg8) :=
  Wc_untouched m d e2v sov main_arg8 (by decide) (by decide) (by decide) (by decide)
theorem Wc_arg9 : Wc m d e2v sov (Proc.devRef .tc main_arg9) = m ((SparseCore.T d).loc main_arg9) :=
  Wc_untouched m d e2v sov main_arg9 (by decide) (by decide) (by decide) (by decide)
theorem Wc_arg10 : Wc m d e2v sov (Proc.devRef .tc main_arg10) = m ((SparseCore.T d).loc main_arg10) :=
  Wc_untouched m d e2v sov main_arg10 (by decide) (by decide) (by decide) (by decide)

/-- A buffer the first list writes and nothing later touches holds the first list's value. -/
theorem Wc_of_first (r : Ref sig .tc) (h1 : r ∉ written1) (h2 : r ≠ main_v45_0) (h3 : r ≠ main_v45_1) :
    Wc m d e2v sov (Proc.devRef .tc r) = after hostOps0 (V0 m d) (Proc.devRef .tc r) := by
  unfold Wc
  rw [after1_of_not_written _ r h1, scPut_of_ref_ne _ _ _ h2 h3]

/-- The TensorCore call's operands under the composite valuation. -/
theorem Wc_v45_0 : Wc m d e2v sov (Proc.devRef .tc main_v45_0) = e2v := by
  unfold Wc; rw [after1_of_not_written _ main_v45_0 (by decide)]; exact scPut_e2 _ _ _
theorem Wc_v23 : Wc m d e2v sov (Proc.devRef .tc main_v23) = v23T (F := F) (m ((SparseCore.T d).loc main_arg1)) := by
  rw [Wc_of_first m d e2v sov main_v23 (by decide) (by decide) (by decide), after0_v23]
theorem Wc_v46 : Wc m d e2v sov (Proc.devRef .tc main_v46) = shapeCast S4096x32 sov shapeCasts_S131072_S4096x32 := by
  unfold Wc; rw [after1_v46]; exact congrArg (fun x => shapeCast S4096x32 x shapeCasts_S131072_S4096x32) (scPut_so _ _ _)
theorem Wc_v29 : Wc m d e2v sov (Proc.devRef .tc main_v29) = v29T (F := F) (m ((SparseCore.T d).loc main_arg5)) := by
  rw [Wc_of_first m d e2v sov main_v29 (by decide) (by decide) (by decide), after0_v29]
theorem Wc_v27 : Wc m d e2v sov (Proc.devRef .tc main_v27) = v27T (F := F) (m ((SparseCore.T d).loc main_arg5)) := by
  rw [Wc_of_first m d e2v sov main_v27 (by decide) (by decide) (by decide), after0_v27]
theorem Wc_v39 : Wc m d e2v sov (Proc.devRef .tc main_v39)
    = v39T (F := F) (m ((SparseCore.T d).loc main_arg6)) (m ((SparseCore.T d).loc main_arg2)) (m ((SparseCore.T d).loc main_arg5)) := by
  rw [Wc_of_first m d e2v sov main_v39 (by decide) (by decide) (by decide), after0_v39]
theorem Wc_v40 : Wc m d e2v sov (Proc.devRef .tc main_v40) = v40T (F := F) (m ((SparseCore.T d).loc main_arg7)) := by
  rw [Wc_of_first m d e2v sov main_v40 (by decide) (by decide) (by decide), after0_v40]
theorem Wc_v41 : Wc m d e2v sov (Proc.devRef .tc main_v41) = v41T (F := F) (m ((SparseCore.T d).loc main_arg9)) := by
  rw [Wc_of_first m d e2v sov main_v41 (by decide) (by decide) (by decide), after0_v41]
theorem Wc_v47 : Wc m d e2v sov (Proc.devRef .tc main_v47) = shapeCast S1x512 (m ((SparseCore.T d).loc main_arg8)) shapeCasts_S512_S1x512 := by
  unfold Wc
  rw [after1_v47, scPut_of_ref_ne _ _ _ (r := main_arg8) (by decide) (by decide), after0_of_not_written _ main_arg8 (by decide)]
theorem Wc_v48 : Wc m d e2v sov (Proc.devRef .tc main_v48) = shapeCast S1x1 (m ((SparseCore.T d).loc main_arg10)) shapeCasts_S1_S1x1 := by
  unfold Wc
  rw [after1_v48, scPut_of_ref_ne _ _ _ (r := main_arg10) (by decide) (by decide), after0_of_not_written _ main_arg10 (by decide)]

/-- The SparseCore call's operands under the valuation after the first list. -/
theorem W0_v18 : after hostOps0 (V0 m d) (Proc.devRef .tc main_v18) = v18T (F := F) (m ((SparseCore.T d).loc main_arg4)) := after0_v18 _
theorem W0_v21 : after hostOps0 (V0 m d) (Proc.devRef .tc main_v21) = v21T (F := F) (m ((SparseCore.T d).loc main_arg3)) := after0_v21 _
theorem W0_v42 : after hostOps0 (V0 m d) (Proc.devRef .tc main_v42) = v42T (m ((SparseCore.T d).loc main_arg0)) := after0_v42 _
theorem W0_v43 : after hostOps0 (V0 m d) (Proc.devRef .tc main_v43) = v43T (m ((SparseCore.T d).loc main_arg0)) := after0_v43 _
theorem W0_v44 : after hostOps0 (V0 m d) (Proc.devRef .tc main_v44) = v44T (F := F) (m ((SparseCore.T d).loc main_arg1)) := after0_v44 _

end Composite

/-! ## The three reshapes after the call, read at an index -/

section Reshapes
variable {α : Type}

/-- The 131072-vector as a 4096 x 32 array: entry (b, f) is entry b*32 + f. -/
theorem reshape46_apply (x : S131072.Idx → α) (b : Fin 4096) (f : Fin 32) :
    shapeCast S4096x32 x shapeCasts_S131072_S4096x32 (ix2 b f) = x (ix1 ⟨b.val * 32 + f.val, by omega⟩) :=
  shapeCast_apply x _ (ix2 b f) (ix1 ⟨b.val * 32 + f.val, by omega⟩) (by
    rw [Shape.rowMajor_val_one, Shape.rowMajor_val_two]
    show b.val * 32 + f.val = b.val * 32 + f.val
    rfl)

theorem reshape47_apply (x : S512.Idx → α) (u : Fin 1) (j : Fin 512) :
    shapeCast S1x512 x shapeCasts_S512_S1x512 (ix2 u j) = x (ix1 j) :=
  shapeCast_apply x _ (ix2 u j) (ix1 j) (by
    rw [Shape.rowMajor_val_one, Shape.rowMajor_val_two]
    show j.val = u.val * 512 + j.val
    omega)

theorem reshape48_apply (x : S1.Idx → α) (u v : Fin 1) :
    shapeCast S1x1 x shapeCasts_S1_S1x1 (ix2 u v) = x (ix1 u0) :=
  shapeCast_apply x _ (ix2 u v) (ix1 u0) (by
    rw [Shape.rowMajor_val_one, Shape.rowMajor_val_two]
    show 0 = u.val * 1 + v.val
    omega)

end Reshapes

end Cert.Proof.HostGlue

end
-- ==== Proof.LaunchMain.lean ====
/-
  @main on the TensorCore: the host operations before the SparseCore call; the call, whose seven arrays are dealt to the
  thirty-two tasks and collected again, the two results at their values; the three reshapes after it; the TensorCore
  region; and what is left in hand at the end: the eleven arguments at their launch contents and the result at its value.
-/
import proofs.«207592_g65111704207794_cont_9to1_m_407_36_alg».proof.Proof.LaunchVals
import proofs.«207592_g65111704207794_cont_9to1_m_407_36_alg».proof.Proof.HostGlue

noncomputable section

namespace Cert.Proof.KI

open Cert.KernelIdeal Cert.KernelIdeal.Gen
open Cert.Proof.ScSpec (E2 SS)
open Cert.Proof.ScViews (tLoc i2Loc isLoc wfLoc xvLoc e2Loc soLoc GO TD)
open Cert.Proof.HostOps (hostOps0 hostOps1 V0 mainRest main_eq unscopedBufs_V0 wp_hostOps0 wp_hostOps1)
open Cert.Proof.HostGlue (scPut sc_take sc_put FINset fin_take)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)
open Cert.Proof.TcAlg (UH UU EH EP Gd)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tasks' shares at the launch memory's contents -/

abbrev GOm (d : Dev nD) (L : grid0.Coords) : sProp (MT nD τ sig (HIx 1) (Elt F) ℕ UU ℕ) := GOt d (cTb m d) (cI2 m d) (cIS m d) (cWF m d) (cXV m d) L
abbrev TDm (d : Dev nD) (L : grid0.Coords) : sProp (MT nD τ sig (HIx 1) (Elt F) ℕ UU ℕ) := TDt d (cTb m d) (cI2 m d) (cIS m d) (cWF m d) (cXV m d) L

/-- What the handshakes carry. -/
abbrev PM : (K (F := F)).Pay (nD := nD) (Val := Elt F) (Name := ℕ) (U := UU) := P (GOof (GOm m)) (TDof (TDm m))

/-- The two results of the call, as whole-array functions of the arrays it read. -/
abbrev cE2 (d : Dev nD) : Buf (Elt F) (e2Loc d) := E2 (cTb m d) (cI2 m d) (cXV m d)
abbrev cSS (d : Dev nD) : Buf (Elt F) (soLoc d) := SS (cIS m d) (cWF m d)

/-- The arrays after the call, and after the reshapes that follow it. -/
abbrev W2 (d : Dev nD) : Valuation τ sig (Elt F) := scPut (W1 m d) (cE2 m d) (cSS m d)
abbrev W3 (d : Dev nD) : Valuation τ sig (Elt F) := after hostOps1 (W2 m d)

/-- @main's last statement: the TensorCore region. -/
abbrev callTc : Prog (TpuEff nD τ sig (Elt F) (SparseCore.Sig (ΛP (F := F)) 1) .tc) PUnit :=
  Prog.lift (.customCall (SparseCore.inner (Pipeline.entry 0)) ())

variable (OutAll : Valuation τ sig (Elt F) → (Proc.devRef (τ := τ) .tc (main_v49 : Ref sig .tc)).ty.Contents (Elt F))

/-- The TensorCore region over the buffers as @main holds them: the result array ends at `OutAll` of the arrays at
    entry, everything else as it was. -/
def RegionHeld : Prop :=
  ∀ (κ : GSem nD τ sig → ℕ) (d : Dev nD) (Wv : Valuation τ sig (Elt F)) (Φ : PUnit → sProp (MT nD τ sig (HIx 1) (Elt F) ℕ UU ℕ)),
    iprop((K (F := F)).ctx EH (PM m) κ ∗ (K (F := F)).tcSt EH d 1 ∗ boundary (T d) ∗ (held (T d) (Pipeline.ucRefs τ sig) Wv : sProp 𝕄) ∗ Gd (F := F) d
        ∗ (iprop((K (F := F)).tcSt EH d 1 ∗ boundary (T d)
            ∗ (held (T d) (Pipeline.ucRefs τ sig) (Function.update Wv (Proc.devRef .tc main_v49) (OutAll Wv)) : sProp 𝕄)) -∗ Φ ⟨⟩))
      ⊢ wp frame (wpE ((K (F := F)).defs (D (F := F))) 𝒱 (T d) none) Set.univ (callTc (F := F)) Φ

/-- The arrays at the end of @main. -/
abbrev W4 (d : Dev nD) : Valuation τ sig (Elt F) := Function.update (W3 m d) (Proc.devRef .tc main_v49) (OutAll (W3 m d))

/-- What @main leaves the claim: the arguments and the result, held at the final valuation. -/
abbrev FIN (d : Dev nD) : sProp (MT nD τ sig (HIx 1) (Elt F) ℕ UU ℕ) := held (T d) FINset (W4 m OutAll d)

theorem bigSep_tiles (Φ : grid0.Coords → sProp 𝕄) :
    (bigSep Finset.univ fun c : Fin 2 => bigSep Finset.univ fun i : Fin 16 => Φ (coordsV c i)) = bigSep Finset.univ fun t : TI => Φ (LL t) :=
  (bigSep_univ_prod (fun t : TI => Φ (LL t))).symm

set_option maxRecDepth 16384 in
/-- @main on device `d`'s TensorCore. -/
theorem hmain (hreg : RegionHeld m OutAll) (κ : GSem nD τ sig → ℕ) (d : Dev nD) :
    iprop((K (F := F)).ctx EH (PM m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m OutAll d) := by
  unfold SparseCore.Cfg.tcRes
  rw [unscopedBufs_V0, main_eq]
  iintro ⟨#Hctx, Hst, ⟨Hb, Hheld, -, -⟩, HG⟩
  -- the host operations before the call
  iapply (wp_hostOps0 𝒱 none Set.univ d _ (V0 m d)) $$ [Hb Hheld]
  · isplitl [Hb] <;> iassumption
  iintro ⟨Hb, Hheld⟩
  unfold mainRest
  rw [wp_bind]
  -- the call's seven arrays out of the rest, dealt to the tasks
  ihave H7 := (Entails.of_eq (sc_take (F := F) d (W1 m d))) $$ Hheld
  icases H7 with ⟨Ht, Hw, Hi2, Hxv, His, He2, Hso, Hrest⟩
  ihave Hsp := (scSplitTI d (cTb m d) (cI2 m d) (cIS m d) (cWF m d) (cXV m d) _ _) $$ [Ht Hw Hi2 Hxv His He2 Hso]
  · isplitl [Ht]; · iexact Ht
    isplitl [Hw]; · iexact Hw
    isplitl [Hi2]; · iexact Hi2
    isplitl [Hxv]; · iexact Hxv
    isplitl [His]; · iexact His
    isplitl [He2]; · iexact He2
    iexact Hso
  icases Hsp with ⟨Hgo, Htr, Hwr⟩
  iapply ((K (F := F)).wp_run (D (F := F)) 𝒱 (EH := EH) (P := PM m) κ d 0) $$ [Hst Hgo Hb Hrest Htr Hwr HG]
  isplitr; · iexact Hctx
  isplitl [Hst]; · iexact Hst
  isplitl [Hgo]
  · rw [st0_eq, bigSep_tiles (F := F) (GOm m d)]
    iexact Hgo
  iintro ⟨Hst, Hdn⟩
  ihave Hdn' := (Entails.of_eq ((dn0_eq (F := F) (GOof (GOm m)) (TDof (TDm m)) d).trans (bigSep_tiles (F := F) (TDm m d)))) $$ Hdn
  ihave Hj := (scJoinTI d (cTb m d) (cI2 m d) (cIS m d) (cWF m d) (cXV m d)) $$ [Hdn' Htr Hwr]
  · isplitl [Hdn']; · iexact Hdn'
    isplitl [Htr] <;> iassumption
  icases Hj with ⟨Ht, Hw, Hi2, Hxv, His, He2, Hso⟩
  ihave Hheld := (Entails.of_eq (sc_put (F := F) d (W1 m d) (cE2 m d) (cSS m d))) $$ [Ht Hw Hi2 Hxv His He2 Hso Hrest]
  · isplitl [Ht]; · iexact Ht
    isplitl [Hw]; · iexact Hw
    isplitl [Hi2]; · iexact Hi2
    isplitl [Hxv]; · iexact Hxv
    isplitl [His]; · iexact His
    isplitl [He2]; · iexact He2
    isplitl [Hso]; · iexact Hso
    iexact Hrest
  -- the reshapes after the call
  iapply (wp_hostOps1 𝒱 none Set.univ d _ (W2 m d)) $$ [Hb Hheld]
  · isplitl [Hb] <;> iassumption
  iintro ⟨Hb, Hheld⟩
  -- the TensorCore region
  rw [wp_bind]
  iapply (hreg κ d (W3 m d)) $$ [Hst Hb Hheld HG]
  isplitr; · iexact Hctx
  isplitl [Hst]; · iexact Hst
  isplitl [Hb]; · iexact Hb
  isplitl [Hheld]; · iexact Hheld
  isplitl [HG]; · iexact HG
  iintro ⟨Hst, Hb, Hheld⟩
  rw [wp_pure]
  ihave Hf := (Entails.of_eq (fin_take (F := F) d (W4 m OutAll d))) $$ Hheld
  icases Hf with ⟨Hfin, -⟩
  imodintro
  isplitl [Hst]; · iexact Hst
  iexact Hfin

end Cert.Proof.KI

end
-- ==== Proof.LaunchRun.lean ====
/-
  The program's run: from the proof of one task, the region and @main, every weakly fair execution of the device's
  threads terminates, and in the final memory the eleven arguments hold their launch contents and the result array the
  value @main's last valuation names.
-/
import proofs.«207592_g65111704207794_cont_9to1_m_407_36_alg».proof.Proof.LaunchMain

noncomputable section

namespace Cert.Proof.KI

open Cert.KernelIdeal Cert.KernelIdeal.Gen
open Cert.Proof.HostGlue (FINset)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)
open Cert.Proof.TcAlg (UH UU EH EP Gd)

variable {F : FTy → Type} [FloatOps F]

local notation "𝕄" => MT nD τ sig (HIx 1) (Elt F) ℕ UU ℕ

variable (m : (ℓ : Loc nD τ sig) → Buf (Elt F) ℓ) (ρ : Dev nD → PrngReg)
variable (OutAll : Valuation τ sig (Elt F) → (Proc.devRef (τ := τ) .tc (main_v49 : Ref sig .tc)).ty.Contents (Elt F))

/-- The final memory of device `d` holds the twelve buffers at the final valuation. -/
def fq (d : Dev nD) (s' : Phys nD τ sig (Elt F)) : Prop := ∀ b ∈ (FINset : Finset (DevRef τ sig)), s'.mem.mem (d, b) = W4 m OutAll d b

theorem hfin (d : Dev nD) (s' : Phys nD τ sig (Elt F)) : iprop(FIN m OutAll d ∗ SI s') ⊢ (⌜fq m OutAll d s'⌝ : sProp 𝕄) :=
  held_agree (F := F) (T d) FINset (W4 m OutAll d) s'

def QC : PUnit × MemSt nD τ sig (Elt F) → Prop := fun r => ∀ c : Dev nD, ∀ b ∈ (FINset : Finset (DevRef τ sig)), r.2.mem (c, b) = W4 m OutAll c b

theorem run_main [∀ e, Nonempty (Elt F e)] (hbody : TileBody (F := F) (GOm m) (TDm m)) (hreg : RegionHeld m OutAll) :
    θ_run (Cert.KernelIdeal.defs (F := F)) (Cert.KernelIdeal.threads (F := F)) ⟨m, fun _ => 0, ρ⟩ (QC m OutAll) := by
  haveI : (PM m).IsStorable := P_storable (GOof (GOm m)) (TDof (TDm m)) (fun _ _ _ => inferInstance) (fun _ _ _ => inferInstance)
  exact SparseCore.Cfg.θ_run_sc (K := K (F := F)) (D := D (F := F)) (𝒱 := 𝒱) (EH := EH) (P := PM m) facts v₀
    (fun q hq => match q with | 0 => nomatch hq)
    (fun q _ => match q with | 0 => tileObl (GOm m) (TDm m) hbody)
    (fun q _ => match q with | 0 => SparseCore.Cfg.VecSplit.of_plain (vecSplit (GOof (GOm m)) (TDof (TDm m))))
    m ρ main (fun d => Gd (F := F) d) (FIN m OutAll) (Cert.Proof.TcAlg.u₀ (F := F)) (sep_elim_left.trans (hu₀ (GOof (GOm m)) (TDof (TDm m))))
    (hmain m ρ OutAll hreg) (fq m OutAll) (hfin m OutAll) (QC m OutAll) (fun _ h => h)

end Cert.Proof.KI

end
-- ==== Proof.LaunchPost.lean ====
/-
  The run's postcondition in the claim's words: the result array at the value of @main's last valuation, and each
  of the eleven argument arrays at its launch contents (no operation of @main and neither kernel writes an argument).
-/
import proofs.«207592_g65111704207794_cont_9to1_m_407_36_alg».proof.Proof.LaunchRun

noncomputable section

namespace Cert.Proof.KI

open Cert.KernelIdeal Cert.KernelIdeal.Gen
open Cert.Proof.HostGlue (FINset)

open Idealize.ShloMosaic
open Idealize.ShloMosaic.SparseCore (S V T)
open Idealize.SL.Sem

variable {F : FTy → Type} [FloatOps F]

variable (m : (ℓ : Loc nD τ sig) → Buf (Elt F) ℓ) (ρ : Dev nD → PrngReg)
variable (OutAll : Valuation τ sig (Elt F) → (Proc.devRef (τ := τ) .tc (main_v49 : Ref sig .tc)).ty.Contents (Elt F))

theorem W4_arg (d : Dev nD) (r : Ref sig .tc) (hr : r ≠ main_v49) :
    W4 m OutAll d (Proc.devRef .tc r) = W3 m d (Proc.devRef .tc r) :=
  Function.update_of_ne (Idealize.ShloMosaic.StableHlo.devRef_ne_of_ne hr) _ _

theorem W4_res (d : Dev nD) : W4 m OutAll d (Proc.devRef .tc main_v49) = OutAll (W3 m d) := Function.update_self _ _ _

/-- The claim's reading of the final memory. -/
theorem post_of_QC (r : PUnit × MemSt nD τ sig (Elt F)) (h : QC m OutAll r) (c : Dev nD) :
    r.2.mem ((c.tc : Thread nD τ).loc main_v49) = OutAll (W3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine ⟨?_, ?_, ?_, ?_, ?_, ?_, ?_, ?_, ?_, ?_, ?_, ?_⟩
  · exact (h c (Proc.devRef .tc main_v49) (by decide)).trans (W4_res m OutAll c)
  · exact (h c (Proc.devRef .tc main_arg0) (by decide)).trans ((W4_arg m OutAll c main_arg0 (by decide)).trans (Cert.Proof.HostGlue.Wc_arg0 m c _ _))
  · exact (h c (Proc.devRef .tc main_arg1) (by decide)).trans ((W4_arg m OutAll c main_arg1 (by decide)).trans (Cert.Proof.HostGlue.Wc_arg1 m c _ _))
  · exact (h c (Proc.devRef .tc main_arg2) (by decide)).trans ((W4_arg m OutAll c main_arg2 (by decide)).trans (Cert.Proof.HostGlue.Wc_arg2 m c _ _))
  · exact (h c (Proc.devRef .tc main_arg3) (by decide)).trans ((W4_arg m OutAll c main_arg3 (by decide)).trans (Cert.Proof.HostGlue.Wc_arg3 m c _ _))
  · exact (h c (Proc.devRef .tc main_arg4) (by decide)).trans ((W4_arg m OutAll c main_arg4 (by decide)).trans (Cert.Proof.HostGlue.Wc_arg4 m c _ _))
  · exact (h c (Proc.devRef .tc main_arg5) (by decide)).trans ((W4_arg m OutAll c main_arg5 (by decide)).trans (Cert.Proof.HostGlue.Wc_arg5 m c _ _))
  · exact (h c (Proc.devRef .tc main_arg6) (by decide)).trans ((W4_arg m OutAll c main_arg6 (by decide)).trans (Cert.Proof.HostGlue.Wc_arg6 m c _ _))
  · exact (h c (Proc.devRef .tc main_arg7) (by decide)).trans ((W4_arg m OutAll c main_arg7 (by decide)).trans (Cert.Proof.HostGlue.Wc_arg7 m c _ _))
  · exact (h c (Proc.devRef .tc main_arg8) (by decide)).trans ((W4_arg m OutAll c main_arg8 (by decide)).trans (Cert.Proof.HostGlue.Wc_arg8 m c _ _))
  · exact (h c (Proc.devRef .tc main_arg9) (by decide)).trans ((W4_arg m OutAll c main_arg9 (by decide)).trans (Cert.Proof.HostGlue.Wc_arg9 m c _ _))
  · exact (h c (Proc.devRef .tc main_arg10) (by decide)).trans ((W4_arg m OutAll c main_arg10 (by decide)).trans (Cert.Proof.HostGlue.Wc_arg10 m c _ _))

end Cert.Proof.KI

end
-- ==== Proof.TcBody.lean ====
/-
  The TensorCore's pipelined region: its body, at a symbolic grid point.

  The body loads each of its ten input windows' staging buffers whole — a block of 512 rows of the gathered
  second-order features, of the dense inputs and of the first-order weights, the three layers' weight matrices and
  bias rows whole, and the last bias as one word —, computes the three layers on the block's rows, loads the output
  window's staging buffer and stores the 512 results over the whole of it. So the body keeps every input buffer and
  leaves in the output buffer a pure function of the ten input blocks, `out1`. The pipeline's proof data say that, the
  body obligation is the body's triple at every point, and every input window is found at its block of its array
  whether the pipeline fetched it at the point or not.
-/
import proofs.«207592_g65111704207794_cont_9to1_m_407_36_alg».proof.Proof.Gen.KernelIdeal.Launch
import proofs.«207592_g65111704207794_cont_9to1_m_407_36_alg».proof.Proof.Gen.KernelIdeal.Skeleton
import proofs.«207592_g65111704207794_cont_9to1_m_407_36_alg».proof.Proof.Gen.KernelIdeal.Points
import proofs.«207592_g65111704207794_cont_9to1_m_407_36_alg».proof.Proof.TcAlg
import Idealize.ShloMosaic.Lib.Pipeline.FrameBody
import Idealize.ShloMosaic.Lib.Tactic

set_option maxRecDepth 16384

noncomputable section

namespace Cert.Proof.TcBody

open Cert.KernelIdeal Cert.KernelIdeal.Gen
open Cert.Proof.TcAlg
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: every window's buffer whole -/

abbrev rA : Rect S512x3328 := Rect.unit (s := S512x3328) ![0, 0] S512x3328.size inb_S512x3328_S512x3328_0_0
abbrev rB : Rect S512x32 := Rect.unit (s := S512x32) ![0, 0] S512x32.size inb_S512x32_S512x32_0_0
abbrev rC : Rect S3328x1024 := Rect.unit (s := S3328x1024) ![0, 0] S3328x1024.size inb_S3328x1024_S3328x1024_0_0
abbrev rD : Rect S32x1024 := Rect.unit (s := S32x1024) ![0, 0] S32x1024.size inb_S32x1024_S32x1024_0_0
abbrev rE : Rect S1x1024 := Rect.unit (s := S1x1024) ![0, 0] S1x1024.size inb_S1x1024_S1x1024_0_0
abbrev rG : Rect S1024x512 := Rect.unit (s := S1024x512) ![0, 0] S1024x512.size inb_S1024x512_S1024x512_0_0
abbrev rH : Rect S1x512 := Rect.unit (s := S1x512) ![0, 0] S1x512.size inb_S1x512_S1x512_0_0
abbrev rO : Rect S512x1 := Rect.unit (s := S512x1) ![0, 0] S512x1.size inb_S512x1_S512x1_0_0
abbrev rW : Rect S1x1 := Rect.unit (s := S1x1) ![0, 0] S1x1.size inb_S1x1_S1x1_0_0

/-- The one word of the scalar window: the last layer's bias. -/
def word1 (x9 : Vec F S1x1 .f32) : Elt F .f32 :=
  View.ld x9 rW (Shape.Idx.first (numel1_S1x1.symm ▸ Nat.one_pos))

/-- What the body stores, from the ten input blocks: the three layers' value on the block's rows. -/
def val1 (x0 : Vec F S512x3328 .f32) (x1 : Vec F S512x32 .f32) (x2 : Vec F S512x32 .f32) (x3 : Vec F S3328x1024 .bf16)
    (x4 : Vec F S32x1024 .bf16) (x5 : Vec F S1x1024 .f32) (x6 : Vec F S1024x512 .bf16) (x7 : Vec F S1x512 .f32)
    (x8 : Vec F S512x1 .bf16) (x9 : Vec F S1x1 .f32) : Vec F S512x1 .f32 :=
  k1_pay1 (k1_pay2 (View.ld x0 rA) (View.ld x3 rC) (View.ld x2 rB) (View.ld x1 rB) (View.ld x4 rD) (View.ld x5 rE) (View.ld x6 rG)
    (View.ld x7 rH) (View.ld x8 rO)) (word1 x9)

/-- The output window's buffer after the body: the one store, over the whole buffer. -/
def out1 [∀ e, Nonempty (Elt F e)] (x0 : Vec F S512x3328 .f32) (x1 : Vec F S512x32 .f32) (x2 : Vec F S512x32 .f32) (x3 : Vec F S3328x1024 .bf16)
    (x4 : Vec F S32x1024 .bf16) (x5 : Vec F S1x1024 .f32) (x6 : Vec F S1024x512 .bf16) (x7 : Vec F S1x512 .f32)
    (x8 : Vec F S512x1 .bf16) (x9 : Vec F S1x1 .f32) : Vec F S512x1 .f32 :=
  View.canon [⟨rO, val1 x0 x1 x2 x3 x4 x5 x6 x7 x8 x9⟩]

/-- The store covers the buffer. -/
theorem cover1 (p0 : Vec F S512x1 .f32) (y : S512x1.Idx) :
    ∃ pc ∈ ([⟨rO, p0⟩] : List (View.Piece (Elt F) S512x1 .f32)), y ∈ pc.1.set :=
  View.cover_of_tiled [⟨rO, p0⟩] S512x1.size (by rfl) y

set_option maxHeartbeats 1000000 in
theorem sound_kernel [∀ e, Nonempty (Elt F e)] (c : Dev nD) (E : Set ℕ) (i : grid1.Coords)
    (arg1 : Memref sig .tc .vmem S512x3328 .f32) (harg1 : arg1.IsWhole) (arg2 : Memref sig .tc .vmem S512x32 .f32) (harg2 : arg2.IsWhole)
    (arg3 : Memref sig .tc .vmem S512x32 .f32) (harg3 : arg3.IsWhole) (arg4 : Memref sig .tc .vmem S3328x1024 .bf16) (harg4 : arg4.IsWhole)
    (arg5 : Memref sig .tc .vmem S32x1024 .bf16) (harg5 : arg5.IsWhole) (arg6 : Memref sig .tc .vmem S1x1024 .f32) (harg6 : arg6.IsWhole)
    (arg7 : Memref sig .tc .vmem S1024x512 .bf16) (harg7 : arg7.IsWhole) (arg8 : Memref sig .tc .vmem S1x512 .f32) (harg8 : arg8.IsWhole)
    (arg9 : Memref sig .tc .vmem S512x1 .bf16) (harg9 : arg9.IsWhole) (arg10 : Memref sig .tc .smem S1x1 .f32) (harg10 : arg10.IsWhole)
    (arg11 : Memref sig .tc .vmem S512x1 .f32) (harg11 : arg11.IsWhole)
    (x0 : Vec F S512x3328 .f32) (x1 : Vec F S512x32 .f32) (x2 : Vec F S512x32 .f32) (x3 : Vec F S3328x1024 .bf16)
    (x4 : Vec F S32x1024 .bf16) (x5 : Vec F S1x1024 .f32) (x6 : Vec F S1024x512 .bf16) (x7 : Vec F S1x512 .f32)
    (x8 : Vec F S512x1 .bf16) (x9 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare (out1 x0 x1 x2 x3 x4 x5 x6 x7 x8 x9)) -∗ K ⟨⟩))
      ⊢ wp frame (wpE (defs₀ (F := F)) Variants.none c none) E
          (cc1__mlp_body i arg1 harg1 arg2 harg2 arg3 harg3 arg4 harg4 arg5 harg5 arg6 harg6 arg7 harg7 arg8 harg8 arg9 harg9 arg10 harg10 arg11 harg11) K := by
  simp only [cc1__mlp_body_eq_skeleton]; unfold cc1__mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1 _)

/-! ## The pipeline's proof data -/

section Data

variable [∀ e, Nonempty (Elt F e)]
variable (d : Dev nD) (V : (b : Ref sig .tc) → Buf (Elt F) ((d.tc : Thread nD τ).loc b))

/-- Window `w`'s block at point `t`, read off its array as the region finds it (`V`). -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- The pairs the TensorCore's waits may have recorded when the region is entered: those at the levels of the one
    SparseCore call before it. The body waits for nothing, so the bound stands at every point. -/
def recd : Set (SemLoc sig × HIx 1) := {p | (K (F := F)).lev ((d.tc : Thread nD τ), p.1) p.2 ≤ 8}

/-- The proof data on device `d`: the arrays as the region finds them; after the body at point `t` each input's
    buffer at its block and the output's at `out1` of the ten input blocks; no invariant of the body's own; nothing
    owed; full shares. -/
def dats (_ : Fin 1) : Dat τ (Elt F) (HIx 1) ℕ UU ℕ cfg1 d where
  A w := V (Pipeline.arrRef spec1 w)
  after w t := match w with
    | ⟨0, _⟩ => iblk d V 0 t
    | ⟨1, _⟩ => iblk d V 1 t
    | ⟨2, _⟩ => iblk d V 2 t
    | ⟨3, _⟩ => iblk d V 3 t
    | ⟨4, _⟩ => iblk d V 4 t
    | ⟨5, _⟩ => iblk d V 5 t
    | ⟨6, _⟩ => iblk d V 6 t
    | ⟨7, _⟩ => iblk d V 7 t
    | ⟨8, _⟩ => iblk d V 8 t
    | ⟨9, _⟩ => iblk d V 9 t
    | ⟨10, _⟩ => out1 (iblk d V 0 t) (iblk d V 1 t) (iblk d V 2 t) (iblk d V 3 t) (iblk d V 4 t) (iblk d V 5 t) (iblk d V 6 t)
        (iblk d V 7 t) (iblk d V 8 t) (iblk d V 9 t)
  Φ _ := iprop(emp)
  q _ := fullShare
  owed _ := 0
  recorded _ := recd (F := F) d

theorem A_eq (w : Fin cfg1.W) : (dats d V 0).A w = V (Pipeline.arrRef spec1 w) := by dsimp only [dats]

/-- What the body leaves, window by window. -/
theorem after1_0 (t : Fin cfg1.N) : (dats d V 0).after 0 t = iblk d V 0 t := by dsimp only [dats]
theorem after1_1 (t : Fin cfg1.N) : (dats d V 0).after 1 t = iblk d V 1 t := by dsimp only [dats]
theorem after1_2 (t : Fin cfg1.N) : (dats d V 0).after 2 t = iblk d V 2 t := by dsimp only [dats]
theorem after1_3 (t : Fin cfg1.N) : (dats d V 0).after 3 t = iblk d V 3 t := by dsimp only [dats]
theorem after1_4 (t : Fin cfg1.N) : (dats d V 0).after 4 t = iblk d V 4 t := by dsimp only [dats]
theorem after1_5 (t : Fin cfg1.N) : (dats d V 0).after 5 t = iblk d V 5 t := by dsimp only [dats]
theorem after1_6 (t : Fin cfg1.N) : (dats d V 0).after 6 t = iblk d V 6 t := by dsimp only [dats]
theorem after1_7 (t : Fin cfg1.N) : (dats d V 0).after 7 t = iblk d V 7 t := by dsimp only [dats]
theorem after1_8 (t : Fin cfg1.N) : (dats d V 0).after 8 t = iblk d V 8 t := by dsimp only [dats]
theorem after1_9 (t : Fin cfg1.N) : (dats d V 0).after 9 t = iblk d V 9 t := by dsimp only [dats]
theorem after1_10 (t : Fin cfg1.N) : (dats d V 0).after 10 t
    = out1 (iblk d V 0 t) (iblk d V 1 t) (iblk d V 2 t) (iblk d V 3 t) (iblk d V 4 t) (iblk d V 5 t) (iblk d V 6 t)
        (iblk d V 7 t) (iblk d V 8 t) (iblk d V 9 t) := by dsimp only [dats]

/-- Each input window's current staging buffer holds its block at every point, fetched there or not: a window not
    fetched at a point has the block index of the point before, and the body left that block in place. -/
theorem before1_0 (t : Fin cfg1.N) (dd) : (dats d V 0).before 0 t dd = iblk d V 0 t :=
  ((dats d V 0).before_in_eq_fetched 0 rfl (fun _ => rfl) (fun _ _ _ => rfl) (fun t => by rw [after1_0]; unfold Dat.blockOf iblk; rw [A_eq]; try rfl) t dd).trans
    (by unfold Dat.fetched Dat.blockOf iblk; rw [A_eq]; try rfl)
theorem before1_1 (t : Fin cfg1.N) (dd) : (dats d V 0).before 1 t dd = iblk d V 1 t :=
  ((dats d V 0).before_in_eq_fetched 1 rfl (fun _ => rfl) (fun _ _ _ => rfl) (fun t => by rw [after1_1]; unfold Dat.blockOf iblk; rw [A_eq]; try rfl) t dd).trans
    (by unfold Dat.fetched Dat.blockOf iblk; rw [A_eq]; try rfl)
theorem before1_2 (t : Fin cfg1.N) (dd) : (dats d V 0).before 2 t dd = iblk d V 2 t :=
  ((dats d V 0).before_in_eq_fetched 2 rfl (fun _ => rfl) (fun _ _ _ => rfl) (fun t => by rw [after1_2]; unfold Dat.blockOf iblk; rw [A_eq]; try rfl) t dd).trans
    (by unfold Dat.fetched Dat.blockOf iblk; rw [A_eq]; try rfl)
theorem before1_3 (t : Fin cfg1.N) (dd) : (dats d V 0).before 3 t dd = iblk d V 3 t :=
  ((dats d V 0).before_in_eq_fetched 3 rfl (fun _ => rfl) (fun _ _ _ => rfl) (fun t => by rw [after1_3]; unfold Dat.blockOf iblk; rw [A_eq]; try rfl) t dd).trans
    (by unfold Dat.fetched Dat.blockOf iblk; rw [A_eq]; try rfl)
theorem before1_4 (t : Fin cfg1.N) (dd) : (dats d V 0).before 4 t dd = iblk d V 4 t :=
  ((dats d V 0).before_in_eq_fetched 4 rfl (fun _ => rfl) (fun _ _ _ => rfl) (fun t => by rw [after1_4]; unfold Dat.blockOf iblk; rw [A_eq]; try rfl) t dd).trans
    (by unfold Dat.fetched Dat.blockOf iblk; rw [A_eq]; try rfl)
theorem before1_5 (t : Fin cfg1.N) (dd) : (dats d V 0).before 5 t dd = iblk d V 5 t :=
  ((dats d V 0).before_in_eq_fetched 5 rfl (fun _ => rfl) (fun _ _ _ => rfl) (fun t => by rw [after1_5]; unfold Dat.blockOf iblk; rw [A_eq]; try rfl) t dd).trans
    (by unfold Dat.fetched Dat.blockOf iblk; rw [A_eq]; try rfl)
theorem before1_6 (t : Fin cfg1.N) (dd) : (dats d V 0).before 6 t dd = iblk d V 6 t :=
  ((dats d V 0).before_in_eq_fetched 6 rfl (fun _ => rfl) (fun _ _ _ => rfl) (fun t => by rw [after1_6]; unfold Dat.blockOf iblk; rw [A_eq]; try rfl) t dd).trans
    (by unfold Dat.fetched Dat.blockOf iblk; rw [A_eq]; try rfl)
theorem before1_7 (t : Fin cfg1.N) (dd) : (dats d V 0).before 7 t dd = iblk d V 7 t :=
  ((dats d V 0).before_in_eq_fetched 7 rfl (fun _ => rfl) (fun _ _ _ => rfl) (fun t => by rw [after1_7]; unfold Dat.blockOf iblk; rw [A_eq]; try rfl) t dd).trans
    (by unfold Dat.fetched Dat.blockOf iblk; rw [A_eq]; try rfl)
theorem before1_8 (t : Fin cfg1.N) (dd) : (dats d V 0).before 8 t dd = iblk d V 8 t :=
  ((dats d V 0).before_in_eq_fetched 8 rfl (fun _ => rfl) (fun _ _ _ => rfl) (fun t => by rw [after1_8]; unfold Dat.blockOf iblk; rw [A_eq]; try rfl) t dd).trans
    (by unfold Dat.fetched Dat.blockOf iblk; rw [A_eq]; try rfl)
theorem before1_9 (t : Fin cfg1.N) (dd) : (dats d V 0).before 9 t dd = iblk d V 9 t :=
  ((dats d V 0).before_in_eq_fetched 9 rfl (fun _ => rfl) (fun _ _ _ => rfl) (fun t => by rw [after1_9]; unfold Dat.blockOf iblk; rw [A_eq]; try rfl) t dd).trans
    (by unfold Dat.fetched Dat.blockOf iblk; rw [A_eq]; try rfl)

/-! ## The body obligation, at a generic point -/

/-- What the body is called with at point `t`, the windows one by one, -/
def bodyPre (t : Fin cfg1.N) : sProp 𝕄 :=
  iprop((dats d V 0).Φ t.castSucc ∗ (dats d V 0).owesAt none t.castSucc
    ∗ (∃ dd, owns (d : Thread nD τ) (st1_0 t) fullShare ((dats d V 0).before 0 t dd))
    ∗ (∃ dd, owns (d : Thread nD τ) (st1_1 t) fullShare ((dats d V 0).before 1 t dd))
    ∗ (∃ dd, owns (d : Thread nD τ) (st1_2 t) fullShare ((dats d V 0).before 2 t dd))
    ∗ (∃ dd, owns (d : Thread nD τ) (st1_3 t) fullShare ((dats d V 0).before 3 t dd))
    ∗ (∃ dd, owns (d : Thread nD τ) (st1_4 t) fullShare ((dats d V 0).before 4 t dd))
    ∗ (∃ dd, owns (d : Thread nD τ) (st1_5 t) fullShare ((dats d V 0).before 5 t dd))
    ∗ (∃ dd, owns (d : Thread nD τ) (st1_6 t) fullShare ((dats d V 0).before 6 t dd))
    ∗ (∃ dd, owns (d : Thread nD τ) (st1_7 t) fullShare ((dats d V 0).before 7 t dd))
    ∗ (∃ dd, owns (d : Thread nD τ) (st1_8 t) fullShare ((dats d V 0).before 8 t dd))
    ∗ (∃ dd, owns (d : Thread nD τ) (st1_9 t) fullShare ((dats d V 0).before 9 t dd))
    ∗ (∃ dd, owns (d : Thread nD τ) (st1_10 t) fullShare ((dats d V 0).before 10 t dd)))

/-- and what it returns. -/
def bodyPost (t : Fin cfg1.N) : sProp 𝕄 :=
  iprop((dats d V 0).Φ t.succ ∗ (dats d V 0).owesAt none t.succ
    ∗ owns (d : Thread nD τ) (st1_0 t) fullShare ((dats d V 0).after 0 t)
    ∗ owns (d : Thread nD τ) (st1_1 t) fullShare ((dats d V 0).after 1 t)
    ∗ owns (d : Thread nD τ) (st1_2 t) fullShare ((dats d V 0).after 2 t)
    ∗ owns (d : Thread nD τ) (st1_3 t) fullShare ((dats d V 0).after 3 t)
    ∗ owns (d : Thread nD τ) (st1_4 t) fullShare ((dats d V 0).after 4 t)
    ∗ owns (d : Thread nD τ) (st1_5 t) fullShare ((dats d V 0).after 5 t)
    ∗ owns (d : Thread nD τ) (st1_6 t) fullShare ((dats d V 0).after 6 t)
    ∗ owns (d : Thread nD τ) (st1_7 t) fullShare ((dats d V 0).after 7 t)
    ∗ owns (d : Thread nD τ) (st1_8 t) fullShare ((dats d V 0).after 8 t)
    ∗ owns (d : Thread nD τ) (st1_9 t) fullShare ((dats d V 0).after 9 t)
    ∗ owns (d : Thread nD τ) (st1_10 t) fullShare ((dats d V 0).after 10 t))

/-- The body at any point: the inputs' buffers hold their blocks, so the body's triple applies; what the core owes
    passes through unread. -/
theorem sound_body (t : Fin cfg1.N) :
    bodyPre d V t ⊢ wp frame (wpE (defs₀ (F := F)) Variants.none (d : Thread nD τ) none) Set.univ (bodyAt1 t) (fun _ => bodyPost d V t) := by
  unfold bodyPre bodyPost bodyAt1
  simp only [before1_0, before1_1, before1_2, before1_3, before1_4, before1_5, before1_6, before1_7, before1_8, before1_9]
  rw [show (dats d V 0).Φ t.succ = (dats d V 0).Φ t.castSucc from rfl,
    show (dats d V 0).owesAt none t.succ = (dats d V 0).owesAt none t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel d Set.univ (grid1.coords t) _ _ _ _ _ _ _ _ _ _ _ _ _ _ _ _ _ _ _ _ _ _
    (iblk d V 0 t) (iblk d V 1 t) (iblk d V 2 t) (iblk d V 3 t) (iblk d V 4 t) (iblk d V 5 t) (iblk d V 6 t) (iblk d V 7 t) (iblk d V 8 t) (iblk d V 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation : BodyObligation (dats (F := F) d V 0) (defs₀ (F := F)) Variants.none none Set.univ := fun t => by
  rw [bigSep_W1, bigSep_W1]
  exact sound_body d V t

end Data

end Cert.Proof.TcBody

end
-- ==== Proof.TcRegion.lean ====
/-
  The TensorCore's pipelined region, entered from the TensorCore's thread of the whole program.

  When the region is entered the TensorCore has been through the one SparseCore call: it owes nothing more, and the
  pairs its waits recorded sit at that call's levels. It holds the region boundary, the eleven windows' arrays whole
  and its share of the pipeline's ghost state. The region runs by the rule for a pipelined kernel region —
  the body's triple at every point, no semaphore and no invariant of the kernel's own —, lifted to the whole program's
  body table. It leaves the ten operand arrays as they were and the result's array at what the write-backs
  of the eight points leave: row block `t` holds `out1` of the operand blocks at point `t`.
-/
import proofs.«207592_g65111704207794_cont_9to1_m_407_36_alg».proof.Proof.TcBody
import Idealize.ShloMosaic.Lib.Pipeline.Regions
import Idealize.ShloMosaic.Lib.SparseCore.Launch

set_option maxRecDepth 16384

noncomputable section

namespace Cert.Proof.TcRegion

open Cert.KernelIdeal Cert.KernelIdeal.Gen
open Cert.Proof.TcAlg Cert.Proof.TcBody
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

-- the TensorCore's buffers when the region is entered, on every device
variable (W : (c : Dev nD) → (b : Ref sig .tc) → Buf (Elt F) ((c.tc : Thread nD τ).loc b))

/-- The proof data of the one pipeline, on every device. -/
abbrev pdats (p : Fin 1) (c : Dev nD) : Dat τ (Elt F) (HIx 1) ℕ UU ℕ cfg1 c := dats c (W c) p

/-- What the TensorCore owes around the region: nothing, its recorded pairs at the levels of the SparseCore call. -/
abbrev owesTc (c : Dev nD) : sProp 𝕄 :=
  iprop(∃ Wt, ⌜(K (F := F)).WBelow (T c) Wt (8 * 1)⌝ ∗ owes (T c) ((K (F := F)).Otc c 1) Wt)

/-- The eleven windows' arrays, at contents `G`. -/
abbrev arrs (c : Dev nD) (G : (w : Fin cfg1.W) → Buf (Elt F) ((cfg1.win w).arr.view.loc (c.tc : Thread nD τ))) : sProp 𝕄 :=
  (pdats W 0 c).arrays G

theorem Otc_one (c : Dev nD) : (K (F := F)).Otc c 1 = 0 := (K (F := F)).Otc_end c (le_refl 1)

set_option backward.isDefEq.respectTransparency.types false in
/-- THE REGION: the windows' layout, no semaphore of the kernel's own, the body's triple at every point; entered with the
    windows' arrays and what the TensorCore owes, left with the arrays at their final contents. -/
def reg : Pipeline.RegionSeg (pcfgs (F := F)) adm (pdats W) none defs₀ 𝒱₀ (K (F := F)).L (K (F := F)).lev 0 where
  win := launch1.win.to₀
  block_pos := launch1.block_pos
  stage_whole := launch1.stage_whole
  K := PEmpty
  osem := fun k : PEmpty => k.elim
  ho := Pipeline.OwnSemFacts.none _
  hbody c := (body_obligation c (W c)).loose
  hwaits := Pipeline.hwaits_of_owed_zero _ _ _ _ (K (F := F)).L (K (F := F)).lev 0 fun _ _ => rfl
  pre c := iprop(arrs W c (fun w => (pdats W 0 c).A w) ∗ owesTc c)
  post c := iprop(arrs W c (fun w => (pdats W 0 c).arrAt w cfg1.N) ∗ owesTc c)
  X _ := iprop(emp)
  Y _ := iprop(emp)
  Z _ := iprop(emp)
  hentry c := by
    unfold owesTc Pipeline.Dat.owesAt Pipeline.owesWithin
    rw [Otc_one, show (pdats W 0 c).owed 0 = 0 from rfl]
    iintro ⟨⟨Ha, ⟨%Wt, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · iexists Wt; isplitr
      · ipureintro; exact fun p hp => Or.inl (hW p (Finset.mem_coe.mp hp))
      iexact HO
    isplitl [] <;> iempintro
  hin c := by
    iintro -; iempintro
  hout c := by
    unfold Pipeline.ownSems0
    rw [Finset.univ_eq_empty, BI.bigSep_empty, scopedRest1_eq]
    iintro -
    isplitl []; · iempintro
    isplitl [] <;> iempintro
  hexit c := by
    unfold owesTc Pipeline.Dat.owesAt Pipeline.owesWithin
    rw [Otc_one, show (pdats W 0 c).owed (Fin.last (Pipeline.pin (pcfgs (F := F)) adm 0).N) = 0 from rfl]
    iintro ⟨Ha, ⟨%Wt, %hW, HO⟩, -, -⟩
    imodintro
    isplitl [Ha]; · iexact Ha
    iexists Wt; isplitr
    · ipureintro
      intro p hp
      rcases hW (Finset.mem_coe.mpr hp) with h | ⟨w, s, rfl⟩
      · exact h
      · exact Nat.zero_le _
    iexact HO

/-- The region's call as @main spells it: a call of the pipeline's entry label, in the whole program's signature. -/
abbrev callTc : Prog (TpuEff nD τ sig (Elt F) (SparseCore.Sig (ΛP (F := F)) 1) .tc) PUnit :=
  Prog.lift (.customCall (SparseCore.inner (Pipeline.entry 0)) ())

/-- The same call in the signature of the region's own labels. -/
abbrev callP : Prog (TpuEff nD τ sig (Elt F) (ΛP (F := F)) .tc) PUnit :=
  Prog.lift (.customCall (Pipeline.entry 0) ())

set_option maxHeartbeats 1000000 in
/-- THE REGION'S RUN on device `d`'s TensorCore, in the whole program's body table: from the level facts, the region
    boundary, the windows' arrays at the entry contents, what the TensorCore owes after the SparseCore call and the
    device's share of the pipeline's ghost state, the call of the region runs to the boundary, the arrays at their
    final contents and the same debt. -/
theorem region_run (d : Dev nD) (Φ : PUnit → sProp 𝕄) :
    iprop(levAts (K (F := F)).L (K (F := F)).lev ∗ boundary (T d) ∗ arrs W d (fun w => (pdats W 0 d).A w) ∗ owesTc d ∗ Gd d
        ∗ (iprop(boundary (T d) ∗ arrs W d (fun w => (pdats W 0 d).arrAt w cfg1.N) ∗ owesTc d) -∗ Φ ⟨⟩))
      ⊢ wp frame (wpE ((K (F := F)).defs D) 𝒱 (T d) none) Set.univ
          (callTc (F := F)) Φ := by
  refine .trans ?_ ((K (F := F)).wp_liftProg D 𝒱 (T d) Set.univ none (callP (F := F)) Φ)
  have h := Pipeline.RegionSeg.wp (pcfgs (F := F)) adm (pdats W) none cellOf_inj EP defs₀ 𝒱₀ (K (F := F)).L (K (F := F)).lev (reg W) d none
    (fun _ h => nomatch h) (fun x => .ret x) Φ
  rw [show (reg W).post d = iprop(arrs W d (fun w => (pdats W 0 d).arrAt w cfg1.N) ∗ owesTc d) from rfl,
    show (reg W).pre d = iprop(arrs W d (fun w => (pdats W 0 d).A w) ∗ owesTc d) from rfl] at h
  refine .trans ?_ h
  iintro ⟨Hl, Hb, Ha, Ho, ⟨Hg, Ht⟩, Hk⟩
  isplitl [Hk]
  · iintro ⟨Hb, Ha, Ho⟩
    rw [wp_ret]
    imodintro
    iapply Hk
    isplitl [Hb]; · iexact Hb
    isplitl [Ha]; · iexact Ha
    iexact Ho
  isplitl [Hb]; · iexact Hb
  isplitl [Ha Ho]
  · isplitl [Ha]; · iexact Ha
    iexact Ho
  isplitl [Hl]; · iexact Hl
  isplitl [Hg]; · iexact Hg
  iexact Ht

end Cert.Proof.TcRegion

end
-- ==== Proof.TcHeld.lean ====
/-
  The TensorCore's region over every unscoped buffer of the TensorCore at one valuation, and its result in closed form.

  The region reads ten arrays and writes one. Held beside all the other unscoped buffers at a valuation, the eleven
  arrays are taken out at the region's entry and put back at its exit, the result's array at its final contents and
  every other buffer as it was. Those contents are one function of the ten operand arrays: the eight grid points'
  blocks tile the 4096 rows, point `t` writes back the body's value on its blocks as rows `512 t … 512 t + 511`, and
  no other point's block meets them.
-/
import proofs.«207592_g65111704207794_cont_9to1_m_407_36_alg».proof.Proof.TcRegion
import Idealize.ShloMosaic.Lib.Pipeline.RegionsLoop
import Idealize.ShloMosaic.Lib.Pipeline.Value

set_option maxRecDepth 16384

noncomputable section

namespace Cert.Proof.TcHeld

open Cert.KernelIdeal Cert.KernelIdeal.Gen
open Cert.Proof.TcAlg Cert.Proof.TcBody Cert.Proof.TcRegion
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F] [∀ e, Nonempty (Elt F e)]

local notation "𝕄" => MT nD τ sig (HIx 1) (Elt F) ℕ UU ℕ

variable (Wv : Valuation τ sig (Elt F))

/-- The TensorCore's buffers at the valuation, on any device. -/
abbrev Wb : (c : Dev nD) → (b : Ref sig .tc) → Buf (Elt F) ((c.tc : Thread nD τ).loc b) := fun _ b => Wv b

/-- The result's array after the region: what the eight write-backs leave. -/
def OutAll0 : (Proc.devRef (τ := τ) .tc (main_v49 : Ref sig .tc)).ty.Contents (Elt F) :=
  (pdats (Wb Wv) 0 (0 : Dev nD)).arrAt 10 cfg1.N

/-- The valuation after the region: the result's array at its final contents, every other buffer as it was. -/
abbrev Wout : Valuation τ sig (Elt F) := Function.update Wv (Proc.devRef .tc main_v49) (OutAll0 Wv)

theorem hF (w : Fin cfg1.W) : (pdats (Wb Wv) 0 (0 : Dev nD)).arrAt w cfg1.N = Wout Wv (Pipeline.arrRef spec1 w) := by
  by_cases hw : w = 10
  · subst hw
    show _ = Function.update Wv (Proc.devRef .tc main_v49) (OutAll0 Wv) (Proc.devRef .tc main_v49)
    rw [Function.update_self]; rfl
  · have hne : (Pipeline.arrRef spec1 w : Ref sig .tc) ≠ main_v49 := by
      revert w; decide
    have hin : (cfg1.win w).isOut = false := by
      revert w; decide
    show _ = Function.update Wv (Proc.devRef .tc main_v49) (OutAll0 Wv) (Proc.devRef .tc (Pipeline.arrRef spec1 w))
    rw [Function.update_of_ne (StableHlo.devRef_ne_of_ne hne)]
    exact ((pdats (Wb Wv) 0 (0 : Dev nD)).arrAt_in w hin _).trans (A_eq 0 (Wb Wv 0) w)

theorem hrest (b : Ref sig .tc) (hb : b ∉ Finset.univ.image (Pipeline.arrRef spec1)) : Wout Wv b = Wv b := by
  have hne : b ≠ main_v49 := fun e => hb (e ▸ Finset.mem_image.mpr ⟨10, Finset.mem_univ _, rfl⟩)
  show Function.update Wv (Proc.devRef .tc main_v49) (OutAll0 Wv) (Proc.devRef .tc b) = _
  rw [Function.update_of_ne (StableHlo.devRef_ne_of_ne hne)]

/-! ## The result's array in closed form -/

theorem hz2 : (![0, 0] : Fin 2 → Nat) = fun _ => 0 := funext fun a => by fin_cases a <;> rfl

/-- What the body stores, with every load read as the whole block it is. -/
theorem out1_eq (x0 : Vec F S512x3328 .f32) (x1 : Vec F S512x32 .f32) (x2 : Vec F S512x32 .f32) (x3 : Vec F S3328x1024 .bf16)
    (x4 : Vec F S32x1024 .bf16) (x5 : Vec F S1x1024 .f32) (x6 : Vec F S1024x512 .bf16) (x7 : Vec F S1x512 .f32)
    (x8 : Vec F S512x1 .bf16) (x9 : Vec F S1x1 .f32) :
    out1 x0 x1 x2 x3 x4 x5 x6 x7 x8 x9 = k1_pay1 (k1_pay2 x0 x3 x2 x1 x4 x5 x6 x7 x8) (word1 x9) := by
  unfold out1 val1
  rw [View.canon_unit_zero hz2]
  simp only [View.ld_unit_zero (S := S512x3328) hz2, View.ld_unit_zero (S := S3328x1024) hz2, View.ld_unit_zero (S := S512x32) hz2,
    View.ld_unit_zero (S := S32x1024) hz2, View.ld_unit_zero (S := S1x1024) hz2, View.ld_unit_zero (S := S1024x512) hz2,
    View.ld_unit_zero (S := S1x512) hz2, View.ld_unit_zero (S := S512x1) hz2]

/-- The grid point whose block holds row `i` of the result, -/
def ptOf (i : S4096x1.Idx) : Fin cfg1.N :=
  ⟨(i 0).val / 512, by have h : (i 0).val < 4096 := (i 0).isLt; have hN : cfg1.N = 8 := N_1; omega⟩

/-- and the row's place in that block. -/
def rowOf (i : S4096x1.Idx) : S512x1.Idx := fun a =>
  match a with
  | ⟨0, _⟩ => (⟨(i 0).val % 512, Nat.mod_lt _ (by decide)⟩ : Fin 512)
  | ⟨1, _⟩ => i 1
  | ⟨n + 2, h⟩ => absurd h (by show ¬ n + 2 < 2; omega)

/-- THE RESULT as one function of the ten operand arrays: row `i` is the body's value on the blocks of the point
    that holds it — rows `512 t … 512 t + 511` of the three row-blocked operands, the seven others whole —, read at
    the row's place in the block. -/
def OutAll : (Proc.devRef (τ := τ) .tc (main_v49 : Ref sig .tc)).ty.Contents (Elt F) := fun i =>
  out1 (iblk (0 : Dev nD) (Wb Wv 0) 0 (ptOf i)) (iblk (0 : Dev nD) (Wb Wv 0) 1 (ptOf i)) (iblk (0 : Dev nD) (Wb Wv 0) 2 (ptOf i))
    (iblk (0 : Dev nD) (Wb Wv 0) 3 (ptOf i)) (iblk (0 : Dev nD) (Wb Wv 0) 4 (ptOf i)) (iblk (0 : Dev nD) (Wb Wv 0) 5 (ptOf i))
    (iblk (0 : Dev nD) (Wb Wv 0) 6 (ptOf i)) (iblk (0 : Dev nD) (Wb Wv 0) 7 (ptOf i)) (iblk (0 : Dev nD) (Wb Wv 0) 8 (ptOf i))
    (iblk (0 : Dev nD) (Wb Wv 0) 9 (ptOf i)) (rowOf i)

/-- The result window's block index at point `t` is `(t, 0)`. -/
theorem idx10 : ∀ t : Fin cfg1.N, win1_10.index t (0 : Fin 2) = t.val ∧ win1_10.index t (1 : Fin 2) = 0 :=
  (by decide +kernel : ∀ t : Fin grid1.N, win1_10.index t (0 : Fin 2) = t.val ∧ win1_10.index t (1 : Fin 2) = 0)

/-- What point `t` writes back is block `t` of `OutAll`. -/
theorem flushed10_eq (t : Fin cfg1.N) :
    (pdats (Wb Wv) 0 (0 : Dev nD)).flushed 10 t = ((cfg1.win 10).blk t).view.read (Elt F) (OutAll Wv) := by
  show (cfg1.win 10).cut (grid1.coords t) ((pdats (Wb Wv) 0 (0 : Dev nD)).after 10 t) = _
  rw [show (pdats (Wb Wv) 0 (0 : Dev nD)).after 10 t = _ from after1_10 (0 : Dev nD) (Wb Wv 0) t]
  obtain ⟨e0, e1⟩ := idx10 t
  funext y
  have hp : ptOf (((cfg1.win 10).blk t).view.emb y) = t := by
    apply Fin.ext
    show (win1_10.index t (0 : Fin 2) * 512 + 1 * (y 0).val) / 512 = t.val
    have hy : (y 0).val < 512 := (y 0).isLt
    omega
  have hr : rowOf (((cfg1.win 10).blk t).view.emb y) = y := by
    funext a
    match a with
    | ⟨0, _⟩ =>
      apply Fin.ext
      show (win1_10.index t (0 : Fin 2) * 512 + 1 * (y 0).val) % 512 = (y 0).val
      have hy : (y 0).val < 512 := (y 0).isLt
      omega
    | ⟨1, _⟩ =>
      apply Fin.ext
      show win1_10.index t (1 : Fin 2) * 1 + 1 * (y 1).val = (y 1).val
      omega
  show _ = OutAll Wv (((cfg1.win 10).blk t).view.emb y)
  unfold OutAll
  rw [hp, hr]

/-- Every row of the result is in some point's block. -/
theorem cover10 (i : S4096x1.Idx) : ∃ t : Fin cfg1.N, (cfg1.win 10).flush t = true ∧ i ∈ ((cfg1.win 10).blk t).view.set := by
  refine ⟨ptOf i, flush1_10 _, ?_⟩
  obtain ⟨e0, e1⟩ := idx10 (ptOf i)
  show i ∈ ((View.whole main_v49).slice (win1_10.rect (ptOf i))).set
  rw [View.set_slice_whole, Rect.mem_set_unit]
  intro a
  have hv : (ptOf i).val = (i 0).val / 512 := rfl
  match a with
  | ⟨0, _⟩ =>
    show win1_10.index (ptOf i) (0 : Fin 2) * 512 ≤ (i 0).val ∧ (i 0).val < win1_10.index (ptOf i) (0 : Fin 2) * 512 + 512
    omega
  | ⟨1, _⟩ =>
    show win1_10.index (ptOf i) (1 : Fin 2) * 1 ≤ (i 1).val ∧ (i 1).val < win1_10.index (ptOf i) (1 : Fin 2) * 1 + 1
    have h1 : (i 1).val < 1 := (i 1).isLt
    omega

/-- THE RESULT'S ARRAY after the region is `OutAll` of the operand arrays. -/
theorem OutAll0_eq : OutAll0 Wv = OutAll Wv :=
  (pdats (Wb Wv) 0 (0 : Dev nD)).arrAt_eq_of_cover 10 (OutAll Wv) (fun t _ => flushed10_eq Wv t) cover10

set_option maxHeartbeats 1000000 in
/-- THE REGION over the buffers as @main holds them: every unscoped buffer of the TensorCore at a valuation, the
    TensorCore's state after the one SparseCore call; the result's array ends at its final contents, every other
    buffer as it was. -/
theorem region_held0 {P : (K (F := F)).Pay (nD := nD) (Val := Elt F) (Name := ℕ) (U := UU)} (κ : GSem nD τ sig → ℕ) (d : Dev nD)
    (Φ : PUnit → sProp 𝕄) :
    iprop((K (F := F)).ctx EH P κ ∗ (K (F := F)).tcSt EH d 1 ∗ boundary (T d) ∗ (held (T d) (Pipeline.ucRefs τ sig) Wv : sProp 𝕄) ∗ Gd (F := F) d
        ∗ (iprop((K (F := F)).tcSt EH d 1 ∗ boundary (T d) ∗ (held (T d) (Pipeline.ucRefs τ sig) (Wout Wv) : sProp 𝕄)) -∗ Φ ⟨⟩))
      ⊢ wp frame (wpE ((K (F := F)).defs (D (F := F))) 𝒱 (T d) none) Set.univ (callTc (F := F)) Φ := by
  obtain rfl : d = 0 := Subsingleton.elim _ _
  unfold SparseCore.Cfg.tcSt
  rw [← Pipeline.unscopedBufs_held (0 : Dev nD) Wv, ← Pipeline.unscopedBufs_held (0 : Dev nD) (Wout Wv)]
  iintro ⟨#Hctx, ⟨Ho, Hst⟩, Hb, Hh, HG, Hk⟩
  ihave Hlev := (SparseCore.Cfg.ctx_levAts κ) $$ Hctx
  ihave Hs := (Pipeline.arrays_of_unscopedBufs (pcfgs (F := F)) adm (pdats (Wb Wv)) launch1.win launch1.arr_whole (0 : Dev nD)
    ((pdats (Wb Wv) 0 (0 : Dev nD)).share_full fun _ => rfl) (fun b => Wv b) (fun _ => rfl)) $$ Hh
  icases Hs with ⟨Ha, Hrest⟩
  iapply (region_run (Wb Wv) (0 : Dev nD) Φ) $$ [Hlev Hb Ha Ho HG Hk Hst Hrest]
  isplitl [Hlev]; · iexact Hlev
  isplitl [Hb]; · iexact Hb
  isplitl [Ha]; · iexact Ha
  isplitl [Ho]; · iexact Ho
  isplitl [HG]; · iexact HG
  iintro ⟨Hb, Ha, Ho⟩
  iapply Hk
  isplitl [Ho Hst]
  · isplitl [Ho]; · iexact Ho
    iexact Hst
  isplitl [Hb]; · iexact Hb
  iapply (Pipeline.unscopedBufs_of_arrays (pcfgs (F := F)) adm launch1.win launch1.arr_whole (0 : Dev nD) (pdats (Wb Wv))
    ((pdats (Wb Wv) 0 (0 : Dev nD)).share_full fun _ => rfl) (fun b => Wv b) (fun b => Wout Wv b)
    (fun w => (pdats (Wb Wv) 0 (0 : Dev nD)).arrAt w cfg1.N) (hF Wv) (hrest Wv))
  isplitl [Ha]; · iexact Ha
  iexact Hrest

/-- THE REGION, the result in closed form. -/
theorem region_held {P : (K (F := F)).Pay (nD := nD) (Val := Elt F) (Name := ℕ) (U := UU)} (κ : GSem nD τ sig → ℕ) (d : Dev nD)
    (Wv : Valuation τ sig (Elt F)) (Φ : PUnit → sProp 𝕄) :
    iprop((K (F := F)).ctx EH P κ ∗ (K (F := F)).tcSt EH d 1 ∗ boundary (T d) ∗ (held (T d) (Pipeline.ucRefs τ sig) Wv : sProp 𝕄) ∗ Gd (F := F) d
        ∗ (iprop((K (F := F)).tcSt EH d 1 ∗ boundary (T d)
            ∗ (held (T d) (Pipeline.ucRefs τ sig) (Function.update Wv (Proc.devRef .tc main_v49) (OutAll Wv)) : sProp 𝕄)) -∗ Φ ⟨⟩))
      ⊢ wp frame (wpE ((K (F := F)).defs (D (F := F))) 𝒱 (T d) none) Set.univ (callTc (F := F)) Φ := by
  have h := region_held0 Wv (P := P) κ d Φ
  unfold Wout at h
  rw [OutAll0_eq] at h
  exact h

end Cert.Proof.TcHeld

end
-- ==== Proof.Spec.lean ====
/-
  The function both programs compute, index by index, on the extended reals.

  For a batch row b: the deep input is the row
    deep b 0            = fm_bias[0]
    deep b (1 + f)      = W_first[f, Xi[b, f], 0] * Xv[b, f]                (f < 26)
    deep b (27 + 128 f + e) = W_second[f, Xi[b, f], e] * Xv[b, f]           (f < 26, e < 128)
  and the result is the three-layer perceptron
    out b = (Σ_j tanh ((Σ_i tanh ((Σ_k deep b k * W1[k, i]) + b1[i]) * W2[i, j]) + b2[j]) * W3[j, 0]) + b3[0].
  An index word of Xi names a table row by its unsigned value; the row is kept inside the table
  (at most 999), which changes nothing when the word is at most 999.
-/
import Idealize.ShloMosaic.PureOps.Ideal
import Idealize.ShloMosaic.Lib.ValueIdx

noncomputable section

namespace Cert.Proof.Spec

open Idealize.ShloMosaic Idealize.ShloMosaic.ValueIdx

/-- The table row a 32-bit word names: its unsigned value, held inside the 1000-row table. -/
def row (w : BitVec 32) : Fin 1000 := ⟨min w.toNat 999, by omega⟩

theorem row_val {w : BitVec 32} (h : w.toNat ≤ 999) : (row w).val = w.toNat := by
  show min w.toNat 999 = w.toNat
  omega

/-- The pattern of the float one denotes the extended real one. -/
theorem ofBits_one_f32 : Ideal.ofBits .f32 0x3F800000#32 = 1 := by
  simp [Ideal.ofBits, Ideal.ieee, -EReal.coe_mul]; norm_num

section
variable (Xi : IVec ⟨3, ![4096, 26, 1]⟩ 32) (Xv : FVec Ideal ⟨2, ![4096, 26]⟩ .f32)
  (fmb : FVec Ideal ⟨1, ![1]⟩ .f32)
  (Wf : FVec Ideal ⟨3, ![26, 1000, 1]⟩ .f32) (Ws : FVec Ideal ⟨3, ![26, 1000, 128]⟩ .f32)
  (W1 : FVec Ideal ⟨2, ![3355, 1024]⟩ .f32) (b1 : FVec Ideal ⟨1, ![1024]⟩ .f32)
  (W2 : FVec Ideal ⟨2, ![1024, 512]⟩ .f32) (b2 : FVec Ideal ⟨1, ![512]⟩ .f32)
  (W3 : FVec Ideal ⟨2, ![512, 1]⟩ .f32) (b3 : FVec Ideal ⟨1, ![1]⟩ .f32)

/-- The first-order term of field f in row b: the field's weight at the row's index, times the row's value. -/
def first (b : Fin 4096) (f : Fin 26) : EReal :=
  Wf (ix3 f (row (Xi (ix3 b f 0))) 0) * Xv (ix2 b f)

/-- Component e of the second-order embedding of field f in row b, scaled by the row's value. -/
def second (b : Fin 4096) (f : Fin 26) (e : Fin 128) : EReal :=
  Ws (ix3 f (row (Xi (ix3 b f 0))) e) * Xv (ix2 b f)

/-- Row b of the deep input: the bias, the 26 first-order terms, the 26 × 128 second-order terms. -/
def deep (b : Fin 4096) (k : Fin 3355) : EReal :=
  if h0 : k.val < 1 then fmb (ix1 0)
  else if h1 : k.val < 27 then first Xi Xv Wf b ⟨k.val - 1, by omega⟩
  else second Xi Xv Ws b ⟨(k.val - 27) / 128, by omega⟩ ⟨(k.val - 27) % 128, by omega⟩

/-- The first layer before its activation. -/
def pre1 (b : Fin 4096) (i : Fin 1024) : EReal :=
  (∑ k : Fin 3355, deep Xi Xv fmb Wf Ws b k * W1 (ix2 k i)) + b1 (ix1 i)

/-- The second layer before its activation. -/
def pre2 (b : Fin 4096) (j : Fin 512) : EReal :=
  (∑ i : Fin 1024, Ideal.tanh (pre1 Xi Xv fmb Wf Ws W1 b1 b i) * W2 (ix2 i j)) + b2 (ix1 j)

/-- The output of row b. -/
def out (b : Fin 4096) : EReal :=
  (∑ j : Fin 512, Ideal.tanh (pre2 Xi Xv fmb Wf Ws W1 b1 W2 b2 b j) * W3 (ix2 j 0)) + b3 (ix1 0)

/-- The result array, [4096, 1]. -/
def G : FVec Ideal ⟨2, ![4096, 1]⟩ .f32 :=
  fun i => out Xi Xv fmb Wf Ws W1 b1 W2 b2 W3 b3 (i 0)

theorem G_apply (b : Fin 4096) (z : Fin 1) :
    G Xi Xv fmb Wf Ws W1 b1 W2 b2 W3 b3 (ix2 b z) = out Xi Xv fmb Wf Ws W1 b1 W2 b2 W3 b3 b := rfl

theorem deep_zero (b : Fin 4096) : deep Xi Xv fmb Wf Ws b ⟨0, by omega⟩ = fmb (ix1 0) := by
  unfold deep; rw [dif_pos (by show (0 : Nat) < 1; omega)]

theorem deep_first (b : Fin 4096) (f : Fin 26) :
    deep Xi Xv fmb Wf Ws b ⟨1 + f.val, by omega⟩ = first Xi Xv Wf b f := by
  unfold deep
  rw [dif_neg (by show ¬(1 + f.val < 1); omega), dif_pos (by show 1 + f.val < 27; omega)]
  congr 1
  exact Fin.ext (by show 1 + f.val - 1 = f.val; omega)

theorem deep_second (b : Fin 4096) (f : Fin 26) (e : Fin 128) :
    deep Xi Xv fmb Wf Ws b ⟨27 + f.val * 128 + e.val, by omega⟩ = second Xi Xv Ws b f e := by
  unfold deep
  rw [dif_neg (by show ¬(27 + f.val * 128 + e.val < 1); omega),
    dif_neg (by show ¬(27 + f.val * 128 + e.val < 27); omega)]
  congr 1
  · exact Fin.ext (by show (27 + f.val * 128 + e.val - 27) / 128 = f.val; omega)
  · exact Fin.ext (by show (27 + f.val * 128 + e.val - 27) % 128 = e.val; omega)

end

end Cert.Proof.Spec

end
-- ==== Proof.LibGatherPairs.lean ====
/-
  A `stablehlo.gather` of a rank-3 array at pairs of start indices, read at an index.

  What `x[ids0, ids1]` of `x : [N0, N1, N2]` at two integer arrays of shape [R, C] lowers to: start indices
  [R, C, 2] (the pair on the last axis), offset_dims [2], collapsed_slice_dims [0, 1], start_index_map [0, 1],
  index_vector_dim 2, slice_sizes [1, 1, S]. Result element (r, c, e) is the operand at (r0, r1, e), where r0 and r1
  are the two start indices at (r, c), each read as a SIGNED integer and clamped into its axis (StableHLO clamps every
  start index so that the slice fits); the third axis starts at 0.
-/
import Idealize.ShloMosaic.Lib.ValueIdx

noncomputable section

namespace Cert.Proof.LibGatherPairs

open Idealize.ShloMosaic Idealize.ShloMosaic.ValueIdx

variable {α : Type}

/-- Those dimension numbers; their conditions `wf` are decided on a program's literal shapes. -/
abbrev pairsDims (N0 N1 N2 R C S : Nat)
    (wf : GatherDims.WF ⟨3, ![N0, N1, N2]⟩ ⟨3, ![R, C, 2]⟩ ⟨3, ![R, C, S]⟩ [2] [0, 1] [] [0, 1] [] 2 ![1, 1, S]) :
    GatherDims ⟨3, ![N0, N1, N2]⟩ ⟨3, ![R, C, 2]⟩ ⟨3, ![R, C, S]⟩ where
  offsetDims := [2]
  collapsedSliceDims := [0, 1]
  operandBatchingDims := []
  startIndicesBatchingDims := []
  startIndexMap := [0, 1]
  indexVectorDim := 2
  sliceSizes := ![1, 1, S]
  wf := wf

/-- THE GATHER READ AT (r, c, e): the operand at the two start indices of (r, c), read signed and clamped, and e. -/
theorem gather_pairs_apply {N0 N1 N2 R C S w : Nat} (h0 : 0 < N0) (h1 : 0 < N1) (hS : S ≤ N2)
    (wf : GatherDims.WF ⟨3, ![N0, N1, N2]⟩ ⟨3, ![R, C, 2]⟩ ⟨3, ![R, C, S]⟩ [2] [0, 1] [] [0, 1] [] 2 ![1, 1, S])
    (x : (⟨3, ![N0, N1, N2]⟩ : Shape).Idx → α) (idx : IVec ⟨3, ![R, C, 2]⟩ w)
    (r : Fin R) (c : Fin C) (e : Fin S) :
    Host.gather (pairsDims N0 N1 N2 R C S wf) x idx (ix3 r c e)
      = x (ix3 (⟨min (idx (ix3 r c (0 : Fin 2))).toInt.toNat (N0 - 1), by omega⟩ : Fin N0)
               (⟨min (idx (ix3 r c (1 : Fin 2))).toInt.toNat (N1 - 1), by omega⟩ : Fin N1)
               (⟨e.val, by omega⟩ : Fin N2)) := by
  unfold Host.gather
  refine congrArg x ?_
  funext a
  refine Fin.ext ?_
  show (pairsDims N0 N1 N2 R C S wf).start (ix3 r c e) idx a + (pairsDims N0 N1 N2 R C S wf).batchCoord (ix3 r c e) a
    + (pairsDims N0 N1 N2 R C S wf).offCoord (ix3 r c e) a = _
  rw [GatherDims.batchCoord_eq_zero _ _ _ List.not_mem_nil, Nat.add_zero]
  have m0 : (0 : Fin 3) ∈ ([0, 1] : List (Fin 3)) := by decide
  have m1 : (1 : Fin 3) ∈ ([0, 1] : List (Fin 3)) := by decide
  have m2 : (2 : Fin 3) ∉ ([0, 1] : List (Fin 3)) := by decide
  have ha : a = (0 : Fin 3) ∨ a = (1 : Fin 3) ∨ a = (2 : Fin 3) := by
    rcases a with ⟨v, hv⟩
    have hv3 : v < 3 := hv
    rcases (by omega : v = 0 ∨ v = 1 ∨ v = 2) with rfl | rfl | rfl
    · exact Or.inl rfl
    · exact Or.inr (Or.inl rfl)
    · exact Or.inr (Or.inr rfl)
  rcases ha with rfl | rfl | rfl
  · rw [GatherDims.offCoord_eq_zero _ _ _ (fun h => ((GatherDims.mem_sKept _ _).mp h).1 m0), Nat.add_zero]
    unfold GatherDims.start
    rw [dif_pos (show (0 : Fin 3) ∈ (pairsDims N0 N1 N2 R C S wf).startIndexMap from m0)]
    have hsi : (pairsDims N0 N1 N2 R C S wf).siIdx (ix3 r c e) ⟨List.idxOf (0 : Fin 3) (pairsDims N0 N1 N2 R C S wf).startIndexMap,
        List.idxOf_lt_length_iff.2 m0⟩ = ix3 r c (0 : Fin 2) := by
      funext b; refine Fin.ext ?_
      match b with
      | ⟨0, _⟩ => rfl
      | ⟨1, _⟩ => rfl
      | ⟨2, _⟩ => rfl
    rw [hsi]
    rfl
  · rw [GatherDims.offCoord_eq_zero _ _ _ (fun h => ((GatherDims.mem_sKept _ _).mp h).1 m1), Nat.add_zero]
    unfold GatherDims.start
    rw [dif_pos (show (1 : Fin 3) ∈ (pairsDims N0 N1 N2 R C S wf).startIndexMap from m1)]
    have hsi : (pairsDims N0 N1 N2 R C S wf).siIdx (ix3 r c e) ⟨List.idxOf (1 : Fin 3) (pairsDims N0 N1 N2 R C S wf).startIndexMap,
        List.idxOf_lt_length_iff.2 m1⟩ = ix3 r c (1 : Fin 2) := by
      funext b; refine Fin.ext ?_
      match b with
      | ⟨0, _⟩ => rfl
      | ⟨1, _⟩ => rfl
      | ⟨2, _⟩ => rfl
    rw [hsi]
    rfl
  · unfold GatherDims.start
    rw [dif_neg (show ¬(2 : Fin 3) ∈ (pairsDims N0 N1 N2 R C S wf).startIndexMap from m2), Nat.zero_add]
    have k2 : (2 : Fin 3) ∈ (pairsDims N0 N1 N2 R C S wf).sKept :=
      (GatherDims.mem_sKept _ _).2 ⟨m2, List.not_mem_nil⟩
    unfold GatherDims.offCoord
    rw [dif_pos k2]
    rfl

end Cert.Proof.LibGatherPairs

end
-- ==== Proof.RefIndex.lean ====
/-
  The reference's two table look-ups read at an index.

  The start indices of each look-up are pairs (field, row): the field number f itself (an iota, never negative) and
  the index word of Xi at (b, f), wrapped if negative. A word at most 999 is not negative as a signed integer, is left
  alone by the wrap, and is inside the table, so the clamp of the look-up leaves it alone too.
-/
import proofs.«207592_g65111704207794_cont_9to1_m_407_36_alg».proof.Proof.Gen.ReferenceIdeal.Read
import proofs.«207592_g65111704207794_cont_9to1_m_407_36_alg».proof.Proof.Spec
import proofs.«207592_g65111704207794_cont_9to1_m_407_36_alg».proof.Proof.LibGatherPairs

noncomputable section

namespace Cert.Proof.RefIndex

open Cert.ReferenceIdeal Cert.ReferenceIdeal.Gen Cert.ReferenceIdeal.Read Idealize.ShloMosaic Idealize.ShloMosaic.ValueIdx
open Cert.Proof.Spec Cert.Proof.LibGatherPairs

/-! ## Words -/

/-- A word below 2^31 is its unsigned value as a signed integer. -/
theorem toInt_of_lt (w : BitVec 32) (h : w.toNat < 2 ^ 31) : w.toInt = (w.toNat : Int) := by
  rw [BitVec.toInt_eq_toNat_cond, if_pos (by omega)]

theorem toInt_toNat_of_lt (w : BitVec 32) (h : w.toNat < 2 ^ 31) : w.toInt.toNat = w.toNat := by
  rw [toInt_of_lt w h]; rfl

/-- The wrap of a negative index leaves a word below 2^31 alone. -/
theorem wrap_of_lt (w c : BitVec 32) (h : w.toNat < 2 ^ 31) :
    Scalar.select (IntOp.cmpi .slt w 0#32) (IntOp.addi w c) w = w := by
  have hs : w.slt 0#32 = false := by
    unfold BitVec.slt
    rw [toInt_of_lt w h]
    simp
  unfold Scalar.select IntOp.cmpi
  simp only [hs]
  rfl

theorem ofNat_toNat_field (f : Fin 26) : (BitVec.ofNat 32 f.val).toNat = f.val := by
  rw [BitVec.toNat_ofNat]
  have := f.isLt
  omega

variable {F : FTy → Type} [FloatOps F]

/-! ## The index word of row b, field f, as the reference reshapes it -/

theorem v0_at (x0 : (⟨S4096x26x1, .i32⟩ : BufTy).Contents (Elt F)) (b : Fin 4096) (f : Fin 26) :
    val_main_v0 (F := F) x0 (ix2 b f) = x0 (ix3 b f 0) := by
  rw [val_main_v0_apply]
  refine congrArg x0 (funext fun a => Fin.ext ?_)
  have hb := b.isLt
  have hf := f.isLt
  match a with
  | ⟨0, _⟩ => show (b.val * 26 + f.val) / 26 = b.val; omega
  | ⟨1, _⟩ => show (b.val * 26 + f.val) / 1 % 26 = f.val; omega
  | ⟨2, _⟩ => rfl

/-! ## The start indices -/

theorem v16_field (x0 : (⟨S4096x26x1, .i32⟩ : BufTy).Contents (Elt F)) (b : Fin 4096) (f : Fin 26) :
    val_main_v16 (F := F) x0 (ix3 b f (0 : Fin 2)) = BitVec.ofNat 32 f.val := by
  unfold val_main_v16
  refine (concatenate_pair_apply_left (t := S4096x26x2) (s₁ := S4096x26x1) (s₂ := S4096x26x1) (2 : Fin 3) _ _ concatenates_S4096x26x1_S4096x26x1_S4096x26x2_d2
    (ix3 b f (0 : Fin 2)) rfl (ix3 b f (0 : Fin 1)) (fun a => by
      match a with
      | ⟨0, _⟩ => rfl
      | ⟨1, _⟩ => rfl
      | ⟨2, _⟩ => rfl)).trans ?_
  rw [val_main_v14_apply, val_main_v13_apply, val_main_v7_apply, val_main_v4_apply, val_main_v6_apply,
    val_main_v3_apply, val_main_c_apply, val_main_v2_apply, val_main_v1_apply]
  exact wrap_of_lt (BitVec.ofNat 32 f.val) _ (by rw [ofNat_toNat_field]; have := f.isLt; omega)

theorem v16_row (x0 : (⟨S4096x26x1, .i32⟩ : BufTy).Contents (Elt F)) (b : Fin 4096) (f : Fin 26)
    (h : (x0 (ix3 b f 0)).toNat ≤ 999) :
    val_main_v16 (F := F) x0 (ix3 b f (1 : Fin 2)) = x0 (ix3 b f 0) := by
  unfold val_main_v16
  refine (concatenate_pair_apply_right (t := S4096x26x2) (s₁ := S4096x26x1) (s₂ := S4096x26x1) (2 : Fin 3) _ _ concatenates_S4096x26x1_S4096x26x1_S4096x26x2_d2
    (ix3 b f (1 : Fin 2)) rfl rfl (ix3 b f (0 : Fin 1)) (fun a ha => by
      match a with
      | ⟨0, _⟩ => rfl
      | ⟨1, _⟩ => rfl
      | ⟨2, _⟩ => exact absurd rfl ha) rfl).trans ?_
  rw [val_main_v15_apply, val_main_v12_apply, val_main_v9_apply, val_main_v11_apply, val_main_v8_apply,
    val_main_c_1_apply]
  have e : idx_main_v15 (ix3 b f (0 : Fin 1)) = ix2 b f := funext fun a => Fin.ext (by
    match a with
    | ⟨0, _⟩ => rfl
    | ⟨1, _⟩ => rfl)
  rw [e, v0_at]
  exact wrap_of_lt _ _ (by omega)

theorem v34_field (x0 : (⟨S4096x26x1, .i32⟩ : BufTy).Contents (Elt F)) (b : Fin 4096) (f : Fin 26) :
    val_main_v34 (F := F) x0 (ix3 b f (0 : Fin 2)) = BitVec.ofNat 32 f.val := by
  unfold val_main_v34
  refine (concatenate_pair_apply_left (t := S4096x26x2) (s₁ := S4096x26x1) (s₂ := S4096x26x1) (2 : Fin 3) _ _ concatenates_S4096x26x1_S4096x26x1_S4096x26x2_d2
    (ix3 b f (0 : Fin 2)) rfl (ix3 b f (0 : Fin 1)) (fun a => by
      match a with
      | ⟨0, _⟩ => rfl
      | ⟨1, _⟩ => rfl
      | ⟨2, _⟩ => rfl)).trans ?_
  rw [val_main_v32_apply, val_main_v31_apply, val_main_v25_apply, val_main_v22_apply, val_main_v24_apply,
    val_main_v21_apply, val_main_c_3_apply, val_main_v2_apply, val_main_v1_apply]
  exact wrap_of_lt (BitVec.ofNat 32 f.val) _ (by rw [ofNat_toNat_field]; have := f.isLt; omega)

theorem v34_row (x0 : (⟨S4096x26x1, .i32⟩ : BufTy).Contents (Elt F)) (b : Fin 4096) (f : Fin 26)
    (h : (x0 (ix3 b f 0)).toNat ≤ 999) :
    val_main_v34 (F := F) x0 (ix3 b f (1 : Fin 2)) = x0 (ix3 b f 0) := by
  unfold val_main_v34
  refine (concatenate_pair_apply_right (t := S4096x26x2) (s₁ := S4096x26x1) (s₂ := S4096x26x1) (2 : Fin 3) _ _ concatenates_S4096x26x1_S4096x26x1_S4096x26x2_d2
    (ix3 b f (1 : Fin 2)) rfl rfl (ix3 b f (0 : Fin 1)) (fun a ha => by
      match a with
      | ⟨0, _⟩ => rfl
      | ⟨1, _⟩ => rfl
      | ⟨2, _⟩ => exact absurd rfl ha) rfl).trans ?_
  rw [val_main_v33_apply, val_main_v30_apply, val_main_v27_apply, val_main_v29_apply, val_main_v26_apply,
    val_main_c_5_apply]
  have e : idx_main_v33 (ix3 b f (0 : Fin 1)) = ix2 b f := funext fun a => Fin.ext (by
    match a with
    | ⟨0, _⟩ => rfl
    | ⟨1, _⟩ => rfl)
  rw [e, v0_at]
  exact wrap_of_lt _ _ (by omega)

/-! ## The look-ups -/

/-- The first-order weight the reference reads for row b, field f. -/
theorem v17_at (x0 : (⟨S4096x26x1, .i32⟩ : BufTy).Contents (Elt F)) (x3 : (⟨S26x1000x1, .f32⟩ : BufTy).Contents (Elt F))
    (b : Fin 4096) (f : Fin 26) (h : (x0 (ix3 b f 0)).toNat ≤ 999) :
    val_main_v17 (F := F) x0 x3 (ix3 b f (0 : Fin 1)) = x3 (ix3 f (row (x0 (ix3 b f 0))) 0) := by
  unfold val_main_v17
  refine (gather_pairs_apply (N0 := 26) (N1 := 1000) (N2 := 1) (R := 4096) (C := 26) (S := 1) (by omega) (by omega)
    (Nat.le_refl _) gather_S26x1000x1_S4096x26x2_S4096x26x1_2_01_n_n_01_2_111_wf x3 (val_main_v16 (F := F) x0) b f 0).trans
    (congrArg x3 (funext fun a => Fin.ext ?_))
  match a with
  | ⟨0, _⟩ =>
    show min (val_main_v16 (F := F) x0 (ix3 b f (0 : Fin 2))).toInt.toNat (26 - 1) = f.val
    rw [v16_field, toInt_toNat_of_lt _ (by rw [ofNat_toNat_field]; have := f.isLt; omega), ofNat_toNat_field]
    have := f.isLt
    omega
  | ⟨1, _⟩ =>
    show min (val_main_v16 (F := F) x0 (ix3 b f (1 : Fin 2))).toInt.toNat (1000 - 1) = min (x0 (ix3 b f 0)).toNat 999
    rw [v16_row x0 b f h, toInt_toNat_of_lt _ (by omega)]
  | ⟨2, _⟩ => rfl

/-- The second-order embedding component the reference reads for row b, field f, component e. -/
theorem v35_at (x0 : (⟨S4096x26x1, .i32⟩ : BufTy).Contents (Elt F)) (x4 : (⟨S26x1000x128, .f32⟩ : BufTy).Contents (Elt F))
    (b : Fin 4096) (f : Fin 26) (e : Fin 128) (h : (x0 (ix3 b f 0)).toNat ≤ 999) :
    val_main_v35 (F := F) x0 x4 (ix3 b f e) = x4 (ix3 f (row (x0 (ix3 b f 0))) e) := by
  unfold val_main_v35
  refine (gather_pairs_apply (N0 := 26) (N1 := 1000) (N2 := 128) (R := 4096) (C := 26) (S := 128) (by omega) (by omega)
    (Nat.le_refl _) gather_S26x1000x128_S4096x26x2_S4096x26x128_2_01_n_n_01_2_11128_wf x4 (val_main_v34 (F := F) x0) b f e).trans
    (congrArg x4 (funext fun a => Fin.ext ?_))
  match a with
  | ⟨0, _⟩ =>
    show min (val_main_v34 (F := F) x0 (ix3 b f (0 : Fin 2))).toInt.toNat (26 - 1) = f.val
    rw [v34_field, toInt_toNat_of_lt _ (by rw [ofNat_toNat_field]; have := f.isLt; omega), ofNat_toNat_field]
    have := f.isLt
    omega
  | ⟨1, _⟩ =>
    show min (val_main_v34 (F := F) x0 (ix3 b f (1 : Fin 2))).toInt.toNat (1000 - 1) = min (x0 (ix3 b f 0)).toNat 999
    rw [v34_row x0 b f h, toInt_toNat_of_lt _ (by omega)]
  | ⟨2, _⟩ => rfl

end Cert.Proof.RefIndex

end
-- ==== Proof.RefDeep.lean ====
/-
  The reference's deep input read at an index: row b of the concatenation is the bias term (times the float one),
  the 26 first-order terms, and the 26 × 128 second-order terms laid field by field.
-/
import proofs.«207592_g65111704207794_cont_9to1_m_407_36_alg».proof.Proof.RefIndex

noncomputable section

namespace Cert.Proof.RefDeep

open Cert.ReferenceIdeal Cert.ReferenceIdeal.Gen Cert.ReferenceIdeal.Read Idealize.ShloMosaic Idealize.ShloMosaic.ValueIdx
open Cert.Proof.Spec Cert.Proof.RefIndex

variable (x0 : (⟨S4096x26x1, .i32⟩ : BufTy).Contents (Elt Ideal)) (x1 : (⟨S4096x26, .f32⟩ : BufTy).Contents (Elt Ideal))
  (x2 : (⟨S1, .f32⟩ : BufTy).Contents (Elt Ideal)) (x3 : (⟨S26x1000x1, .f32⟩ : BufTy).Contents (Elt Ideal))
  (x4 : (⟨S26x1000x128, .f32⟩ : BufTy).Contents (Elt Ideal))

/-- The bias column. -/
theorem v43_at (b : Fin 4096) : val_main_v43 (F := Ideal) x2 (ix2 b (0 : Fin 1)) = x2 (ix1 0) := by
  rw [val_main_v43_apply, val_main_v42_apply, val_main_v41_apply, val_main_v40_apply, val_main_cst_apply]
  show x2 _ * Ideal.ofBits .f32 0x3F800000#32 = _
  rw [ofBits_one_f32, mul_one]
  exact congrArg x2 (funext fun a => Fin.ext (by
    match a with
    | ⟨0, _⟩ => rfl))

/-- The first-order columns. -/
theorem v20_at (b : Fin 4096) (f : Fin 26) (h : (x0 (ix3 b f 0)).toNat ≤ 999) :
    val_main_v20 (F := Ideal) x0 x1 x3 (ix2 b f) = first x0 x1 x3 b f := by
  have e20 : idx_main_v20 (ix2 b f) = ix3 b f (0 : Fin 1) := funext fun a => Fin.ext (by
    have hb := b.isLt
    have hf := f.isLt
    match a with
    | ⟨0, _⟩ => show (b.val * 26 + f.val) / 26 = b.val; omega
    | ⟨1, _⟩ => show (b.val * 26 + f.val) / 1 % 26 = f.val; omega
    | ⟨2, _⟩ => rfl)
  have e18 : idx_main_v18 (ix3 b f (0 : Fin 1)) = ix2 b f := funext fun a => Fin.ext (by
    match a with
    | ⟨0, _⟩ => rfl
    | ⟨1, _⟩ => rfl)
  rw [val_main_v20_apply, e20, val_main_v19_apply, v17_at x0 x3 b f h, val_main_v18_apply, e18]
  rfl

/-- The second-order columns. -/
theorem v39_at (b : Fin 4096) (f : Fin 26) (e : Fin 128) (h : (x0 (ix3 b f 0)).toNat ≤ 999) :
    val_main_v39 (F := Ideal) x0 x1 x4 (ix2 b (⟨f.val * 128 + e.val, by omega⟩ : Fin 3328)) = second x0 x1 x4 b f e := by
  have e39 : idx_main_v39 (ix2 b (⟨f.val * 128 + e.val, by omega⟩ : Fin 3328)) = ix3 b f e := funext fun a => Fin.ext (by
    have hb := b.isLt
    have hf := f.isLt
    have he := e.isLt
    match a with
    | ⟨0, _⟩ => show (b.val * 3328 + (f.val * 128 + e.val)) / 3328 = b.val; omega
    | ⟨1, _⟩ => show (b.val * 3328 + (f.val * 128 + e.val)) / 128 % 26 = f.val; omega
    | ⟨2, _⟩ => show (b.val * 3328 + (f.val * 128 + e.val)) % 128 = e.val; omega)
  have e37 : idx_main_v36 (idx_main_v37 (ix3 b f e)) = ix2 b f := funext fun a => Fin.ext (by
    match a with
    | ⟨0, _⟩ => rfl
    | ⟨1, _⟩ => rfl)
  rw [val_main_v39_apply, e39, val_main_v38_apply, v35_at x0 x4 b f e h, val_main_v37_apply, val_main_v36_apply, e37]
  rfl

/-- Row b of the deep input, column k. -/
theorem v44_at (b : Fin 4096) (k : Fin 3355) (h : ∀ f : Fin 26, (x0 (ix3 b f 0)).toNat ≤ 999) :
    val_main_v44 (F := Ideal) x0 x1 x2 x3 x4 (ix2 b k) = deep x0 x1 x2 x3 x4 b k := by
  have hk := k.isLt
  unfold val_main_v44 deep
  by_cases h0 : k.val < 1
  · rw [dif_pos h0]
    refine (concatenate_apply_piece (t := S4096x3355) (1 : Fin 2) [⟨S4096x1, val_main_v43 (F := Ideal) x2⟩, ⟨S4096x26, val_main_v20 (F := Ideal) x0 x1 x3⟩, ⟨S4096x3328, val_main_v39 (F := Ideal) x0 x1 x4⟩] concatenates_S4096x1_S4096x26_S4096x3328_S4096x3355_d1
      (ix2 b k) 0 (by show 0 < 3; omega) S4096x1 (val_main_v43 (F := Ideal) x2) rfl rfl 0 rfl (ix2 b (0 : Fin 1)) (fun a ha => by
        match a with
        | ⟨0, _⟩ => rfl
        | ⟨1, _⟩ => exact absurd rfl ha) (by show 0 + 0 = k.val; omega)).trans ?_
    exact v43_at x2 b
  · rw [dif_neg h0]
    by_cases h1 : k.val < 27
    · rw [dif_pos h1]
      refine (concatenate_apply_piece (t := S4096x3355) (1 : Fin 2) [⟨S4096x1, val_main_v43 (F := Ideal) x2⟩, ⟨S4096x26, val_main_v20 (F := Ideal) x0 x1 x3⟩, ⟨S4096x3328, val_main_v39 (F := Ideal) x0 x1 x4⟩] concatenates_S4096x1_S4096x26_S4096x3328_S4096x3355_d1
        (ix2 b k) 1 (by show 1 < 3; omega) S4096x26 (val_main_v20 (F := Ideal) x0 x1 x3) rfl rfl 1 rfl
        (ix2 b (⟨k.val - 1, by omega⟩ : Fin 26)) (fun a ha => by
          match a with
          | ⟨0, _⟩ => rfl
          | ⟨1, _⟩ => exact absurd rfl ha) (by show 1 + (k.val - 1) = k.val; omega)).trans ?_
      exact v20_at x0 x1 x3 b _ (h _)
    · rw [dif_neg h1]
      refine (concatenate_apply_piece (t := S4096x3355) (1 : Fin 2) [⟨S4096x1, val_main_v43 (F := Ideal) x2⟩, ⟨S4096x26, val_main_v20 (F := Ideal) x0 x1 x3⟩, ⟨S4096x3328, val_main_v39 (F := Ideal) x0 x1 x4⟩] concatenates_S4096x1_S4096x26_S4096x3328_S4096x3355_d1
        (ix2 b k) 2 (by show 2 < 3; omega) S4096x3328 (val_main_v39 (F := Ideal) x0 x1 x4) rfl rfl 27 rfl
        (ix2 b (⟨k.val - 27, by omega⟩ : Fin 3328)) (fun a ha => by
          match a with
          | ⟨0, _⟩ => rfl
          | ⟨1, _⟩ => exact absurd rfl ha) (by show 27 + (k.val - 27) = k.val; omega)).trans ?_
      have e : (⟨k.val - 27, by omega⟩ : Fin 3328)
          = ⟨(⟨(k.val - 27) / 128, by omega⟩ : Fin 26).val * 128 + (⟨(k.val - 27) % 128, by omega⟩ : Fin 128).val, by
              show (k.val - 27) / 128 * 128 + (k.val - 27) % 128 < 3328; omega⟩ :=
        Fin.ext (by show k.val - 27 = (k.val - 27) / 128 * 128 + (k.val - 27) % 128; omega)
      rw [e]
      exact v39_at x0 x1 x4 b _ _ (h _)

end Cert.Proof.RefDeep

end
-- ==== Proof.RefValue.lean ====
/-
  The reference computes the specification: under "every index word of Xi is at most 999", the reference's result
  array is the three-layer function of the deep input, index by index.
-/
import proofs.«207592_g65111704207794_cont_9to1_m_407_36_alg».proof.Proof.RefDeep

noncomputable section

namespace Cert.Proof.RefValue

open Cert.ReferenceIdeal Cert.ReferenceIdeal.Gen Cert.ReferenceIdeal.Read Idealize.ShloMosaic Idealize.ShloMosaic.ValueIdx
open Cert.Proof.Spec Cert.Proof.RefDeep

variable (x0 : (⟨S4096x26x1, .i32⟩ : BufTy).Contents (Elt Ideal)) (x1 : (⟨S4096x26, .f32⟩ : BufTy).Contents (Elt Ideal))
  (x2 : (⟨S1, .f32⟩ : BufTy).Contents (Elt Ideal)) (x3 : (⟨S26x1000x1, .f32⟩ : BufTy).Contents (Elt Ideal))
  (x4 : (⟨S26x1000x128, .f32⟩ : BufTy).Contents (Elt Ideal)) (x5 : (⟨S3355x1024, .f32⟩ : BufTy).Contents (Elt Ideal))
  (x6 : (⟨S1024, .f32⟩ : BufTy).Contents (Elt Ideal)) (x7 : (⟨S1024x512, .f32⟩ : BufTy).Contents (Elt Ideal))
  (x8 : (⟨S512, .f32⟩ : BufTy).Contents (Elt Ideal)) (x9 : (⟨S512x1, .f32⟩ : BufTy).Contents (Elt Ideal))
  (x10 : (⟨S1, .f32⟩ : BufTy).Contents (Elt Ideal))

/-- The first layer's activation at (b, i). -/
theorem v49_at (b : Fin 4096) (i : Fin 1024) (h : ∀ f : Fin 26, (x0 (ix3 b f 0)).toNat ≤ 999) :
    val_main_v49 (F := Ideal) x0 x1 x2 x3 x4 x5 x6 (ix2 b i) = Ideal.tanh (pre1 x0 x1 x2 x3 x4 x5 x6 b i) := by
  have e45 : val_main_v45 (F := Ideal) x0 x1 x2 x3 x4 x5 (ix2 b i)
      = ∑ k : Fin 3355, deep x0 x1 x2 x3 x4 b k * x5 (ix2 k i) := by
    rw [val_main_v45_apply]
    refine Finset.sum_congr rfl fun k _ => ?_
    have el : lidx_main_v45 (ix2 b i) k = ix2 b k := funext fun a => Fin.ext (by
      match a with
      | ⟨0, _⟩ => rfl
      | ⟨1, _⟩ => rfl)
    have er : ridx_main_v45 (ix2 b i) k = ix2 k i := funext fun a => Fin.ext (by
      match a with
      | ⟨0, _⟩ => rfl
      | ⟨1, _⟩ => rfl)
    rw [el, er, v44_at x0 x1 x2 x3 x4 b k h]
  have e47 : idx_main_v46 (idx_main_v47 (ix2 b i)) = ix1 i := funext fun a => Fin.ext (by
    match a with
    | ⟨0, _⟩ => rfl)
  rw [val_main_v49_apply, val_main_v48_apply, e45, val_main_v47_apply, val_main_v46_apply, e47]
  rfl

/-- The second layer's activation at (b, j). -/
theorem v54_at (b : Fin 4096) (j : Fin 512) (h : ∀ f : Fin 26, (x0 (ix3 b f 0)).toNat ≤ 999) :
    val_main_v54 (F := Ideal) x0 x1 x2 x3 x4 x5 x6 x7 x8 (ix2 b j)
      = Ideal.tanh (pre2 x0 x1 x2 x3 x4 x5 x6 x7 x8 b j) := by
  have e50 : val_main_v50 (F := Ideal) x0 x1 x2 x3 x4 x5 x6 x7 (ix2 b j)
      = ∑ i : Fin 1024, Ideal.tanh (pre1 x0 x1 x2 x3 x4 x5 x6 b i) * x7 (ix2 i j) := by
    rw [val_main_v50_apply]
    refine Finset.sum_congr rfl fun k _ => ?_
    have el : lidx_main_v50 (ix2 b j) k = ix2 b k := funext fun a => Fin.ext (by
      match a with
      | ⟨0, _⟩ => rfl
      | ⟨1, _⟩ => rfl)
    have er : ridx_main_v50 (ix2 b j) k = ix2 k j := funext fun a => Fin.ext (by
      match a with
      | ⟨0, _⟩ => rfl
      | ⟨1, _⟩ => rfl)
    rw [el, er, v49_at x0 x1 x2 x3 x4 x5 x6 b k h]
  have e52 : idx_main_v51 (idx_main_v52 (ix2 b j)) = ix1 j := funext fun a => Fin.ext (by
    match a with
    | ⟨0, _⟩ => rfl)
  rw [val_main_v54_apply, val_main_v53_apply, e50, val_main_v52_apply, val_main_v51_apply, e52]
  rfl

/-- The output at (b, 0). -/
theorem v58_at (b : Fin 4096) (z : Fin 1) (h : ∀ f : Fin 26, (x0 (ix3 b f 0)).toNat ≤ 999) :
    val_main_v58 (F := Ideal) x0 x1 x2 x3 x4 x5 x6 x7 x8 x9 x10 (ix2 b z)
      = out x0 x1 x2 x3 x4 x5 x6 x7 x8 x9 x10 b := by
  have hz : z = 0 := Subsingleton.elim _ _
  subst hz
  have e55 : val_main_v55 (F := Ideal) x0 x1 x2 x3 x4 x5 x6 x7 x8 x9 (ix2 b (0 : Fin 1))
      = ∑ j : Fin 512, Ideal.tanh (pre2 x0 x1 x2 x3 x4 x5 x6 x7 x8 b j) * x9 (ix2 j 0) := by
    rw [val_main_v55_apply]
    refine Finset.sum_congr rfl fun k _ => ?_
    have el : lidx_main_v55 (ix2 b (0 : Fin 1)) k = ix2 b k := funext fun a => Fin.ext (by
      match a with
      | ⟨0, _⟩ => rfl
      | ⟨1, _⟩ => rfl)
    have er : ridx_main_v55 (ix2 b (0 : Fin 1)) k = ix2 k (0 : Fin 1) := funext fun a => Fin.ext (by
      match a with
      | ⟨0, _⟩ => rfl
      | ⟨1, _⟩ => rfl)
    rw [el, er, v54_at x0 x1 x2 x3 x4 x5 x6 x7 x8 b k h]
  have e57 : idx_main_v56 (idx_main_v57 (ix2 b (0 : Fin 1))) = ix1 0 := funext fun a => Fin.ext (by
    match a with
    | ⟨0, _⟩ => rfl)
  rw [val_main_v58_apply, e55, val_main_v57_apply, val_main_v56_apply, e57]
  rfl

/-- THE REFERENCE IS THE SPECIFICATION, when every index word of Xi is at most 999. -/
theorem ref_eq_spec (h : ∀ (b : Fin 4096) (f : Fin 26), (x0 (ix3 b f (0 : Fin 1))).toNat ≤ 999) :
    val_main_v58 (F := Ideal) x0 x1 x2 x3 x4 x5 x6 x7 x8 x9 x10 = G x0 x1 x2 x3 x4 x5 x6 x7 x8 x9 x10 := by
  funext i
  obtain ⟨b, z, rfl⟩ : ∃ (b : Fin 4096) (z : Fin 1), i = ix2 b z := ⟨i 0, i 1, eq_ix2 i⟩
  rw [G_apply]
  exact v58_at x0 x1 x2 x3 x4 x5 x6 x7 x8 x9 x10 b z (h b)

end Cert.Proof.RefValue

end
-- ==== Proof.RefFrame.lean ====
/-
  The reference program's frame: every weakly fair execution of its @main terminates without a fault and leaves the
  eleven argument arrays unchanged. This is the reference's run with the value of its result dropped.
-/
import proofs.«207592_g65111704207794_cont_9to1_m_407_36_alg».proof.Defs
import proofs.«207592_g65111704207794_cont_9to1_m_407_36_alg».proof.Proof.Gen.ReferenceIdeal
import proofs.«207592_g65111704207794_cont_9to1_m_407_36_alg».proof.Proof.Gen.ReferenceIdeal.Run
import proofs.«207592_g65111704207794_cont_9to1_m_407_36_alg».proof.Proof.Gen.ReferenceIdeal.Read
import proofs.«207592_g65111704207794_cont_9to1_m_407_36_alg».proof.Proof.Gen.Pre_input_domain

noncomputable section

open Idealize.ShloMosaic Idealize.SL.Sem

namespace Cert.Proof.RefFrame

theorem frame : Cert.frame_ReferenceIdeal (hReferenceIdeal := Cert.ReferenceIdeal.Gen.facts) (hPre_input_domain := Cert.Pre_input_domain.Gen.facts) := fun m ρ _ =>
  (θ_run Cert.ReferenceIdeal.defs _ _).mono (fun _ h c => (h c).2) (Cert.ReferenceIdeal.Value.run (F := Ideal) m ρ)

end Cert.Proof.RefFrame

end
-- ==== Proof.KIClaims.lean ====
/-
  The idealized kernel's two claims from its run: the frame (the run with the result's value dropped) and the
  equivalence with the reference at the extended reals (both runs end at the specification's function of the
  arguments: the kernel's by the value of @main's last valuation, the reference's by its own run read back).
-/
import proofs.«207592_g65111704207794_cont_9to1_m_407_36_alg».proof.Proof.LaunchPost
import proofs.«207592_g65111704207794_cont_9to1_m_407_36_alg».proof.Proof.TcHeld
import proofs.«207592_g65111704207794_cont_9to1_m_407_36_alg».proof.Proof.RefValue
import proofs.«207592_g65111704207794_cont_9to1_m_407_36_alg».proof.Proof.RefFrame

noncomputable section

namespace Cert.Proof.KIClaims

open Cert.Proof.KI

open Idealize.ShloMosaic
open Idealize.ShloMosaic.SparseCore (S V T)
open Idealize.SL.Sem

/-- The precondition of the certificate is the launch proof's. -/
theorem preM_of_pre (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : PreM (F := Ideal) m := h

/-- The result array's value. -/
abbrev OutI : Valuation Cert.KernelIdeal.τ Cert.KernelIdeal.sig (Elt Ideal) →
    (Proc.devRef (τ := Cert.KernelIdeal.τ) .tc (Cert.KernelIdeal.main_v49 : Ref Cert.KernelIdeal.sig .tc)).ty.Contents (Elt Ideal) :=
  fun Wv => Cert.Proof.TcHeld.OutAll (F := Ideal) Wv

theorem hreg (m : (ℓ : Loc Cert.KernelIdeal.nD Cert.KernelIdeal.τ Cert.KernelIdeal.sig) → Buf (Elt Ideal) ℓ) : RegionHeld (F := Ideal) m OutI :=
  fun κ d Wv Φ => Cert.Proof.TcHeld.region_held κ d Wv Φ

/-- The proof of one task, for every memory satisfying the precondition. -/
def BodyAll : Prop :=
  ∀ (m : (ℓ : Loc Cert.KernelIdeal.nD Cert.KernelIdeal.τ Cert.KernelIdeal.sig) → Buf (Elt Ideal) ℓ), PreM (F := Ideal) m → TileBody (F := Ideal) (GOm m) (TDm m)

/-- The value of @main's last valuation is the specification's function of the arguments. -/
def BridgeAllP : Prop :=
  ∀ (m : (ℓ : Loc Cert.KernelIdeal.nD Cert.KernelIdeal.τ Cert.KernelIdeal.sig) → Buf (Elt Ideal) ℓ), PreM (F := Ideal) m → ∀ c : Dev Cert.KernelIdeal.nD,
    OutI (W3 m c) = Cert.Proof.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))

theorem frame (hbody : BodyAll) :
    Cert.frame_KernelIdeal (hKernelIdeal := Cert.KernelIdeal.Gen.facts) (hPre_input_domain := Cert.Pre_input_domain.Gen.facts) := fun m ρ hpre =>
  (θ_run Cert.KernelIdeal.defs _ _).mono (fun r h c => (post_of_QC m OutI r h c).2)
    (run_main (F := Ideal) m ρ OutI (hbody m (preM_of_pre m hpre)) (hreg m))

theorem algebraic (hbody : BodyAll) (hbridge : BridgeAllP) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m ρ m' ρ' hpre hagree
  have hP : PreM (F := Ideal) m := preM_of_pre m hpre
  refine ⟨fun c => Cert.Proof.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨((post_of_QC m OutI r h c).1).trans (hbridge m hP c), (post_of_QC m OutI r h c).2⟩)
      (run_main (F := Ideal) m ρ OutI (hbody m hP) (hreg m))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq, (hagree c).1, (hagree c).2.1, (hagree c).2.2.1, (hagree c).2.2.2.1, (hagree c).2.2.2.2.1,
      (hagree c).2.2.2.2.2.1, (hagree c).2.2.2.2.2.2.1, (hagree c).2.2.2.2.2.2.2.1, (hagree c).2.2.2.2.2.2.2.2.1, (hagree c).2.2.2.2.2.2.2.2.2.1,
      (hagree c).2.2.2.2.2.2.2.2.2.2]
    exact Cert.Proof.RefValue.ref_eq_spec _ _ _ _ _ _ _ _ _ _ _ (fun b f => xi_le m hP c _)

end Cert.Proof.KIClaims

end
-- ==== Proof.B.LaunchBase.lean ====
/-
  The program as the SparseCore launch theorem sees it: the call's configuration, the body table under it, the
  facts about the four handshake semaphores, and the ghost state (the handshakes' rounds beside the transfers'
  counters). Generic in the float instance.
-/
import proofs.«207592_g65111704207794_cont_9to1_m_407_36_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207592_g65111704207794_cont_9to1_m_407_36_alg».proof.Proof.Gen.Kernel

noncomputable section

namespace Cert.ProofB.KI

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels under the SparseCore call: the kernels' and the one TensorCore pipeline's. -/
abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.ProofB.KI

end
-- ==== Proof.B.LaunchFin.lean ====
/-
  Reading the final memory: buffers held whole at a valuation are, in any state the assertion holds of, at that
  valuation's contents.
-/
import proofs.«207592_g65111704207794_cont_9to1_m_407_36_alg».proof.Proof.B.LaunchBase

noncomputable section

namespace Cert.ProofB.KI

open Cert.Kernel

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.StableHlo (held)

variable {F : FTy → Type} {U : Type} [URA U]

local notation "𝕄" => MT nD τ sig (HIx 1) (Elt F) ℕ U ℕ

/-- Every buffer of a held set reads, in the state, what the valuation says. -/
theorem held_agree (c : Thread nD τ) (B : Finset (DevRef τ sig)) (W : Valuation τ sig (Elt F)) (s' : Phys nD τ sig (Elt F)) :
    iprop((held c B W : sProp 𝕄) ∗ SI s') ⊢ (⌜∀ b ∈ B, s'.mem.mem (c.1, b) = W b⌝ : sProp 𝕄) := by
  induction B using Finset.induction_on with
  | empty =>
    iintro -
    ipureintro; intro b hb; exact absurd hb (Finset.notMem_empty b)
  | insert a B ha ih =>
    unfold held at ih ⊢
    rw [SparseCore.bigSep_insert' ha]
    iintro ⟨⟨Ha, HB⟩, HSI⟩
    ihave H := (persistent_entails_right (SI_pointsTo_agree (st := s') (ℓ := (c.1, a)) (I := Finset.univ) (q := fullShare) (f := W a))) $$ [HSI Ha]
    · isplitl [HSI] <;> iassumption
    icases H with ⟨%h1, HSI, -⟩
    ihave H2 := ih $$ [HB HSI]
    · isplitl [HB] <;> iassumption
    icases H2 with %h2
    ipureintro; intro b hb
    rcases Finset.mem_insert.mp hb with rfl | hb
    · exact funext fun i => h1 i (Finset.mem_univ i)
    · exact h2 b hb

end Cert.ProofB.KI

end
-- ==== Proof.B.TcAlg.lean ====
/-
  The resource algebra of the run: the staging cells' rounds beside the handshakes', and the pipelined region's share of the launch element.

  The program's threads meet at two kinds of cells: the handshakes between the TensorCore, the sequencers and the
  vector subcores (rounds whose duties are numbered), and the staging buffers' DMA semaphores of the one pipelined
  region the TensorCore runs (rounds with one unnamed duty). The user algebra therefore holds one copy of the rounds
  algebra for each, beside the counters of the local transfers. From the pipeline's launch element every device gets
  the ghost state of its staging cells and the duty tokens of the transfers the pipeline's loop issues.
-/
import proofs.«207592_g65111704207794_cont_9to1_m_407_36_alg».proof.Proof.Gen.Kernel.Launch
import Idealize.ShloMosaic.Lib.SparseCore.Launch
import Idealize.ShloMosaic.Lib.Pipeline.Regions

noncomputable section

namespace Cert.ProofB.TcAlg

open Cert.Kernel Cert.Kernel.Gen
open Idealize.ShloMosaic
open Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program's configuration -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift

/-- The prefetched tables' admissible contents: the pipeline has no table. -/
abbrev adm : (p : Fin 1) → (pcfgs (F := F) p).Adm := fun p => (cfgs p).toPCfg_adm

/-! ## The resource algebra -/

/-- The handshakes' rounds (duties numbered), -/
abbrev UH : Type := URounds (GSem nD τ sig) ℕ
/-- beside the staging cells' rounds (one duty) and the local transfers' counters. -/
abbrev UU : Type := UH × (UR sig nD τ × Counters)

local notation "𝕄" => MT nD τ sig (HIx 1) (Elt F) ℕ UU ℕ

abbrev EH : Emb UH (MT nD τ sig (HIx 1) (Elt F) ℕ UU ℕ) := embL
abbrev EP : Emb (UR sig nD τ) (MT nD τ sig (HIx 1) (Elt F) ℕ UU ℕ) :=
  (Emb.inl : Emb (UR sig nD τ) (UR sig nD τ × Counters)).trans embR

instance EP_landsIn : (EP (F := F)).LandsIn (upEmb : UEmb _ (MT nD τ sig (HIx 1) (Elt F) ℕ UU ℕ)) := by
  unfold EP embR; infer_instance

/-! ## The pipeline's launch element and what it funds -/

/-- The launch element of the staging cells' rounds: at the staging cells and the transfers the region's loop issues. -/
def uP : UR sig nD τ := initOf (Pipeline.cells cfgs cellOf_inj) (Pipeline.launchToks cfgs cellOf_inj)

/-- What device `d`'s TensorCore holds of it until the region is entered: its staging cells' ghost state and the
    duty tokens of its transfers. -/
abbrev Gd (d : Dev nD) : sProp 𝕄 :=
  iprop(Pipeline.cellsGhost (Pipeline.pin (pcfgs (F := F)) adm) EP 0 d ∗ Pipeline.toksInit (Pipeline.pin (pcfgs (F := F)) adm) EP 0 d)

/-- The launch element, owned through the pipeline's embedding, deals every device its share. -/
theorem fundP : (BI.own ((EP (F := F)) uP) : sProp 𝕄) ⊢ |==> bigSep Finset.univ fun d : Dev nD => Gd (F := F) d := by
  unfold uP
  refine (Pipeline.fund_ghost (Pipeline.pin (pcfgs (F := F)) adm) EP cellOf_inj).trans ?_
  rw [show (bigSep Finset.univ fun c : Dev nD => bigSep Finset.univ fun p : Fin 1 => Pipeline.cellsGhost (Pipeline.pin (pcfgs (F := F)) adm) EP p c)
        = (bigSep Finset.univ fun c : Dev nD => Pipeline.cellsGhost (Pipeline.pin (pcfgs (F := F)) adm) EP 0 c : sProp 𝕄)
      from bigSep_congr fun d _ => bigSep_univ_of_subsingleton (0 : Fin 1),
    show (bigSep Finset.univ fun c : Dev nD => bigSep Finset.univ fun p : Fin 1 => (Pipeline.toksInit (Pipeline.pin (pcfgs (F := F)) adm) EP p c : sProp 𝕄))
        = (bigSep Finset.univ fun c : Dev nD => Pipeline.toksInit (Pipeline.pin (pcfgs (F := F)) adm) EP 0 c : sProp 𝕄)
      from bigSep_congr fun d _ => bigSep_univ_of_subsingleton (0 : Fin 1),
    ← bigSep_sep']

/-- The whole launch element of the user algebra: the handshakes', the pipeline's, no counter yet. -/
def u₀ : UU := (initOf (K (F := F)).hsCells (K (F := F)).hsToks, (uP, 1))

/-- It splits into the handshakes' launch element, owned through their embedding, and every device's share of the
    pipeline's. -/
theorem u₀_split : (ownU (u₀ (F := F)) : sProp 𝕄)
    ⊢ |==> iprop(BI.own (EH (initOf (K (F := F)).hsCells (K (F := F)).hsToks)) ∗ bigSep Finset.univ fun d : Dev nD => Gd (F := F) d) := by
  unfold u₀
  iintro Hu
  ihave H := (ownU_pair (initOf (K (F := F)).hsCells (K (F := F)).hsToks) ((uP, 1) : UR sig nD τ × Counters)) $$ Hu
  icases H with ⟨HH, HR⟩
  ihave HR' := (own_pair_emb (embR : Emb (UR sig nD τ × Counters) (MT nD τ sig (HIx 1) (Elt F) ℕ UU ℕ)) uP (1 : Counters)) $$ HR
  icases HR' with ⟨HP, -⟩
  imod (fundP (F := F)) $$ HP with HG
  imodintro
  isplitl [HH]; · iexact HH
  iexact HG

end Cert.ProofB.TcAlg

end
-- ==== Proof.B.LaunchPay.lean ====
/-
  What the SparseCore call's handshakes carry, stated over ANY per-tile assertions `GO` (what a tile is handed) and
  `TD` (what it hands back): a SparseCore's start carries its sixteen tiles' `GO`s, its done their `TD`s, so the
  split among the tiles is the identity. The launch element of the ghost state funds the handshakes only.
-/
import proofs.«207592_g65111704207794_cont_9to1_m_407_36_alg».proof.Proof.B.LaunchFin
import proofs.«207592_g65111704207794_cont_9to1_m_407_36_alg».proof.Proof.B.TcAlg

noncomputable section

namespace Cert.ProofB.KI

open Cert.Kernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The resource algebra: the handshakes' rounds, the staging cells' rounds, the transfers' counters -/

open Cert.ProofB.TcAlg (UH UU EH EP Gd)

local notation "𝕄" => MT nD τ sig (HIx 1) (Elt F) ℕ UU ℕ

variable (GO TD : Dev nD → Fin 2 → Fin 16 → sProp (MT nD τ sig (HIx 1) (Elt F) ℕ UU ℕ))

/-- The one call: SparseCore `c` takes its tiles' `GO`s and brings back their `TD`s. -/
theorem nCore_q (q : Fin 1) : (K (F := F)).nCore q = 2 := match q with | 0 => rfl
theorem nSub_q (q : Fin 1) : (K (F := F)).nSub q = 16 := match q with | 0 => rfl

def P : (K (F := F)).Pay (nD := nD) (Val := Elt F) (Name := ℕ) (U := UU) where
  st := fun q d c => bigSep Finset.univ fun i : Fin 16 => GO d (Fin.cast (nCore_q q) c) i
  dn := fun q d c => bigSep Finset.univ fun i : Fin 16 => TD d (Fin.cast (nCore_q q) c) i
  go := fun q d c i => GO d (Fin.cast (nCore_q q) c) (Fin.cast (nSub_q q) i)
  td := fun q d c i => TD d (Fin.cast (nCore_q q) c) (Fin.cast (nSub_q q) i)
  x := fun _ _ => iprop(emp)

theorem P_storable (hG : ∀ d c i, BI.Storable (upEmb : UEmb _ 𝕄) (GO d c i)) (hT : ∀ d c i, BI.Storable (upEmb : UEmb _ 𝕄) (TD d c i)) :
    (P (F := F) GO TD).IsStorable where
  st q d c := by
    haveI := hG
    exact (inferInstance : BI.Storable (upEmb : UEmb _ 𝕄) (bigSep Finset.univ fun i : Fin 16 => GO d (Fin.cast (nCore_q q) c) i))
  dn q d c := by
    haveI := hT
    exact (inferInstance : BI.Storable (upEmb : UEmb _ 𝕄) (bigSep Finset.univ fun i : Fin 16 => TD d (Fin.cast (nCore_q q) c) i))
  go q d c i := hG d _ _
  td q d c i := hT d _ _

theorem bigSep_tasks (Φ : Fin 16 → sProp 𝕄) :
    (bigSep Finset.univ fun i : Fin ((K (F := F)).nSub 0) => Φ (Fin.cast (nSub_q 0) i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast (nCore_q 0) c)) = bigSep Finset.univ Φ :=
  bigSep_congr fun _ _ => congrArg Φ (Fin.ext rfl)

/-- The split among a SparseCore's tiles: its start carries exactly their shares. -/
theorem vecSplit : (K (F := F)).VecSplit' (P GO TD) 0 := by
  intro d c
  show (bigSep Finset.univ fun i : Fin 16 => GO d (Fin.cast (nCore_q 0) c) i) ⊢ |={Set.univ}=> iprop(
      (bigSep Finset.univ fun i : Fin ((K (F := F)).nSub 0) => GO d (Fin.cast (nCore_q 0) c) (Fin.cast (nSub_q 0) i))
      ∗ ((bigSep Finset.univ fun i : Fin ((K (F := F)).nSub 0) => TD d (Fin.cast (nCore_q 0) c) (Fin.cast (nSub_q 0) i))
          -∗ bigSep Finset.univ fun i : Fin 16 => TD d (Fin.cast (nCore_q 0) c) i))
  rw [bigSep_tasks (F := F) (fun i => GO d (Fin.cast (nCore_q 0) c) i), bigSep_tasks (F := F) (fun i => TD d (Fin.cast (nCore_q 0) c) i)]
  iintro H; imodintro
  isplitl [H]; · iexact H
  iintro H; iexact H

/-- What the call takes for the two SparseCores, and what it hands back: every tile's share. -/
theorem st0_eq (d : Dev nD) :
    (bigSep Finset.univ fun c : Fin ((K (F := F)).nCore 0) => (P GO TD).st 0 d c) = bigSep Finset.univ fun c : Fin 2 => bigSep Finset.univ fun i : Fin 16 => GO d c i :=
  bigSep_cores (F := F) (fun c => bigSep Finset.univ fun i : Fin 16 => GO d c i)
theorem dn0_eq (d : Dev nD) :
    (bigSep Finset.univ fun c : Fin ((K (F := F)).nCore 0) => (P GO TD).dn 0 d c) = bigSep Finset.univ fun c : Fin 2 => bigSep Finset.univ fun i : Fin 16 => TD d c i :=
  bigSep_cores (F := F) (fun c => bigSep Finset.univ fun i : Fin 16 => TD d c i)

/-! ## The launch element of the ghost state -/

theorem bigSep_emp' {I : Type} (s : Finset I) : (bigSep s fun _ => iprop(emp)) = (iprop(emp) : sProp 𝕄) := bigSep_emp_const s

/-- The launch element funds the handshakes' rounds and every TensorCore's staging cells; the tiles' proofs consume
    nothing of it. -/
theorem hu₀ [FloatOps F] : (ownU (Cert.ProofB.TcAlg.u₀ (F := F)) : sProp 𝕄)
    ⊢ |={Set.univ}=> iprop(BI.own (EH (initOf (K (F := F)).hsCells (K (F := F)).hsToks)) ∗ (bigSep Finset.univ fun d : Dev nD => Gd (F := F) d)
        ∗ bigSep Finset.univ fun thr : Thread nD τ => bigSep Finset.univ fun q : Fin 1 => (P GO TD).x q thr) := by
  iintro Hu
  imod (Cert.ProofB.TcAlg.u₀_split (F := F)) $$ Hu with H
  icases H with ⟨HH, HG⟩
  imodintro
  isplitl [HH]; · iexact HH
  isplitl [HG]; · iexact HG
  rw [show (bigSep Finset.univ fun thr : Thread nD τ => bigSep Finset.univ fun q : Fin 1 => (P (F := F) GO TD).x q thr) = bigSep Finset.univ fun _ => iprop(emp) from
    bigSep_congr fun _ _ => bigSep_univ_of_subsingleton (0 : Fin 1), bigSep_emp']
  iempintro

end Cert.ProofB.KI

end
-- ==== Proof.B.LaunchTile.lean ====
/-
  The vector-subcore call's obligation from the proof of one task at a symbolic place: the body table's entry for a
  tile is the kernel function at the tile's coordinates, and the launch theorem's pre- and postcondition are the
  task's, the records of waits weakened.
-/
import proofs.«207592_g65111704207794_cont_9to1_m_407_36_alg».proof.Proof.B.LaunchPay

noncomputable section

namespace Cert.ProofB.KI

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ProofB.TcAlg (UH UU EH EP Gd)

variable {F : FTy → Type} [FloatOps F]

local notation "𝕄" => MT nD τ sig (HIx 1) (Elt F) ℕ UU ℕ

/-- A tile's coordinates in the kernel's grid: its SparseCore, its subcore. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

/-- The kernel function as the body table calls it for the tile at `L`: the seven arrays whole, the tile's nine
    scratch buffers whole, its semaphores. -/
abbrev tileProg (L : grid0.Coords) : Prog (TpuEff nD τ sig (Elt F) Λ₀ (.scVector (cV L) (jV L))) PUnit :=
  cc0__sc_gather (F := F) L (Memref.whole main_v18_scv) (Memref.isWhole_whole _) (Memref.whole main_v42_scv) (Memref.isWhole_whole _)
    (Memref.whole main_v43_scv) (Memref.isWhole_whole _) (Memref.whole main_v21_scv) (Memref.isWhole_whole _) (Memref.whole main_v44_scv) (Memref.isWhole_whole _)
    (Memref.whole main_v45_0_scv) (Memref.isWhole_whole _) (Memref.whole main_v45_1_scv) (Memref.isWhole_whole _)
    (Memref.whole cc0_scratch0) (Memref.isWhole_whole _) (Memref.whole cc0_scratch1) (Memref.isWhole_whole _) (Memref.whole cc0_scratch2) (Memref.isWhole_whole _)
    (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) (Memref.whole cc0_scratch8) (Memref.isWhole_whole _)
    cc0_scratch9 cc0_scratch10 cc0_scratch11 cc0_scratch12 cc0_scratch13 cc0_scratch14 cc0_scratch15 cc0_scratch16
    cc0_scoped0 cc0_scoped1 cc0_scoped2 cc0_scoped3 cc0_scoped4

theorem defs₀_vector (c : Fin τ.nSC) (s : Fin τ.nSub) :
    defs₀ (F := F) (.scVector c s) 0 () = SparseCore.onTile hcore0 hsub0 (fun c s => tileProg (F := F) (coordsV c s)) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (GOt TDt : Dev nD → grid0.Coords → sProp (MT nD τ sig (HIx 1) (Elt F) ℕ UU ℕ))

/-- What tile `i` of SparseCore `c` is handed and hands back, at its coordinates. -/
abbrev GOof : Dev nD → Fin 2 → Fin 16 → sProp (MT nD τ sig (HIx 1) (Elt F) ℕ UU ℕ) := fun d c i => GOt d (coordsV c i)
abbrev TDof : Dev nD → Fin 2 → Fin 16 → sProp (MT nD τ sig (HIx 1) (Elt F) ℕ UU ℕ) := fun d c i => TDt d (coordsV c i)

/-- The proof of one task at a symbolic place, in the form the wrapper takes. -/
def TileBody : Prop :=
  ∀ (d : Dev nD) (L : grid0.Coords) (O : CellTallies nD τ sig (HIx 1)) (W : Waits sig (HIx 1)), (∀ g, O g none = 0) →
    iprop(levAts (K (F := F)).L (K (F := F)).lev ∗ emp ∗ GOt d L
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (tileProg (F := F) L)
          fun _ => iprop(TDt d L ∗ scopedBufs (V d (cV L) (jV L)) ∗ scopedSems0 (V d (cV L) (jV L))
            ∗ ∃ W', ⌜∀ p ∈ W', p ∈ W ∨ p.2 = none⌝ ∗ owes (V d (cV L) (jV L)) O W')

set_option maxRecDepth 16384 in
theorem tileObl (hbody : TileBody (F := F) GOt TDt) :
    (K (F := F)).TileObl (D (F := F)) 𝒱 (P (GOof GOt) (TDof TDt)) v₀ 0 := by
  intro d c i O W hO _ _
  simp only [show (P (GOof GOt) (TDof TDt)).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody d (coordsV ⟨_, hci.1⟩ ⟨_, hci.2⟩) O W hO).trans (wp_mono frame _ _ fun _ => obl_post)

end Cert.ProofB.KI

end
-- ==== Proof.B.ScSpec.lean ====
/-
  The values the vector-subcore task leaves in its two results, index by index, as functions of the
  contents of the arrays it reads: the embedding table, the two index lists, the first-order weights and
  the feature values.
-/
import proofs.«207592_g65111704207794_cont_9to1_m_407_36_alg».proof.Kernel

noncomputable section

namespace Cert.ProofB.ScSpec

open Cert.Kernel
open Idealize.ShloMosaic

variable {F : FTy → Type} [FloatOps F]

/-- The position, in a worker's transposed list of 26 chunks of 128, of batch row `b` (worker `b / 128`,
    row `b % 128` of it) and chunk `c`. -/
def pos (b c : ℕ) : ℕ := (b / 128) * 3328 + c * 128 + b % 128

theorem pos_lt {b c : ℕ} (hb : b < 4096) (hc : c < 26) : pos b c < 106496 := by
  unfold pos
  have h1 : b / 128 ≤ 31 := by omega
  have h2 : b % 128 < 128 := Nat.mod_lt _ (by decide)
  omega

/-- An index of a rank-one shape of extent `n` from a number (taken modulo `n`). -/
def ix1 (n : ℕ) (hn : 0 < n) (k : ℕ) : (⟨1, ![n]⟩ : Shape).Idx := fun a =>
  match a with
  | 0 => (⟨k % n, Nat.mod_lt _ hn⟩ : Fin n)

/-- An index of a rank-two shape from two numbers (each taken modulo its extent). -/
def ix2 (n m : ℕ) (hn : 0 < n) (hm : 0 < m) (i j : ℕ) : (⟨2, ![n, m]⟩ : Shape).Idx := fun a =>
  match a with
  | 0 => (⟨i % n, Nat.mod_lt _ hn⟩ : Fin n)
  | 1 => (⟨j % m, Nat.mod_lt _ hm⟩ : Fin m)

/-- The second-order result: row `b`, column `c * 128 + e` holds element `e` of the table row the transposed
    index list names at `pos b c`, times the feature value at the same position. -/
def E2 (T : S26000x128.Idx → F .f32) (I2 : S106496.Idx → BitVec 32) (XV : S106496.Idx → F .f32) :
    S4096x3328.Idx → F .f32 := fun x =>
  FloatOps.mulf (T (ix2 26000 128 (by decide) (by decide) (I2 (ix1 106496 (by decide) (pos (x 0).val ((x 1).val / 128)))).toNat ((x 1).val % 128)))
    (XV (ix1 106496 (by decide) (pos (x 0).val ((x 1).val / 128))))

/-- The first-order result: position `k` holds the weight the padded index list names there. -/
def SS (IS : S131072.Idx → BitVec 32) (WF : S26008.Idx → F .f32) : S131072.Idx → F .f32 := fun k =>
  WF (ix1 26008 (by decide) (IS k).toNat)

end Cert.ProofB.ScSpec
-- ==== Proof.B.ScViews.lean ====
/-
  The arrays, slices and scratch buffers of the vector-subcore task as the program addresses them, the
  elements of each array one task holds, and what it holds before and after it runs.
-/
import proofs.«207592_g65111704207794_cont_9to1_m_407_36_alg».proof.Proof.B.ScSpec
import proofs.«207592_g65111704207794_cont_9to1_m_407_36_alg».proof.Proof.B.TcAlg
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207592_g65111704207794_cont_9to1_m_407_36_alg».proof.Proof.Gen.Kernel
import proofs.«207592_g65111704207794_cont_9to1_m_407_36_alg».proof.Proof.Gen.Kernel.Skeleton

noncomputable section

namespace Cert.ProofB.ScViews

open Cert.Kernel Cert.Kernel.Gen
open Cert.ProofB.ScSpec
open Cert.ProofB.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays in HBM and the scratch buffers, whole, as the task names them -/

abbrev tV : Memref sig .scVector .hbm S26000x128 .f32 := Memref.whole main_v18_scv
abbrev i2V : Memref sig .scVector .hbm S106496 .i32 := Memref.whole main_v42_scv
abbrev isV : Memref sig .scVector .hbm S131072 .i32 := Memref.whole main_v43_scv
abbrev wfV : Memref sig .scVector .hbm S26008 .f32 := Memref.whole main_v21_scv
abbrev xvV : Memref sig .scVector .hbm S106496 .f32 := Memref.whole main_v44_scv
abbrev e2V : Memref sig .scVector .hbm S4096x3328 .f32 := Memref.whole main_v45_0_scv
abbrev soV : Memref sig .scVector .hbm S131072 .f32 := Memref.whole main_v45_1_scv
abbrev s0V : Memref sig .scVector .vmem S3328 .i32 := Memref.whole cc0_scratch0
abbrev s1V : Memref sig .scVector .vmem S4096 .i32 := Memref.whole cc0_scratch1
abbrev s2V : Memref sig .scVector .vmem S26008 .f32 := Memref.whole cc0_scratch2
abbrev s3V : Memref sig .scVector .vmem S4096 .f32 := Memref.whole cc0_scratch3
abbrev s4V : Memref sig .scVector .vmem S3328 .f32 := Memref.whole cc0_scratch4
abbrev r0V : Memref sig .scVector .vmem S128x128 .f32 := Memref.whole cc0_scratch5
abbrev r1V : Memref sig .scVector .vmem S128x128 .f32 := Memref.whole cc0_scratch6
abbrev r2V : Memref sig .scVector .vmem S128x128 .f32 := Memref.whole cc0_scratch7
abbrev r3V : Memref sig .scVector .vmem S128x128 .f32 := Memref.whole cc0_scratch8

abbrev tLoc (d : Dev nD) : Loc nD τ sig := (SparseCore.T d).loc main_v18
abbrev i2Loc (d : Dev nD) : Loc nD τ sig := (SparseCore.T d).loc main_v42
abbrev isLoc (d : Dev nD) : Loc nD τ sig := (SparseCore.T d).loc main_v43
abbrev wfLoc (d : Dev nD) : Loc nD τ sig := (SparseCore.T d).loc main_v21
abbrev xvLoc (d : Dev nD) : Loc nD τ sig := (SparseCore.T d).loc main_v44
abbrev e2Loc (d : Dev nD) : Loc nD τ sig := (SparseCore.T d).loc main_v45_0
abbrev soLoc (d : Dev nD) : Loc nD τ sig := (SparseCore.T d).loc main_v45_1

abbrev cV (L : grid0.Coords) : Fin τ.nSC := (L 0).castLE hcore0
abbrev jV (L : grid0.Coords) : Fin τ.nSub := (L 1).castLE hsub0

/-! ## One task's slices -/

abbrev i2Sl (L : grid0.Coords) : Memref sig .scVector .hbm S3328 .i32 :=
  (i2V).slice (Rect.unit (s := S106496) (k0_off1 L) S3328.size (k0_off1_inb L)) (fun _ => rfl)
abbrev xvSl (L : grid0.Coords) : Memref sig .scVector .hbm S3328 .f32 :=
  (xvV).slice (Rect.unit (s := S106496) (k0_off1 L) S3328.size (k0_off1_inb L)) (fun _ => rfl)
abbrev isSl (L : grid0.Coords) : Memref sig .scVector .hbm S4096 .i32 :=
  (isV).slice (Rect.unit (s := S131072) (k0_off2 L) S4096.size (k0_off2_inb L)) (fun _ => rfl)
abbrev soSl (L : grid0.Coords) : Memref sig .scVector .hbm S4096 .f32 :=
  (soV).slice (Rect.unit (s := S131072) (k0_off2 L) S4096.size (k0_off2_inb L)) (fun _ => rfl)

abbrev i2Set (L : grid0.Coords) : Finset S106496.Idx := (i2Sl L).view.set
abbrev xvSet (L : grid0.Coords) : Finset S106496.Idx := (xvSl L).view.set
abbrev isSet (L : grid0.Coords) : Finset S131072.Idx := (isSl L).view.set
abbrev soSet (L : grid0.Coords) : Finset S131072.Idx := (soSl L).view.set

/-- The first of the task's 128 rows of the second-order result. -/
abbrev e2Row0 (L : grid0.Coords) : ℕ := 256 * (L 1).val + 128 * (L 0).val

theorem e2Rows_inb (L : grid0.Coords) : ∀ a, (![e2Row0 L, 0] : Fin 2 → ℕ) a + (![128, 3328] : Fin 2 → ℕ) a ≤ S4096x3328.size a := by
  have h1 : (L 1).val < 16 := (L 1).isLt
  have h0 : (L 0).val < 2 := (L 0).isLt
  refine Rect.inb₂ ?_ ?_
  · show 256 * (L 1).val + 128 * (L 0).val + 128 ≤ 4096; omega
  · show 0 + 3328 ≤ 3328; omega

/-- The task's 128 rows of the second-order result, all columns. -/
abbrev e2Rect (L : grid0.Coords) : Rect S4096x3328 := Rect.unit (s := S4096x3328) ![e2Row0 L, 0] ![128, 3328] (e2Rows_inb L)
abbrev e2Rows (L : grid0.Coords) : Finset S4096x3328.Idx := ((e2V).view.slice (e2Rect L)).set

/-! ## What one task holds of the arrays, before and after -/

section Held
variable (d : Dev nD) (L : grid0.Coords) (qT qW : PosShare TreeShare)
variable (Tb : Buf (Elt F) (tLoc d)) (I2 : Buf (Elt F) (i2Loc d)) (IS : Buf (Elt F) (isLoc d))
  (WF : Buf (Elt F) (wfLoc d)) (XV : Buf (Elt F) (xvLoc d))

/-- Before: a share of the table and of the weights, the task's slices of the two index lists and of the feature
    values, and its rows and slice of the two results at whatever they hold. -/
abbrev GO : sProp 𝕄 :=
  iprop((tLoc d ↦{qT} Tb) ∗ (wfLoc d ↦{qW} WF) ∗ (i2Loc d ↦[i2Set L]{fullShare} I2) ∗ (xvLoc d ↦[xvSet L]{fullShare} XV)
    ∗ (isLoc d ↦[isSet L]{fullShare} IS) ∗ (∃ f, e2Loc d ↦[e2Rows L]{fullShare} f) ∗ (∃ f, soLoc d ↦[soSet L]{fullShare} f))

/-- After: the same, the results at their values. -/
abbrev TD : sProp 𝕄 :=
  iprop((tLoc d ↦{qT} Tb) ∗ (wfLoc d ↦{qW} WF) ∗ (i2Loc d ↦[i2Set L]{fullShare} I2) ∗ (xvLoc d ↦[xvSet L]{fullShare} XV)
    ∗ (isLoc d ↦[isSet L]{fullShare} IS) ∗ (e2Loc d ↦[e2Rows L]{fullShare} (E2 Tb I2 XV : Buf (Elt F) (e2Loc d)))
    ∗ (soLoc d ↦[soSet L]{fullShare} (SS IS WF : Buf (Elt F) (soLoc d))))

end Held

/-- The task's program, on the whole arrays and its own scratch and semaphores, as the body table passes them. -/
abbrev task (L : grid0.Coords) : Prog (TpuEff nD τ sig (Elt F) Λ₀ (.scVector (cV L) (jV L))) PUnit :=
  cc0__sc_gather L tV (Memref.isWhole_whole _) i2V (Memref.isWhole_whole _) isV (Memref.isWhole_whole _) wfV (Memref.isWhole_whole _)
    xvV (Memref.isWhole_whole _) e2V (Memref.isWhole_whole _) soV (Memref.isWhole_whole _)
    s0V (Memref.isWhole_whole _) s1V (Memref.isWhole_whole _) s2V (Memref.isWhole_whole _) s3V (Memref.isWhole_whole _) s4V (Memref.isWhole_whole _)
    r0V (Memref.isWhole_whole _) r1V (Memref.isWhole_whole _) r2V (Memref.isWhole_whole _) r3V (Memref.isWhole_whole _)
    cc0_scratch9 cc0_scratch10 cc0_scratch11 cc0_scratch12 cc0_scratch13 cc0_scratch14 cc0_scratch15 cc0_scratch16
    cc0_scoped0 cc0_scoped1 cc0_scoped2 cc0_scoped3 cc0_scoped4

/-! ## The task's own semaphores and scratch buffers among its thread's -/

section Own

variable (d : Dev nD) (L : grid0.Coords)

/-- The task's thread's cell of one of its own DMA semaphores. -/
abbrev cell (s : DmaSems sig S_) : GSem nD τ sig := (V d (cV L) (jV L), SemLoc.dma s.sem)
abbrev sref (b : Ref sig .scVector) : DevRef τ sig := (Proc.scVector (cV L) (jV L)).devRef b
abbrev sloc (b : Ref sig .scVector) : Loc nD τ sig := (V d (cV L) (jV L)).loc b

omit [FloatOps F] in
theorem cell_ne {a b : DmaSems sig S_} (h : a.sem ≠ b.sem) : cell d L a ≠ cell d L b :=
  fun e => h (SemLoc.dma.inj (Prod.mk.inj e).2)
omit [FloatOps F] in
theorem sref_ne {a b : Ref sig .scVector} (h : a ≠ b) : sref L a ≠ sref L b :=
  fun e => h (Proc.devRef_injective _ e)

abbrev semSet : Finset (GSem nD τ sig) := ({cell d L cc0_scratch9, cell d L cc0_scratch10, cell d L cc0_scratch11, cell d L cc0_scratch12, cell d L cc0_scratch13, cell d L cc0_scratch14, cell d L cc0_scratch15, cell d L cc0_scratch16, cell d L cc0_scoped0, cell d L cc0_scoped1, cell d L cc0_scoped2, cell d L cc0_scoped3, cell d L cc0_scoped4} : Finset (GSem nD τ sig))
abbrev bufSet : Finset (DevRef τ sig) := ({sref L cc0_scratch0, sref L cc0_scratch1, sref L cc0_scratch2, sref L cc0_scratch3, sref L cc0_scratch4, sref L cc0_scratch5, sref L cc0_scratch6, sref L cc0_scratch7, sref L cc0_scratch8} : Finset (DevRef τ sig))

omit [FloatOps F] in
theorem semSet_split (Φ : GSem nD τ sig → sProp 𝕄) :
    bigSep (semSet d L) Φ = iprop(Φ (cell d L cc0_scratch9) ∗ Φ (cell d L cc0_scratch10) ∗ Φ (cell d L cc0_scratch11) ∗ Φ (cell d L cc0_scratch12) ∗ Φ (cell d L cc0_scratch13) ∗ Φ (cell d L cc0_scratch14) ∗ Φ (cell d L cc0_scratch15) ∗ Φ (cell d L cc0_scratch16) ∗ Φ (cell d L cc0_scoped0) ∗ Φ (cell d L cc0_scoped1) ∗ Φ (cell d L cc0_scoped2) ∗ Φ (cell d L cc0_scoped3) ∗ Φ (cell d L cc0_scoped4)) := by
  unfold semSet
  rw [SparseCore.bigSep_insert' (by simp only [Finset.mem_insert, Finset.mem_singleton, not_or]; exact ⟨cell_ne d L (a := cc0_scratch9) (b := cc0_scratch10) (by decide), cell_ne d L (a := cc0_scratch9) (b := cc0_scratch11) (by decide), cell_ne d L (a := cc0_scratch9) (b := cc0_scratch12) (by decide), cell_ne d L (a := cc0_scratch9) (b := cc0_scratch13) (by decide), cell_ne d L (a := cc0_scratch9) (b := cc0_scratch14) (by decide), cell_ne d L (a := cc0_scratch9) (b := cc0_scratch15) (by decide), cell_ne d L (a := cc0_scratch9) (b := cc0_scratch16) (by decide), cell_ne d L (a := cc0_scratch9) (b := cc0_scoped0) (by decide), cell_ne d L (a := cc0_scratch9) (b := cc0_scoped1) (by decide), cell_ne d L (a := cc0_scratch9) (b := cc0_scoped2) (by decide), cell_ne d L (a := cc0_scratch9) (b := cc0_scoped3) (by decide), cell_ne d L (a := cc0_scratch9) (b := cc0_scoped4) (by decide)⟩)]
  rw [SparseCore.bigSep_insert' (by simp only [Finset.mem_insert, Finset.mem_singleton, not_or]; exact ⟨cell_ne d L (a := cc0_scratch10) (b := cc0_scratch11) (by decide), cell_ne d L (a := cc0_scratch10) (b := cc0_scratch12) (by decide), cell_ne d L (a := cc0_scratch10) (b := cc0_scratch13) (by decide), cell_ne d L (a := cc0_scratch10) (b := cc0_scratch14) (by decide), cell_ne d L (a := cc0_scratch10) (b := cc0_scratch15) (by decide), cell_ne d L (a := cc0_scratch10) (b := cc0_scratch16) (by decide), cell_ne d L (a := cc0_scratch10) (b := cc0_scoped0) (by decide), cell_ne d L (a := cc0_scratch10) (b := cc0_scoped1) (by decide), cell_ne d L (a := cc0_scratch10) (b := cc0_scoped2) (by decide), cell_ne d L (a := cc0_scratch10) (b := cc0_scoped3) (by decide), cell_ne d L (a := cc0_scratch10) (b := cc0_scoped4) (by decide)⟩)]
  rw [SparseCore.bigSep_insert' (by simp only [Finset.mem_insert, Finset.mem_singleton, not_or]; exact ⟨cell_ne d L (a := cc0_scratch11) (b := cc0_scratch12) (by decide), cell_ne d L (a := cc0_scratch11) (b := cc0_scratch13) (by decide), cell_ne d L (a := cc0_scratch11) (b := cc0_scratch14) (by decide), cell_ne d L (a := cc0_scratch11) (b := cc0_scratch15) (by decide), cell_ne d L (a := cc0_scratch11) (b := cc0_scratch16) (by decide), cell_ne d L (a := cc0_scratch11) (b := cc0_scoped0) (by decide), cell_ne d L (a := cc0_scratch11) (b := cc0_scoped1) (by decide), cell_ne d L (a := cc0_scratch11) (b := cc0_scoped2) (by decide), cell_ne d L (a := cc0_scratch11) (b := cc0_scoped3) (by decide), cell_ne d L (a := cc0_scratch11) (b := cc0_scoped4) (by decide)⟩)]
  rw [SparseCore.bigSep_insert' (by simp only [Finset.mem_insert, Finset.mem_singleton, not_or]; exact ⟨cell_ne d L (a := cc0_scratch12) (b := cc0_scratch13) (by decide), cell_ne d L (a := cc0_scratch12) (b := cc0_scratch14) (by decide), cell_ne d L (a := cc0_scratch12) (b := cc0_scratch15) (by decide), cell_ne d L (a := cc0_scratch12) (b := cc0_scratch16) (by decide), cell_ne d L (a := cc0_scratch12) (b := cc0_scoped0) (by decide), cell_ne d L (a := cc0_scratch12) (b := cc0_scoped1) (by decide), cell_ne d L (a := cc0_scratch12) (b := cc0_scoped2) (by decide), cell_ne d L (a := cc0_scratch12) (b := cc0_scoped3) (by decide), cell_ne d L (a := cc0_scratch12) (b := cc0_scoped4) (by decide)⟩)]
  rw [SparseCore.bigSep_insert' (by simp only [Finset.mem_insert, Finset.mem_singleton, not_or]; exact ⟨cell_ne d L (a := cc0_scratch13) (b := cc0_scratch14) (by decide), cell_ne d L (a := cc0_scratch13) (b := cc0_scratch15) (by decide), cell_ne d L (a := cc0_scratch13) (b := cc0_scratch16) (by decide), cell_ne d L (a := cc0_scratch13) (b := cc0_scoped0) (by decide), cell_ne d L (a := cc0_scratch13) (b := cc0_scoped1) (by decide), cell_ne d L (a := cc0_scratch13) (b := cc0_scoped2) (by decide), cell_ne d L (a := cc0_scratch13) (b := cc0_scoped3) (by decide), cell_ne d L (a := cc0_scratch13) (b := cc0_scoped4) (by decide)⟩)]
  rw [SparseCore.bigSep_insert' (by simp only [Finset.mem_insert, Finset.mem_singleton, not_or]; exact ⟨cell_ne d L (a := cc0_scratch14) (b := cc0_scratch15) (by decide), cell_ne d L (a := cc0_scratch14) (b := cc0_scratch16) (by decide), cell_ne d L (a := cc0_scratch14) (b := cc0_scoped0) (by decide), cell_ne d L (a := cc0_scratch14) (b := cc0_scoped1) (by decide), cell_ne d L (a := cc0_scratch14) (b := cc0_scoped2) (by decide), cell_ne d L (a := cc0_scratch14) (b := cc0_scoped3) (by decide), cell_ne d L (a := cc0_scratch14) (b := cc0_scoped4) (by decide)⟩)]
  rw [SparseCore.bigSep_insert' (by simp only [Finset.mem_insert, Finset.mem_singleton, not_or]; exact ⟨cell_ne d L (a := cc0_scratch15) (b := cc0_scratch16) (by decide), cell_ne d L (a := cc0_scratch15) (b := cc0_scoped0) (by decide), cell_ne d L (a := cc0_scratch15) (b := cc0_scoped1) (by decide), cell_ne d L (a := cc0_scratch15) (b := cc0_scoped2) (by decide), cell_ne d L (a := cc0_scratch15) (b := cc0_scoped3) (by decide), cell_ne d L (a := cc0_scratch15) (b := cc0_scoped4) (by decide)⟩)]
  rw [SparseCore.bigSep_insert' (by simp only [Finset.mem_insert, Finset.mem_singleton, not_or]; exact ⟨cell_ne d L (a := cc0_scratch16) (b := cc0_scoped0) (by decide), cell_ne d L (a := cc0_scratch16) (b := cc0_scoped1) (by decide), cell_ne d L (a := cc0_scratch16) (b := cc0_scoped2) (by decide), cell_ne d L (a := cc0_scratch16) (b := cc0_scoped3) (by decide), cell_ne d L (a := cc0_scratch16) (b := cc0_scoped4) (by decide)⟩)]
  rw [SparseCore.bigSep_insert' (by simp only [Finset.mem_insert, Finset.mem_singleton, not_or]; exact ⟨cell_ne d L (a := cc0_scoped0) (b := cc0_scoped1) (by decide), cell_ne d L (a := cc0_scoped0) (b := cc0_scoped2) (by decide), cell_ne d L (a := cc0_scoped0) (b := cc0_scoped3) (by decide), cell_ne d L (a := cc0_scoped0) (b := cc0_scoped4) (by decide)⟩)]
  rw [SparseCore.bigSep_insert' (by simp only [Finset.mem_insert, Finset.mem_singleton, not_or]; exact ⟨cell_ne d L (a := cc0_scoped1) (b := cc0_scoped2) (by decide), cell_ne d L (a := cc0_scoped1) (b := cc0_scoped3) (by decide), cell_ne d L (a := cc0_scoped1) (b := cc0_scoped4) (by decide)⟩)]
  rw [SparseCore.bigSep_insert' (by simp only [Finset.mem_insert, Finset.mem_singleton, not_or]; exact ⟨cell_ne d L (a := cc0_scoped2) (b := cc0_scoped3) (by decide), cell_ne d L (a := cc0_scoped2) (b := cc0_scoped4) (by decide)⟩)]
  rw [SparseCore.bigSep_insert' (by simp only [Finset.mem_insert, Finset.mem_singleton, not_or]; exact cell_ne d L (a := cc0_scoped3) (b := cc0_scoped4) (by decide))]
  rw [bigSep_singleton]

omit [FloatOps F] in
theorem bufSet_split (Φ : DevRef τ sig → sProp 𝕄) :
    bigSep (bufSet L) Φ = iprop(Φ (sref L cc0_scratch0) ∗ Φ (sref L cc0_scratch1) ∗ Φ (sref L cc0_scratch2) ∗ Φ (sref L cc0_scratch3) ∗ Φ (sref L cc0_scratch4) ∗ Φ (sref L cc0_scratch5) ∗ Φ (sref L cc0_scratch6) ∗ Φ (sref L cc0_scratch7) ∗ Φ (sref L cc0_scratch8)) := by
  unfold bufSet
  rw [SparseCore.bigSep_insert' (by simp only [Finset.mem_insert, Finset.mem_singleton, not_or]; exact ⟨sref_ne L (a := cc0_scratch0) (b := cc0_scratch1) (by decide), sref_ne L (a := cc0_scratch0) (b := cc0_scratch2) (by decide), sref_ne L (a := cc0_scratch0) (b := cc0_scratch3) (by decide), sref_ne L (a := cc0_scratch0) (b := cc0_scratch4) (by decide), sref_ne L (a := cc0_scratch0) (b := cc0_scratch5) (by decide), sref_ne L (a := cc0_scratch0) (b := cc0_scratch6) (by decide), sref_ne L (a := cc0_scratch0) (b := cc0_scratch7) (by decide), sref_ne L (a := cc0_scratch0) (b := cc0_scratch8) (by decide)⟩)]
  rw [SparseCore.bigSep_insert' (by simp only [Finset.mem_insert, Finset.mem_singleton, not_or]; exact ⟨sref_ne L (a := cc0_scratch1) (b := cc0_scratch2) (by decide), sref_ne L (a := cc0_scratch1) (b := cc0_scratch3) (by decide), sref_ne L (a := cc0_scratch1) (b := cc0_scratch4) (by decide), sref_ne L (a := cc0_scratch1) (b := cc0_scratch5) (by decide), sref_ne L (a := cc0_scratch1) (b := cc0_scratch6) (by decide), sref_ne L (a := cc0_scratch1) (b := cc0_scratch7) (by decide), sref_ne L (a := cc0_scratch1) (b := cc0_scratch8) (by decide)⟩)]
  rw [SparseCore.bigSep_insert' (by simp only [Finset.mem_insert, Finset.mem_singleton, not_or]; exact ⟨sref_ne L (a := cc0_scratch2) (b := cc0_scratch3) (by decide), sref_ne L (a := cc0_scratch2) (b := cc0_scratch4) (by decide), sref_ne L (a := cc0_scratch2) (b := cc0_scratch5) (by decide), sref_ne L (a := cc0_scratch2) (b := cc0_scratch6) (by decide), sref_ne L (a := cc0_scratch2) (b := cc0_scratch7) (by decide), sref_ne L (a := cc0_scratch2) (b := cc0_scratch8) (by decide)⟩)]
  rw [SparseCore.bigSep_insert' (by simp only [Finset.mem_insert, Finset.mem_singleton, not_or]; exact ⟨sref_ne L (a := cc0_scratch3) (b := cc0_scratch4) (by decide), sref_ne L (a := cc0_scratch3) (b := cc0_scratch5) (by decide), sref_ne L (a := cc0_scratch3) (b := cc0_scratch6) (by decide), sref_ne L (a := cc0_scratch3) (b := cc0_scratch7) (by decide), sref_ne L (a := cc0_scratch3) (b := cc0_scratch8) (by decide)⟩)]
  rw [SparseCore.bigSep_insert' (by simp only [Finset.mem_insert, Finset.mem_singleton, not_or]; exact ⟨sref_ne L (a := cc0_scratch4) (b := cc0_scratch5) (by decide), sref_ne L (a := cc0_scratch4) (b := cc0_scratch6) (by decide), sref_ne L (a := cc0_scratch4) (b := cc0_scratch7) (by decide), sref_ne L (a := cc0_scratch4) (b := cc0_scratch8) (by decide)⟩)]
  rw [SparseCore.bigSep_insert' (by simp only [Finset.mem_insert, Finset.mem_singleton, not_or]; exact ⟨sref_ne L (a := cc0_scratch5) (b := cc0_scratch6) (by decide), sref_ne L (a := cc0_scratch5) (b := cc0_scratch7) (by decide), sref_ne L (a := cc0_scratch5) (b := cc0_scratch8) (by decide)⟩)]
  rw [SparseCore.bigSep_insert' (by simp only [Finset.mem_insert, Finset.mem_singleton, not_or]; exact ⟨sref_ne L (a := cc0_scratch6) (b := cc0_scratch7) (by decide), sref_ne L (a := cc0_scratch6) (b := cc0_scratch8) (by decide)⟩)]
  rw [SparseCore.bigSep_insert' (by simp only [Finset.mem_insert, Finset.mem_singleton, not_or]; exact sref_ne L (a := cc0_scratch7) (b := cc0_scratch8) (by decide))]
  rw [bigSep_singleton]

omit [FloatOps F] in
theorem ownSems0_V :
    (ownSems0 (V d (cV L) (jV L)) : sProp 𝕄)
      = iprop((semVal (cell d L cc0_scratch9) 0 ∗ semVal (cell d L cc0_scratch10) 0 ∗ semVal (cell d L cc0_scratch11) 0 ∗ semVal (cell d L cc0_scratch12) 0 ∗ semVal (cell d L cc0_scratch13) 0 ∗ semVal (cell d L cc0_scratch14) 0 ∗ semVal (cell d L cc0_scratch15) 0 ∗ semVal (cell d L cc0_scratch16) 0 ∗ semVal (cell d L cc0_scoped0) 0 ∗ semVal (cell d L cc0_scoped1) 0 ∗ semVal (cell d L cc0_scoped2) 0 ∗ semVal (cell d L cc0_scoped3) 0 ∗ semVal (cell d L cc0_scoped4) 0)
          ∗ bigSep (ownCells (V d (cV L) (jV L)) \ semSet d L) fun g => semVal g 0) := by
  unfold SparseCore.Cfg.ownSems0
  rw [SparseCore.bigSep_sdiff_split' (t := semSet d L) ?hsub, semSet_split]
  case hsub =>
    intro g hg
    simp only [Finset.mem_insert, Finset.mem_singleton] at hg
    rcases hg with h | h | h | h | h | h | h | h | h | h | h | h | h
    · exact h ▸ (mem_ownCells (g := cell d L cc0_scratch9)).mpr ⟨rfl, by show (SemLoc.dma cc0_scratch9.sem : SemLoc sig).isScoped .scVector = true; decide⟩
    · exact h ▸ (mem_ownCells (g := cell d L cc0_scratch10)).mpr ⟨rfl, by show (SemLoc.dma cc0_scratch10.sem : SemLoc sig).isScoped .scVector = true; decide⟩
    · exact h ▸ (mem_ownCells (g := cell d L cc0_scratch11)).mpr ⟨rfl, by show (SemLoc.dma cc0_scratch11.sem : SemLoc sig).isScoped .scVector = true; decide⟩
    · exact h ▸ (mem_ownCells (g := cell d L cc0_scratch12)).mpr ⟨rfl, by show (SemLoc.dma cc0_scratch12.sem : SemLoc sig).isScoped .scVector = true; decide⟩
    · exact h ▸ (mem_ownCells (g := cell d L cc0_scratch13)).mpr ⟨rfl, by show (SemLoc.dma cc0_scratch13.sem : SemLoc sig).isScoped .scVector = true; decide⟩
    · exact h ▸ (mem_ownCells (g := cell d L cc0_scratch14)).mpr ⟨rfl, by show (SemLoc.dma cc0_scratch14.sem : SemLoc sig).isScoped .scVector = true; decide⟩
    · exact h ▸ (mem_ownCells (g := cell d L cc0_scratch15)).mpr ⟨rfl, by show (SemLoc.dma cc0_scratch15.sem : SemLoc sig).isScoped .scVector = true; decide⟩
    · exact h ▸ (mem_ownCells (g := cell d L cc0_scratch16)).mpr ⟨rfl, by show (SemLoc.dma cc0_scratch16.sem : SemLoc sig).isScoped .scVector = true; decide⟩
    · exact h ▸ (mem_ownCells (g := cell d L cc0_scoped0)).mpr ⟨rfl, by show (SemLoc.dma cc0_scoped0.sem : SemLoc sig).isScoped .scVector = true; decide⟩
    · exact h ▸ (mem_ownCells (g := cell d L cc0_scoped1)).mpr ⟨rfl, by show (SemLoc.dma cc0_scoped1.sem : SemLoc sig).isScoped .scVector = true; decide⟩
    · exact h ▸ (mem_ownCells (g := cell d L cc0_scoped2)).mpr ⟨rfl, by show (SemLoc.dma cc0_scoped2.sem : SemLoc sig).isScoped .scVector = true; decide⟩
    · exact h ▸ (mem_ownCells (g := cell d L cc0_scoped3)).mpr ⟨rfl, by show (SemLoc.dma cc0_scoped3.sem : SemLoc sig).isScoped .scVector = true; decide⟩
    · exact h ▸ (mem_ownCells (g := cell d L cc0_scoped4)).mpr ⟨rfl, by show (SemLoc.dma cc0_scoped4.sem : SemLoc sig).isScoped .scVector = true; decide⟩

omit [FloatOps F] in
theorem ownBufs_V :
    (ownBufs (V d (cV L) (jV L)) : sProp 𝕄)
      = iprop(((∃ f, sloc d L cc0_scratch0 ↦{fullShare} f) ∗ (∃ f, sloc d L cc0_scratch1 ↦{fullShare} f) ∗ (∃ f, sloc d L cc0_scratch2 ↦{fullShare} f) ∗ (∃ f, sloc d L cc0_scratch3 ↦{fullShare} f) ∗ (∃ f, sloc d L cc0_scratch4 ↦{fullShare} f) ∗ (∃ f, sloc d L cc0_scratch5 ↦{fullShare} f) ∗ (∃ f, sloc d L cc0_scratch6 ↦{fullShare} f) ∗ (∃ f, sloc d L cc0_scratch7 ↦{fullShare} f) ∗ (∃ f, sloc d L cc0_scratch8 ↦{fullShare} f))
          ∗ bigSep (ownRefs (τ := τ) (.scVector (cV L) (jV L)) \ bufSet L) fun b => iprop(∃ f, ((d, b) : Loc nD τ sig) ↦{fullShare} f)) := by
  unfold SparseCore.Cfg.ownBufs
  rw [SparseCore.bigSep_sdiff_split' (t := bufSet L) ?hsub, bufSet_split]
  case hsub =>
    intro g hg
    simp only [Finset.mem_insert, Finset.mem_singleton] at hg
    rcases hg with h | h | h | h | h | h | h | h | h
    · exact h ▸ SparseCore.Cfg.mem_ownRefs_of_owner (p := Proc.scVector (cV L) (jV L)) (b := sref L cc0_scratch0) rfl
    · exact h ▸ SparseCore.Cfg.mem_ownRefs_of_owner (p := Proc.scVector (cV L) (jV L)) (b := sref L cc0_scratch1) rfl
    · exact h ▸ SparseCore.Cfg.mem_ownRefs_of_owner (p := Proc.scVector (cV L) (jV L)) (b := sref L cc0_scratch2) rfl
    · exact h ▸ SparseCore.Cfg.mem_ownRefs_of_owner (p := Proc.scVector (cV L) (jV L)) (b := sref L cc0_scratch3) rfl
    · exact h ▸ SparseCore.Cfg.mem_ownRefs_of_owner (p := Proc.scVector (cV L) (jV L)) (b := sref L cc0_scratch4) rfl
    · exact h ▸ SparseCore.Cfg.mem_ownRefs_of_owner (p := Proc.scVector (cV L) (jV L)) (b := sref L cc0_scratch5) rfl
    · exact h ▸ SparseCore.Cfg.mem_ownRefs_of_owner (p := Proc.scVector (cV L) (jV L)) (b := sref L cc0_scratch6) rfl
    · exact h ▸ SparseCore.Cfg.mem_ownRefs_of_owner (p := Proc.scVector (cV L) (jV L)) (b := sref L cc0_scratch7) rfl
    · exact h ▸ SparseCore.Cfg.mem_ownRefs_of_owner (p := Proc.scVector (cV L) (jV L)) (b := sref L cc0_scratch8) rfl

end Own

end Cert.ProofB.ScViews
-- ==== Proof.B.LaunchSplit.lean ====
/-
  How the call's seven arrays split among the thirty-two tasks and join again. The table and the first-order weights
  are read by every task: each gets one read share of the thirty-two split off the full share. The two index lists
  and the feature values are cut into thirty-two consecutive slices, the second-order result into thirty-two bands of
  128 rows, the first-order result into thirty-two slices; task (core c, subcore i) has number 2 i + c. The bands and
  slices are pairwise disjoint and cover their arrays, so an array held whole is its pieces held apart, and pieces
  all holding ONE whole-array function join to the array at that function.
-/
import proofs.«207592_g65111704207794_cont_9to1_m_407_36_alg».proof.Proof.B.LaunchTile
import proofs.«207592_g65111704207794_cont_9to1_m_407_36_alg».proof.Proof.B.ScViews

noncomputable section

namespace Cert.ProofB.KI

open Cert.Kernel Cert.Kernel.Gen
open Cert.ProofB.ScSpec (E2 SS)
open Cert.ProofB.ScViews (tLoc i2Loc isLoc wfLoc xvLoc e2Loc soLoc i2Set xvSet isSet soSet e2Rows GO TD)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.ProofB.TcAlg (UH UU EH EP Gd)

variable {F : FTy → Type} [FloatOps F]

local notation "𝕄" => MT nD τ sig (HIx 1) (Elt F) ℕ UU ℕ

/-! ## Tasks and their numbers -/

/-- A task: its SparseCore and its subcore. -/
abbrev TI : Type := Fin 2 × Fin 16

/-- The task's number: twice the subcore plus the core. -/
def wid (t : TI) : ℕ := 2 * t.2.val + t.1.val

theorem wid_lt (t : TI) : wid t < 32 := by
  have h1 := t.1.isLt; have h2 := t.2.isLt; unfold wid; omega

theorem wid_inj {t t' : TI} (h : wid t = wid t') : t = t' := by
  have h1 := t.1.isLt; have h2 := t'.1.isLt
  unfold wid at h
  exact Prod.ext (Fin.ext (by omega)) (Fin.ext (by omega))

/-- Tasks are numbered bijectively by 0, …, 31. -/
def widEquiv : TI ≃ Fin 32 where
  toFun t := ⟨wid t, wid_lt t⟩
  invFun k := (⟨k.val % 2, Nat.mod_lt _ (by decide)⟩, ⟨k.val / 2, by have := k.isLt; omega⟩)
  left_inv t := by
    have h1 := t.1.isLt
    refine Prod.ext (Fin.ext ?_) (Fin.ext ?_) <;> simp only [wid] <;> omega
  right_inv k := by
    refine Fin.ext ?_
    simp only [wid]; omega

abbrev LL (t : TI) : grid0.Coords := coordsV t.1 t.2

/-- The task's read share of an array all tasks read. -/
abbrev qOf (L : grid0.Coords) : PosShare TreeShare :=
  Transfers.shareTokN fullShare (2 * (L 1).val + (L 0).val)

/-! ## Thirty-two consecutive pieces of a range are disjoint and cover it -/

section Pieces

variable {X : Type} [DecidableEq X] [Fintype X] (Kt : TI → Finset X) (r : X → ℕ) (sz : ℕ)

theorem pieces_disjoint (hmem : ∀ t x, x ∈ Kt t ↔ sz * wid t ≤ r x ∧ r x < sz * wid t + sz) :
    ∀ t ∈ (Finset.univ : Finset TI), ∀ t' ∈ (Finset.univ : Finset TI), t ≠ t' → Disjoint (Kt t) (Kt t') := by
  intro t _ t' _ hne
  rw [Finset.disjoint_left]
  intro x hx hx'
  obtain ⟨a1, a2⟩ := (hmem t x).1 hx
  obtain ⟨b1, b2⟩ := (hmem t' x).1 hx'
  have hw : wid t ≠ wid t' := fun e => hne (wid_inj e)
  rcases Nat.lt_or_gt_of_ne hw with h | h
  · have : sz * wid t + sz ≤ sz * wid t' := by
      calc sz * wid t + sz = sz * (wid t + 1) := by ring
        _ ≤ sz * wid t' := Nat.mul_le_mul_left _ h
    omega
  · have : sz * wid t' + sz ≤ sz * wid t := by
      calc sz * wid t' + sz = sz * (wid t' + 1) := by ring
        _ ≤ sz * wid t := Nat.mul_le_mul_left _ h
    omega

theorem pieces_cover (hsz : 0 < sz) (hr : ∀ x, r x < 32 * sz)
    (hmem : ∀ t x, x ∈ Kt t ↔ sz * wid t ≤ r x ∧ r x < sz * wid t + sz) :
    (Finset.univ : Finset TI).biUnion Kt = Finset.univ := by
  refine Finset.eq_univ_iff_forall.mpr fun x => Finset.mem_biUnion.mpr ?_
  have hk : r x / sz < 32 := (Nat.div_lt_iff_lt_mul hsz).mpr (hr x)
  refine ⟨widEquiv.symm ⟨r x / sz, hk⟩, Finset.mem_univ _, (hmem _ x).2 ?_⟩
  have hw : wid (widEquiv.symm ⟨r x / sz, hk⟩) = r x / sz := congrArg Fin.val (widEquiv.apply_symm_apply ⟨r x / sz, hk⟩)
  rw [hw]
  have h1 := Nat.div_add_mod (r x) sz
  have h2 := Nat.mod_lt (r x) hsz
  constructor <;> omega

end Pieces

/-! ## The tasks' pieces of each array -/

theorem mem_i2Set (L : grid0.Coords) (x : S106496.Idx) :
    x ∈ i2Set L ↔ 3328 * (2 * (L 1).val + (L 0).val) ≤ (x 0).val ∧ (x 0).val < 3328 * (2 * (L 1).val + (L 0).val) + 3328 := by
  show x ∈ ((View.whole (main_v42_scv : Ref sig .scVector)).slice (Rect.unit (s := S106496) (k0_off1 L) S3328.size (k0_off1_inb L))).set ↔ _
  rw [View.set_slice_whole, Rect.mem_set_unit, k0_off1_eq]
  constructor
  · intro h; have h0 := h 0
    simp only [Matrix.cons_val_zero] at h0
    have e : S3328.size 0 = 3328 := rfl
    omega
  · intro h a
    match a with
    | 0 =>
      simp only [Matrix.cons_val_zero]
      have e : S3328.size 0 = 3328 := rfl
      omega

theorem mem_xvSet (L : grid0.Coords) (x : S106496.Idx) :
    x ∈ xvSet L ↔ 3328 * (2 * (L 1).val + (L 0).val) ≤ (x 0).val ∧ (x 0).val < 3328 * (2 * (L 1).val + (L 0).val) + 3328 := by
  show x ∈ ((View.whole (main_v44_scv : Ref sig .scVector)).slice (Rect.unit (s := S106496) (k0_off1 L) S3328.size (k0_off1_inb L))).set ↔ _
  rw [View.set_slice_whole, Rect.mem_set_unit, k0_off1_eq]
  constructor
  · intro h; have h0 := h 0
    simp only [Matrix.cons_val_zero] at h0
    have e : S3328.size 0 = 3328 := rfl
    omega
  · intro h a
    match a with
    | 0 =>
      simp only [Matrix.cons_val_zero]
      have e : S3328.size 0 = 3328 := rfl
      omega

theorem mem_isSet (L : grid0.Coords) (x : S131072.Idx) :
    x ∈ isSet L ↔ 4096 * (2 * (L 1).val + (L 0).val) ≤ (x 0).val ∧ (x 0).val < 4096 * (2 * (L 1).val + (L 0).val) + 4096 := by
  show x ∈ ((View.whole (main_v43_scv : Ref sig .scVector)).slice (Rect.unit (s := S131072) (k0_off2 L) S4096.size (k0_off2_inb L))).set ↔ _
  rw [View.set_slice_whole, Rect.mem_set_unit, k0_off2_eq]
  constructor
  · intro h; have h0 := h 0
    simp only [Matrix.cons_val_zero] at h0
    have e : S4096.size 0 = 4096 := rfl
    omega
  · intro h a
    match a with
    | 0 =>
      simp only [Matrix.cons_val_zero]
      have e : S4096.size 0 = 4096 := rfl
      omega

theorem mem_soSet (L : grid0.Coords) (x : S131072.Idx) :
    x ∈ soSet L ↔ 4096 * (2 * (L 1).val + (L 0).val) ≤ (x 0).val ∧ (x 0).val < 4096 * (2 * (L 1).val + (L 0).val) + 4096 := by
  show x ∈ ((View.whole (main_v45_1_scv : Ref sig .scVector)).slice (Rect.unit (s := S131072) (k0_off2 L) S4096.size (k0_off2_inb L))).set ↔ _
  rw [View.set_slice_whole, Rect.mem_set_unit, k0_off2_eq]
  constructor
  · intro h; have h0 := h 0
    simp only [Matrix.cons_val_zero] at h0
    have e : S4096.size 0 = 4096 := rfl
    omega
  · intro h a
    match a with
    | 0 =>
      simp only [Matrix.cons_val_zero]
      have e : S4096.size 0 = 4096 := rfl
      omega

theorem mem_e2Rows (L : grid0.Coords) (x : S4096x3328.Idx) :
    x ∈ e2Rows L ↔ 128 * (2 * (L 1).val + (L 0).val) ≤ (x 0).val ∧ (x 0).val < 128 * (2 * (L 1).val + (L 0).val) + 128 := by
  show x ∈ ((View.whole (main_v45_0_scv : Ref sig .scVector)).slice (Cert.ProofB.ScViews.e2Rect L)).set ↔ _
  rw [View.set_slice_whole, Rect.mem_set_unit]
  have h1 : (x 1).val < 3328 := (x 1).isLt
  constructor
  · intro h; have h0 := h 0
    simp only [Matrix.cons_val_zero, Cert.ProofB.ScViews.e2Row0] at h0
    omega
  · intro h a
    match a with
    | 0 =>
      simp only [Matrix.cons_val_zero, Cert.ProofB.ScViews.e2Row0]
      omega
    | 1 =>
      show 0 ≤ (x 1).val ∧ (x 1).val < 0 + 3328
      omega

theorem LL_zero (t : TI) : ((LL t) 0).val = t.1.val := rfl
theorem LL_one (t : TI) : ((LL t) 1).val = t.2.val := rfl

theorem i2_disjoint : ∀ t ∈ (Finset.univ : Finset TI), ∀ t' ∈ (Finset.univ : Finset TI), t ≠ t' → Disjoint (i2Set (LL t)) (i2Set (LL t')) :=
  pieces_disjoint (fun t => i2Set (LL t)) (fun x => (x 0).val) 3328 (fun t x => mem_i2Set (LL t) x)
theorem i2_cover : (Finset.univ : Finset TI).biUnion (fun t => i2Set (LL t)) = Finset.univ :=
  pieces_cover (fun t => i2Set (LL t)) (fun x => (x 0).val) 3328 (by decide) (fun x => (x 0).isLt) (fun t x => mem_i2Set (LL t) x)
theorem xv_disjoint : ∀ t ∈ (Finset.univ : Finset TI), ∀ t' ∈ (Finset.univ : Finset TI), t ≠ t' → Disjoint (xvSet (LL t)) (xvSet (LL t')) :=
  pieces_disjoint (fun t => xvSet (LL t)) (fun x => (x 0).val) 3328 (fun t x => mem_xvSet (LL t) x)
theorem xv_cover : (Finset.univ : Finset TI).biUnion (fun t => xvSet (LL t)) = Finset.univ :=
  pieces_cover (fun t => xvSet (LL t)) (fun x => (x 0).val) 3328 (by decide) (fun x => (x 0).isLt) (fun t x => mem_xvSet (LL t) x)
theorem is_disjoint : ∀ t ∈ (Finset.univ : Finset TI), ∀ t' ∈ (Finset.univ : Finset TI), t ≠ t' → Disjoint (isSet (LL t)) (isSet (LL t')) :=
  pieces_disjoint (fun t => isSet (LL t)) (fun x => (x 0).val) 4096 (fun t x => mem_isSet (LL t) x)
theorem is_cover : (Finset.univ : Finset TI).biUnion (fun t => isSet (LL t)) = Finset.univ :=
  pieces_cover (fun t => isSet (LL t)) (fun x => (x 0).val) 4096 (by decide) (fun x => (x 0).isLt) (fun t x => mem_isSet (LL t) x)
theorem so_disjoint : ∀ t ∈ (Finset.univ : Finset TI), ∀ t' ∈ (Finset.univ : Finset TI), t ≠ t' → Disjoint (soSet (LL t)) (soSet (LL t')) :=
  pieces_disjoint (fun t => soSet (LL t)) (fun x => (x 0).val) 4096 (fun t x => mem_soSet (LL t) x)
theorem so_cover : (Finset.univ : Finset TI).biUnion (fun t => soSet (LL t)) = Finset.univ :=
  pieces_cover (fun t => soSet (LL t)) (fun x => (x 0).val) 4096 (by decide) (fun x => (x 0).isLt) (fun t x => mem_soSet (LL t) x)
theorem e2_disjoint : ∀ t ∈ (Finset.univ : Finset TI), ∀ t' ∈ (Finset.univ : Finset TI), t ≠ t' → Disjoint (e2Rows (LL t)) (e2Rows (LL t')) :=
  pieces_disjoint (fun t => e2Rows (LL t)) (fun x => (x 0).val) 128 (fun t x => mem_e2Rows (LL t) x)
theorem e2_cover : (Finset.univ : Finset TI).biUnion (fun t => e2Rows (LL t)) = Finset.univ :=
  pieces_cover (fun t => e2Rows (LL t)) (fun x => (x 0).val) 128 (by decide) (fun x => (x 0).isLt) (fun t x => mem_e2Rows (LL t) x)

/-! ## The arrays split among the tasks, and joined -/

section SplitJoin

variable (d : Dev nD) (Tb : Buf (Elt F) (tLoc d)) (I2 : Buf (Elt F) (i2Loc d)) (IS : Buf (Elt F) (isLoc d))
  (WF : Buf (Elt F) (wfLoc d)) (XV : Buf (Elt F) (xvLoc d))

/-- What the task at `L` is handed, and what it hands back: its read shares, its slices, its pieces of the results. -/
abbrev GOt (L : grid0.Coords) : sProp (MT nD τ sig (HIx 1) (Elt F) ℕ UU ℕ) := GO d L (qOf L) (qOf L) Tb I2 IS WF XV
abbrev TDt (L : grid0.Coords) : sProp (MT nD τ sig (HIx 1) (Elt F) ℕ UU ℕ) := TD d L (qOf L) (qOf L) Tb I2 IS WF XV

omit [FloatOps F] in
/-- The thirty-two read tokens of an array, indexed by the tasks. -/
theorem toks_tasks {ℓ : Loc nD τ sig} (f : Buf (Elt F) ℓ) :
    (bigSep Finset.univ fun i : Fin 32 => (ℓ ↦{Transfers.shareTok fullShare 32 i} f : sProp 𝕄))
      = bigSep Finset.univ fun t : TI => ℓ ↦{qOf (LL t)} f :=
  bigSep_univ_equiv widEquiv (fun i : Fin 32 => (ℓ ↦{Transfers.shareTok fullShare 32 i} f : sProp 𝕄))

omit [FloatOps F] in
theorem i2_pieces (f : Buf (Elt F) (i2Loc d)) :
    (i2Loc d ↦{fullShare} f : sProp 𝕄) = bigSep Finset.univ fun t : TI => i2Loc d ↦[i2Set (LL t)]{fullShare} f := by
  rw [← pointsTo_biUnion Finset.univ (ℓ := i2Loc d) (fun t : TI => i2Set (LL t)) i2_disjoint, i2_cover]
omit [FloatOps F] in
theorem xv_pieces (f : Buf (Elt F) (xvLoc d)) :
    (xvLoc d ↦{fullShare} f : sProp 𝕄) = bigSep Finset.univ fun t : TI => xvLoc d ↦[xvSet (LL t)]{fullShare} f := by
  rw [← pointsTo_biUnion Finset.univ (ℓ := xvLoc d) (fun t : TI => xvSet (LL t)) xv_disjoint, xv_cover]
omit [FloatOps F] in
theorem is_pieces (f : Buf (Elt F) (isLoc d)) :
    (isLoc d ↦{fullShare} f : sProp 𝕄) = bigSep Finset.univ fun t : TI => isLoc d ↦[isSet (LL t)]{fullShare} f := by
  rw [← pointsTo_biUnion Finset.univ (ℓ := isLoc d) (fun t : TI => isSet (LL t)) is_disjoint, is_cover]
omit [FloatOps F] in
theorem so_pieces (f : Buf (Elt F) (soLoc d)) :
    (soLoc d ↦{fullShare} f : sProp 𝕄) = bigSep Finset.univ fun t : TI => soLoc d ↦[soSet (LL t)]{fullShare} f := by
  rw [← pointsTo_biUnion Finset.univ (ℓ := soLoc d) (fun t : TI => soSet (LL t)) so_disjoint, so_cover]
omit [FloatOps F] in
theorem e2_pieces (f : Buf (Elt F) (e2Loc d)) :
    (e2Loc d ↦{fullShare} f : sProp 𝕄) = bigSep Finset.univ fun t : TI => e2Loc d ↦[e2Rows (LL t)]{fullShare} f := by
  rw [← pointsTo_biUnion Finset.univ (ℓ := e2Loc d) (fun t : TI => e2Rows (LL t)) e2_disjoint, e2_cover]

omit [FloatOps F] in
/-- Pieces held at one function are pieces each held at some function. -/
theorem pieces_exists {ℓ : Loc nD τ sig} (Kt : TI → Finset (Idx ℓ)) (f : Buf (Elt F) ℓ) :
    (bigSep Finset.univ fun t : TI => (ℓ ↦[Kt t]{fullShare} f : sProp 𝕄))
      ⊢ bigSep Finset.univ fun t : TI => (iprop(∃ g, ℓ ↦[Kt t]{fullShare} g) : sProp 𝕄) :=
  bigSep_mono fun t _ => exists_intro (Φ := fun g : Buf (Elt F) ℓ => (ℓ ↦[Kt t]{fullShare} g : sProp 𝕄)) f

/-- The seven arrays held whole are every task's part, and the remainders of the two shared arrays' shares. -/
theorem scSplitTI (f0 : Buf (Elt F) (e2Loc d)) (f1 : Buf (Elt F) (soLoc d)) :
    iprop((tLoc d ↦{fullShare} Tb) ∗ (wfLoc d ↦{fullShare} WF) ∗ (i2Loc d ↦{fullShare} I2) ∗ (xvLoc d ↦{fullShare} XV)
        ∗ (isLoc d ↦{fullShare} IS) ∗ (e2Loc d ↦{fullShare} f0) ∗ (soLoc d ↦{fullShare} f1))
      ⊢ (iprop((bigSep Finset.univ fun t : TI => GOt d Tb I2 IS WF XV (LL t))
          ∗ (tLoc d ↦{Transfers.shareDrop fullShare 32} Tb) ∗ (wfLoc d ↦{Transfers.shareDrop fullShare 32} WF)) : sProp 𝕄) := by
  unfold GOt GO
  rw [bigSep_sep', bigSep_sep', bigSep_sep', bigSep_sep', bigSep_sep', bigSep_sep', i2_pieces, xv_pieces, is_pieces, e2_pieces, so_pieces]
  iintro ⟨Ht, Hw, Hi2, Hxv, His, He2, Hso⟩
  ihave Ht' := (Transfers.pointsTo_toks_split (ℓ := tLoc d) (S := Finset.univ) (f := Tb) fullShare 32) $$ Ht
  icases Ht' with ⟨Htr, Htt⟩
  ihave Hw' := (Transfers.pointsTo_toks_split (ℓ := wfLoc d) (S := Finset.univ) (f := WF) fullShare 32) $$ Hw
  icases Hw' with ⟨Hwr, Hwt⟩
  ihave Htt' := (Entails.of_eq (toks_tasks (F := F) (ℓ := tLoc d) Tb)) $$ Htt
  ihave Hwt' := (Entails.of_eq (toks_tasks (F := F) (ℓ := wfLoc d) WF)) $$ Hwt
  isplitr [Htr Hwr]
  · isplitl [Htt']; · iexact Htt'
    isplitl [Hwt']; · iexact Hwt'
    isplitl [Hi2]; · iexact Hi2
    isplitl [Hxv]; · iexact Hxv
    isplitl [His]; · iexact His
    isplitl [He2]
    · iapply (pieces_exists (F := F) (ℓ := e2Loc d) (fun t : TI => e2Rows (LL t)) f0) $$ He2
    · iapply (pieces_exists (F := F) (ℓ := soLoc d) (fun t : TI => soSet (LL t)) f1) $$ Hso
  · isplitl [Htr] <;> iassumption

/-- Every task's part back, the results at their values, and the remainders, are the seven arrays whole: the
    operands unchanged, the two results at their whole-array functions. -/
theorem scJoinTI :
    (iprop((bigSep Finset.univ fun t : TI => TDt d Tb I2 IS WF XV (LL t))
          ∗ (tLoc d ↦{Transfers.shareDrop fullShare 32} Tb) ∗ (wfLoc d ↦{Transfers.shareDrop fullShare 32} WF)) : sProp 𝕄)
      ⊢ iprop((tLoc d ↦{fullShare} Tb) ∗ (wfLoc d ↦{fullShare} WF) ∗ (i2Loc d ↦{fullShare} I2) ∗ (xvLoc d ↦{fullShare} XV)
        ∗ (isLoc d ↦{fullShare} IS) ∗ (e2Loc d ↦{fullShare} (E2 Tb I2 XV : Buf (Elt F) (e2Loc d)))
        ∗ (soLoc d ↦{fullShare} (SS IS WF : Buf (Elt F) (soLoc d)))) := by
  unfold TDt TD
  rw [bigSep_sep', bigSep_sep', bigSep_sep', bigSep_sep', bigSep_sep', bigSep_sep', i2_pieces, xv_pieces, is_pieces, e2_pieces, so_pieces]
  iintro ⟨⟨Htt, Hwt, Hi2, Hxv, His, He2, Hso⟩, Htr, Hwr⟩
  ihave Htt' := (Entails.of_eq (toks_tasks (F := F) (ℓ := tLoc d) Tb).symm) $$ Htt
  ihave Hwt' := (Entails.of_eq (toks_tasks (F := F) (ℓ := wfLoc d) WF).symm) $$ Hwt
  isplitl [Htr Htt']
  · iapply (Transfers.pointsTo_toks_join (ℓ := tLoc d) (S := Finset.univ) (f := Tb) fullShare 32)
    isplitl [Htr] <;> iassumption
  isplitl [Hwr Hwt']
  · iapply (Transfers.pointsTo_toks_join (ℓ := wfLoc d) (S := Finset.univ) (f := WF) fullShare 32)
    isplitl [Hwr] <;> iassumption
  isplitl [Hi2]; · iexact Hi2
  isplitl [Hxv]; · iexact Hxv
  isplitl [His]; · iexact His
  isplitl [He2]; · iexact He2
  iexact Hso

end SplitJoin

end Cert.ProofB.KI

end
-- ==== Proof.B.HostOps.lean ====
/-
  The host operations of the entry function, as two lists: the ones that run before the SparseCore call and the
  three that run after it. The entry function is the first list, the call, the second list, the TensorCore call
  and the return; each list runs, inside a weakest precondition at the TensorCore's thread, from the unscoped
  buffers held whole at a valuation to the same buffers held at the fold of the operations' results.
  Generic in the float instance.
-/
import proofs.«207592_g65111704207794_cont_9to1_m_407_36_alg».proof.Proof.Gen.Kernel
import Idealize.ShloMosaic.Lib.StableHlo.Run
import Idealize.ShloMosaic.Lib.Pipeline.Frame
import Idealize.ShloMosaic.Lib.SparseCore.Launch

noncomputable section

namespace Cert.ProofB.HostOps

open Cert.Kernel Cert.Kernel.Gen Idealize.ShloMosaic Idealize.ShloMosaic.TcCoe Idealize.SL.Sem Idealize.ShloMosaic.StableHlo
open Idealize.SL Idealize.SL.RA Idealize.SL.BI
open scoped Idealize.SL.BI
open Idealize.SL.BI.BIBase Idealize.SL.BI.Laws Idealize.SL.ProofMode

variable {F : FTy → Type} [FloatOps F]

/-- The 50 operations before the SparseCore call, in order. -/
abbrev hostOps0 : List (HloOp τ sig (Elt F)) :=
  [ reshape main_arg0 main_v0 rfl shapeCasts_S4096x26x1_S4096x26,
    nullary main_v1 (iotaInDim S26 32 0),
    nullary main_c (constantI S_ 32 1000#32),
    unary main_c main_v2 (broadcastInDim S26 ![] bcast_S_S26 : (⟨S_, .i32⟩ : BufTy).Contents (Elt F) → (⟨S26, .i32⟩ : BufTy).Contents (Elt F)),
    binary main_v1 main_v2 main_v3 (muli : (⟨S26, .i32⟩ : BufTy).Contents (Elt F) → (⟨S26, .i32⟩ : BufTy).Contents (Elt F) → (⟨S26, .i32⟩ : BufTy).Contents (Elt F)),
    unary main_v3 main_v4 (broadcastInDim S1x26 ![1] bcast_S26_S1x26_1 : (⟨S26, .i32⟩ : BufTy).Contents (Elt F) → (⟨S1x26, .i32⟩ : BufTy).Contents (Elt F)),
    unary main_v4 main_v5 (broadcastInDim S4096x26 ![0, 1] bcast_S1x26_S4096x26_0_1 : (⟨S1x26, .i32⟩ : BufTy).Contents (Elt F) → (⟨S4096x26, .i32⟩ : BufTy).Contents (Elt F)),
    binary main_v0 main_v5 main_v6 (addi : (⟨S4096x26, .i32⟩ : BufTy).Contents (Elt F) → (⟨S4096x26, .i32⟩ : BufTy).Contents (Elt F) → (⟨S4096x26, .i32⟩ : BufTy).Contents (Elt F)),
    reshape main_v6 main_v7 rfl shapeCasts_S4096x26_S1x32x128x26,
    unary main_v7 main_v8 ((transpose S1x32x26x128 [0, 1, 3, 2] · transposes_S1x32x128x26_S1x32x26x128_0_1_3_2) : (⟨S1x32x128x26, .i32⟩ : BufTy).Contents (Elt F) → (⟨S1x32x26x128, .i32⟩ : BufTy).Contents (Elt F)),
    reshape main_v8 main_v9 rfl shapeCasts_S1x32x26x128_S1x106496,
    reshape main_arg1 main_v10 rfl shapeCasts_S4096x26_S1x32x128x26,
    unary main_v10 main_v11 ((transpose S1x32x26x128 [0, 1, 3, 2] · transposes_S1x32x128x26_S1x32x26x128_0_1_3_2) : (⟨S1x32x128x26, .f32⟩ : BufTy).Contents (Elt F) → (⟨S1x32x26x128, .f32⟩ : BufTy).Contents (Elt F)),
    reshape main_v11 main_v12 rfl shapeCasts_S1x32x26x128_S1x106496,
    unary main_v4 main_v13 (broadcastInDim S4096x26 ![0, 1] bcast_S1x26_S4096x26_0_1 : (⟨S1x26, .i32⟩ : BufTy).Contents (Elt F) → (⟨S4096x26, .i32⟩ : BufTy).Contents (Elt F)),
    binary main_v0 main_v13 main_v14 (addi : (⟨S4096x26, .i32⟩ : BufTy).Contents (Elt F) → (⟨S4096x26, .i32⟩ : BufTy).Contents (Elt F) → (⟨S4096x26, .i32⟩ : BufTy).Contents (Elt F)),
    nullary main_c_0 (constantI S_ 32 26000#32),
    unary main_c_0 main_v15 (broadcastInDim S4096x6 ![] bcast_S_S4096x6 : (⟨S_, .i32⟩ : BufTy).Contents (Elt F) → (⟨S4096x6, .i32⟩ : BufTy).Contents (Elt F)),
    binary main_v14 main_v15 main_v16 ((fun a b => concatenate S4096x32 1 [⟨S4096x26, a⟩, ⟨S4096x6, b⟩] concatenates_S4096x26_S4096x6_S4096x32_d1) : (⟨S4096x26, .i32⟩ : BufTy).Contents (Elt F) → (⟨S4096x6, .i32⟩ : BufTy).Contents (Elt F) → (⟨S4096x32, .i32⟩ : BufTy).Contents (Elt F)),
    reshape main_v16 main_v17 rfl shapeCasts_S4096x32_S1x131072,
    reshape main_arg4 main_v18 rfl shapeCasts_S26x1000x128_S26000x128,
    reshape main_arg3 main_v19 rfl shapeCasts_S26x1000x1_S26000,
    nullary main_cst (constant S_ .f32 0x00000000#32),
    unary main_cst main_v20 (broadcastInDim S8 ![] bcast_S_S8 : (⟨S_, .f32⟩ : BufTy).Contents (Elt F) → (⟨S8, .f32⟩ : BufTy).Contents (Elt F)),
    binary main_v19 main_v20 main_v21 ((fun a b => concatenate S26008 0 [⟨S26000, a⟩, ⟨S8, b⟩] concatenates_S26000_S8_S26008_d0) : (⟨S26000, .f32⟩ : BufTy).Contents (Elt F) → (⟨S8, .f32⟩ : BufTy).Contents (Elt F) → (⟨S26008, .f32⟩ : BufTy).Contents (Elt F)),
    nullary main_cst_1 (constant S_ .f32 0x00000000#32),
    unary main_cst_1 main_v22 (broadcastInDim S4096x6 ![] bcast_S_S4096x6 : (⟨S_, .f32⟩ : BufTy).Contents (Elt F) → (⟨S4096x6, .f32⟩ : BufTy).Contents (Elt F)),
    binary main_arg1 main_v22 main_v23 ((fun a b => concatenate S4096x32 1 [⟨S4096x26, a⟩, ⟨S4096x6, b⟩] concatenates_S4096x26_S4096x6_S4096x32_d1) : (⟨S4096x26, .f32⟩ : BufTy).Contents (Elt F) → (⟨S4096x6, .f32⟩ : BufTy).Contents (Elt F) → (⟨S4096x32, .f32⟩ : BufTy).Contents (Elt F)),
    unary main_arg5 main_v24 ((extractStridedSlice S26x1024 ![1, 0] · slices_S3355x1024_S26x1024_1_0) : (⟨S3355x1024, .f32⟩ : BufTy).Contents (Elt F) → (⟨S26x1024, .f32⟩ : BufTy).Contents (Elt F)),
    nullary main_cst_2 (constant S_ .f32 0x00000000#32),
    unary main_cst_2 main_v25 (broadcastInDim S6x1024 ![] bcast_S_S6x1024 : (⟨S_, .f32⟩ : BufTy).Contents (Elt F) → (⟨S6x1024, .f32⟩ : BufTy).Contents (Elt F)),
    binary main_v24 main_v25 main_v26 ((fun a b => concatenate S32x1024 0 [⟨S26x1024, a⟩, ⟨S6x1024, b⟩] concatenates_S26x1024_S6x1024_S32x1024_d0) : (⟨S26x1024, .f32⟩ : BufTy).Contents (Elt F) → (⟨S6x1024, .f32⟩ : BufTy).Contents (Elt F) → (⟨S32x1024, .f32⟩ : BufTy).Contents (Elt F)),
    unary main_v26 main_v27 ((truncf .bf16 · bitsLt_bf16_f32) : (⟨S32x1024, .f32⟩ : BufTy).Contents (Elt F) → (⟨S32x1024, .bf16⟩ : BufTy).Contents (Elt F)),
    unary main_arg5 main_v28 ((extractStridedSlice S3328x1024 ![27, 0] · slices_S3355x1024_S3328x1024_27_0) : (⟨S3355x1024, .f32⟩ : BufTy).Contents (Elt F) → (⟨S3328x1024, .f32⟩ : BufTy).Contents (Elt F)),
    unary main_v28 main_v29 ((truncf .bf16 · bitsLt_bf16_f32) : (⟨S3328x1024, .f32⟩ : BufTy).Contents (Elt F) → (⟨S3328x1024, .bf16⟩ : BufTy).Contents (Elt F)),
    unary main_arg2 main_v30 ((truncf .bf16 · bitsLt_bf16_f32) : (⟨S1, .f32⟩ : BufTy).Contents (Elt F) → (⟨S1, .bf16⟩ : BufTy).Contents (Elt F)),
    unary main_v30 main_v31 ((extf .f32 · bitsLt_bf16_f32) : (⟨S1, .bf16⟩ : BufTy).Contents (Elt F) → (⟨S1, .f32⟩ : BufTy).Contents (Elt F)),
    unary main_arg6 main_v32 (broadcastInDim S1x1024 ![1] bcast_S1024_S1x1024_1 : (⟨S1024, .f32⟩ : BufTy).Contents (Elt F) → (⟨S1x1024, .f32⟩ : BufTy).Contents (Elt F)),
    unary main_v31 main_v33 (broadcastInDim S1x1 ![0] bcast_S1_S1x1_0 : (⟨S1, .f32⟩ : BufTy).Contents (Elt F) → (⟨S1x1, .f32⟩ : BufTy).Contents (Elt F)),
    unary main_arg5 main_v34 ((extractStridedSlice S1x1024 ![0, 0] · slices_S3355x1024_S1x1024_0_0) : (⟨S3355x1024, .f32⟩ : BufTy).Contents (Elt F) → (⟨S1x1024, .f32⟩ : BufTy).Contents (Elt F)),
    unary main_v34 main_v35 ((truncf .bf16 · bitsLt_bf16_f32) : (⟨S1x1024, .f32⟩ : BufTy).Contents (Elt F) → (⟨S1x1024, .bf16⟩ : BufTy).Contents (Elt F)),
    unary main_v35 main_v36 ((extf .f32 · bitsLt_bf16_f32) : (⟨S1x1024, .bf16⟩ : BufTy).Contents (Elt F) → (⟨S1x1024, .f32⟩ : BufTy).Contents (Elt F)),
    unary main_v33 main_v37 (broadcastInDim S1x1024 ![0, 1] bcast_S1x1_S1x1024_0_1 : (⟨S1x1, .f32⟩ : BufTy).Contents (Elt F) → (⟨S1x1024, .f32⟩ : BufTy).Contents (Elt F)),
    binary main_v37 main_v36 main_v38 (mulf : (⟨S1x1024, .f32⟩ : BufTy).Contents (Elt F) → (⟨S1x1024, .f32⟩ : BufTy).Contents (Elt F) → (⟨S1x1024, .f32⟩ : BufTy).Contents (Elt F)),
    binary main_v32 main_v38 main_v39 (addf : (⟨S1x1024, .f32⟩ : BufTy).Contents (Elt F) → (⟨S1x1024, .f32⟩ : BufTy).Contents (Elt F) → (⟨S1x1024, .f32⟩ : BufTy).Contents (Elt F)),
    unary main_arg7 main_v40 ((truncf .bf16 · bitsLt_bf16_f32) : (⟨S1024x512, .f32⟩ : BufTy).Contents (Elt F) → (⟨S1024x512, .bf16⟩ : BufTy).Contents (Elt F)),
    unary main_arg9 main_v41 ((truncf .bf16 · bitsLt_bf16_f32) : (⟨S512x1, .f32⟩ : BufTy).Contents (Elt F) → (⟨S512x1, .bf16⟩ : BufTy).Contents (Elt F)),
    reshape main_v9 main_v42 rfl shapeCasts_S1x106496_S106496,
    reshape main_v17 main_v43 rfl shapeCasts_S1x131072_S131072,
    reshape main_v12 main_v44 rfl shapeCasts_S1x106496_S106496 ]

/-- The 3 operations between the SparseCore call and the TensorCore call, in order. -/
abbrev hostOps1 : List (HloOp τ sig (Elt F)) :=
  [ reshape main_v45_1 main_v46 rfl shapeCasts_S131072_S4096x32,
    reshape main_arg8 main_v47 rfl shapeCasts_S512_S1x512,
    reshape main_arg10 main_v48 rfl shapeCasts_S1_S1x1 ]

/-- What the entry function does once the first list has run. -/
abbrev mainRest (d : Dev nD) : Prog (TpuEff nD τ sig (Elt F) (SparseCore.Sig (Pipeline.Sig Λ₀ (Fin 1) fun p => (pcfgs (F := F) p).Adm) 1) .tc) PUnit :=
  sc.run d 0 >>= fun _ => seq hostOps1 >>= fun _ =>
    (Prog.lift (.customCall (SparseCore.inner (Pipeline.entry 0)) ()) >>= fun _ => pure ⟨⟩)

set_option maxRecDepth 8192 in
set_option maxHeartbeats 4000000 in
/-- The entry function: the first list, the SparseCore call, the second list, the TensorCore call, the return. -/
theorem main_eq (d : Dev nD) : main (F := F) d = seq hostOps0 >>= fun _ => mainRest d := rfl

set_option maxRecDepth 8192 in
theorem hostOps0_sub : (hostOps0 : List (HloOp τ sig (Elt F))).Forall fun op => op.bufs ⊆ tcRefs τ sig :=
  ⟨reshape_bufs_sub .., nullary_bufs_sub .., nullary_bufs_sub .., unary_bufs_sub .., binary_bufs_sub .., unary_bufs_sub .., unary_bufs_sub .., binary_bufs_sub .., reshape_bufs_sub .., unary_bufs_sub .., reshape_bufs_sub .., reshape_bufs_sub .., unary_bufs_sub .., reshape_bufs_sub .., unary_bufs_sub .., binary_bufs_sub .., nullary_bufs_sub .., unary_bufs_sub .., binary_bufs_sub .., reshape_bufs_sub .., reshape_bufs_sub .., reshape_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., binary_bufs_sub .., binary_bufs_sub .., unary_bufs_sub .., unary_bufs_sub .., reshape_bufs_sub .., reshape_bufs_sub .., reshape_bufs_sub ..⟩

theorem hostOps1_sub : (hostOps1 : List (HloOp τ sig (Elt F))).Forall fun op => op.bufs ⊆ tcRefs τ sig :=
  ⟨reshape_bufs_sub .., reshape_bufs_sub .., reshape_bufs_sub ..⟩

/-- Every operation of the first list touches unscoped TensorCore buffers only. -/
theorem hostOps0_uc : ∀ op ∈ (hostOps0 : List (HloOp τ sig (Elt F))), op.bufs ⊆ Pipeline.ucRefs τ sig :=
  fun op h => Pipeline.sub_ucRefs op (List.forall_iff_forall_mem.mp hostOps0_sub op h)
theorem hostOps1_uc : ∀ op ∈ (hostOps1 : List (HloOp τ sig (Elt F))), op.bufs ⊆ Pipeline.ucRefs τ sig :=
  fun op h => Pipeline.sub_ucRefs op (List.forall_iff_forall_mem.mp hostOps1_sub op h)

set_option maxRecDepth 8192 in
/-- Every operation determines its results. -/
theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-! ## Running the lists inside a weakest precondition -/

section Rules

variable {Ix : Type} [DecidableEq Ix] {Name : Type} [DecidableEq Name] {U : Type} [URA U] {Lvl : Type} [Preorder Lvl]
variable {Λ : Labels} {defs : Defs nD τ sig (Elt F) Λ} (𝒱 : Variants) (bd : Option 𝒱.V) (E : Set Name)

local notation "𝕄" => MT nD τ sig Ix (Elt F) Name U Lvl

/-- The device's buffers at launch, as a valuation. -/
abbrev V0 (m : (ℓ : Loc nD τ sig) → Buf (Elt F) ℓ) (d : Dev nD) : Valuation τ sig (Elt F) := fun b => m (d, b)

omit [FloatOps F] [Preorder Lvl] in
/-- The launch's unscoped buffers are the unscoped set held at the launch valuation. -/
theorem unscopedBufs_V0 (m : (ℓ : Loc nD τ sig) → Buf (Elt F) ℓ) (d : Dev nD) :
    (unscopedBufs (Ix := Ix) (Name := Name) (U := U) (Lvl := Lvl) d (fun b => m ((d.tc : Thread nD τ).loc b)) : sProp 𝕄)
      = held (d.tc : Thread nD τ) (Pipeline.ucRefs τ sig) (V0 m d) :=
  Pipeline.unscopedBufs_held (Ix := Ix) (Name := Name) (U := U) (Lvl := Lvl) d (V0 m d)

/-- The first list at the head of a TensorCore program, from the unscoped buffers held at `V`. -/
theorem wp_hostOps0 (d : Dev nD) {β : Type} (k : PUnit → Prog (TpuEff nD τ sig (Elt F) Λ .tc) β) {Q : β → sProp 𝕄}
    (V : Valuation τ sig (Elt F)) :
    iprop(boundary (d.tc : Thread nD τ) ∗ (held (d.tc : Thread nD τ) (Pipeline.ucRefs τ sig) V : sProp 𝕄))
      ⊢ iprop(((boundary (d.tc : Thread nD τ) ∗ (held (d.tc : Thread nD τ) (Pipeline.ucRefs τ sig) (after hostOps0 V) : sProp 𝕄))
                -∗ wp frame (wpE defs 𝒱 d.tc bd) E (k ⟨⟩) Q)
        -∗ wp frame (wpE defs 𝒱 d.tc bd) E (seq hostOps0 >>= k) Q) :=
  wp_seq 𝒱 bd E d (Pipeline.ucRefs τ sig) k hostOps0 hostOps0_uc hostOps0_fresh V

/-- The second list at the head of a TensorCore program, from the unscoped buffers held at `V`. -/
theorem wp_hostOps1 (d : Dev nD) {β : Type} (k : PUnit → Prog (TpuEff nD τ sig (Elt F) Λ .tc) β) {Q : β → sProp 𝕄}
    (V : Valuation τ sig (Elt F)) :
    iprop(boundary (d.tc : Thread nD τ) ∗ (held (d.tc : Thread nD τ) (Pipeline.ucRefs τ sig) V : sProp 𝕄))
      ⊢ iprop(((boundary (d.tc : Thread nD τ) ∗ (held (d.tc : Thread nD τ) (Pipeline.ucRefs τ sig) (after hostOps1 V) : sProp 𝕄))
                -∗ wp frame (wpE defs 𝒱 d.tc bd) E (k ⟨⟩) Q)
        -∗ wp frame (wpE defs 𝒱 d.tc bd) E (seq hostOps1 >>= k) Q) :=
  wp_seq 𝒱 bd E d (Pipeline.ucRefs τ sig) k hostOps1 hostOps1_uc hostOps1_fresh V

omit [FloatOps F] in
/-- Every unscoped TensorCore reference is in the held set. -/
theorem mem_ucRefs (r : Ref sig .tc) (h : r.isScoped = false) : Proc.devRef (τ := τ) .tc r ∈ Pipeline.ucRefs τ sig :=
  Finset.mem_filter.mpr ⟨devRef_mem_tcRefs r, by simpa using h⟩

end Rules

end Cert.ProofB.HostOps

end
-- ==== Proof.B.HostTerms.lean ====
/-
  The pure terms the host operations compute, and each term read at an index.
  The index list of the gather: entry w*3328 + c*128 + r is the integer argument at row w*128 + r, column c, plus
  c*1000. The scale list: entry w*3328 + c*128 + r is the float argument at row w*128 + r, column c. The padded
  index list of the first-order weights: entry b*32 + f is the integer argument at (b, f) plus f*1000 for f < 26 and
  26000 for 26 ≤ f < 32. The tables are the weight arguments with their two leading axes merged; the first-order
  table is followed by eight zeros. The TensorCore call's operands are the weight arguments sliced, padded with zeros,
  and narrowed to the 16-bit format.
  Generic in the float instance: narrowing, widening, product and sum stay the instance's own operations.
-/
import proofs.«207592_g65111704207794_cont_9to1_m_407_36_alg».proof.Proof.Gen.Kernel
import Idealize.ShloMosaic.Lib.Pipeline.Value
import Idealize.ShloMosaic.Lib.ValueIdx
import Idealize.ShloMosaic.Lib.ValueIdxCoords
import Idealize.ShloMosaic.Lib.ValueLayout

noncomputable section

namespace Cert.ProofB.HostTerms

open Cert.Kernel Cert.Kernel.Gen Idealize.ShloMosaic
open Idealize.ShloMosaic.ValueIdx Idealize.ShloMosaic.Pipeline

variable {F : FTy → Type} [FloatOps F]

/-! ## The terms -/

/-- Column c of every row: c times 1000. -/
def offs : IVec S4096x26 32 :=
  broadcastInDim S4096x26 ![0, 1] bcast_S1x26_S4096x26_0_1 (broadcastInDim S1x26 ![1] bcast_S26_S1x26_1 (muli (iotaInDim S26 32 0) (broadcastInDim S26 ![] bcast_S_S26 (constantI S_ 32 1000#32))))

/-- The integer argument with its unit axis dropped, plus the column offsets. -/
def idxOff (xi : IVec S4096x26x1 32) : IVec S4096x26 32 :=
  addi (shapeCast S4096x26 xi shapeCasts_S4096x26x1_S4096x26) offs

/-- A 4096 x 26 array laid out tile by tile: 32 tiles of 128 rows, each tile column by column. -/
def relayout {α : Type} (x : S4096x26.Idx → α) : S106496.Idx → α :=
  shapeCast S106496 (shapeCast S1x106496 (transpose S1x32x26x128 [0, 1, 3, 2] (shapeCast S1x32x128x26 x shapeCasts_S4096x26_S1x32x128x26) transposes_S1x32x128x26_S1x32x26x128_0_1_3_2) shapeCasts_S1x32x26x128_S1x106496) shapeCasts_S1x106496_S106496

/-- A 4096 x 26 array padded to 32 columns. -/
def pad32 {α : Type} (x : S4096x26.Idx → α) (z : S4096x6.Idx → α) : S4096x32.Idx → α :=
  concatenate S4096x32 1 [⟨S4096x26, x⟩, ⟨S4096x6, z⟩] concatenates_S4096x26_S4096x6_S4096x32_d1

/-- A 4096 x 32 array flattened row by row. -/
def flatten32 {α : Type} (y : S4096x32.Idx → α) : S131072.Idx → α :=
  shapeCast S131072 (shapeCast S1x131072 y shapeCasts_S4096x32_S1x131072) shapeCasts_S1x131072_S131072

def v42T (xi : IVec S4096x26x1 32) : IVec S106496 32 := relayout (idxOff xi)
def v44T (xv : FVec F S4096x26 .f32) : FVec F S106496 .f32 := relayout xv
def v43T (xi : IVec S4096x26x1 32) : IVec S131072 32 :=
  flatten32 (pad32 (idxOff xi) (broadcastInDim S4096x6 ![] bcast_S_S4096x6 (constantI S_ 32 26000#32)))
def v18T (ws : FVec F S26x1000x128 .f32) : FVec F S26000x128 .f32 := shapeCast S26000x128 ws shapeCasts_S26x1000x128_S26000x128
def v21T (wf : FVec F S26x1000x1 .f32) : FVec F S26008 .f32 :=
  concatenate S26008 0 [⟨S26000, (shapeCast S26000 wf shapeCasts_S26x1000x1_S26000)⟩, ⟨S8, (broadcastInDim S8 ![] bcast_S_S8 (constant (F := F) S_ .f32 0x00000000#32))⟩] concatenates_S26000_S8_S26008_d0
def v23T (xv : FVec F S4096x26 .f32) : FVec F S4096x32 .f32 :=
  pad32 xv (broadcastInDim S4096x6 ![] bcast_S_S4096x6 (constant (F := F) S_ .f32 0x00000000#32))
def v27T (w1 : FVec F S3355x1024 .f32) : FVec F S32x1024 .bf16 :=
  truncf .bf16 (concatenate S32x1024 0 [⟨S26x1024, (extractStridedSlice S26x1024 ![1, 0] w1 slices_S3355x1024_S26x1024_1_0)⟩, ⟨S6x1024, (broadcastInDim S6x1024 ![] bcast_S_S6x1024 (constant (F := F) S_ .f32 0x00000000#32))⟩] concatenates_S26x1024_S6x1024_S32x1024_d0) bitsLt_bf16_f32
def v29T (w1 : FVec F S3355x1024 .f32) : FVec F S3328x1024 .bf16 :=
  truncf .bf16 (extractStridedSlice S3328x1024 ![27, 0] w1 slices_S3355x1024_S3328x1024_27_0) bitsLt_bf16_f32
def v39T (b1 : FVec F S1024 .f32) (fm : FVec F S1 .f32) (w1 : FVec F S3355x1024 .f32) : FVec F S1x1024 .f32 :=
  addf (broadcastInDim S1x1024 ![1] bcast_S1024_S1x1024_1 b1) (mulf (broadcastInDim S1x1024 ![0, 1] bcast_S1x1_S1x1024_0_1 (broadcastInDim S1x1 ![0] bcast_S1_S1x1_0 (extf .f32 (truncf .bf16 fm bitsLt_bf16_f32) bitsLt_bf16_f32))) (extf .f32 (truncf .bf16 (extractStridedSlice S1x1024 ![0, 0] w1 slices_S3355x1024_S1x1024_0_0) bitsLt_bf16_f32) bitsLt_bf16_f32))
def v40T (w2 : FVec F S1024x512 .f32) : FVec F S1024x512 .bf16 := truncf .bf16 w2 bitsLt_bf16_f32
def v41T (w3 : FVec F S512x1 .f32) : FVec F S512x1 .bf16 := truncf .bf16 w3 bitsLt_bf16_f32

/-! ## The layouts read at an index -/

section Layout
variable {α : Type}

theorem relayout_apply (x : S4096x26.Idx → α) (w : Fin 32) (c : Fin 26) (r : Fin 128) (k : S106496.Idx)
    (hk : (k 0).val = w.val * 3328 + c.val * 128 + r.val) :
    relayout x k = x (ix2 ⟨w.val * 128 + r.val, by omega⟩ c) := by
  have hw := w.isLt; have hc := c.isLt; have hr := r.isLt
  have hk0 : (k 0).val < 106496 := (k 0).isLt
  unfold relayout
  refine (shapeCast_apply _ _ k (ix2 (0 : Fin 1) (⟨(k 0).val, hk0⟩ : Fin 106496)) (by
    rw [Shape.rowMajor_val_two, Shape.rowMajor_val_one]
    show 0 * 106496 + (k 0).val = (k 0).val
    omega)).trans ?_
  refine (shapeCast_apply _ _ _ (ix4 (0 : Fin 1) w c r) (by
    rw [Shape.rowMajor_val_four, Shape.rowMajor_val_two]
    show ((0 * 32 + w.val) * 26 + c.val) * 128 + r.val = 0 * 106496 + (k 0).val
    omega)).trans ?_
  refine (transpose_apply _ _ _ _ (ix4 (0 : Fin 1) w r c)
    (fun b => match b with | ⟨0, _⟩ => rfl | ⟨1, _⟩ => rfl | ⟨2, _⟩ => rfl | ⟨3, _⟩ => rfl)).trans ?_
  exact shapeCast_apply _ _ _ (ix2 ⟨w.val * 128 + r.val, by omega⟩ c) (by
    rw [Shape.rowMajor_val_two, Shape.rowMajor_val_four]
    show (w.val * 128 + r.val) * 26 + c.val = ((0 * 32 + w.val) * 128 + r.val) * 26 + c.val
    omega)

theorem pad32_left (x : S4096x26.Idx → α) (z : S4096x6.Idx → α) (b : Fin 4096) (f : Fin 32) (hf : f.val < 26) :
    pad32 x z (ix2 b f) = x (ix2 b ⟨f.val, hf⟩) :=
  concatenate_pair_apply_left (s₁ := S4096x26) (s₂ := S4096x6) (1 : Fin 2) x z _ (ix2 b f) rfl (ix2 b ⟨f.val, hf⟩)
    (fun a => match a with | ⟨0, _⟩ => rfl | ⟨1, _⟩ => rfl)

theorem pad32_right (x : S4096x26.Idx → α) (z : S4096x6.Idx → α) (b : Fin 4096) (f : Fin 32) (hf : 26 ≤ f.val) :
    pad32 x z (ix2 b f) = z (ix2 b ⟨f.val - 26, by have := f.isLt; omega⟩) :=
  concatenate_pair_apply_right (s₁ := S4096x26) (s₂ := S4096x6) (1 : Fin 2) x z _ (ix2 b f) rfl rfl (ix2 b ⟨f.val - 26, by have := f.isLt; omega⟩)
    (fun a ha => match a, ha with | ⟨0, _⟩, _ => rfl | ⟨1, _⟩, ha => (ha (Fin.ext rfl)).elim)
    (by show f.val - 26 + 26 = f.val; omega)

theorem flatten32_apply (y : S4096x32.Idx → α) (b : Fin 4096) (f : Fin 32) (k : S131072.Idx)
    (hk : (k 0).val = b.val * 32 + f.val) : flatten32 y k = y (ix2 b f) := by
  have hk0 : (k 0).val < 131072 := (k 0).isLt
  unfold flatten32
  refine (shapeCast_apply _ _ k (ix2 (0 : Fin 1) (⟨(k 0).val, hk0⟩ : Fin 131072)) (by
    rw [Shape.rowMajor_val_two, Shape.rowMajor_val_one]
    show 0 * 131072 + (k 0).val = (k 0).val
    omega)).trans ?_
  exact shapeCast_apply _ _ _ (ix2 b f) (by
    rw [Shape.rowMajor_val_two, Shape.rowMajor_val_two]
    show b.val * 32 + f.val = 0 * 131072 + (k 0).val
    omega)

end Layout

/-! ## The index lists -/

theorem offs_apply (j : S4096x26.Idx) : offs j = IntOp.muli (BitVec.ofNat 32 (j 1).val) 1000#32 := rfl

/-- Row b, column c of the offset indices: the integer argument there plus c times 1000. -/
theorem idxOff_apply (xi : IVec S4096x26x1 32) (b : Fin 4096) (c : Fin 26) :
    idxOff xi (ix2 b c) = IntOp.addi (xi (ix3 b c u0)) (IntOp.muli (BitVec.ofNat 32 c.val) 1000#32) := by
  show IntOp.addi (shapeCast S4096x26 xi shapeCasts_S4096x26x1_S4096x26 (ix2 b c)) (offs (ix2 b c)) = _
  rw [shapeCast_apply xi _ (ix2 b c) (ix3 b c u0) (by
    rw [Shape.rowMajor_val_three, Shape.rowMajor_val_two]
    show (b.val * 26 + c.val) * 1 + 0 = b.val * 26 + c.val
    omega)]
  rfl

/-- The gather's index list: entry w*3328 + c*128 + r. -/
theorem v42T_apply (xi : IVec S4096x26x1 32) (w : Fin 32) (c : Fin 26) (r : Fin 128) (k : S106496.Idx)
    (hk : (k 0).val = w.val * 3328 + c.val * 128 + r.val) :
    v42T xi k = IntOp.addi (xi (ix3 ⟨w.val * 128 + r.val, by omega⟩ c u0)) (IntOp.muli (BitVec.ofNat 32 c.val) 1000#32) := by
  unfold v42T
  rw [relayout_apply _ w c r k hk, idxOff_apply]

/-- The scale list: entry w*3328 + c*128 + r. -/
theorem v44T_apply (xv : FVec F S4096x26 .f32) (w : Fin 32) (c : Fin 26) (r : Fin 128) (k : S106496.Idx)
    (hk : (k 0).val = w.val * 3328 + c.val * 128 + r.val) :
    v44T xv k = xv (ix2 ⟨w.val * 128 + r.val, by omega⟩ c) := by
  unfold v44T
  exact relayout_apply _ w c r k hk

/-- The padded index list: entry b*32 + f for f < 26. -/
theorem v43T_apply_lt (xi : IVec S4096x26x1 32) (b : Fin 4096) (f : Fin 32) (hf : f.val < 26) (k : S131072.Idx)
    (hk : (k 0).val = b.val * 32 + f.val) :
    v43T xi k = IntOp.addi (xi (ix3 b ⟨f.val, hf⟩ u0)) (IntOp.muli (BitVec.ofNat 32 f.val) 1000#32) := by
  unfold v43T
  rw [flatten32_apply _ b f k hk, pad32_left _ _ b f hf, idxOff_apply]

/-- The padded index list: entry b*32 + f for 26 ≤ f. -/
theorem v43T_apply_ge (xi : IVec S4096x26x1 32) (b : Fin 4096) (f : Fin 32) (hf : 26 ≤ f.val) (k : S131072.Idx)
    (hk : (k 0).val = b.val * 32 + f.val) : v43T xi k = 26000#32 := by
  unfold v43T
  rw [flatten32_apply _ b f k hk, pad32_right _ _ b f hf]
  rfl

/-! ## The tables -/

theorem v18T_apply (ws : FVec F S26x1000x128 .f32) (c : Fin 26) (v : Fin 1000) (e : Fin 128) (j : S26000x128.Idx)
    (hj0 : (j 0).val = c.val * 1000 + v.val) (hj1 : (j 1).val = e.val) : v18T ws j = ws (ix3 c v e) :=
  shapeCast_apply ws _ j (ix3 c v e) (by
    rw [Shape.rowMajor_val_three, Shape.rowMajor_val_two]
    show (c.val * 1000 + v.val) * 128 + e.val = (j 0).val * 128 + (j 1).val
    rw [hj0, hj1])

theorem v21T_apply_lt (wf : FVec F S26x1000x1 .f32) (c : Fin 26) (v : Fin 1000) (j : S26008.Idx)
    (hj : (j 0).val = c.val * 1000 + v.val) : v21T wf j = wf (ix3 c v u0) := by
  have hc := c.isLt; have hv := v.isLt
  unfold v21T
  refine (concatenate_pair_apply_left (s₁ := S26000) (s₂ := S8) (0 : Fin 1) _ _ _ j rfl (ix1 ⟨c.val * 1000 + v.val, by omega⟩)
    (fun a => match a with | ⟨0, _⟩ => hj.symm)).trans ?_
  exact shapeCast_apply wf _ _ (ix3 c v u0) (by
    rw [Shape.rowMajor_val_three, Shape.rowMajor_val_one]
    show (c.val * 1000 + v.val) * 1 + 0 = c.val * 1000 + v.val
    omega)

theorem v21T_apply_ge (wf : FVec F S26x1000x1 .f32) (j : S26008.Idx) (hj : 26000 ≤ (j 0).val) :
    v21T wf j = FloatOps.ofBits .f32 0x00000000#32 := by
  have hlt : (j 0).val < 26008 := (j 0).isLt
  unfold v21T
  exact concatenate_pair_apply_right (s₁ := S26000) (s₂ := S8) (0 : Fin 1) _ _ _ j rfl rfl (ix1 ⟨(j 0).val - 26000, by omega⟩)
    (fun a ha => match a, ha with | ⟨0, _⟩, ha => (ha (Fin.ext rfl)).elim)
    (by show (j 0).val - 26000 + 26000 = (j 0).val; omega)

/-! ## The TensorCore call's operands -/

theorem v23T_apply_lt (xv : FVec F S4096x26 .f32) (b : Fin 4096) (f : Fin 32) (hf : f.val < 26) :
    v23T xv (ix2 b f) = xv (ix2 b ⟨f.val, hf⟩) := pad32_left _ _ b f hf

theorem v23T_apply_ge (xv : FVec F S4096x26 .f32) (b : Fin 4096) (f : Fin 32) (hf : 26 ≤ f.val) :
    v23T xv (ix2 b f) = FloatOps.ofBits .f32 0x00000000#32 := by
  unfold v23T; rw [pad32_right _ _ b f hf]; rfl

theorem v27T_apply_lt (w1 : FVec F S3355x1024 .f32) (f : Fin 32) (i : Fin 1024) (hf : f.val < 26) :
    v27T w1 (ix2 f i) = FloatOps.truncf .bf16 bitsLt_bf16_f32 (w1 (ix2 ⟨1 + f.val, by omega⟩ i)) := by
  unfold v27T
  refine congrArg (FloatOps.truncf .bf16 bitsLt_bf16_f32) ?_
  refine (concatenate_pair_apply_left (s₁ := S26x1024) (s₂ := S6x1024) (0 : Fin 2) _ _ _ (ix2 f i) rfl (ix2 ⟨f.val, hf⟩ i)
    (fun a => match a with | ⟨0, _⟩ => rfl | ⟨1, _⟩ => rfl)).trans ?_
  exact extractStridedSlice_apply _ w1 _ _ (ix2 ⟨1 + f.val, by omega⟩ i)
    (fun a => match a with | ⟨0, _⟩ => rfl | ⟨1, _⟩ => by show i.val = 0 + i.val; omega)

theorem v27T_apply_ge (w1 : FVec F S3355x1024 .f32) (f : Fin 32) (i : Fin 1024) (hf : 26 ≤ f.val) :
    v27T w1 (ix2 f i) = FloatOps.truncf .bf16 bitsLt_bf16_f32 (FloatOps.ofBits .f32 0x00000000#32) := by
  have hlt := f.isLt
  unfold v27T
  refine congrArg (FloatOps.truncf .bf16 bitsLt_bf16_f32) ?_
  exact concatenate_pair_apply_right (s₁ := S26x1024) (s₂ := S6x1024) (0 : Fin 2) _ _ _ (ix2 f i) rfl rfl (ix2 ⟨f.val - 26, by omega⟩ i)
    (fun a ha => match a, ha with | ⟨0, _⟩, ha => (ha (Fin.ext rfl)).elim | ⟨1, _⟩, _ => rfl)
    (by show f.val - 26 + 26 = f.val; omega)

theorem v29T_apply (w1 : FVec F S3355x1024 .f32) (j : Fin 3328) (i : Fin 1024) :
    v29T w1 (ix2 j i) = FloatOps.truncf .bf16 bitsLt_bf16_f32 (w1 (ix2 ⟨27 + j.val, by omega⟩ i)) := by
  unfold v29T
  refine congrArg (FloatOps.truncf .bf16 bitsLt_bf16_f32) ?_
  exact extractStridedSlice_apply _ w1 _ _ (ix2 ⟨27 + j.val, by omega⟩ i)
    (fun a => match a with | ⟨0, _⟩ => rfl | ⟨1, _⟩ => by show i.val = 0 + i.val; omega)

theorem v39T_apply (b1 : FVec F S1024 .f32) (fm : FVec F S1 .f32) (w1 : FVec F S3355x1024 .f32) (u : Fin 1) (i : Fin 1024) :
    v39T b1 fm w1 (ix2 u i)
      = FloatOps.addf (b1 (ix1 i))
          (FloatOps.mulf (FloatOps.extf .f32 bitsLt_bf16_f32 (FloatOps.truncf .bf16 bitsLt_bf16_f32 (fm (ix1 u0))))
            (FloatOps.extf .f32 bitsLt_bf16_f32 (FloatOps.truncf .bf16 bitsLt_bf16_f32 (w1 (ix2 ⟨0, by omega⟩ i))))) := by
  have e1 : broadcastInDim S1x1024 ![1] bcast_S1024_S1x1024_1 b1 (ix2 u i) = b1 (ix1 i) :=
    broadcastInDim_apply _ _ b1 (ix2 u i) (ix1 i) (fun a => match a with | ⟨0, _⟩ => rfl)
  have e2 : ∀ (y : FVec F S1 .f32), broadcastInDim S1x1024 ![0, 1] bcast_S1x1_S1x1024_0_1 (broadcastInDim S1x1 ![0] bcast_S1_S1x1_0 y) (ix2 u i) = y (ix1 u0) := fun y =>
    (broadcastInDim_apply _ _ _ (ix2 u i) (ix2 u0 u0) (fun a => match a with | ⟨0, _⟩ => rfl | ⟨1, _⟩ => rfl)).trans
      (broadcastInDim_apply _ _ y (ix2 u0 u0) (ix1 u0) (fun a => match a with | ⟨0, _⟩ => rfl))
  have e3 : extractStridedSlice S1x1024 ![0, 0] w1 slices_S3355x1024_S1x1024_0_0 (ix2 u i) = w1 (ix2 ⟨0, by omega⟩ i) :=
    extractStridedSlice_apply _ w1 _ _ (ix2 ⟨0, by omega⟩ i)
      (fun a => match a with | ⟨0, _⟩ => by show 0 = 0 + u.val; omega | ⟨1, _⟩ => by show i.val = 0 + i.val; omega)
  show FloatOps.addf (broadcastInDim S1x1024 ![1] bcast_S1024_S1x1024_1 b1 (ix2 u i))
      (FloatOps.mulf (broadcastInDim S1x1024 ![0, 1] bcast_S1x1_S1x1024_0_1 (broadcastInDim S1x1 ![0] bcast_S1_S1x1_0 (extf .f32 (truncf .bf16 fm bitsLt_bf16_f32) bitsLt_bf16_f32)) (ix2 u i))
        (FloatOps.extf .f32 bitsLt_bf16_f32 (FloatOps.truncf .bf16 bitsLt_bf16_f32 (extractStridedSlice S1x1024 ![0, 0] w1 slices_S3355x1024_S1x1024_0_0 (ix2 u i))))) = _
  rw [e1, e2, e3]
  rfl

theorem v40T_apply (w2 : FVec F S1024x512 .f32) (j : S1024x512.Idx) :
    v40T w2 j = FloatOps.truncf .bf16 bitsLt_bf16_f32 (w2 j) := rfl
theorem v41T_apply (w3 : FVec F S512x1 .f32) (j : S512x1.Idx) :
    v41T w3 j = FloatOps.truncf .bf16 bitsLt_bf16_f32 (w3 j) := rfl

end Cert.ProofB.HostTerms

end
-- ==== Proof.B.HostVals.lean ====
/-
  What the buffers hold once the host operations have run: after the first list each buffer a kernel reads is a pure
  term of the argument arrays (the terms and their reading at an index are in the module of the terms); a buffer a
  list does not write keeps its contents; after the second list the three reshaped buffers.
  Generic in the float instance.
-/
import proofs.«207592_g65111704207794_cont_9to1_m_407_36_alg».proof.Proof.B.HostOps
import proofs.«207592_g65111704207794_cont_9to1_m_407_36_alg».proof.Proof.B.HostTerms

noncomputable section

namespace Cert.ProofB.HostVals

open Cert.Kernel Cert.Kernel.Gen Idealize.ShloMosaic Idealize.ShloMosaic.TcCoe Idealize.SL.Sem Idealize.ShloMosaic.StableHlo
open Idealize.ShloMosaic.ValueIdx Idealize.ShloMosaic.Pipeline
open Cert.ProofB.HostOps Cert.ProofB.HostTerms

variable {F : FTy → Type} [FloatOps F]

/-! ## The buffers after the first list of host operations -/

section After

variable (V : Valuation τ sig (Elt F))

set_option maxRecDepth 8192
set_option maxHeartbeats 4000000

theorem after0_v42 : after hostOps0 V (Proc.devRef .tc main_v42) = v42T (V (Proc.devRef .tc main_arg0)) := by after_results_simp <;> rfl
theorem after0_v43 : after hostOps0 V (Proc.devRef .tc main_v43) = v43T (V (Proc.devRef .tc main_arg0)) := by after_results_simp <;> rfl
theorem after0_v44 : after hostOps0 V (Proc.devRef .tc main_v44) = v44T (F := F) (V (Proc.devRef .tc main_arg1)) := by after_results_simp <;> rfl
theorem after0_v18 : after hostOps0 V (Proc.devRef .tc main_v18) = v18T (F := F) (V (Proc.devRef .tc main_arg4)) := by after_results_simp <;> rfl
theorem after0_v21 : after hostOps0 V (Proc.devRef .tc main_v21) = v21T (F := F) (V (Proc.devRef .tc main_arg3)) := by after_results_simp <;> rfl
theorem after0_v23 : after hostOps0 V (Proc.devRef .tc main_v23) = v23T (F := F) (V (Proc.devRef .tc main_arg1)) := by after_results_simp <;> rfl
theorem after0_v27 : after hostOps0 V (Proc.devRef .tc main_v27) = v27T (F := F) (V (Proc.devRef .tc main_arg5)) := by after_results_simp <;> rfl
theorem after0_v29 : after hostOps0 V (Proc.devRef .tc main_v29) = v29T (F := F) (V (Proc.devRef .tc main_arg5)) := by after_results_simp <;> rfl
theorem after0_v39 : after hostOps0 V (Proc.devRef .tc main_v39)
    = v39T (F := F) (V (Proc.devRef .tc main_arg6)) (V (Proc.devRef .tc main_arg2)) (V (Proc.devRef .tc main_arg5)) := by after_results_simp <;> rfl
theorem after0_v40 : after hostOps0 V (Proc.devRef .tc main_v40) = v40T (F := F) (V (Proc.devRef .tc main_arg7)) := by after_results_simp <;> rfl
theorem after0_v41 : after hostOps0 V (Proc.devRef .tc main_v41) = v41T (F := F) (V (Proc.devRef .tc main_arg9)) := by after_results_simp <;> rfl

/-- The buffers the first list writes. -/
def written0 : List (Ref sig .tc) := [main_v0, main_v1, main_c, main_v2, main_v3, main_v4, main_v5, main_v6, main_v7, main_v8, main_v9, main_v10, main_v11, main_v12, main_v13, main_v14, main_c_0, main_v15, main_v16, main_v17, main_v18, main_v19, main_cst, main_v20, main_v21, main_cst_1, main_v22, main_v23, main_v24, main_cst_2, main_v25, main_v26, main_v27, main_v28, main_v29, main_v30, main_v31, main_v32, main_v33, main_v34, main_v35, main_v36, main_v37, main_v38, main_v39, main_v40, main_v41, main_v42, main_v43, main_v44]
/-- The buffers the second list writes. -/
def written1 : List (Ref sig .tc) := [main_v46, main_v47, main_v48]

omit [FloatOps F] in
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- A buffer the first list does not write keeps its contents: the arguments, and the SparseCore call's results. -/
theorem after0_of_not_written (r : Ref sig .tc) (hr : r ∉ written0) : after hostOps0 V (Proc.devRef .tc r) = V (Proc.devRef .tc r) :=
  after_of_writes_sub (W := written0) hostOps0 V
    ⟨writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide), writes_sub_of_mem (by decide)⟩ hr

/-- A buffer the second list does not write keeps its contents. -/
theorem after1_of_not_written (r : Ref sig .tc) (hr : r ∉ written1) : after hostOps1 V (Proc.devRef .tc r) = V (Proc.devRef .tc r) :=
  after_of_writes_sub (W := written1) hostOps1 V
    ⟨writes_sub_of_mem (by decide), writes_sub_of_mem (by decide), writes_sub_of_mem (by decide)⟩ hr

theorem after1_v46 : after hostOps1 V (Proc.devRef .tc main_v46)
    = shapeCast S4096x32 (V (Proc.devRef .tc main_v45_1)) shapeCasts_S131072_S4096x32 := by after_results_simp <;> rfl
theorem after1_v47 : after hostOps1 V (Proc.devRef .tc main_v47)
    = shapeCast S1x512 (V (Proc.devRef .tc main_arg8)) shapeCasts_S512_S1x512 := by after_results_simp <;> rfl
theorem after1_v48 : after hostOps1 V (Proc.devRef .tc main_v48)
    = shapeCast S1x1 (V (Proc.devRef .tc main_arg10)) shapeCasts_S1_S1x1 := by after_results_simp <;> rfl

end After

end Cert.ProofB.HostVals

end
-- ==== Proof.B.HostBounds.lean ====
/-
  The index lists stay inside their tables. Every entry of the integer argument is at most 999 (the precondition), so
  an entry plus its column offset c*1000, c < 26, is below 26000 and the 32-bit addition does not wrap: every entry of
  the gather's index list names a row of the 26000-row table, and every entry of the padded index list (26000 in the
  padding columns) names an entry of the 26008-entry first-order table.
-/
import proofs.«207592_g65111704207794_cont_9to1_m_407_36_alg».proof.Proof.B.HostTerms

noncomputable section

namespace Cert.ProofB.HostBounds

open Cert.Kernel Cert.Kernel.Gen Idealize.ShloMosaic
open Idealize.ShloMosaic.ValueIdx Idealize.ShloMosaic.Pipeline
open Cert.ProofB.HostTerms

/-- An entry at most 999 plus the offset of column c < 26, as 32-bit words: the sum as naturals. -/
theorem toNat_addi_offset (x : BitVec 32) (c : Nat) (hx : x.toNat ≤ 999) (hc : c < 26) :
    (IntOp.addi x (IntOp.muli (BitVec.ofNat 32 c) 1000#32)).toNat = x.toNat + c * 1000 := by
  simp only [IntOp.addi, IntOp.muli, BitVec.toNat_add, BitVec.toNat_mul, BitVec.toNat_ofNat, Nat.reducePow, Nat.reduceMod]
  omega

variable (xi : IVec S4096x26x1 32) (hxi : ∀ i, (xi i).toNat ≤ 999)
include hxi

/-- Entry w*3328 + c*128 + r of the gather's index list, as a natural: the argument's entry plus c*1000. -/
theorem v42T_toNat (w : Fin 32) (c : Fin 26) (r : Fin 128) (k : S106496.Idx)
    (hk : (k 0).val = w.val * 3328 + c.val * 128 + r.val) :
    (v42T xi k).toNat = (xi (ix3 ⟨w.val * 128 + r.val, by omega⟩ c u0)).toNat + c.val * 1000 := by
  rw [v42T_apply xi w c r k hk, toNat_addi_offset _ _ (hxi _) c.isLt]

/-- Every entry of the gather's index list names a row of the table. -/
theorem v42T_lt (k : S106496.Idx) : (v42T xi k).toNat < 26000 := by
  have hk0 : (k 0).val < 106496 := (k 0).isLt
  have e := v42T_toNat xi hxi ⟨(k 0).val / 3328, by omega⟩ ⟨(k 0).val % 3328 / 128, by omega⟩ ⟨(k 0).val % 128, by omega⟩ k
    (by show (k 0).val = (k 0).val / 3328 * 3328 + (k 0).val % 3328 / 128 * 128 + (k 0).val % 128; omega)
  rw [e]
  refine Nat.lt_of_le_of_lt (Nat.add_le_add_right (hxi _) _) ?_
  show 999 + (k 0).val % 3328 / 128 * 1000 < 26000
  omega

/-- Entry b*32 + f, f < 26, of the padded index list, as a natural. -/
theorem v43T_toNat_lt (b : Fin 4096) (f : Fin 32) (hf : f.val < 26) (k : S131072.Idx)
    (hk : (k 0).val = b.val * 32 + f.val) :
    (v43T xi k).toNat = (xi (ix3 b ⟨f.val, hf⟩ u0)).toNat + f.val * 1000 := by
  rw [v43T_apply_lt xi b f hf k hk, toNat_addi_offset _ _ (hxi _) hf]

/-- Every entry of the padded index list names an entry of the first-order table with its eight zeros. -/
theorem v43T_lt (k : S131072.Idx) : (v43T xi k).toNat < 26008 := by
  have hk0 : (k 0).val < 131072 := (k 0).isLt
  have hk : (k 0).val = (⟨(k 0).val / 32, by omega⟩ : Fin 4096).val * 32 + (⟨(k 0).val % 32, by omega⟩ : Fin 32).val := by
    show (k 0).val = (k 0).val / 32 * 32 + (k 0).val % 32; omega
  by_cases hf : (k 0).val % 32 < 26
  · rw [v43T_toNat_lt xi hxi _ _ hf k hk]
    refine Nat.lt_of_le_of_lt (Nat.add_le_add_right (hxi _) _) ?_
    show 999 + (k 0).val % 32 * 1000 < 26008
    omega
  · rw [v43T_apply_ge xi _ _ (by show 26 ≤ (k 0).val % 32; omega) k hk]
    decide

end Cert.ProofB.HostBounds

end
-- ==== Proof.B.LaunchVals.lean ====
/-
  The contents of the arrays at the moments that matter: after the host operations that precede the SparseCore call
  (the table, the two index lists, the first-order weights, the feature values), and the ranges the precondition gives
  the two index lists: every entry of the transposed list names a row of the table, every entry of the padded list a
  word of the padded first-order weights.
-/
import proofs.«207592_g65111704207794_cont_9to1_m_407_36_alg».proof.Proof.B.LaunchSplit
import proofs.«207592_g65111704207794_cont_9to1_m_407_36_alg».proof.Proof.B.HostOps
import proofs.«207592_g65111704207794_cont_9to1_m_407_36_alg».proof.Proof.B.HostVals
import proofs.«207592_g65111704207794_cont_9to1_m_407_36_alg».proof.Proof.B.HostBounds
import proofs.«207592_g65111704207794_cont_9to1_m_407_36_alg».proof.Proof.PreOK

noncomputable section

namespace Cert.ProofB.KI

open Cert.Kernel Cert.Kernel.Gen
open Cert.ProofB.ScViews (tLoc i2Loc isLoc wfLoc xvLoc e2Loc soLoc)
open Cert.ProofB.HostOps (hostOps0 hostOps1 V0)

open Idealize.ShloMosaic
open Idealize.ShloMosaic.SparseCore (S V T)
open Idealize.ShloMosaic.StableHlo (after)

variable {F : FTy → Type} [FloatOps F]

variable (m : (ℓ : Loc nD τ sig) → Buf (Elt F) ℓ)

/-- The arrays after the host operations before the call. -/
abbrev W1 (d : Dev nD) : Valuation τ sig (Elt F) := after hostOps0 (V0 m d)

abbrev cTb (d : Dev nD) : Buf (Elt F) (tLoc d) := W1 m d (Proc.devRef .tc main_v18)
abbrev cI2 (d : Dev nD) : Buf (Elt F) (i2Loc d) := W1 m d (Proc.devRef .tc main_v42)
abbrev cIS (d : Dev nD) : Buf (Elt F) (isLoc d) := W1 m d (Proc.devRef .tc main_v43)
abbrev cWF (d : Dev nD) : Buf (Elt F) (wfLoc d) := W1 m d (Proc.devRef .tc main_v21)
abbrev cXV (d : Dev nD) : Buf (Elt F) (xvLoc d) := W1 m d (Proc.devRef .tc main_v44)

/-- The precondition, as the memory's argument arrays satisfy it on every device. -/
def PreM [Cert.Pre_input_domain.Facts] : Prop :=
  ∀ d : Dev nD,
    Cert.Pre_input_domain.fn (F := F) (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) (m ((d.tc : Thread nD τ).loc main_arg5)) (m ((d.tc : Thread nD τ).loc main_arg6))
      (m ((d.tc : Thread nD τ).loc main_arg7)) (m ((d.tc : Thread nD τ).loc main_arg8)) (m ((d.tc : Thread nD τ).loc main_arg9)) (m ((d.tc : Thread nD τ).loc main_arg10))
      = fun _ => 1#1

theorem xi_le [Cert.Pre_input_domain.Facts] (hpre : PreM m) (d : Dev nD) (i : S4096x26x1.Idx) :
    ((V0 m d (Proc.devRef .tc main_arg0) : IVec S4096x26x1 32) i).toNat ≤ 999 :=
  Cert.Proof.PreOK.xi_le _ _ _ _ _ _ _ _ _ _ _ (hpre d) i

theorem cI2_lt [Cert.Pre_input_domain.Facts] (hpre : PreM m) (d : Dev nD) (k : S106496.Idx) : ((cI2 m d : IVec S106496 32) k).toNat < 26000 := by
  show ((after hostOps0 (V0 m d) (Proc.devRef .tc main_v42) : IVec S106496 32) k).toNat < 26000
  rw [Cert.ProofB.HostVals.after0_v42]
  exact Cert.ProofB.HostBounds.v42T_lt _ (xi_le m hpre d) k

theorem cIS_lt [Cert.Pre_input_domain.Facts] (hpre : PreM m) (d : Dev nD) (k : S131072.Idx) : ((cIS m d : IVec S131072 32) k).toNat < 26008 := by
  show ((after hostOps0 (V0 m d) (Proc.devRef .tc main_v43) : IVec S131072 32) k).toNat < 26008
  rw [Cert.ProofB.HostVals.after0_v43]
  exact Cert.ProofB.HostBounds.v43T_lt _ (xi_le m hpre d) k

end Cert.ProofB.KI

end
-- ==== Proof.B.HostGlue.lean ====
/-
  The SparseCore call's seven buffers (the table, the first-order table, the two index lists, the scale list, and the
  call's two results) taken out of the unscoped buffers held at a valuation, and put back after the call at the
  valuation updated at the two results; the twelve buffers the claim speaks of (the eleven arguments and the result)
  as a subset of the unscoped buffers; and what the composite valuation — the first list of host operations, the call,
  the second list — holds at the arguments and at the TensorCore call's operands.
  Generic in the float instance.
-/
import proofs.«207592_g65111704207794_cont_9to1_m_407_36_alg».proof.Proof.B.HostVals

noncomputable section

namespace Cert.ProofB.HostGlue

open Cert.Kernel Cert.Kernel.Gen Idealize.ShloMosaic Idealize.ShloMosaic.TcCoe Idealize.SL.Sem Idealize.ShloMosaic.StableHlo
open Idealize.SL Idealize.SL.RA Idealize.SL.BI
open scoped Idealize.SL.BI
open Idealize.SL.BI.BIBase Idealize.SL.BI.Laws Idealize.SL.ProofMode
open Idealize.ShloMosaic.ValueIdx Idealize.ShloMosaic.Pipeline
open Cert.ProofB.HostOps Cert.ProofB.HostTerms Cert.ProofB.HostVals

variable {F : FTy → Type}

abbrev r18 : DevRef τ sig := Proc.devRef .tc (main_v18 : Ref sig .tc)
abbrev r21 : DevRef τ sig := Proc.devRef .tc (main_v21 : Ref sig .tc)
abbrev r42 : DevRef τ sig := Proc.devRef .tc (main_v42 : Ref sig .tc)
abbrev r44 : DevRef τ sig := Proc.devRef .tc (main_v44 : Ref sig .tc)
abbrev r43 : DevRef τ sig := Proc.devRef .tc (main_v43 : Ref sig .tc)
abbrev r450 : DevRef τ sig := Proc.devRef .tc (main_v45_0 : Ref sig .tc)
abbrev r451 : DevRef τ sig := Proc.devRef .tc (main_v45_1 : Ref sig .tc)

/-- The seven buffers of the SparseCore call: table, first-order table, index list, scale list, padded index list, and
    the two results. -/
abbrev T7 : Finset (DevRef τ sig) := {r18, r21, r42, r44, r43, r450, r451}

theorem T7_sub : T7 ⊆ Pipeline.ucRefs τ sig := by
  intro b hb
  simp only [T7, Finset.mem_insert, Finset.mem_singleton] at hb
  rcases hb with rfl | rfl | rfl | rfl | rfl | rfl | rfl <;> exact mem_ucRefs _ rfl

/-- A valuation with the call's two results replaced. -/
def scPut (W : Valuation τ sig (Elt F)) (e2v : r450.ty.Contents (Elt F)) (sov : r451.ty.Contents (Elt F)) : Valuation τ sig (Elt F) :=
  Function.update (Function.update W r450 e2v) r451 sov

section Put
variable (W : Valuation τ sig (Elt F)) (e2v : r450.ty.Contents (Elt F)) (sov : r451.ty.Contents (Elt F))

theorem scPut_of_ne {b : DevRef τ sig} (h0 : b ≠ r450) (h1 : b ≠ r451) : scPut W e2v sov b = W b := by
  unfold scPut; rw [Function.update_of_ne h1, Function.update_of_ne h0]
theorem scPut_so : scPut W e2v sov r451 = sov := Function.update_self _ _ _
theorem scPut_e2 : scPut W e2v sov r450 = e2v := by
  unfold scPut; rw [Function.update_of_ne (show r450 ≠ r451 by decide), Function.update_self]
/-- A TensorCore reference other than the two results keeps its contents. -/
theorem scPut_of_ref_ne {r : Ref sig .tc} (h0 : r ≠ main_v45_0) (h1 : r ≠ main_v45_1) :
    scPut W e2v sov (Proc.devRef .tc r) = W (Proc.devRef .tc r) :=
  scPut_of_ne W e2v sov (devRef_ne_of_ne h0) (devRef_ne_of_ne h1)

end Put

section Held

variable {Ix : Type} [DecidableEq Ix] {Name : Type} [DecidableEq Name] {U : Type} [URA U] {Lvl : Type}

local notation "𝕄" => MT nD τ sig Ix (Elt F) Name U Lvl

theorem sep_assoc_eq (P Q R : sProp 𝕄) : iprop((P ∗ Q) ∗ R) = iprop(P ∗ (Q ∗ R)) := sep_assoc.antisymm sep_assoc'

variable (d : Dev nD) (W : Valuation τ sig (Elt F))

/-- The seven buffers held at a valuation, one by one. -/
theorem held_T7 :
    (held (SparseCore.T d) T7 W : sProp 𝕄) = iprop(((SparseCore.T d).loc main_v18 ↦{fullShare} W (Proc.devRef .tc main_v18))
      ∗ ((SparseCore.T d).loc main_v21 ↦{fullShare} W (Proc.devRef .tc main_v21))
      ∗ ((SparseCore.T d).loc main_v42 ↦{fullShare} W (Proc.devRef .tc main_v42))
      ∗ ((SparseCore.T d).loc main_v44 ↦{fullShare} W (Proc.devRef .tc main_v44))
      ∗ ((SparseCore.T d).loc main_v43 ↦{fullShare} W (Proc.devRef .tc main_v43))
      ∗ ((SparseCore.T d).loc main_v45_0 ↦{fullShare} W (Proc.devRef .tc main_v45_0))
      ∗ ((SparseCore.T d).loc main_v45_1 ↦{fullShare} W (Proc.devRef .tc main_v45_1))) := by
  unfold held T7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- TAKE: the unscoped buffers are the seven, one by one, and the rest. -/
theorem sc_take :
    (held (SparseCore.T d) (Pipeline.ucRefs τ sig) W : sProp 𝕄)
      = iprop(((SparseCore.T d).loc main_v18 ↦{fullShare} W (Proc.devRef .tc main_v18))
        ∗ ((SparseCore.T d).loc main_v21 ↦{fullShare} W (Proc.devRef .tc main_v21))
        ∗ ((SparseCore.T d).loc main_v42 ↦{fullShare} W (Proc.devRef .tc main_v42))
        ∗ ((SparseCore.T d).loc main_v44 ↦{fullShare} W (Proc.devRef .tc main_v44))
        ∗ ((SparseCore.T d).loc main_v43 ↦{fullShare} W (Proc.devRef .tc main_v43))
        ∗ ((SparseCore.T d).loc main_v45_0 ↦{fullShare} W (Proc.devRef .tc main_v45_0))
        ∗ ((SparseCore.T d).loc main_v45_1 ↦{fullShare} W (Proc.devRef .tc main_v45_1))
        ∗ held (SparseCore.T d) (Pipeline.ucRefs τ sig \ T7) W) := by
  rw [held_sub_split (SparseCore.T d) T7_sub W, held_T7]
  simp only [sep_assoc_eq]

variable (e2v : r450.ty.Contents (Elt F)) (sov : r451.ty.Contents (Elt F))

/-- The rest does not see the two results. -/
theorem held_rest_scPut :
    (held (SparseCore.T d) (Pipeline.ucRefs τ sig \ T7) (scPut W e2v sov) : sProp 𝕄) = held (SparseCore.T d) (Pipeline.ucRefs τ sig \ T7) W :=
  held_congr (SparseCore.T d) fun b hb => by
    have hn : b ∉ T7 := (Finset.mem_sdiff.mp hb).2
    refine scPut_of_ne W e2v sov (fun e => hn ?_) (fun e => hn ?_) <;> (rw [e]; decide)

/-- PUT: after the call the five operands as they were, the two results at what the call left, and the rest, are the
    unscoped buffers held at the updated valuation. -/
theorem sc_put :
    iprop(((SparseCore.T d).loc main_v18 ↦{fullShare} W (Proc.devRef .tc main_v18))
        ∗ ((SparseCore.T d).loc main_v21 ↦{fullShare} W (Proc.devRef .tc main_v21))
        ∗ ((SparseCore.T d).loc main_v42 ↦{fullShare} W (Proc.devRef .tc main_v42))
        ∗ ((SparseCore.T d).loc main_v44 ↦{fullShare} W (Proc.devRef .tc main_v44))
        ∗ ((SparseCore.T d).loc main_v43 ↦{fullShare} W (Proc.devRef .tc main_v43))
        ∗ ((SparseCore.T d).loc main_v45_0 ↦{fullShare} e2v) ∗ ((SparseCore.T d).loc main_v45_1 ↦{fullShare} sov)
        ∗ held (SparseCore.T d) (Pipeline.ucRefs τ sig \ T7) W)
      = (held (SparseCore.T d) (Pipeline.ucRefs τ sig) (scPut W e2v sov) : sProp 𝕄) := by
  rw [sc_take d (scPut W e2v sov), held_rest_scPut,
    scPut_of_ref_ne W e2v sov (r := main_v18) (by decide) (by decide), scPut_of_ref_ne W e2v sov (r := main_v21) (by decide) (by decide),
    scPut_of_ref_ne W e2v sov (r := main_v42) (by decide) (by decide), scPut_of_ref_ne W e2v sov (r := main_v44) (by decide) (by decide),
    scPut_of_ref_ne W e2v sov (r := main_v43) (by decide) (by decide)]
  rw [show scPut W e2v sov (Proc.devRef .tc main_v45_0) = e2v from scPut_e2 W e2v sov,
    show scPut W e2v sov (Proc.devRef .tc main_v45_1) = sov from scPut_so W e2v sov]

/-! ## The claim's twelve buffers -/

/-- The eleven arguments and the result. -/
abbrev FINset : Finset (DevRef τ sig) := {Proc.devRef .tc (main_arg0 : Ref sig .tc), Proc.devRef .tc (main_arg1 : Ref sig .tc), Proc.devRef .tc (main_arg2 : Ref sig .tc), Proc.devRef .tc (main_arg3 : Ref sig .tc), Proc.devRef .tc (main_arg4 : Ref sig .tc), Proc.devRef .tc (main_arg5 : Ref sig .tc), Proc.devRef .tc (main_arg6 : Ref sig .tc), Proc.devRef .tc (main_arg7 : Ref sig .tc), Proc.devRef .tc (main_arg8 : Ref sig .tc), Proc.devRef .tc (main_arg9 : Ref sig .tc), Proc.devRef .tc (main_arg10 : Ref sig .tc), Proc.devRef .tc (main_v49 : Ref sig .tc)}

theorem FINset_sub : FINset ⊆ Pipeline.ucRefs τ sig := by
  intro b hb
  simp only [FINset, Finset.mem_insert, Finset.mem_singleton] at hb
  rcases hb with rfl | rfl | rfl | rfl | rfl | rfl | rfl | rfl | rfl | rfl | rfl | rfl <;> exact mem_ucRefs _ rfl

/-- The unscoped buffers are the twelve and the rest. -/
theorem fin_take :
    (held (SparseCore.T d) (Pipeline.ucRefs τ sig) W : sProp 𝕄)
      = iprop(held (SparseCore.T d) FINset W ∗ held (SparseCore.T d) (Pipeline.ucRefs τ sig \ FINset) W) :=
  held_sub_split (SparseCore.T d) FINset_sub W

/-- The twelve buffers held at a valuation, one by one. -/
theorem held_FINset :
    (held (SparseCore.T d) FINset W : sProp 𝕄) = iprop(((SparseCore.T d).loc main_arg0 ↦{fullShare} W (Proc.devRef .tc main_arg0))
      ∗ ((SparseCore.T d).loc main_arg1 ↦{fullShare} W (Proc.devRef .tc main_arg1))
      ∗ ((SparseCore.T d).loc main_arg2 ↦{fullShare} W (Proc.devRef .tc main_arg2))
      ∗ ((SparseCore.T d).loc main_arg3 ↦{fullShare} W (Proc.devRef .tc main_arg3))
      ∗ ((SparseCore.T d).loc main_arg4 ↦{fullShare} W (Proc.devRef .tc main_arg4))
      ∗ ((SparseCore.T d).loc main_arg5 ↦{fullShare} W (Proc.devRef .tc main_arg5))
      ∗ ((SparseCore.T d).loc main_arg6 ↦{fullShare} W (Proc.devRef .tc main_arg6))
      ∗ ((SparseCore.T d).loc main_arg7 ↦{fullShare} W (Proc.devRef .tc main_arg7))
      ∗ ((SparseCore.T d).loc main_arg8 ↦{fullShare} W (Proc.devRef .tc main_arg8))
      ∗ ((SparseCore.T d).loc main_arg9 ↦{fullShare} W (Proc.devRef .tc main_arg9))
      ∗ ((SparseCore.T d).loc main_arg10 ↦{fullShare} W (Proc.devRef .tc main_arg10))
      ∗ ((SparseCore.T d).loc main_v49 ↦{fullShare} W (Proc.devRef .tc main_v49))) := by
  unfold held FINset
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

end Held

/-! ## The TensorCore call's eleven buffers -/

section TcRegion

variable {Ix : Type} [DecidableEq Ix] {Name : Type} [DecidableEq Name] {U : Type} [URA U] {Lvl : Type}

local notation "𝕄" => MT nD τ sig Ix (Elt F) Name U Lvl

abbrev r49 : DevRef τ sig := Proc.devRef .tc (main_v49 : Ref sig .tc)

/-- The eleven buffers of the TensorCore call, in the order of its operands, the result last. -/
abbrev T11 : Finset (DevRef τ sig) := {Proc.devRef .tc (main_v45_0 : Ref sig .tc), Proc.devRef .tc (main_v23 : Ref sig .tc), Proc.devRef .tc (main_v46 : Ref sig .tc), Proc.devRef .tc (main_v29 : Ref sig .tc), Proc.devRef .tc (main_v27 : Ref sig .tc), Proc.devRef .tc (main_v39 : Ref sig .tc), Proc.devRef .tc (main_v40 : Ref sig .tc), Proc.devRef .tc (main_v47 : Ref sig .tc), Proc.devRef .tc (main_v41 : Ref sig .tc), Proc.devRef .tc (main_v48 : Ref sig .tc), Proc.devRef .tc (main_v49 : Ref sig .tc)}

theorem T11_sub : T11 ⊆ Pipeline.ucRefs τ sig := by
  intro b hb
  simp only [T11, Finset.mem_insert, Finset.mem_singleton] at hb
  rcases hb with rfl | rfl | rfl | rfl | rfl | rfl | rfl | rfl | rfl | rfl | rfl <;> exact mem_ucRefs _ rfl

variable (d : Dev nD) (Wv : Valuation τ sig (Elt F))

/-- The eleven buffers held at a valuation, one by one. -/
theorem held_T11 :
    (held (SparseCore.T d) T11 Wv : sProp 𝕄) = iprop(((SparseCore.T d).loc main_v45_0 ↦{fullShare} Wv (Proc.devRef .tc main_v45_0))
      ∗ ((SparseCore.T d).loc main_v23 ↦{fullShare} Wv (Proc.devRef .tc main_v23))
      ∗ ((SparseCore.T d).loc main_v46 ↦{fullShare} Wv (Proc.devRef .tc main_v46))
      ∗ ((SparseCore.T d).loc main_v29 ↦{fullShare} Wv (Proc.devRef .tc main_v29))
      ∗ ((SparseCore.T d).loc main_v27 ↦{fullShare} Wv (Proc.devRef .tc main_v27))
      ∗ ((SparseCore.T d).loc main_v39 ↦{fullShare} Wv (Proc.devRef .tc main_v39))
      ∗ ((SparseCore.T d).loc main_v40 ↦{fullShare} Wv (Proc.devRef .tc main_v40))
      ∗ ((SparseCore.T d).loc main_v47 ↦{fullShare} Wv (Proc.devRef .tc main_v47))
      ∗ ((SparseCore.T d).loc main_v41 ↦{fullShare} Wv (Proc.devRef .tc main_v41))
      ∗ ((SparseCore.T d).loc main_v48 ↦{fullShare} Wv (Proc.devRef .tc main_v48))
      ∗ ((SparseCore.T d).loc main_v49 ↦{fullShare} Wv (Proc.devRef .tc main_v49))) := by
  unfold held T11
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- TAKE: the unscoped buffers are the eleven, one by one, and the rest. -/
theorem tc_take :
    (held (SparseCore.T d) (Pipeline.ucRefs τ sig) Wv : sProp 𝕄)
      = iprop(((SparseCore.T d).loc main_v45_0 ↦{fullShare} Wv (Proc.devRef .tc main_v45_0))
        ∗ ((SparseCore.T d).loc main_v23 ↦{fullShare} Wv (Proc.devRef .tc main_v23))
        ∗ ((SparseCore.T d).loc main_v46 ↦{fullShare} Wv (Proc.devRef .tc main_v46))
        ∗ ((SparseCore.T d).loc main_v29 ↦{fullShare} Wv (Proc.devRef .tc main_v29))
        ∗ ((SparseCore.T d).loc main_v27 ↦{fullShare} Wv (Proc.devRef .tc main_v27))
        ∗ ((SparseCore.T d).loc main_v39 ↦{fullShare} Wv (Proc.devRef .tc main_v39))
        ∗ ((SparseCore.T d).loc main_v40 ↦{fullShare} Wv (Proc.devRef .tc main_v40))
        ∗ ((SparseCore.T d).loc main_v47 ↦{fullShare} Wv (Proc.devRef .tc main_v47))
        ∗ ((SparseCore.T d).loc main_v41 ↦{fullShare} Wv (Proc.devRef .tc main_v41))
        ∗ ((SparseCore.T d).loc main_v48 ↦{fullShare} Wv (Proc.devRef .tc main_v48))
        ∗ ((SparseCore.T d).loc main_v49 ↦{fullShare} Wv (Proc.devRef .tc main_v49))
        ∗ held (SparseCore.T d) (Pipeline.ucRefs τ sig \ T11) Wv) := by
  rw [held_sub_split (SparseCore.T d) T11_sub Wv, held_T11]
  simp only [sep_assoc_eq]

/-- A valuation with the call's result replaced. -/
def tcPut (Wv : Valuation τ sig (Elt F)) (out : r49.ty.Contents (Elt F)) : Valuation τ sig (Elt F) := Function.update Wv r49 out

variable (out : r49.ty.Contents (Elt F))

theorem tcPut_out : tcPut Wv out r49 = out := Function.update_self _ _ _
theorem tcPut_of_ne {b : DevRef τ sig} (h : b ≠ r49) : tcPut Wv out b = Wv b := Function.update_of_ne h _ _
theorem tcPut_of_ref_ne {r : Ref sig .tc} (h : r ≠ main_v49) : tcPut Wv out (Proc.devRef .tc r) = Wv (Proc.devRef .tc r) :=
  tcPut_of_ne Wv out (devRef_ne_of_ne h)

theorem held_rest_tcPut :
    (held (SparseCore.T d) (Pipeline.ucRefs τ sig \ T11) (tcPut Wv out) : sProp 𝕄) = held (SparseCore.T d) (Pipeline.ucRefs τ sig \ T11) Wv :=
  held_congr (SparseCore.T d) fun b hb => by
    have hn : b ∉ T11 := (Finset.mem_sdiff.mp hb).2
    refine tcPut_of_ne Wv out (fun e => hn ?_)
    rw [e]; decide

/-- PUT: after the call the ten operands as they were, the result at what the call left, and the rest, are the
    unscoped buffers held at the updated valuation. -/
theorem tc_put :
    iprop(((SparseCore.T d).loc main_v45_0 ↦{fullShare} Wv (Proc.devRef .tc main_v45_0))
        ∗ ((SparseCore.T d).loc main_v23 ↦{fullShare} Wv (Proc.devRef .tc main_v23))
        ∗ ((SparseCore.T d).loc main_v46 ↦{fullShare} Wv (Proc.devRef .tc main_v46))
        ∗ ((SparseCore.T d).loc main_v29 ↦{fullShare} Wv (Proc.devRef .tc main_v29))
        ∗ ((SparseCore.T d).loc main_v27 ↦{fullShare} Wv (Proc.devRef .tc main_v27))
        ∗ ((SparseCore.T d).loc main_v39 ↦{fullShare} Wv (Proc.devRef .tc main_v39))
        ∗ ((SparseCore.T d).loc main_v40 ↦{fullShare} Wv (Proc.devRef .tc main_v40))
        ∗ ((SparseCore.T d).loc main_v47 ↦{fullShare} Wv (Proc.devRef .tc main_v47))
        ∗ ((SparseCore.T d).loc main_v41 ↦{fullShare} Wv (Proc.devRef .tc main_v41))
        ∗ ((SparseCore.T d).loc main_v48 ↦{fullShare} Wv (Proc.devRef .tc main_v48))
        ∗ ((SparseCore.T d).loc main_v49 ↦{fullShare} out)
        ∗ held (SparseCore.T d) (Pipeline.ucRefs τ sig \ T11) Wv)
      = (held (SparseCore.T d) (Pipeline.ucRefs τ sig) (tcPut Wv out) : sProp 𝕄) := by
  rw [tc_take d (tcPut Wv out), held_rest_tcPut,
    tcPut_of_ref_ne Wv out (r := main_v45_0) (by decide), tcPut_of_ref_ne Wv out (r := main_v23) (by decide), tcPut_of_ref_ne Wv out (r := main_v46) (by decide), tcPut_of_ref_ne Wv out (r := main_v29) (by decide), tcPut_of_ref_ne Wv out (r := main_v27) (by decide), tcPut_of_ref_ne Wv out (r := main_v39) (by decide), tcPut_of_ref_ne Wv out (r := main_v40) (by decide), tcPut_of_ref_ne Wv out (r := main_v47) (by decide), tcPut_of_ref_ne Wv out (r := main_v41) (by decide), tcPut_of_ref_ne Wv out (r := main_v48) (by decide)]
  rw [show tcPut Wv out (Proc.devRef .tc main_v49) = out from tcPut_out Wv out]

end TcRegion

/-! ## The composite valuation: first list, call, second list -/

section Composite

variable [FloatOps F] (m : (ℓ : Loc nD τ sig) → Buf (Elt F) ℓ) (d : Dev nD)
  (e2v : r450.ty.Contents (Elt F)) (sov : r451.ty.Contents (Elt F))

/-- The valuation once the first list, the SparseCore call (leaving `e2v`, `sov`) and the second list have run. -/
abbrev Wc : Valuation τ sig (Elt F) := after hostOps1 (scPut (after hostOps0 (V0 m d)) e2v sov)

/-- A buffer neither list writes, other than the call's results, holds its launch contents. -/
theorem Wc_untouched (r : Ref sig .tc) (h0 : r ∉ written0) (h1 : r ∉ written1) (h2 : r ≠ main_v45_0) (h3 : r ≠ main_v45_1) :
    Wc m d e2v sov (Proc.devRef .tc r) = m ((SparseCore.T d).loc r) := by
  unfold Wc
  rw [after1_of_not_written _ r h1, scPut_of_ref_ne _ _ _ h2 h3, after0_of_not_written _ r h0]

theorem Wc_arg0 : Wc m d e2v sov (Proc.devRef .tc main_arg0) = m ((SparseCore.T d).loc main_arg0) :=
  Wc_untouched m d e2v sov main_arg0 (by decide) (by decide) (by decide) (by decide)
theorem Wc_arg1 : Wc m d e2v sov (Proc.devRef .tc main_arg1) = m ((SparseCore.T d).loc main_arg1) :=
  Wc_untouched m d e2v sov main_arg1 (by decide) (by decide) (by decide) (by decide)
theorem Wc_arg2 : Wc m d e2v sov (Proc.devRef .tc main_arg2) = m ((SparseCore.T d).loc main_arg2) :=
  Wc_untouched m d e2v sov main_arg2 (by decide) (by decide) (by decide) (by decide)
theorem Wc_arg3 : Wc m d e2v sov (Proc.devRef .tc main_arg3) = m ((SparseCore.T d).loc main_arg3) :=
  Wc_untouched m d e2v sov main_arg3 (by decide) (by decide) (by decide) (by decide)
theorem Wc_arg4 : Wc m d e2v sov (Proc.devRef .tc main_arg4) = m ((SparseCore.T d).loc main_arg4) :=
  Wc_untouched m d e2v sov main_arg4 (by decide) (by decide) (by decide) (by decide)
theorem Wc_arg5 : Wc m d e2v sov (Proc.devRef .tc main_arg5) = m ((SparseCore.T d).loc main_arg5) :=
  Wc_untouched m d e2v sov main_arg5 (by decide) (by decide) (by decide) (by decide)
theorem Wc_arg6 : Wc m d e2v sov (Proc.devRef .tc main_arg6) = m ((SparseCore.T d).loc main_arg6) :=
  Wc_untouched m d e2v sov main_arg6 (by decide) (by decide) (by decide) (by decide)
theorem Wc_arg7 : Wc m d e2v sov (Proc.devRef .tc main_arg7) = m ((SparseCore.T d).loc main_arg7) :=
  Wc_untouched m d e2v sov main_arg7 (by decide) (by decide) (by decide) (by decide)
theorem Wc_arg8 : Wc m d e2v sov (Proc.devRef .tc main_arg8) = m ((SparseCore.T d).loc main_arg8) :=
  Wc_untouched m d e2v sov main_arg8 (by decide) (by decide) (by decide) (by decide)
theorem Wc_arg9 : Wc m d e2v sov (Proc.devRef .tc main_arg9) = m ((SparseCore.T d).loc main_arg9) :=
  Wc_untouched m d e2v sov main_arg9 (by decide) (by decide) (by decide) (by decide)
theorem Wc_arg10 : Wc m d e2v sov (Proc.devRef .tc main_arg10) = m ((SparseCore.T d).loc main_arg10) :=
  Wc_untouched m d e2v sov main_arg10 (by decide) (by decide) (by decide) (by decide)

/-- A buffer the first list writes and nothing later touches holds the first list's value. -/
theorem Wc_of_first (r : Ref sig .tc) (h1 : r ∉ written1) (h2 : r ≠ main_v45_0) (h3 : r ≠ main_v45_1) :
    Wc m d e2v sov (Proc.devRef .tc r) = after hostOps0 (V0 m d) (Proc.devRef .tc r) := by
  unfold Wc
  rw [after1_of_not_written _ r h1, scPut_of_ref_ne _ _ _ h2 h3]

/-- The TensorCore call's operands under the composite valuation. -/
theorem Wc_v45_0 : Wc m d e2v sov (Proc.devRef .tc main_v45_0) = e2v := by
  unfold Wc; rw [after1_of_not_written _ main_v45_0 (by decide)]; exact scPut_e2 _ _ _
theorem Wc_v23 : Wc m d e2v sov (Proc.devRef .tc main_v23) = v23T (F := F) (m ((SparseCore.T d).loc main_arg1)) := by
  rw [Wc_of_first m d e2v sov main_v23 (by decide) (by decide) (by decide), after0_v23]
theorem Wc_v46 : Wc m d e2v sov (Proc.devRef .tc main_v46) = shapeCast S4096x32 sov shapeCasts_S131072_S4096x32 := by
  unfold Wc; rw [after1_v46]; exact congrArg (fun x => shapeCast S4096x32 x shapeCasts_S131072_S4096x32) (scPut_so _ _ _)
theorem Wc_v29 : Wc m d e2v sov (Proc.devRef .tc main_v29) = v29T (F := F) (m ((SparseCore.T d).loc main_arg5)) := by
  rw [Wc_of_first m d e2v sov main_v29 (by decide) (by decide) (by decide), after0_v29]
theorem Wc_v27 : Wc m d e2v sov (Proc.devRef .tc main_v27) = v27T (F := F) (m ((SparseCore.T d).loc main_arg5)) := by
  rw [Wc_of_first m d e2v sov main_v27 (by decide) (by decide) (by decide), after0_v27]
theorem Wc_v39 : Wc m d e2v sov (Proc.devRef .tc main_v39)
    = v39T (F := F) (m ((SparseCore.T d).loc main_arg6)) (m ((SparseCore.T d).loc main_arg2)) (m ((SparseCore.T d).loc main_arg5)) := by
  rw [Wc_of_first m d e2v sov main_v39 (by decide) (by decide) (by decide), after0_v39]
theorem Wc_v40 : Wc m d e2v sov (Proc.devRef .tc main_v40) = v40T (F := F) (m ((SparseCore.T d).loc main_arg7)) := by
  rw [Wc_of_first m d e2v sov main_v40 (by decide) (by decide) (by decide), after0_v40]
theorem Wc_v41 : Wc m d e2v sov (Proc.devRef .tc main_v41) = v41T (F := F) (m ((SparseCore.T d).loc main_arg9)) := by
  rw [Wc_of_first m d e2v sov main_v41 (by decide) (by decide) (by decide), after0_v41]
theorem Wc_v47 : Wc m d e2v sov (Proc.devRef .tc main_v47) = shapeCast S1x512 (m ((SparseCore.T d).loc main_arg8)) shapeCasts_S512_S1x512 := by
  unfold Wc
  rw [after1_v47, scPut_of_ref_ne _ _ _ (r := main_arg8) (by decide) (by decide), after0_of_not_written _ main_arg8 (by decide)]
theorem Wc_v48 : Wc m d e2v sov (Proc.devRef .tc main_v48) = shapeCast S1x1 (m ((SparseCore.T d).loc main_arg10)) shapeCasts_S1_S1x1 := by
  unfold Wc
  rw [after1_v48, scPut_of_ref_ne _ _ _ (r := main_arg10) (by decide) (by decide), after0_of_not_written _ main_arg10 (by decide)]

/-- The SparseCore call's operands under the valuation after the first list. -/
theorem W0_v18 : after hostOps0 (V0 m d) (Proc.devRef .tc main_v18) = v18T (F := F) (m ((SparseCore.T d).loc main_arg4)) := after0_v18 _
theorem W0_v21 : after hostOps0 (V0 m d) (Proc.devRef .tc main_v21) = v21T (F := F) (m ((SparseCore.T d).loc main_arg3)) := after0_v21 _
theorem W0_v42 : after hostOps0 (V0 m d) (Proc.devRef .tc main_v42) = v42T (m ((SparseCore.T d).loc main_arg0)) := after0_v42 _
theorem W0_v43 : after hostOps0 (V0 m d) (Proc.devRef .tc main_v43) = v43T (m ((SparseCore.T d).loc main_arg0)) := after0_v43 _
theorem W0_v44 : after hostOps0 (V0 m d) (Proc.devRef .tc main_v44) = v44T (F := F) (m ((SparseCore.T d).loc main_arg1)) := after0_v44 _

end Composite

/-! ## The three reshapes after the call, read at an index -/

section Reshapes
variable {α : Type}

/-- The 131072-vector as a 4096 x 32 array: entry (b, f) is entry b*32 + f. -/
theorem reshape46_apply (x : S131072.Idx → α) (b : Fin 4096) (f : Fin 32) :
    shapeCast S4096x32 x shapeCasts_S131072_S4096x32 (ix2 b f) = x (ix1 ⟨b.val * 32 + f.val, by omega⟩) :=
  shapeCast_apply x _ (ix2 b f) (ix1 ⟨b.val * 32 + f.val, by omega⟩) (by
    rw [Shape.rowMajor_val_one, Shape.rowMajor_val_two]
    show b.val * 32 + f.val = b.val * 32 + f.val
    rfl)

theorem reshape47_apply (x : S512.Idx → α) (u : Fin 1) (j : Fin 512) :
    shapeCast S1x512 x shapeCasts_S512_S1x512 (ix2 u j) = x (ix1 j) :=
  shapeCast_apply x _ (ix2 u j) (ix1 j) (by
    rw [Shape.rowMajor_val_one, Shape.rowMajor_val_two]
    show j.val = u.val * 512 + j.val
    omega)

theorem reshape48_apply (x : S1.Idx → α) (u v : Fin 1) :
    shapeCast S1x1 x shapeCasts_S1_S1x1 (ix2 u v) = x (ix1 u0) :=
  shapeCast_apply x _ (ix2 u v) (ix1 u0) (by
    rw [Shape.rowMajor_val_one, Shape.rowMajor_val_two]
    show 0 = u.val * 1 + v.val
    omega)

end Reshapes

end Cert.ProofB.HostGlue

end
-- ==== Proof.B.LaunchMain.lean ====
/-
  @main on the TensorCore: the host operations before the SparseCore call; the call, whose seven arrays are dealt to the
  thirty-two tasks and collected again, the two results at their values; the three reshapes after it; the TensorCore
  region; and what is left in hand at the end: the eleven arguments at their launch contents and the result at its value.
-/
import proofs.«207592_g65111704207794_cont_9to1_m_407_36_alg».proof.Proof.B.LaunchVals
import proofs.«207592_g65111704207794_cont_9to1_m_407_36_alg».proof.Proof.B.HostGlue

noncomputable section

namespace Cert.ProofB.KI

open Cert.Kernel Cert.Kernel.Gen
open Cert.ProofB.ScSpec (E2 SS)
open Cert.ProofB.ScViews (tLoc i2Loc isLoc wfLoc xvLoc e2Loc soLoc GO TD)
open Cert.ProofB.HostOps (hostOps0 hostOps1 V0 mainRest main_eq unscopedBufs_V0 wp_hostOps0 wp_hostOps1)
open Cert.ProofB.HostGlue (scPut sc_take sc_put FINset fin_take)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)
open Cert.ProofB.TcAlg (UH UU EH EP Gd)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tasks' shares at the launch memory's contents -/

abbrev GOm (d : Dev nD) (L : grid0.Coords) : sProp (MT nD τ sig (HIx 1) (Elt F) ℕ UU ℕ) := GOt d (cTb m d) (cI2 m d) (cIS m d) (cWF m d) (cXV m d) L
abbrev TDm (d : Dev nD) (L : grid0.Coords) : sProp (MT nD τ sig (HIx 1) (Elt F) ℕ UU ℕ) := TDt d (cTb m d) (cI2 m d) (cIS m d) (cWF m d) (cXV m d) L

/-- What the handshakes carry. -/
abbrev PM : (K (F := F)).Pay (nD := nD) (Val := Elt F) (Name := ℕ) (U := UU) := P (GOof (GOm m)) (TDof (TDm m))

/-- The two results of the call, as whole-array functions of the arrays it read. -/
abbrev cE2 (d : Dev nD) : Buf (Elt F) (e2Loc d) := E2 (cTb m d) (cI2 m d) (cXV m d)
abbrev cSS (d : Dev nD) : Buf (Elt F) (soLoc d) := SS (cIS m d) (cWF m d)

/-- The arrays after the call, and after the reshapes that follow it. -/
abbrev W2 (d : Dev nD) : Valuation τ sig (Elt F) := scPut (W1 m d) (cE2 m d) (cSS m d)
abbrev W3 (d : Dev nD) : Valuation τ sig (Elt F) := after hostOps1 (W2 m d)

/-- @main's last statement: the TensorCore region. -/
abbrev callTc : Prog (TpuEff nD τ sig (Elt F) (SparseCore.Sig (ΛP (F := F)) 1) .tc) PUnit :=
  Prog.lift (.customCall (SparseCore.inner (Pipeline.entry 0)) ())

variable (OutAll : Valuation τ sig (Elt F) → (Proc.devRef (τ := τ) .tc (main_v49 : Ref sig .tc)).ty.Contents (Elt F))

/-- The TensorCore region over the buffers as @main holds them: the result array ends at `OutAll` of the arrays at
    entry, everything else as it was. -/
def RegionHeld : Prop :=
  ∀ (κ : GSem nD τ sig → ℕ) (d : Dev nD) (Wv : Valuation τ sig (Elt F)) (Φ : PUnit → sProp (MT nD τ sig (HIx 1) (Elt F) ℕ UU ℕ)),
    iprop((K (F := F)).ctx EH (PM m) κ ∗ (K (F := F)).tcSt EH d 1 ∗ boundary (T d) ∗ (held (T d) (Pipeline.ucRefs τ sig) Wv : sProp 𝕄) ∗ Gd (F := F) d
        ∗ (iprop((K (F := F)).tcSt EH d 1 ∗ boundary (T d)
            ∗ (held (T d) (Pipeline.ucRefs τ sig) (Function.update Wv (Proc.devRef .tc main_v49) (OutAll Wv)) : sProp 𝕄)) -∗ Φ ⟨⟩))
      ⊢ wp frame (wpE ((K (F := F)).defs (D (F := F))) 𝒱 (T d) none) Set.univ (callTc (F := F)) Φ

/-- The arrays at the end of @main. -/
abbrev W4 (d : Dev nD) : Valuation τ sig (Elt F) := Function.update (W3 m d) (Proc.devRef .tc main_v49) (OutAll (W3 m d))

/-- What @main leaves the claim: the arguments and the result, held at the final valuation. -/
abbrev FIN (d : Dev nD) : sProp (MT nD τ sig (HIx 1) (Elt F) ℕ UU ℕ) := held (T d) FINset (W4 m OutAll d)

theorem bigSep_tiles (Φ : grid0.Coords → sProp 𝕄) :
    (bigSep Finset.univ fun c : Fin 2 => bigSep Finset.univ fun i : Fin 16 => Φ (coordsV c i)) = bigSep Finset.univ fun t : TI => Φ (LL t) :=
  (bigSep_univ_prod (fun t : TI => Φ (LL t))).symm

set_option maxRecDepth 16384 in
/-- @main on device `d`'s TensorCore. -/
theorem hmain (hreg : RegionHeld m OutAll) (κ : GSem nD τ sig → ℕ) (d : Dev nD) :
    iprop((K (F := F)).ctx EH (PM m) κ ∗ (K (F := F)).tcSt EH d 0 ∗ (K (F := F)).tcRes m ρ d ∗ Gd (F := F) d)
      ⊢ wp frame (wpE ((K (F := F)).defs (D (F := F))) 𝒱 (SparseCore.T d) none) Set.univ (main d)
          fun _ => iprop((K (F := F)).tcSt EH d 1 ∗ FIN m OutAll d) := by
  unfold SparseCore.Cfg.tcRes
  rw [unscopedBufs_V0, main_eq]
  iintro ⟨#Hctx, Hst, ⟨Hb, Hheld, -, -⟩, HG⟩
  -- the host operations before the call
  iapply (wp_hostOps0 𝒱 none Set.univ d _ (V0 m d)) $$ [Hb Hheld]
  · isplitl [Hb] <;> iassumption
  iintro ⟨Hb, Hheld⟩
  unfold mainRest
  rw [wp_bind]
  -- the call's seven arrays out of the rest, dealt to the tasks
  ihave H7 := (Entails.of_eq (sc_take (F := F) d (W1 m d))) $$ Hheld
  icases H7 with ⟨Ht, Hw, Hi2, Hxv, His, He2, Hso, Hrest⟩
  ihave Hsp := (scSplitTI d (cTb m d) (cI2 m d) (cIS m d) (cWF m d) (cXV m d) _ _) $$ [Ht Hw Hi2 Hxv His He2 Hso]
  · isplitl [Ht]; · iexact Ht
    isplitl [Hw]; · iexact Hw
    isplitl [Hi2]; · iexact Hi2
    isplitl [Hxv]; · iexact Hxv
    isplitl [His]; · iexact His
    isplitl [He2]; · iexact He2
    iexact Hso
  icases Hsp with ⟨Hgo, Htr, Hwr⟩
  iapply ((K (F := F)).wp_run (D (F := F)) 𝒱 (EH := EH) (P := PM m) κ d 0) $$ [Hst Hgo Hb Hrest Htr Hwr HG]
  isplitr; · iexact Hctx
  isplitl [Hst]; · iexact Hst
  isplitl [Hgo]
  · rw [st0_eq, bigSep_tiles (F := F) (GOm m d)]
    iexact Hgo
  iintro ⟨Hst, Hdn⟩
  ihave Hdn' := (Entails.of_eq ((dn0_eq (F := F) (GOof (GOm m)) (TDof (TDm m)) d).trans (bigSep_tiles (F := F) (TDm m d)))) $$ Hdn
  ihave Hj := (scJoinTI d (cTb m d) (cI2 m d) (cIS m d) (cWF m d) (cXV m d)) $$ [Hdn' Htr Hwr]
  · isplitl [Hdn']; · iexact Hdn'
    isplitl [Htr] <;> iassumption
  icases Hj with ⟨Ht, Hw, Hi2, Hxv, His, He2, Hso⟩
  ihave Hheld := (Entails.of_eq (sc_put (F := F) d (W1 m d) (cE2 m d) (cSS m d))) $$ [Ht Hw Hi2 Hxv His He2 Hso Hrest]
  · isplitl [Ht]; · iexact Ht
    isplitl [Hw]; · iexact Hw
    isplitl [Hi2]; · iexact Hi2
    isplitl [Hxv]; · iexact Hxv
    isplitl [His]; · iexact His
    isplitl [He2]; · iexact He2
    isplitl [Hso]; · iexact Hso
    iexact Hrest
  -- the reshapes after the call
  iapply (wp_hostOps1 𝒱 none Set.univ d _ (W2 m d)) $$ [Hb Hheld]
  · isplitl [Hb] <;> iassumption
  iintro ⟨Hb, Hheld⟩
  -- the TensorCore region
  rw [wp_bind]
  iapply (hreg κ d (W3 m d)) $$ [Hst Hb Hheld HG]
  isplitr; · iexact Hctx
  isplitl [Hst]; · iexact Hst
  isplitl [Hb]; · iexact Hb
  isplitl [Hheld]; · iexact Hheld
  isplitl [HG]; · iexact HG
  iintro ⟨Hst, Hb, Hheld⟩
  rw [wp_pure]
  ihave Hf := (Entails.of_eq (fin_take (F := F) d (W4 m OutAll d))) $$ Hheld
  icases Hf with ⟨Hfin, -⟩
  imodintro
  isplitl [Hst]; · iexact Hst
  iexact Hfin

end Cert.ProofB.KI

end
-- ==== Proof.B.LaunchRun.lean ====
/-
  The program's run: from the proof of one task, the region and @main, every weakly fair execution of the device's
  threads terminates, and in the final memory the eleven arguments hold their launch contents and the result array the
  value @main's last valuation names.
-/
import proofs.«207592_g65111704207794_cont_9to1_m_407_36_alg».proof.Proof.B.LaunchMain

noncomputable section

namespace Cert.ProofB.KI

open Cert.Kernel Cert.Kernel.Gen
open Cert.ProofB.HostGlue (FINset)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)
open Cert.ProofB.TcAlg (UH UU EH EP Gd)

variable {F : FTy → Type} [FloatOps F]

local notation "𝕄" => MT nD τ sig (HIx 1) (Elt F) ℕ UU ℕ

variable (m : (ℓ : Loc nD τ sig) → Buf (Elt F) ℓ) (ρ : Dev nD → PrngReg)
variable (OutAll : Valuation τ sig (Elt F) → (Proc.devRef (τ := τ) .tc (main_v49 : Ref sig .tc)).ty.Contents (Elt F))

/-- The final memory of device `d` holds the twelve buffers at the final valuation. -/
def fq (d : Dev nD) (s' : Phys nD τ sig (Elt F)) : Prop := ∀ b ∈ (FINset : Finset (DevRef τ sig)), s'.mem.mem (d, b) = W4 m OutAll d b

theorem hfin (d : Dev nD) (s' : Phys nD τ sig (Elt F)) : iprop(FIN m OutAll d ∗ SI s') ⊢ (⌜fq m OutAll d s'⌝ : sProp 𝕄) :=
  held_agree (F := F) (T d) FINset (W4 m OutAll d) s'

def QC : PUnit × MemSt nD τ sig (Elt F) → Prop := fun r => ∀ c : Dev nD, ∀ b ∈ (FINset : Finset (DevRef τ sig)), r.2.mem (c, b) = W4 m OutAll c b

theorem run_main [∀ e, Nonempty (Elt F e)] (hbody : TileBody (F := F) (GOm m) (TDm m)) (hreg : RegionHeld m OutAll) :
    θ_run (Cert.Kernel.defs (F := F)) (Cert.Kernel.threads (F := F)) ⟨m, fun _ => 0, ρ⟩ (QC m OutAll) := by
  haveI : (PM m).IsStorable := P_storable (GOof (GOm m)) (TDof (TDm m)) (fun _ _ _ => inferInstance) (fun _ _ _ => inferInstance)
  exact SparseCore.Cfg.θ_run_sc (K := K (F := F)) (D := D (F := F)) (𝒱 := 𝒱) (EH := EH) (P := PM m) facts v₀
    (fun q hq => match q with | 0 => nomatch hq)
    (fun q _ => match q with | 0 => tileObl (GOm m) (TDm m) hbody)
    (fun q _ => match q with | 0 => SparseCore.Cfg.VecSplit.of_plain (vecSplit (GOof (GOm m)) (TDof (TDm m))))
    m ρ main (fun d => Gd (F := F) d) (FIN m OutAll) (Cert.ProofB.TcAlg.u₀ (F := F)) (sep_elim_left.trans (hu₀ (GOof (GOm m)) (TDof (TDm m))))
    (hmain m ρ OutAll hreg) (fq m OutAll) (hfin m OutAll) (QC m OutAll) (fun _ h => h)

end Cert.ProofB.KI

end
-- ==== Proof.B.LaunchPost.lean ====
/-
  The run's postcondition in the claim's words: the result array at the value of @main's last valuation, and each
  of the eleven argument arrays at its launch contents (no operation of @main and neither kernel writes an argument).
-/
import proofs.«207592_g65111704207794_cont_9to1_m_407_36_alg».proof.Proof.B.LaunchRun

noncomputable section

namespace Cert.ProofB.KI

open Cert.Kernel Cert.Kernel.Gen
open Cert.ProofB.HostGlue (FINset)

open Idealize.ShloMosaic
open Idealize.ShloMosaic.SparseCore (S V T)
open Idealize.SL.Sem

variable {F : FTy → Type} [FloatOps F]

variable (m : (ℓ : Loc nD τ sig) → Buf (Elt F) ℓ) (ρ : Dev nD → PrngReg)
variable (OutAll : Valuation τ sig (Elt F) → (Proc.devRef (τ := τ) .tc (main_v49 : Ref sig .tc)).ty.Contents (Elt F))

theorem W4_arg (d : Dev nD) (r : Ref sig .tc) (hr : r ≠ main_v49) :
    W4 m OutAll d (Proc.devRef .tc r) = W3 m d (Proc.devRef .tc r) :=
  Function.update_of_ne (Idealize.ShloMosaic.StableHlo.devRef_ne_of_ne hr) _ _

theorem W4_res (d : Dev nD) : W4 m OutAll d (Proc.devRef .tc main_v49) = OutAll (W3 m d) := Function.update_self _ _ _

/-- The claim's reading of the final memory. -/
theorem post_of_QC (r : PUnit × MemSt nD τ sig (Elt F)) (h : QC m OutAll r) (c : Dev nD) :
    r.2.mem ((c.tc : Thread nD τ).loc main_v49) = OutAll (W3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine ⟨?_, ?_, ?_, ?_, ?_, ?_, ?_, ?_, ?_, ?_, ?_, ?_⟩
  · exact (h c (Proc.devRef .tc main_v49) (by decide)).trans (W4_res m OutAll c)
  · exact (h c (Proc.devRef .tc main_arg0) (by decide)).trans ((W4_arg m OutAll c main_arg0 (by decide)).trans (Cert.ProofB.HostGlue.Wc_arg0 m c _ _))
  · exact (h c (Proc.devRef .tc main_arg1) (by decide)).trans ((W4_arg m OutAll c main_arg1 (by decide)).trans (Cert.ProofB.HostGlue.Wc_arg1 m c _ _))
  · exact (h c (Proc.devRef .tc main_arg2) (by decide)).trans ((W4_arg m OutAll c main_arg2 (by decide)).trans (Cert.ProofB.HostGlue.Wc_arg2 m c _ _))
  · exact (h c (Proc.devRef .tc main_arg3) (by decide)).trans ((W4_arg m OutAll c main_arg3 (by decide)).trans (Cert.ProofB.HostGlue.Wc_arg3 m c _ _))
  · exact (h c (Proc.devRef .tc main_arg4) (by decide)).trans ((W4_arg m OutAll c main_arg4 (by decide)).trans (Cert.ProofB.HostGlue.Wc_arg4 m c _ _))
  · exact (h c (Proc.devRef .tc main_arg5) (by decide)).trans ((W4_arg m OutAll c main_arg5 (by decide)).trans (Cert.ProofB.HostGlue.Wc_arg5 m c _ _))
  · exact (h c (Proc.devRef .tc main_arg6) (by decide)).trans ((W4_arg m OutAll c main_arg6 (by decide)).trans (Cert.ProofB.HostGlue.Wc_arg6 m c _ _))
  · exact (h c (Proc.devRef .tc main_arg7) (by decide)).trans ((W4_arg m OutAll c main_arg7 (by decide)).trans (Cert.ProofB.HostGlue.Wc_arg7 m c _ _))
  · exact (h c (Proc.devRef .tc main_arg8) (by decide)).trans ((W4_arg m OutAll c main_arg8 (by decide)).trans (Cert.ProofB.HostGlue.Wc_arg8 m c _ _))
  · exact (h c (Proc.devRef .tc main_arg9) (by decide)).trans ((W4_arg m OutAll c main_arg9 (by decide)).trans (Cert.ProofB.HostGlue.Wc_arg9 m c _ _))
  · exact (h c (Proc.devRef .tc main_arg10) (by decide)).trans ((W4_arg m OutAll c main_arg10 (by decide)).trans (Cert.ProofB.HostGlue.Wc_arg10 m c _ _))

end Cert.ProofB.KI

end
-- ==== Proof.B.TcBody.lean ====
/-
  The TensorCore's pipelined region: its body, at a symbolic grid point.

  The body loads each of its ten input windows' staging buffers whole — a block of 512 rows of the gathered
  second-order features, of the dense inputs and of the first-order weights, the three layers' weight matrices and
  bias rows whole, and the last bias as one word —, computes the three layers on the block's rows, loads the output
  window's staging buffer and stores the 512 results over the whole of it. So the body keeps every input buffer and
  leaves in the output buffer a pure function of the ten input blocks, `out1`. The pipeline's proof data say that, the
  body obligation is the body's triple at every point, and every input window is found at its block of its array
  whether the pipeline fetched it at the point or not.
-/
import proofs.«207592_g65111704207794_cont_9to1_m_407_36_alg».proof.Proof.Gen.Kernel.Launch
import proofs.«207592_g65111704207794_cont_9to1_m_407_36_alg».proof.Proof.Gen.Kernel.Skeleton
import proofs.«207592_g65111704207794_cont_9to1_m_407_36_alg».proof.Proof.Gen.Kernel.Points
import proofs.«207592_g65111704207794_cont_9to1_m_407_36_alg».proof.Proof.B.TcAlg
import Idealize.ShloMosaic.Lib.Pipeline.FrameBody
import Idealize.ShloMosaic.Lib.Tactic

set_option maxRecDepth 16384

noncomputable section

namespace Cert.ProofB.TcBody

open Cert.Kernel Cert.Kernel.Gen
open Cert.ProofB.TcAlg
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses: every window's buffer whole -/

abbrev rA : Rect S512x3328 := Rect.unit (s := S512x3328) ![0, 0] S512x3328.size inb_S512x3328_S512x3328_0_0
abbrev rB : Rect S512x32 := Rect.unit (s := S512x32) ![0, 0] S512x32.size inb_S512x32_S512x32_0_0
abbrev rC : Rect S3328x1024 := Rect.unit (s := S3328x1024) ![0, 0] S3328x1024.size inb_S3328x1024_S3328x1024_0_0
abbrev rD : Rect S32x1024 := Rect.unit (s := S32x1024) ![0, 0] S32x1024.size inb_S32x1024_S32x1024_0_0
abbrev rE : Rect S1x1024 := Rect.unit (s := S1x1024) ![0, 0] S1x1024.size inb_S1x1024_S1x1024_0_0
abbrev rG : Rect S1024x512 := Rect.unit (s := S1024x512) ![0, 0] S1024x512.size inb_S1024x512_S1024x512_0_0
abbrev rH : Rect S1x512 := Rect.unit (s := S1x512) ![0, 0] S1x512.size inb_S1x512_S1x512_0_0
abbrev rO : Rect S512x1 := Rect.unit (s := S512x1) ![0, 0] S512x1.size inb_S512x1_S512x1_0_0
abbrev rW : Rect S1x1 := Rect.unit (s := S1x1) ![0, 0] S1x1.size inb_S1x1_S1x1_0_0

/-- The one word of the scalar window: the last layer's bias. -/
def word1 (x9 : Vec F S1x1 .f32) : Elt F .f32 :=
  View.ld x9 rW (Shape.Idx.first (numel1_S1x1.symm ▸ Nat.one_pos))

/-- What the body stores, from the ten input blocks: the three layers' value on the block's rows. -/
def val1 (x0 : Vec F S512x3328 .f32) (x1 : Vec F S512x32 .f32) (x2 : Vec F S512x32 .f32) (x3 : Vec F S3328x1024 .bf16)
    (x4 : Vec F S32x1024 .bf16) (x5 : Vec F S1x1024 .f32) (x6 : Vec F S1024x512 .bf16) (x7 : Vec F S1x512 .f32)
    (x8 : Vec F S512x1 .bf16) (x9 : Vec F S1x1 .f32) : Vec F S512x1 .f32 :=
  k1_pay1 (k1_pay2 (View.ld x0 rA) (View.ld x3 rC) (View.ld x2 rB) (View.ld x1 rB) (View.ld x4 rD) (View.ld x5 rE) (View.ld x6 rG)
    (View.ld x7 rH) (View.ld x8 rO)) (word1 x9)

/-- The output window's buffer after the body: the one store, over the whole buffer. -/
def out1 [∀ e, Nonempty (Elt F e)] (x0 : Vec F S512x3328 .f32) (x1 : Vec F S512x32 .f32) (x2 : Vec F S512x32 .f32) (x3 : Vec F S3328x1024 .bf16)
    (x4 : Vec F S32x1024 .bf16) (x5 : Vec F S1x1024 .f32) (x6 : Vec F S1024x512 .bf16) (x7 : Vec F S1x512 .f32)
    (x8 : Vec F S512x1 .bf16) (x9 : Vec F S1x1 .f32) : Vec F S512x1 .f32 :=
  View.canon [⟨rO, val1 x0 x1 x2 x3 x4 x5 x6 x7 x8 x9⟩]

/-- The store covers the buffer. -/
theorem cover1 (p0 : Vec F S512x1 .f32) (y : S512x1.Idx) :
    ∃ pc ∈ ([⟨rO, p0⟩] : List (View.Piece (Elt F) S512x1 .f32)), y ∈ pc.1.set :=
  View.cover_of_tiled [⟨rO, p0⟩] S512x1.size (by rfl) y

set_option maxHeartbeats 1000000 in
theorem sound_kernel [∀ e, Nonempty (Elt F e)] (c : Dev nD) (E : Set ℕ) (i : grid1.Coords)
    (arg1 : Memref sig .tc .vmem S512x3328 .f32) (harg1 : arg1.IsWhole) (arg2 : Memref sig .tc .vmem S512x32 .f32) (harg2 : arg2.IsWhole)
    (arg3 : Memref sig .tc .vmem S512x32 .f32) (harg3 : arg3.IsWhole) (arg4 : Memref sig .tc .vmem S3328x1024 .bf16) (harg4 : arg4.IsWhole)
    (arg5 : Memref sig .tc .vmem S32x1024 .bf16) (harg5 : arg5.IsWhole) (arg6 : Memref sig .tc .vmem S1x1024 .f32) (harg6 : arg6.IsWhole)
    (arg7 : Memref sig .tc .vmem S1024x512 .bf16) (harg7 : arg7.IsWhole) (arg8 : Memref sig .tc .vmem S1x512 .f32) (harg8 : arg8.IsWhole)
    (arg9 : Memref sig .tc .vmem S512x1 .bf16) (harg9 : arg9.IsWhole) (arg10 : Memref sig .tc .smem S1x1 .f32) (harg10 : arg10.IsWhole)
    (arg11 : Memref sig .tc .vmem S512x1 .f32) (harg11 : arg11.IsWhole)
    (x0 : Vec F S512x3328 .f32) (x1 : Vec F S512x32 .f32) (x2 : Vec F S512x32 .f32) (x3 : Vec F S3328x1024 .bf16)
    (x4 : Vec F S32x1024 .bf16) (x5 : Vec F S1x1024 .f32) (x6 : Vec F S1024x512 .bf16) (x7 : Vec F S1x512 .f32)
    (x8 : Vec F S512x1 .bf16) (x9 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ owns (c : Thread nD τ) arg9 fullShare x8
        ∗ owns (c : Thread nD τ) arg10 fullShare x9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7 ∗ owns (c : Thread nD τ) arg9 fullShare x8
            ∗ owns (c : Thread nD τ) arg10 fullShare x9 ∗ owns (c : Thread nD τ) arg11 fullShare (out1 x0 x1 x2 x3 x4 x5 x6 x7 x8 x9)) -∗ K ⟨⟩))
      ⊢ wp frame (wpE (defs₀ (F := F)) Variants.none c none) E
          (cc1__mlp_body i arg1 harg1 arg2 harg2 arg3 harg3 arg4 harg4 arg5 harg5 arg6 harg6 arg7 harg7 arg8 harg8 arg9 harg9 arg10 harg10 arg11 harg11) K := by
  simp only [cc1__mlp_body_eq_skeleton]; unfold cc1__mlp_body_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover1 _)

/-! ## The pipeline's proof data -/

section Data

variable [∀ e, Nonempty (Elt F e)]
variable (d : Dev nD) (V : (b : Ref sig .tc) → Buf (Elt F) ((d.tc : Thread nD τ).loc b))

/-- Window `w`'s block at point `t`, read off its array as the region finds it (`V`). -/
def iblk (w : Fin cfg1.W) (t : Fin cfg1.N) : ((cfg1.win w).xblock (cfg1.grid.coords t)).Idx → Elt F (cfg1.win w).elt :=
  ((cfg1.win w).blk t).view.read (Elt F) (V (Pipeline.arrRef spec1 w))

/-- The pairs the TensorCore's waits may have recorded when the region is entered: those at the levels of the one
    SparseCore call before it. The body waits for nothing, so the bound stands at every point. -/
def recd : Set (SemLoc sig × HIx 1) := {p | (K (F := F)).lev ((d.tc : Thread nD τ), p.1) p.2 ≤ 8}

/-- The proof data on device `d`: the arrays as the region finds them; after the body at point `t` each input's
    buffer at its block and the output's at `out1` of the ten input blocks; no invariant of the body's own; nothing
    owed; full shares. -/
def dats (_ : Fin 1) : Dat τ (Elt F) (HIx 1) ℕ UU ℕ cfg1 d where
  A w := V (Pipeline.arrRef spec1 w)
  after w t := match w with
    | ⟨0, _⟩ => iblk d V 0 t
    | ⟨1, _⟩ => iblk d V 1 t
    | ⟨2, _⟩ => iblk d V 2 t
    | ⟨3, _⟩ => iblk d V 3 t
    | ⟨4, _⟩ => iblk d V 4 t
    | ⟨5, _⟩ => iblk d V 5 t
    | ⟨6, _⟩ => iblk d V 6 t
    | ⟨7, _⟩ => iblk d V 7 t
    | ⟨8, _⟩ => iblk d V 8 t
    | ⟨9, _⟩ => iblk d V 9 t
    | ⟨10, _⟩ => out1 (iblk d V 0 t) (iblk d V 1 t) (iblk d V 2 t) (iblk d V 3 t) (iblk d V 4 t) (iblk d V 5 t) (iblk d V 6 t)
        (iblk d V 7 t) (iblk d V 8 t) (iblk d V 9 t)
  Φ _ := iprop(emp)
  q _ := fullShare
  owed _ := 0
  recorded _ := recd (F := F) d

theorem A_eq (w : Fin cfg1.W) : (dats d V 0).A w = V (Pipeline.arrRef spec1 w) := by dsimp only [dats]

/-- What the body leaves, window by window. -/
theorem after1_0 (t : Fin cfg1.N) : (dats d V 0).after 0 t = iblk d V 0 t := by dsimp only [dats]
theorem after1_1 (t : Fin cfg1.N) : (dats d V 0).after 1 t = iblk d V 1 t := by dsimp only [dats]
theorem after1_2 (t : Fin cfg1.N) : (dats d V 0).after 2 t = iblk d V 2 t := by dsimp only [dats]
theorem after1_3 (t : Fin cfg1.N) : (dats d V 0).after 3 t = iblk d V 3 t := by dsimp only [dats]
theorem after1_4 (t : Fin cfg1.N) : (dats d V 0).after 4 t = iblk d V 4 t := by dsimp only [dats]
theorem after1_5 (t : Fin cfg1.N) : (dats d V 0).after 5 t = iblk d V 5 t := by dsimp only [dats]
theorem after1_6 (t : Fin cfg1.N) : (dats d V 0).after 6 t = iblk d V 6 t := by dsimp only [dats]
theorem after1_7 (t : Fin cfg1.N) : (dats d V 0).after 7 t = iblk d V 7 t := by dsimp only [dats]
theorem after1_8 (t : Fin cfg1.N) : (dats d V 0).after 8 t = iblk d V 8 t := by dsimp only [dats]
theorem after1_9 (t : Fin cfg1.N) : (dats d V 0).after 9 t = iblk d V 9 t := by dsimp only [dats]
theorem after1_10 (t : Fin cfg1.N) : (dats d V 0).after 10 t
    = out1 (iblk d V 0 t) (iblk d V 1 t) (iblk d V 2 t) (iblk d V 3 t) (iblk d V 4 t) (iblk d V 5 t) (iblk d V 6 t)
        (iblk d V 7 t) (iblk d V 8 t) (iblk d V 9 t) := by dsimp only [dats]

/-- Each input window's current staging buffer holds its block at every point, fetched there or not: a window not
    fetched at a point has the block index of the point before, and the body left that block in place. -/
theorem before1_0 (t : Fin cfg1.N) (dd) : (dats d V 0).before 0 t dd = iblk d V 0 t :=
  ((dats d V 0).before_in_eq_fetched 0 rfl (fun _ => rfl) (fun _ _ _ => rfl) (fun t => by rw [after1_0]; unfold Dat.blockOf iblk; rw [A_eq]; try rfl) t dd).trans
    (by unfold Dat.fetched Dat.blockOf iblk; rw [A_eq]; try rfl)
theorem before1_1 (t : Fin cfg1.N) (dd) : (dats d V 0).before 1 t dd = iblk d V 1 t :=
  ((dats d V 0).before_in_eq_fetched 1 rfl (fun _ => rfl) (fun _ _ _ => rfl) (fun t => by rw [after1_1]; unfold Dat.blockOf iblk; rw [A_eq]; try rfl) t dd).trans
    (by unfold Dat.fetched Dat.blockOf iblk; rw [A_eq]; try rfl)
theorem before1_2 (t : Fin cfg1.N) (dd) : (dats d V 0).before 2 t dd = iblk d V 2 t :=
  ((dats d V 0).before_in_eq_fetched 2 rfl (fun _ => rfl) (fun _ _ _ => rfl) (fun t => by rw [after1_2]; unfold Dat.blockOf iblk; rw [A_eq]; try rfl) t dd).trans
    (by unfold Dat.fetched Dat.blockOf iblk; rw [A_eq]; try rfl)
theorem before1_3 (t : Fin cfg1.N) (dd) : (dats d V 0).before 3 t dd = iblk d V 3 t :=
  ((dats d V 0).before_in_eq_fetched 3 rfl (fun _ => rfl) (fun _ _ _ => rfl) (fun t => by rw [after1_3]; unfold Dat.blockOf iblk; rw [A_eq]; try rfl) t dd).trans
    (by unfold Dat.fetched Dat.blockOf iblk; rw [A_eq]; try rfl)
theorem before1_4 (t : Fin cfg1.N) (dd) : (dats d V 0).before 4 t dd = iblk d V 4 t :=
  ((dats d V 0).before_in_eq_fetched 4 rfl (fun _ => rfl) (fun _ _ _ => rfl) (fun t => by rw [after1_4]; unfold Dat.blockOf iblk; rw [A_eq]; try rfl) t dd).trans
    (by unfold Dat.fetched Dat.blockOf iblk; rw [A_eq]; try rfl)
theorem before1_5 (t : Fin cfg1.N) (dd) : (dats d V 0).before 5 t dd = iblk d V 5 t :=
  ((dats d V 0).before_in_eq_fetched 5 rfl (fun _ => rfl) (fun _ _ _ => rfl) (fun t => by rw [after1_5]; unfold Dat.blockOf iblk; rw [A_eq]; try rfl) t dd).trans
    (by unfold Dat.fetched Dat.blockOf iblk; rw [A_eq]; try rfl)
theorem before1_6 (t : Fin cfg1.N) (dd) : (dats d V 0).before 6 t dd = iblk d V 6 t :=
  ((dats d V 0).before_in_eq_fetched 6 rfl (fun _ => rfl) (fun _ _ _ => rfl) (fun t => by rw [after1_6]; unfold Dat.blockOf iblk; rw [A_eq]; try rfl) t dd).trans
    (by unfold Dat.fetched Dat.blockOf iblk; rw [A_eq]; try rfl)
theorem before1_7 (t : Fin cfg1.N) (dd) : (dats d V 0).before 7 t dd = iblk d V 7 t :=
  ((dats d V 0).before_in_eq_fetched 7 rfl (fun _ => rfl) (fun _ _ _ => rfl) (fun t => by rw [after1_7]; unfold Dat.blockOf iblk; rw [A_eq]; try rfl) t dd).trans
    (by unfold Dat.fetched Dat.blockOf iblk; rw [A_eq]; try rfl)
theorem before1_8 (t : Fin cfg1.N) (dd) : (dats d V 0).before 8 t dd = iblk d V 8 t :=
  ((dats d V 0).before_in_eq_fetched 8 rfl (fun _ => rfl) (fun _ _ _ => rfl) (fun t => by rw [after1_8]; unfold Dat.blockOf iblk; rw [A_eq]; try rfl) t dd).trans
    (by unfold Dat.fetched Dat.blockOf iblk; rw [A_eq]; try rfl)
theorem before1_9 (t : Fin cfg1.N) (dd) : (dats d V 0).before 9 t dd = iblk d V 9 t :=
  ((dats d V 0).before_in_eq_fetched 9 rfl (fun _ => rfl) (fun _ _ _ => rfl) (fun t => by rw [after1_9]; unfold Dat.blockOf iblk; rw [A_eq]; try rfl) t dd).trans
    (by unfold Dat.fetched Dat.blockOf iblk; rw [A_eq]; try rfl)

/-! ## The body obligation, at a generic point -/

/-- What the body is called with at point `t`, the windows one by one, -/
def bodyPre (t : Fin cfg1.N) : sProp 𝕄 :=
  iprop((dats d V 0).Φ t.castSucc ∗ (dats d V 0).owesAt none t.castSucc
    ∗ (∃ dd, owns (d : Thread nD τ) (st1_0 t) fullShare ((dats d V 0).before 0 t dd))
    ∗ (∃ dd, owns (d : Thread nD τ) (st1_1 t) fullShare ((dats d V 0).before 1 t dd))
    ∗ (∃ dd, owns (d : Thread nD τ) (st1_2 t) fullShare ((dats d V 0).before 2 t dd))
    ∗ (∃ dd, owns (d : Thread nD τ) (st1_3 t) fullShare ((dats d V 0).before 3 t dd))
    ∗ (∃ dd, owns (d : Thread nD τ) (st1_4 t) fullShare ((dats d V 0).before 4 t dd))
    ∗ (∃ dd, owns (d : Thread nD τ) (st1_5 t) fullShare ((dats d V 0).before 5 t dd))
    ∗ (∃ dd, owns (d : Thread nD τ) (st1_6 t) fullShare ((dats d V 0).before 6 t dd))
    ∗ (∃ dd, owns (d : Thread nD τ) (st1_7 t) fullShare ((dats d V 0).before 7 t dd))
    ∗ (∃ dd, owns (d : Thread nD τ) (st1_8 t) fullShare ((dats d V 0).before 8 t dd))
    ∗ (∃ dd, owns (d : Thread nD τ) (st1_9 t) fullShare ((dats d V 0).before 9 t dd))
    ∗ (∃ dd, owns (d : Thread nD τ) (st1_10 t) fullShare ((dats d V 0).before 10 t dd)))

/-- and what it returns. -/
def bodyPost (t : Fin cfg1.N) : sProp 𝕄 :=
  iprop((dats d V 0).Φ t.succ ∗ (dats d V 0).owesAt none t.succ
    ∗ owns (d : Thread nD τ) (st1_0 t) fullShare ((dats d V 0).after 0 t)
    ∗ owns (d : Thread nD τ) (st1_1 t) fullShare ((dats d V 0).after 1 t)
    ∗ owns (d : Thread nD τ) (st1_2 t) fullShare ((dats d V 0).after 2 t)
    ∗ owns (d : Thread nD τ) (st1_3 t) fullShare ((dats d V 0).after 3 t)
    ∗ owns (d : Thread nD τ) (st1_4 t) fullShare ((dats d V 0).after 4 t)
    ∗ owns (d : Thread nD τ) (st1_5 t) fullShare ((dats d V 0).after 5 t)
    ∗ owns (d : Thread nD τ) (st1_6 t) fullShare ((dats d V 0).after 6 t)
    ∗ owns (d : Thread nD τ) (st1_7 t) fullShare ((dats d V 0).after 7 t)
    ∗ owns (d : Thread nD τ) (st1_8 t) fullShare ((dats d V 0).after 8 t)
    ∗ owns (d : Thread nD τ) (st1_9 t) fullShare ((dats d V 0).after 9 t)
    ∗ owns (d : Thread nD τ) (st1_10 t) fullShare ((dats d V 0).after 10 t))

/-- The body at any point: the inputs' buffers hold their blocks, so the body's triple applies; what the core owes
    passes through unread. -/
theorem sound_body (t : Fin cfg1.N) :
    bodyPre d V t ⊢ wp frame (wpE (defs₀ (F := F)) Variants.none (d : Thread nD τ) none) Set.univ (bodyAt1 t) (fun _ => bodyPost d V t) := by
  unfold bodyPre bodyPost bodyAt1
  simp only [before1_0, before1_1, before1_2, before1_3, before1_4, before1_5, before1_6, before1_7, before1_8, before1_9]
  rw [show (dats d V 0).Φ t.succ = (dats d V 0).Φ t.castSucc from rfl,
    show (dats d V 0).owesAt none t.succ = (dats d V 0).owesAt none t.castSucc from rfl,
    after1_0, after1_1, after1_2, after1_3, after1_4, after1_5, after1_6, after1_7, after1_8, after1_9, after1_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel d Set.univ (grid1.coords t) _ _ _ _ _ _ _ _ _ _ _ _ _ _ _ _ _ _ _ _ _ _
    (iblk d V 0 t) (iblk d V 1 t) (iblk d V 2 t) (iblk d V 3 t) (iblk d V 4 t) (iblk d V 5 t) (iblk d V 6 t) (iblk d V 7 t) (iblk d V 8 t) (iblk d V 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation, at every point. -/
theorem body_obligation : BodyObligation (dats (F := F) d V 0) (defs₀ (F := F)) Variants.none none Set.univ := fun t => by
  rw [bigSep_W1, bigSep_W1]
  exact sound_body d V t

end Data

end Cert.ProofB.TcBody

end
-- ==== Proof.B.TcRegion.lean ====
/-
  The TensorCore's pipelined region, entered from the TensorCore's thread of the whole program.

  When the region is entered the TensorCore has been through the one SparseCore call: it owes nothing more, and the
  pairs its waits recorded sit at that call's levels. It holds the region boundary, the eleven windows' arrays whole
  and its share of the pipeline's ghost state. The region runs by the rule for a pipelined kernel region —
  the body's triple at every point, no semaphore and no invariant of the kernel's own —, lifted to the whole program's
  body table. It leaves the ten operand arrays as they were and the result's array at what the write-backs
  of the eight points leave: row block `t` holds `out1` of the operand blocks at point `t`.
-/
import proofs.«207592_g65111704207794_cont_9to1_m_407_36_alg».proof.Proof.B.TcBody
import Idealize.ShloMosaic.Lib.Pipeline.Regions
import Idealize.ShloMosaic.Lib.SparseCore.Launch

set_option maxRecDepth 16384

noncomputable section

namespace Cert.ProofB.TcRegion

open Cert.Kernel Cert.Kernel.Gen
open Cert.ProofB.TcAlg Cert.ProofB.TcBody
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [∀ e, Nonempty (Elt F e)]

local notation "𝕄" => MT nD τ sig (HIx 1) (Elt F) ℕ UU ℕ

-- the TensorCore's buffers when the region is entered, on every device
variable (W : (c : Dev nD) → (b : Ref sig .tc) → Buf (Elt F) ((c.tc : Thread nD τ).loc b))

/-- The proof data of the one pipeline, on every device. -/
abbrev pdats (p : Fin 1) (c : Dev nD) : Dat τ (Elt F) (HIx 1) ℕ UU ℕ cfg1 c := dats c (W c) p

/-- What the TensorCore owes around the region: nothing, its recorded pairs at the levels of the SparseCore call. -/
abbrev owesTc (c : Dev nD) : sProp 𝕄 :=
  iprop(∃ Wt, ⌜(K (F := F)).WBelow (T c) Wt (8 * 1)⌝ ∗ owes (T c) ((K (F := F)).Otc c 1) Wt)

/-- The eleven windows' arrays, at contents `G`. -/
abbrev arrs (c : Dev nD) (G : (w : Fin cfg1.W) → Buf (Elt F) ((cfg1.win w).arr.view.loc (c.tc : Thread nD τ))) : sProp 𝕄 :=
  (pdats W 0 c).arrays G

theorem Otc_one (c : Dev nD) : (K (F := F)).Otc c 1 = 0 := (K (F := F)).Otc_end c (le_refl 1)

set_option backward.isDefEq.respectTransparency.types false in
/-- THE REGION: the windows' layout, no semaphore of the kernel's own, the body's triple at every point; entered with the
    windows' arrays and what the TensorCore owes, left with the arrays at their final contents. -/
def reg : Pipeline.RegionSeg (pcfgs (F := F)) adm (pdats W) none defs₀ 𝒱₀ (K (F := F)).L (K (F := F)).lev 0 where
  win := launch1.win.to₀
  block_pos := launch1.block_pos
  stage_whole := launch1.stage_whole
  K := PEmpty
  osem := fun k : PEmpty => k.elim
  ho := Pipeline.OwnSemFacts.none _
  hbody c := (body_obligation c (W c)).loose
  hwaits := Pipeline.hwaits_of_owed_zero _ _ _ _ (K (F := F)).L (K (F := F)).lev 0 fun _ _ => rfl
  pre c := iprop(arrs W c (fun w => (pdats W 0 c).A w) ∗ owesTc c)
  post c := iprop(arrs W c (fun w => (pdats W 0 c).arrAt w cfg1.N) ∗ owesTc c)
  X _ := iprop(emp)
  Y _ := iprop(emp)
  Z _ := iprop(emp)
  hentry c := by
    unfold owesTc Pipeline.Dat.owesAt Pipeline.owesWithin
    rw [Otc_one, show (pdats W 0 c).owed 0 = 0 from rfl]
    iintro ⟨⟨Ha, ⟨%Wt, %hW, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · iexists Wt; isplitr
      · ipureintro; exact fun p hp => Or.inl (hW p (Finset.mem_coe.mp hp))
      iexact HO
    isplitl [] <;> iempintro
  hin c := by
    iintro -; iempintro
  hout c := by
    unfold Pipeline.ownSems0
    rw [Finset.univ_eq_empty, BI.bigSep_empty, scopedRest1_eq]
    iintro -
    isplitl []; · iempintro
    isplitl [] <;> iempintro
  hexit c := by
    unfold owesTc Pipeline.Dat.owesAt Pipeline.owesWithin
    rw [Otc_one, show (pdats W 0 c).owed (Fin.last (Pipeline.pin (pcfgs (F := F)) adm 0).N) = 0 from rfl]
    iintro ⟨Ha, ⟨%Wt, %hW, HO⟩, -, -⟩
    imodintro
    isplitl [Ha]; · iexact Ha
    iexists Wt; isplitr
    · ipureintro
      intro p hp
      rcases hW (Finset.mem_coe.mpr hp) with h | ⟨w, s, rfl⟩
      · exact h
      · exact Nat.zero_le _
    iexact HO

/-- The region's call as @main spells it: a call of the pipeline's entry label, in the whole program's signature. -/
abbrev callTc : Prog (TpuEff nD τ sig (Elt F) (SparseCore.Sig (ΛP (F := F)) 1) .tc) PUnit :=
  Prog.lift (.customCall (SparseCore.inner (Pipeline.entry 0)) ())

/-- The same call in the signature of the region's own labels. -/
abbrev callP : Prog (TpuEff nD τ sig (Elt F) (ΛP (F := F)) .tc) PUnit :=
  Prog.lift (.customCall (Pipeline.entry 0) ())

set_option maxHeartbeats 1000000 in
/-- THE REGION'S RUN on device `d`'s TensorCore, in the whole program's body table: from the level facts, the region
    boundary, the windows' arrays at the entry contents, what the TensorCore owes after the SparseCore call and the
    device's share of the pipeline's ghost state, the call of the region runs to the boundary, the arrays at their
    final contents and the same debt. -/
theorem region_run (d : Dev nD) (Φ : PUnit → sProp 𝕄) :
    iprop(levAts (K (F := F)).L (K (F := F)).lev ∗ boundary (T d) ∗ arrs W d (fun w => (pdats W 0 d).A w) ∗ owesTc d ∗ Gd d
        ∗ (iprop(boundary (T d) ∗ arrs W d (fun w => (pdats W 0 d).arrAt w cfg1.N) ∗ owesTc d) -∗ Φ ⟨⟩))
      ⊢ wp frame (wpE ((K (F := F)).defs D) 𝒱 (T d) none) Set.univ
          (callTc (F := F)) Φ := by
  refine .trans ?_ ((K (F := F)).wp_liftProg D 𝒱 (T d) Set.univ none (callP (F := F)) Φ)
  have h := Pipeline.RegionSeg.wp (pcfgs (F := F)) adm (pdats W) none cellOf_inj EP defs₀ 𝒱₀ (K (F := F)).L (K (F := F)).lev (reg W) d none
    (fun _ h => nomatch h) (fun x => .ret x) Φ
  rw [show (reg W).post d = iprop(arrs W d (fun w => (pdats W 0 d).arrAt w cfg1.N) ∗ owesTc d) from rfl,
    show (reg W).pre d = iprop(arrs W d (fun w => (pdats W 0 d).A w) ∗ owesTc d) from rfl] at h
  refine .trans ?_ h
  iintro ⟨Hl, Hb, Ha, Ho, ⟨Hg, Ht⟩, Hk⟩
  isplitl [Hk]
  · iintro ⟨Hb, Ha, Ho⟩
    rw [wp_ret]
    imodintro
    iapply Hk
    isplitl [Hb]; · iexact Hb
    isplitl [Ha]; · iexact Ha
    iexact Ho
  isplitl [Hb]; · iexact Hb
  isplitl [Ha Ho]
  · isplitl [Ha]; · iexact Ha
    iexact Ho
  isplitl [Hl]; · iexact Hl
  isplitl [Hg]; · iexact Hg
  iexact Ht

end Cert.ProofB.TcRegion

end
-- ==== Proof.B.TcHeld.lean ====
/-
  The TensorCore's region over every unscoped buffer of the TensorCore at one valuation, and its result in closed form.

  The region reads ten arrays and writes one. Held beside all the other unscoped buffers at a valuation, the eleven
  arrays are taken out at the region's entry and put back at its exit, the result's array at its final contents and
  every other buffer as it was. Those contents are one function of the ten operand arrays: the eight grid points'
  blocks tile the 4096 rows, point `t` writes back the body's value on its blocks as rows `512 t … 512 t + 511`, and
  no other point's block meets them.
-/
import proofs.«207592_g65111704207794_cont_9to1_m_407_36_alg».proof.Proof.B.TcRegion
import Idealize.ShloMosaic.Lib.Pipeline.RegionsLoop
import Idealize.ShloMosaic.Lib.Pipeline.Value

set_option maxRecDepth 16384

noncomputable section

namespace Cert.ProofB.TcHeld

open Cert.Kernel Cert.Kernel.Gen
open Cert.ProofB.TcAlg Cert.ProofB.TcBody Cert.ProofB.TcRegion
open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf)

variable {F : FTy → Type} [FloatOps F] [∀ e, Nonempty (Elt F e)]

local notation "𝕄" => MT nD τ sig (HIx 1) (Elt F) ℕ UU ℕ

variable (Wv : Valuation τ sig (Elt F))

/-- The TensorCore's buffers at the valuation, on any device. -/
abbrev Wb : (c : Dev nD) → (b : Ref sig .tc) → Buf (Elt F) ((c.tc : Thread nD τ).loc b) := fun _ b => Wv b

/-- The result's array after the region: what the eight write-backs leave. -/
def OutAll0 : (Proc.devRef (τ := τ) .tc (main_v49 : Ref sig .tc)).ty.Contents (Elt F) :=
  (pdats (Wb Wv) 0 (0 : Dev nD)).arrAt 10 cfg1.N

/-- The valuation after the region: the result's array at its final contents, every other buffer as it was. -/
abbrev Wout : Valuation τ sig (Elt F) := Function.update Wv (Proc.devRef .tc main_v49) (OutAll0 Wv)

theorem hF (w : Fin cfg1.W) : (pdats (Wb Wv) 0 (0 : Dev nD)).arrAt w cfg1.N = Wout Wv (Pipeline.arrRef spec1 w) := by
  by_cases hw : w = 10
  · subst hw
    show _ = Function.update Wv (Proc.devRef .tc main_v49) (OutAll0 Wv) (Proc.devRef .tc main_v49)
    rw [Function.update_self]; rfl
  · have hne : (Pipeline.arrRef spec1 w : Ref sig .tc) ≠ main_v49 := by
      revert w; decide
    have hin : (cfg1.win w).isOut = false := by
      revert w; decide
    show _ = Function.update Wv (Proc.devRef .tc main_v49) (OutAll0 Wv) (Proc.devRef .tc (Pipeline.arrRef spec1 w))
    rw [Function.update_of_ne (StableHlo.devRef_ne_of_ne hne)]
    exact ((pdats (Wb Wv) 0 (0 : Dev nD)).arrAt_in w hin _).trans (A_eq 0 (Wb Wv 0) w)

theorem hrest (b : Ref sig .tc) (hb : b ∉ Finset.univ.image (Pipeline.arrRef spec1)) : Wout Wv b = Wv b := by
  have hne : b ≠ main_v49 := fun e => hb (e ▸ Finset.mem_image.mpr ⟨10, Finset.mem_univ _, rfl⟩)
  show Function.update Wv (Proc.devRef .tc main_v49) (OutAll0 Wv) (Proc.devRef .tc b) = _
  rw [Function.update_of_ne (StableHlo.devRef_ne_of_ne hne)]

/-! ## The result's array in closed form -/

theorem hz2 : (![0, 0] : Fin 2 → Nat) = fun _ => 0 := funext fun a => by fin_cases a <;> rfl

/-- What the body stores, with every load read as the whole block it is. -/
theorem out1_eq (x0 : Vec F S512x3328 .f32) (x1 : Vec F S512x32 .f32) (x2 : Vec F S512x32 .f32) (x3 : Vec F S3328x1024 .bf16)
    (x4 : Vec F S32x1024 .bf16) (x5 : Vec F S1x1024 .f32) (x6 : Vec F S1024x512 .bf16) (x7 : Vec F S1x512 .f32)
    (x8 : Vec F S512x1 .bf16) (x9 : Vec F S1x1 .f32) :
    out1 x0 x1 x2 x3 x4 x5 x6 x7 x8 x9 = k1_pay1 (k1_pay2 x0 x3 x2 x1 x4 x5 x6 x7 x8) (word1 x9) := by
  unfold out1 val1
  rw [View.canon_unit_zero hz2]
  simp only [View.ld_unit_zero (S := S512x3328) hz2, View.ld_unit_zero (S := S3328x1024) hz2, View.ld_unit_zero (S := S512x32) hz2,
    View.ld_unit_zero (S := S32x1024) hz2, View.ld_unit_zero (S := S1x1024) hz2, View.ld_unit_zero (S := S1024x512) hz2,
    View.ld_unit_zero (S := S1x512) hz2, View.ld_unit_zero (S := S512x1) hz2]

/-- The grid point whose block holds row `i` of the result, -/
def ptOf (i : S4096x1.Idx) : Fin cfg1.N :=
  ⟨(i 0).val / 512, by have h : (i 0).val < 4096 := (i 0).isLt; have hN : cfg1.N = 8 := N_1; omega⟩

/-- and the row's place in that block. -/
def rowOf (i : S4096x1.Idx) : S512x1.Idx := fun a =>
  match a with
  | ⟨0, _⟩ => (⟨(i 0).val % 512, Nat.mod_lt _ (by decide)⟩ : Fin 512)
  | ⟨1, _⟩ => i 1
  | ⟨n + 2, h⟩ => absurd h (by show ¬ n + 2 < 2; omega)

/-- THE RESULT as one function of the ten operand arrays: row `i` is the body's value on the blocks of the point
    that holds it — rows `512 t … 512 t + 511` of the three row-blocked operands, the seven others whole —, read at
    the row's place in the block. -/
def OutAll : (Proc.devRef (τ := τ) .tc (main_v49 : Ref sig .tc)).ty.Contents (Elt F) := fun i =>
  out1 (iblk (0 : Dev nD) (Wb Wv 0) 0 (ptOf i)) (iblk (0 : Dev nD) (Wb Wv 0) 1 (ptOf i)) (iblk (0 : Dev nD) (Wb Wv 0) 2 (ptOf i))
    (iblk (0 : Dev nD) (Wb Wv 0) 3 (ptOf i)) (iblk (0 : Dev nD) (Wb Wv 0) 4 (ptOf i)) (iblk (0 : Dev nD) (Wb Wv 0) 5 (ptOf i))
    (iblk (0 : Dev nD) (Wb Wv 0) 6 (ptOf i)) (iblk (0 : Dev nD) (Wb Wv 0) 7 (ptOf i)) (iblk (0 : Dev nD) (Wb Wv 0) 8 (ptOf i))
    (iblk (0 : Dev nD) (Wb Wv 0) 9 (ptOf i)) (rowOf i)

/-- The result window's block index at point `t` is `(t, 0)`. -/
theorem idx10 : ∀ t : Fin cfg1.N, win1_10.index t (0 : Fin 2) = t.val ∧ win1_10.index t (1 : Fin 2) = 0 :=
  (by decide +kernel : ∀ t : Fin grid1.N, win1_10.index t (0 : Fin 2) = t.val ∧ win1_10.index t (1 : Fin 2) = 0)

/-- What point `t` writes back is block `t` of `OutAll`. -/
theorem flushed10_eq (t : Fin cfg1.N) :
    (pdats (Wb Wv) 0 (0 : Dev nD)).flushed 10 t = ((cfg1.win 10).blk t).view.read (Elt F) (OutAll Wv) := by
  show (cfg1.win 10).cut (grid1.coords t) ((pdats (Wb Wv) 0 (0 : Dev nD)).after 10 t) = _
  rw [show (pdats (Wb Wv) 0 (0 : Dev nD)).after 10 t = _ from after1_10 (0 : Dev nD) (Wb Wv 0) t]
  obtain ⟨e0, e1⟩ := idx10 t
  funext y
  have hp : ptOf (((cfg1.win 10).blk t).view.emb y) = t := by
    apply Fin.ext
    show (win1_10.index t (0 : Fin 2) * 512 + 1 * (y 0).val) / 512 = t.val
    have hy : (y 0).val < 512 := (y 0).isLt
    omega
  have hr : rowOf (((cfg1.win 10).blk t).view.emb y) = y := by
    funext a
    match a with
    | ⟨0, _⟩ =>
      apply Fin.ext
      show (win1_10.index t (0 : Fin 2) * 512 + 1 * (y 0).val) % 512 = (y 0).val
      have hy : (y 0).val < 512 := (y 0).isLt
      omega
    | ⟨1, _⟩ =>
      apply Fin.ext
      show win1_10.index t (1 : Fin 2) * 1 + 1 * (y 1).val = (y 1).val
      omega
  show _ = OutAll Wv (((cfg1.win 10).blk t).view.emb y)
  unfold OutAll
  rw [hp, hr]

/-- Every row of the result is in some point's block. -/
theorem cover10 (i : S4096x1.Idx) : ∃ t : Fin cfg1.N, (cfg1.win 10).flush t = true ∧ i ∈ ((cfg1.win 10).blk t).view.set := by
  refine ⟨ptOf i, flush1_10 _, ?_⟩
  obtain ⟨e0, e1⟩ := idx10 (ptOf i)
  show i ∈ ((View.whole main_v49).slice (win1_10.rect (ptOf i))).set
  rw [View.set_slice_whole, Rect.mem_set_unit]
  intro a
  have hv : (ptOf i).val = (i 0).val / 512 := rfl
  match a with
  | ⟨0, _⟩ =>
    show win1_10.index (ptOf i) (0 : Fin 2) * 512 ≤ (i 0).val ∧ (i 0).val < win1_10.index (ptOf i) (0 : Fin 2) * 512 + 512
    omega
  | ⟨1, _⟩ =>
    show win1_10.index (ptOf i) (1 : Fin 2) * 1 ≤ (i 1).val ∧ (i 1).val < win1_10.index (ptOf i) (1 : Fin 2) * 1 + 1
    have h1 : (i 1).val < 1 := (i 1).isLt
    omega

/-- THE RESULT'S ARRAY after the region is `OutAll` of the operand arrays. -/
theorem OutAll0_eq : OutAll0 Wv = OutAll Wv :=
  (pdats (Wb Wv) 0 (0 : Dev nD)).arrAt_eq_of_cover 10 (OutAll Wv) (fun t _ => flushed10_eq Wv t) cover10

set_option maxHeartbeats 1000000 in
/-- THE REGION over the buffers as @main holds them: every unscoped buffer of the TensorCore at a valuation, the
    TensorCore's state after the one SparseCore call; the result's array ends at its final contents, every other
    buffer as it was. -/
theorem region_held0 {P : (K (F := F)).Pay (nD := nD) (Val := Elt F) (Name := ℕ) (U := UU)} (κ : GSem nD τ sig → ℕ) (d : Dev nD)
    (Φ : PUnit → sProp 𝕄) :
    iprop((K (F := F)).ctx EH P κ ∗ (K (F := F)).tcSt EH d 1 ∗ boundary (T d) ∗ (held (T d) (Pipeline.ucRefs τ sig) Wv : sProp 𝕄) ∗ Gd (F := F) d
        ∗ (iprop((K (F := F)).tcSt EH d 1 ∗ boundary (T d) ∗ (held (T d) (Pipeline.ucRefs τ sig) (Wout Wv) : sProp 𝕄)) -∗ Φ ⟨⟩))
      ⊢ wp frame (wpE ((K (F := F)).defs (D (F := F))) 𝒱 (T d) none) Set.univ (callTc (F := F)) Φ := by
  obtain rfl : d = 0 := Subsingleton.elim _ _
  unfold SparseCore.Cfg.tcSt
  rw [← Pipeline.unscopedBufs_held (0 : Dev nD) Wv, ← Pipeline.unscopedBufs_held (0 : Dev nD) (Wout Wv)]
  iintro ⟨#Hctx, ⟨Ho, Hst⟩, Hb, Hh, HG, Hk⟩
  ihave Hlev := (SparseCore.Cfg.ctx_levAts κ) $$ Hctx
  ihave Hs := (Pipeline.arrays_of_unscopedBufs (pcfgs (F := F)) adm (pdats (Wb Wv)) launch1.win launch1.arr_whole (0 : Dev nD)
    ((pdats (Wb Wv) 0 (0 : Dev nD)).share_full fun _ => rfl) (fun b => Wv b) (fun _ => rfl)) $$ Hh
  icases Hs with ⟨Ha, Hrest⟩
  iapply (region_run (Wb Wv) (0 : Dev nD) Φ) $$ [Hlev Hb Ha Ho HG Hk Hst Hrest]
  isplitl [Hlev]; · iexact Hlev
  isplitl [Hb]; · iexact Hb
  isplitl [Ha]; · iexact Ha
  isplitl [Ho]; · iexact Ho
  isplitl [HG]; · iexact HG
  iintro ⟨Hb, Ha, Ho⟩
  iapply Hk
  isplitl [Ho Hst]
  · isplitl [Ho]; · iexact Ho
    iexact Hst
  isplitl [Hb]; · iexact Hb
  iapply (Pipeline.unscopedBufs_of_arrays (pcfgs (F := F)) adm launch1.win launch1.arr_whole (0 : Dev nD) (pdats (Wb Wv))
    ((pdats (Wb Wv) 0 (0 : Dev nD)).share_full fun _ => rfl) (fun b => Wv b) (fun b => Wout Wv b)
    (fun w => (pdats (Wb Wv) 0 (0 : Dev nD)).arrAt w cfg1.N) (hF Wv) (hrest Wv))
  isplitl [Ha]; · iexact Ha
  iexact Hrest

/-- THE REGION, the result in closed form. -/
theorem region_held {P : (K (F := F)).Pay (nD := nD) (Val := Elt F) (Name := ℕ) (U := UU)} (κ : GSem nD τ sig → ℕ) (d : Dev nD)
    (Wv : Valuation τ sig (Elt F)) (Φ : PUnit → sProp 𝕄) :
    iprop((K (F := F)).ctx EH P κ ∗ (K (F := F)).tcSt EH d 1 ∗ boundary (T d) ∗ (held (T d) (Pipeline.ucRefs τ sig) Wv : sProp 𝕄) ∗ Gd (F := F) d
        ∗ (iprop((K (F := F)).tcSt EH d 1 ∗ boundary (T d)
            ∗ (held (T d) (Pipeline.ucRefs τ sig) (Function.update Wv (Proc.devRef .tc main_v49) (OutAll Wv)) : sProp 𝕄)) -∗ Φ ⟨⟩))
      ⊢ wp frame (wpE ((K (F := F)).defs (D (F := F))) 𝒱 (T d) none) Set.univ (callTc (F := F)) Φ := by
  have h := region_held0 Wv (P := P) κ d Φ
  unfold Wout at h
  rw [OutAll0_eq] at h
  exact h

end Cert.ProofB.TcHeld

end
-- ==== Proof.KBClaims.lean ====
/-
  The word-level kernel's frame from its run: the run with the result's value dropped.
-/
import proofs.«207592_g65111704207794_cont_9to1_m_407_36_alg».proof.Proof.B.LaunchPost
import proofs.«207592_g65111704207794_cont_9to1_m_407_36_alg».proof.Proof.B.TcHeld
import proofs.«207592_g65111704207794_cont_9to1_m_407_36_alg».proof.Proof.Gen.Pre_input_domain

noncomputable section

namespace Cert.Proof.KBClaims

open Cert.ProofB.KI

open Idealize.ShloMosaic
open Idealize.ShloMosaic.SparseCore (S V T)
open Idealize.SL.Sem

/-- The precondition of the certificate is the launch proof's. -/
theorem preM_of_pre (m : (ℓ : Loc Cert.Kernel.nD Cert.Kernel.τ Cert.Kernel.sig) → Buf (Elt Bits) ℓ)
    (h : Cert.Pre_Kernel (hPre_input_domain := Cert.Pre_input_domain.Gen.facts) m) : PreM (F := Bits) m := h

/-- The result array's value. -/
abbrev OutB : Valuation Cert.Kernel.τ Cert.Kernel.sig (Elt Bits) →
    (Proc.devRef (τ := Cert.Kernel.τ) .tc (Cert.Kernel.main_v49 : Ref Cert.Kernel.sig .tc)).ty.Contents (Elt Bits) :=
  fun Wv => Cert.ProofB.TcHeld.OutAll (F := Bits) Wv

theorem hreg (m : (ℓ : Loc Cert.Kernel.nD Cert.Kernel.τ Cert.Kernel.sig) → Buf (Elt Bits) ℓ) : RegionHeld (F := Bits) m OutB :=
  fun κ d Wv Φ => Cert.ProofB.TcHeld.region_held κ d Wv Φ

/-- The proof of one task, for every memory satisfying the precondition. -/
def BodyAll : Prop :=
  ∀ (m : (ℓ : Loc Cert.Kernel.nD Cert.Kernel.τ Cert.Kernel.sig) → Buf (Elt Bits) ℓ), PreM (F := Bits) m → TileBody (F := Bits) (GOm m) (TDm m)

theorem frame (hbody : BodyAll) :
    Cert.frame_Kernel (hKernel := Cert.Kernel.Gen.facts) (hPre_input_domain := Cert.Pre_input_domain.Gen.facts) := fun m ρ hpre =>
  (θ_run Cert.Kernel.defs _ _).mono (fun r h c => (post_of_QC m OutB r h c).2)
    (run_main (F := Bits) m ρ OutB (hbody m (preM_of_pre m hpre)) (hreg m))

end Cert.Proof.KBClaims

end
-- ==== Proof.LibRows.lean ====
/-
  One trip of a scaling loop, through any view of a 128 x 128 buffer: after the eight sixteen-lane pieces of row k have
  been multiplied in place by the row's feature value, the rows up to k are scaled and the rest are as they were.
-/
import proofs.«207592_g65111704207794_cont_9to1_m_407_36_alg».proof.Proof.ScSpec
import proofs.«207592_g65111704207794_cont_9to1_m_407_36_alg».proof.Proof.Gen.KernelIdeal
import Idealize.ShloMosaic.Lib.Writes

noncomputable section

namespace Cert.Proof.LibRows

open Cert.KernelIdeal Cert.KernelIdeal.Gen
open Cert.Proof.ScSpec
open Idealize.ShloMosaic

variable {F : FTy → Type} [FloatOps F]

/-- One sixteen-lane piece of a row, read through the view, multiplied lane by lane by `V`. -/
abbrev pcv {κ : Kind} {sp : Space} (v : View sig κ sp S128x128 .f32) (f : v.ty.Contents (Elt F)) (V : S16.Idx → F .f32) (o : Fin 2 → ℕ)
    (i : ∀ a, o a + S1x16.size a ≤ S128x128.size a) : View.Piece (Elt F) S128x128 .f32 :=
  ⟨Rect.unit (s := S128x128) o S1x16.size i,
    shapeCast S1x16 (mulf (shapeCast S16 (View.readAt (Elt F) v (Rect.unit (s := S128x128) o S1x16.size i).toLoadRect f) shapeCasts_S1x16_S16) V) shapeCasts_S16_S1x16⟩

theorem rows_step_view {κ : Kind} {sp : Space} (v : View sig κ sp S128x128 .f32) (f : v.ty.Contents (Elt F))
    (c k : ℕ) (hk : k < 128) (G : S128x128.Idx → F .f32) (X4 : S3328.Idx → F .f32)
    (hf : ∀ x : S128x128.Idx, v.read (Elt F) f x
      = if (x 0).val < k then FloatOps.mulf (G x) (X4 (ix1 3328 (by decide) (c * 128 + (x 0).val))) else G x)
    (V : S16.Idx → F .f32) (hV : ∀ i, V i = X4 (ix1 3328 (by decide) (c * 128 + k)))
    (o0 o1 o2 o3 o4 o5 o6 o7 : Fin 2 → ℕ)
    (h0 : o0 = ![k, 0]) (h1 : o1 = ![k, 16]) (h2 : o2 = ![k, 32]) (h3 : o3 = ![k, 48])
    (h4 : o4 = ![k, 64]) (h5 : o5 = ![k, 80]) (h6 : o6 = ![k, 96]) (h7 : o7 = ![k, 112])
    (i0 : ∀ a, o0 a + S1x16.size a ≤ S128x128.size a) (i1 : ∀ a, o1 a + S1x16.size a ≤ S128x128.size a)
    (i2 : ∀ a, o2 a + S1x16.size a ≤ S128x128.size a) (i3 : ∀ a, o3 a + S1x16.size a ≤ S128x128.size a)
    (i4 : ∀ a, o4 a + S1x16.size a ≤ S128x128.size a) (i5 : ∀ a, o5 a + S1x16.size a ≤ S128x128.size a)
    (i6 : ∀ a, o6 a + S1x16.size a ≤ S128x128.size a) (i7 : ∀ a, o7 a + S1x16.size a ≤ S128x128.size a) :
    ∀ y : S128x128.Idx, v.read (Elt F) (v.writes (Elt F) f [pcv v f V o7 i7, pcv v f V o6 i6, pcv v f V o5 i5, pcv v f V o4 i4, pcv v f V o3 i3, pcv v f V o2 i2, pcv v f V o1 i1, pcv v f V o0 i0]) y
      = if (y 0).val < k + 1 then FloatOps.mulf (G y) (X4 (ix1 3328 (by decide) (c * 128 + (y 0).val))) else G y := by
  intro y
  -- what a piece stores at its own index: the element read there times the row's feature value
  have hpay : ∀ (o : Fin 2 → ℕ) (i : ∀ a, o a + S1x16.size a ≤ S128x128.size a)
      (x : (Rect.unit (s := S128x128) o S1x16.size i).shape.Idx),
      (pcv v f V o i).2 x
        = FloatOps.mulf (v.read (Elt F) f ((Rect.unit (s := S128x128) o S1x16.size i).emb x)) (X4 (ix1 3328 (by decide) (c * 128 + k))) := by
    intro o i x
    show FloatOps.mulf (View.readAt (Elt F) v (Rect.unit (s := S128x128) o S1x16.size i).toLoadRect f
        (Shape.reshapeEquiv _ (Shape.reshapeEquiv _ x))) (V (Shape.reshapeEquiv _ x)) = _
    rw [Shape.reshapeEquiv_reshapeEquiv, Shape.reshapeEquiv_self, hV]
    rfl
  -- a piece at row k, columns [q, q + 16): which indices it holds
  have hmem : ∀ (o : Fin 2 → ℕ) (i : ∀ a, o a + S1x16.size a ≤ S128x128.size a) (q : ℕ), o = ![k, q] →
      (y ∈ (Rect.unit (s := S128x128) o S1x16.size i).set ↔ ((y 0).val = k ∧ q ≤ (y 1).val ∧ (y 1).val < q + 16)) := by
    intro o i q ho
    subst ho
    rw [Rect.mem_set_unit]
    constructor
    · intro h
      have a0 := h (0 : Fin 2)
      have a1 := h (1 : Fin 2)
      change k ≤ (y 0).val ∧ (y 0).val < k + 1 at a0
      change q ≤ (y 1).val ∧ (y 1).val < q + 16 at a1
      omega
    · rintro ⟨e0, e1, e2⟩ a
      match a with
      | ⟨0, _⟩ => show k ≤ (y 0).val ∧ (y 0).val < k + 1; omega
      | ⟨1, _⟩ => show q ≤ (y 1).val ∧ (y 1).val < q + 16; omega
  by_cases hy : (y 0).val = k
  · have hy1 : (y 1).val < 128 := (y 1).isLt
    have hcov : ∃ p ∈ [pcv v f V o7 i7, pcv v f V o6 i6, pcv v f V o5 i5, pcv v f V o4 i4, pcv v f V o3 i3, pcv v f V o2 i2, pcv v f V o1 i1, pcv v f V o0 i0], y ∈ p.1.set := by
      have hq : (y 1).val < 16 ∨ (16 ≤ (y 1).val ∧ (y 1).val < 32) ∨ (32 ≤ (y 1).val ∧ (y 1).val < 48) ∨ (48 ≤ (y 1).val ∧ (y 1).val < 64)
          ∨ (64 ≤ (y 1).val ∧ (y 1).val < 80) ∨ (80 ≤ (y 1).val ∧ (y 1).val < 96) ∨ (96 ≤ (y 1).val ∧ (y 1).val < 112) ∨ 112 ≤ (y 1).val := by omega
      rcases hq with q | q | q | q | q | q | q | q
      · exact ⟨pcv v f V o0 i0, by simp, (hmem o0 i0 0 h0).mpr ⟨hy, by omega, by omega⟩⟩
      · exact ⟨pcv v f V o1 i1, by simp, (hmem o1 i1 16 h1).mpr ⟨hy, by omega, by omega⟩⟩
      · exact ⟨pcv v f V o2 i2, by simp, (hmem o2 i2 32 h2).mpr ⟨hy, by omega, by omega⟩⟩
      · exact ⟨pcv v f V o3 i3, by simp, (hmem o3 i3 48 h3).mpr ⟨hy, by omega, by omega⟩⟩
      · exact ⟨pcv v f V o4 i4, by simp, (hmem o4 i4 64 h4).mpr ⟨hy, by omega, by omega⟩⟩
      · exact ⟨pcv v f V o5 i5, by simp, (hmem o5 i5 80 h5).mpr ⟨hy, by omega, by omega⟩⟩
      · exact ⟨pcv v f V o6 i6, by simp, (hmem o6 i6 96 h6).mpr ⟨hy, by omega, by omega⟩⟩
      · exact ⟨pcv v f V o7 i7, by simp, (hmem o7 i7 112 h7).mpr ⟨hy, by omega, by omega⟩⟩
    rw [View.read_writes_apply_of_pieces v f
      (fun z => FloatOps.mulf (v.read (Elt F) f z) (X4 (ix1 3328 (by decide) (c * 128 + k)))) _
      (by
        intro p hp
        simp only [List.mem_cons, List.not_mem_nil, or_false] at hp
        rcases hp with rfl | rfl | rfl | rfl | rfl | rfl | rfl | rfl <;> exact hpay _ _) y hcov]
    show FloatOps.mulf (v.read (Elt F) f y) (X4 (ix1 3328 (by decide) (c * 128 + k))) = _
    rw [hf y, if_neg (by omega), if_pos (by omega), hy]
  · rw [View.read_writes_apply_of_forall_not_mem v f y _ (by
        intro p hp
        simp only [List.mem_cons, List.not_mem_nil, or_false] at hp
        rcases hp with rfl | rfl | rfl | rfl | rfl | rfl | rfl | rfl
        · exact fun hm => hy ((hmem o7 i7 112 h7).mp hm).1
        · exact fun hm => hy ((hmem o6 i6 96 h6).mp hm).1
        · exact fun hm => hy ((hmem o5 i5 80 h5).mp hm).1
        · exact fun hm => hy ((hmem o4 i4 64 h4).mp hm).1
        · exact fun hm => hy ((hmem o3 i3 48 h3).mp hm).1
        · exact fun hm => hy ((hmem o2 i2 32 h2).mp hm).1
        · exact fun hm => hy ((hmem o1 i1 16 h1).mp hm).1
        · exact fun hm => hy ((hmem o0 i0 0 h0).mp hm).1), hf y]
    by_cases hlt : (y 0).val < k
    · rw [if_pos hlt, if_pos (by omega)]
    · rw [if_neg hlt, if_neg (by omega)]

end Cert.Proof.LibRows

end
-- ==== Proof.ScRows.lean ====
/-
  One trip of a scaling loop, as arithmetic on the row buffer's contents: after the eight sixteen-lane pieces of
  row `k` have been multiplied in place by the row's feature value, the rows up to `k` are scaled and the rest are
  as they were gathered.
-/
import proofs.«207592_g65111704207794_cont_9to1_m_407_36_alg».proof.Proof.ScViews
import proofs.«207592_g65111704207794_cont_9to1_m_407_36_alg».proof.Proof.LibRows

noncomputable section

namespace Cert.Proof.ScRows

open Cert.KernelIdeal Cert.KernelIdeal.Gen
open Cert.Proof.ScSpec Cert.Proof.ScViews
open Cert.Proof.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Rows below `k` of a row buffer scaled by the feature values of chunk `c`, the others as gathered. -/
def rowsDone (c : ℕ) (G : S128x128.Idx → F .f32) (X4 : S3328.Idx → F .f32) (k : ℕ) (f : S128x128.Idx → F .f32) : Prop :=
  ∀ x : S128x128.Idx, f x = if (x 0).val < k then FloatOps.mulf (G x) (X4 (ix1 3328 (by decide) (c * 128 + (x 0).val))) else G x

/-- One sixteen-lane piece of a row of row buffer 0, multiplied lane by lane by `V`. -/
abbrev pc0 (f : Buf (Elt F) (sloc d L cc0_scratch5)) (V : S16.Idx → F .f32) (o : Fin 2 → ℕ)
    (i : ∀ a, o a + S1x16.size a ≤ S128x128.size a) : View.Piece (Elt F) S128x128 .f32 :=
  ⟨Rect.unit (s := S128x128) o S1x16.size i,
    shapeCast S1x16 (mulf (shapeCast S16 (View.readAt (Elt F) (r0V).view (Rect.unit (s := S128x128) o S1x16.size i).toLoadRect f) shapeCasts_S1x16_S16) V) shapeCasts_S16_S1x16⟩

theorem rows_step0 (c k : ℕ) (hk : k < 128) (G : Buf (Elt F) (sloc d L cc0_scratch5)) (X4 : Buf (Elt F) (sloc d L cc0_scratch4))
    (f : Buf (Elt F) (sloc d L cc0_scratch5)) (hf : rowsDone c G X4 k f)
    (V : S16.Idx → F .f32) (hV : ∀ i, V i = X4 (ix1 3328 (by decide) (c * 128 + k)))
    (o0 o1 o2 o3 o4 o5 o6 o7 : Fin 2 → ℕ)
    (h0 : o0 = ![k, 0]) (h1 : o1 = ![k, 16]) (h2 : o2 = ![k, 32]) (h3 : o3 = ![k, 48])
    (h4 : o4 = ![k, 64]) (h5 : o5 = ![k, 80]) (h6 : o6 = ![k, 96]) (h7 : o7 = ![k, 112])
    (i0 : ∀ a, o0 a + S1x16.size a ≤ S128x128.size a) (i1 : ∀ a, o1 a + S1x16.size a ≤ S128x128.size a)
    (i2 : ∀ a, o2 a + S1x16.size a ≤ S128x128.size a) (i3 : ∀ a, o3 a + S1x16.size a ≤ S128x128.size a)
    (i4 : ∀ a, o4 a + S1x16.size a ≤ S128x128.size a) (i5 : ∀ a, o5 a + S1x16.size a ≤ S128x128.size a)
    (i6 : ∀ a, o6 a + S1x16.size a ≤ S128x128.size a) (i7 : ∀ a, o7 a + S1x16.size a ≤ S128x128.size a) :
    rowsDone c G X4 (k + 1) ((r0V).view.writes (Elt F) f
      [pc0 d L f V o7 i7, pc0 d L f V o6 i6, pc0 d L f V o5 i5, pc0 d L f V o4 i4,
       pc0 d L f V o3 i3, pc0 d L f V o2 i2, pc0 d L f V o1 i1, pc0 d L f V o0 i0]) :=
  Cert.Proof.LibRows.rows_step_view (r0V).view f c k hk G X4 hf V hV o0 o1 o2 o3 o4 o5 o6 o7 h0 h1 h2 h3 h4 h5 h6 h7 i0 i1 i2 i3 i4 i5 i6 i7

/-- One sixteen-lane piece of a row of row buffer 1, multiplied lane by lane by `V`. -/
abbrev pc1 (f : Buf (Elt F) (sloc d L cc0_scratch6)) (V : S16.Idx → F .f32) (o : Fin 2 → ℕ)
    (i : ∀ a, o a + S1x16.size a ≤ S128x128.size a) : View.Piece (Elt F) S128x128 .f32 :=
  ⟨Rect.unit (s := S128x128) o S1x16.size i,
    shapeCast S1x16 (mulf (shapeCast S16 (View.readAt (Elt F) (r1V).view (Rect.unit (s := S128x128) o S1x16.size i).toLoadRect f) shapeCasts_S1x16_S16) V) shapeCasts_S16_S1x16⟩

theorem rows_step1 (c k : ℕ) (hk : k < 128) (G : Buf (Elt F) (sloc d L cc0_scratch6)) (X4 : Buf (Elt F) (sloc d L cc0_scratch4))
    (f : Buf (Elt F) (sloc d L cc0_scratch6)) (hf : rowsDone c G X4 k f)
    (V : S16.Idx → F .f32) (hV : ∀ i, V i = X4 (ix1 3328 (by decide) (c * 128 + k)))
    (o0 o1 o2 o3 o4 o5 o6 o7 : Fin 2 → ℕ)
    (h0 : o0 = ![k, 0]) (h1 : o1 = ![k, 16]) (h2 : o2 = ![k, 32]) (h3 : o3 = ![k, 48])
    (h4 : o4 = ![k, 64]) (h5 : o5 = ![k, 80]) (h6 : o6 = ![k, 96]) (h7 : o7 = ![k, 112])
    (i0 : ∀ a, o0 a + S1x16.size a ≤ S128x128.size a) (i1 : ∀ a, o1 a + S1x16.size a ≤ S128x128.size a)
    (i2 : ∀ a, o2 a + S1x16.size a ≤ S128x128.size a) (i3 : ∀ a, o3 a + S1x16.size a ≤ S128x128.size a)
    (i4 : ∀ a, o4 a + S1x16.size a ≤ S128x128.size a) (i5 : ∀ a, o5 a + S1x16.size a ≤ S128x128.size a)
    (i6 : ∀ a, o6 a + S1x16.size a ≤ S128x128.size a) (i7 : ∀ a, o7 a + S1x16.size a ≤ S128x128.size a) :
    rowsDone c G X4 (k + 1) ((r1V).view.writes (Elt F) f
      [pc1 d L f V o7 i7, pc1 d L f V o6 i6, pc1 d L f V o5 i5, pc1 d L f V o4 i4,
       pc1 d L f V o3 i3, pc1 d L f V o2 i2, pc1 d L f V o1 i1, pc1 d L f V o0 i0]) :=
  Cert.Proof.LibRows.rows_step_view (r1V).view f c k hk G X4 hf V hV o0 o1 o2 o3 o4 o5 o6 o7 h0 h1 h2 h3 h4 h5 h6 h7 i0 i1 i2 i3 i4 i5 i6 i7

/-- One sixteen-lane piece of a row of row buffer 2, multiplied lane by lane by `V`. -/
abbrev pc2 (f : Buf (Elt F) (sloc d L cc0_scratch7)) (V : S16.Idx → F .f32) (o : Fin 2 → ℕ)
    (i : ∀ a, o a + S1x16.size a ≤ S128x128.size a) : View.Piece (Elt F) S128x128 .f32 :=
  ⟨Rect.unit (s := S128x128) o S1x16.size i,
    shapeCast S1x16 (mulf (shapeCast S16 (View.readAt (Elt F) (r2V).view (Rect.unit (s := S128x128) o S1x16.size i).toLoadRect f) shapeCasts_S1x16_S16) V) shapeCasts_S16_S1x16⟩

theorem rows_step2 (c k : ℕ) (hk : k < 128) (G : Buf (Elt F) (sloc d L cc0_scratch7)) (X4 : Buf (Elt F) (sloc d L cc0_scratch4))
    (f : Buf (Elt F) (sloc d L cc0_scratch7)) (hf : rowsDone c G X4 k f)
    (V : S16.Idx → F .f32) (hV : ∀ i, V i = X4 (ix1 3328 (by decide) (c * 128 + k)))
    (o0 o1 o2 o3 o4 o5 o6 o7 : Fin 2 → ℕ)
    (h0 : o0 = ![k, 0]) (h1 : o1 = ![k, 16]) (h2 : o2 = ![k, 32]) (h3 : o3 = ![k, 48])
    (h4 : o4 = ![k, 64]) (h5 : o5 = ![k, 80]) (h6 : o6 = ![k, 96]) (h7 : o7 = ![k, 112])
    (i0 : ∀ a, o0 a + S1x16.size a ≤ S128x128.size a) (i1 : ∀ a, o1 a + S1x16.size a ≤ S128x128.size a)
    (i2 : ∀ a, o2 a + S1x16.size a ≤ S128x128.size a) (i3 : ∀ a, o3 a + S1x16.size a ≤ S128x128.size a)
    (i4 : ∀ a, o4 a + S1x16.size a ≤ S128x128.size a) (i5 : ∀ a, o5 a + S1x16.size a ≤ S128x128.size a)
    (i6 : ∀ a, o6 a + S1x16.size a ≤ S128x128.size a) (i7 : ∀ a, o7 a + S1x16.size a ≤ S128x128.size a) :
    rowsDone c G X4 (k + 1) ((r2V).view.writes (Elt F) f
      [pc2 d L f V o7 i7, pc2 d L f V o6 i6, pc2 d L f V o5 i5, pc2 d L f V o4 i4,
       pc2 d L f V o3 i3, pc2 d L f V o2 i2, pc2 d L f V o1 i1, pc2 d L f V o0 i0]) :=
  Cert.Proof.LibRows.rows_step_view (r2V).view f c k hk G X4 hf V hV o0 o1 o2 o3 o4 o5 o6 o7 h0 h1 h2 h3 h4 h5 h6 h7 i0 i1 i2 i3 i4 i5 i6 i7

/-- One sixteen-lane piece of a row of row buffer 3, multiplied lane by lane by `V`. -/
abbrev pc3 (f : Buf (Elt F) (sloc d L cc0_scratch8)) (V : S16.Idx → F .f32) (o : Fin 2 → ℕ)
    (i : ∀ a, o a + S1x16.size a ≤ S128x128.size a) : View.Piece (Elt F) S128x128 .f32 :=
  ⟨Rect.unit (s := S128x128) o S1x16.size i,
    shapeCast S1x16 (mulf (shapeCast S16 (View.readAt (Elt F) (r3V).view (Rect.unit (s := S128x128) o S1x16.size i).toLoadRect f) shapeCasts_S1x16_S16) V) shapeCasts_S16_S1x16⟩

theorem rows_step3 (c k : ℕ) (hk : k < 128) (G : Buf (Elt F) (sloc d L cc0_scratch8)) (X4 : Buf (Elt F) (sloc d L cc0_scratch4))
    (f : Buf (Elt F) (sloc d L cc0_scratch8)) (hf : rowsDone c G X4 k f)
    (V : S16.Idx → F .f32) (hV : ∀ i, V i = X4 (ix1 3328 (by decide) (c * 128 + k)))
    (o0 o1 o2 o3 o4 o5 o6 o7 : Fin 2 → ℕ)
    (h0 : o0 = ![k, 0]) (h1 : o1 = ![k, 16]) (h2 : o2 = ![k, 32]) (h3 : o3 = ![k, 48])
    (h4 : o4 = ![k, 64]) (h5 : o5 = ![k, 80]) (h6 : o6 = ![k, 96]) (h7 : o7 = ![k, 112])
    (i0 : ∀ a, o0 a + S1x16.size a ≤ S128x128.size a) (i1 : ∀ a, o1 a + S1x16.size a ≤ S128x128.size a)
    (i2 : ∀ a, o2 a + S1x16.size a ≤ S128x128.size a) (i3 : ∀ a, o3 a + S1x16.size a ≤ S128x128.size a)
    (i4 : ∀ a, o4 a + S1x16.size a ≤ S128x128.size a) (i5 : ∀ a, o5 a + S1x16.size a ≤ S128x128.size a)
    (i6 : ∀ a, o6 a + S1x16.size a ≤ S128x128.size a) (i7 : ∀ a, o7 a + S1x16.size a ≤ S128x128.size a) :
    rowsDone c G X4 (k + 1) ((r3V).view.writes (Elt F) f
      [pc3 d L f V o7 i7, pc3 d L f V o6 i6, pc3 d L f V o5 i5, pc3 d L f V o4 i4,
       pc3 d L f V o3 i3, pc3 d L f V o2 i2, pc3 d L f V o1 i1, pc3 d L f V o0 i0]) :=
  Cert.Proof.LibRows.rows_step_view (r3V).view f c k hk G X4 hf V hV o0 o1 o2 o3 o4 o5 o6 o7 h0 h1 h2 h3 h4 h5 h6 h7 i0 i1 i2 i3 i4 i5 i6 i7

end Cert.Proof.ScRows
-- ==== Proof.ScLoops.lean ====
/-
  The two kinds of counted loop of the vector-subcore task, each by an invariant at a symbolic trip: the
  first-order loop (a load of sixteen indices, their range check, the indexed load of their weights, a store)
  and the scaling loop of one gathered chunk (the indexed load of the row's feature value, then eight
  sixteen-lane pieces of the row multiplied by it in place).
-/
import proofs.«207592_g65111704207794_cont_9to1_m_407_36_alg».proof.Proof.ScViews
import proofs.«207592_g65111704207794_cont_9to1_m_407_36_alg».proof.Proof.ScRows

noncomputable section

namespace Cert.Proof.ScLoops

open Cert.KernelIdeal Cert.KernelIdeal.Gen
open Cert.Proof.ScSpec Cert.Proof.ScViews Cert.Proof.ScRows
open Cert.Proof.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The first `16 * k` positions of the first-order scratch hold the weights the padded index list names. -/
def sDone (c1 : Buf (Elt F) (sloc d L cc0_scratch1)) (c2 : Buf (Elt F) (sloc d L cc0_scratch2)) (k : ℕ)
    (f : Buf (Elt F) (sloc d L cc0_scratch3)) : Prop :=
  ∀ j : S4096.Idx, (j 0).val < 16 * k → f j = c2 (ix1 26008 (by decide) (c1 j).toNat)

def invS (c1 : Buf (Elt F) (sloc d L cc0_scratch1)) (c2 : Buf (Elt F) (sloc d L cc0_scratch2)) (k : ℕ) (_ : PUnit) : sProp 𝕄 :=
  iprop(((s1V).view.loc (V d (cV L) (jV L)) ↦{fullShare} c1) ∗ ((s2V).view.loc (V d (cV L) (jV L)) ↦{fullShare} c2)
    ∗ ∃ f, ((s3V).view.loc (V d (cV L) (jV L)) ↦{fullShare} f) ∗ ⌜sDone d L c1 c2 k f⌝)

omit [FloatOps F] in
theorem chk1_of (c1 : Buf (Elt F) (sloc d L cc0_scratch1)) (hc1 : ∀ j, (c1 j).toNat < 26008)
    (off : Fin 1 → ℕ) (inb : ∀ a, off a + S16.size a ≤ S4096.size a) :
    k0_chk1 (View.readAt (Elt F) (s1V).view (Rect.unit (s := S4096) off S16.size inb).toLoadRect c1) := by
  intro a x
  match a with
  | 0 => exact hc1 _

theorem sDone_step (c1 : Buf (Elt F) (sloc d L cc0_scratch1)) (c2 : Buf (Elt F) (sloc d L cc0_scratch2))
    (hc1 : ∀ j, (c1 j).toNat < 26008) (k : Fin k0_t1_loop.trips) (f : Buf (Elt F) (sloc d L cc0_scratch3))
    (hf : sDone d L c1 c2 k.val f)
    (h : ∀ a x, ((![View.readAt (Elt F) (s1V).view (Rect.unit (s := S4096) (k0_off3 k) S16.size (k0_off3_inb k)).toLoadRect c1] : Fin 1 → IVec S16 32) a x).toNat < S26008.size a) :
    sDone d L c1 c2 (k.val + 1) ((s3V).view.writes (Elt F) f
      [⟨Rect.unit (s := S4096) (k0_off4 k) S16.size (k0_off4_inb k),
        loadIdx (View.read (Elt F) ((s2V).access (Rect.whole S26008)) c2)
          ![View.readAt (Elt F) (s1V).view (Rect.unit (s := S4096) (k0_off3 k) S16.size (k0_off3_inb k)).toLoadRect c1] h⟩]) := by
  intro j hj
  have e3 := k0_off3_eq k
  have e4 := k0_off4_eq k
  by_cases hm : j ∈ (Rect.unit (s := S4096) (k0_off4 k) S16.size (k0_off4_inb k)).set
  · obtain ⟨x, rfl⟩ := LoadRect.exists_idx_of_mem _ hm
    have hr := View.read_writes_cons_emb (v := (s3V).view) (Val := Elt F) (f := f) (Rect.unit (s := S4096) (k0_off4 k) S16.size (k0_off4_inb k))
      (loadIdx (View.read (Elt F) ((s2V).access (Rect.whole S26008)) c2)
          ![View.readAt (Elt F) (s1V).view (Rect.unit (s := S4096) (k0_off3 k) S16.size (k0_off3_inb k)).toLoadRect c1] h) [] x
    refine hr.trans ?_
    refine congrArg c2 (funext fun a => ?_)
    have hi : (Rect.unit (s := S4096) (k0_off3 k) S16.size (k0_off3_inb k)).toLoadRect.idx x
        = (Rect.unit (s := S4096) (k0_off4 k) S16.size (k0_off4_inb k)).toLoadRect.idx x := by
      funext b; apply Fin.ext
      show k0_off3 k b + 1 * (x b).val = k0_off4 k b + 1 * (x b).val
      rw [congrFun (e3.trans e4.symm) b]
    match a with
    | 0 =>
      apply Fin.ext
      show 0 + 1 * BitVec.toNat (c1 ((Rect.unit (s := S4096) (k0_off3 k) S16.size (k0_off3_inb k)).toLoadRect.idx x))
        = BitVec.toNat (c1 ((Rect.unit (s := S4096) (k0_off4 k) S16.size (k0_off4_inb k)).toLoadRect.idx x)) % 26008
      rw [Nat.zero_add, Nat.one_mul, hi, Nat.mod_eq_of_lt (hc1 _)]
  · have hn := View.read_writes_apply_of_forall_not_mem (v := (s3V).view) (Val := Elt F) (f := f) j
      [⟨Rect.unit (s := S4096) (k0_off4 k) S16.size (k0_off4_inb k),
        loadIdx (View.read (Elt F) ((s2V).access (Rect.whole S26008)) c2)
          ![View.readAt (Elt F) (s1V).view (Rect.unit (s := S4096) (k0_off3 k) S16.size (k0_off3_inb k)).toLoadRect c1] h⟩]
      (by intro p hp; rw [List.mem_singleton] at hp; subst hp; exact hm)
    refine hn.trans (hf j ?_)
    have hm' := hm
    rw [Rect.mem_set_unit] at hm'
    have h0 : k0_off4 k 0 = 16 * k.val := by rw [e4]; rfl
    by_contra hlt
    apply hm'
    intro a
    match a with
    | 0 =>
      have hs : (S16.size : Fin 1 → ℕ) 0 = 16 := rfl
      rw [h0, hs]; omega

set_option maxHeartbeats 4000000 in
/-- One trip of the first-order loop: sixteen more positions of the scratch hold their weights. -/
theorem trip_s (c1 : Buf (Elt F) (sloc d L cc0_scratch1)) (c2 : Buf (Elt F) (sloc d L cc0_scratch2))
    (hc1 : ∀ j, (c1 j).toNat < 26008) (k : Fin k0_t1_loop.trips) :
    invS d L c1 c2 k.val PUnit.unit ⊢ wp frame (wpE (defs₀ (F := F)) 𝒱₀ (V d (cV L) (jV L)) none) Set.univ
      (k0_t1_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invS d L c1 c2 (k.val + 1) a) := by
  unfold invS k0_t1_body
  iintro ⟨Hs1, Hs2, %f, Hs3, %hf⟩
  sl_exec (disch := exact chk1_of d L c1 hc1 _ _)
  ihave Hs2' := (Entails.of_eq (show (((s2V).view.loc (V d (cV L) (jV L)) ↦{fullShare} c2 : sProp 𝕄))
      = (((s2V).access (.whole S26008)).loc (V d (cV L) (jV L)) ↦{fullShare} c2) from rfl)) $$ Hs2
  iapply (SparseCore.wp_vectorLoadIdx 𝒱₀ (V d (cV L) (jV L)) none Set.univ (base := (s2V : Memref sig .scVector .vmem S26008 .f32)) (S := Finset.univ) (q := fullShare) (Finset.subset_univ _)) $$ Hs2'; iintro Hs2'
  sl_exec
  sl_step
  isplitl [Hs1]; · iexact Hs1
  isplitl [Hs2']
  · iapply (Entails.of_eq (show ((((s2V).access (.whole S26008)).loc (V d (cV L) (jV L)) ↦{fullShare} c2 : sProp 𝕄))
      = ((s2V).view.loc (V d (cV L) (jV L)) ↦{fullShare} c2) from rfl)); iexact Hs2'
  iexists _; isplitl [Hs3]; · iexact Hs3
  ipureintro; exact sDone_step d L c1 c2 hc1 k f hf _

/-! ## The scaling loops -/

/-- The indexed load at a broadcast index reads one element in every lane. -/
theorem bcast_val (X4 : Buf (Elt F) (sloc d L cc0_scratch4)) (w : BitVec 32) (n : ℕ) (hw : w.toNat = n) (hn : n < 3328)
    (h : ∀ a x, ((![broadcast S16 w] : Fin 1 → IVec S16 32) a x).toNat < S3328.size a) :
    ∀ i, loadIdx (View.read (Elt F) ((s4V).access (Rect.whole S3328)) X4) ![broadcast S16 w] h i = X4 (ix1 3328 (by decide) n) := by
  intro i
  refine congrArg X4 (funext fun a => ?_)
  match a with
  | 0 =>
    apply Fin.ext
    show 0 + 1 * w.toNat = n % 3328
    rw [Nat.zero_add, Nat.one_mul, hw, Nat.mod_eq_of_lt hn]

theorem chkB_0 : ∀ k : Fin k0_t2_loop.trips, k0_chk2 (broadcast S16 (Scalar.addi 0#32 (Scf.iv 0#32 1#32 k))) := by decide +kernel
theorem bidx_0 : ∀ k : Fin k0_t2_loop.trips, (Scalar.addi 0#32 (Scf.iv 0#32 1#32 k)).toNat = 0 + k.val := by decide +kernel

/-- The invariant of the scaling loop of chunk 0: the feature values, and row buffer 0 with its first `k` rows scaled. -/
def invR_0 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 0 G X4 k f⌝)

set_option maxHeartbeats 4000000 in
theorem trip_r_0 (G : Buf (Elt F) (sloc d L cc0_scratch5)) (X4 : Buf (Elt F) (sloc d L cc0_scratch4)) (k : Fin k0_t2_loop.trips) :
    invR_0 d L G X4 k.val PUnit.unit ⊢ wp frame (wpE (defs₀ (F := F)) 𝒱₀ (V d (cV L) (jV L)) none) Set.univ
      (k0_t2_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_0 d L G X4 (k.val + 1) a) := by
  unfold invR_0 k0_t2_body
  iintro ⟨Hs4, %f, Hr, %hf⟩
  sl_exec (disch := exact chkB_0 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 0 k.val (Nat.lt_of_lt_of_le k.isLt k0_t2_abs.2.1) G X4 f hf
    (loadIdx (View.read (Elt F) ((s4V).access (Rect.whole S3328)) X4) ![broadcast S16 (Scalar.addi 0#32 (Scf.iv 0#32 1#32 k))] (k0_idx2_inb _ (chkB_0 k)))
    (bcast_val d L X4 _ _ (bidx_0 k) (by have := Nat.lt_of_lt_of_le k.isLt k0_t2_abs.2.1; omega) _)
    _ _ _ _ _ _ _ _ (k0_off5_eq k) (k0_off6_eq k) (k0_off7_eq k) (k0_off8_eq k) (k0_off9_eq k) (k0_off10_eq k) (k0_off11_eq k) (k0_off12_eq k)
    _ _ _ _ _ _ _ _

theorem chkB_1 : ∀ k : Fin k0_t3_loop.trips, k0_chk3 (broadcast S16 (Scalar.addi 128#32 (Scf.iv 0#32 1#32 k))) := by decide +kernel
theorem bidx_1 : ∀ k : Fin k0_t3_loop.trips, (Scalar.addi 128#32 (Scf.iv 0#32 1#32 k)).toNat = 128 + k.val := by decide +kernel

/-- The invariant of the scaling loop of chunk 1: the feature values, and row buffer 1 with its first `k` rows scaled. -/
def invR_1 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 1 G X4 k f⌝)

set_option maxHeartbeats 4000000 in
theorem trip_r_1 (G : Buf (Elt F) (sloc d L cc0_scratch6)) (X4 : Buf (Elt F) (sloc d L cc0_scratch4)) (k : Fin k0_t3_loop.trips) :
    invR_1 d L G X4 k.val PUnit.unit ⊢ wp frame (wpE (defs₀ (F := F)) 𝒱₀ (V d (cV L) (jV L)) none) Set.univ
      (k0_t3_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_1 d L G X4 (k.val + 1) a) := by
  unfold invR_1 k0_t3_body
  iintro ⟨Hs4, %f, Hr, %hf⟩
  sl_exec (disch := exact chkB_1 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 1 k.val (Nat.lt_of_lt_of_le k.isLt k0_t3_abs.2.1) G X4 f hf
    (loadIdx (View.read (Elt F) ((s4V).access (Rect.whole S3328)) X4) ![broadcast S16 (Scalar.addi 128#32 (Scf.iv 0#32 1#32 k))] (k0_idx3_inb _ (chkB_1 k)))
    (bcast_val d L X4 _ _ (bidx_1 k) (by have := Nat.lt_of_lt_of_le k.isLt k0_t3_abs.2.1; omega) _)
    _ _ _ _ _ _ _ _ (k0_off14_eq k) (k0_off15_eq k) (k0_off16_eq k) (k0_off17_eq k) (k0_off18_eq k) (k0_off19_eq k) (k0_off20_eq k) (k0_off21_eq k)
    _ _ _ _ _ _ _ _

theorem chkB_2 : ∀ k : Fin k0_t4_loop.trips, k0_chk4 (broadcast S16 (Scalar.addi 256#32 (Scf.iv 0#32 1#32 k))) := by decide +kernel
theorem bidx_2 : ∀ k : Fin k0_t4_loop.trips, (Scalar.addi 256#32 (Scf.iv 0#32 1#32 k)).toNat = 256 + k.val := by decide +kernel

/-- The invariant of the scaling loop of chunk 2: the feature values, and row buffer 2 with its first `k` rows scaled. -/
def invR_2 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 2 G X4 k f⌝)

set_option maxHeartbeats 4000000 in
theorem trip_r_2 (G : Buf (Elt F) (sloc d L cc0_scratch7)) (X4 : Buf (Elt F) (sloc d L cc0_scratch4)) (k : Fin k0_t4_loop.trips) :
    invR_2 d L G X4 k.val PUnit.unit ⊢ wp frame (wpE (defs₀ (F := F)) 𝒱₀ (V d (cV L) (jV L)) none) Set.univ
      (k0_t4_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_2 d L G X4 (k.val + 1) a) := by
  unfold invR_2 k0_t4_body
  iintro ⟨Hs4, %f, Hr, %hf⟩
  sl_exec (disch := exact chkB_2 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 2 k.val (Nat.lt_of_lt_of_le k.isLt k0_t4_abs.2.1) G X4 f hf
    (loadIdx (View.read (Elt F) ((s4V).access (Rect.whole S3328)) X4) ![broadcast S16 (Scalar.addi 256#32 (Scf.iv 0#32 1#32 k))] (k0_idx4_inb _ (chkB_2 k)))
    (bcast_val d L X4 _ _ (bidx_2 k) (by have := Nat.lt_of_lt_of_le k.isLt k0_t4_abs.2.1; omega) _)
    _ _ _ _ _ _ _ _ (k0_off23_eq k) (k0_off24_eq k) (k0_off25_eq k) (k0_off26_eq k) (k0_off27_eq k) (k0_off28_eq k) (k0_off29_eq k) (k0_off30_eq k)
    _ _ _ _ _ _ _ _

theorem chkB_3 : ∀ k : Fin k0_t5_loop.trips, k0_chk5 (broadcast S16 (Scalar.addi 384#32 (Scf.iv 0#32 1#32 k))) := by decide +kernel
theorem bidx_3 : ∀ k : Fin k0_t5_loop.trips, (Scalar.addi 384#32 (Scf.iv 0#32 1#32 k)).toNat = 384 + k.val := by decide +kernel

/-- The invariant of the scaling loop of chunk 3: the feature values, and row buffer 3 with its first `k` rows scaled. -/
def invR_3 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 3 G X4 k f⌝)

set_option maxHeartbeats 4000000 in
theorem trip_r_3 (G : Buf (Elt F) (sloc d L cc0_scratch8)) (X4 : Buf (Elt F) (sloc d L cc0_scratch4)) (k : Fin k0_t5_loop.trips) :
    invR_3 d L G X4 k.val PUnit.unit ⊢ wp frame (wpE (defs₀ (F := F)) 𝒱₀ (V d (cV L) (jV L)) none) Set.univ
      (k0_t5_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_3 d L G X4 (k.val + 1) a) := by
  unfold invR_3 k0_t5_body
  iintro ⟨Hs4, %f, Hr, %hf⟩
  sl_exec (disch := exact chkB_3 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 3 k.val (Nat.lt_of_lt_of_le k.isLt k0_t5_abs.2.1) G X4 f hf
    (loadIdx (View.read (Elt F) ((s4V).access (Rect.whole S3328)) X4) ![broadcast S16 (Scalar.addi 384#32 (Scf.iv 0#32 1#32 k))] (k0_idx5_inb _ (chkB_3 k)))
    (bcast_val d L X4 _ _ (bidx_3 k) (by have := Nat.lt_of_lt_of_le k.isLt k0_t5_abs.2.1; omega) _)
    _ _ _ _ _ _ _ _ (k0_off32_eq k) (k0_off33_eq k) (k0_off34_eq k) (k0_off35_eq k) (k0_off36_eq k) (k0_off37_eq k) (k0_off38_eq k) (k0_off39_eq k)
    _ _ _ _ _ _ _ _

theorem chkB_4 : ∀ k : Fin k0_t6_loop.trips, k0_chk6 (broadcast S16 (Scalar.addi 512#32 (Scf.iv 0#32 1#32 k))) := by decide +kernel
theorem bidx_4 : ∀ k : Fin k0_t6_loop.trips, (Scalar.addi 512#32 (Scf.iv 0#32 1#32 k)).toNat = 512 + k.val := by decide +kernel

/-- The invariant of the scaling loop of chunk 4: the feature values, and row buffer 0 with its first `k` rows scaled. -/
def invR_4 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 4 G X4 k f⌝)

set_option maxHeartbeats 4000000 in
theorem trip_r_4 (G : Buf (Elt F) (sloc d L cc0_scratch5)) (X4 : Buf (Elt F) (sloc d L cc0_scratch4)) (k : Fin k0_t6_loop.trips) :
    invR_4 d L G X4 k.val PUnit.unit ⊢ wp frame (wpE (defs₀ (F := F)) 𝒱₀ (V d (cV L) (jV L)) none) Set.univ
      (k0_t6_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_4 d L G X4 (k.val + 1) a) := by
  unfold invR_4 k0_t6_body
  iintro ⟨Hs4, %f, Hr, %hf⟩
  sl_exec (disch := exact chkB_4 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 4 k.val (Nat.lt_of_lt_of_le k.isLt k0_t6_abs.2.1) G X4 f hf
    (loadIdx (View.read (Elt F) ((s4V).access (Rect.whole S3328)) X4) ![broadcast S16 (Scalar.addi 512#32 (Scf.iv 0#32 1#32 k))] (k0_idx6_inb _ (chkB_4 k)))
    (bcast_val d L X4 _ _ (bidx_4 k) (by have := Nat.lt_of_lt_of_le k.isLt k0_t6_abs.2.1; omega) _)
    _ _ _ _ _ _ _ _ (k0_off41_eq k) (k0_off42_eq k) (k0_off43_eq k) (k0_off44_eq k) (k0_off45_eq k) (k0_off46_eq k) (k0_off47_eq k) (k0_off48_eq k)
    _ _ _ _ _ _ _ _

theorem chkB_5 : ∀ k : Fin k0_t7_loop.trips, k0_chk7 (broadcast S16 (Scalar.addi 640#32 (Scf.iv 0#32 1#32 k))) := by decide +kernel
theorem bidx_5 : ∀ k : Fin k0_t7_loop.trips, (Scalar.addi 640#32 (Scf.iv 0#32 1#32 k)).toNat = 640 + k.val := by decide +kernel

/-- The invariant of the scaling loop of chunk 5: the feature values, and row buffer 1 with its first `k` rows scaled. -/
def invR_5 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 5 G X4 k f⌝)

set_option maxHeartbeats 4000000 in
theorem trip_r_5 (G : Buf (Elt F) (sloc d L cc0_scratch6)) (X4 : Buf (Elt F) (sloc d L cc0_scratch4)) (k : Fin k0_t7_loop.trips) :
    invR_5 d L G X4 k.val PUnit.unit ⊢ wp frame (wpE (defs₀ (F := F)) 𝒱₀ (V d (cV L) (jV L)) none) Set.univ
      (k0_t7_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_5 d L G X4 (k.val + 1) a) := by
  unfold invR_5 k0_t7_body
  iintro ⟨Hs4, %f, Hr, %hf⟩
  sl_exec (disch := exact chkB_5 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 5 k.val (Nat.lt_of_lt_of_le k.isLt k0_t7_abs.2.1) G X4 f hf
    (loadIdx (View.read (Elt F) ((s4V).access (Rect.whole S3328)) X4) ![broadcast S16 (Scalar.addi 640#32 (Scf.iv 0#32 1#32 k))] (k0_idx7_inb _ (chkB_5 k)))
    (bcast_val d L X4 _ _ (bidx_5 k) (by have := Nat.lt_of_lt_of_le k.isLt k0_t7_abs.2.1; omega) _)
    _ _ _ _ _ _ _ _ (k0_off50_eq k) (k0_off51_eq k) (k0_off52_eq k) (k0_off53_eq k) (k0_off54_eq k) (k0_off55_eq k) (k0_off56_eq k) (k0_off57_eq k)
    _ _ _ _ _ _ _ _

theorem chkB_6 : ∀ k : Fin k0_t8_loop.trips, k0_chk8 (broadcast S16 (Scalar.addi 768#32 (Scf.iv 0#32 1#32 k))) := by decide +kernel
theorem bidx_6 : ∀ k : Fin k0_t8_loop.trips, (Scalar.addi 768#32 (Scf.iv 0#32 1#32 k)).toNat = 768 + k.val := by decide +kernel

/-- The invariant of the scaling loop of chunk 6: the feature values, and row buffer 2 with its first `k` rows scaled. -/
def invR_6 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 6 G X4 k f⌝)

set_option maxHeartbeats 4000000 in
theorem trip_r_6 (G : Buf (Elt F) (sloc d L cc0_scratch7)) (X4 : Buf (Elt F) (sloc d L cc0_scratch4)) (k : Fin k0_t8_loop.trips) :
    invR_6 d L G X4 k.val PUnit.unit ⊢ wp frame (wpE (defs₀ (F := F)) 𝒱₀ (V d (cV L) (jV L)) none) Set.univ
      (k0_t8_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_6 d L G X4 (k.val + 1) a) := by
  unfold invR_6 k0_t8_body
  iintro ⟨Hs4, %f, Hr, %hf⟩
  sl_exec (disch := exact chkB_6 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 6 k.val (Nat.lt_of_lt_of_le k.isLt k0_t8_abs.2.1) G X4 f hf
    (loadIdx (View.read (Elt F) ((s4V).access (Rect.whole S3328)) X4) ![broadcast S16 (Scalar.addi 768#32 (Scf.iv 0#32 1#32 k))] (k0_idx8_inb _ (chkB_6 k)))
    (bcast_val d L X4 _ _ (bidx_6 k) (by have := Nat.lt_of_lt_of_le k.isLt k0_t8_abs.2.1; omega) _)
    _ _ _ _ _ _ _ _ (k0_off59_eq k) (k0_off60_eq k) (k0_off61_eq k) (k0_off62_eq k) (k0_off63_eq k) (k0_off64_eq k) (k0_off65_eq k) (k0_off66_eq k)
    _ _ _ _ _ _ _ _

theorem chkB_7 : ∀ k : Fin k0_t9_loop.trips, k0_chk9 (broadcast S16 (Scalar.addi 896#32 (Scf.iv 0#32 1#32 k))) := by decide +kernel
theorem bidx_7 : ∀ k : Fin k0_t9_loop.trips, (Scalar.addi 896#32 (Scf.iv 0#32 1#32 k)).toNat = 896 + k.val := by decide +kernel

/-- The invariant of the scaling loop of chunk 7: the feature values, and row buffer 3 with its first `k` rows scaled. -/
def invR_7 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 7 G X4 k f⌝)

set_option maxHeartbeats 4000000 in
theorem trip_r_7 (G : Buf (Elt F) (sloc d L cc0_scratch8)) (X4 : Buf (Elt F) (sloc d L cc0_scratch4)) (k : Fin k0_t9_loop.trips) :
    invR_7 d L G X4 k.val PUnit.unit ⊢ wp frame (wpE (defs₀ (F := F)) 𝒱₀ (V d (cV L) (jV L)) none) Set.univ
      (k0_t9_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_7 d L G X4 (k.val + 1) a) := by
  unfold invR_7 k0_t9_body
  iintro ⟨Hs4, %f, Hr, %hf⟩
  sl_exec (disch := exact chkB_7 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 7 k.val (Nat.lt_of_lt_of_le k.isLt k0_t9_abs.2.1) G X4 f hf
    (loadIdx (View.read (Elt F) ((s4V).access (Rect.whole S3328)) X4) ![broadcast S16 (Scalar.addi 896#32 (Scf.iv 0#32 1#32 k))] (k0_idx9_inb _ (chkB_7 k)))
    (bcast_val d L X4 _ _ (bidx_7 k) (by have := Nat.lt_of_lt_of_le k.isLt k0_t9_abs.2.1; omega) _)
    _ _ _ _ _ _ _ _ (k0_off68_eq k) (k0_off69_eq k) (k0_off70_eq k) (k0_off71_eq k) (k0_off72_eq k) (k0_off73_eq k) (k0_off74_eq k) (k0_off75_eq k)
    _ _ _ _ _ _ _ _

theorem chkB_8 : ∀ k : Fin k0_t10_loop.trips, k0_chk10 (broadcast S16 (Scalar.addi 1024#32 (Scf.iv 0#32 1#32 k))) := by decide +kernel
theorem bidx_8 : ∀ k : Fin k0_t10_loop.trips, (Scalar.addi 1024#32 (Scf.iv 0#32 1#32 k)).toNat = 1024 + k.val := by decide +kernel

/-- The invariant of the scaling loop of chunk 8: the feature values, and row buffer 0 with its first `k` rows scaled. -/
def invR_8 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 8 G X4 k f⌝)

set_option maxHeartbeats 4000000 in
theorem trip_r_8 (G : Buf (Elt F) (sloc d L cc0_scratch5)) (X4 : Buf (Elt F) (sloc d L cc0_scratch4)) (k : Fin k0_t10_loop.trips) :
    invR_8 d L G X4 k.val PUnit.unit ⊢ wp frame (wpE (defs₀ (F := F)) 𝒱₀ (V d (cV L) (jV L)) none) Set.univ
      (k0_t10_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 0#32 128#32 k ()) (fun a => invR_8 d L G X4 (k.val + 1) a) := by
  unfold invR_8 k0_t10_body
  iintro ⟨Hs4, %f, Hr, %hf⟩
  sl_exec (disch := exact chkB_8 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 8 k.val (Nat.lt_of_lt_of_le k.isLt k0_t10_abs.2.1) G X4 f hf
    (loadIdx (View.read (Elt F) ((s4V).access (Rect.whole S3328)) X4) ![broadcast S16 (Scalar.addi 1024#32 (Scf.iv 0#32 1#32 k))] (k0_idx10_inb _ (chkB_8 k)))
    (bcast_val d L X4 _ _ (bidx_8 k) (by have := Nat.lt_of_lt_of_le k.isLt k0_t10_abs.2.1; omega) _)
    _ _ _ _ _ _ _ _ (k0_off77_eq k) (k0_off78_eq k) (k0_off79_eq k) (k0_off80_eq k) (k0_off81_eq k) (k0_off82_eq k) (k0_off83_eq k) (k0_off84_eq k)
    _ _ _ _ _ _ _ _

theorem chkB_9 : ∀ k : Fin k0_t11_loop.trips, k0_chk11 (broadcast S16 (Scalar.addi 1152#32 (Scf.iv 0#32 1#32 k))) := by decide +kernel
theorem bidx_9 : ∀ k : Fin k0_t11_loop.trips, (Scalar.addi 1152#32 (Scf.iv 0#32 1#32 k)).toNat = 1152 + k.val := by decide +kernel

/-- The invariant of the scaling loop of chunk 9: the feature values, and row buffer 1 with its first `k` rows scaled. -/
def invR_9 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 9 G X4 k f⌝)

set_option maxHeartbeats 4000000 in
theorem trip_r_9 (G : Buf (Elt F) (sloc d L cc0_scratch6)) (X4 : Buf (Elt F) (sloc d L cc0_scratch4)) (k : Fin k0_t11_loop.trips) :
    invR_9 d L G X4 k.val PUnit.unit ⊢ wp frame (wpE (defs₀ (F := F)) 𝒱₀ (V d (cV L) (jV L)) none) Set.univ
      (k0_t11_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 0#32 128#32 k ()) (fun a => invR_9 d L G X4 (k.val + 1) a) := by
  unfold invR_9 k0_t11_body
  iintro ⟨Hs4, %f, Hr, %hf⟩
  sl_exec (disch := exact chkB_9 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 9 k.val (Nat.lt_of_lt_of_le k.isLt k0_t11_abs.2.1) G X4 f hf
    (loadIdx (View.read (Elt F) ((s4V).access (Rect.whole S3328)) X4) ![broadcast S16 (Scalar.addi 1152#32 (Scf.iv 0#32 1#32 k))] (k0_idx11_inb _ (chkB_9 k)))
    (bcast_val d L X4 _ _ (bidx_9 k) (by have := Nat.lt_of_lt_of_le k.isLt k0_t11_abs.2.1; omega) _)
    _ _ _ _ _ _ _ _ (k0_off86_eq k) (k0_off87_eq k) (k0_off88_eq k) (k0_off89_eq k) (k0_off90_eq k) (k0_off91_eq k) (k0_off92_eq k) (k0_off93_eq k)
    _ _ _ _ _ _ _ _

theorem chkB_10 : ∀ k : Fin k0_t12_loop.trips, k0_chk12 (broadcast S16 (Scalar.addi 1280#32 (Scf.iv 0#32 1#32 k))) := by decide +kernel
theorem bidx_10 : ∀ k : Fin k0_t12_loop.trips, (Scalar.addi 1280#32 (Scf.iv 0#32 1#32 k)).toNat = 1280 + k.val := by decide +kernel

/-- The invariant of the scaling loop of chunk 10: the feature values, and row buffer 2 with its first `k` rows scaled. -/
def invR_10 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 10 G X4 k f⌝)

set_option maxHeartbeats 4000000 in
theorem trip_r_10 (G : Buf (Elt F) (sloc d L cc0_scratch7)) (X4 : Buf (Elt F) (sloc d L cc0_scratch4)) (k : Fin k0_t12_loop.trips) :
    invR_10 d L G X4 k.val PUnit.unit ⊢ wp frame (wpE (defs₀ (F := F)) 𝒱₀ (V d (cV L) (jV L)) none) Set.univ
      (k0_t12_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 0#32 1#32 k ()) (fun a => invR_10 d L G X4 (k.val + 1) a) := by
  unfold invR_10 k0_t12_body
  iintro ⟨Hs4, %f, Hr, %hf⟩
  sl_exec (disch := exact chkB_10 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 10 k.val (Nat.lt_of_lt_of_le k.isLt k0_t12_abs.2.1) G X4 f hf
    (loadIdx (View.read (Elt F) ((s4V).access (Rect.whole S3328)) X4) ![broadcast S16 (Scalar.addi 1280#32 (Scf.iv 0#32 1#32 k))] (k0_idx12_inb _ (chkB_10 k)))
    (bcast_val d L X4 _ _ (bidx_10 k) (by have := Nat.lt_of_lt_of_le k.isLt k0_t12_abs.2.1; omega) _)
    _ _ _ _ _ _ _ _ (k0_off95_eq k) (k0_off96_eq k) (k0_off97_eq k) (k0_off98_eq k) (k0_off99_eq k) (k0_off100_eq k) (k0_off101_eq k) (k0_off102_eq k)
    _ _ _ _ _ _ _ _

theorem chkB_11 : ∀ k : Fin k0_t13_loop.trips, k0_chk13 (broadcast S16 (Scalar.addi 1408#32 (Scf.iv 0#32 1#32 k))) := by decide +kernel
theorem bidx_11 : ∀ k : Fin k0_t13_loop.trips, (Scalar.addi 1408#32 (Scf.iv 0#32 1#32 k)).toNat = 1408 + k.val := by decide +kernel

/-- The invariant of the scaling loop of chunk 11: the feature values, and row buffer 3 with its first `k` rows scaled. -/
def invR_11 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 11 G X4 k f⌝)

set_option maxHeartbeats 4000000 in
theorem trip_r_11 (G : Buf (Elt F) (sloc d L cc0_scratch8)) (X4 : Buf (Elt F) (sloc d L cc0_scratch4)) (k : Fin k0_t13_loop.trips) :
    invR_11 d L G X4 k.val PUnit.unit ⊢ wp frame (wpE (defs₀ (F := F)) 𝒱₀ (V d (cV L) (jV L)) none) Set.univ
      (k0_t13_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 0#32 1#32 k ()) (fun a => invR_11 d L G X4 (k.val + 1) a) := by
  unfold invR_11 k0_t13_body
  iintro ⟨Hs4, %f, Hr, %hf⟩
  sl_exec (disch := exact chkB_11 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 11 k.val (Nat.lt_of_lt_of_le k.isLt k0_t13_abs.2.1) G X4 f hf
    (loadIdx (View.read (Elt F) ((s4V).access (Rect.whole S3328)) X4) ![broadcast S16 (Scalar.addi 1408#32 (Scf.iv 0#32 1#32 k))] (k0_idx13_inb _ (chkB_11 k)))
    (bcast_val d L X4 _ _ (bidx_11 k) (by have := Nat.lt_of_lt_of_le k.isLt k0_t13_abs.2.1; omega) _)
    _ _ _ _ _ _ _ _ (k0_off104_eq k) (k0_off105_eq k) (k0_off106_eq k) (k0_off107_eq k) (k0_off108_eq k) (k0_off109_eq k) (k0_off110_eq k) (k0_off111_eq k)
    _ _ _ _ _ _ _ _

theorem chkB_12 : ∀ k : Fin k0_t14_loop.trips, k0_chk14 (broadcast S16 (Scalar.addi 1536#32 (Scf.iv 0#32 1#32 k))) := by decide +kernel
theorem bidx_12 : ∀ k : Fin k0_t14_loop.trips, (Scalar.addi 1536#32 (Scf.iv 0#32 1#32 k)).toNat = 1536 + k.val := by decide +kernel

/-- The invariant of the scaling loop of chunk 12: the feature values, and row buffer 0 with its first `k` rows scaled. -/
def invR_12 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 12 G X4 k f⌝)

set_option maxHeartbeats 4000000 in
theorem trip_r_12 (G : Buf (Elt F) (sloc d L cc0_scratch5)) (X4 : Buf (Elt F) (sloc d L cc0_scratch4)) (k : Fin k0_t14_loop.trips) :
    invR_12 d L G X4 k.val PUnit.unit ⊢ wp frame (wpE (defs₀ (F := F)) 𝒱₀ (V d (cV L) (jV L)) none) Set.univ
      (k0_t14_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 0#32 1#32 k ()) (fun a => invR_12 d L G X4 (k.val + 1) a) := by
  unfold invR_12 k0_t14_body
  iintro ⟨Hs4, %f, Hr, %hf⟩
  sl_exec (disch := exact chkB_12 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 12 k.val (Nat.lt_of_lt_of_le k.isLt k0_t14_abs.2.1) G X4 f hf
    (loadIdx (View.read (Elt F) ((s4V).access (Rect.whole S3328)) X4) ![broadcast S16 (Scalar.addi 1536#32 (Scf.iv 0#32 1#32 k))] (k0_idx14_inb _ (chkB_12 k)))
    (bcast_val d L X4 _ _ (bidx_12 k) (by have := Nat.lt_of_lt_of_le k.isLt k0_t14_abs.2.1; omega) _)
    _ _ _ _ _ _ _ _ (k0_off113_eq k) (k0_off114_eq k) (k0_off115_eq k) (k0_off116_eq k) (k0_off117_eq k) (k0_off118_eq k) (k0_off119_eq k) (k0_off120_eq k)
    _ _ _ _ _ _ _ _

theorem chkB_13 : ∀ k : Fin k0_t15_loop.trips, k0_chk15 (broadcast S16 (Scalar.addi 1664#32 (Scf.iv 0#32 1#32 k))) := by decide +kernel
theorem bidx_13 : ∀ k : Fin k0_t15_loop.trips, (Scalar.addi 1664#32 (Scf.iv 0#32 1#32 k)).toNat = 1664 + k.val := by decide +kernel

/-- The invariant of the scaling loop of chunk 13: the feature values, and row buffer 1 with its first `k` rows scaled. -/
def invR_13 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 13 G X4 k f⌝)

set_option maxHeartbeats 4000000 in
theorem trip_r_13 (G : Buf (Elt F) (sloc d L cc0_scratch6)) (X4 : Buf (Elt F) (sloc d L cc0_scratch4)) (k : Fin k0_t15_loop.trips) :
    invR_13 d L G X4 k.val PUnit.unit ⊢ wp frame (wpE (defs₀ (F := F)) 𝒱₀ (V d (cV L) (jV L)) none) Set.univ
      (k0_t15_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_13 d L G X4 (k.val + 1) a) := by
  unfold invR_13 k0_t15_body
  iintro ⟨Hs4, %f, Hr, %hf⟩
  sl_exec (disch := exact chkB_13 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 13 k.val (Nat.lt_of_lt_of_le k.isLt k0_t15_abs.2.1) G X4 f hf
    (loadIdx (View.read (Elt F) ((s4V).access (Rect.whole S3328)) X4) ![broadcast S16 (Scalar.addi 1664#32 (Scf.iv 0#32 1#32 k))] (k0_idx15_inb _ (chkB_13 k)))
    (bcast_val d L X4 _ _ (bidx_13 k) (by have := Nat.lt_of_lt_of_le k.isLt k0_t15_abs.2.1; omega) _)
    _ _ _ _ _ _ _ _ (k0_off122_eq k) (k0_off123_eq k) (k0_off124_eq k) (k0_off125_eq k) (k0_off126_eq k) (k0_off127_eq k) (k0_off128_eq k) (k0_off129_eq k)
    _ _ _ _ _ _ _ _

theorem chkB_14 : ∀ k : Fin k0_t16_loop.trips, k0_chk16 (broadcast S16 (Scalar.addi 1792#32 (Scf.iv 0#32 1#32 k))) := by decide +kernel
theorem bidx_14 : ∀ k : Fin k0_t16_loop.trips, (Scalar.addi 1792#32 (Scf.iv 0#32 1#32 k)).toNat = 1792 + k.val := by decide +kernel

/-- The invariant of the scaling loop of chunk 14: the feature values, and row buffer 2 with its first `k` rows scaled. -/
def invR_14 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 14 G X4 k f⌝)

set_option maxHeartbeats 4000000 in
theorem trip_r_14 (G : Buf (Elt F) (sloc d L cc0_scratch7)) (X4 : Buf (Elt F) (sloc d L cc0_scratch4)) (k : Fin k0_t16_loop.trips) :
    invR_14 d L G X4 k.val PUnit.unit ⊢ wp frame (wpE (defs₀ (F := F)) 𝒱₀ (V d (cV L) (jV L)) none) Set.univ
      (k0_t16_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_14 d L G X4 (k.val + 1) a) := by
  unfold invR_14 k0_t16_body
  iintro ⟨Hs4, %f, Hr, %hf⟩
  sl_exec (disch := exact chkB_14 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 14 k.val (Nat.lt_of_lt_of_le k.isLt k0_t16_abs.2.1) G X4 f hf
    (loadIdx (View.read (Elt F) ((s4V).access (Rect.whole S3328)) X4) ![broadcast S16 (Scalar.addi 1792#32 (Scf.iv 0#32 1#32 k))] (k0_idx16_inb _ (chkB_14 k)))
    (bcast_val d L X4 _ _ (bidx_14 k) (by have := Nat.lt_of_lt_of_le k.isLt k0_t16_abs.2.1; omega) _)
    _ _ _ _ _ _ _ _ (k0_off131_eq k) (k0_off132_eq k) (k0_off133_eq k) (k0_off134_eq k) (k0_off135_eq k) (k0_off136_eq k) (k0_off137_eq k) (k0_off138_eq k)
    _ _ _ _ _ _ _ _

theorem chkB_15 : ∀ k : Fin k0_t17_loop.trips, k0_chk17 (broadcast S16 (Scalar.addi 1920#32 (Scf.iv 0#32 1#32 k))) := by decide +kernel
theorem bidx_15 : ∀ k : Fin k0_t17_loop.trips, (Scalar.addi 1920#32 (Scf.iv 0#32 1#32 k)).toNat = 1920 + k.val := by decide +kernel

/-- The invariant of the scaling loop of chunk 15: the feature values, and row buffer 3 with its first `k` rows scaled. -/
def invR_15 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 15 G X4 k f⌝)

set_option maxHeartbeats 4000000 in
theorem trip_r_15 (G : Buf (Elt F) (sloc d L cc0_scratch8)) (X4 : Buf (Elt F) (sloc d L cc0_scratch4)) (k : Fin k0_t17_loop.trips) :
    invR_15 d L G X4 k.val PUnit.unit ⊢ wp frame (wpE (defs₀ (F := F)) 𝒱₀ (V d (cV L) (jV L)) none) Set.univ
      (k0_t17_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_15 d L G X4 (k.val + 1) a) := by
  unfold invR_15 k0_t17_body
  iintro ⟨Hs4, %f, Hr, %hf⟩
  sl_exec (disch := exact chkB_15 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 15 k.val (Nat.lt_of_lt_of_le k.isLt k0_t17_abs.2.1) G X4 f hf
    (loadIdx (View.read (Elt F) ((s4V).access (Rect.whole S3328)) X4) ![broadcast S16 (Scalar.addi 1920#32 (Scf.iv 0#32 1#32 k))] (k0_idx17_inb _ (chkB_15 k)))
    (bcast_val d L X4 _ _ (bidx_15 k) (by have := Nat.lt_of_lt_of_le k.isLt k0_t17_abs.2.1; omega) _)
    _ _ _ _ _ _ _ _ (k0_off140_eq k) (k0_off141_eq k) (k0_off142_eq k) (k0_off143_eq k) (k0_off144_eq k) (k0_off145_eq k) (k0_off146_eq k) (k0_off147_eq k)
    _ _ _ _ _ _ _ _

theorem chkB_16 : ∀ k : Fin k0_t18_loop.trips, k0_chk18 (broadcast S16 (Scalar.addi 2048#32 (Scf.iv 0#32 1#32 k))) := by decide +kernel
theorem bidx_16 : ∀ k : Fin k0_t18_loop.trips, (Scalar.addi 2048#32 (Scf.iv 0#32 1#32 k)).toNat = 2048 + k.val := by decide +kernel

/-- The invariant of the scaling loop of chunk 16: the feature values, and row buffer 0 with its first `k` rows scaled. -/
def invR_16 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 16 G X4 k f⌝)

set_option maxHeartbeats 4000000 in
theorem trip_r_16 (G : Buf (Elt F) (sloc d L cc0_scratch5)) (X4 : Buf (Elt F) (sloc d L cc0_scratch4)) (k : Fin k0_t18_loop.trips) :
    invR_16 d L G X4 k.val PUnit.unit ⊢ wp frame (wpE (defs₀ (F := F)) 𝒱₀ (V d (cV L) (jV L)) none) Set.univ
      (k0_t18_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_16 d L G X4 (k.val + 1) a) := by
  unfold invR_16 k0_t18_body
  iintro ⟨Hs4, %f, Hr, %hf⟩
  sl_exec (disch := exact chkB_16 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 16 k.val (Nat.lt_of_lt_of_le k.isLt k0_t18_abs.2.1) G X4 f hf
    (loadIdx (View.read (Elt F) ((s4V).access (Rect.whole S3328)) X4) ![broadcast S16 (Scalar.addi 2048#32 (Scf.iv 0#32 1#32 k))] (k0_idx18_inb _ (chkB_16 k)))
    (bcast_val d L X4 _ _ (bidx_16 k) (by have := Nat.lt_of_lt_of_le k.isLt k0_t18_abs.2.1; omega) _)
    _ _ _ _ _ _ _ _ (k0_off149_eq k) (k0_off150_eq k) (k0_off151_eq k) (k0_off152_eq k) (k0_off153_eq k) (k0_off154_eq k) (k0_off155_eq k) (k0_off156_eq k)
    _ _ _ _ _ _ _ _

theorem chkB_17 : ∀ k : Fin k0_t19_loop.trips, k0_chk19 (broadcast S16 (Scalar.addi 2176#32 (Scf.iv 0#32 1#32 k))) := by decide +kernel
theorem bidx_17 : ∀ k : Fin k0_t19_loop.trips, (Scalar.addi 2176#32 (Scf.iv 0#32 1#32 k)).toNat = 2176 + k.val := by decide +kernel

/-- The invariant of the scaling loop of chunk 17: the feature values, and row buffer 1 with its first `k` rows scaled. -/
def invR_17 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 17 G X4 k f⌝)

set_option maxHeartbeats 4000000 in
theorem trip_r_17 (G : Buf (Elt F) (sloc d L cc0_scratch6)) (X4 : Buf (Elt F) (sloc d L cc0_scratch4)) (k : Fin k0_t19_loop.trips) :
    invR_17 d L G X4 k.val PUnit.unit ⊢ wp frame (wpE (defs₀ (F := F)) 𝒱₀ (V d (cV L) (jV L)) none) Set.univ
      (k0_t19_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_17 d L G X4 (k.val + 1) a) := by
  unfold invR_17 k0_t19_body
  iintro ⟨Hs4, %f, Hr, %hf⟩
  sl_exec (disch := exact chkB_17 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 17 k.val (Nat.lt_of_lt_of_le k.isLt k0_t19_abs.2.1) G X4 f hf
    (loadIdx (View.read (Elt F) ((s4V).access (Rect.whole S3328)) X4) ![broadcast S16 (Scalar.addi 2176#32 (Scf.iv 0#32 1#32 k))] (k0_idx19_inb _ (chkB_17 k)))
    (bcast_val d L X4 _ _ (bidx_17 k) (by have := Nat.lt_of_lt_of_le k.isLt k0_t19_abs.2.1; omega) _)
    _ _ _ _ _ _ _ _ (k0_off158_eq k) (k0_off159_eq k) (k0_off160_eq k) (k0_off161_eq k) (k0_off162_eq k) (k0_off163_eq k) (k0_off164_eq k) (k0_off165_eq k)
    _ _ _ _ _ _ _ _

theorem chkB_18 : ∀ k : Fin k0_t20_loop.trips, k0_chk20 (broadcast S16 (Scalar.addi 2304#32 (Scf.iv 0#32 1#32 k))) := by decide +kernel
theorem bidx_18 : ∀ k : Fin k0_t20_loop.trips, (Scalar.addi 2304#32 (Scf.iv 0#32 1#32 k)).toNat = 2304 + k.val := by decide +kernel

/-- The invariant of the scaling loop of chunk 18: the feature values, and row buffer 2 with its first `k` rows scaled. -/
def invR_18 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 18 G X4 k f⌝)

set_option maxHeartbeats 4000000 in
theorem trip_r_18 (G : Buf (Elt F) (sloc d L cc0_scratch7)) (X4 : Buf (Elt F) (sloc d L cc0_scratch4)) (k : Fin k0_t20_loop.trips) :
    invR_18 d L G X4 k.val PUnit.unit ⊢ wp frame (wpE (defs₀ (F := F)) 𝒱₀ (V d (cV L) (jV L)) none) Set.univ
      (k0_t20_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_18 d L G X4 (k.val + 1) a) := by
  unfold invR_18 k0_t20_body
  iintro ⟨Hs4, %f, Hr, %hf⟩
  sl_exec (disch := exact chkB_18 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 18 k.val (Nat.lt_of_lt_of_le k.isLt k0_t20_abs.2.1) G X4 f hf
    (loadIdx (View.read (Elt F) ((s4V).access (Rect.whole S3328)) X4) ![broadcast S16 (Scalar.addi 2304#32 (Scf.iv 0#32 1#32 k))] (k0_idx20_inb _ (chkB_18 k)))
    (bcast_val d L X4 _ _ (bidx_18 k) (by have := Nat.lt_of_lt_of_le k.isLt k0_t20_abs.2.1; omega) _)
    _ _ _ _ _ _ _ _ (k0_off167_eq k) (k0_off168_eq k) (k0_off169_eq k) (k0_off170_eq k) (k0_off171_eq k) (k0_off172_eq k) (k0_off173_eq k) (k0_off174_eq k)
    _ _ _ _ _ _ _ _

theorem chkB_19 : ∀ k : Fin k0_t21_loop.trips, k0_chk21 (broadcast S16 (Scalar.addi 2432#32 (Scf.iv 0#32 1#32 k))) := by decide +kernel
theorem bidx_19 : ∀ k : Fin k0_t21_loop.trips, (Scalar.addi 2432#32 (Scf.iv 0#32 1#32 k)).toNat = 2432 + k.val := by decide +kernel

/-- The invariant of the scaling loop of chunk 19: the feature values, and row buffer 3 with its first `k` rows scaled. -/
def invR_19 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 19 G X4 k f⌝)

set_option maxHeartbeats 4000000 in
theorem trip_r_19 (G : Buf (Elt F) (sloc d L cc0_scratch8)) (X4 : Buf (Elt F) (sloc d L cc0_scratch4)) (k : Fin k0_t21_loop.trips) :
    invR_19 d L G X4 k.val PUnit.unit ⊢ wp frame (wpE (defs₀ (F := F)) 𝒱₀ (V d (cV L) (jV L)) none) Set.univ
      (k0_t21_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_19 d L G X4 (k.val + 1) a) := by
  unfold invR_19 k0_t21_body
  iintro ⟨Hs4, %f, Hr, %hf⟩
  sl_exec (disch := exact chkB_19 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 19 k.val (Nat.lt_of_lt_of_le k.isLt k0_t21_abs.2.1) G X4 f hf
    (loadIdx (View.read (Elt F) ((s4V).access (Rect.whole S3328)) X4) ![broadcast S16 (Scalar.addi 2432#32 (Scf.iv 0#32 1#32 k))] (k0_idx21_inb _ (chkB_19 k)))
    (bcast_val d L X4 _ _ (bidx_19 k) (by have := Nat.lt_of_lt_of_le k.isLt k0_t21_abs.2.1; omega) _)
    _ _ _ _ _ _ _ _ (k0_off176_eq k) (k0_off177_eq k) (k0_off178_eq k) (k0_off179_eq k) (k0_off180_eq k) (k0_off181_eq k) (k0_off182_eq k) (k0_off183_eq k)
    _ _ _ _ _ _ _ _

theorem chkB_20 : ∀ k : Fin k0_t22_loop.trips, k0_chk22 (broadcast S16 (Scalar.addi 2560#32 (Scf.iv 0#32 1#32 k))) := by decide +kernel
theorem bidx_20 : ∀ k : Fin k0_t22_loop.trips, (Scalar.addi 2560#32 (Scf.iv 0#32 1#32 k)).toNat = 2560 + k.val := by decide +kernel

/-- The invariant of the scaling loop of chunk 20: the feature values, and row buffer 0 with its first `k` rows scaled. -/
def invR_20 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 20 G X4 k f⌝)

set_option maxHeartbeats 4000000 in
theorem trip_r_20 (G : Buf (Elt F) (sloc d L cc0_scratch5)) (X4 : Buf (Elt F) (sloc d L cc0_scratch4)) (k : Fin k0_t22_loop.trips) :
    invR_20 d L G X4 k.val PUnit.unit ⊢ wp frame (wpE (defs₀ (F := F)) 𝒱₀ (V d (cV L) (jV L)) none) Set.univ
      (k0_t22_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_20 d L G X4 (k.val + 1) a) := by
  unfold invR_20 k0_t22_body
  iintro ⟨Hs4, %f, Hr, %hf⟩
  sl_exec (disch := exact chkB_20 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 20 k.val (Nat.lt_of_lt_of_le k.isLt k0_t22_abs.2.1) G X4 f hf
    (loadIdx (View.read (Elt F) ((s4V).access (Rect.whole S3328)) X4) ![broadcast S16 (Scalar.addi 2560#32 (Scf.iv 0#32 1#32 k))] (k0_idx22_inb _ (chkB_20 k)))
    (bcast_val d L X4 _ _ (bidx_20 k) (by have := Nat.lt_of_lt_of_le k.isLt k0_t22_abs.2.1; omega) _)
    _ _ _ _ _ _ _ _ (k0_off185_eq k) (k0_off186_eq k) (k0_off187_eq k) (k0_off188_eq k) (k0_off189_eq k) (k0_off190_eq k) (k0_off191_eq k) (k0_off192_eq k)
    _ _ _ _ _ _ _ _

theorem chkB_21 : ∀ k : Fin k0_t23_loop.trips, k0_chk23 (broadcast S16 (Scalar.addi 2688#32 (Scf.iv 0#32 1#32 k))) := by decide +kernel
theorem bidx_21 : ∀ k : Fin k0_t23_loop.trips, (Scalar.addi 2688#32 (Scf.iv 0#32 1#32 k)).toNat = 2688 + k.val := by decide +kernel

/-- The invariant of the scaling loop of chunk 21: the feature values, and row buffer 1 with its first `k` rows scaled. -/
def invR_21 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 21 G X4 k f⌝)

set_option maxHeartbeats 4000000 in
theorem trip_r_21 (G : Buf (Elt F) (sloc d L cc0_scratch6)) (X4 : Buf (Elt F) (sloc d L cc0_scratch4)) (k : Fin k0_t23_loop.trips) :
    invR_21 d L G X4 k.val PUnit.unit ⊢ wp frame (wpE (defs₀ (F := F)) 𝒱₀ (V d (cV L) (jV L)) none) Set.univ
      (k0_t23_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_21 d L G X4 (k.val + 1) a) := by
  unfold invR_21 k0_t23_body
  iintro ⟨Hs4, %f, Hr, %hf⟩
  sl_exec (disch := exact chkB_21 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 21 k.val (Nat.lt_of_lt_of_le k.isLt k0_t23_abs.2.1) G X4 f hf
    (loadIdx (View.read (Elt F) ((s4V).access (Rect.whole S3328)) X4) ![broadcast S16 (Scalar.addi 2688#32 (Scf.iv 0#32 1#32 k))] (k0_idx23_inb _ (chkB_21 k)))
    (bcast_val d L X4 _ _ (bidx_21 k) (by have := Nat.lt_of_lt_of_le k.isLt k0_t23_abs.2.1; omega) _)
    _ _ _ _ _ _ _ _ (k0_off194_eq k) (k0_off195_eq k) (k0_off196_eq k) (k0_off197_eq k) (k0_off198_eq k) (k0_off199_eq k) (k0_off200_eq k) (k0_off201_eq k)
    _ _ _ _ _ _ _ _

theorem chkB_22 : ∀ k : Fin k0_t24_loop.trips, k0_chk24 (broadcast S16 (Scalar.addi 2816#32 (Scf.iv 0#32 1#32 k))) := by decide +kernel
theorem bidx_22 : ∀ k : Fin k0_t24_loop.trips, (Scalar.addi 2816#32 (Scf.iv 0#32 1#32 k)).toNat = 2816 + k.val := by decide +kernel

/-- The invariant of the scaling loop of chunk 22: the feature values, and row buffer 2 with its first `k` rows scaled. -/
def invR_22 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 22 G X4 k f⌝)

set_option maxHeartbeats 4000000 in
theorem trip_r_22 (G : Buf (Elt F) (sloc d L cc0_scratch7)) (X4 : Buf (Elt F) (sloc d L cc0_scratch4)) (k : Fin k0_t24_loop.trips) :
    invR_22 d L G X4 k.val PUnit.unit ⊢ wp frame (wpE (defs₀ (F := F)) 𝒱₀ (V d (cV L) (jV L)) none) Set.univ
      (k0_t24_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_22 d L G X4 (k.val + 1) a) := by
  unfold invR_22 k0_t24_body
  iintro ⟨Hs4, %f, Hr, %hf⟩
  sl_exec (disch := exact chkB_22 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 22 k.val (Nat.lt_of_lt_of_le k.isLt k0_t24_abs.2.1) G X4 f hf
    (loadIdx (View.read (Elt F) ((s4V).access (Rect.whole S3328)) X4) ![broadcast S16 (Scalar.addi 2816#32 (Scf.iv 0#32 1#32 k))] (k0_idx24_inb _ (chkB_22 k)))
    (bcast_val d L X4 _ _ (bidx_22 k) (by have := Nat.lt_of_lt_of_le k.isLt k0_t24_abs.2.1; omega) _)
    _ _ _ _ _ _ _ _ (k0_off203_eq k) (k0_off204_eq k) (k0_off205_eq k) (k0_off206_eq k) (k0_off207_eq k) (k0_off208_eq k) (k0_off209_eq k) (k0_off210_eq k)
    _ _ _ _ _ _ _ _

theorem chkB_23 : ∀ k : Fin k0_t25_loop.trips, k0_chk25 (broadcast S16 (Scalar.addi 2944#32 (Scf.iv 0#32 1#32 k))) := by decide +kernel
theorem bidx_23 : ∀ k : Fin k0_t25_loop.trips, (Scalar.addi 2944#32 (Scf.iv 0#32 1#32 k)).toNat = 2944 + k.val := by decide +kernel

/-- The invariant of the scaling loop of chunk 23: the feature values, and row buffer 3 with its first `k` rows scaled. -/
def invR_23 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 23 G X4 k f⌝)

set_option maxHeartbeats 4000000 in
theorem trip_r_23 (G : Buf (Elt F) (sloc d L cc0_scratch8)) (X4 : Buf (Elt F) (sloc d L cc0_scratch4)) (k : Fin k0_t25_loop.trips) :
    invR_23 d L G X4 k.val PUnit.unit ⊢ wp frame (wpE (defs₀ (F := F)) 𝒱₀ (V d (cV L) (jV L)) none) Set.univ
      (k0_t25_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_23 d L G X4 (k.val + 1) a) := by
  unfold invR_23 k0_t25_body
  iintro ⟨Hs4, %f, Hr, %hf⟩
  sl_exec (disch := exact chkB_23 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 23 k.val (Nat.lt_of_lt_of_le k.isLt k0_t25_abs.2.1) G X4 f hf
    (loadIdx (View.read (Elt F) ((s4V).access (Rect.whole S3328)) X4) ![broadcast S16 (Scalar.addi 2944#32 (Scf.iv 0#32 1#32 k))] (k0_idx25_inb _ (chkB_23 k)))
    (bcast_val d L X4 _ _ (bidx_23 k) (by have := Nat.lt_of_lt_of_le k.isLt k0_t25_abs.2.1; omega) _)
    _ _ _ _ _ _ _ _ (k0_off212_eq k) (k0_off213_eq k) (k0_off214_eq k) (k0_off215_eq k) (k0_off216_eq k) (k0_off217_eq k) (k0_off218_eq k) (k0_off219_eq k)
    _ _ _ _ _ _ _ _

theorem chkB_24 : ∀ k : Fin k0_t26_loop.trips, k0_chk26 (broadcast S16 (Scalar.addi 3072#32 (Scf.iv 0#32 1#32 k))) := by decide +kernel
theorem bidx_24 : ∀ k : Fin k0_t26_loop.trips, (Scalar.addi 3072#32 (Scf.iv 0#32 1#32 k)).toNat = 3072 + k.val := by decide +kernel

/-- The invariant of the scaling loop of chunk 24: the feature values, and row buffer 0 with its first `k` rows scaled. -/
def invR_24 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 24 G X4 k f⌝)

set_option maxHeartbeats 4000000 in
theorem trip_r_24 (G : Buf (Elt F) (sloc d L cc0_scratch5)) (X4 : Buf (Elt F) (sloc d L cc0_scratch4)) (k : Fin k0_t26_loop.trips) :
    invR_24 d L G X4 k.val PUnit.unit ⊢ wp frame (wpE (defs₀ (F := F)) 𝒱₀ (V d (cV L) (jV L)) none) Set.univ
      (k0_t26_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_24 d L G X4 (k.val + 1) a) := by
  unfold invR_24 k0_t26_body
  iintro ⟨Hs4, %f, Hr, %hf⟩
  sl_exec (disch := exact chkB_24 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 24 k.val (Nat.lt_of_lt_of_le k.isLt k0_t26_abs.2.1) G X4 f hf
    (loadIdx (View.read (Elt F) ((s4V).access (Rect.whole S3328)) X4) ![broadcast S16 (Scalar.addi 3072#32 (Scf.iv 0#32 1#32 k))] (k0_idx26_inb _ (chkB_24 k)))
    (bcast_val d L X4 _ _ (bidx_24 k) (by have := Nat.lt_of_lt_of_le k.isLt k0_t26_abs.2.1; omega) _)
    _ _ _ _ _ _ _ _ (k0_off221_eq k) (k0_off222_eq k) (k0_off223_eq k) (k0_off224_eq k) (k0_off225_eq k) (k0_off226_eq k) (k0_off227_eq k) (k0_off228_eq k)
    _ _ _ _ _ _ _ _

theorem chkB_25 : ∀ k : Fin k0_t27_loop.trips, k0_chk27 (broadcast S16 (Scalar.addi 3200#32 (Scf.iv 0#32 1#32 k))) := by decide +kernel
theorem bidx_25 : ∀ k : Fin k0_t27_loop.trips, (Scalar.addi 3200#32 (Scf.iv 0#32 1#32 k)).toNat = 3200 + k.val := by decide +kernel

/-- The invariant of the scaling loop of chunk 25: the feature values, and row buffer 1 with its first `k` rows scaled. -/
def invR_25 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 25 G X4 k f⌝)

set_option maxHeartbeats 4000000 in
theorem trip_r_25 (G : Buf (Elt F) (sloc d L cc0_scratch6)) (X4 : Buf (Elt F) (sloc d L cc0_scratch4)) (k : Fin k0_t27_loop.trips) :
    invR_25 d L G X4 k.val PUnit.unit ⊢ wp frame (wpE (defs₀ (F := F)) 𝒱₀ (V d (cV L) (jV L)) none) Set.univ
      (k0_t27_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_25 d L G X4 (k.val + 1) a) := by
  unfold invR_25 k0_t27_body
  iintro ⟨Hs4, %f, Hr, %hf⟩
  sl_exec (disch := exact chkB_25 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 25 k.val (Nat.lt_of_lt_of_le k.isLt k0_t27_abs.2.1) G X4 f hf
    (loadIdx (View.read (Elt F) ((s4V).access (Rect.whole S3328)) X4) ![broadcast S16 (Scalar.addi 3200#32 (Scf.iv 0#32 1#32 k))] (k0_idx27_inb _ (chkB_25 k)))
    (bcast_val d L X4 _ _ (bidx_25 k) (by have := Nat.lt_of_lt_of_le k.isLt k0_t27_abs.2.1; omega) _)
    _ _ _ _ _ _ _ _ (k0_off230_eq k) (k0_off231_eq k) (k0_off232_eq k) (k0_off233_eq k) (k0_off234_eq k) (k0_off235_eq k) (k0_off236_eq k) (k0_off237_eq k)
    _ _ _ _ _ _ _ _

end Cert.Proof.ScLoops
-- ==== Proof.ScSplitIdx.lean ====
/-
  The index scratch of 3328 words is the disjoint union of its 26 chunks of 128 consecutive words: holding the whole
  scratch at some contents is holding the 26 chunks, each at the same contents.
-/
import proofs.«207592_g65111704207794_cont_9to1_m_407_36_alg».proof.Proof.ScViews

noncomputable section

namespace Cert.Proof.ScSplit

open Cert.KernelIdeal Cert.KernelIdeal.Gen
open Cert.Proof.ScSpec Cert.Proof.ScViews
open Cert.Proof.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The index scratch in 26 chunks of 128 -/

/-- Words n … n + 127 of the index scratch. -/
abbrev idxChunk (n : ℕ) (h : n + 128 ≤ 3328) : Memref sig .scVector .vmem S128 .i32 :=
  (s0V).slice (Rect.unit (s := S3328) ![n] S128.size (Rect.inb₁ h)) (fun _ => rfl)

theorem chunk_le (c : Fin 26) : 128 * c.val + 128 ≤ 3328 := by
  have := c.isLt
  omega

theorem idxChunk_set (n : ℕ) (h : n + 128 ≤ 3328) :
    ((idxChunk n h).view.set : Finset S3328.Idx) = (Rect.unit (s := S3328) ![n] S128.size (Rect.inb₁ h)).set :=
  View.set_slice_whole _ _

theorem idxChunk_disjoint (n n' : ℕ) (h : n + 128 ≤ 3328) (h' : n' + 128 ≤ 3328) (hs : n + 128 ≤ n' ∨ n' + 128 ≤ n) :
    Disjoint ((idxChunk n h).view.set : Finset S3328.Idx) (idxChunk n' h').view.set := by
  rw [idxChunk_set, idxChunk_set]
  exact Rect.unit_disjoint (0 : Fin 1) hs

theorem mem_idxChunk (i : S3328.Idx) (n : ℕ) (h : n + 128 ≤ 3328) (h1 : n ≤ (i 0).val) (h2 : (i 0).val < n + 128) :
    i ∈ ((idxChunk n h).view.set : Finset S3328.Idx) := by
  rw [idxChunk_set, Rect.mem_set_unit]
  exact Fin.forall_fin_one.mpr ⟨h1, h2⟩

set_option maxHeartbeats 2000000 in
/-- THE SCRATCH IN CHUNKS: the whole scratch at contents c0 is its 26 chunks at c0. -/
theorem s0_split (c0 : Buf (Elt F) (sloc d L cc0_scratch0)) :
    ((s0V).view.loc (V d (cV L) (jV L)) ↦{fullShare} c0 : sProp 𝕄)
      = iprop(((idxChunk 0 (Nat.le_of_ble_eq_true rfl)).view.loc (V d (cV L) (jV L)) ↦[(idxChunk 0 (Nat.le_of_ble_eq_true rfl)).view.set]{fullShare} c0)
          ∗ ((idxChunk 128 (Nat.le_of_ble_eq_true rfl)).view.loc (V d (cV L) (jV L)) ↦[(idxChunk 128 (Nat.le_of_ble_eq_true rfl)).view.set]{fullShare} c0)
          ∗ ((idxChunk 256 (Nat.le_of_ble_eq_true rfl)).view.loc (V d (cV L) (jV L)) ↦[(idxChunk 256 (Nat.le_of_ble_eq_true rfl)).view.set]{fullShare} c0)
          ∗ ((idxChunk 384 (Nat.le_of_ble_eq_true rfl)).view.loc (V d (cV L) (jV L)) ↦[(idxChunk 384 (Nat.le_of_ble_eq_true rfl)).view.set]{fullShare} c0)
          ∗ ((idxChunk 512 (Nat.le_of_ble_eq_true rfl)).view.loc (V d (cV L) (jV L)) ↦[(idxChunk 512 (Nat.le_of_ble_eq_true rfl)).view.set]{fullShare} c0)
          ∗ ((idxChunk 640 (Nat.le_of_ble_eq_true rfl)).view.loc (V d (cV L) (jV L)) ↦[(idxChunk 640 (Nat.le_of_ble_eq_true rfl)).view.set]{fullShare} c0)
          ∗ ((idxChunk 768 (Nat.le_of_ble_eq_true rfl)).view.loc (V d (cV L) (jV L)) ↦[(idxChunk 768 (Nat.le_of_ble_eq_true rfl)).view.set]{fullShare} c0)
          ∗ ((idxChunk 896 (Nat.le_of_ble_eq_true rfl)).view.loc (V d (cV L) (jV L)) ↦[(idxChunk 896 (Nat.le_of_ble_eq_true rfl)).view.set]{fullShare} c0)
          ∗ ((idxChunk 1024 (Nat.le_of_ble_eq_true rfl)).view.loc (V d (cV L) (jV L)) ↦[(idxChunk 1024 (Nat.le_of_ble_eq_true rfl)).view.set]{fullShare} c0)
          ∗ ((idxChunk 1152 (Nat.le_of_ble_eq_true rfl)).view.loc (V d (cV L) (jV L)) ↦[(idxChunk 1152 (Nat.le_of_ble_eq_true rfl)).view.set]{fullShare} c0)
          ∗ ((idxChunk 1280 (Nat.le_of_ble_eq_true rfl)).view.loc (V d (cV L) (jV L)) ↦[(idxChunk 1280 (Nat.le_of_ble_eq_true rfl)).view.set]{fullShare} c0)
          ∗ ((idxChunk 1408 (Nat.le_of_ble_eq_true rfl)).view.loc (V d (cV L) (jV L)) ↦[(idxChunk 1408 (Nat.le_of_ble_eq_true rfl)).view.set]{fullShare} c0)
          ∗ ((idxChunk 1536 (Nat.le_of_ble_eq_true rfl)).view.loc (V d (cV L) (jV L)) ↦[(idxChunk 1536 (Nat.le_of_ble_eq_true rfl)).view.set]{fullShare} c0)
          ∗ ((idxChunk 1664 (Nat.le_of_ble_eq_true rfl)).view.loc (V d (cV L) (jV L)) ↦[(idxChunk 1664 (Nat.le_of_ble_eq_true rfl)).view.set]{fullShare} c0)
          ∗ ((idxChunk 1792 (Nat.le_of_ble_eq_true rfl)).view.loc (V d (cV L) (jV L)) ↦[(idxChunk 1792 (Nat.le_of_ble_eq_true rfl)).view.set]{fullShare} c0)
          ∗ ((idxChunk 1920 (Nat.le_of_ble_eq_true rfl)).view.loc (V d (cV L) (jV L)) ↦[(idxChunk 1920 (Nat.le_of_ble_eq_true rfl)).view.set]{fullShare} c0)
          ∗ ((idxChunk 2048 (Nat.le_of_ble_eq_true rfl)).view.loc (V d (cV L) (jV L)) ↦[(idxChunk 2048 (Nat.le_of_ble_eq_true rfl)).view.set]{fullShare} c0)
          ∗ ((idxChunk 2176 (Nat.le_of_ble_eq_true rfl)).view.loc (V d (cV L) (jV L)) ↦[(idxChunk 2176 (Nat.le_of_ble_eq_true rfl)).view.set]{fullShare} c0)
          ∗ ((idxChunk 2304 (Nat.le_of_ble_eq_true rfl)).view.loc (V d (cV L) (jV L)) ↦[(idxChunk 2304 (Nat.le_of_ble_eq_true rfl)).view.set]{fullShare} c0)
          ∗ ((idxChunk 2432 (Nat.le_of_ble_eq_true rfl)).view.loc (V d (cV L) (jV L)) ↦[(idxChunk 2432 (Nat.le_of_ble_eq_true rfl)).view.set]{fullShare} c0)
          ∗ ((idxChunk 2560 (Nat.le_of_ble_eq_true rfl)).view.loc (V d (cV L) (jV L)) ↦[(idxChunk 2560 (Nat.le_of_ble_eq_true rfl)).view.set]{fullShare} c0)
          ∗ ((idxChunk 2688 (Nat.le_of_ble_eq_true rfl)).view.loc (V d (cV L) (jV L)) ↦[(idxChunk 2688 (Nat.le_of_ble_eq_true rfl)).view.set]{fullShare} c0)
          ∗ ((idxChunk 2816 (Nat.le_of_ble_eq_true rfl)).view.loc (V d (cV L) (jV L)) ↦[(idxChunk 2816 (Nat.le_of_ble_eq_true rfl)).view.set]{fullShare} c0)
          ∗ ((idxChunk 2944 (Nat.le_of_ble_eq_true rfl)).view.loc (V d (cV L) (jV L)) ↦[(idxChunk 2944 (Nat.le_of_ble_eq_true rfl)).view.set]{fullShare} c0)
          ∗ ((idxChunk 3072 (Nat.le_of_ble_eq_true rfl)).view.loc (V d (cV L) (jV L)) ↦[(idxChunk 3072 (Nat.le_of_ble_eq_true rfl)).view.set]{fullShare} c0)
          ∗ ((idxChunk 3200 (Nat.le_of_ble_eq_true rfl)).view.loc (V d (cV L) (jV L)) ↦[(idxChunk 3200 (Nat.le_of_ble_eq_true rfl)).view.set]{fullShare} c0)) := by
  have hsplit := pointsTo_biUnion (Ix := HIx 1) (Name := ℕ) (U := UU) (Lvl := ℕ) (ℓ := sloc d L cc0_scratch0)
    (q := fullShare) (f := c0) (Finset.univ : Finset (Fin 26))
    (fun c => (idxChunk (128 * c.val) (chunk_le c)).view.set)
    (fun t _ t' _ hne => idxChunk_disjoint _ _ _ _ (by
      have h1 := t.isLt
      have h2 := t'.isLt
      have h3 : t.val ≠ t'.val := fun e => hne (Fin.ext e)
      omega))
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [BI.bigSep_univ_of_subsingleton (0 : Fin 1)] at hsplit
  refine Eq.trans (congrArg (fun I => (sloc d L cc0_scratch0 ↦[I]{fullShare} c0 : sProp 𝕄))
    (?_ : (Finset.univ : Finset (Idx (sloc d L cc0_scratch0))) = _)) hsplit
  ext i
  have hi : (i 0).val < 3328 := (i 0).isLt
  refine ⟨fun _ => Finset.mem_biUnion.mpr ⟨⟨(i 0).val / 128, by omega⟩, Finset.mem_univ _, ?_⟩, fun _ => Finset.mem_univ _⟩
  exact mem_idxChunk i (128 * ((i 0).val / 128)) (by omega) (by omega) (by omega)

end Cert.Proof.ScSplit

end
-- ==== Proof.ScSplitRows.lean ====
/-
  The 128 rows of the second-order result that one task writes are the disjoint union of 26 blocks of 128 columns:
  holding the rows at some contents is holding the 26 blocks, each at the same contents; and 26 blocks held at
  contents that agree, block by block, with one function are the rows held at that function.
-/
import proofs.«207592_g65111704207794_cont_9to1_m_407_36_alg».proof.Proof.ScViews

noncomputable section

namespace Cert.Proof.ScSplit

open Cert.KernelIdeal Cert.KernelIdeal.Gen
open Cert.Proof.ScSpec Cert.Proof.ScViews
open Cert.Proof.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## A product over 26 indices, written out -/

theorem univ26 : (Finset.univ : Finset (Fin 26)) = {0, 1, 2, 3, 4, 5, 6, 7, 8, 9, 10, 11, 12, 13, 14, 15, 16, 17, 18, 19, 20, 21, 22, 23, 24, 25} := by decide

theorem bigSep_fin26 (Φ : Fin 26 → sProp 𝕄) :
    bigSep (Finset.univ : Finset (Fin 26)) Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) := by
  rw [univ26]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [bigSep_singleton]

/-! ## The task's rows of the second-order result in 26 blocks of 128 columns -/

abbrev e2Blk0 (L : grid0.Coords) : Memref sig .scVector .hbm S128x128 .f32 :=
  (e2V).slice (Rect.unit (s := S4096x3328) (k0_off13 L) S128x128.size (k0_off13_inb L)) (fun _ => rfl)
abbrev e2Blk1 (L : grid0.Coords) : Memref sig .scVector .hbm S128x128 .f32 :=
  (e2V).slice (Rect.unit (s := S4096x3328) (k0_off22 L) S128x128.size (k0_off22_inb L)) (fun _ => rfl)
abbrev e2Blk2 (L : grid0.Coords) : Memref sig .scVector .hbm S128x128 .f32 :=
  (e2V).slice (Rect.unit (s := S4096x3328) (k0_off31 L) S128x128.size (k0_off31_inb L)) (fun _ => rfl)
abbrev e2Blk3 (L : grid0.Coords) : Memref sig .scVector .hbm S128x128 .f32 :=
  (e2V).slice (Rect.unit (s := S4096x3328) (k0_off40 L) S128x128.size (k0_off40_inb L)) (fun _ => rfl)
abbrev e2Blk4 (L : grid0.Coords) : Memref sig .scVector .hbm S128x128 .f32 :=
  (e2V).slice (Rect.unit (s := S4096x3328) (k0_off49 L) S128x128.size (k0_off49_inb L)) (fun _ => rfl)
abbrev e2Blk5 (L : grid0.Coords) : Memref sig .scVector .hbm S128x128 .f32 :=
  (e2V).slice (Rect.unit (s := S4096x3328) (k0_off58 L) S128x128.size (k0_off58_inb L)) (fun _ => rfl)
abbrev e2Blk6 (L : grid0.Coords) : Memref sig .scVector .hbm S128x128 .f32 :=
  (e2V).slice (Rect.unit (s := S4096x3328) (k0_off67 L) S128x128.size (k0_off67_inb L)) (fun _ => rfl)
abbrev e2Blk7 (L : grid0.Coords) : Memref sig .scVector .hbm S128x128 .f32 :=
  (e2V).slice (Rect.unit (s := S4096x3328) (k0_off76 L) S128x128.size (k0_off76_inb L)) (fun _ => rfl)
abbrev e2Blk8 (L : grid0.Coords) : Memref sig .scVector .hbm S128x128 .f32 :=
  (e2V).slice (Rect.unit (s := S4096x3328) (k0_off85 L) S128x128.size (k0_off85_inb L)) (fun _ => rfl)
abbrev e2Blk9 (L : grid0.Coords) : Memref sig .scVector .hbm S128x128 .f32 :=
  (e2V).slice (Rect.unit (s := S4096x3328) (k0_off94 L) S128x128.size (k0_off94_inb L)) (fun _ => rfl)
abbrev e2Blk10 (L : grid0.Coords) : Memref sig .scVector .hbm S128x128 .f32 :=
  (e2V).slice (Rect.unit (s := S4096x3328) (k0_off103 L) S128x128.size (k0_off103_inb L)) (fun _ => rfl)
abbrev e2Blk11 (L : grid0.Coords) : Memref sig .scVector .hbm S128x128 .f32 :=
  (e2V).slice (Rect.unit (s := S4096x3328) (k0_off112 L) S128x128.size (k0_off112_inb L)) (fun _ => rfl)
abbrev e2Blk12 (L : grid0.Coords) : Memref sig .scVector .hbm S128x128 .f32 :=
  (e2V).slice (Rect.unit (s := S4096x3328) (k0_off121 L) S128x128.size (k0_off121_inb L)) (fun _ => rfl)
abbrev e2Blk13 (L : grid0.Coords) : Memref sig .scVector .hbm S128x128 .f32 :=
  (e2V).slice (Rect.unit (s := S4096x3328) (k0_off130 L) S128x128.size (k0_off130_inb L)) (fun _ => rfl)
abbrev e2Blk14 (L : grid0.Coords) : Memref sig .scVector .hbm S128x128 .f32 :=
  (e2V).slice (Rect.unit (s := S4096x3328) (k0_off139 L) S128x128.size (k0_off139_inb L)) (fun _ => rfl)
abbrev e2Blk15 (L : grid0.Coords) : Memref sig .scVector .hbm S128x128 .f32 :=
  (e2V).slice (Rect.unit (s := S4096x3328) (k0_off148 L) S128x128.size (k0_off148_inb L)) (fun _ => rfl)
abbrev e2Blk16 (L : grid0.Coords) : Memref sig .scVector .hbm S128x128 .f32 :=
  (e2V).slice (Rect.unit (s := S4096x3328) (k0_off157 L) S128x128.size (k0_off157_inb L)) (fun _ => rfl)
abbrev e2Blk17 (L : grid0.Coords) : Memref sig .scVector .hbm S128x128 .f32 :=
  (e2V).slice (Rect.unit (s := S4096x3328) (k0_off166 L) S128x128.size (k0_off166_inb L)) (fun _ => rfl)
abbrev e2Blk18 (L : grid0.Coords) : Memref sig .scVector .hbm S128x128 .f32 :=
  (e2V).slice (Rect.unit (s := S4096x3328) (k0_off175 L) S128x128.size (k0_off175_inb L)) (fun _ => rfl)
abbrev e2Blk19 (L : grid0.Coords) : Memref sig .scVector .hbm S128x128 .f32 :=
  (e2V).slice (Rect.unit (s := S4096x3328) (k0_off184 L) S128x128.size (k0_off184_inb L)) (fun _ => rfl)
abbrev e2Blk20 (L : grid0.Coords) : Memref sig .scVector .hbm S128x128 .f32 :=
  (e2V).slice (Rect.unit (s := S4096x3328) (k0_off193 L) S128x128.size (k0_off193_inb L)) (fun _ => rfl)
abbrev e2Blk21 (L : grid0.Coords) : Memref sig .scVector .hbm S128x128 .f32 :=
  (e2V).slice (Rect.unit (s := S4096x3328) (k0_off202 L) S128x128.size (k0_off202_inb L)) (fun _ => rfl)
abbrev e2Blk22 (L : grid0.Coords) : Memref sig .scVector .hbm S128x128 .f32 :=
  (e2V).slice (Rect.unit (s := S4096x3328) (k0_off211 L) S128x128.size (k0_off211_inb L)) (fun _ => rfl)
abbrev e2Blk23 (L : grid0.Coords) : Memref sig .scVector .hbm S128x128 .f32 :=
  (e2V).slice (Rect.unit (s := S4096x3328) (k0_off220 L) S128x128.size (k0_off220_inb L)) (fun _ => rfl)
abbrev e2Blk24 (L : grid0.Coords) : Memref sig .scVector .hbm S128x128 .f32 :=
  (e2V).slice (Rect.unit (s := S4096x3328) (k0_off229 L) S128x128.size (k0_off229_inb L)) (fun _ => rfl)
abbrev e2Blk25 (L : grid0.Coords) : Memref sig .scVector .hbm S128x128 .f32 :=
  (e2V).slice (Rect.unit (s := S4096x3328) (k0_off238 L) S128x128.size (k0_off238_inb L)) (fun _ => rfl)

theorem col_inb (L : grid0.Coords) (c : Fin 26) :
    ∀ a, (![e2Row0 L, 128 * c.val] : Fin 2 → ℕ) a + (![128, 128] : Fin 2 → ℕ) a ≤ S4096x3328.size a := by
  have h1 : (L 1).val < 16 := (L 1).isLt
  have h0 : (L 0).val < 2 := (L 0).isLt
  have hc := c.isLt
  refine Rect.inb₂ ?_ ?_
  · show 256 * (L 1).val + 128 * (L 0).val + 128 ≤ 4096; omega
  · show 128 * c.val + 128 ≤ 3328; omega

/-- Columns 128 c … 128 c + 127 of the task's 128 rows. -/
def colBlock (L : grid0.Coords) (c : Fin 26) : Finset S4096x3328.Idx :=
  (Rect.unit (s := S4096x3328) ![e2Row0 L, 128 * c.val] ![128, 128] (col_inb L c)).set

theorem blk_set (L : grid0.Coords) (c : Fin 26) (off : Fin 2 → ℕ)
    (inb : ∀ a, off a + S128x128.size a ≤ S4096x3328.size a) (h : off = ![e2Row0 L, 128 * c.val]) :
    ((((e2V).slice (Rect.unit (s := S4096x3328) off S128x128.size inb) (fun _ => rfl)).view.set : Finset S4096x3328.Idx))
      = colBlock L c := by
  subst h
  exact View.set_slice_whole _ _

theorem e2Blk0_set (L : grid0.Coords) : ((e2Blk0 L).view.set : Finset S4096x3328.Idx) = colBlock L 0 :=
  blk_set L 0 _ _ (k0_off13_eq L)
theorem e2Blk1_set (L : grid0.Coords) : ((e2Blk1 L).view.set : Finset S4096x3328.Idx) = colBlock L 1 :=
  blk_set L 1 _ _ (k0_off22_eq L)
theorem e2Blk2_set (L : grid0.Coords) : ((e2Blk2 L).view.set : Finset S4096x3328.Idx) = colBlock L 2 :=
  blk_set L 2 _ _ (k0_off31_eq L)
theorem e2Blk3_set (L : grid0.Coords) : ((e2Blk3 L).view.set : Finset S4096x3328.Idx) = colBlock L 3 :=
  blk_set L 3 _ _ (k0_off40_eq L)
theorem e2Blk4_set (L : grid0.Coords) : ((e2Blk4 L).view.set : Finset S4096x3328.Idx) = colBlock L 4 :=
  blk_set L 4 _ _ (k0_off49_eq L)
theorem e2Blk5_set (L : grid0.Coords) : ((e2Blk5 L).view.set : Finset S4096x3328.Idx) = colBlock L 5 :=
  blk_set L 5 _ _ (k0_off58_eq L)
theorem e2Blk6_set (L : grid0.Coords) : ((e2Blk6 L).view.set : Finset S4096x3328.Idx) = colBlock L 6 :=
  blk_set L 6 _ _ (k0_off67_eq L)
theorem e2Blk7_set (L : grid0.Coords) : ((e2Blk7 L).view.set : Finset S4096x3328.Idx) = colBlock L 7 :=
  blk_set L 7 _ _ (k0_off76_eq L)
theorem e2Blk8_set (L : grid0.Coords) : ((e2Blk8 L).view.set : Finset S4096x3328.Idx) = colBlock L 8 :=
  blk_set L 8 _ _ (k0_off85_eq L)
theorem e2Blk9_set (L : grid0.Coords) : ((e2Blk9 L).view.set : Finset S4096x3328.Idx) = colBlock L 9 :=
  blk_set L 9 _ _ (k0_off94_eq L)
theorem e2Blk10_set (L : grid0.Coords) : ((e2Blk10 L).view.set : Finset S4096x3328.Idx) = colBlock L 10 :=
  blk_set L 10 _ _ (k0_off103_eq L)
theorem e2Blk11_set (L : grid0.Coords) : ((e2Blk11 L).view.set : Finset S4096x3328.Idx) = colBlock L 11 :=
  blk_set L 11 _ _ (k0_off112_eq L)
theorem e2Blk12_set (L : grid0.Coords) : ((e2Blk12 L).view.set : Finset S4096x3328.Idx) = colBlock L 12 :=
  blk_set L 12 _ _ (k0_off121_eq L)
theorem e2Blk13_set (L : grid0.Coords) : ((e2Blk13 L).view.set : Finset S4096x3328.Idx) = colBlock L 13 :=
  blk_set L 13 _ _ (k0_off130_eq L)
theorem e2Blk14_set (L : grid0.Coords) : ((e2Blk14 L).view.set : Finset S4096x3328.Idx) = colBlock L 14 :=
  blk_set L 14 _ _ (k0_off139_eq L)
theorem e2Blk15_set (L : grid0.Coords) : ((e2Blk15 L).view.set : Finset S4096x3328.Idx) = colBlock L 15 :=
  blk_set L 15 _ _ (k0_off148_eq L)
theorem e2Blk16_set (L : grid0.Coords) : ((e2Blk16 L).view.set : Finset S4096x3328.Idx) = colBlock L 16 :=
  blk_set L 16 _ _ (k0_off157_eq L)
theorem e2Blk17_set (L : grid0.Coords) : ((e2Blk17 L).view.set : Finset S4096x3328.Idx) = colBlock L 17 :=
  blk_set L 17 _ _ (k0_off166_eq L)
theorem e2Blk18_set (L : grid0.Coords) : ((e2Blk18 L).view.set : Finset S4096x3328.Idx) = colBlock L 18 :=
  blk_set L 18 _ _ (k0_off175_eq L)
theorem e2Blk19_set (L : grid0.Coords) : ((e2Blk19 L).view.set : Finset S4096x3328.Idx) = colBlock L 19 :=
  blk_set L 19 _ _ (k0_off184_eq L)
theorem e2Blk20_set (L : grid0.Coords) : ((e2Blk20 L).view.set : Finset S4096x3328.Idx) = colBlock L 20 :=
  blk_set L 20 _ _ (k0_off193_eq L)
theorem e2Blk21_set (L : grid0.Coords) : ((e2Blk21 L).view.set : Finset S4096x3328.Idx) = colBlock L 21 :=
  blk_set L 21 _ _ (k0_off202_eq L)
theorem e2Blk22_set (L : grid0.Coords) : ((e2Blk22 L).view.set : Finset S4096x3328.Idx) = colBlock L 22 :=
  blk_set L 22 _ _ (k0_off211_eq L)
theorem e2Blk23_set (L : grid0.Coords) : ((e2Blk23 L).view.set : Finset S4096x3328.Idx) = colBlock L 23 :=
  blk_set L 23 _ _ (k0_off220_eq L)
theorem e2Blk24_set (L : grid0.Coords) : ((e2Blk24 L).view.set : Finset S4096x3328.Idx) = colBlock L 24 :=
  blk_set L 24 _ _ (k0_off229_eq L)
theorem e2Blk25_set (L : grid0.Coords) : ((e2Blk25 L).view.set : Finset S4096x3328.Idx) = colBlock L 25 :=
  blk_set L 25 _ _ (k0_off238_eq L)

theorem blk_pts0 (f : Buf (Elt F) (e2Loc d)) :
    (((e2Blk0 L).view.loc (V d (cV L) (jV L)) ↦[(e2Blk0 L).view.set]{fullShare} f) : sProp 𝕄) = (e2Loc d ↦[colBlock L 0]{fullShare} f) := by
  rw [e2Blk0_set]
theorem blk_pts1 (f : Buf (Elt F) (e2Loc d)) :
    (((e2Blk1 L).view.loc (V d (cV L) (jV L)) ↦[(e2Blk1 L).view.set]{fullShare} f) : sProp 𝕄) = (e2Loc d ↦[colBlock L 1]{fullShare} f) := by
  rw [e2Blk1_set]
theorem blk_pts2 (f : Buf (Elt F) (e2Loc d)) :
    (((e2Blk2 L).view.loc (V d (cV L) (jV L)) ↦[(e2Blk2 L).view.set]{fullShare} f) : sProp 𝕄) = (e2Loc d ↦[colBlock L 2]{fullShare} f) := by
  rw [e2Blk2_set]
theorem blk_pts3 (f : Buf (Elt F) (e2Loc d)) :
    (((e2Blk3 L).view.loc (V d (cV L) (jV L)) ↦[(e2Blk3 L).view.set]{fullShare} f) : sProp 𝕄) = (e2Loc d ↦[colBlock L 3]{fullShare} f) := by
  rw [e2Blk3_set]
theorem blk_pts4 (f : Buf (Elt F) (e2Loc d)) :
    (((e2Blk4 L).view.loc (V d (cV L) (jV L)) ↦[(e2Blk4 L).view.set]{fullShare} f) : sProp 𝕄) = (e2Loc d ↦[colBlock L 4]{fullShare} f) := by
  rw [e2Blk4_set]
theorem blk_pts5 (f : Buf (Elt F) (e2Loc d)) :
    (((e2Blk5 L).view.loc (V d (cV L) (jV L)) ↦[(e2Blk5 L).view.set]{fullShare} f) : sProp 𝕄) = (e2Loc d ↦[colBlock L 5]{fullShare} f) := by
  rw [e2Blk5_set]
theorem blk_pts6 (f : Buf (Elt F) (e2Loc d)) :
    (((e2Blk6 L).view.loc (V d (cV L) (jV L)) ↦[(e2Blk6 L).view.set]{fullShare} f) : sProp 𝕄) = (e2Loc d ↦[colBlock L 6]{fullShare} f) := by
  rw [e2Blk6_set]
theorem blk_pts7 (f : Buf (Elt F) (e2Loc d)) :
    (((e2Blk7 L).view.loc (V d (cV L) (jV L)) ↦[(e2Blk7 L).view.set]{fullShare} f) : sProp 𝕄) = (e2Loc d ↦[colBlock L 7]{fullShare} f) := by
  rw [e2Blk7_set]
theorem blk_pts8 (f : Buf (Elt F) (e2Loc d)) :
    (((e2Blk8 L).view.loc (V d (cV L) (jV L)) ↦[(e2Blk8 L).view.set]{fullShare} f) : sProp 𝕄) = (e2Loc d ↦[colBlock L 8]{fullShare} f) := by
  rw [e2Blk8_set]
theorem blk_pts9 (f : Buf (Elt F) (e2Loc d)) :
    (((e2Blk9 L).view.loc (V d (cV L) (jV L)) ↦[(e2Blk9 L).view.set]{fullShare} f) : sProp 𝕄) = (e2Loc d ↦[colBlock L 9]{fullShare} f) := by
  rw [e2Blk9_set]
theorem blk_pts10 (f : Buf (Elt F) (e2Loc d)) :
    (((e2Blk10 L).view.loc (V d (cV L) (jV L)) ↦[(e2Blk10 L).view.set]{fullShare} f) : sProp 𝕄) = (e2Loc d ↦[colBlock L 10]{fullShare} f) := by
  rw [e2Blk10_set]
theorem blk_pts11 (f : Buf (Elt F) (e2Loc d)) :
    (((e2Blk11 L).view.loc (V d (cV L) (jV L)) ↦[(e2Blk11 L).view.set]{fullShare} f) : sProp 𝕄) = (e2Loc d ↦[colBlock L 11]{fullShare} f) := by
  rw [e2Blk11_set]
theorem blk_pts12 (f : Buf (Elt F) (e2Loc d)) :
    (((e2Blk12 L).view.loc (V d (cV L) (jV L)) ↦[(e2Blk12 L).view.set]{fullShare} f) : sProp 𝕄) = (e2Loc d ↦[colBlock L 12]{fullShare} f) := by
  rw [e2Blk12_set]
theorem blk_pts13 (f : Buf (Elt F) (e2Loc d)) :
    (((e2Blk13 L).view.loc (V d (cV L) (jV L)) ↦[(e2Blk13 L).view.set]{fullShare} f) : sProp 𝕄) = (e2Loc d ↦[colBlock L 13]{fullShare} f) := by
  rw [e2Blk13_set]
theorem blk_pts14 (f : Buf (Elt F) (e2Loc d)) :
    (((e2Blk14 L).view.loc (V d (cV L) (jV L)) ↦[(e2Blk14 L).view.set]{fullShare} f) : sProp 𝕄) = (e2Loc d ↦[colBlock L 14]{fullShare} f) := by
  rw [e2Blk14_set]
theorem blk_pts15 (f : Buf (Elt F) (e2Loc d)) :
    (((e2Blk15 L).view.loc (V d (cV L) (jV L)) ↦[(e2Blk15 L).view.set]{fullShare} f) : sProp 𝕄) = (e2Loc d ↦[colBlock L 15]{fullShare} f) := by
  rw [e2Blk15_set]
theorem blk_pts16 (f : Buf (Elt F) (e2Loc d)) :
    (((e2Blk16 L).view.loc (V d (cV L) (jV L)) ↦[(e2Blk16 L).view.set]{fullShare} f) : sProp 𝕄) = (e2Loc d ↦[colBlock L 16]{fullShare} f) := by
  rw [e2Blk16_set]
theorem blk_pts17 (f : Buf (Elt F) (e2Loc d)) :
    (((e2Blk17 L).view.loc (V d (cV L) (jV L)) ↦[(e2Blk17 L).view.set]{fullShare} f) : sProp 𝕄) = (e2Loc d ↦[colBlock L 17]{fullShare} f) := by
  rw [e2Blk17_set]
theorem blk_pts18 (f : Buf (Elt F) (e2Loc d)) :
    (((e2Blk18 L).view.loc (V d (cV L) (jV L)) ↦[(e2Blk18 L).view.set]{fullShare} f) : sProp 𝕄) = (e2Loc d ↦[colBlock L 18]{fullShare} f) := by
  rw [e2Blk18_set]
theorem blk_pts19 (f : Buf (Elt F) (e2Loc d)) :
    (((e2Blk19 L).view.loc (V d (cV L) (jV L)) ↦[(e2Blk19 L).view.set]{fullShare} f) : sProp 𝕄) = (e2Loc d ↦[colBlock L 19]{fullShare} f) := by
  rw [e2Blk19_set]
theorem blk_pts20 (f : Buf (Elt F) (e2Loc d)) :
    (((e2Blk20 L).view.loc (V d (cV L) (jV L)) ↦[(e2Blk20 L).view.set]{fullShare} f) : sProp 𝕄) = (e2Loc d ↦[colBlock L 20]{fullShare} f) := by
  rw [e2Blk20_set]
theorem blk_pts21 (f : Buf (Elt F) (e2Loc d)) :
    (((e2Blk21 L).view.loc (V d (cV L) (jV L)) ↦[(e2Blk21 L).view.set]{fullShare} f) : sProp 𝕄) = (e2Loc d ↦[colBlock L 21]{fullShare} f) := by
  rw [e2Blk21_set]
theorem blk_pts22 (f : Buf (Elt F) (e2Loc d)) :
    (((e2Blk22 L).view.loc (V d (cV L) (jV L)) ↦[(e2Blk22 L).view.set]{fullShare} f) : sProp 𝕄) = (e2Loc d ↦[colBlock L 22]{fullShare} f) := by
  rw [e2Blk22_set]
theorem blk_pts23 (f : Buf (Elt F) (e2Loc d)) :
    (((e2Blk23 L).view.loc (V d (cV L) (jV L)) ↦[(e2Blk23 L).view.set]{fullShare} f) : sProp 𝕄) = (e2Loc d ↦[colBlock L 23]{fullShare} f) := by
  rw [e2Blk23_set]
theorem blk_pts24 (f : Buf (Elt F) (e2Loc d)) :
    (((e2Blk24 L).view.loc (V d (cV L) (jV L)) ↦[(e2Blk24 L).view.set]{fullShare} f) : sProp 𝕄) = (e2Loc d ↦[colBlock L 24]{fullShare} f) := by
  rw [e2Blk24_set]
theorem blk_pts25 (f : Buf (Elt F) (e2Loc d)) :
    (((e2Blk25 L).view.loc (V d (cV L) (jV L)) ↦[(e2Blk25 L).view.set]{fullShare} f) : sProp 𝕄) = (e2Loc d ↦[colBlock L 25]{fullShare} f) := by
  rw [e2Blk25_set]

theorem colBlock_disjoint (L : grid0.Coords) (c c' : Fin 26) (h : c ≠ c') : Disjoint (colBlock L c) (colBlock L c') := by
  unfold colBlock
  refine Rect.unit_disjoint (1 : Fin 2) ?_
  have h1 := c.isLt
  have h2 := c'.isLt
  have h3 : c.val ≠ c'.val := fun e => h (Fin.ext e)
  show 128 * c.val + 128 ≤ 128 * c'.val ∨ 128 * c'.val + 128 ≤ 128 * c.val
  omega

theorem mem_e2Rows_iff (L : grid0.Coords) (i : S4096x3328.Idx) :
    i ∈ (e2Rows L : Finset S4096x3328.Idx) ↔ ∃ c : Fin 26, i ∈ colBlock L c := by
  have e : (e2Rows L : Finset S4096x3328.Idx) = (e2Rect L).set := View.set_slice_whole _ _
  rw [e]
  have hi1 : (i 1).val < 3328 := (i 1).isLt
  simp only [colBlock, Rect.mem_set_unit, Fin.forall_fin_two]
  constructor
  · rintro ⟨⟨r1, r2⟩, -, -⟩
    refine ⟨⟨(i 1).val / 128, by omega⟩, ⟨r1, r2⟩, ?_, ?_⟩
    · show 128 * ((i 1).val / 128) ≤ (i 1).val; omega
    · show (i 1).val < 128 * ((i 1).val / 128) + 128; omega
  · rintro ⟨c, ⟨r1, r2⟩, c1, c2⟩
    have hc := c.isLt
    refine ⟨⟨r1, r2⟩, ?_, ?_⟩
    · show 0 ≤ (i 1).val; omega
    · have c2' : (i 1).val < 128 * c.val + 128 := c2
      show (i 1).val < 0 + 3328; omega

set_option maxHeartbeats 2000000 in
/-- THE ROWS IN BLOCKS: the task's 128 rows at contents f are their 26 column blocks at f. -/
theorem e2_split (f : Buf (Elt F) (e2Loc d)) :
    (e2Loc d ↦[e2Rows L]{fullShare} f : sProp 𝕄)
      = iprop(((e2Blk0 L).view.loc (V d (cV L) (jV L)) ↦[(e2Blk0 L).view.set]{fullShare} f)
          ∗ ((e2Blk1 L).view.loc (V d (cV L) (jV L)) ↦[(e2Blk1 L).view.set]{fullShare} f)
          ∗ ((e2Blk2 L).view.loc (V d (cV L) (jV L)) ↦[(e2Blk2 L).view.set]{fullShare} f)
          ∗ ((e2Blk3 L).view.loc (V d (cV L) (jV L)) ↦[(e2Blk3 L).view.set]{fullShare} f)
          ∗ ((e2Blk4 L).view.loc (V d (cV L) (jV L)) ↦[(e2Blk4 L).view.set]{fullShare} f)
          ∗ ((e2Blk5 L).view.loc (V d (cV L) (jV L)) ↦[(e2Blk5 L).view.set]{fullShare} f)
          ∗ ((e2Blk6 L).view.loc (V d (cV L) (jV L)) ↦[(e2Blk6 L).view.set]{fullShare} f)
          ∗ ((e2Blk7 L).view.loc (V d (cV L) (jV L)) ↦[(e2Blk7 L).view.set]{fullShare} f)
          ∗ ((e2Blk8 L).view.loc (V d (cV L) (jV L)) ↦[(e2Blk8 L).view.set]{fullShare} f)
          ∗ ((e2Blk9 L).view.loc (V d (cV L) (jV L)) ↦[(e2Blk9 L).view.set]{fullShare} f)
          ∗ ((e2Blk10 L).view.loc (V d (cV L) (jV L)) ↦[(e2Blk10 L).view.set]{fullShare} f)
          ∗ ((e2Blk11 L).view.loc (V d (cV L) (jV L)) ↦[(e2Blk11 L).view.set]{fullShare} f)
          ∗ ((e2Blk12 L).view.loc (V d (cV L) (jV L)) ↦[(e2Blk12 L).view.set]{fullShare} f)
          ∗ ((e2Blk13 L).view.loc (V d (cV L) (jV L)) ↦[(e2Blk13 L).view.set]{fullShare} f)
          ∗ ((e2Blk14 L).view.loc (V d (cV L) (jV L)) ↦[(e2Blk14 L).view.set]{fullShare} f)
          ∗ ((e2Blk15 L).view.loc (V d (cV L) (jV L)) ↦[(e2Blk15 L).view.set]{fullShare} f)
          ∗ ((e2Blk16 L).view.loc (V d (cV L) (jV L)) ↦[(e2Blk16 L).view.set]{fullShare} f)
          ∗ ((e2Blk17 L).view.loc (V d (cV L) (jV L)) ↦[(e2Blk17 L).view.set]{fullShare} f)
          ∗ ((e2Blk18 L).view.loc (V d (cV L) (jV L)) ↦[(e2Blk18 L).view.set]{fullShare} f)
          ∗ ((e2Blk19 L).view.loc (V d (cV L) (jV L)) ↦[(e2Blk19 L).view.set]{fullShare} f)
          ∗ ((e2Blk20 L).view.loc (V d (cV L) (jV L)) ↦[(e2Blk20 L).view.set]{fullShare} f)
          ∗ ((e2Blk21 L).view.loc (V d (cV L) (jV L)) ↦[(e2Blk21 L).view.set]{fullShare} f)
          ∗ ((e2Blk22 L).view.loc (V d (cV L) (jV L)) ↦[(e2Blk22 L).view.set]{fullShare} f)
          ∗ ((e2Blk23 L).view.loc (V d (cV L) (jV L)) ↦[(e2Blk23 L).view.set]{fullShare} f)
          ∗ ((e2Blk24 L).view.loc (V d (cV L) (jV L)) ↦[(e2Blk24 L).view.set]{fullShare} f)
          ∗ ((e2Blk25 L).view.loc (V d (cV L) (jV L)) ↦[(e2Blk25 L).view.set]{fullShare} f)) := by
  rw [blk_pts0 d L f, blk_pts1 d L f, blk_pts2 d L f, blk_pts3 d L f, blk_pts4 d L f, blk_pts5 d L f, blk_pts6 d L f, blk_pts7 d L f, blk_pts8 d L f, blk_pts9 d L f, blk_pts10 d L f, blk_pts11 d L f, blk_pts12 d L f, blk_pts13 d L f, blk_pts14 d L f, blk_pts15 d L f, blk_pts16 d L f, blk_pts17 d L f, blk_pts18 d L f, blk_pts19 d L f, blk_pts20 d L f, blk_pts21 d L f, blk_pts22 d L f, blk_pts23 d L f, blk_pts24 d L f, blk_pts25 d L f]
  have hsplit := pointsTo_biUnion (Ix := HIx 1) (Name := ℕ) (U := UU) (Lvl := ℕ) (ℓ := e2Loc d)
    (q := fullShare) (f := f) (Finset.univ : Finset (Fin 26)) (colBlock L)
    (fun t _ t' _ hne => colBlock_disjoint L t t' hne)
  refine Eq.trans (congrArg (fun I => (e2Loc d ↦[I]{fullShare} f : sProp 𝕄))
    (?_ : (e2Rows L : Finset (Idx (e2Loc d))) = _)) (hsplit.trans (bigSep_fin26 _))
  ext i
  rw [Finset.mem_biUnion]
  exact (mem_e2Rows_iff L i).trans ⟨fun ⟨c, hc⟩ => ⟨c, Finset.mem_univ c, hc⟩, fun ⟨c, _, hc⟩ => ⟨c, hc⟩⟩

set_option maxHeartbeats 4000000 in
/-- THE BLOCKS JOINED: 26 blocks, each at contents agreeing with G on the block, are the task's rows at G. -/
theorem e2_join (g : Fin 26 → Buf (Elt F) (e2Loc d)) (G : Buf (Elt F) (e2Loc d))
    (h0 : ∀ i ∈ ((e2Blk0 L).view.set : Finset S4096x3328.Idx), g 0 i = G i)
    (h1 : ∀ i ∈ ((e2Blk1 L).view.set : Finset S4096x3328.Idx), g 1 i = G i)
    (h2 : ∀ i ∈ ((e2Blk2 L).view.set : Finset S4096x3328.Idx), g 2 i = G i)
    (h3 : ∀ i ∈ ((e2Blk3 L).view.set : Finset S4096x3328.Idx), g 3 i = G i)
    (h4 : ∀ i ∈ ((e2Blk4 L).view.set : Finset S4096x3328.Idx), g 4 i = G i)
    (h5 : ∀ i ∈ ((e2Blk5 L).view.set : Finset S4096x3328.Idx), g 5 i = G i)
    (h6 : ∀ i ∈ ((e2Blk6 L).view.set : Finset S4096x3328.Idx), g 6 i = G i)
    (h7 : ∀ i ∈ ((e2Blk7 L).view.set : Finset S4096x3328.Idx), g 7 i = G i)
    (h8 : ∀ i ∈ ((e2Blk8 L).view.set : Finset S4096x3328.Idx), g 8 i = G i)
    (h9 : ∀ i ∈ ((e2Blk9 L).view.set : Finset S4096x3328.Idx), g 9 i = G i)
    (h10 : ∀ i ∈ ((e2Blk10 L).view.set : Finset S4096x3328.Idx), g 10 i = G i)
    (h11 : ∀ i ∈ ((e2Blk11 L).view.set : Finset S4096x3328.Idx), g 11 i = G i)
    (h12 : ∀ i ∈ ((e2Blk12 L).view.set : Finset S4096x3328.Idx), g 12 i = G i)
    (h13 : ∀ i ∈ ((e2Blk13 L).view.set : Finset S4096x3328.Idx), g 13 i = G i)
    (h14 : ∀ i ∈ ((e2Blk14 L).view.set : Finset S4096x3328.Idx), g 14 i = G i)
    (h15 : ∀ i ∈ ((e2Blk15 L).view.set : Finset S4096x3328.Idx), g 15 i = G i)
    (h16 : ∀ i ∈ ((e2Blk16 L).view.set : Finset S4096x3328.Idx), g 16 i = G i)
    (h17 : ∀ i ∈ ((e2Blk17 L).view.set : Finset S4096x3328.Idx), g 17 i = G i)
    (h18 : ∀ i ∈ ((e2Blk18 L).view.set : Finset S4096x3328.Idx), g 18 i = G i)
    (h19 : ∀ i ∈ ((e2Blk19 L).view.set : Finset S4096x3328.Idx), g 19 i = G i)
    (h20 : ∀ i ∈ ((e2Blk20 L).view.set : Finset S4096x3328.Idx), g 20 i = G i)
    (h21 : ∀ i ∈ ((e2Blk21 L).view.set : Finset S4096x3328.Idx), g 21 i = G i)
    (h22 : ∀ i ∈ ((e2Blk22 L).view.set : Finset S4096x3328.Idx), g 22 i = G i)
    (h23 : ∀ i ∈ ((e2Blk23 L).view.set : Finset S4096x3328.Idx), g 23 i = G i)
    (h24 : ∀ i ∈ ((e2Blk24 L).view.set : Finset S4096x3328.Idx), g 24 i = G i)
    (h25 : ∀ i ∈ ((e2Blk25 L).view.set : Finset S4096x3328.Idx), g 25 i = G i) :
    (iprop(((e2Blk0 L).view.loc (V d (cV L) (jV L)) ↦[(e2Blk0 L).view.set]{fullShare} g 0)
          ∗ ((e2Blk1 L).view.loc (V d (cV L) (jV L)) ↦[(e2Blk1 L).view.set]{fullShare} g 1)
          ∗ ((e2Blk2 L).view.loc (V d (cV L) (jV L)) ↦[(e2Blk2 L).view.set]{fullShare} g 2)
          ∗ ((e2Blk3 L).view.loc (V d (cV L) (jV L)) ↦[(e2Blk3 L).view.set]{fullShare} g 3)
          ∗ ((e2Blk4 L).view.loc (V d (cV L) (jV L)) ↦[(e2Blk4 L).view.set]{fullShare} g 4)
          ∗ ((e2Blk5 L).view.loc (V d (cV L) (jV L)) ↦[(e2Blk5 L).view.set]{fullShare} g 5)
          ∗ ((e2Blk6 L).view.loc (V d (cV L) (jV L)) ↦[(e2Blk6 L).view.set]{fullShare} g 6)
          ∗ ((e2Blk7 L).view.loc (V d (cV L) (jV L)) ↦[(e2Blk7 L).view.set]{fullShare} g 7)
          ∗ ((e2Blk8 L).view.loc (V d (cV L) (jV L)) ↦[(e2Blk8 L).view.set]{fullShare} g 8)
          ∗ ((e2Blk9 L).view.loc (V d (cV L) (jV L)) ↦[(e2Blk9 L).view.set]{fullShare} g 9)
          ∗ ((e2Blk10 L).view.loc (V d (cV L) (jV L)) ↦[(e2Blk10 L).view.set]{fullShare} g 10)
          ∗ ((e2Blk11 L).view.loc (V d (cV L) (jV L)) ↦[(e2Blk11 L).view.set]{fullShare} g 11)
          ∗ ((e2Blk12 L).view.loc (V d (cV L) (jV L)) ↦[(e2Blk12 L).view.set]{fullShare} g 12)
          ∗ ((e2Blk13 L).view.loc (V d (cV L) (jV L)) ↦[(e2Blk13 L).view.set]{fullShare} g 13)
          ∗ ((e2Blk14 L).view.loc (V d (cV L) (jV L)) ↦[(e2Blk14 L).view.set]{fullShare} g 14)
          ∗ ((e2Blk15 L).view.loc (V d (cV L) (jV L)) ↦[(e2Blk15 L).view.set]{fullShare} g 15)
          ∗ ((e2Blk16 L).view.loc (V d (cV L) (jV L)) ↦[(e2Blk16 L).view.set]{fullShare} g 16)
          ∗ ((e2Blk17 L).view.loc (V d (cV L) (jV L)) ↦[(e2Blk17 L).view.set]{fullShare} g 17)
          ∗ ((e2Blk18 L).view.loc (V d (cV L) (jV L)) ↦[(e2Blk18 L).view.set]{fullShare} g 18)
          ∗ ((e2Blk19 L).view.loc (V d (cV L) (jV L)) ↦[(e2Blk19 L).view.set]{fullShare} g 19)
          ∗ ((e2Blk20 L).view.loc (V d (cV L) (jV L)) ↦[(e2Blk20 L).view.set]{fullShare} g 20)
          ∗ ((e2Blk21 L).view.loc (V d (cV L) (jV L)) ↦[(e2Blk21 L).view.set]{fullShare} g 21)
          ∗ ((e2Blk22 L).view.loc (V d (cV L) (jV L)) ↦[(e2Blk22 L).view.set]{fullShare} g 22)
          ∗ ((e2Blk23 L).view.loc (V d (cV L) (jV L)) ↦[(e2Blk23 L).view.set]{fullShare} g 23)
          ∗ ((e2Blk24 L).view.loc (V d (cV L) (jV L)) ↦[(e2Blk24 L).view.set]{fullShare} g 24)
          ∗ ((e2Blk25 L).view.loc (V d (cV L) (jV L)) ↦[(e2Blk25 L).view.set]{fullShare} g 25)) : sProp 𝕄)
      ⊢ (e2Loc d ↦[e2Rows L]{fullShare} G) := by
  rw [pointsTo_congr (ℓ := (e2Blk0 L).view.loc (V d (cV L) (jV L))) (q := fullShare) h0,
    pointsTo_congr (ℓ := (e2Blk1 L).view.loc (V d (cV L) (jV L))) (q := fullShare) h1,
    pointsTo_congr (ℓ := (e2Blk2 L).view.loc (V d (cV L) (jV L))) (q := fullShare) h2,
    pointsTo_congr (ℓ := (e2Blk3 L).view.loc (V d (cV L) (jV L))) (q := fullShare) h3,
    pointsTo_congr (ℓ := (e2Blk4 L).view.loc (V d (cV L) (jV L))) (q := fullShare) h4,
    pointsTo_congr (ℓ := (e2Blk5 L).view.loc (V d (cV L) (jV L))) (q := fullShare) h5,
    pointsTo_congr (ℓ := (e2Blk6 L).view.loc (V d (cV L) (jV L))) (q := fullShare) h6,
    pointsTo_congr (ℓ := (e2Blk7 L).view.loc (V d (cV L) (jV L))) (q := fullShare) h7,
    pointsTo_congr (ℓ := (e2Blk8 L).view.loc (V d (cV L) (jV L))) (q := fullShare) h8,
    pointsTo_congr (ℓ := (e2Blk9 L).view.loc (V d (cV L) (jV L))) (q := fullShare) h9,
    pointsTo_congr (ℓ := (e2Blk10 L).view.loc (V d (cV L) (jV L))) (q := fullShare) h10,
    pointsTo_congr (ℓ := (e2Blk11 L).view.loc (V d (cV L) (jV L))) (q := fullShare) h11,
    pointsTo_congr (ℓ := (e2Blk12 L).view.loc (V d (cV L) (jV L))) (q := fullShare) h12,
    pointsTo_congr (ℓ := (e2Blk13 L).view.loc (V d (cV L) (jV L))) (q := fullShare) h13,
    pointsTo_congr (ℓ := (e2Blk14 L).view.loc (V d (cV L) (jV L))) (q := fullShare) h14,
    pointsTo_congr (ℓ := (e2Blk15 L).view.loc (V d (cV L) (jV L))) (q := fullShare) h15,
    pointsTo_congr (ℓ := (e2Blk16 L).view.loc (V d (cV L) (jV L))) (q := fullShare) h16,
    pointsTo_congr (ℓ := (e2Blk17 L).view.loc (V d (cV L) (jV L))) (q := fullShare) h17,
    pointsTo_congr (ℓ := (e2Blk18 L).view.loc (V d (cV L) (jV L))) (q := fullShare) h18,
    pointsTo_congr (ℓ := (e2Blk19 L).view.loc (V d (cV L) (jV L))) (q := fullShare) h19,
    pointsTo_congr (ℓ := (e2Blk20 L).view.loc (V d (cV L) (jV L))) (q := fullShare) h20,
    pointsTo_congr (ℓ := (e2Blk21 L).view.loc (V d (cV L) (jV L))) (q := fullShare) h21,
    pointsTo_congr (ℓ := (e2Blk22 L).view.loc (V d (cV L) (jV L))) (q := fullShare) h22,
    pointsTo_congr (ℓ := (e2Blk23 L).view.loc (V d (cV L) (jV L))) (q := fullShare) h23,
    pointsTo_congr (ℓ := (e2Blk24 L).view.loc (V d (cV L) (jV L))) (q := fullShare) h24,
    pointsTo_congr (ℓ := (e2Blk25 L).view.loc (V d (cV L) (jV L))) (q := fullShare) h25]
  exact Entails.of_eq (e2_split d L G).symm

end Cert.Proof.ScSplit

end
-- ==== Proof.ScSplit.lean ====
/-
  Two partitions of what a vector-subcore task holds: the index scratch in 26 chunks of 128 words, and the task's
  128 rows of the second-order result in 26 blocks of 128 columns.
-/
import proofs.«207592_g65111704207794_cont_9to1_m_407_36_alg».proof.Proof.ScSplitIdx
import proofs.«207592_g65111704207794_cont_9to1_m_407_36_alg».proof.Proof.ScSplitRows
-- ==== Proof.ScFin.lean ====
/-
  A buffer written through a view with a payload that is some function G read through the same view holds G on the
  view's elements, whatever it held before.
-/
import proofs.«207592_g65111704207794_cont_9to1_m_407_36_alg».proof.Proof.ScViews

noncomputable section

namespace Cert.Proof.ScSplit

open Cert.KernelIdeal Cert.KernelIdeal.Gen
open Cert.Proof.ScSpec Cert.Proof.ScViews
open Cert.Proof.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Written whole through the view with the payload "G read through the view": the view's elements hold G. -/
theorem pointsTo_write_congr {sp : Space} {s : Shape} {e : EltTy} (m : Memref sig .scVector sp s e) (q : PosShare TreeShare)
    (fe G : Buf (Elt F) (m.view.loc (V d (cV L) (jV L)))) (w : s.Idx → Elt F e)
    (h : ∀ x, w x = m.view.read (Elt F) G x) :
    ((m.view.loc (V d (cV L) (jV L)) ↦[m.view.set]{q} m.view.write (Elt F) fe w Finset.univ : sProp 𝕄))
      = (m.view.loc (V d (cV L) (jV L)) ↦[m.view.set]{q} G) := by
  refine pointsTo_congr fun i hi => ?_
  obtain ⟨x, -, rfl⟩ := Finset.mem_map.mp hi
  rw [View.write_emb_of_mem _ _ (Finset.mem_univ x), h x, View.read_apply, cast_cast, cast_eq]

/-- The same with the write recorded as a one-piece list over the whole rectangle. -/
theorem pointsTo_writes_congr {sp : Space} {s : Shape} {e : EltTy} (m : Memref sig .scVector sp s e) (q : PosShare TreeShare)
    (fe G : Buf (Elt F) (m.view.loc (V d (cV L) (jV L)))) (w : (Rect.whole s).shape.Idx → Elt F e)
    (h : ∀ x, w x = m.view.read (Elt F) G x) :
    ((m.view.loc (V d (cV L) (jV L)) ↦[m.view.set]{q} m.view.writes (Elt F) fe [⟨Rect.whole s, w⟩] : sProp 𝕄))
      = (m.view.loc (V d (cV L) (jV L)) ↦[m.view.set]{q} G) := by
  refine pointsTo_congr fun i hi => ?_
  obtain ⟨x, -, rfl⟩ := Finset.mem_map.mp hi
  rw [View.writes_singleton]
  have hx : m.view.emb x = (m.view.slice (Rect.whole s)).emb x := by
    rw [View.emb_slice, Function.Embedding.trans_apply, Rect.emb_whole_apply]
  rw [hx, View.write_emb_of_mem _ _ (Finset.mem_univ x), h x, View.read_apply, cast_cast, cast_eq]
  exact congrArg G hx

end Cert.Proof.ScSplit

end
-- ==== Proof.ScGather.lean ====
/-
  The indirect gather of one chunk of 128 table rows into a row buffer: its issue, holding a share of the table, the
  row buffer, the chunk of the index scratch and the buffer's gather semaphore at zero; and what the buffer holds
  once the gather has landed, entry by entry.
-/
import proofs.«207592_g65111704207794_cont_9to1_m_407_36_alg».proof.Proof.ScViews
import proofs.«207592_g65111704207794_cont_9to1_m_407_36_alg».proof.Proof.ScSplit

noncomputable section

namespace Cert.Proof.ScGather

open Cert.KernelIdeal Cert.KernelIdeal.Gen
open Cert.Proof.ScSpec Cert.Proof.ScViews Cert.Proof.ScSplit
open Cert.Proof.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The contents of row buffer 0 after the gather of the chunk whose indices sit at `n` in the index scratch. -/
def gath0 (n : ℕ) (hn : n + 128 ≤ 3328) (Tb : Buf (Elt F) (tLoc d)) (g : Buf (Elt F) (sloc d L cc0_scratch5))
    (c0 : Buf (Elt F) (sloc d L cc0_scratch0)) (hin : ∀ j, (c0 j).toNat < 26000) : Buf (Elt F) (sloc d L cc0_scratch5) :=
  (r0V).view.write (Elt F) g
    (SparseCore.gatherPayload gathers_S26000x128_S128x128
      (((tV).slice (Rect.unit (s := S26000x128) ![0, 0] S26000x128.size inb_S26000x128_S26000x128_0_0) (fun _ => rfl)).view.read (Elt F) Tb)
      (SparseCore.rows ((idxChunk n hn).view.read (Elt F) c0) rfl (fun x => hin _))) Finset.univ

set_option maxHeartbeats 4000000 in
theorem gather0 (n : ℕ) (hn : n + 128 ≤ 3328) (q : PosShare TreeShare) (Tb : Buf (Elt F) (tLoc d)) (g : Buf (Elt F) (sloc d L cc0_scratch5))
    (c0 : Buf (Elt F) (sloc d L cc0_scratch0)) (hin : ∀ j, (c0 j).toNat < 26000)
    {α : Type} {kk : PUnit → Prog (TpuEff nD τ sig (Elt F) Λ₀ (.scVector (cV L) (jV L))) α} {Q : α → sProp 𝕄}
    {hp hsrc he hsp hr} :
    iprop(((tV).view.loc (V d (cV L) (jV L)) ↦{q} Tb) ∗ ((r0V).view.loc (V d (cV L) (jV L)) ↦{fullShare} g)
        ∗ ((idxChunk n hn).view.loc (V d (cV L) (jV L)) ↦[(idxChunk n hn).view.set]{fullShare} c0) ∗ semVal (cell d L cc0_scratch9) 0)
      ⊢ iprop((Transfers.Flight countersEmb (V d (cV L) (jV L)) (.dma cc0_scratch9.sem) (default : HIx 1) (r0V).view.dmaCredit
                iprop(((r0V).view.loc (V d (cV L) (jV L)) ↦{fullShare} gath0 d L n hn Tb g c0 hin) ∗ ((tV).view.loc (V d (cV L) (jV L)) ↦{q} Tb)
                  ∗ ((idxChunk n hn).view.loc (V d (cV L) (jV L)) ↦[(idxChunk n hn).view.set]{fullShare} c0))
              -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather hp ((tV).slice (Rect.unit (s := S26000x128) ![0, 0] S26000x128.size inb_S26000x128_S26000x128_0_0) (fun _ => rfl))
                (r0V) gathers_S26000x128_S128x128 (idxChunk n hn) rfl cc0_scratch9.sem hsrc he hsp hr >>= kk) Q) := by
  have hrs : (r0V).view.set = Finset.univ := View.set_whole _
  have hts : ((tV).slice (Rect.unit (s := S26000x128) ![0, 0] S26000x128.size inb_S26000x128_S26000x128_0_0) (fun _ => rfl)).view.set = Finset.univ := by
    rw [show ((tV).slice (Rect.unit (s := S26000x128) ![0, 0] S26000x128.size inb_S26000x128_S26000x128_0_0) (fun _ => rfl)).view.set
      = (Rect.unit (s := S26000x128) ![0, 0] S26000x128.size inb_S26000x128_S26000x128_0_0).set from View.set_slice_whole _ _]
    ext i
    simp only [Rect.mem_set_unit, Finset.mem_univ, iff_true]
    intro a
    match a with
    | 0 => exact ⟨Nat.zero_le _, by have h : (i 0).val < 26000 := (i 0).isLt; show (i 0).val < 0 + 26000; omega⟩
    | 1 => exact ⟨Nat.zero_le _, by have h : (i 1).val < 128 := (i 1).isLt; show (i 1).val < 0 + 128; omega⟩
  iintro ⟨HT, Hr, Hc, Hsem⟩ Hk
  ihave Hr' := (Entails.of_eq (show (((r0V).view.loc (V d (cV L) (jV L)) ↦{fullShare} g : sProp 𝕄))
      = ((r0V).view.loc (V d (cV L) (jV L)) ↦[(r0V).view.set]{fullShare} g) by rw [hrs])) $$ Hr
  ihave HT' := (Entails.of_eq (show (((tV).view.loc (V d (cV L) (jV L)) ↦{q} Tb : sProp 𝕄))
      = (((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb) by rw [hts])) $$ HT
  iapply (SparseCore.wp_indirectGatherLocal countersEmb 𝒱₀ (V d (cV L) (jV L)) none (hg := gathers_S26000x128_S128x128)
      (src := (tV).slice (Rect.unit (s := S26000x128) ![0, 0] S26000x128.size inb_S26000x128_S26000x128_0_0) (fun _ => rfl)) (dst := r0V)
      (offs := idxChunk n hn) (fo := c0) (fs := Tb) (fd := g) (q := q) (qo := fullShare) (sem := cc0_scratch9.sem) (default : HIx 1)
      (r0V).view.dmaCredit (SparseCore.sum_rowCredit_eq_dmaCredit (r0V) _ (fun _ => rfl)) (by decide) (fun x => hin _)) $$ [HT' Hr' Hc Hsem]
  · isplitl [HT']; · iexact HT'
    isplitl [Hr']; · iexact Hr'
    isplitl [Hc]; · iexact Hc
    iexact Hsem
  iintro Hfl
  iapply Hk
  iapply (Transfers.Flight_mono countersEmb (V d (cV L) (jV L)) (by
    iintro ⟨Hd, Hs, Ho⟩
    isplitl [Hd]
    · iapply (Entails.of_eq (show (((r0V).view.loc (V d (cV L) (jV L)) ↦[(r0V).view.set]{fullShare} gath0 d L n hn Tb g c0 hin : sProp 𝕄))
        = ((r0V).view.loc (V d (cV L) (jV L)) ↦{fullShare} gath0 d L n hn Tb g c0 hin) by rw [hrs])); iexact Hd
    isplitl [Hs]
    · iapply (Entails.of_eq (show ((((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb : sProp 𝕄))
        = ((tV).view.loc (V d (cV L) (jV L)) ↦{q} Tb) by rw [hts])); iexact Hs
    iexact Ho)) $$ Hfl

theorem gath0_apply (n : ℕ) (hn : n + 128 ≤ 3328) (Tb : Buf (Elt F) (tLoc d)) (g : Buf (Elt F) (sloc d L cc0_scratch5))
    (c0 : Buf (Elt F) (sloc d L cc0_scratch0)) (hin : ∀ j, (c0 j).toNat < 26000) (x : S128x128.Idx) :
    gath0 d L n hn Tb g c0 hin x
      = Tb (ix2 26000 128 (by decide) (by decide) (c0 (ix1 3328 (by decide) (n + (x 0).val))).toNat (x 1).val) := by
  unfold gath0
  rw [View.write_whole_univ]
  unfold SparseCore.gatherPayload
  refine congrArg Tb (funext fun a => ?_)
  have hx0 : (x 0).val < 128 := (x 0).isLt
  have hx1 : (x 1).val < 128 := (x 1).isLt
  match a with
  | 0 =>
    apply Fin.ext
    have h1 := Shape.Gathers.idx_axis gathers_S26000x128_S128x128
      (SparseCore.rows ((idxChunk n hn).view.read (Elt F) c0) rfl (fun x => hin _)) x
    have hz : (idxChunk n hn).view.emb (S128.rowMajor.symm (Fin.cast (rfl : S128x128.size gathers_S26000x128_S128x128.axis' = S128.numel) (x 0)))
        = ix1 3328 (by decide) (n + (x 0).val) := by
      funext b
      match b with
      | 0 =>
        apply Fin.ext
        have hv := Shape.rowMajor_val_one (d := ![128]) (S128.rowMajor.symm (Fin.cast (rfl : S128x128.size gathers_S26000x128_S128x128.axis' = S128.numel) (x 0)))
        rw [Equiv.apply_symm_apply] at hv
        show n + 1 * ((S128.rowMajor.symm (Fin.cast (rfl : S128x128.size gathers_S26000x128_S128x128.axis' = S128.numel) (x 0))) 0).val = (n + (x 0).val) % 3328
        rw [← hv, Nat.one_mul, Nat.mod_eq_of_lt (by show n + (x 0).val < 3328; omega)]
        rfl
    show 0 + 1 * (gathers_S26000x128_S128x128.idx (SparseCore.rows ((idxChunk n hn).view.read (Elt F) c0) rfl (fun x => hin _)) x 0).val
      = (c0 (ix1 3328 (by decide) (n + (x 0).val))).toNat % 26000
    rw [Nat.zero_add, Nat.one_mul, Nat.mod_eq_of_lt (hin _)]
    refine (congrArg Fin.val h1).trans ?_
    show (c0 ((idxChunk n hn).view.emb (S128.rowMajor.symm (Fin.cast _ (x 0))))).toNat = _
    rw [hz]
  | 1 =>
    apply Fin.ext
    have h2 := Shape.Gathers.idx_of_ne gathers_S26000x128_S128x128
      (SparseCore.rows ((idxChunk n hn).view.read (Elt F) c0) rfl (fun x => hin _)) x 1 (by decide)
    show 0 + 1 * (gathers_S26000x128_S128x128.idx (SparseCore.rows ((idxChunk n hn).view.read (Elt F) c0) rfl (fun x => hin _)) x 1).val
      = (x 1).val % 128
    rw [Nat.zero_add, Nat.one_mul, h2, Nat.mod_eq_of_lt hx1]
    rfl

/-- The contents of row buffer 1 after the gather of the chunk whose indices sit at `n` in the index scratch. -/
def gath1 (n : ℕ) (hn : n + 128 ≤ 3328) (Tb : Buf (Elt F) (tLoc d)) (g : Buf (Elt F) (sloc d L cc0_scratch6))
    (c0 : Buf (Elt F) (sloc d L cc0_scratch0)) (hin : ∀ j, (c0 j).toNat < 26000) : Buf (Elt F) (sloc d L cc0_scratch6) :=
  (r1V).view.write (Elt F) g
    (SparseCore.gatherPayload gathers_S26000x128_S128x128
      (((tV).slice (Rect.unit (s := S26000x128) ![0, 0] S26000x128.size inb_S26000x128_S26000x128_0_0) (fun _ => rfl)).view.read (Elt F) Tb)
      (SparseCore.rows ((idxChunk n hn).view.read (Elt F) c0) rfl (fun x => hin _))) Finset.univ

set_option maxHeartbeats 4000000 in
theorem gather1 (n : ℕ) (hn : n + 128 ≤ 3328) (q : PosShare TreeShare) (Tb : Buf (Elt F) (tLoc d)) (g : Buf (Elt F) (sloc d L cc0_scratch6))
    (c0 : Buf (Elt F) (sloc d L cc0_scratch0)) (hin : ∀ j, (c0 j).toNat < 26000)
    {α : Type} {kk : PUnit → Prog (TpuEff nD τ sig (Elt F) Λ₀ (.scVector (cV L) (jV L))) α} {Q : α → sProp 𝕄}
    {hp hsrc he hsp hr} :
    iprop(((tV).view.loc (V d (cV L) (jV L)) ↦{q} Tb) ∗ ((r1V).view.loc (V d (cV L) (jV L)) ↦{fullShare} g)
        ∗ ((idxChunk n hn).view.loc (V d (cV L) (jV L)) ↦[(idxChunk n hn).view.set]{fullShare} c0) ∗ semVal (cell d L cc0_scratch10) 0)
      ⊢ iprop((Transfers.Flight countersEmb (V d (cV L) (jV L)) (.dma cc0_scratch10.sem) (default : HIx 1) (r1V).view.dmaCredit
                iprop(((r1V).view.loc (V d (cV L) (jV L)) ↦{fullShare} gath1 d L n hn Tb g c0 hin) ∗ ((tV).view.loc (V d (cV L) (jV L)) ↦{q} Tb)
                  ∗ ((idxChunk n hn).view.loc (V d (cV L) (jV L)) ↦[(idxChunk n hn).view.set]{fullShare} c0))
              -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather hp ((tV).slice (Rect.unit (s := S26000x128) ![0, 0] S26000x128.size inb_S26000x128_S26000x128_0_0) (fun _ => rfl))
                (r1V) gathers_S26000x128_S128x128 (idxChunk n hn) rfl cc0_scratch10.sem hsrc he hsp hr >>= kk) Q) := by
  have hrs : (r1V).view.set = Finset.univ := View.set_whole _
  have hts : ((tV).slice (Rect.unit (s := S26000x128) ![0, 0] S26000x128.size inb_S26000x128_S26000x128_0_0) (fun _ => rfl)).view.set = Finset.univ := by
    rw [show ((tV).slice (Rect.unit (s := S26000x128) ![0, 0] S26000x128.size inb_S26000x128_S26000x128_0_0) (fun _ => rfl)).view.set
      = (Rect.unit (s := S26000x128) ![0, 0] S26000x128.size inb_S26000x128_S26000x128_0_0).set from View.set_slice_whole _ _]
    ext i
    simp only [Rect.mem_set_unit, Finset.mem_univ, iff_true]
    intro a
    match a with
    | 0 => exact ⟨Nat.zero_le _, by have h : (i 0).val < 26000 := (i 0).isLt; show (i 0).val < 0 + 26000; omega⟩
    | 1 => exact ⟨Nat.zero_le _, by have h : (i 1).val < 128 := (i 1).isLt; show (i 1).val < 0 + 128; omega⟩
  iintro ⟨HT, Hr, Hc, Hsem⟩ Hk
  ihave Hr' := (Entails.of_eq (show (((r1V).view.loc (V d (cV L) (jV L)) ↦{fullShare} g : sProp 𝕄))
      = ((r1V).view.loc (V d (cV L) (jV L)) ↦[(r1V).view.set]{fullShare} g) by rw [hrs])) $$ Hr
  ihave HT' := (Entails.of_eq (show (((tV).view.loc (V d (cV L) (jV L)) ↦{q} Tb : sProp 𝕄))
      = (((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb) by rw [hts])) $$ HT
  iapply (SparseCore.wp_indirectGatherLocal countersEmb 𝒱₀ (V d (cV L) (jV L)) none (hg := gathers_S26000x128_S128x128)
      (src := (tV).slice (Rect.unit (s := S26000x128) ![0, 0] S26000x128.size inb_S26000x128_S26000x128_0_0) (fun _ => rfl)) (dst := r1V)
      (offs := idxChunk n hn) (fo := c0) (fs := Tb) (fd := g) (q := q) (qo := fullShare) (sem := cc0_scratch10.sem) (default : HIx 1)
      (r1V).view.dmaCredit (SparseCore.sum_rowCredit_eq_dmaCredit (r1V) _ (fun _ => rfl)) (by decide) (fun x => hin _)) $$ [HT' Hr' Hc Hsem]
  · isplitl [HT']; · iexact HT'
    isplitl [Hr']; · iexact Hr'
    isplitl [Hc]; · iexact Hc
    iexact Hsem
  iintro Hfl
  iapply Hk
  iapply (Transfers.Flight_mono countersEmb (V d (cV L) (jV L)) (by
    iintro ⟨Hd, Hs, Ho⟩
    isplitl [Hd]
    · iapply (Entails.of_eq (show (((r1V).view.loc (V d (cV L) (jV L)) ↦[(r1V).view.set]{fullShare} gath1 d L n hn Tb g c0 hin : sProp 𝕄))
        = ((r1V).view.loc (V d (cV L) (jV L)) ↦{fullShare} gath1 d L n hn Tb g c0 hin) by rw [hrs])); iexact Hd
    isplitl [Hs]
    · iapply (Entails.of_eq (show ((((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb : sProp 𝕄))
        = ((tV).view.loc (V d (cV L) (jV L)) ↦{q} Tb) by rw [hts])); iexact Hs
    iexact Ho)) $$ Hfl

theorem gath1_apply (n : ℕ) (hn : n + 128 ≤ 3328) (Tb : Buf (Elt F) (tLoc d)) (g : Buf (Elt F) (sloc d L cc0_scratch6))
    (c0 : Buf (Elt F) (sloc d L cc0_scratch0)) (hin : ∀ j, (c0 j).toNat < 26000) (x : S128x128.Idx) :
    gath1 d L n hn Tb g c0 hin x
      = Tb (ix2 26000 128 (by decide) (by decide) (c0 (ix1 3328 (by decide) (n + (x 0).val))).toNat (x 1).val) := by
  unfold gath1
  rw [View.write_whole_univ]
  unfold SparseCore.gatherPayload
  refine congrArg Tb (funext fun a => ?_)
  have hx0 : (x 0).val < 128 := (x 0).isLt
  have hx1 : (x 1).val < 128 := (x 1).isLt
  match a with
  | 0 =>
    apply Fin.ext
    have h1 := Shape.Gathers.idx_axis gathers_S26000x128_S128x128
      (SparseCore.rows ((idxChunk n hn).view.read (Elt F) c0) rfl (fun x => hin _)) x
    have hz : (idxChunk n hn).view.emb (S128.rowMajor.symm (Fin.cast (rfl : S128x128.size gathers_S26000x128_S128x128.axis' = S128.numel) (x 0)))
        = ix1 3328 (by decide) (n + (x 0).val) := by
      funext b
      match b with
      | 0 =>
        apply Fin.ext
        have hv := Shape.rowMajor_val_one (d := ![128]) (S128.rowMajor.symm (Fin.cast (rfl : S128x128.size gathers_S26000x128_S128x128.axis' = S128.numel) (x 0)))
        rw [Equiv.apply_symm_apply] at hv
        show n + 1 * ((S128.rowMajor.symm (Fin.cast (rfl : S128x128.size gathers_S26000x128_S128x128.axis' = S128.numel) (x 0))) 0).val = (n + (x 0).val) % 3328
        rw [← hv, Nat.one_mul, Nat.mod_eq_of_lt (by show n + (x 0).val < 3328; omega)]
        rfl
    show 0 + 1 * (gathers_S26000x128_S128x128.idx (SparseCore.rows ((idxChunk n hn).view.read (Elt F) c0) rfl (fun x => hin _)) x 0).val
      = (c0 (ix1 3328 (by decide) (n + (x 0).val))).toNat % 26000
    rw [Nat.zero_add, Nat.one_mul, Nat.mod_eq_of_lt (hin _)]
    refine (congrArg Fin.val h1).trans ?_
    show (c0 ((idxChunk n hn).view.emb (S128.rowMajor.symm (Fin.cast _ (x 0))))).toNat = _
    rw [hz]
  | 1 =>
    apply Fin.ext
    have h2 := Shape.Gathers.idx_of_ne gathers_S26000x128_S128x128
      (SparseCore.rows ((idxChunk n hn).view.read (Elt F) c0) rfl (fun x => hin _)) x 1 (by decide)
    show 0 + 1 * (gathers_S26000x128_S128x128.idx (SparseCore.rows ((idxChunk n hn).view.read (Elt F) c0) rfl (fun x => hin _)) x 1).val
      = (x 1).val % 128
    rw [Nat.zero_add, Nat.one_mul, h2, Nat.mod_eq_of_lt hx1]
    rfl

/-- The contents of row buffer 2 after the gather of the chunk whose indices sit at `n` in the index scratch. -/
def gath2 (n : ℕ) (hn : n + 128 ≤ 3328) (Tb : Buf (Elt F) (tLoc d)) (g : Buf (Elt F) (sloc d L cc0_scratch7))
    (c0 : Buf (Elt F) (sloc d L cc0_scratch0)) (hin : ∀ j, (c0 j).toNat < 26000) : Buf (Elt F) (sloc d L cc0_scratch7) :=
  (r2V).view.write (Elt F) g
    (SparseCore.gatherPayload gathers_S26000x128_S128x128
      (((tV).slice (Rect.unit (s := S26000x128) ![0, 0] S26000x128.size inb_S26000x128_S26000x128_0_0) (fun _ => rfl)).view.read (Elt F) Tb)
      (SparseCore.rows ((idxChunk n hn).view.read (Elt F) c0) rfl (fun x => hin _))) Finset.univ

set_option maxHeartbeats 4000000 in
theorem gather2 (n : ℕ) (hn : n + 128 ≤ 3328) (q : PosShare TreeShare) (Tb : Buf (Elt F) (tLoc d)) (g : Buf (Elt F) (sloc d L cc0_scratch7))
    (c0 : Buf (Elt F) (sloc d L cc0_scratch0)) (hin : ∀ j, (c0 j).toNat < 26000)
    {α : Type} {kk : PUnit → Prog (TpuEff nD τ sig (Elt F) Λ₀ (.scVector (cV L) (jV L))) α} {Q : α → sProp 𝕄}
    {hp hsrc he hsp hr} :
    iprop(((tV).view.loc (V d (cV L) (jV L)) ↦{q} Tb) ∗ ((r2V).view.loc (V d (cV L) (jV L)) ↦{fullShare} g)
        ∗ ((idxChunk n hn).view.loc (V d (cV L) (jV L)) ↦[(idxChunk n hn).view.set]{fullShare} c0) ∗ semVal (cell d L cc0_scratch11) 0)
      ⊢ iprop((Transfers.Flight countersEmb (V d (cV L) (jV L)) (.dma cc0_scratch11.sem) (default : HIx 1) (r2V).view.dmaCredit
                iprop(((r2V).view.loc (V d (cV L) (jV L)) ↦{fullShare} gath2 d L n hn Tb g c0 hin) ∗ ((tV).view.loc (V d (cV L) (jV L)) ↦{q} Tb)
                  ∗ ((idxChunk n hn).view.loc (V d (cV L) (jV L)) ↦[(idxChunk n hn).view.set]{fullShare} c0))
              -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather hp ((tV).slice (Rect.unit (s := S26000x128) ![0, 0] S26000x128.size inb_S26000x128_S26000x128_0_0) (fun _ => rfl))
                (r2V) gathers_S26000x128_S128x128 (idxChunk n hn) rfl cc0_scratch11.sem hsrc he hsp hr >>= kk) Q) := by
  have hrs : (r2V).view.set = Finset.univ := View.set_whole _
  have hts : ((tV).slice (Rect.unit (s := S26000x128) ![0, 0] S26000x128.size inb_S26000x128_S26000x128_0_0) (fun _ => rfl)).view.set = Finset.univ := by
    rw [show ((tV).slice (Rect.unit (s := S26000x128) ![0, 0] S26000x128.size inb_S26000x128_S26000x128_0_0) (fun _ => rfl)).view.set
      = (Rect.unit (s := S26000x128) ![0, 0] S26000x128.size inb_S26000x128_S26000x128_0_0).set from View.set_slice_whole _ _]
    ext i
    simp only [Rect.mem_set_unit, Finset.mem_univ, iff_true]
    intro a
    match a with
    | 0 => exact ⟨Nat.zero_le _, by have h : (i 0).val < 26000 := (i 0).isLt; show (i 0).val < 0 + 26000; omega⟩
    | 1 => exact ⟨Nat.zero_le _, by have h : (i 1).val < 128 := (i 1).isLt; show (i 1).val < 0 + 128; omega⟩
  iintro ⟨HT, Hr, Hc, Hsem⟩ Hk
  ihave Hr' := (Entails.of_eq (show (((r2V).view.loc (V d (cV L) (jV L)) ↦{fullShare} g : sProp 𝕄))
      = ((r2V).view.loc (V d (cV L) (jV L)) ↦[(r2V).view.set]{fullShare} g) by rw [hrs])) $$ Hr
  ihave HT' := (Entails.of_eq (show (((tV).view.loc (V d (cV L) (jV L)) ↦{q} Tb : sProp 𝕄))
      = (((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb) by rw [hts])) $$ HT
  iapply (SparseCore.wp_indirectGatherLocal countersEmb 𝒱₀ (V d (cV L) (jV L)) none (hg := gathers_S26000x128_S128x128)
      (src := (tV).slice (Rect.unit (s := S26000x128) ![0, 0] S26000x128.size inb_S26000x128_S26000x128_0_0) (fun _ => rfl)) (dst := r2V)
      (offs := idxChunk n hn) (fo := c0) (fs := Tb) (fd := g) (q := q) (qo := fullShare) (sem := cc0_scratch11.sem) (default : HIx 1)
      (r2V).view.dmaCredit (SparseCore.sum_rowCredit_eq_dmaCredit (r2V) _ (fun _ => rfl)) (by decide) (fun x => hin _)) $$ [HT' Hr' Hc Hsem]
  · isplitl [HT']; · iexact HT'
    isplitl [Hr']; · iexact Hr'
    isplitl [Hc]; · iexact Hc
    iexact Hsem
  iintro Hfl
  iapply Hk
  iapply (Transfers.Flight_mono countersEmb (V d (cV L) (jV L)) (by
    iintro ⟨Hd, Hs, Ho⟩
    isplitl [Hd]
    · iapply (Entails.of_eq (show (((r2V).view.loc (V d (cV L) (jV L)) ↦[(r2V).view.set]{fullShare} gath2 d L n hn Tb g c0 hin : sProp 𝕄))
        = ((r2V).view.loc (V d (cV L) (jV L)) ↦{fullShare} gath2 d L n hn Tb g c0 hin) by rw [hrs])); iexact Hd
    isplitl [Hs]
    · iapply (Entails.of_eq (show ((((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb : sProp 𝕄))
        = ((tV).view.loc (V d (cV L) (jV L)) ↦{q} Tb) by rw [hts])); iexact Hs
    iexact Ho)) $$ Hfl

theorem gath2_apply (n : ℕ) (hn : n + 128 ≤ 3328) (Tb : Buf (Elt F) (tLoc d)) (g : Buf (Elt F) (sloc d L cc0_scratch7))
    (c0 : Buf (Elt F) (sloc d L cc0_scratch0)) (hin : ∀ j, (c0 j).toNat < 26000) (x : S128x128.Idx) :
    gath2 d L n hn Tb g c0 hin x
      = Tb (ix2 26000 128 (by decide) (by decide) (c0 (ix1 3328 (by decide) (n + (x 0).val))).toNat (x 1).val) := by
  unfold gath2
  rw [View.write_whole_univ]
  unfold SparseCore.gatherPayload
  refine congrArg Tb (funext fun a => ?_)
  have hx0 : (x 0).val < 128 := (x 0).isLt
  have hx1 : (x 1).val < 128 := (x 1).isLt
  match a with
  | 0 =>
    apply Fin.ext
    have h1 := Shape.Gathers.idx_axis gathers_S26000x128_S128x128
      (SparseCore.rows ((idxChunk n hn).view.read (Elt F) c0) rfl (fun x => hin _)) x
    have hz : (idxChunk n hn).view.emb (S128.rowMajor.symm (Fin.cast (rfl : S128x128.size gathers_S26000x128_S128x128.axis' = S128.numel) (x 0)))
        = ix1 3328 (by decide) (n + (x 0).val) := by
      funext b
      match b with
      | 0 =>
        apply Fin.ext
        have hv := Shape.rowMajor_val_one (d := ![128]) (S128.rowMajor.symm (Fin.cast (rfl : S128x128.size gathers_S26000x128_S128x128.axis' = S128.numel) (x 0)))
        rw [Equiv.apply_symm_apply] at hv
        show n + 1 * ((S128.rowMajor.symm (Fin.cast (rfl : S128x128.size gathers_S26000x128_S128x128.axis' = S128.numel) (x 0))) 0).val = (n + (x 0).val) % 3328
        rw [← hv, Nat.one_mul, Nat.mod_eq_of_lt (by show n + (x 0).val < 3328; omega)]
        rfl
    show 0 + 1 * (gathers_S26000x128_S128x128.idx (SparseCore.rows ((idxChunk n hn).view.read (Elt F) c0) rfl (fun x => hin _)) x 0).val
      = (c0 (ix1 3328 (by decide) (n + (x 0).val))).toNat % 26000
    rw [Nat.zero_add, Nat.one_mul, Nat.mod_eq_of_lt (hin _)]
    refine (congrArg Fin.val h1).trans ?_
    show (c0 ((idxChunk n hn).view.emb (S128.rowMajor.symm (Fin.cast _ (x 0))))).toNat = _
    rw [hz]
  | 1 =>
    apply Fin.ext
    have h2 := Shape.Gathers.idx_of_ne gathers_S26000x128_S128x128
      (SparseCore.rows ((idxChunk n hn).view.read (Elt F) c0) rfl (fun x => hin _)) x 1 (by decide)
    show 0 + 1 * (gathers_S26000x128_S128x128.idx (SparseCore.rows ((idxChunk n hn).view.read (Elt F) c0) rfl (fun x => hin _)) x 1).val
      = (x 1).val % 128
    rw [Nat.zero_add, Nat.one_mul, h2, Nat.mod_eq_of_lt hx1]
    rfl

/-- The contents of row buffer 3 after the gather of the chunk whose indices sit at `n` in the index scratch. -/
def gath3 (n : ℕ) (hn : n + 128 ≤ 3328) (Tb : Buf (Elt F) (tLoc d)) (g : Buf (Elt F) (sloc d L cc0_scratch8))
    (c0 : Buf (Elt F) (sloc d L cc0_scratch0)) (hin : ∀ j, (c0 j).toNat < 26000) : Buf (Elt F) (sloc d L cc0_scratch8) :=
  (r3V).view.write (Elt F) g
    (SparseCore.gatherPayload gathers_S26000x128_S128x128
      (((tV).slice (Rect.unit (s := S26000x128) ![0, 0] S26000x128.size inb_S26000x128_S26000x128_0_0) (fun _ => rfl)).view.read (Elt F) Tb)
      (SparseCore.rows ((idxChunk n hn).view.read (Elt F) c0) rfl (fun x => hin _))) Finset.univ

set_option maxHeartbeats 4000000 in
theorem gather3 (n : ℕ) (hn : n + 128 ≤ 3328) (q : PosShare TreeShare) (Tb : Buf (Elt F) (tLoc d)) (g : Buf (Elt F) (sloc d L cc0_scratch8))
    (c0 : Buf (Elt F) (sloc d L cc0_scratch0)) (hin : ∀ j, (c0 j).toNat < 26000)
    {α : Type} {kk : PUnit → Prog (TpuEff nD τ sig (Elt F) Λ₀ (.scVector (cV L) (jV L))) α} {Q : α → sProp 𝕄}
    {hp hsrc he hsp hr} :
    iprop(((tV).view.loc (V d (cV L) (jV L)) ↦{q} Tb) ∗ ((r3V).view.loc (V d (cV L) (jV L)) ↦{fullShare} g)
        ∗ ((idxChunk n hn).view.loc (V d (cV L) (jV L)) ↦[(idxChunk n hn).view.set]{fullShare} c0) ∗ semVal (cell d L cc0_scratch12) 0)
      ⊢ iprop((Transfers.Flight countersEmb (V d (cV L) (jV L)) (.dma cc0_scratch12.sem) (default : HIx 1) (r3V).view.dmaCredit
                iprop(((r3V).view.loc (V d (cV L) (jV L)) ↦{fullShare} gath3 d L n hn Tb g c0 hin) ∗ ((tV).view.loc (V d (cV L) (jV L)) ↦{q} Tb)
                  ∗ ((idxChunk n hn).view.loc (V d (cV L) (jV L)) ↦[(idxChunk n hn).view.set]{fullShare} c0))
              -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather hp ((tV).slice (Rect.unit (s := S26000x128) ![0, 0] S26000x128.size inb_S26000x128_S26000x128_0_0) (fun _ => rfl))
                (r3V) gathers_S26000x128_S128x128 (idxChunk n hn) rfl cc0_scratch12.sem hsrc he hsp hr >>= kk) Q) := by
  have hrs : (r3V).view.set = Finset.univ := View.set_whole _
  have hts : ((tV).slice (Rect.unit (s := S26000x128) ![0, 0] S26000x128.size inb_S26000x128_S26000x128_0_0) (fun _ => rfl)).view.set = Finset.univ := by
    rw [show ((tV).slice (Rect.unit (s := S26000x128) ![0, 0] S26000x128.size inb_S26000x128_S26000x128_0_0) (fun _ => rfl)).view.set
      = (Rect.unit (s := S26000x128) ![0, 0] S26000x128.size inb_S26000x128_S26000x128_0_0).set from View.set_slice_whole _ _]
    ext i
    simp only [Rect.mem_set_unit, Finset.mem_univ, iff_true]
    intro a
    match a with
    | 0 => exact ⟨Nat.zero_le _, by have h : (i 0).val < 26000 := (i 0).isLt; show (i 0).val < 0 + 26000; omega⟩
    | 1 => exact ⟨Nat.zero_le _, by have h : (i 1).val < 128 := (i 1).isLt; show (i 1).val < 0 + 128; omega⟩
  iintro ⟨HT, Hr, Hc, Hsem⟩ Hk
  ihave Hr' := (Entails.of_eq (show (((r3V).view.loc (V d (cV L) (jV L)) ↦{fullShare} g : sProp 𝕄))
      = ((r3V).view.loc (V d (cV L) (jV L)) ↦[(r3V).view.set]{fullShare} g) by rw [hrs])) $$ Hr
  ihave HT' := (Entails.of_eq (show (((tV).view.loc (V d (cV L) (jV L)) ↦{q} Tb : sProp 𝕄))
      = (((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb) by rw [hts])) $$ HT
  iapply (SparseCore.wp_indirectGatherLocal countersEmb 𝒱₀ (V d (cV L) (jV L)) none (hg := gathers_S26000x128_S128x128)
      (src := (tV).slice (Rect.unit (s := S26000x128) ![0, 0] S26000x128.size inb_S26000x128_S26000x128_0_0) (fun _ => rfl)) (dst := r3V)
      (offs := idxChunk n hn) (fo := c0) (fs := Tb) (fd := g) (q := q) (qo := fullShare) (sem := cc0_scratch12.sem) (default : HIx 1)
      (r3V).view.dmaCredit (SparseCore.sum_rowCredit_eq_dmaCredit (r3V) _ (fun _ => rfl)) (by decide) (fun x => hin _)) $$ [HT' Hr' Hc Hsem]
  · isplitl [HT']; · iexact HT'
    isplitl [Hr']; · iexact Hr'
    isplitl [Hc]; · iexact Hc
    iexact Hsem
  iintro Hfl
  iapply Hk
  iapply (Transfers.Flight_mono countersEmb (V d (cV L) (jV L)) (by
    iintro ⟨Hd, Hs, Ho⟩
    isplitl [Hd]
    · iapply (Entails.of_eq (show (((r3V).view.loc (V d (cV L) (jV L)) ↦[(r3V).view.set]{fullShare} gath3 d L n hn Tb g c0 hin : sProp 𝕄))
        = ((r3V).view.loc (V d (cV L) (jV L)) ↦{fullShare} gath3 d L n hn Tb g c0 hin) by rw [hrs])); iexact Hd
    isplitl [Hs]
    · iapply (Entails.of_eq (show ((((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb : sProp 𝕄))
        = ((tV).view.loc (V d (cV L) (jV L)) ↦{q} Tb) by rw [hts])); iexact Hs
    iexact Ho)) $$ Hfl

theorem gath3_apply (n : ℕ) (hn : n + 128 ≤ 3328) (Tb : Buf (Elt F) (tLoc d)) (g : Buf (Elt F) (sloc d L cc0_scratch8))
    (c0 : Buf (Elt F) (sloc d L cc0_scratch0)) (hin : ∀ j, (c0 j).toNat < 26000) (x : S128x128.Idx) :
    gath3 d L n hn Tb g c0 hin x
      = Tb (ix2 26000 128 (by decide) (by decide) (c0 (ix1 3328 (by decide) (n + (x 0).val))).toNat (x 1).val) := by
  unfold gath3
  rw [View.write_whole_univ]
  unfold SparseCore.gatherPayload
  refine congrArg Tb (funext fun a => ?_)
  have hx0 : (x 0).val < 128 := (x 0).isLt
  have hx1 : (x 1).val < 128 := (x 1).isLt
  match a with
  | 0 =>
    apply Fin.ext
    have h1 := Shape.Gathers.idx_axis gathers_S26000x128_S128x128
      (SparseCore.rows ((idxChunk n hn).view.read (Elt F) c0) rfl (fun x => hin _)) x
    have hz : (idxChunk n hn).view.emb (S128.rowMajor.symm (Fin.cast (rfl : S128x128.size gathers_S26000x128_S128x128.axis' = S128.numel) (x 0)))
        = ix1 3328 (by decide) (n + (x 0).val) := by
      funext b
      match b with
      | 0 =>
        apply Fin.ext
        have hv := Shape.rowMajor_val_one (d := ![128]) (S128.rowMajor.symm (Fin.cast (rfl : S128x128.size gathers_S26000x128_S128x128.axis' = S128.numel) (x 0)))
        rw [Equiv.apply_symm_apply] at hv
        show n + 1 * ((S128.rowMajor.symm (Fin.cast (rfl : S128x128.size gathers_S26000x128_S128x128.axis' = S128.numel) (x 0))) 0).val = (n + (x 0).val) % 3328
        rw [← hv, Nat.one_mul, Nat.mod_eq_of_lt (by show n + (x 0).val < 3328; omega)]
        rfl
    show 0 + 1 * (gathers_S26000x128_S128x128.idx (SparseCore.rows ((idxChunk n hn).view.read (Elt F) c0) rfl (fun x => hin _)) x 0).val
      = (c0 (ix1 3328 (by decide) (n + (x 0).val))).toNat % 26000
    rw [Nat.zero_add, Nat.one_mul, Nat.mod_eq_of_lt (hin _)]
    refine (congrArg Fin.val h1).trans ?_
    show (c0 ((idxChunk n hn).view.emb (S128.rowMajor.symm (Fin.cast _ (x 0))))).toNat = _
    rw [hz]
  | 1 =>
    apply Fin.ext
    have h2 := Shape.Gathers.idx_of_ne gathers_S26000x128_S128x128
      (SparseCore.rows ((idxChunk n hn).view.read (Elt F) c0) rfl (fun x => hin _)) x 1 (by decide)
    show 0 + 1 * (gathers_S26000x128_S128x128.idx (SparseCore.rows ((idxChunk n hn).view.read (Elt F) c0) rfl (fun x => hin _)) x 1).val
      = (x 1).val % 128
    rw [Nat.zero_add, Nat.one_mul, h2, Nat.mod_eq_of_lt hx1]
    rfl

/-- A pair recorded at no level added to recorded pairs that are old or at no level. -/
theorem waits_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact Or.inr rfl
  · exact h p hp

end Cert.Proof.ScGather
-- ==== Proof.ScVal.lean ====
/-
  The values the vector-subcore task stores, read against the two results' index-by-index values.

  A chunk's 128 x 128 block of scaled rows, stored at the task's rows and the chunk's columns of the second-order
  result, holds that result's value at every element it covers: the block's row `r` and column `e` are the result's row
  `row0 + r` and column `128 c + e`, whose value names the task's position `128 c + r` of the transposed lists. The
  first-order weights the task gathers are the first-order result's values on the task's slice.
-/
import proofs.«207592_g65111704207794_cont_9to1_m_407_36_alg».proof.Proof.ScViews
import proofs.«207592_g65111704207794_cont_9to1_m_407_36_alg».proof.Proof.ScRows

noncomputable section

namespace Cert.Proof.ScVal

open Cert.KernelIdeal Cert.KernelIdeal.Gen
open Cert.Proof.ScSpec Cert.Proof.ScViews Cert.Proof.ScRows
open Cert.Proof.TcAlg (K 𝒱₀ UH UU)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (d : Dev nD) (L : grid0.Coords)

/-- Position `m` of the task's slice of a transposed list is position `offset + m` of the list. -/
theorem i2Sl_emb (m : ℕ) (hm : m < 3328) :
    (i2Sl L).view.emb (ix1 3328 (by decide) m) = ix1 106496 (by decide) (6656 * (L 1).val + 3328 * (L 0).val + m) := by
  have h1 : (L 1).val < 16 := (L 1).isLt
  have h0 : (L 0).val < 2 := (L 0).isLt
  have hoff : k0_off1 L 0 = 6656 * (L 1).val + 3328 * (L 0).val := by rw [k0_off1_eq L]; rfl
  funext a
  match a with
  | ⟨0, _⟩ =>
    apply Fin.ext
    show k0_off1 L 0 + 1 * (m % 3328) = (6656 * (L 1).val + 3328 * (L 0).val + m) % 106496
    rw [hoff]; omega

theorem xvSl_emb (m : ℕ) (hm : m < 3328) :
    (xvSl L).view.emb (ix1 3328 (by decide) m) = ix1 106496 (by decide) (6656 * (L 1).val + 3328 * (L 0).val + m) :=
  i2Sl_emb L m hm

/-- A chunk's block of scaled rows holds the second-order result's values on the elements it is stored at. -/
theorem e2_block_val (Tb : Buf (Elt F) (tLoc d)) (I2 : Buf (Elt F) (i2Loc d)) (XV : Buf (Elt F) (xvLoc d))
    (c0 : S3328.Idx → BitVec 32) (X4 : S3328.Idx → F .f32)
    (hc0 : ∀ j, c0 j = I2 ((i2Sl L).view.emb j)) (hX4 : ∀ j, X4 j = XV ((xvSl L).view.emb j))
    (c : ℕ) (hc : c < 26) (G fc : S128x128.Idx → F .f32)
    (hG : ∀ x, G x = Tb (ix2 26000 128 (by decide) (by decide) (c0 (ix1 3328 (by decide) (128 * c + (x 0).val))).toNat (x 1).val))
    (hfc : rowsDone c G X4 128 fc)
    (o : Fin 2 → ℕ) (ho : o = ![256 * (L 1).val + 128 * (L 0).val, 128 * c])
    (inb : ∀ a, o a + S128x128.size a ≤ S4096x3328.size a) :
    ∀ x : S128x128.Idx, fc x = E2 Tb I2 XV (((e2V).slice (Rect.unit (s := S4096x3328) o S128x128.size inb) (fun _ => rfl)).view.emb x) := by
  intro x
  have h1 : (L 1).val < 16 := (L 1).isLt
  have h0 : (L 0).val < 2 := (L 0).isLt
  have hx0 : (x 0).val < 128 := (x 0).isLt
  have hx1 : (x 1).val < 128 := (x 1).isLt
  subst ho
  have hy0 : ((((e2V).slice (Rect.unit (s := S4096x3328) ![256 * (L 1).val + 128 * (L 0).val, 128 * c] S128x128.size inb) (fun _ => rfl)).view.emb x) 0).val
      = 256 * (L 1).val + 128 * (L 0).val + 1 * (x 0).val := rfl
  have hy1 : ((((e2V).slice (Rect.unit (s := S4096x3328) ![256 * (L 1).val + 128 * (L 0).val, 128 * c] S128x128.size inb) (fun _ => rfl)).view.emb x) 1).val
      = 128 * c + 1 * (x 1).val := rfl
  have hm : 128 * c + (x 0).val < 3328 := by omega
  rw [hfc x, if_pos hx0, hG x, hX4, hc0, show c * 128 + (x 0).val = 128 * c + (x 0).val from by omega, i2Sl_emb L _ hm, xvSl_emb L _ hm]
  unfold E2
  rw [hy0, hy1]
  have hpos : pos (256 * (L 1).val + 128 * (L 0).val + 1 * (x 0).val) ((128 * c + 1 * (x 1).val) / 128)
      = 6656 * (L 1).val + 3328 * (L 0).val + (128 * c + (x 0).val) := by
    unfold pos; omega
  have hcol : ix2 26000 128 (by decide) (by decide)
        (I2 (ix1 106496 (by decide) (6656 * (L 1).val + 3328 * (L 0).val + (128 * c + (x 0).val)))).toNat (x 1).val
      = ix2 26000 128 (by decide) (by decide)
        (I2 (ix1 106496 (by decide) (6656 * (L 1).val + 3328 * (L 0).val + (128 * c + (x 0).val)))).toNat ((128 * c + 1 * (x 1).val) % 128) := by
    funext a
    match a with
    | ⟨0, _⟩ => rfl
    | ⟨1, _⟩ => apply Fin.ext; show (x 1).val % 128 = (128 * c + 1 * (x 1).val) % 128 % 128; omega
  rw [hpos, hcol]

/-- The first-order weights the task gathers are the first-order result's values on its slice. -/
theorem so_val (IS : Buf (Elt F) (isLoc d)) (WF : Buf (Elt F) (wfLoc d)) (c1 : S4096.Idx → BitVec 32) (c2 : S26008.Idx → F .f32)
    (hc1 : ∀ j, c1 j = IS ((isSl L).view.emb j)) (hc2 : ∀ j, c2 j = WF j)
    (f3 : S4096.Idx → F .f32) (hf3 : ∀ j : S4096.Idx, (j 0).val < 16 * 256 → f3 j = c2 (ix1 26008 (by decide) (c1 j).toNat)) :
    ∀ x : S4096.Idx, f3 x = SS IS WF ((soSl L).view.emb x) := by
  intro x
  rw [hf3 x (x 0).isLt, hc2, hc1]
  rfl

end Cert.Proof.ScVal

end
-- ==== Proof.ScBody.lean ====
/-
  One vector-subcore task, run from what it holds of the arrays to what it hands back: the index list fetched, two
  gathers started, the feature values, the padded indices and the weights fetched, the first-order weights gathered
  and copied out, and then, chunk by chunk, the next-but-one gather started (once the row buffer's last copy-out has
  landed), the chunk's gather awaited, its rows scaled and the buffer copied out to its column block; at the end the
  outstanding copy-outs awaited. Every row buffer, index chunk and column block is held by exactly one transfer at a
  time; the values are carried along.
-/
import proofs.«207592_g65111704207794_cont_9to1_m_407_36_alg».proof.Proof.ScViews
import proofs.«207592_g65111704207794_cont_9to1_m_407_36_alg».proof.Proof.ScLoops
import proofs.«207592_g65111704207794_cont_9to1_m_407_36_alg».proof.Proof.ScSplit
import proofs.«207592_g65111704207794_cont_9to1_m_407_36_alg».proof.Proof.ScFin
import proofs.«207592_g65111704207794_cont_9to1_m_407_36_alg».proof.Proof.ScGather
import proofs.«207592_g65111704207794_cont_9to1_m_407_36_alg».proof.Proof.ScVal

noncomputable section

namespace Cert.Proof.ScBody

open Cert.KernelIdeal Cert.KernelIdeal.Gen
open Cert.Proof.ScSpec Cert.Proof.ScViews Cert.Proof.ScRows Cert.Proof.ScLoops Cert.Proof.ScSplit Cert.Proof.ScGather Cert.Proof.ScVal
open Cert.Proof.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

set_option maxHeartbeats 40000000 in
theorem tile_body (hF : (K (F := F)).Facts) (qT qW : PosShare TreeShare)
    (Tb : Buf (Elt F) (tLoc d)) (I2 : Buf (Elt F) (i2Loc d)) (IS : Buf (Elt F) (isLoc d)) (WF : Buf (Elt F) (wfLoc d)) (XV : Buf (Elt F) (xvLoc d))
    (hI2 : ∀ k, (I2 k).toNat < 26000) (hIS : ∀ k, (IS k).toNat < 26008)
    (O : CellTallies nD τ sig (HIx 1)) (W : Waits sig (HIx 1)) (hO : ∀ g, O g none = 0) :
    iprop(levAts (K (F := F)).L (K (F := F)).lev ∗ emp ∗ GO d L qT qW Tb I2 IS WF XV
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (task (F := F) L)
          fun _ => iprop(TD d L qT qW Tb I2 IS WF XV ∗ scopedBufs (V d (cV L) (jV L)) ∗ scopedSems0 (V d (cV L) (jV L))
            ∗ ∃ W', ⌜∀ p ∈ W', p ∈ W ∨ p.2 = none⌝ ∗ owes (V d (cV L) (jV L)) O W') := by
  unfold task
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨HT, HWF, HI2, HXV, HIS, ⟨%fe, HE2⟩, ⟨%fo, HSO⟩⟩, ⟨⟨⟨%f0, Hs0⟩, ⟨%f1, Hs1⟩, ⟨%f2, Hs2⟩, ⟨%f3, Hs3⟩, ⟨%f4, Hs4⟩, ⟨%g0, Hr0⟩, ⟨%g1, Hr1⟩, ⟨%g2, Hr2⟩, ⟨%g3, Hr3⟩⟩, Hbufs⟩, ⟨⟨Hsem0, Hsem1, Hsem2, Hsem3, Hsem4, Hsem5, Hsem6, Hsem7, Hsem8, Hsem9, Hsem10, Hsem11, Hsem12⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave HT' := (Entails.of_eq (show (tLoc d ↦{qT} Tb : sProp 𝕄) = ((tV).view.loc (V d (cV L) (jV L)) ↦{qT} Tb) from rfl)) $$ HT
  ihave HWF' := (Entails.of_eq (show (wfLoc d ↦{qW} WF : sProp 𝕄) = ((wfV).view.loc (V d (cV L) (jV L)) ↦{qW} WF) from rfl)) $$ HWF
  ihave HI2' := (Entails.of_eq (show (i2Loc d ↦[i2Set L]{fullShare} I2 : sProp 𝕄) = ((i2Sl L).view.loc (V d (cV L) (jV L)) ↦[(i2Sl L).view.set]{fullShare} I2) from rfl)) $$ HI2
  ihave HXV' := (Entails.of_eq (show (xvLoc d ↦[xvSet L]{fullShare} XV : sProp 𝕄) = ((xvSl L).view.loc (V d (cV L) (jV L)) ↦[(xvSl L).view.set]{fullShare} XV) from rfl)) $$ HXV
  ihave HIS' := (Entails.of_eq (show (isLoc d ↦[isSet L]{fullShare} IS : sProp 𝕄) = ((isSl L).view.loc (V d (cV L) (jV L)) ↦[(isSl L).view.set]{fullShare} IS) from rfl)) $$ HIS
  ihave HSO' := (Entails.of_eq (show (soLoc d ↦[soSet L]{fullShare} fo : sProp 𝕄) = ((soSl L).view.loc (V d (cV L) (jV L)) ↦[(soSl L).view.set]{fullShare} fo) from rfl)) $$ HSO
  ihave Hs0' := (Entails.of_eq (show (sloc d L cc0_scratch0 ↦{fullShare} f0 : sProp 𝕄) = ((s0V).view.loc (V d (cV L) (jV L)) ↦{fullShare} f0) from rfl)) $$ Hs0
  ihave Hs1' := (Entails.of_eq (show (sloc d L cc0_scratch1 ↦{fullShare} f1 : sProp 𝕄) = ((s1V).view.loc (V d (cV L) (jV L)) ↦{fullShare} f1) from rfl)) $$ Hs1
  ihave Hs2' := (Entails.of_eq (show (sloc d L cc0_scratch2 ↦{fullShare} f2 : sProp 𝕄) = ((s2V).view.loc (V d (cV L) (jV L)) ↦{fullShare} f2) from rfl)) $$ Hs2
  ihave Hs3' := (Entails.of_eq (show (sloc d L cc0_scratch3 ↦{fullShare} f3 : sProp 𝕄) = ((s3V).view.loc (V d (cV L) (jV L)) ↦{fullShare} f3) from rfl)) $$ Hs3
  ihave Hs4' := (Entails.of_eq (show (sloc d L cc0_scratch4 ↦{fullShare} f4 : sProp 𝕄) = ((s4V).view.loc (V d (cV L) (jV L)) ↦{fullShare} f4) from rfl)) $$ Hs4
  ihave Hr0' := (Entails.of_eq (show (sloc d L cc0_scratch5 ↦{fullShare} g0 : sProp 𝕄) = ((r0V).view.loc (V d (cV L) (jV L)) ↦{fullShare} g0) from rfl)) $$ Hr0
  ihave Hr1' := (Entails.of_eq (show (sloc d L cc0_scratch6 ↦{fullShare} g1 : sProp 𝕄) = ((r1V).view.loc (V d (cV L) (jV L)) ↦{fullShare} g1) from rfl)) $$ Hr1
  ihave Hr2' := (Entails.of_eq (show (sloc d L cc0_scratch7 ↦{fullShare} g2 : sProp 𝕄) = ((r2V).view.loc (V d (cV L) (jV L)) ↦{fullShare} g2) from rfl)) $$ Hr2
  ihave Hr3' := (Entails.of_eq (show (sloc d L cc0_scratch8 ↦{fullShare} g3 : sProp 𝕄) = ((r3V).view.loc (V d (cV L) (jV L)) ↦{fullShare} g3) from rfl)) $$ Hr3

  -- the table's share in four
  ihave HTs := (pointsTo_share (PosShare.mem_left_op_right qT)).1 $$ HT'
  icases HTs with ⟨HTl, HTr⟩
  ihave HTs := (pointsTo_share (PosShare.mem_left_op_right qT.left)).1 $$ HTl
  icases HTs with ⟨HT0, HT1⟩
  ihave HTs := (pointsTo_share (PosShare.mem_left_op_right qT.right)).1 $$ HTr
  icases HTs with ⟨HT2, HT3⟩
  -- the task's rows of the second-order result in their 26 column blocks
  ihave HE := (Entails.of_eq (e2_split d L fe)) $$ HE2
  icases HE with ⟨He0, He1, He2, He3, He4, He5, He6, He7, He8, He9, He10, He11, He12, He13, He14, He15, He16, He17, He18, He19, He20, He21, He22, He23, He24, He25⟩
  sl_exec
  generalize hc0 : View.write (Elt F) (s0V).view f0 _ Finset.univ = c0
  have hin : ∀ j, (c0 j).toNat < 26000 := by
    subst hc0; intro j; rw [View.write_whole_univ]; exact hI2 _
  ihave Hs0s := (Entails.of_eq (s0_split d L c0)) $$ Hs0'
  icases Hs0s with ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25⟩

  -- the gather of chunk 0 into row buffer 0
  iapply (gather0 d L 0 (Nat.le_of_ble_eq_true rfl) _ Tb _ c0 hin) $$ [HT0 Hr0' Hc0 Hsem0]
  · isplitl [HT0]; · iexact HT0
    isplitl [Hr0']; · iexact Hr0'
    isplitl [Hc0]; · iexact Hc0
    iexact Hsem0
  iintro Hfl0
  sl_exec

  -- the gather of chunk 1 into row buffer 1
  iapply (gather1 d L 128 (Nat.le_of_ble_eq_true rfl) _ Tb _ c0 hin) $$ [HT1 Hr1' Hc1 Hsem1]
  · isplitl [HT1]; · iexact HT1
    isplitl [Hr1']; · iexact Hr1'
    isplitl [Hc1]; · iexact Hc1
    iexact Hsem1
  iintro Hfl1
  sl_exec

  -- the landed lists and values, under names; the checked range of the padded index list
  generalize hX4 : View.write (Elt F) (s4V).view f4 _ Finset.univ = X4
  generalize hc1 : View.write (Elt F) (s1V).view f1 _ Finset.univ = c1
  generalize hc2 : View.write (Elt F) (s2V).view f2 _ Finset.univ = c2
  have hc1b : ∀ j, (c1 j).toNat < 26008 := by
    subst hc1; intro j; rw [View.write_whole_univ]; exact hIS _
  have hc0v : ∀ j, c0 j = I2 ((i2Sl L).view.emb j) := by
    subst hc0; intro j; rw [View.write_whole_univ]; rfl
  have hX4v : ∀ j, X4 j = XV ((xvSl L).view.emb j) := by
    subst hX4; intro j; rw [View.write_whole_univ]; rfl
  have hc1v : ∀ j, c1 j = IS ((isSl L).view.emb j) := by
    subst hc1; intro j; rw [View.write_whole_univ]; rfl
  have hc2v : ∀ j, c2 j = WF j := by
    subst hc2; intro j; rw [View.write_whole_univ]; rfl
  -- the first-order loop
  sl_for (invS d L c1 c2) $$ [Hs1' Hs2' Hs3']
  case region => intro k _; exact trip_s d L c1 c2 hc1b k
  · unfold invS
    isplitl [Hs1']; · iexact Hs1'
    isplitl [Hs2']; · iexact Hs2'
    iexists _; isplitl [Hs3']; · iexact Hs3'
    ipureintro; intro j hj; exact absurd hj (Nat.not_lt_zero _)
  iintro %_ HI
  unfold invS
  icases HI with ⟨Hs1', Hs2', %f3', Hs3', %hf3⟩
  sl_exec
  -- the gather of chunk 2 into row buffer 2
  iapply (gather2 d L 256 (Nat.le_of_ble_eq_true rfl) _ Tb _ c0 hin) $$ [HT2 Hr2' Hc2 Hsem2]
  · isplitl [HT2]; · iexact HT2
    isplitl [Hr2']; · iexact Hr2'
    isplitl [Hc2]; · iexact Hc2
    iexact Hsem2
  iintro Hfl2
  sl_exec
  -- the wait for the gather of chunk 0
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc0⟩, Hsem0, HO⟩
  sl_exec
  -- the scaling loop of chunk 0
  sl_for (invR_0 d L (gath0 d L 0 (Nat.le_of_ble_eq_true rfl) Tb _ c0 hin) X4) $$ [Hs4' Hr0']
  case region => intro k _; exact trip_r_0 d L _ X4 k
  · unfold invR_0
    isplitl [Hs4']; · iexact Hs4'
    iexists _; isplitl [Hr0']; · iexact Hr0'
    ipureintro; intro x; rw [if_neg (Nat.not_lt_zero _)]
  iintro %_ HI
  unfold invR_0
  icases HI with ⟨Hs4', %fc0, Hr0', %hfc0⟩
  sl_exec
  -- the gather of chunk 3 into row buffer 3
  iapply (gather3 d L 384 (Nat.le_of_ble_eq_true rfl) _ Tb _ c0 hin) $$ [HT3 Hr3' Hc3 Hsem3]
  · isplitl [HT3]; · iexact HT3
    isplitl [Hr3']; · iexact Hr3'
    isplitl [Hc3]; · iexact Hc3
    iexact Hsem3
  iintro Hfl3
  sl_exec
  -- the wait for the gather of chunk 1
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc1⟩, Hsem1, HO⟩
  sl_exec
  -- the scaling loop of chunk 1
  sl_for (invR_1 d L (gath1 d L 128 (Nat.le_of_ble_eq_true rfl) Tb _ c0 hin) X4) $$ [Hs4' Hr1']
  case region => intro k _; exact trip_r_1 d L _ X4 k
  · unfold invR_1
    isplitl [Hs4']; · iexact Hs4'
    iexists _; isplitl [Hr1']; · iexact Hr1'
    ipureintro; intro x; rw [if_neg (Nat.not_lt_zero _)]
  iintro %_ HI
  unfold invR_1
  icases HI with ⟨Hs4', %fc1, Hr1', %hfc1⟩
  sl_exec
  -- the gather of chunk 4 into row buffer 0
  iapply (gather0 d L 512 (Nat.le_of_ble_eq_true rfl) _ Tb _ c0 hin) $$ [HT0 Hr0' Hc4 Hsem0]
  · isplitl [HT0]; · iexact HT0
    isplitl [Hr0']; · iexact Hr0'
    isplitl [Hc4]; · iexact Hc4
    iexact Hsem0
  iintro Hfl0
  sl_exec
  -- the wait for the gather of chunk 2
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc2⟩, Hsem2, HO⟩
  sl_exec
  -- the scaling loop of chunk 2
  sl_for (invR_2 d L (gath2 d L 256 (Nat.le_of_ble_eq_true rfl) Tb _ c0 hin) X4) $$ [Hs4' Hr2']
  case region => intro k _; exact trip_r_2 d L _ X4 k
  · unfold invR_2
    isplitl [Hs4']; · iexact Hs4'
    iexists _; isplitl [Hr2']; · iexact Hr2'
    ipureintro; intro x; rw [if_neg (Nat.not_lt_zero _)]
  iintro %_ HI
  unfold invR_2
  icases HI with ⟨Hs4', %fc2, Hr2', %hfc2⟩
  sl_exec
  -- the gather of chunk 5 into row buffer 1
  iapply (gather1 d L 640 (Nat.le_of_ble_eq_true rfl) _ Tb _ c0 hin) $$ [HT1 Hr1' Hc5 Hsem1]
  · isplitl [HT1]; · iexact HT1
    isplitl [Hr1']; · iexact Hr1'
    isplitl [Hc5]; · iexact Hc5
    iexact Hsem1
  iintro Hfl1
  sl_exec
  -- the wait for the gather of chunk 3
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc3⟩, Hsem3, HO⟩
  sl_exec
  -- the scaling loop of chunk 3
  sl_for (invR_3 d L (gath3 d L 384 (Nat.le_of_ble_eq_true rfl) Tb _ c0 hin) X4) $$ [Hs4' Hr3']
  case region => intro k _; exact trip_r_3 d L _ X4 k
  · unfold invR_3
    isplitl [Hs4']; · iexact Hs4'
    iexists _; isplitl [Hr3']; · iexact Hr3'
    ipureintro; intro x; rw [if_neg (Nat.not_lt_zero _)]
  iintro %_ HI
  unfold invR_3
  icases HI with ⟨Hs4', %fc3, Hr3', %hfc3⟩
  sl_exec
  -- the gather of chunk 6 into row buffer 2
  iapply (gather2 d L 768 (Nat.le_of_ble_eq_true rfl) _ Tb _ c0 hin) $$ [HT2 Hr2' Hc6 Hsem2]
  · isplitl [HT2]; · iexact HT2
    isplitl [Hr2']; · iexact Hr2'
    isplitl [Hc6]; · iexact Hc6
    iexact Hsem2
  iintro Hfl2
  sl_exec
  -- the wait for the gather of chunk 4
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc4⟩, Hsem0, HO⟩
  sl_exec
  -- the scaling loop of chunk 4
  sl_for (invR_4 d L (gath0 d L 512 (Nat.le_of_ble_eq_true rfl) Tb _ c0 hin) X4) $$ [Hs4' Hr0']
  case region => intro k _; exact trip_r_4 d L _ X4 k
  · unfold invR_4
    isplitl [Hs4']; · iexact Hs4'
    iexists _; isplitl [Hr0']; · iexact Hr0'
    ipureintro; intro x; rw [if_neg (Nat.not_lt_zero _)]
  iintro %_ HI
  unfold invR_4
  icases HI with ⟨Hs4', %fc4, Hr0', %hfc4⟩
  sl_exec
  -- the gather of chunk 7 into row buffer 3
  iapply (gather3 d L 896 (Nat.le_of_ble_eq_true rfl) _ Tb _ c0 hin) $$ [HT3 Hr3' Hc7 Hsem3]
  · isplitl [HT3]; · iexact HT3
    isplitl [Hr3']; · iexact Hr3'
    isplitl [Hc7]; · iexact Hc7
    iexact Hsem3
  iintro Hfl3
  sl_exec
  -- the wait for the gather of chunk 5
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc5⟩, Hsem1, HO⟩
  sl_exec
  -- the scaling loop of chunk 5
  sl_for (invR_5 d L (gath1 d L 640 (Nat.le_of_ble_eq_true rfl) Tb _ c0 hin) X4) $$ [Hs4' Hr1']
  case region => intro k _; exact trip_r_5 d L _ X4 k
  · unfold invR_5
    isplitl [Hs4']; · iexact Hs4'
    iexists _; isplitl [Hr1']; · iexact Hr1'
    ipureintro; intro x; rw [if_neg (Nat.not_lt_zero _)]
  iintro %_ HI
  unfold invR_5
  icases HI with ⟨Hs4', %fc5, Hr1', %hfc5⟩
  sl_exec
  -- the gather of chunk 8 into row buffer 0
  iapply (gather0 d L 1024 (Nat.le_of_ble_eq_true rfl) _ Tb _ c0 hin) $$ [HT0 Hr0' Hc8 Hsem0]
  · isplitl [HT0]; · iexact HT0
    isplitl [Hr0']; · iexact Hr0'
    isplitl [Hc8]; · iexact Hc8
    iexact Hsem0
  iintro Hfl0
  sl_exec
  -- the wait for the gather of chunk 6
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc6⟩, Hsem2, HO⟩
  sl_exec
  -- the scaling loop of chunk 6
  sl_for (invR_6 d L (gath2 d L 768 (Nat.le_of_ble_eq_true rfl) Tb _ c0 hin) X4) $$ [Hs4' Hr2']
  case region => intro k _; exact trip_r_6 d L _ X4 k
  · unfold invR_6
    isplitl [Hs4']; · iexact Hs4'
    iexists _; isplitl [Hr2']; · iexact Hr2'
    ipureintro; intro x; rw [if_neg (Nat.not_lt_zero _)]
  iintro %_ HI
  unfold invR_6
  icases HI with ⟨Hs4', %fc6, Hr2', %hfc6⟩
  sl_exec
  -- the gather of chunk 9 into row buffer 1
  iapply (gather1 d L 1152 (Nat.le_of_ble_eq_true rfl) _ Tb _ c0 hin) $$ [HT1 Hr1' Hc9 Hsem1]
  · isplitl [HT1]; · iexact HT1
    isplitl [Hr1']; · iexact Hr1'
    isplitl [Hc9]; · iexact Hc9
    iexact Hsem1
  iintro Hfl1
  sl_exec
  -- the wait for the gather of chunk 7
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc7⟩, Hsem3, HO⟩
  sl_exec
  -- the scaling loop of chunk 7
  sl_for (invR_7 d L (gath3 d L 896 (Nat.le_of_ble_eq_true rfl) Tb _ c0 hin) X4) $$ [Hs4' Hr3']
  case region => intro k _; exact trip_r_7 d L _ X4 k
  · unfold invR_7
    isplitl [Hs4']; · iexact Hs4'
    iexists _; isplitl [Hr3']; · iexact Hr3'
    ipureintro; intro x; rw [if_neg (Nat.not_lt_zero _)]
  iintro %_ HI
  unfold invR_7
  icases HI with ⟨Hs4', %fc7, Hr3', %hfc7⟩
  sl_exec
  -- the gather of chunk 10 into row buffer 2
  iapply (gather2 d L 1280 (Nat.le_of_ble_eq_true rfl) _ Tb _ c0 hin) $$ [HT2 Hr2' Hc10 Hsem2]
  · isplitl [HT2]; · iexact HT2
    isplitl [Hr2']; · iexact Hr2'
    isplitl [Hc10]; · iexact Hc10
    iexact Hsem2
  iintro Hfl2
  sl_exec
  -- the wait for the gather of chunk 8
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc8⟩, Hsem0, HO⟩
  sl_exec
  -- the scaling loop of chunk 8
  sl_for (invR_8 d L (gath0 d L 1024 (Nat.le_of_ble_eq_true rfl) Tb _ c0 hin) X4) $$ [Hs4' Hr0']
  case region => intro k _; exact trip_r_8 d L _ X4 k
  · unfold invR_8
    isplitl [Hs4']; · iexact Hs4'
    iexists _; isplitl [Hr0']; · iexact Hr0'
    ipureintro; intro x; rw [if_neg (Nat.not_lt_zero _)]
  iintro %_ HI
  unfold invR_8
  icases HI with ⟨Hs4', %fc8, Hr0', %hfc8⟩
  sl_exec
  -- the gather of chunk 11 into row buffer 3
  iapply (gather3 d L 1408 (Nat.le_of_ble_eq_true rfl) _ Tb _ c0 hin) $$ [HT3 Hr3' Hc11 Hsem3]
  · isplitl [HT3]; · iexact HT3
    isplitl [Hr3']; · iexact Hr3'
    isplitl [Hc11]; · iexact Hc11
    iexact Hsem3
  iintro Hfl3
  sl_exec
  -- the wait for the gather of chunk 9
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc9⟩, Hsem1, HO⟩
  sl_exec
  -- the scaling loop of chunk 9
  sl_for (invR_9 d L (gath1 d L 1152 (Nat.le_of_ble_eq_true rfl) Tb _ c0 hin) X4) $$ [Hs4' Hr1']
  case region => intro k _; exact trip_r_9 d L _ X4 k
  · unfold invR_9
    isplitl [Hs4']; · iexact Hs4'
    iexists _; isplitl [Hr1']; · iexact Hr1'
    ipureintro; intro x; rw [if_neg (Nat.not_lt_zero _)]
  iintro %_ HI
  unfold invR_9
  icases HI with ⟨Hs4', %fc9, Hr1', %hfc9⟩
  sl_exec
  -- the gather of chunk 12 into row buffer 0
  iapply (gather0 d L 1536 (Nat.le_of_ble_eq_true rfl) _ Tb _ c0 hin) $$ [HT0 Hr0' Hc12 Hsem0]
  · isplitl [HT0]; · iexact HT0
    isplitl [Hr0']; · iexact Hr0'
    isplitl [Hc12]; · iexact Hc12
    iexact Hsem0
  iintro Hfl0
  sl_exec
  -- the wait for the gather of chunk 10
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc10⟩, Hsem2, HO⟩
  sl_exec
  -- the scaling loop of chunk 10
  sl_for (invR_10 d L (gath2 d L 1280 (Nat.le_of_ble_eq_true rfl) Tb _ c0 hin) X4) $$ [Hs4' Hr2']
  case region => intro k _; exact trip_r_10 d L _ X4 k
  · unfold invR_10
    isplitl [Hs4']; · iexact Hs4'
    iexists _; isplitl [Hr2']; · iexact Hr2'
    ipureintro; intro x; rw [if_neg (Nat.not_lt_zero _)]
  iintro %_ HI
  unfold invR_10
  icases HI with ⟨Hs4', %fc10, Hr2', %hfc10⟩
  sl_exec
  -- the gather of chunk 13 into row buffer 1
  iapply (gather1 d L 1664 (Nat.le_of_ble_eq_true rfl) _ Tb _ c0 hin) $$ [HT1 Hr1' Hc13 Hsem1]
  · isplitl [HT1]; · iexact HT1
    isplitl [Hr1']; · iexact Hr1'
    isplitl [Hc13]; · iexact Hc13
    iexact Hsem1
  iintro Hfl1
  sl_exec
  -- the wait for the gather of chunk 11
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc11⟩, Hsem3, HO⟩
  sl_exec
  -- the scaling loop of chunk 11
  sl_for (invR_11 d L (gath3 d L 1408 (Nat.le_of_ble_eq_true rfl) Tb _ c0 hin) X4) $$ [Hs4' Hr3']
  case region => intro k _; exact trip_r_11 d L _ X4 k
  · unfold invR_11
    isplitl [Hs4']; · iexact Hs4'
    iexists _; isplitl [Hr3']; · iexact Hr3'
    ipureintro; intro x; rw [if_neg (Nat.not_lt_zero _)]
  iintro %_ HI
  unfold invR_11
  icases HI with ⟨Hs4', %fc11, Hr3', %hfc11⟩
  sl_exec
  -- the gather of chunk 14 into row buffer 2
  iapply (gather2 d L 1792 (Nat.le_of_ble_eq_true rfl) _ Tb _ c0 hin) $$ [HT2 Hr2' Hc14 Hsem2]
  · isplitl [HT2]; · iexact HT2
    isplitl [Hr2']; · iexact Hr2'
    isplitl [Hc14]; · iexact Hc14
    iexact Hsem2
  iintro Hfl2
  sl_exec
  -- the wait for the gather of chunk 12
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc12⟩, Hsem0, HO⟩
  sl_exec
  -- the scaling loop of chunk 12
  sl_for (invR_12 d L (gath0 d L 1536 (Nat.le_of_ble_eq_true rfl) Tb _ c0 hin) X4) $$ [Hs4' Hr0']
  case region => intro k _; exact trip_r_12 d L _ X4 k
  · unfold invR_12
    isplitl [Hs4']; · iexact Hs4'
    iexists _; isplitl [Hr0']; · iexact Hr0'
    ipureintro; intro x; rw [if_neg (Nat.not_lt_zero _)]
  iintro %_ HI
  unfold invR_12
  icases HI with ⟨Hs4', %fc12, Hr0', %hfc12⟩
  sl_exec
  -- the gather of chunk 15 into row buffer 3
  iapply (gather3 d L 1920 (Nat.le_of_ble_eq_true rfl) _ Tb _ c0 hin) $$ [HT3 Hr3' Hc15 Hsem3]
  · isplitl [HT3]; · iexact HT3
    isplitl [Hr3']; · iexact Hr3'
    isplitl [Hc15]; · iexact Hc15
    iexact Hsem3
  iintro Hfl3
  sl_exec
  -- the wait for the gather of chunk 13
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc13⟩, Hsem1, HO⟩
  sl_exec
  -- the scaling loop of chunk 13
  sl_for (invR_13 d L (gath1 d L 1664 (Nat.le_of_ble_eq_true rfl) Tb _ c0 hin) X4) $$ [Hs4' Hr1']
  case region => intro k _; exact trip_r_13 d L _ X4 k
  · unfold invR_13
    isplitl [Hs4']; · iexact Hs4'
    iexists _; isplitl [Hr1']; · iexact Hr1'
    ipureintro; intro x; rw [if_neg (Nat.not_lt_zero _)]
  iintro %_ HI
  unfold invR_13
  icases HI with ⟨Hs4', %fc13, Hr1', %hfc13⟩
  sl_exec
  -- the gather of chunk 16 into row buffer 0
  iapply (gather0 d L 2048 (Nat.le_of_ble_eq_true rfl) _ Tb _ c0 hin) $$ [HT0 Hr0' Hc16 Hsem0]
  · isplitl [HT0]; · iexact HT0
    isplitl [Hr0']; · iexact Hr0'
    isplitl [Hc16]; · iexact Hc16
    iexact Hsem0
  iintro Hfl0
  sl_exec
  -- the wait for the gather of chunk 14
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc14⟩, Hsem2, HO⟩
  sl_exec
  -- the scaling loop of chunk 14
  sl_for (invR_14 d L (gath2 d L 1792 (Nat.le_of_ble_eq_true rfl) Tb _ c0 hin) X4) $$ [Hs4' Hr2']
  case region => intro k _; exact trip_r_14 d L _ X4 k
  · unfold invR_14
    isplitl [Hs4']; · iexact Hs4'
    iexists _; isplitl [Hr2']; · iexact Hr2'
    ipureintro; intro x; rw [if_neg (Nat.not_lt_zero _)]
  iintro %_ HI
  unfold invR_14
  icases HI with ⟨Hs4', %fc14, Hr2', %hfc14⟩
  sl_exec
  -- the gather of chunk 17 into row buffer 1
  iapply (gather1 d L 2176 (Nat.le_of_ble_eq_true rfl) _ Tb _ c0 hin) $$ [HT1 Hr1' Hc17 Hsem1]
  · isplitl [HT1]; · iexact HT1
    isplitl [Hr1']; · iexact Hr1'
    isplitl [Hc17]; · iexact Hc17
    iexact Hsem1
  iintro Hfl1
  sl_exec
  -- the wait for the gather of chunk 15
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc15⟩, Hsem3, HO⟩
  sl_exec
  -- the scaling loop of chunk 15
  sl_for (invR_15 d L (gath3 d L 1920 (Nat.le_of_ble_eq_true rfl) Tb _ c0 hin) X4) $$ [Hs4' Hr3']
  case region => intro k _; exact trip_r_15 d L _ X4 k
  · unfold invR_15
    isplitl [Hs4']; · iexact Hs4'
    iexists _; isplitl [Hr3']; · iexact Hr3'
    ipureintro; intro x; rw [if_neg (Nat.not_lt_zero _)]
  iintro %_ HI
  unfold invR_15
  icases HI with ⟨Hs4', %fc15, Hr3', %hfc15⟩
  sl_exec
  -- the gather of chunk 18 into row buffer 2
  iapply (gather2 d L 2304 (Nat.le_of_ble_eq_true rfl) _ Tb _ c0 hin) $$ [HT2 Hr2' Hc18 Hsem2]
  · isplitl [HT2]; · iexact HT2
    isplitl [Hr2']; · iexact Hr2'
    isplitl [Hc18]; · iexact Hc18
    iexact Hsem2
  iintro Hfl2
  sl_exec
  -- the wait for the gather of chunk 16
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc16⟩, Hsem0, HO⟩
  sl_exec
  -- the scaling loop of chunk 16
  sl_for (invR_16 d L (gath0 d L 2048 (Nat.le_of_ble_eq_true rfl) Tb _ c0 hin) X4) $$ [Hs4' Hr0']
  case region => intro k _; exact trip_r_16 d L _ X4 k
  · unfold invR_16
    isplitl [Hs4']; · iexact Hs4'
    iexists _; isplitl [Hr0']; · iexact Hr0'
    ipureintro; intro x; rw [if_neg (Nat.not_lt_zero _)]
  iintro %_ HI
  unfold invR_16
  icases HI with ⟨Hs4', %fc16, Hr0', %hfc16⟩
  sl_exec
  -- the gather of chunk 19 into row buffer 3
  iapply (gather3 d L 2432 (Nat.le_of_ble_eq_true rfl) _ Tb _ c0 hin) $$ [HT3 Hr3' Hc19 Hsem3]
  · isplitl [HT3]; · iexact HT3
    isplitl [Hr3']; · iexact Hr3'
    isplitl [Hc19]; · iexact Hc19
    iexact Hsem3
  iintro Hfl3
  sl_exec
  -- the wait for the gather of chunk 17
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc17⟩, Hsem1, HO⟩
  sl_exec
  -- the scaling loop of chunk 17
  sl_for (invR_17 d L (gath1 d L 2176 (Nat.le_of_ble_eq_true rfl) Tb _ c0 hin) X4) $$ [Hs4' Hr1']
  case region => intro k _; exact trip_r_17 d L _ X4 k
  · unfold invR_17
    isplitl [Hs4']; · iexact Hs4'
    iexists _; isplitl [Hr1']; · iexact Hr1'
    ipureintro; intro x; rw [if_neg (Nat.not_lt_zero _)]
  iintro %_ HI
  unfold invR_17
  icases HI with ⟨Hs4', %fc17, Hr1', %hfc17⟩
  sl_exec
  -- the gather of chunk 20 into row buffer 0
  iapply (gather0 d L 2560 (Nat.le_of_ble_eq_true rfl) _ Tb _ c0 hin) $$ [HT0 Hr0' Hc20 Hsem0]
  · isplitl [HT0]; · iexact HT0
    isplitl [Hr0']; · iexact Hr0'
    isplitl [Hc20]; · iexact Hc20
    iexact Hsem0
  iintro Hfl0
  sl_exec
  -- the wait for the gather of chunk 18
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc18⟩, Hsem2, HO⟩
  sl_exec
  -- the scaling loop of chunk 18
  sl_for (invR_18 d L (gath2 d L 2304 (Nat.le_of_ble_eq_true rfl) Tb _ c0 hin) X4) $$ [Hs4' Hr2']
  case region => intro k _; exact trip_r_18 d L _ X4 k
  · unfold invR_18
    isplitl [Hs4']; · iexact Hs4'
    iexists _; isplitl [Hr2']; · iexact Hr2'
    ipureintro; intro x; rw [if_neg (Nat.not_lt_zero _)]
  iintro %_ HI
  unfold invR_18
  icases HI with ⟨Hs4', %fc18, Hr2', %hfc18⟩
  sl_exec
  -- the gather of chunk 21 into row buffer 1
  iapply (gather1 d L 2688 (Nat.le_of_ble_eq_true rfl) _ Tb _ c0 hin) $$ [HT1 Hr1' Hc21 Hsem1]
  · isplitl [HT1]; · iexact HT1
    isplitl [Hr1']; · iexact Hr1'
    isplitl [Hc21]; · iexact Hc21
    iexact Hsem1
  iintro Hfl1
  sl_exec
  -- the wait for the gather of chunk 19
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc19⟩, Hsem3, HO⟩
  sl_exec
  -- the scaling loop of chunk 19
  sl_for (invR_19 d L (gath3 d L 2432 (Nat.le_of_ble_eq_true rfl) Tb _ c0 hin) X4) $$ [Hs4' Hr3']
  case region => intro k _; exact trip_r_19 d L _ X4 k
  · unfold invR_19
    isplitl [Hs4']; · iexact Hs4'
    iexists _; isplitl [Hr3']; · iexact Hr3'
    ipureintro; intro x; rw [if_neg (Nat.not_lt_zero _)]
  iintro %_ HI
  unfold invR_19
  icases HI with ⟨Hs4', %fc19, Hr3', %hfc19⟩
  sl_exec
  -- the gather of chunk 22 into row buffer 2
  iapply (gather2 d L 2816 (Nat.le_of_ble_eq_true rfl) _ Tb _ c0 hin) $$ [HT2 Hr2' Hc22 Hsem2]
  · isplitl [HT2]; · iexact HT2
    isplitl [Hr2']; · iexact Hr2'
    isplitl [Hc22]; · iexact Hc22
    iexact Hsem2
  iintro Hfl2
  sl_exec
  -- the wait for the gather of chunk 20
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc20⟩, Hsem0, HO⟩
  sl_exec
  -- the scaling loop of chunk 20
  sl_for (invR_20 d L (gath0 d L 2560 (Nat.le_of_ble_eq_true rfl) Tb _ c0 hin) X4) $$ [Hs4' Hr0']
  case region => intro k _; exact trip_r_20 d L _ X4 k
  · unfold invR_20
    isplitl [Hs4']; · iexact Hs4'
    iexists _; isplitl [Hr0']; · iexact Hr0'
    ipureintro; intro x; rw [if_neg (Nat.not_lt_zero _)]
  iintro %_ HI
  unfold invR_20
  icases HI with ⟨Hs4', %fc20, Hr0', %hfc20⟩
  sl_exec
  -- the gather of chunk 23 into row buffer 3
  iapply (gather3 d L 2944 (Nat.le_of_ble_eq_true rfl) _ Tb _ c0 hin) $$ [HT3 Hr3' Hc23 Hsem3]
  · isplitl [HT3]; · iexact HT3
    isplitl [Hr3']; · iexact Hr3'
    isplitl [Hc23]; · iexact Hc23
    iexact Hsem3
  iintro Hfl3
  sl_exec
  -- the wait for the gather of chunk 21
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc21⟩, Hsem1, HO⟩
  sl_exec
  -- the scaling loop of chunk 21
  sl_for (invR_21 d L (gath1 d L 2688 (Nat.le_of_ble_eq_true rfl) Tb _ c0 hin) X4) $$ [Hs4' Hr1']
  case region => intro k _; exact trip_r_21 d L _ X4 k
  · unfold invR_21
    isplitl [Hs4']; · iexact Hs4'
    iexists _; isplitl [Hr1']; · iexact Hr1'
    ipureintro; intro x; rw [if_neg (Nat.not_lt_zero _)]
  iintro %_ HI
  unfold invR_21
  icases HI with ⟨Hs4', %fc21, Hr1', %hfc21⟩
  sl_exec
  -- the gather of chunk 24 into row buffer 0
  iapply (gather0 d L 3072 (Nat.le_of_ble_eq_true rfl) _ Tb _ c0 hin) $$ [HT0 Hr0' Hc24 Hsem0]
  · isplitl [HT0]; · iexact HT0
    isplitl [Hr0']; · iexact Hr0'
    isplitl [Hc24]; · iexact Hc24
    iexact Hsem0
  iintro Hfl0
  sl_exec
  -- the wait for the gather of chunk 22
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc22⟩, Hsem2, HO⟩
  sl_exec
  -- the scaling loop of chunk 22
  sl_for (invR_22 d L (gath2 d L 2816 (Nat.le_of_ble_eq_true rfl) Tb _ c0 hin) X4) $$ [Hs4' Hr2']
  case region => intro k _; exact trip_r_22 d L _ X4 k
  · unfold invR_22
    isplitl [Hs4']; · iexact Hs4'
    iexists _; isplitl [Hr2']; · iexact Hr2'
    ipureintro; intro x; rw [if_neg (Nat.not_lt_zero _)]
  iintro %_ HI
  unfold invR_22
  icases HI with ⟨Hs4', %fc22, Hr2', %hfc22⟩
  sl_exec
  -- the gather of chunk 25 into row buffer 1
  iapply (gather1 d L 3200 (Nat.le_of_ble_eq_true rfl) _ Tb _ c0 hin) $$ [HT1 Hr1' Hc25 Hsem1]
  · isplitl [HT1]; · iexact HT1
    isplitl [Hr1']; · iexact Hr1'
    isplitl [Hc25]; · iexact Hc25
    iexact Hsem1
  iintro Hfl1
  sl_exec
  -- the wait for the gather of chunk 23
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc23⟩, Hsem3, HO⟩
  sl_exec
  -- the scaling loop of chunk 23
  sl_for (invR_23 d L (gath3 d L 2944 (Nat.le_of_ble_eq_true rfl) Tb _ c0 hin) X4) $$ [Hs4' Hr3']
  case region => intro k _; exact trip_r_23 d L _ X4 k
  · unfold invR_23
    isplitl [Hs4']; · iexact Hs4'
    iexists _; isplitl [Hr3']; · iexact Hr3'
    ipureintro; intro x; rw [if_neg (Nat.not_lt_zero _)]
  iintro %_ HI
  unfold invR_23
  icases HI with ⟨Hs4', %fc23, Hr3', %hfc23⟩
  sl_exec
  -- the wait for the gather of chunk 24
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc24⟩, Hsem0, HO⟩
  sl_exec
  -- the scaling loop of chunk 24
  sl_for (invR_24 d L (gath0 d L 3072 (Nat.le_of_ble_eq_true rfl) Tb _ c0 hin) X4) $$ [Hs4' Hr0']
  case region => intro k _; exact trip_r_24 d L _ X4 k
  · unfold invR_24
    isplitl [Hs4']; · iexact Hs4'
    iexists _; isplitl [Hr0']; · iexact Hr0'
    ipureintro; intro x; rw [if_neg (Nat.not_lt_zero _)]
  iintro %_ HI
  unfold invR_24
  icases HI with ⟨Hs4', %fc24, Hr0', %hfc24⟩
  sl_exec
  -- the wait for the gather of chunk 25
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc25⟩, Hsem1, HO⟩
  sl_exec
  -- the scaling loop of chunk 25
  sl_for (invR_25 d L (gath1 d L 3200 (Nat.le_of_ble_eq_true rfl) Tb _ c0 hin) X4) $$ [Hs4' Hr1']
  case region => intro k _; exact trip_r_25 d L _ X4 k
  · unfold invR_25
    isplitl [Hs4']; · iexact Hs4'
    iexists _; isplitl [Hr1']; · iexact Hr1'
    ipureintro; intro x; rw [if_neg (Nat.not_lt_zero _)]
  iintro %_ HI
  unfold invR_25
  icases HI with ⟨Hs4', %fc25, Hr1', %hfc25⟩
  sl_exec
  sl_step
  -- the table's share whole again
  ihave HTl := (pointsTo_share (PosShare.mem_left_op_right qT.left)).2 $$ [HT0 HT1]
  · isplitl [HT0]; · iexact HT0
    iexact HT1
  ihave HTr := (pointsTo_share (PosShare.mem_left_op_right qT.right)).2 $$ [HT2 HT3]
  · isplitl [HT2]; · iexact HT2
    iexact HT3
  ihave HT := (pointsTo_share (PosShare.mem_left_op_right qT)).2 $$ [HTl HTr]
  · isplitl [HTl]; · iexact HTl
    iexact HTr
  -- each column block holds the second-order result's values
  ihave He0 := (Entails.of_eq (pointsTo_writes_congr d L (e2Blk0 L) fullShare _ (E2 Tb I2 XV) (tile_body.sl.dma0_5 d L fc0)
      (fun x => e2_block_val d L Tb I2 XV c0 X4 hc0v hX4v 0 (by decide) _ fc0 (gath0_apply d L 0 (Nat.le_of_ble_eq_true rfl) Tb _ c0 hin) hfc0 _ (k0_off13_eq L) _ x))) $$ He0
  ihave He1 := (Entails.of_eq (pointsTo_writes_congr d L (e2Blk1 L) fullShare _ (E2 Tb I2 XV) (tile_body.sl.dma0_6 d L fc1)
      (fun x => e2_block_val d L Tb I2 XV c0 X4 hc0v hX4v 1 (by decide) _ fc1 (gath1_apply d L 128 (Nat.le_of_ble_eq_true rfl) Tb _ c0 hin) hfc1 _ (k0_off22_eq L) _ x))) $$ He1
  ihave He2 := (Entails.of_eq (pointsTo_writes_congr d L (e2Blk2 L) fullShare _ (E2 Tb I2 XV) (tile_body.sl.dma0_7 d L fc2)
      (fun x => e2_block_val d L Tb I2 XV c0 X4 hc0v hX4v 2 (by decide) _ fc2 (gath2_apply d L 256 (Nat.le_of_ble_eq_true rfl) Tb _ c0 hin) hfc2 _ (k0_off31_eq L) _ x))) $$ He2
  ihave He3 := (Entails.of_eq (pointsTo_writes_congr d L (e2Blk3 L) fullShare _ (E2 Tb I2 XV) (tile_body.sl.dma0_8 d L fc3)
      (fun x => e2_block_val d L Tb I2 XV c0 X4 hc0v hX4v 3 (by decide) _ fc3 (gath3_apply d L 384 (Nat.le_of_ble_eq_true rfl) Tb _ c0 hin) hfc3 _ (k0_off40_eq L) _ x))) $$ He3
  ihave He4 := (Entails.of_eq (pointsTo_writes_congr d L (e2Blk4 L) fullShare _ (E2 Tb I2 XV) (tile_body.sl.dma0_9 d L fc4)
      (fun x => e2_block_val d L Tb I2 XV c0 X4 hc0v hX4v 4 (by decide) _ fc4 (gath0_apply d L 512 (Nat.le_of_ble_eq_true rfl) Tb _ c0 hin) hfc4 _ (k0_off49_eq L) _ x))) $$ He4
  ihave He5 := (Entails.of_eq (pointsTo_writes_congr d L (e2Blk5 L) fullShare _ (E2 Tb I2 XV) (tile_body.sl.dma0_10 d L fc5)
      (fun x => e2_block_val d L Tb I2 XV c0 X4 hc0v hX4v 5 (by decide) _ fc5 (gath1_apply d L 640 (Nat.le_of_ble_eq_true rfl) Tb _ c0 hin) hfc5 _ (k0_off58_eq L) _ x))) $$ He5
  ihave He6 := (Entails.of_eq (pointsTo_writes_congr d L (e2Blk6 L) fullShare _ (E2 Tb I2 XV) (tile_body.sl.dma0_11 d L fc6)
      (fun x => e2_block_val d L Tb I2 XV c0 X4 hc0v hX4v 6 (by decide) _ fc6 (gath2_apply d L 768 (Nat.le_of_ble_eq_true rfl) Tb _ c0 hin) hfc6 _ (k0_off67_eq L) _ x))) $$ He6
  ihave He7 := (Entails.of_eq (pointsTo_writes_congr d L (e2Blk7 L) fullShare _ (E2 Tb I2 XV) (tile_body.sl.dma0_12 d L fc7)
      (fun x => e2_block_val d L Tb I2 XV c0 X4 hc0v hX4v 7 (by decide) _ fc7 (gath3_apply d L 896 (Nat.le_of_ble_eq_true rfl) Tb _ c0 hin) hfc7 _ (k0_off76_eq L) _ x))) $$ He7
  ihave He8 := (Entails.of_eq (pointsTo_writes_congr d L (e2Blk8 L) fullShare _ (E2 Tb I2 XV) (tile_body.sl.dma0_13 d L fc8)
      (fun x => e2_block_val d L Tb I2 XV c0 X4 hc0v hX4v 8 (by decide) _ fc8 (gath0_apply d L 1024 (Nat.le_of_ble_eq_true rfl) Tb _ c0 hin) hfc8 _ (k0_off85_eq L) _ x))) $$ He8
  ihave He9 := (Entails.of_eq (pointsTo_writes_congr d L (e2Blk9 L) fullShare _ (E2 Tb I2 XV) (tile_body.sl.dma0_14 d L fc9)
      (fun x => e2_block_val d L Tb I2 XV c0 X4 hc0v hX4v 9 (by decide) _ fc9 (gath1_apply d L 1152 (Nat.le_of_ble_eq_true rfl) Tb _ c0 hin) hfc9 _ (k0_off94_eq L) _ x))) $$ He9
  ihave He10 := (Entails.of_eq (pointsTo_writes_congr d L (e2Blk10 L) fullShare _ (E2 Tb I2 XV) (tile_body.sl.dma0_15 d L fc10)
      (fun x => e2_block_val d L Tb I2 XV c0 X4 hc0v hX4v 10 (by decide) _ fc10 (gath2_apply d L 1280 (Nat.le_of_ble_eq_true rfl) Tb _ c0 hin) hfc10 _ (k0_off103_eq L) _ x))) $$ He10
  ihave He11 := (Entails.of_eq (pointsTo_writes_congr d L (e2Blk11 L) fullShare _ (E2 Tb I2 XV) (tile_body.sl.dma0_16 d L fc11)
      (fun x => e2_block_val d L Tb I2 XV c0 X4 hc0v hX4v 11 (by decide) _ fc11 (gath3_apply d L 1408 (Nat.le_of_ble_eq_true rfl) Tb _ c0 hin) hfc11 _ (k0_off112_eq L) _ x))) $$ He11
  ihave He12 := (Entails.of_eq (pointsTo_writes_congr d L (e2Blk12 L) fullShare _ (E2 Tb I2 XV) (tile_body.sl.dma0_17 d L fc12)
      (fun x => e2_block_val d L Tb I2 XV c0 X4 hc0v hX4v 12 (by decide) _ fc12 (gath0_apply d L 1536 (Nat.le_of_ble_eq_true rfl) Tb _ c0 hin) hfc12 _ (k0_off121_eq L) _ x))) $$ He12
  ihave He13 := (Entails.of_eq (pointsTo_writes_congr d L (e2Blk13 L) fullShare _ (E2 Tb I2 XV) (tile_body.sl.dma0_18 d L fc13)
      (fun x => e2_block_val d L Tb I2 XV c0 X4 hc0v hX4v 13 (by decide) _ fc13 (gath1_apply d L 1664 (Nat.le_of_ble_eq_true rfl) Tb _ c0 hin) hfc13 _ (k0_off130_eq L) _ x))) $$ He13
  ihave He14 := (Entails.of_eq (pointsTo_writes_congr d L (e2Blk14 L) fullShare _ (E2 Tb I2 XV) (tile_body.sl.dma0_19 d L fc14)
      (fun x => e2_block_val d L Tb I2 XV c0 X4 hc0v hX4v 14 (by decide) _ fc14 (gath2_apply d L 1792 (Nat.le_of_ble_eq_true rfl) Tb _ c0 hin) hfc14 _ (k0_off139_eq L) _ x))) $$ He14
  ihave He15 := (Entails.of_eq (pointsTo_writes_congr d L (e2Blk15 L) fullShare _ (E2 Tb I2 XV) (tile_body.sl.dma0_20 d L fc15)
      (fun x => e2_block_val d L Tb I2 XV c0 X4 hc0v hX4v 15 (by decide) _ fc15 (gath3_apply d L 1920 (Nat.le_of_ble_eq_true rfl) Tb _ c0 hin) hfc15 _ (k0_off148_eq L) _ x))) $$ He15
  ihave He16 := (Entails.of_eq (pointsTo_writes_congr d L (e2Blk16 L) fullShare _ (E2 Tb I2 XV) (tile_body.sl.dma0_21 d L fc16)
      (fun x => e2_block_val d L Tb I2 XV c0 X4 hc0v hX4v 16 (by decide) _ fc16 (gath0_apply d L 2048 (Nat.le_of_ble_eq_true rfl) Tb _ c0 hin) hfc16 _ (k0_off157_eq L) _ x))) $$ He16
  ihave He17 := (Entails.of_eq (pointsTo_writes_congr d L (e2Blk17 L) fullShare _ (E2 Tb I2 XV) (tile_body.sl.dma0_22 d L fc17)
      (fun x => e2_block_val d L Tb I2 XV c0 X4 hc0v hX4v 17 (by decide) _ fc17 (gath1_apply d L 2176 (Nat.le_of_ble_eq_true rfl) Tb _ c0 hin) hfc17 _ (k0_off166_eq L) _ x))) $$ He17
  ihave He18 := (Entails.of_eq (pointsTo_writes_congr d L (e2Blk18 L) fullShare _ (E2 Tb I2 XV) (tile_body.sl.dma0_23 d L fc18)
      (fun x => e2_block_val d L Tb I2 XV c0 X4 hc0v hX4v 18 (by decide) _ fc18 (gath2_apply d L 2304 (Nat.le_of_ble_eq_true rfl) Tb _ c0 hin) hfc18 _ (k0_off175_eq L) _ x))) $$ He18
  ihave He19 := (Entails.of_eq (pointsTo_writes_congr d L (e2Blk19 L) fullShare _ (E2 Tb I2 XV) (tile_body.sl.dma0_24 d L fc19)
      (fun x => e2_block_val d L Tb I2 XV c0 X4 hc0v hX4v 19 (by decide) _ fc19 (gath3_apply d L 2432 (Nat.le_of_ble_eq_true rfl) Tb _ c0 hin) hfc19 _ (k0_off184_eq L) _ x))) $$ He19
  ihave He20 := (Entails.of_eq (pointsTo_writes_congr d L (e2Blk20 L) fullShare _ (E2 Tb I2 XV) (tile_body.sl.dma0_25 d L fc20)
      (fun x => e2_block_val d L Tb I2 XV c0 X4 hc0v hX4v 20 (by decide) _ fc20 (gath0_apply d L 2560 (Nat.le_of_ble_eq_true rfl) Tb _ c0 hin) hfc20 _ (k0_off193_eq L) _ x))) $$ He20
  ihave He21 := (Entails.of_eq (pointsTo_writes_congr d L (e2Blk21 L) fullShare _ (E2 Tb I2 XV) (tile_body.sl.dma0_26 d L fc21)
      (fun x => e2_block_val d L Tb I2 XV c0 X4 hc0v hX4v 21 (by decide) _ fc21 (gath1_apply d L 2688 (Nat.le_of_ble_eq_true rfl) Tb _ c0 hin) hfc21 _ (k0_off202_eq L) _ x))) $$ He21
  ihave He22 := (Entails.of_eq (pointsTo_writes_congr d L (e2Blk22 L) fullShare _ (E2 Tb I2 XV) (tile_body.sl.dma0_27 d L fc22)
      (fun x => e2_block_val d L Tb I2 XV c0 X4 hc0v hX4v 22 (by decide) _ fc22 (gath2_apply d L 2816 (Nat.le_of_ble_eq_true rfl) Tb _ c0 hin) hfc22 _ (k0_off211_eq L) _ x))) $$ He22
  ihave He23 := (Entails.of_eq (pointsTo_writes_congr d L (e2Blk23 L) fullShare _ (E2 Tb I2 XV) (tile_body.sl.dma0_28 d L fc23)
      (fun x => e2_block_val d L Tb I2 XV c0 X4 hc0v hX4v 23 (by decide) _ fc23 (gath3_apply d L 2944 (Nat.le_of_ble_eq_true rfl) Tb _ c0 hin) hfc23 _ (k0_off220_eq L) _ x))) $$ He23
  ihave He24 := (Entails.of_eq (pointsTo_writes_congr d L (e2Blk24 L) fullShare _ (E2 Tb I2 XV) (tile_body.sl.dma0_29 d L fc24)
      (fun x => e2_block_val d L Tb I2 XV c0 X4 hc0v hX4v 24 (by decide) _ fc24 (gath0_apply d L 3072 (Nat.le_of_ble_eq_true rfl) Tb _ c0 hin) hfc24 _ (k0_off229_eq L) _ x))) $$ He24
  ihave He25 := (Entails.of_eq (pointsTo_writes_congr d L (e2Blk25 L) fullShare _ (E2 Tb I2 XV) (tile_body.sl.dma0_30 d L fc25)
      (fun x => e2_block_val d L Tb I2 XV c0 X4 hc0v hX4v 25 (by decide) _ fc25 (gath1_apply d L 3200 (Nat.le_of_ble_eq_true rfl) Tb _ c0 hin) hfc25 _ (k0_off238_eq L) _ x))) $$ He25
  ihave HE2 := (Entails.of_eq (e2_split d L (E2 Tb I2 XV)).symm) $$ [He0 He1 He2 He3 He4 He5 He6 He7 He8 He9 He10 He11 He12 He13 He14 He15 He16 He17 He18 He19 He20 He21 He22 He23 He24 He25]
  · isplitl [He0]; · iexact He0
    isplitl [He1]; · iexact He1
    isplitl [He2]; · iexact He2
    isplitl [He3]; · iexact He3
    isplitl [He4]; · iexact He4
    isplitl [He5]; · iexact He5
    isplitl [He6]; · iexact He6
    isplitl [He7]; · iexact He7
    isplitl [He8]; · iexact He8
    isplitl [He9]; · iexact He9
    isplitl [He10]; · iexact He10
    isplitl [He11]; · iexact He11
    isplitl [He12]; · iexact He12
    isplitl [He13]; · iexact He13
    isplitl [He14]; · iexact He14
    isplitl [He15]; · iexact He15
    isplitl [He16]; · iexact He16
    isplitl [He17]; · iexact He17
    isplitl [He18]; · iexact He18
    isplitl [He19]; · iexact He19
    isplitl [He20]; · iexact He20
    isplitl [He21]; · iexact He21
    isplitl [He22]; · iexact He22
    isplitl [He23]; · iexact He23
    isplitl [He24]; · iexact He24
    iexact He25
  -- the first-order result's slice holds its values
  ihave HSO := (Entails.of_eq (pointsTo_writes_congr d L (soSl L) fullShare _ (SS IS WF) (tile_body.sl.dma0_4 d L f3')
      (fun x => so_val d L IS WF c1 c2 hc1v hc2v f3' hf3 x))) $$ HSO'
  -- the index scratch whole again
  ihave Hs0 := (Entails.of_eq (s0_split d L c0).symm) $$ [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    iexact Hc25
  -- what the task hands back
  isplitl [HT HWF' HI2' HXV' HIS' HE2 HSO]
  · unfold TD
    isplitl [HT]; · iexact HT
    isplitl [HWF']; · iexact HWF'
    isplitl [HI2']; · iexact HI2'
    isplitl [HXV']; · iexact HXV'
    isplitl [HIS']; · iexact HIS'
    isplitl [HE2]; · iexact HE2
    iexact HSO
  isplitl [Hs0 Hs1' Hs2' Hs3' Hs4' Hr0' Hr1' Hr2' Hr3' Hbufs]
  · isplitl [Hs0 Hs1' Hs2' Hs3' Hs4' Hr0' Hr1' Hr2' Hr3']
    · isplitl [Hs0]; · iexists _; iexact Hs0
      isplitl [Hs1']; · iexists _; iexact Hs1'
      isplitl [Hs2']; · iexists _; iexact Hs2'
      isplitl [Hs3']; · iexists _; iexact Hs3'
      isplitl [Hs4']; · iexists _; iexact Hs4'
      isplitl [Hr0']; · iexists _; iexact Hr0'
      isplitl [Hr1']; · iexists _; iexact Hr1'
      isplitl [Hr2']; · iexists _; iexact Hr2'
      iexists _; iexact Hr3'
    iexact Hbufs
  isplitl [Hsem0 Hsem1 Hsem2 Hsem3 Hsem4 Hsem5 Hsem6 Hsem7 Hsem8 Hsem9 Hsem10 Hsem11 Hsem12 Hsems]
  · isplitl [Hsem0 Hsem1 Hsem2 Hsem3 Hsem4 Hsem5 Hsem6 Hsem7 Hsem8 Hsem9 Hsem10 Hsem11 Hsem12]
    · isplitl [Hsem0]; · iexact Hsem0
      isplitl [Hsem1]; · iexact Hsem1
      isplitl [Hsem2]; · iexact Hsem2
      isplitl [Hsem3]; · iexact Hsem3
      isplitl [Hsem4]; · iexact Hsem4
      isplitl [Hsem5]; · iexact Hsem5
      isplitl [Hsem6]; · iexact Hsem6
      isplitl [Hsem7]; · iexact Hsem7
      isplitl [Hsem8]; · iexact Hsem8
      isplitl [Hsem9]; · iexact Hsem9
      isplitl [Hsem10]; · iexact Hsem10
      isplitl [Hsem11]; · iexact Hsem11
      iexact Hsem12
    iexact Hsems
  iexists _; isplitr
  swap; · iexact HO
  ipureintro
  repeat (first | exact fun p hp => Or.inl hp | apply waits_insert)

end Cert.Proof.ScBody
-- ==== Proof.B.LibRows.lean ====
/-
  One trip of a scaling loop, through any view of a 128 x 128 buffer: after the eight sixteen-lane pieces of row k have
  been multiplied in place by the row's feature value, the rows up to k are scaled and the rest are as they were.
-/
import proofs.«207592_g65111704207794_cont_9to1_m_407_36_alg».proof.Proof.B.ScSpec
import proofs.«207592_g65111704207794_cont_9to1_m_407_36_alg».proof.Proof.Gen.Kernel
import Idealize.ShloMosaic.Lib.Writes

noncomputable section

namespace Cert.ProofB.LibRows

open Cert.Kernel Cert.Kernel.Gen
open Cert.ProofB.ScSpec
open Idealize.ShloMosaic

variable {F : FTy → Type} [FloatOps F]

/-- One sixteen-lane piece of a row, read through the view, multiplied lane by lane by `V`. -/
abbrev pcv {κ : Kind} {sp : Space} (v : View sig κ sp S128x128 .f32) (f : v.ty.Contents (Elt F)) (V : S16.Idx → F .f32) (o : Fin 2 → ℕ)
    (i : ∀ a, o a + S1x16.size a ≤ S128x128.size a) : View.Piece (Elt F) S128x128 .f32 :=
  ⟨Rect.unit (s := S128x128) o S1x16.size i,
    shapeCast S1x16 (mulf (shapeCast S16 (View.readAt (Elt F) v (Rect.unit (s := S128x128) o S1x16.size i).toLoadRect f) shapeCasts_S1x16_S16) V) shapeCasts_S16_S1x16⟩

theorem rows_step_view {κ : Kind} {sp : Space} (v : View sig κ sp S128x128 .f32) (f : v.ty.Contents (Elt F))
    (c k : ℕ) (hk : k < 128) (G : S128x128.Idx → F .f32) (X4 : S3328.Idx → F .f32)
    (hf : ∀ x : S128x128.Idx, v.read (Elt F) f x
      = if (x 0).val < k then FloatOps.mulf (G x) (X4 (ix1 3328 (by decide) (c * 128 + (x 0).val))) else G x)
    (V : S16.Idx → F .f32) (hV : ∀ i, V i = X4 (ix1 3328 (by decide) (c * 128 + k)))
    (o0 o1 o2 o3 o4 o5 o6 o7 : Fin 2 → ℕ)
    (h0 : o0 = ![k, 0]) (h1 : o1 = ![k, 16]) (h2 : o2 = ![k, 32]) (h3 : o3 = ![k, 48])
    (h4 : o4 = ![k, 64]) (h5 : o5 = ![k, 80]) (h6 : o6 = ![k, 96]) (h7 : o7 = ![k, 112])
    (i0 : ∀ a, o0 a + S1x16.size a ≤ S128x128.size a) (i1 : ∀ a, o1 a + S1x16.size a ≤ S128x128.size a)
    (i2 : ∀ a, o2 a + S1x16.size a ≤ S128x128.size a) (i3 : ∀ a, o3 a + S1x16.size a ≤ S128x128.size a)
    (i4 : ∀ a, o4 a + S1x16.size a ≤ S128x128.size a) (i5 : ∀ a, o5 a + S1x16.size a ≤ S128x128.size a)
    (i6 : ∀ a, o6 a + S1x16.size a ≤ S128x128.size a) (i7 : ∀ a, o7 a + S1x16.size a ≤ S128x128.size a) :
    ∀ y : S128x128.Idx, v.read (Elt F) (v.writes (Elt F) f [pcv v f V o7 i7, pcv v f V o6 i6, pcv v f V o5 i5, pcv v f V o4 i4, pcv v f V o3 i3, pcv v f V o2 i2, pcv v f V o1 i1, pcv v f V o0 i0]) y
      = if (y 0).val < k + 1 then FloatOps.mulf (G y) (X4 (ix1 3328 (by decide) (c * 128 + (y 0).val))) else G y := by
  intro y
  -- what a piece stores at its own index: the element read there times the row's feature value
  have hpay : ∀ (o : Fin 2 → ℕ) (i : ∀ a, o a + S1x16.size a ≤ S128x128.size a)
      (x : (Rect.unit (s := S128x128) o S1x16.size i).shape.Idx),
      (pcv v f V o i).2 x
        = FloatOps.mulf (v.read (Elt F) f ((Rect.unit (s := S128x128) o S1x16.size i).emb x)) (X4 (ix1 3328 (by decide) (c * 128 + k))) := by
    intro o i x
    show FloatOps.mulf (View.readAt (Elt F) v (Rect.unit (s := S128x128) o S1x16.size i).toLoadRect f
        (Shape.reshapeEquiv _ (Shape.reshapeEquiv _ x))) (V (Shape.reshapeEquiv _ x)) = _
    rw [Shape.reshapeEquiv_reshapeEquiv, Shape.reshapeEquiv_self, hV]
    rfl
  -- a piece at row k, columns [q, q + 16): which indices it holds
  have hmem : ∀ (o : Fin 2 → ℕ) (i : ∀ a, o a + S1x16.size a ≤ S128x128.size a) (q : ℕ), o = ![k, q] →
      (y ∈ (Rect.unit (s := S128x128) o S1x16.size i).set ↔ ((y 0).val = k ∧ q ≤ (y 1).val ∧ (y 1).val < q + 16)) := by
    intro o i q ho
    subst ho
    rw [Rect.mem_set_unit]
    constructor
    · intro h
      have a0 := h (0 : Fin 2)
      have a1 := h (1 : Fin 2)
      change k ≤ (y 0).val ∧ (y 0).val < k + 1 at a0
      change q ≤ (y 1).val ∧ (y 1).val < q + 16 at a1
      omega
    · rintro ⟨e0, e1, e2⟩ a
      match a with
      | ⟨0, _⟩ => show k ≤ (y 0).val ∧ (y 0).val < k + 1; omega
      | ⟨1, _⟩ => show q ≤ (y 1).val ∧ (y 1).val < q + 16; omega
  by_cases hy : (y 0).val = k
  · have hy1 : (y 1).val < 128 := (y 1).isLt
    have hcov : ∃ p ∈ [pcv v f V o7 i7, pcv v f V o6 i6, pcv v f V o5 i5, pcv v f V o4 i4, pcv v f V o3 i3, pcv v f V o2 i2, pcv v f V o1 i1, pcv v f V o0 i0], y ∈ p.1.set := by
      have hq : (y 1).val < 16 ∨ (16 ≤ (y 1).val ∧ (y 1).val < 32) ∨ (32 ≤ (y 1).val ∧ (y 1).val < 48) ∨ (48 ≤ (y 1).val ∧ (y 1).val < 64)
          ∨ (64 ≤ (y 1).val ∧ (y 1).val < 80) ∨ (80 ≤ (y 1).val ∧ (y 1).val < 96) ∨ (96 ≤ (y 1).val ∧ (y 1).val < 112) ∨ 112 ≤ (y 1).val := by omega
      rcases hq with q | q | q | q | q | q | q | q
      · exact ⟨pcv v f V o0 i0, by simp, (hmem o0 i0 0 h0).mpr ⟨hy, by omega, by omega⟩⟩
      · exact ⟨pcv v f V o1 i1, by simp, (hmem o1 i1 16 h1).mpr ⟨hy, by omega, by omega⟩⟩
      · exact ⟨pcv v f V o2 i2, by simp, (hmem o2 i2 32 h2).mpr ⟨hy, by omega, by omega⟩⟩
      · exact ⟨pcv v f V o3 i3, by simp, (hmem o3 i3 48 h3).mpr ⟨hy, by omega, by omega⟩⟩
      · exact ⟨pcv v f V o4 i4, by simp, (hmem o4 i4 64 h4).mpr ⟨hy, by omega, by omega⟩⟩
      · exact ⟨pcv v f V o5 i5, by simp, (hmem o5 i5 80 h5).mpr ⟨hy, by omega, by omega⟩⟩
      · exact ⟨pcv v f V o6 i6, by simp, (hmem o6 i6 96 h6).mpr ⟨hy, by omega, by omega⟩⟩
      · exact ⟨pcv v f V o7 i7, by simp, (hmem o7 i7 112 h7).mpr ⟨hy, by omega, by omega⟩⟩
    rw [View.read_writes_apply_of_pieces v f
      (fun z => FloatOps.mulf (v.read (Elt F) f z) (X4 (ix1 3328 (by decide) (c * 128 + k)))) _
      (by
        intro p hp
        simp only [List.mem_cons, List.not_mem_nil, or_false] at hp
        rcases hp with rfl | rfl | rfl | rfl | rfl | rfl | rfl | rfl <;> exact hpay _ _) y hcov]
    show FloatOps.mulf (v.read (Elt F) f y) (X4 (ix1 3328 (by decide) (c * 128 + k))) = _
    rw [hf y, if_neg (by omega), if_pos (by omega), hy]
  · rw [View.read_writes_apply_of_forall_not_mem v f y _ (by
        intro p hp
        simp only [List.mem_cons, List.not_mem_nil, or_false] at hp
        rcases hp with rfl | rfl | rfl | rfl | rfl | rfl | rfl | rfl
        · exact fun hm => hy ((hmem o7 i7 112 h7).mp hm).1
        · exact fun hm => hy ((hmem o6 i6 96 h6).mp hm).1
        · exact fun hm => hy ((hmem o5 i5 80 h5).mp hm).1
        · exact fun hm => hy ((hmem o4 i4 64 h4).mp hm).1
        · exact fun hm => hy ((hmem o3 i3 48 h3).mp hm).1
        · exact fun hm => hy ((hmem o2 i2 32 h2).mp hm).1
        · exact fun hm => hy ((hmem o1 i1 16 h1).mp hm).1
        · exact fun hm => hy ((hmem o0 i0 0 h0).mp hm).1), hf y]
    by_cases hlt : (y 0).val < k
    · rw [if_pos hlt, if_pos (by omega)]
    · rw [if_neg hlt, if_neg (by omega)]

end Cert.ProofB.LibRows

end
-- ==== Proof.B.ScRows.lean ====
/-
  One trip of a scaling loop, as arithmetic on the row buffer's contents: after the eight sixteen-lane pieces of
  row `k` have been multiplied in place by the row's feature value, the rows up to `k` are scaled and the rest are
  as they were gathered.
-/
import proofs.«207592_g65111704207794_cont_9to1_m_407_36_alg».proof.Proof.B.ScViews
import proofs.«207592_g65111704207794_cont_9to1_m_407_36_alg».proof.Proof.B.LibRows

noncomputable section

namespace Cert.ProofB.ScRows

open Cert.Kernel Cert.Kernel.Gen
open Cert.ProofB.ScSpec Cert.ProofB.ScViews
open Cert.ProofB.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Rows below `k` of a row buffer scaled by the feature values of chunk `c`, the others as gathered. -/
def rowsDone (c : ℕ) (G : S128x128.Idx → F .f32) (X4 : S3328.Idx → F .f32) (k : ℕ) (f : S128x128.Idx → F .f32) : Prop :=
  ∀ x : S128x128.Idx, f x = if (x 0).val < k then FloatOps.mulf (G x) (X4 (ix1 3328 (by decide) (c * 128 + (x 0).val))) else G x

/-- One sixteen-lane piece of a row of row buffer 0, multiplied lane by lane by `V`. -/
abbrev pc0 (f : Buf (Elt F) (sloc d L cc0_scratch5)) (V : S16.Idx → F .f32) (o : Fin 2 → ℕ)
    (i : ∀ a, o a + S1x16.size a ≤ S128x128.size a) : View.Piece (Elt F) S128x128 .f32 :=
  ⟨Rect.unit (s := S128x128) o S1x16.size i,
    shapeCast S1x16 (mulf (shapeCast S16 (View.readAt (Elt F) (r0V).view (Rect.unit (s := S128x128) o S1x16.size i).toLoadRect f) shapeCasts_S1x16_S16) V) shapeCasts_S16_S1x16⟩

theorem rows_step0 (c k : ℕ) (hk : k < 128) (G : Buf (Elt F) (sloc d L cc0_scratch5)) (X4 : Buf (Elt F) (sloc d L cc0_scratch4))
    (f : Buf (Elt F) (sloc d L cc0_scratch5)) (hf : rowsDone c G X4 k f)
    (V : S16.Idx → F .f32) (hV : ∀ i, V i = X4 (ix1 3328 (by decide) (c * 128 + k)))
    (o0 o1 o2 o3 o4 o5 o6 o7 : Fin 2 → ℕ)
    (h0 : o0 = ![k, 0]) (h1 : o1 = ![k, 16]) (h2 : o2 = ![k, 32]) (h3 : o3 = ![k, 48])
    (h4 : o4 = ![k, 64]) (h5 : o5 = ![k, 80]) (h6 : o6 = ![k, 96]) (h7 : o7 = ![k, 112])
    (i0 : ∀ a, o0 a + S1x16.size a ≤ S128x128.size a) (i1 : ∀ a, o1 a + S1x16.size a ≤ S128x128.size a)
    (i2 : ∀ a, o2 a + S1x16.size a ≤ S128x128.size a) (i3 : ∀ a, o3 a + S1x16.size a ≤ S128x128.size a)
    (i4 : ∀ a, o4 a + S1x16.size a ≤ S128x128.size a) (i5 : ∀ a, o5 a + S1x16.size a ≤ S128x128.size a)
    (i6 : ∀ a, o6 a + S1x16.size a ≤ S128x128.size a) (i7 : ∀ a, o7 a + S1x16.size a ≤ S128x128.size a) :
    rowsDone c G X4 (k + 1) ((r0V).view.writes (Elt F) f
      [pc0 d L f V o7 i7, pc0 d L f V o6 i6, pc0 d L f V o5 i5, pc0 d L f V o4 i4,
       pc0 d L f V o3 i3, pc0 d L f V o2 i2, pc0 d L f V o1 i1, pc0 d L f V o0 i0]) :=
  Cert.ProofB.LibRows.rows_step_view (r0V).view f c k hk G X4 hf V hV o0 o1 o2 o3 o4 o5 o6 o7 h0 h1 h2 h3 h4 h5 h6 h7 i0 i1 i2 i3 i4 i5 i6 i7

/-- One sixteen-lane piece of a row of row buffer 1, multiplied lane by lane by `V`. -/
abbrev pc1 (f : Buf (Elt F) (sloc d L cc0_scratch6)) (V : S16.Idx → F .f32) (o : Fin 2 → ℕ)
    (i : ∀ a, o a + S1x16.size a ≤ S128x128.size a) : View.Piece (Elt F) S128x128 .f32 :=
  ⟨Rect.unit (s := S128x128) o S1x16.size i,
    shapeCast S1x16 (mulf (shapeCast S16 (View.readAt (Elt F) (r1V).view (Rect.unit (s := S128x128) o S1x16.size i).toLoadRect f) shapeCasts_S1x16_S16) V) shapeCasts_S16_S1x16⟩

theorem rows_step1 (c k : ℕ) (hk : k < 128) (G : Buf (Elt F) (sloc d L cc0_scratch6)) (X4 : Buf (Elt F) (sloc d L cc0_scratch4))
    (f : Buf (Elt F) (sloc d L cc0_scratch6)) (hf : rowsDone c G X4 k f)
    (V : S16.Idx → F .f32) (hV : ∀ i, V i = X4 (ix1 3328 (by decide) (c * 128 + k)))
    (o0 o1 o2 o3 o4 o5 o6 o7 : Fin 2 → ℕ)
    (h0 : o0 = ![k, 0]) (h1 : o1 = ![k, 16]) (h2 : o2 = ![k, 32]) (h3 : o3 = ![k, 48])
    (h4 : o4 = ![k, 64]) (h5 : o5 = ![k, 80]) (h6 : o6 = ![k, 96]) (h7 : o7 = ![k, 112])
    (i0 : ∀ a, o0 a + S1x16.size a ≤ S128x128.size a) (i1 : ∀ a, o1 a + S1x16.size a ≤ S128x128.size a)
    (i2 : ∀ a, o2 a + S1x16.size a ≤ S128x128.size a) (i3 : ∀ a, o3 a + S1x16.size a ≤ S128x128.size a)
    (i4 : ∀ a, o4 a + S1x16.size a ≤ S128x128.size a) (i5 : ∀ a, o5 a + S1x16.size a ≤ S128x128.size a)
    (i6 : ∀ a, o6 a + S1x16.size a ≤ S128x128.size a) (i7 : ∀ a, o7 a + S1x16.size a ≤ S128x128.size a) :
    rowsDone c G X4 (k + 1) ((r1V).view.writes (Elt F) f
      [pc1 d L f V o7 i7, pc1 d L f V o6 i6, pc1 d L f V o5 i5, pc1 d L f V o4 i4,
       pc1 d L f V o3 i3, pc1 d L f V o2 i2, pc1 d L f V o1 i1, pc1 d L f V o0 i0]) :=
  Cert.ProofB.LibRows.rows_step_view (r1V).view f c k hk G X4 hf V hV o0 o1 o2 o3 o4 o5 o6 o7 h0 h1 h2 h3 h4 h5 h6 h7 i0 i1 i2 i3 i4 i5 i6 i7

/-- One sixteen-lane piece of a row of row buffer 2, multiplied lane by lane by `V`. -/
abbrev pc2 (f : Buf (Elt F) (sloc d L cc0_scratch7)) (V : S16.Idx → F .f32) (o : Fin 2 → ℕ)
    (i : ∀ a, o a + S1x16.size a ≤ S128x128.size a) : View.Piece (Elt F) S128x128 .f32 :=
  ⟨Rect.unit (s := S128x128) o S1x16.size i,
    shapeCast S1x16 (mulf (shapeCast S16 (View.readAt (Elt F) (r2V).view (Rect.unit (s := S128x128) o S1x16.size i).toLoadRect f) shapeCasts_S1x16_S16) V) shapeCasts_S16_S1x16⟩

theorem rows_step2 (c k : ℕ) (hk : k < 128) (G : Buf (Elt F) (sloc d L cc0_scratch7)) (X4 : Buf (Elt F) (sloc d L cc0_scratch4))
    (f : Buf (Elt F) (sloc d L cc0_scratch7)) (hf : rowsDone c G X4 k f)
    (V : S16.Idx → F .f32) (hV : ∀ i, V i = X4 (ix1 3328 (by decide) (c * 128 + k)))
    (o0 o1 o2 o3 o4 o5 o6 o7 : Fin 2 → ℕ)
    (h0 : o0 = ![k, 0]) (h1 : o1 = ![k, 16]) (h2 : o2 = ![k, 32]) (h3 : o3 = ![k, 48])
    (h4 : o4 = ![k, 64]) (h5 : o5 = ![k, 80]) (h6 : o6 = ![k, 96]) (h7 : o7 = ![k, 112])
    (i0 : ∀ a, o0 a + S1x16.size a ≤ S128x128.size a) (i1 : ∀ a, o1 a + S1x16.size a ≤ S128x128.size a)
    (i2 : ∀ a, o2 a + S1x16.size a ≤ S128x128.size a) (i3 : ∀ a, o3 a + S1x16.size a ≤ S128x128.size a)
    (i4 : ∀ a, o4 a + S1x16.size a ≤ S128x128.size a) (i5 : ∀ a, o5 a + S1x16.size a ≤ S128x128.size a)
    (i6 : ∀ a, o6 a + S1x16.size a ≤ S128x128.size a) (i7 : ∀ a, o7 a + S1x16.size a ≤ S128x128.size a) :
    rowsDone c G X4 (k + 1) ((r2V).view.writes (Elt F) f
      [pc2 d L f V o7 i7, pc2 d L f V o6 i6, pc2 d L f V o5 i5, pc2 d L f V o4 i4,
       pc2 d L f V o3 i3, pc2 d L f V o2 i2, pc2 d L f V o1 i1, pc2 d L f V o0 i0]) :=
  Cert.ProofB.LibRows.rows_step_view (r2V).view f c k hk G X4 hf V hV o0 o1 o2 o3 o4 o5 o6 o7 h0 h1 h2 h3 h4 h5 h6 h7 i0 i1 i2 i3 i4 i5 i6 i7

/-- One sixteen-lane piece of a row of row buffer 3, multiplied lane by lane by `V`. -/
abbrev pc3 (f : Buf (Elt F) (sloc d L cc0_scratch8)) (V : S16.Idx → F .f32) (o : Fin 2 → ℕ)
    (i : ∀ a, o a + S1x16.size a ≤ S128x128.size a) : View.Piece (Elt F) S128x128 .f32 :=
  ⟨Rect.unit (s := S128x128) o S1x16.size i,
    shapeCast S1x16 (mulf (shapeCast S16 (View.readAt (Elt F) (r3V).view (Rect.unit (s := S128x128) o S1x16.size i).toLoadRect f) shapeCasts_S1x16_S16) V) shapeCasts_S16_S1x16⟩

theorem rows_step3 (c k : ℕ) (hk : k < 128) (G : Buf (Elt F) (sloc d L cc0_scratch8)) (X4 : Buf (Elt F) (sloc d L cc0_scratch4))
    (f : Buf (Elt F) (sloc d L cc0_scratch8)) (hf : rowsDone c G X4 k f)
    (V : S16.Idx → F .f32) (hV : ∀ i, V i = X4 (ix1 3328 (by decide) (c * 128 + k)))
    (o0 o1 o2 o3 o4 o5 o6 o7 : Fin 2 → ℕ)
    (h0 : o0 = ![k, 0]) (h1 : o1 = ![k, 16]) (h2 : o2 = ![k, 32]) (h3 : o3 = ![k, 48])
    (h4 : o4 = ![k, 64]) (h5 : o5 = ![k, 80]) (h6 : o6 = ![k, 96]) (h7 : o7 = ![k, 112])
    (i0 : ∀ a, o0 a + S1x16.size a ≤ S128x128.size a) (i1 : ∀ a, o1 a + S1x16.size a ≤ S128x128.size a)
    (i2 : ∀ a, o2 a + S1x16.size a ≤ S128x128.size a) (i3 : ∀ a, o3 a + S1x16.size a ≤ S128x128.size a)
    (i4 : ∀ a, o4 a + S1x16.size a ≤ S128x128.size a) (i5 : ∀ a, o5 a + S1x16.size a ≤ S128x128.size a)
    (i6 : ∀ a, o6 a + S1x16.size a ≤ S128x128.size a) (i7 : ∀ a, o7 a + S1x16.size a ≤ S128x128.size a) :
    rowsDone c G X4 (k + 1) ((r3V).view.writes (Elt F) f
      [pc3 d L f V o7 i7, pc3 d L f V o6 i6, pc3 d L f V o5 i5, pc3 d L f V o4 i4,
       pc3 d L f V o3 i3, pc3 d L f V o2 i2, pc3 d L f V o1 i1, pc3 d L f V o0 i0]) :=
  Cert.ProofB.LibRows.rows_step_view (r3V).view f c k hk G X4 hf V hV o0 o1 o2 o3 o4 o5 o6 o7 h0 h1 h2 h3 h4 h5 h6 h7 i0 i1 i2 i3 i4 i5 i6 i7

end Cert.ProofB.ScRows
-- ==== Proof.B.ScLoops.lean ====
/-
  The two kinds of counted loop of the vector-subcore task, each by an invariant at a symbolic trip: the
  first-order loop (a load of sixteen indices, their range check, the indexed load of their weights, a store)
  and the scaling loop of one gathered chunk (the indexed load of the row's feature value, then eight
  sixteen-lane pieces of the row multiplied by it in place).
-/
import proofs.«207592_g65111704207794_cont_9to1_m_407_36_alg».proof.Proof.B.ScViews
import proofs.«207592_g65111704207794_cont_9to1_m_407_36_alg».proof.Proof.B.ScRows

noncomputable section

namespace Cert.ProofB.ScLoops

open Cert.Kernel Cert.Kernel.Gen
open Cert.ProofB.ScSpec Cert.ProofB.ScViews Cert.ProofB.ScRows
open Cert.ProofB.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The first `16 * k` positions of the first-order scratch hold the weights the padded index list names. -/
def sDone (c1 : Buf (Elt F) (sloc d L cc0_scratch1)) (c2 : Buf (Elt F) (sloc d L cc0_scratch2)) (k : ℕ)
    (f : Buf (Elt F) (sloc d L cc0_scratch3)) : Prop :=
  ∀ j : S4096.Idx, (j 0).val < 16 * k → f j = c2 (ix1 26008 (by decide) (c1 j).toNat)

def invS (c1 : Buf (Elt F) (sloc d L cc0_scratch1)) (c2 : Buf (Elt F) (sloc d L cc0_scratch2)) (k : ℕ) (_ : PUnit) : sProp 𝕄 :=
  iprop(((s1V).view.loc (V d (cV L) (jV L)) ↦{fullShare} c1) ∗ ((s2V).view.loc (V d (cV L) (jV L)) ↦{fullShare} c2)
    ∗ ∃ f, ((s3V).view.loc (V d (cV L) (jV L)) ↦{fullShare} f) ∗ ⌜sDone d L c1 c2 k f⌝)

omit [FloatOps F] in
theorem chk1_of (c1 : Buf (Elt F) (sloc d L cc0_scratch1)) (hc1 : ∀ j, (c1 j).toNat < 26008)
    (off : Fin 1 → ℕ) (inb : ∀ a, off a + S16.size a ≤ S4096.size a) :
    k0_chk1 (View.readAt (Elt F) (s1V).view (Rect.unit (s := S4096) off S16.size inb).toLoadRect c1) := by
  intro a x
  match a with
  | 0 => exact hc1 _

theorem sDone_step (c1 : Buf (Elt F) (sloc d L cc0_scratch1)) (c2 : Buf (Elt F) (sloc d L cc0_scratch2))
    (hc1 : ∀ j, (c1 j).toNat < 26008) (k : Fin k0_t1_loop.trips) (f : Buf (Elt F) (sloc d L cc0_scratch3))
    (hf : sDone d L c1 c2 k.val f)
    (h : ∀ a x, ((![View.readAt (Elt F) (s1V).view (Rect.unit (s := S4096) (k0_off3 k) S16.size (k0_off3_inb k)).toLoadRect c1] : Fin 1 → IVec S16 32) a x).toNat < S26008.size a) :
    sDone d L c1 c2 (k.val + 1) ((s3V).view.writes (Elt F) f
      [⟨Rect.unit (s := S4096) (k0_off4 k) S16.size (k0_off4_inb k),
        loadIdx (View.read (Elt F) ((s2V).access (Rect.whole S26008)) c2)
          ![View.readAt (Elt F) (s1V).view (Rect.unit (s := S4096) (k0_off3 k) S16.size (k0_off3_inb k)).toLoadRect c1] h⟩]) := by
  intro j hj
  have e3 := k0_off3_eq k
  have e4 := k0_off4_eq k
  by_cases hm : j ∈ (Rect.unit (s := S4096) (k0_off4 k) S16.size (k0_off4_inb k)).set
  · obtain ⟨x, rfl⟩ := LoadRect.exists_idx_of_mem _ hm
    have hr := View.read_writes_cons_emb (v := (s3V).view) (Val := Elt F) (f := f) (Rect.unit (s := S4096) (k0_off4 k) S16.size (k0_off4_inb k))
      (loadIdx (View.read (Elt F) ((s2V).access (Rect.whole S26008)) c2)
          ![View.readAt (Elt F) (s1V).view (Rect.unit (s := S4096) (k0_off3 k) S16.size (k0_off3_inb k)).toLoadRect c1] h) [] x
    refine hr.trans ?_
    refine congrArg c2 (funext fun a => ?_)
    have hi : (Rect.unit (s := S4096) (k0_off3 k) S16.size (k0_off3_inb k)).toLoadRect.idx x
        = (Rect.unit (s := S4096) (k0_off4 k) S16.size (k0_off4_inb k)).toLoadRect.idx x := by
      funext b; apply Fin.ext
      show k0_off3 k b + 1 * (x b).val = k0_off4 k b + 1 * (x b).val
      rw [congrFun (e3.trans e4.symm) b]
    match a with
    | 0 =>
      apply Fin.ext
      show 0 + 1 * BitVec.toNat (c1 ((Rect.unit (s := S4096) (k0_off3 k) S16.size (k0_off3_inb k)).toLoadRect.idx x))
        = BitVec.toNat (c1 ((Rect.unit (s := S4096) (k0_off4 k) S16.size (k0_off4_inb k)).toLoadRect.idx x)) % 26008
      rw [Nat.zero_add, Nat.one_mul, hi, Nat.mod_eq_of_lt (hc1 _)]
  · have hn := View.read_writes_apply_of_forall_not_mem (v := (s3V).view) (Val := Elt F) (f := f) j
      [⟨Rect.unit (s := S4096) (k0_off4 k) S16.size (k0_off4_inb k),
        loadIdx (View.read (Elt F) ((s2V).access (Rect.whole S26008)) c2)
          ![View.readAt (Elt F) (s1V).view (Rect.unit (s := S4096) (k0_off3 k) S16.size (k0_off3_inb k)).toLoadRect c1] h⟩]
      (by intro p hp; rw [List.mem_singleton] at hp; subst hp; exact hm)
    refine hn.trans (hf j ?_)
    have hm' := hm
    rw [Rect.mem_set_unit] at hm'
    have h0 : k0_off4 k 0 = 16 * k.val := by rw [e4]; rfl
    by_contra hlt
    apply hm'
    intro a
    match a with
    | 0 =>
      have hs : (S16.size : Fin 1 → ℕ) 0 = 16 := rfl
      rw [h0, hs]; omega

set_option maxHeartbeats 4000000 in
/-- One trip of the first-order loop: sixteen more positions of the scratch hold their weights. -/
theorem trip_s (c1 : Buf (Elt F) (sloc d L cc0_scratch1)) (c2 : Buf (Elt F) (sloc d L cc0_scratch2))
    (hc1 : ∀ j, (c1 j).toNat < 26008) (k : Fin k0_t1_loop.trips) :
    invS d L c1 c2 k.val PUnit.unit ⊢ wp frame (wpE (defs₀ (F := F)) 𝒱₀ (V d (cV L) (jV L)) none) Set.univ
      (k0_t1_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invS d L c1 c2 (k.val + 1) a) := by
  unfold invS k0_t1_body
  iintro ⟨Hs1, Hs2, %f, Hs3, %hf⟩
  sl_exec (disch := exact chk1_of d L c1 hc1 _ _)
  ihave Hs2' := (Entails.of_eq (show (((s2V).view.loc (V d (cV L) (jV L)) ↦{fullShare} c2 : sProp 𝕄))
      = (((s2V).access (.whole S26008)).loc (V d (cV L) (jV L)) ↦{fullShare} c2) from rfl)) $$ Hs2
  iapply (SparseCore.wp_vectorLoadIdx 𝒱₀ (V d (cV L) (jV L)) none Set.univ (base := (s2V : Memref sig .scVector .vmem S26008 .f32)) (S := Finset.univ) (q := fullShare) (Finset.subset_univ _)) $$ Hs2'; iintro Hs2'
  sl_exec
  sl_step
  isplitl [Hs1]; · iexact Hs1
  isplitl [Hs2']
  · iapply (Entails.of_eq (show ((((s2V).access (.whole S26008)).loc (V d (cV L) (jV L)) ↦{fullShare} c2 : sProp 𝕄))
      = ((s2V).view.loc (V d (cV L) (jV L)) ↦{fullShare} c2) from rfl)); iexact Hs2'
  iexists _; isplitl [Hs3]; · iexact Hs3
  ipureintro; exact sDone_step d L c1 c2 hc1 k f hf _

/-! ## The scaling loops -/

/-- The indexed load at a broadcast index reads one element in every lane. -/
theorem bcast_val (X4 : Buf (Elt F) (sloc d L cc0_scratch4)) (w : BitVec 32) (n : ℕ) (hw : w.toNat = n) (hn : n < 3328)
    (h : ∀ a x, ((![broadcast S16 w] : Fin 1 → IVec S16 32) a x).toNat < S3328.size a) :
    ∀ i, loadIdx (View.read (Elt F) ((s4V).access (Rect.whole S3328)) X4) ![broadcast S16 w] h i = X4 (ix1 3328 (by decide) n) := by
  intro i
  refine congrArg X4 (funext fun a => ?_)
  match a with
  | 0 =>
    apply Fin.ext
    show 0 + 1 * w.toNat = n % 3328
    rw [Nat.zero_add, Nat.one_mul, hw, Nat.mod_eq_of_lt hn]

theorem chkB_0 : ∀ k : Fin k0_t2_loop.trips, k0_chk2 (broadcast S16 (Scalar.addi 0#32 (Scf.iv 0#32 1#32 k))) := by decide +kernel
theorem bidx_0 : ∀ k : Fin k0_t2_loop.trips, (Scalar.addi 0#32 (Scf.iv 0#32 1#32 k)).toNat = 0 + k.val := by decide +kernel

/-- The invariant of the scaling loop of chunk 0: the feature values, and row buffer 0 with its first `k` rows scaled. -/
def invR_0 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 0 G X4 k f⌝)

set_option maxHeartbeats 4000000 in
theorem trip_r_0 (G : Buf (Elt F) (sloc d L cc0_scratch5)) (X4 : Buf (Elt F) (sloc d L cc0_scratch4)) (k : Fin k0_t2_loop.trips) :
    invR_0 d L G X4 k.val PUnit.unit ⊢ wp frame (wpE (defs₀ (F := F)) 𝒱₀ (V d (cV L) (jV L)) none) Set.univ
      (k0_t2_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_0 d L G X4 (k.val + 1) a) := by
  unfold invR_0 k0_t2_body
  iintro ⟨Hs4, %f, Hr, %hf⟩
  sl_exec (disch := exact chkB_0 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 0 k.val (Nat.lt_of_lt_of_le k.isLt k0_t2_abs.2.1) G X4 f hf
    (loadIdx (View.read (Elt F) ((s4V).access (Rect.whole S3328)) X4) ![broadcast S16 (Scalar.addi 0#32 (Scf.iv 0#32 1#32 k))] (k0_idx2_inb _ (chkB_0 k)))
    (bcast_val d L X4 _ _ (bidx_0 k) (by have := Nat.lt_of_lt_of_le k.isLt k0_t2_abs.2.1; omega) _)
    _ _ _ _ _ _ _ _ (k0_off5_eq k) (k0_off6_eq k) (k0_off7_eq k) (k0_off8_eq k) (k0_off9_eq k) (k0_off10_eq k) (k0_off11_eq k) (k0_off12_eq k)
    _ _ _ _ _ _ _ _

theorem chkB_1 : ∀ k : Fin k0_t3_loop.trips, k0_chk3 (broadcast S16 (Scalar.addi 128#32 (Scf.iv 0#32 1#32 k))) := by decide +kernel
theorem bidx_1 : ∀ k : Fin k0_t3_loop.trips, (Scalar.addi 128#32 (Scf.iv 0#32 1#32 k)).toNat = 128 + k.val := by decide +kernel

/-- The invariant of the scaling loop of chunk 1: the feature values, and row buffer 1 with its first `k` rows scaled. -/
def invR_1 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 1 G X4 k f⌝)

set_option maxHeartbeats 4000000 in
theorem trip_r_1 (G : Buf (Elt F) (sloc d L cc0_scratch6)) (X4 : Buf (Elt F) (sloc d L cc0_scratch4)) (k : Fin k0_t3_loop.trips) :
    invR_1 d L G X4 k.val PUnit.unit ⊢ wp frame (wpE (defs₀ (F := F)) 𝒱₀ (V d (cV L) (jV L)) none) Set.univ
      (k0_t3_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_1 d L G X4 (k.val + 1) a) := by
  unfold invR_1 k0_t3_body
  iintro ⟨Hs4, %f, Hr, %hf⟩
  sl_exec (disch := exact chkB_1 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 1 k.val (Nat.lt_of_lt_of_le k.isLt k0_t3_abs.2.1) G X4 f hf
    (loadIdx (View.read (Elt F) ((s4V).access (Rect.whole S3328)) X4) ![broadcast S16 (Scalar.addi 128#32 (Scf.iv 0#32 1#32 k))] (k0_idx3_inb _ (chkB_1 k)))
    (bcast_val d L X4 _ _ (bidx_1 k) (by have := Nat.lt_of_lt_of_le k.isLt k0_t3_abs.2.1; omega) _)
    _ _ _ _ _ _ _ _ (k0_off14_eq k) (k0_off15_eq k) (k0_off16_eq k) (k0_off17_eq k) (k0_off18_eq k) (k0_off19_eq k) (k0_off20_eq k) (k0_off21_eq k)
    _ _ _ _ _ _ _ _

theorem chkB_2 : ∀ k : Fin k0_t4_loop.trips, k0_chk4 (broadcast S16 (Scalar.addi 256#32 (Scf.iv 0#32 1#32 k))) := by decide +kernel
theorem bidx_2 : ∀ k : Fin k0_t4_loop.trips, (Scalar.addi 256#32 (Scf.iv 0#32 1#32 k)).toNat = 256 + k.val := by decide +kernel

/-- The invariant of the scaling loop of chunk 2: the feature values, and row buffer 2 with its first `k` rows scaled. -/
def invR_2 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 2 G X4 k f⌝)

set_option maxHeartbeats 4000000 in
theorem trip_r_2 (G : Buf (Elt F) (sloc d L cc0_scratch7)) (X4 : Buf (Elt F) (sloc d L cc0_scratch4)) (k : Fin k0_t4_loop.trips) :
    invR_2 d L G X4 k.val PUnit.unit ⊢ wp frame (wpE (defs₀ (F := F)) 𝒱₀ (V d (cV L) (jV L)) none) Set.univ
      (k0_t4_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_2 d L G X4 (k.val + 1) a) := by
  unfold invR_2 k0_t4_body
  iintro ⟨Hs4, %f, Hr, %hf⟩
  sl_exec (disch := exact chkB_2 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 2 k.val (Nat.lt_of_lt_of_le k.isLt k0_t4_abs.2.1) G X4 f hf
    (loadIdx (View.read (Elt F) ((s4V).access (Rect.whole S3328)) X4) ![broadcast S16 (Scalar.addi 256#32 (Scf.iv 0#32 1#32 k))] (k0_idx4_inb _ (chkB_2 k)))
    (bcast_val d L X4 _ _ (bidx_2 k) (by have := Nat.lt_of_lt_of_le k.isLt k0_t4_abs.2.1; omega) _)
    _ _ _ _ _ _ _ _ (k0_off23_eq k) (k0_off24_eq k) (k0_off25_eq k) (k0_off26_eq k) (k0_off27_eq k) (k0_off28_eq k) (k0_off29_eq k) (k0_off30_eq k)
    _ _ _ _ _ _ _ _

theorem chkB_3 : ∀ k : Fin k0_t5_loop.trips, k0_chk5 (broadcast S16 (Scalar.addi 384#32 (Scf.iv 0#32 1#32 k))) := by decide +kernel
theorem bidx_3 : ∀ k : Fin k0_t5_loop.trips, (Scalar.addi 384#32 (Scf.iv 0#32 1#32 k)).toNat = 384 + k.val := by decide +kernel

/-- The invariant of the scaling loop of chunk 3: the feature values, and row buffer 3 with its first `k` rows scaled. -/
def invR_3 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 3 G X4 k f⌝)

set_option maxHeartbeats 4000000 in
theorem trip_r_3 (G : Buf (Elt F) (sloc d L cc0_scratch8)) (X4 : Buf (Elt F) (sloc d L cc0_scratch4)) (k : Fin k0_t5_loop.trips) :
    invR_3 d L G X4 k.val PUnit.unit ⊢ wp frame (wpE (defs₀ (F := F)) 𝒱₀ (V d (cV L) (jV L)) none) Set.univ
      (k0_t5_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_3 d L G X4 (k.val + 1) a) := by
  unfold invR_3 k0_t5_body
  iintro ⟨Hs4, %f, Hr, %hf⟩
  sl_exec (disch := exact chkB_3 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 3 k.val (Nat.lt_of_lt_of_le k.isLt k0_t5_abs.2.1) G X4 f hf
    (loadIdx (View.read (Elt F) ((s4V).access (Rect.whole S3328)) X4) ![broadcast S16 (Scalar.addi 384#32 (Scf.iv 0#32 1#32 k))] (k0_idx5_inb _ (chkB_3 k)))
    (bcast_val d L X4 _ _ (bidx_3 k) (by have := Nat.lt_of_lt_of_le k.isLt k0_t5_abs.2.1; omega) _)
    _ _ _ _ _ _ _ _ (k0_off32_eq k) (k0_off33_eq k) (k0_off34_eq k) (k0_off35_eq k) (k0_off36_eq k) (k0_off37_eq k) (k0_off38_eq k) (k0_off39_eq k)
    _ _ _ _ _ _ _ _

theorem chkB_4 : ∀ k : Fin k0_t6_loop.trips, k0_chk6 (broadcast S16 (Scalar.addi 512#32 (Scf.iv 0#32 1#32 k))) := by decide +kernel
theorem bidx_4 : ∀ k : Fin k0_t6_loop.trips, (Scalar.addi 512#32 (Scf.iv 0#32 1#32 k)).toNat = 512 + k.val := by decide +kernel

/-- The invariant of the scaling loop of chunk 4: the feature values, and row buffer 0 with its first `k` rows scaled. -/
def invR_4 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 4 G X4 k f⌝)

set_option maxHeartbeats 4000000 in
theorem trip_r_4 (G : Buf (Elt F) (sloc d L cc0_scratch5)) (X4 : Buf (Elt F) (sloc d L cc0_scratch4)) (k : Fin k0_t6_loop.trips) :
    invR_4 d L G X4 k.val PUnit.unit ⊢ wp frame (wpE (defs₀ (F := F)) 𝒱₀ (V d (cV L) (jV L)) none) Set.univ
      (k0_t6_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_4 d L G X4 (k.val + 1) a) := by
  unfold invR_4 k0_t6_body
  iintro ⟨Hs4, %f, Hr, %hf⟩
  sl_exec (disch := exact chkB_4 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 4 k.val (Nat.lt_of_lt_of_le k.isLt k0_t6_abs.2.1) G X4 f hf
    (loadIdx (View.read (Elt F) ((s4V).access (Rect.whole S3328)) X4) ![broadcast S16 (Scalar.addi 512#32 (Scf.iv 0#32 1#32 k))] (k0_idx6_inb _ (chkB_4 k)))
    (bcast_val d L X4 _ _ (bidx_4 k) (by have := Nat.lt_of_lt_of_le k.isLt k0_t6_abs.2.1; omega) _)
    _ _ _ _ _ _ _ _ (k0_off41_eq k) (k0_off42_eq k) (k0_off43_eq k) (k0_off44_eq k) (k0_off45_eq k) (k0_off46_eq k) (k0_off47_eq k) (k0_off48_eq k)
    _ _ _ _ _ _ _ _

theorem chkB_5 : ∀ k : Fin k0_t7_loop.trips, k0_chk7 (broadcast S16 (Scalar.addi 640#32 (Scf.iv 0#32 1#32 k))) := by decide +kernel
theorem bidx_5 : ∀ k : Fin k0_t7_loop.trips, (Scalar.addi 640#32 (Scf.iv 0#32 1#32 k)).toNat = 640 + k.val := by decide +kernel

/-- The invariant of the scaling loop of chunk 5: the feature values, and row buffer 1 with its first `k` rows scaled. -/
def invR_5 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 5 G X4 k f⌝)

set_option maxHeartbeats 4000000 in
theorem trip_r_5 (G : Buf (Elt F) (sloc d L cc0_scratch6)) (X4 : Buf (Elt F) (sloc d L cc0_scratch4)) (k : Fin k0_t7_loop.trips) :
    invR_5 d L G X4 k.val PUnit.unit ⊢ wp frame (wpE (defs₀ (F := F)) 𝒱₀ (V d (cV L) (jV L)) none) Set.univ
      (k0_t7_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_5 d L G X4 (k.val + 1) a) := by
  unfold invR_5 k0_t7_body
  iintro ⟨Hs4, %f, Hr, %hf⟩
  sl_exec (disch := exact chkB_5 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 5 k.val (Nat.lt_of_lt_of_le k.isLt k0_t7_abs.2.1) G X4 f hf
    (loadIdx (View.read (Elt F) ((s4V).access (Rect.whole S3328)) X4) ![broadcast S16 (Scalar.addi 640#32 (Scf.iv 0#32 1#32 k))] (k0_idx7_inb _ (chkB_5 k)))
    (bcast_val d L X4 _ _ (bidx_5 k) (by have := Nat.lt_of_lt_of_le k.isLt k0_t7_abs.2.1; omega) _)
    _ _ _ _ _ _ _ _ (k0_off50_eq k) (k0_off51_eq k) (k0_off52_eq k) (k0_off53_eq k) (k0_off54_eq k) (k0_off55_eq k) (k0_off56_eq k) (k0_off57_eq k)
    _ _ _ _ _ _ _ _

theorem chkB_6 : ∀ k : Fin k0_t8_loop.trips, k0_chk8 (broadcast S16 (Scalar.addi 768#32 (Scf.iv 0#32 1#32 k))) := by decide +kernel
theorem bidx_6 : ∀ k : Fin k0_t8_loop.trips, (Scalar.addi 768#32 (Scf.iv 0#32 1#32 k)).toNat = 768 + k.val := by decide +kernel

/-- The invariant of the scaling loop of chunk 6: the feature values, and row buffer 2 with its first `k` rows scaled. -/
def invR_6 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 6 G X4 k f⌝)

set_option maxHeartbeats 4000000 in
theorem trip_r_6 (G : Buf (Elt F) (sloc d L cc0_scratch7)) (X4 : Buf (Elt F) (sloc d L cc0_scratch4)) (k : Fin k0_t8_loop.trips) :
    invR_6 d L G X4 k.val PUnit.unit ⊢ wp frame (wpE (defs₀ (F := F)) 𝒱₀ (V d (cV L) (jV L)) none) Set.univ
      (k0_t8_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_6 d L G X4 (k.val + 1) a) := by
  unfold invR_6 k0_t8_body
  iintro ⟨Hs4, %f, Hr, %hf⟩
  sl_exec (disch := exact chkB_6 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 6 k.val (Nat.lt_of_lt_of_le k.isLt k0_t8_abs.2.1) G X4 f hf
    (loadIdx (View.read (Elt F) ((s4V).access (Rect.whole S3328)) X4) ![broadcast S16 (Scalar.addi 768#32 (Scf.iv 0#32 1#32 k))] (k0_idx8_inb _ (chkB_6 k)))
    (bcast_val d L X4 _ _ (bidx_6 k) (by have := Nat.lt_of_lt_of_le k.isLt k0_t8_abs.2.1; omega) _)
    _ _ _ _ _ _ _ _ (k0_off59_eq k) (k0_off60_eq k) (k0_off61_eq k) (k0_off62_eq k) (k0_off63_eq k) (k0_off64_eq k) (k0_off65_eq k) (k0_off66_eq k)
    _ _ _ _ _ _ _ _

theorem chkB_7 : ∀ k : Fin k0_t9_loop.trips, k0_chk9 (broadcast S16 (Scalar.addi 896#32 (Scf.iv 0#32 1#32 k))) := by decide +kernel
theorem bidx_7 : ∀ k : Fin k0_t9_loop.trips, (Scalar.addi 896#32 (Scf.iv 0#32 1#32 k)).toNat = 896 + k.val := by decide +kernel

/-- The invariant of the scaling loop of chunk 7: the feature values, and row buffer 3 with its first `k` rows scaled. -/
def invR_7 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 7 G X4 k f⌝)

set_option maxHeartbeats 4000000 in
theorem trip_r_7 (G : Buf (Elt F) (sloc d L cc0_scratch8)) (X4 : Buf (Elt F) (sloc d L cc0_scratch4)) (k : Fin k0_t9_loop.trips) :
    invR_7 d L G X4 k.val PUnit.unit ⊢ wp frame (wpE (defs₀ (F := F)) 𝒱₀ (V d (cV L) (jV L)) none) Set.univ
      (k0_t9_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_7 d L G X4 (k.val + 1) a) := by
  unfold invR_7 k0_t9_body
  iintro ⟨Hs4, %f, Hr, %hf⟩
  sl_exec (disch := exact chkB_7 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 7 k.val (Nat.lt_of_lt_of_le k.isLt k0_t9_abs.2.1) G X4 f hf
    (loadIdx (View.read (Elt F) ((s4V).access (Rect.whole S3328)) X4) ![broadcast S16 (Scalar.addi 896#32 (Scf.iv 0#32 1#32 k))] (k0_idx9_inb _ (chkB_7 k)))
    (bcast_val d L X4 _ _ (bidx_7 k) (by have := Nat.lt_of_lt_of_le k.isLt k0_t9_abs.2.1; omega) _)
    _ _ _ _ _ _ _ _ (k0_off68_eq k) (k0_off69_eq k) (k0_off70_eq k) (k0_off71_eq k) (k0_off72_eq k) (k0_off73_eq k) (k0_off74_eq k) (k0_off75_eq k)
    _ _ _ _ _ _ _ _

theorem chkB_8 : ∀ k : Fin k0_t10_loop.trips, k0_chk10 (broadcast S16 (Scalar.addi 1024#32 (Scf.iv 0#32 1#32 k))) := by decide +kernel
theorem bidx_8 : ∀ k : Fin k0_t10_loop.trips, (Scalar.addi 1024#32 (Scf.iv 0#32 1#32 k)).toNat = 1024 + k.val := by decide +kernel

/-- The invariant of the scaling loop of chunk 8: the feature values, and row buffer 0 with its first `k` rows scaled. -/
def invR_8 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 8 G X4 k f⌝)

set_option maxHeartbeats 4000000 in
theorem trip_r_8 (G : Buf (Elt F) (sloc d L cc0_scratch5)) (X4 : Buf (Elt F) (sloc d L cc0_scratch4)) (k : Fin k0_t10_loop.trips) :
    invR_8 d L G X4 k.val PUnit.unit ⊢ wp frame (wpE (defs₀ (F := F)) 𝒱₀ (V d (cV L) (jV L)) none) Set.univ
      (k0_t10_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 0#32 128#32 k ()) (fun a => invR_8 d L G X4 (k.val + 1) a) := by
  unfold invR_8 k0_t10_body
  iintro ⟨Hs4, %f, Hr, %hf⟩
  sl_exec (disch := exact chkB_8 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 8 k.val (Nat.lt_of_lt_of_le k.isLt k0_t10_abs.2.1) G X4 f hf
    (loadIdx (View.read (Elt F) ((s4V).access (Rect.whole S3328)) X4) ![broadcast S16 (Scalar.addi 1024#32 (Scf.iv 0#32 1#32 k))] (k0_idx10_inb _ (chkB_8 k)))
    (bcast_val d L X4 _ _ (bidx_8 k) (by have := Nat.lt_of_lt_of_le k.isLt k0_t10_abs.2.1; omega) _)
    _ _ _ _ _ _ _ _ (k0_off77_eq k) (k0_off78_eq k) (k0_off79_eq k) (k0_off80_eq k) (k0_off81_eq k) (k0_off82_eq k) (k0_off83_eq k) (k0_off84_eq k)
    _ _ _ _ _ _ _ _

theorem chkB_9 : ∀ k : Fin k0_t11_loop.trips, k0_chk11 (broadcast S16 (Scalar.addi 1152#32 (Scf.iv 0#32 1#32 k))) := by decide +kernel
theorem bidx_9 : ∀ k : Fin k0_t11_loop.trips, (Scalar.addi 1152#32 (Scf.iv 0#32 1#32 k)).toNat = 1152 + k.val := by decide +kernel

/-- The invariant of the scaling loop of chunk 9: the feature values, and row buffer 1 with its first `k` rows scaled. -/
def invR_9 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 9 G X4 k f⌝)

set_option maxHeartbeats 4000000 in
theorem trip_r_9 (G : Buf (Elt F) (sloc d L cc0_scratch6)) (X4 : Buf (Elt F) (sloc d L cc0_scratch4)) (k : Fin k0_t11_loop.trips) :
    invR_9 d L G X4 k.val PUnit.unit ⊢ wp frame (wpE (defs₀ (F := F)) 𝒱₀ (V d (cV L) (jV L)) none) Set.univ
      (k0_t11_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 0#32 128#32 k ()) (fun a => invR_9 d L G X4 (k.val + 1) a) := by
  unfold invR_9 k0_t11_body
  iintro ⟨Hs4, %f, Hr, %hf⟩
  sl_exec (disch := exact chkB_9 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 9 k.val (Nat.lt_of_lt_of_le k.isLt k0_t11_abs.2.1) G X4 f hf
    (loadIdx (View.read (Elt F) ((s4V).access (Rect.whole S3328)) X4) ![broadcast S16 (Scalar.addi 1152#32 (Scf.iv 0#32 1#32 k))] (k0_idx11_inb _ (chkB_9 k)))
    (bcast_val d L X4 _ _ (bidx_9 k) (by have := Nat.lt_of_lt_of_le k.isLt k0_t11_abs.2.1; omega) _)
    _ _ _ _ _ _ _ _ (k0_off86_eq k) (k0_off87_eq k) (k0_off88_eq k) (k0_off89_eq k) (k0_off90_eq k) (k0_off91_eq k) (k0_off92_eq k) (k0_off93_eq k)
    _ _ _ _ _ _ _ _

theorem chkB_10 : ∀ k : Fin k0_t12_loop.trips, k0_chk12 (broadcast S16 (Scalar.addi 1280#32 (Scf.iv 0#32 1#32 k))) := by decide +kernel
theorem bidx_10 : ∀ k : Fin k0_t12_loop.trips, (Scalar.addi 1280#32 (Scf.iv 0#32 1#32 k)).toNat = 1280 + k.val := by decide +kernel

/-- The invariant of the scaling loop of chunk 10: the feature values, and row buffer 2 with its first `k` rows scaled. -/
def invR_10 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 10 G X4 k f⌝)

set_option maxHeartbeats 4000000 in
theorem trip_r_10 (G : Buf (Elt F) (sloc d L cc0_scratch7)) (X4 : Buf (Elt F) (sloc d L cc0_scratch4)) (k : Fin k0_t12_loop.trips) :
    invR_10 d L G X4 k.val PUnit.unit ⊢ wp frame (wpE (defs₀ (F := F)) 𝒱₀ (V d (cV L) (jV L)) none) Set.univ
      (k0_t12_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 0#32 1#32 k ()) (fun a => invR_10 d L G X4 (k.val + 1) a) := by
  unfold invR_10 k0_t12_body
  iintro ⟨Hs4, %f, Hr, %hf⟩
  sl_exec (disch := exact chkB_10 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 10 k.val (Nat.lt_of_lt_of_le k.isLt k0_t12_abs.2.1) G X4 f hf
    (loadIdx (View.read (Elt F) ((s4V).access (Rect.whole S3328)) X4) ![broadcast S16 (Scalar.addi 1280#32 (Scf.iv 0#32 1#32 k))] (k0_idx12_inb _ (chkB_10 k)))
    (bcast_val d L X4 _ _ (bidx_10 k) (by have := Nat.lt_of_lt_of_le k.isLt k0_t12_abs.2.1; omega) _)
    _ _ _ _ _ _ _ _ (k0_off95_eq k) (k0_off96_eq k) (k0_off97_eq k) (k0_off98_eq k) (k0_off99_eq k) (k0_off100_eq k) (k0_off101_eq k) (k0_off102_eq k)
    _ _ _ _ _ _ _ _

theorem chkB_11 : ∀ k : Fin k0_t13_loop.trips, k0_chk13 (broadcast S16 (Scalar.addi 1408#32 (Scf.iv 0#32 1#32 k))) := by decide +kernel
theorem bidx_11 : ∀ k : Fin k0_t13_loop.trips, (Scalar.addi 1408#32 (Scf.iv 0#32 1#32 k)).toNat = 1408 + k.val := by decide +kernel

/-- The invariant of the scaling loop of chunk 11: the feature values, and row buffer 3 with its first `k` rows scaled. -/
def invR_11 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 11 G X4 k f⌝)

set_option maxHeartbeats 4000000 in
theorem trip_r_11 (G : Buf (Elt F) (sloc d L cc0_scratch8)) (X4 : Buf (Elt F) (sloc d L cc0_scratch4)) (k : Fin k0_t13_loop.trips) :
    invR_11 d L G X4 k.val PUnit.unit ⊢ wp frame (wpE (defs₀ (F := F)) 𝒱₀ (V d (cV L) (jV L)) none) Set.univ
      (k0_t13_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 0#32 1#32 k ()) (fun a => invR_11 d L G X4 (k.val + 1) a) := by
  unfold invR_11 k0_t13_body
  iintro ⟨Hs4, %f, Hr, %hf⟩
  sl_exec (disch := exact chkB_11 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 11 k.val (Nat.lt_of_lt_of_le k.isLt k0_t13_abs.2.1) G X4 f hf
    (loadIdx (View.read (Elt F) ((s4V).access (Rect.whole S3328)) X4) ![broadcast S16 (Scalar.addi 1408#32 (Scf.iv 0#32 1#32 k))] (k0_idx13_inb _ (chkB_11 k)))
    (bcast_val d L X4 _ _ (bidx_11 k) (by have := Nat.lt_of_lt_of_le k.isLt k0_t13_abs.2.1; omega) _)
    _ _ _ _ _ _ _ _ (k0_off104_eq k) (k0_off105_eq k) (k0_off106_eq k) (k0_off107_eq k) (k0_off108_eq k) (k0_off109_eq k) (k0_off110_eq k) (k0_off111_eq k)
    _ _ _ _ _ _ _ _

theorem chkB_12 : ∀ k : Fin k0_t14_loop.trips, k0_chk14 (broadcast S16 (Scalar.addi 1536#32 (Scf.iv 0#32 1#32 k))) := by decide +kernel
theorem bidx_12 : ∀ k : Fin k0_t14_loop.trips, (Scalar.addi 1536#32 (Scf.iv 0#32 1#32 k)).toNat = 1536 + k.val := by decide +kernel

/-- The invariant of the scaling loop of chunk 12: the feature values, and row buffer 0 with its first `k` rows scaled. -/
def invR_12 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 12 G X4 k f⌝)

set_option maxHeartbeats 4000000 in
theorem trip_r_12 (G : Buf (Elt F) (sloc d L cc0_scratch5)) (X4 : Buf (Elt F) (sloc d L cc0_scratch4)) (k : Fin k0_t14_loop.trips) :
    invR_12 d L G X4 k.val PUnit.unit ⊢ wp frame (wpE (defs₀ (F := F)) 𝒱₀ (V d (cV L) (jV L)) none) Set.univ
      (k0_t14_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 0#32 1#32 k ()) (fun a => invR_12 d L G X4 (k.val + 1) a) := by
  unfold invR_12 k0_t14_body
  iintro ⟨Hs4, %f, Hr, %hf⟩
  sl_exec (disch := exact chkB_12 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 12 k.val (Nat.lt_of_lt_of_le k.isLt k0_t14_abs.2.1) G X4 f hf
    (loadIdx (View.read (Elt F) ((s4V).access (Rect.whole S3328)) X4) ![broadcast S16 (Scalar.addi 1536#32 (Scf.iv 0#32 1#32 k))] (k0_idx14_inb _ (chkB_12 k)))
    (bcast_val d L X4 _ _ (bidx_12 k) (by have := Nat.lt_of_lt_of_le k.isLt k0_t14_abs.2.1; omega) _)
    _ _ _ _ _ _ _ _ (k0_off113_eq k) (k0_off114_eq k) (k0_off115_eq k) (k0_off116_eq k) (k0_off117_eq k) (k0_off118_eq k) (k0_off119_eq k) (k0_off120_eq k)
    _ _ _ _ _ _ _ _

theorem chkB_13 : ∀ k : Fin k0_t15_loop.trips, k0_chk15 (broadcast S16 (Scalar.addi 1664#32 (Scf.iv 0#32 1#32 k))) := by decide +kernel
theorem bidx_13 : ∀ k : Fin k0_t15_loop.trips, (Scalar.addi 1664#32 (Scf.iv 0#32 1#32 k)).toNat = 1664 + k.val := by decide +kernel

/-- The invariant of the scaling loop of chunk 13: the feature values, and row buffer 1 with its first `k` rows scaled. -/
def invR_13 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 13 G X4 k f⌝)

set_option maxHeartbeats 4000000 in
theorem trip_r_13 (G : Buf (Elt F) (sloc d L cc0_scratch6)) (X4 : Buf (Elt F) (sloc d L cc0_scratch4)) (k : Fin k0_t15_loop.trips) :
    invR_13 d L G X4 k.val PUnit.unit ⊢ wp frame (wpE (defs₀ (F := F)) 𝒱₀ (V d (cV L) (jV L)) none) Set.univ
      (k0_t15_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_13 d L G X4 (k.val + 1) a) := by
  unfold invR_13 k0_t15_body
  iintro ⟨Hs4, %f, Hr, %hf⟩
  sl_exec (disch := exact chkB_13 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 13 k.val (Nat.lt_of_lt_of_le k.isLt k0_t15_abs.2.1) G X4 f hf
    (loadIdx (View.read (Elt F) ((s4V).access (Rect.whole S3328)) X4) ![broadcast S16 (Scalar.addi 1664#32 (Scf.iv 0#32 1#32 k))] (k0_idx15_inb _ (chkB_13 k)))
    (bcast_val d L X4 _ _ (bidx_13 k) (by have := Nat.lt_of_lt_of_le k.isLt k0_t15_abs.2.1; omega) _)
    _ _ _ _ _ _ _ _ (k0_off122_eq k) (k0_off123_eq k) (k0_off124_eq k) (k0_off125_eq k) (k0_off126_eq k) (k0_off127_eq k) (k0_off128_eq k) (k0_off129_eq k)
    _ _ _ _ _ _ _ _

theorem chkB_14 : ∀ k : Fin k0_t16_loop.trips, k0_chk16 (broadcast S16 (Scalar.addi 1792#32 (Scf.iv 0#32 1#32 k))) := by decide +kernel
theorem bidx_14 : ∀ k : Fin k0_t16_loop.trips, (Scalar.addi 1792#32 (Scf.iv 0#32 1#32 k)).toNat = 1792 + k.val := by decide +kernel

/-- The invariant of the scaling loop of chunk 14: the feature values, and row buffer 2 with its first `k` rows scaled. -/
def invR_14 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 14 G X4 k f⌝)

set_option maxHeartbeats 4000000 in
theorem trip_r_14 (G : Buf (Elt F) (sloc d L cc0_scratch7)) (X4 : Buf (Elt F) (sloc d L cc0_scratch4)) (k : Fin k0_t16_loop.trips) :
    invR_14 d L G X4 k.val PUnit.unit ⊢ wp frame (wpE (defs₀ (F := F)) 𝒱₀ (V d (cV L) (jV L)) none) Set.univ
      (k0_t16_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_14 d L G X4 (k.val + 1) a) := by
  unfold invR_14 k0_t16_body
  iintro ⟨Hs4, %f, Hr, %hf⟩
  sl_exec (disch := exact chkB_14 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 14 k.val (Nat.lt_of_lt_of_le k.isLt k0_t16_abs.2.1) G X4 f hf
    (loadIdx (View.read (Elt F) ((s4V).access (Rect.whole S3328)) X4) ![broadcast S16 (Scalar.addi 1792#32 (Scf.iv 0#32 1#32 k))] (k0_idx16_inb _ (chkB_14 k)))
    (bcast_val d L X4 _ _ (bidx_14 k) (by have := Nat.lt_of_lt_of_le k.isLt k0_t16_abs.2.1; omega) _)
    _ _ _ _ _ _ _ _ (k0_off131_eq k) (k0_off132_eq k) (k0_off133_eq k) (k0_off134_eq k) (k0_off135_eq k) (k0_off136_eq k) (k0_off137_eq k) (k0_off138_eq k)
    _ _ _ _ _ _ _ _

theorem chkB_15 : ∀ k : Fin k0_t17_loop.trips, k0_chk17 (broadcast S16 (Scalar.addi 1920#32 (Scf.iv 0#32 1#32 k))) := by decide +kernel
theorem bidx_15 : ∀ k : Fin k0_t17_loop.trips, (Scalar.addi 1920#32 (Scf.iv 0#32 1#32 k)).toNat = 1920 + k.val := by decide +kernel

/-- The invariant of the scaling loop of chunk 15: the feature values, and row buffer 3 with its first `k` rows scaled. -/
def invR_15 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 15 G X4 k f⌝)

set_option maxHeartbeats 4000000 in
theorem trip_r_15 (G : Buf (Elt F) (sloc d L cc0_scratch8)) (X4 : Buf (Elt F) (sloc d L cc0_scratch4)) (k : Fin k0_t17_loop.trips) :
    invR_15 d L G X4 k.val PUnit.unit ⊢ wp frame (wpE (defs₀ (F := F)) 𝒱₀ (V d (cV L) (jV L)) none) Set.univ
      (k0_t17_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_15 d L G X4 (k.val + 1) a) := by
  unfold invR_15 k0_t17_body
  iintro ⟨Hs4, %f, Hr, %hf⟩
  sl_exec (disch := exact chkB_15 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 15 k.val (Nat.lt_of_lt_of_le k.isLt k0_t17_abs.2.1) G X4 f hf
    (loadIdx (View.read (Elt F) ((s4V).access (Rect.whole S3328)) X4) ![broadcast S16 (Scalar.addi 1920#32 (Scf.iv 0#32 1#32 k))] (k0_idx17_inb _ (chkB_15 k)))
    (bcast_val d L X4 _ _ (bidx_15 k) (by have := Nat.lt_of_lt_of_le k.isLt k0_t17_abs.2.1; omega) _)
    _ _ _ _ _ _ _ _ (k0_off140_eq k) (k0_off141_eq k) (k0_off142_eq k) (k0_off143_eq k) (k0_off144_eq k) (k0_off145_eq k) (k0_off146_eq k) (k0_off147_eq k)
    _ _ _ _ _ _ _ _

theorem chkB_16 : ∀ k : Fin k0_t18_loop.trips, k0_chk18 (broadcast S16 (Scalar.addi 2048#32 (Scf.iv 0#32 1#32 k))) := by decide +kernel
theorem bidx_16 : ∀ k : Fin k0_t18_loop.trips, (Scalar.addi 2048#32 (Scf.iv 0#32 1#32 k)).toNat = 2048 + k.val := by decide +kernel

/-- The invariant of the scaling loop of chunk 16: the feature values, and row buffer 0 with its first `k` rows scaled. -/
def invR_16 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 16 G X4 k f⌝)

set_option maxHeartbeats 4000000 in
theorem trip_r_16 (G : Buf (Elt F) (sloc d L cc0_scratch5)) (X4 : Buf (Elt F) (sloc d L cc0_scratch4)) (k : Fin k0_t18_loop.trips) :
    invR_16 d L G X4 k.val PUnit.unit ⊢ wp frame (wpE (defs₀ (F := F)) 𝒱₀ (V d (cV L) (jV L)) none) Set.univ
      (k0_t18_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_16 d L G X4 (k.val + 1) a) := by
  unfold invR_16 k0_t18_body
  iintro ⟨Hs4, %f, Hr, %hf⟩
  sl_exec (disch := exact chkB_16 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 16 k.val (Nat.lt_of_lt_of_le k.isLt k0_t18_abs.2.1) G X4 f hf
    (loadIdx (View.read (Elt F) ((s4V).access (Rect.whole S3328)) X4) ![broadcast S16 (Scalar.addi 2048#32 (Scf.iv 0#32 1#32 k))] (k0_idx18_inb _ (chkB_16 k)))
    (bcast_val d L X4 _ _ (bidx_16 k) (by have := Nat.lt_of_lt_of_le k.isLt k0_t18_abs.2.1; omega) _)
    _ _ _ _ _ _ _ _ (k0_off149_eq k) (k0_off150_eq k) (k0_off151_eq k) (k0_off152_eq k) (k0_off153_eq k) (k0_off154_eq k) (k0_off155_eq k) (k0_off156_eq k)
    _ _ _ _ _ _ _ _

theorem chkB_17 : ∀ k : Fin k0_t19_loop.trips, k0_chk19 (broadcast S16 (Scalar.addi 2176#32 (Scf.iv 0#32 1#32 k))) := by decide +kernel
theorem bidx_17 : ∀ k : Fin k0_t19_loop.trips, (Scalar.addi 2176#32 (Scf.iv 0#32 1#32 k)).toNat = 2176 + k.val := by decide +kernel

/-- The invariant of the scaling loop of chunk 17: the feature values, and row buffer 1 with its first `k` rows scaled. -/
def invR_17 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 17 G X4 k f⌝)

set_option maxHeartbeats 4000000 in
theorem trip_r_17 (G : Buf (Elt F) (sloc d L cc0_scratch6)) (X4 : Buf (Elt F) (sloc d L cc0_scratch4)) (k : Fin k0_t19_loop.trips) :
    invR_17 d L G X4 k.val PUnit.unit ⊢ wp frame (wpE (defs₀ (F := F)) 𝒱₀ (V d (cV L) (jV L)) none) Set.univ
      (k0_t19_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_17 d L G X4 (k.val + 1) a) := by
  unfold invR_17 k0_t19_body
  iintro ⟨Hs4, %f, Hr, %hf⟩
  sl_exec (disch := exact chkB_17 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 17 k.val (Nat.lt_of_lt_of_le k.isLt k0_t19_abs.2.1) G X4 f hf
    (loadIdx (View.read (Elt F) ((s4V).access (Rect.whole S3328)) X4) ![broadcast S16 (Scalar.addi 2176#32 (Scf.iv 0#32 1#32 k))] (k0_idx19_inb _ (chkB_17 k)))
    (bcast_val d L X4 _ _ (bidx_17 k) (by have := Nat.lt_of_lt_of_le k.isLt k0_t19_abs.2.1; omega) _)
    _ _ _ _ _ _ _ _ (k0_off158_eq k) (k0_off159_eq k) (k0_off160_eq k) (k0_off161_eq k) (k0_off162_eq k) (k0_off163_eq k) (k0_off164_eq k) (k0_off165_eq k)
    _ _ _ _ _ _ _ _

theorem chkB_18 : ∀ k : Fin k0_t20_loop.trips, k0_chk20 (broadcast S16 (Scalar.addi 2304#32 (Scf.iv 0#32 1#32 k))) := by decide +kernel
theorem bidx_18 : ∀ k : Fin k0_t20_loop.trips, (Scalar.addi 2304#32 (Scf.iv 0#32 1#32 k)).toNat = 2304 + k.val := by decide +kernel

/-- The invariant of the scaling loop of chunk 18: the feature values, and row buffer 2 with its first `k` rows scaled. -/
def invR_18 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 18 G X4 k f⌝)

set_option maxHeartbeats 4000000 in
theorem trip_r_18 (G : Buf (Elt F) (sloc d L cc0_scratch7)) (X4 : Buf (Elt F) (sloc d L cc0_scratch4)) (k : Fin k0_t20_loop.trips) :
    invR_18 d L G X4 k.val PUnit.unit ⊢ wp frame (wpE (defs₀ (F := F)) 𝒱₀ (V d (cV L) (jV L)) none) Set.univ
      (k0_t20_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_18 d L G X4 (k.val + 1) a) := by
  unfold invR_18 k0_t20_body
  iintro ⟨Hs4, %f, Hr, %hf⟩
  sl_exec (disch := exact chkB_18 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 18 k.val (Nat.lt_of_lt_of_le k.isLt k0_t20_abs.2.1) G X4 f hf
    (loadIdx (View.read (Elt F) ((s4V).access (Rect.whole S3328)) X4) ![broadcast S16 (Scalar.addi 2304#32 (Scf.iv 0#32 1#32 k))] (k0_idx20_inb _ (chkB_18 k)))
    (bcast_val d L X4 _ _ (bidx_18 k) (by have := Nat.lt_of_lt_of_le k.isLt k0_t20_abs.2.1; omega) _)
    _ _ _ _ _ _ _ _ (k0_off167_eq k) (k0_off168_eq k) (k0_off169_eq k) (k0_off170_eq k) (k0_off171_eq k) (k0_off172_eq k) (k0_off173_eq k) (k0_off174_eq k)
    _ _ _ _ _ _ _ _

theorem chkB_19 : ∀ k : Fin k0_t21_loop.trips, k0_chk21 (broadcast S16 (Scalar.addi 2432#32 (Scf.iv 0#32 1#32 k))) := by decide +kernel
theorem bidx_19 : ∀ k : Fin k0_t21_loop.trips, (Scalar.addi 2432#32 (Scf.iv 0#32 1#32 k)).toNat = 2432 + k.val := by decide +kernel

/-- The invariant of the scaling loop of chunk 19: the feature values, and row buffer 3 with its first `k` rows scaled. -/
def invR_19 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 19 G X4 k f⌝)

set_option maxHeartbeats 4000000 in
theorem trip_r_19 (G : Buf (Elt F) (sloc d L cc0_scratch8)) (X4 : Buf (Elt F) (sloc d L cc0_scratch4)) (k : Fin k0_t21_loop.trips) :
    invR_19 d L G X4 k.val PUnit.unit ⊢ wp frame (wpE (defs₀ (F := F)) 𝒱₀ (V d (cV L) (jV L)) none) Set.univ
      (k0_t21_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_19 d L G X4 (k.val + 1) a) := by
  unfold invR_19 k0_t21_body
  iintro ⟨Hs4, %f, Hr, %hf⟩
  sl_exec (disch := exact chkB_19 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 19 k.val (Nat.lt_of_lt_of_le k.isLt k0_t21_abs.2.1) G X4 f hf
    (loadIdx (View.read (Elt F) ((s4V).access (Rect.whole S3328)) X4) ![broadcast S16 (Scalar.addi 2432#32 (Scf.iv 0#32 1#32 k))] (k0_idx21_inb _ (chkB_19 k)))
    (bcast_val d L X4 _ _ (bidx_19 k) (by have := Nat.lt_of_lt_of_le k.isLt k0_t21_abs.2.1; omega) _)
    _ _ _ _ _ _ _ _ (k0_off176_eq k) (k0_off177_eq k) (k0_off178_eq k) (k0_off179_eq k) (k0_off180_eq k) (k0_off181_eq k) (k0_off182_eq k) (k0_off183_eq k)
    _ _ _ _ _ _ _ _

theorem chkB_20 : ∀ k : Fin k0_t22_loop.trips, k0_chk22 (broadcast S16 (Scalar.addi 2560#32 (Scf.iv 0#32 1#32 k))) := by decide +kernel
theorem bidx_20 : ∀ k : Fin k0_t22_loop.trips, (Scalar.addi 2560#32 (Scf.iv 0#32 1#32 k)).toNat = 2560 + k.val := by decide +kernel

/-- The invariant of the scaling loop of chunk 20: the feature values, and row buffer 0 with its first `k` rows scaled. -/
def invR_20 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 20 G X4 k f⌝)

set_option maxHeartbeats 4000000 in
theorem trip_r_20 (G : Buf (Elt F) (sloc d L cc0_scratch5)) (X4 : Buf (Elt F) (sloc d L cc0_scratch4)) (k : Fin k0_t22_loop.trips) :
    invR_20 d L G X4 k.val PUnit.unit ⊢ wp frame (wpE (defs₀ (F := F)) 𝒱₀ (V d (cV L) (jV L)) none) Set.univ
      (k0_t22_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_20 d L G X4 (k.val + 1) a) := by
  unfold invR_20 k0_t22_body
  iintro ⟨Hs4, %f, Hr, %hf⟩
  sl_exec (disch := exact chkB_20 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 20 k.val (Nat.lt_of_lt_of_le k.isLt k0_t22_abs.2.1) G X4 f hf
    (loadIdx (View.read (Elt F) ((s4V).access (Rect.whole S3328)) X4) ![broadcast S16 (Scalar.addi 2560#32 (Scf.iv 0#32 1#32 k))] (k0_idx22_inb _ (chkB_20 k)))
    (bcast_val d L X4 _ _ (bidx_20 k) (by have := Nat.lt_of_lt_of_le k.isLt k0_t22_abs.2.1; omega) _)
    _ _ _ _ _ _ _ _ (k0_off185_eq k) (k0_off186_eq k) (k0_off187_eq k) (k0_off188_eq k) (k0_off189_eq k) (k0_off190_eq k) (k0_off191_eq k) (k0_off192_eq k)
    _ _ _ _ _ _ _ _

theorem chkB_21 : ∀ k : Fin k0_t23_loop.trips, k0_chk23 (broadcast S16 (Scalar.addi 2688#32 (Scf.iv 0#32 1#32 k))) := by decide +kernel
theorem bidx_21 : ∀ k : Fin k0_t23_loop.trips, (Scalar.addi 2688#32 (Scf.iv 0#32 1#32 k)).toNat = 2688 + k.val := by decide +kernel

/-- The invariant of the scaling loop of chunk 21: the feature values, and row buffer 1 with its first `k` rows scaled. -/
def invR_21 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 21 G X4 k f⌝)

set_option maxHeartbeats 4000000 in
theorem trip_r_21 (G : Buf (Elt F) (sloc d L cc0_scratch6)) (X4 : Buf (Elt F) (sloc d L cc0_scratch4)) (k : Fin k0_t23_loop.trips) :
    invR_21 d L G X4 k.val PUnit.unit ⊢ wp frame (wpE (defs₀ (F := F)) 𝒱₀ (V d (cV L) (jV L)) none) Set.univ
      (k0_t23_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_21 d L G X4 (k.val + 1) a) := by
  unfold invR_21 k0_t23_body
  iintro ⟨Hs4, %f, Hr, %hf⟩
  sl_exec (disch := exact chkB_21 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 21 k.val (Nat.lt_of_lt_of_le k.isLt k0_t23_abs.2.1) G X4 f hf
    (loadIdx (View.read (Elt F) ((s4V).access (Rect.whole S3328)) X4) ![broadcast S16 (Scalar.addi 2688#32 (Scf.iv 0#32 1#32 k))] (k0_idx23_inb _ (chkB_21 k)))
    (bcast_val d L X4 _ _ (bidx_21 k) (by have := Nat.lt_of_lt_of_le k.isLt k0_t23_abs.2.1; omega) _)
    _ _ _ _ _ _ _ _ (k0_off194_eq k) (k0_off195_eq k) (k0_off196_eq k) (k0_off197_eq k) (k0_off198_eq k) (k0_off199_eq k) (k0_off200_eq k) (k0_off201_eq k)
    _ _ _ _ _ _ _ _

theorem chkB_22 : ∀ k : Fin k0_t24_loop.trips, k0_chk24 (broadcast S16 (Scalar.addi 2816#32 (Scf.iv 0#32 1#32 k))) := by decide +kernel
theorem bidx_22 : ∀ k : Fin k0_t24_loop.trips, (Scalar.addi 2816#32 (Scf.iv 0#32 1#32 k)).toNat = 2816 + k.val := by decide +kernel

/-- The invariant of the scaling loop of chunk 22: the feature values, and row buffer 2 with its first `k` rows scaled. -/
def invR_22 (G : Buf (Elt F) (sloc d L cc0_scratch7)) (X4 : Buf (Elt F) (sloc d L cc0_scratch4)) (k : ℕ) (_ : PUnit) : sProp 𝕄 :=
  iprop(((s4V).view.loc (V d (cV L) (jV L)) ↦{fullShare} X4)
    ∗ ∃ f, ((r2V).view.loc (V d (cV L) (jV L)) ↦{fullShare} f) ∗ ⌜rowsDone 22 G X4 k f⌝)

set_option maxHeartbeats 4000000 in
theorem trip_r_22 (G : Buf (Elt F) (sloc d L cc0_scratch7)) (X4 : Buf (Elt F) (sloc d L cc0_scratch4)) (k : Fin k0_t24_loop.trips) :
    invR_22 d L G X4 k.val PUnit.unit ⊢ wp frame (wpE (defs₀ (F := F)) 𝒱₀ (V d (cV L) (jV L)) none) Set.univ
      (k0_t24_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_22 d L G X4 (k.val + 1) a) := by
  unfold invR_22 k0_t24_body
  iintro ⟨Hs4, %f, Hr, %hf⟩
  sl_exec (disch := exact chkB_22 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step2 d L 22 k.val (Nat.lt_of_lt_of_le k.isLt k0_t24_abs.2.1) G X4 f hf
    (loadIdx (View.read (Elt F) ((s4V).access (Rect.whole S3328)) X4) ![broadcast S16 (Scalar.addi 2816#32 (Scf.iv 0#32 1#32 k))] (k0_idx24_inb _ (chkB_22 k)))
    (bcast_val d L X4 _ _ (bidx_22 k) (by have := Nat.lt_of_lt_of_le k.isLt k0_t24_abs.2.1; omega) _)
    _ _ _ _ _ _ _ _ (k0_off203_eq k) (k0_off204_eq k) (k0_off205_eq k) (k0_off206_eq k) (k0_off207_eq k) (k0_off208_eq k) (k0_off209_eq k) (k0_off210_eq k)
    _ _ _ _ _ _ _ _

theorem chkB_23 : ∀ k : Fin k0_t25_loop.trips, k0_chk25 (broadcast S16 (Scalar.addi 2944#32 (Scf.iv 0#32 1#32 k))) := by decide +kernel
theorem bidx_23 : ∀ k : Fin k0_t25_loop.trips, (Scalar.addi 2944#32 (Scf.iv 0#32 1#32 k)).toNat = 2944 + k.val := by decide +kernel

/-- The invariant of the scaling loop of chunk 23: the feature values, and row buffer 3 with its first `k` rows scaled. -/
def invR_23 (G : Buf (Elt F) (sloc d L cc0_scratch8)) (X4 : Buf (Elt F) (sloc d L cc0_scratch4)) (k : ℕ) (_ : PUnit) : sProp 𝕄 :=
  iprop(((s4V).view.loc (V d (cV L) (jV L)) ↦{fullShare} X4)
    ∗ ∃ f, ((r3V).view.loc (V d (cV L) (jV L)) ↦{fullShare} f) ∗ ⌜rowsDone 23 G X4 k f⌝)

set_option maxHeartbeats 4000000 in
theorem trip_r_23 (G : Buf (Elt F) (sloc d L cc0_scratch8)) (X4 : Buf (Elt F) (sloc d L cc0_scratch4)) (k : Fin k0_t25_loop.trips) :
    invR_23 d L G X4 k.val PUnit.unit ⊢ wp frame (wpE (defs₀ (F := F)) 𝒱₀ (V d (cV L) (jV L)) none) Set.univ
      (k0_t25_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_23 d L G X4 (k.val + 1) a) := by
  unfold invR_23 k0_t25_body
  iintro ⟨Hs4, %f, Hr, %hf⟩
  sl_exec (disch := exact chkB_23 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step3 d L 23 k.val (Nat.lt_of_lt_of_le k.isLt k0_t25_abs.2.1) G X4 f hf
    (loadIdx (View.read (Elt F) ((s4V).access (Rect.whole S3328)) X4) ![broadcast S16 (Scalar.addi 2944#32 (Scf.iv 0#32 1#32 k))] (k0_idx25_inb _ (chkB_23 k)))
    (bcast_val d L X4 _ _ (bidx_23 k) (by have := Nat.lt_of_lt_of_le k.isLt k0_t25_abs.2.1; omega) _)
    _ _ _ _ _ _ _ _ (k0_off212_eq k) (k0_off213_eq k) (k0_off214_eq k) (k0_off215_eq k) (k0_off216_eq k) (k0_off217_eq k) (k0_off218_eq k) (k0_off219_eq k)
    _ _ _ _ _ _ _ _

theorem chkB_24 : ∀ k : Fin k0_t26_loop.trips, k0_chk26 (broadcast S16 (Scalar.addi 3072#32 (Scf.iv 0#32 1#32 k))) := by decide +kernel
theorem bidx_24 : ∀ k : Fin k0_t26_loop.trips, (Scalar.addi 3072#32 (Scf.iv 0#32 1#32 k)).toNat = 3072 + k.val := by decide +kernel

/-- The invariant of the scaling loop of chunk 24: the feature values, and row buffer 0 with its first `k` rows scaled. -/
def invR_24 (G : Buf (Elt F) (sloc d L cc0_scratch5)) (X4 : Buf (Elt F) (sloc d L cc0_scratch4)) (k : ℕ) (_ : PUnit) : sProp 𝕄 :=
  iprop(((s4V).view.loc (V d (cV L) (jV L)) ↦{fullShare} X4)
    ∗ ∃ f, ((r0V).view.loc (V d (cV L) (jV L)) ↦{fullShare} f) ∗ ⌜rowsDone 24 G X4 k f⌝)

set_option maxHeartbeats 4000000 in
theorem trip_r_24 (G : Buf (Elt F) (sloc d L cc0_scratch5)) (X4 : Buf (Elt F) (sloc d L cc0_scratch4)) (k : Fin k0_t26_loop.trips) :
    invR_24 d L G X4 k.val PUnit.unit ⊢ wp frame (wpE (defs₀ (F := F)) 𝒱₀ (V d (cV L) (jV L)) none) Set.univ
      (k0_t26_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_24 d L G X4 (k.val + 1) a) := by
  unfold invR_24 k0_t26_body
  iintro ⟨Hs4, %f, Hr, %hf⟩
  sl_exec (disch := exact chkB_24 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step0 d L 24 k.val (Nat.lt_of_lt_of_le k.isLt k0_t26_abs.2.1) G X4 f hf
    (loadIdx (View.read (Elt F) ((s4V).access (Rect.whole S3328)) X4) ![broadcast S16 (Scalar.addi 3072#32 (Scf.iv 0#32 1#32 k))] (k0_idx26_inb _ (chkB_24 k)))
    (bcast_val d L X4 _ _ (bidx_24 k) (by have := Nat.lt_of_lt_of_le k.isLt k0_t26_abs.2.1; omega) _)
    _ _ _ _ _ _ _ _ (k0_off221_eq k) (k0_off222_eq k) (k0_off223_eq k) (k0_off224_eq k) (k0_off225_eq k) (k0_off226_eq k) (k0_off227_eq k) (k0_off228_eq k)
    _ _ _ _ _ _ _ _

theorem chkB_25 : ∀ k : Fin k0_t27_loop.trips, k0_chk27 (broadcast S16 (Scalar.addi 3200#32 (Scf.iv 0#32 1#32 k))) := by decide +kernel
theorem bidx_25 : ∀ k : Fin k0_t27_loop.trips, (Scalar.addi 3200#32 (Scf.iv 0#32 1#32 k)).toNat = 3200 + k.val := by decide +kernel

/-- The invariant of the scaling loop of chunk 25: the feature values, and row buffer 1 with its first `k` rows scaled. -/
def invR_25 (G : Buf (Elt F) (sloc d L cc0_scratch6)) (X4 : Buf (Elt F) (sloc d L cc0_scratch4)) (k : ℕ) (_ : PUnit) : sProp 𝕄 :=
  iprop(((s4V).view.loc (V d (cV L) (jV L)) ↦{fullShare} X4)
    ∗ ∃ f, ((r1V).view.loc (V d (cV L) (jV L)) ↦{fullShare} f) ∗ ⌜rowsDone 25 G X4 k f⌝)

set_option maxHeartbeats 4000000 in
theorem trip_r_25 (G : Buf (Elt F) (sloc d L cc0_scratch6)) (X4 : Buf (Elt F) (sloc d L cc0_scratch4)) (k : Fin k0_t27_loop.trips) :
    invR_25 d L G X4 k.val PUnit.unit ⊢ wp frame (wpE (defs₀ (F := F)) 𝒱₀ (V d (cV L) (jV L)) none) Set.univ
      (k0_t27_body (F := F) L tV (Memref.isWhole_whole _) i2V (Memref.isWhole_whole _) isV (Memref.isWhole_whole _) wfV (Memref.isWhole_whole _) xvV (Memref.isWhole_whole _) e2V (Memref.isWhole_whole _) soV (Memref.isWhole_whole _) s0V (Memref.isWhole_whole _) s1V (Memref.isWhole_whole _) s2V (Memref.isWhole_whole _) s3V (Memref.isWhole_whole _) s4V (Memref.isWhole_whole _) r0V (Memref.isWhole_whole _) r1V (Memref.isWhole_whole _) r2V (Memref.isWhole_whole _) r3V (Memref.isWhole_whole _) cc0_scratch9 cc0_scratch10 cc0_scratch11 cc0_scratch12 cc0_scratch13 cc0_scratch14 cc0_scratch15 cc0_scratch16 cc0_scoped0 cc0_scoped1 cc0_scoped2 cc0_scoped3 cc0_scoped4 k ()) (fun a => invR_25 d L G X4 (k.val + 1) a) := by
  unfold invR_25 k0_t27_body
  iintro ⟨Hs4, %f, Hr, %hf⟩
  sl_exec (disch := exact chkB_25 k)
  ihave Hs4' := (Entails.of_eq (show (((s4V).view.loc (V d (cV L) (jV L)) ↦{fullShare} X4 : sProp 𝕄))
      = (((s4V).access (.whole S3328)).loc (V d (cV L) (jV L)) ↦{fullShare} X4) from rfl)) $$ Hs4
  iapply (SparseCore.wp_vectorLoadIdx 𝒱₀ (V d (cV L) (jV L)) none Set.univ (base := (s4V : Memref sig .scVector .vmem S3328 .f32)) (S := Finset.univ) (q := fullShare) (Finset.subset_univ _)) $$ Hs4'; iintro Hs4'
  sl_exec
  sl_step
  isplitl [Hs4']
  · iapply (Entails.of_eq (show ((((s4V).access (.whole S3328)).loc (V d (cV L) (jV L)) ↦{fullShare} X4 : sProp 𝕄))
      = ((s4V).view.loc (V d (cV L) (jV L)) ↦{fullShare} X4) from rfl)); iexact Hs4'
  iexists _; isplitl [Hr]; · iexact Hr
  ipureintro
  exact rows_step1 d L 25 k.val (Nat.lt_of_lt_of_le k.isLt k0_t27_abs.2.1) G X4 f hf
    (loadIdx (View.read (Elt F) ((s4V).access (Rect.whole S3328)) X4) ![broadcast S16 (Scalar.addi 3200#32 (Scf.iv 0#32 1#32 k))] (k0_idx27_inb _ (chkB_25 k)))
    (bcast_val d L X4 _ _ (bidx_25 k) (by have := Nat.lt_of_lt_of_le k.isLt k0_t27_abs.2.1; omega) _)
    _ _ _ _ _ _ _ _ (k0_off230_eq k) (k0_off231_eq k) (k0_off232_eq k) (k0_off233_eq k) (k0_off234_eq k) (k0_off235_eq k) (k0_off236_eq k) (k0_off237_eq k)
    _ _ _ _ _ _ _ _

end Cert.ProofB.ScLoops
-- ==== Proof.B.ScSplitIdx.lean ====
/-
  The index scratch of 3328 words is the disjoint union of its 26 chunks of 128 consecutive words: holding the whole
  scratch at some contents is holding the 26 chunks, each at the same contents.
-/
import proofs.«207592_g65111704207794_cont_9to1_m_407_36_alg».proof.Proof.B.ScViews

noncomputable section

namespace Cert.ProofB.ScSplit

open Cert.Kernel Cert.Kernel.Gen
open Cert.ProofB.ScSpec Cert.ProofB.ScViews
open Cert.ProofB.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## The index scratch in 26 chunks of 128 -/

/-- Words n … n + 127 of the index scratch. -/
abbrev idxChunk (n : ℕ) (h : n + 128 ≤ 3328) : Memref sig .scVector .vmem S128 .i32 :=
  (s0V).slice (Rect.unit (s := S3328) ![n] S128.size (Rect.inb₁ h)) (fun _ => rfl)

theorem chunk_le (c : Fin 26) : 128 * c.val + 128 ≤ 3328 := by
  have := c.isLt
  omega

theorem idxChunk_set (n : ℕ) (h : n + 128 ≤ 3328) :
    ((idxChunk n h).view.set : Finset S3328.Idx) = (Rect.unit (s := S3328) ![n] S128.size (Rect.inb₁ h)).set :=
  View.set_slice_whole _ _

theorem idxChunk_disjoint (n n' : ℕ) (h : n + 128 ≤ 3328) (h' : n' + 128 ≤ 3328) (hs : n + 128 ≤ n' ∨ n' + 128 ≤ n) :
    Disjoint ((idxChunk n h).view.set : Finset S3328.Idx) (idxChunk n' h').view.set := by
  rw [idxChunk_set, idxChunk_set]
  exact Rect.unit_disjoint (0 : Fin 1) hs

theorem mem_idxChunk (i : S3328.Idx) (n : ℕ) (h : n + 128 ≤ 3328) (h1 : n ≤ (i 0).val) (h2 : (i 0).val < n + 128) :
    i ∈ ((idxChunk n h).view.set : Finset S3328.Idx) := by
  rw [idxChunk_set, Rect.mem_set_unit]
  exact Fin.forall_fin_one.mpr ⟨h1, h2⟩

set_option maxHeartbeats 2000000 in
/-- THE SCRATCH IN CHUNKS: the whole scratch at contents c0 is its 26 chunks at c0. -/
theorem s0_split (c0 : Buf (Elt F) (sloc d L cc0_scratch0)) :
    ((s0V).view.loc (V d (cV L) (jV L)) ↦{fullShare} c0 : sProp 𝕄)
      = iprop(((idxChunk 0 (Nat.le_of_ble_eq_true rfl)).view.loc (V d (cV L) (jV L)) ↦[(idxChunk 0 (Nat.le_of_ble_eq_true rfl)).view.set]{fullShare} c0)
          ∗ ((idxChunk 128 (Nat.le_of_ble_eq_true rfl)).view.loc (V d (cV L) (jV L)) ↦[(idxChunk 128 (Nat.le_of_ble_eq_true rfl)).view.set]{fullShare} c0)
          ∗ ((idxChunk 256 (Nat.le_of_ble_eq_true rfl)).view.loc (V d (cV L) (jV L)) ↦[(idxChunk 256 (Nat.le_of_ble_eq_true rfl)).view.set]{fullShare} c0)
          ∗ ((idxChunk 384 (Nat.le_of_ble_eq_true rfl)).view.loc (V d (cV L) (jV L)) ↦[(idxChunk 384 (Nat.le_of_ble_eq_true rfl)).view.set]{fullShare} c0)
          ∗ ((idxChunk 512 (Nat.le_of_ble_eq_true rfl)).view.loc (V d (cV L) (jV L)) ↦[(idxChunk 512 (Nat.le_of_ble_eq_true rfl)).view.set]{fullShare} c0)
          ∗ ((idxChunk 640 (Nat.le_of_ble_eq_true rfl)).view.loc (V d (cV L) (jV L)) ↦[(idxChunk 640 (Nat.le_of_ble_eq_true rfl)).view.set]{fullShare} c0)
          ∗ ((idxChunk 768 (Nat.le_of_ble_eq_true rfl)).view.loc (V d (cV L) (jV L)) ↦[(idxChunk 768 (Nat.le_of_ble_eq_true rfl)).view.set]{fullShare} c0)
          ∗ ((idxChunk 896 (Nat.le_of_ble_eq_true rfl)).view.loc (V d (cV L) (jV L)) ↦[(idxChunk 896 (Nat.le_of_ble_eq_true rfl)).view.set]{fullShare} c0)
          ∗ ((idxChunk 1024 (Nat.le_of_ble_eq_true rfl)).view.loc (V d (cV L) (jV L)) ↦[(idxChunk 1024 (Nat.le_of_ble_eq_true rfl)).view.set]{fullShare} c0)
          ∗ ((idxChunk 1152 (Nat.le_of_ble_eq_true rfl)).view.loc (V d (cV L) (jV L)) ↦[(idxChunk 1152 (Nat.le_of_ble_eq_true rfl)).view.set]{fullShare} c0)
          ∗ ((idxChunk 1280 (Nat.le_of_ble_eq_true rfl)).view.loc (V d (cV L) (jV L)) ↦[(idxChunk 1280 (Nat.le_of_ble_eq_true rfl)).view.set]{fullShare} c0)
          ∗ ((idxChunk 1408 (Nat.le_of_ble_eq_true rfl)).view.loc (V d (cV L) (jV L)) ↦[(idxChunk 1408 (Nat.le_of_ble_eq_true rfl)).view.set]{fullShare} c0)
          ∗ ((idxChunk 1536 (Nat.le_of_ble_eq_true rfl)).view.loc (V d (cV L) (jV L)) ↦[(idxChunk 1536 (Nat.le_of_ble_eq_true rfl)).view.set]{fullShare} c0)
          ∗ ((idxChunk 1664 (Nat.le_of_ble_eq_true rfl)).view.loc (V d (cV L) (jV L)) ↦[(idxChunk 1664 (Nat.le_of_ble_eq_true rfl)).view.set]{fullShare} c0)
          ∗ ((idxChunk 1792 (Nat.le_of_ble_eq_true rfl)).view.loc (V d (cV L) (jV L)) ↦[(idxChunk 1792 (Nat.le_of_ble_eq_true rfl)).view.set]{fullShare} c0)
          ∗ ((idxChunk 1920 (Nat.le_of_ble_eq_true rfl)).view.loc (V d (cV L) (jV L)) ↦[(idxChunk 1920 (Nat.le_of_ble_eq_true rfl)).view.set]{fullShare} c0)
          ∗ ((idxChunk 2048 (Nat.le_of_ble_eq_true rfl)).view.loc (V d (cV L) (jV L)) ↦[(idxChunk 2048 (Nat.le_of_ble_eq_true rfl)).view.set]{fullShare} c0)
          ∗ ((idxChunk 2176 (Nat.le_of_ble_eq_true rfl)).view.loc (V d (cV L) (jV L)) ↦[(idxChunk 2176 (Nat.le_of_ble_eq_true rfl)).view.set]{fullShare} c0)
          ∗ ((idxChunk 2304 (Nat.le_of_ble_eq_true rfl)).view.loc (V d (cV L) (jV L)) ↦[(idxChunk 2304 (Nat.le_of_ble_eq_true rfl)).view.set]{fullShare} c0)
          ∗ ((idxChunk 2432 (Nat.le_of_ble_eq_true rfl)).view.loc (V d (cV L) (jV L)) ↦[(idxChunk 2432 (Nat.le_of_ble_eq_true rfl)).view.set]{fullShare} c0)
          ∗ ((idxChunk 2560 (Nat.le_of_ble_eq_true rfl)).view.loc (V d (cV L) (jV L)) ↦[(idxChunk 2560 (Nat.le_of_ble_eq_true rfl)).view.set]{fullShare} c0)
          ∗ ((idxChunk 2688 (Nat.le_of_ble_eq_true rfl)).view.loc (V d (cV L) (jV L)) ↦[(idxChunk 2688 (Nat.le_of_ble_eq_true rfl)).view.set]{fullShare} c0)
          ∗ ((idxChunk 2816 (Nat.le_of_ble_eq_true rfl)).view.loc (V d (cV L) (jV L)) ↦[(idxChunk 2816 (Nat.le_of_ble_eq_true rfl)).view.set]{fullShare} c0)
          ∗ ((idxChunk 2944 (Nat.le_of_ble_eq_true rfl)).view.loc (V d (cV L) (jV L)) ↦[(idxChunk 2944 (Nat.le_of_ble_eq_true rfl)).view.set]{fullShare} c0)
          ∗ ((idxChunk 3072 (Nat.le_of_ble_eq_true rfl)).view.loc (V d (cV L) (jV L)) ↦[(idxChunk 3072 (Nat.le_of_ble_eq_true rfl)).view.set]{fullShare} c0)
          ∗ ((idxChunk 3200 (Nat.le_of_ble_eq_true rfl)).view.loc (V d (cV L) (jV L)) ↦[(idxChunk 3200 (Nat.le_of_ble_eq_true rfl)).view.set]{fullShare} c0)) := by
  have hsplit := pointsTo_biUnion (Ix := HIx 1) (Name := ℕ) (U := UU) (Lvl := ℕ) (ℓ := sloc d L cc0_scratch0)
    (q := fullShare) (f := c0) (Finset.univ : Finset (Fin 26))
    (fun c => (idxChunk (128 * c.val) (chunk_le c)).view.set)
    (fun t _ t' _ hne => idxChunk_disjoint _ _ _ _ (by
      have h1 := t.isLt
      have h2 := t'.isLt
      have h3 : t.val ≠ t'.val := fun e => hne (Fin.ext e)
      omega))
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [Idealize.ShloMosaic.bigSep_univ_succ] at hsplit
  rw [BI.bigSep_univ_of_subsingleton (0 : Fin 1)] at hsplit
  refine Eq.trans (congrArg (fun I => (sloc d L cc0_scratch0 ↦[I]{fullShare} c0 : sProp 𝕄))
    (?_ : (Finset.univ : Finset (Idx (sloc d L cc0_scratch0))) = _)) hsplit
  ext i
  have hi : (i 0).val < 3328 := (i 0).isLt
  refine ⟨fun _ => Finset.mem_biUnion.mpr ⟨⟨(i 0).val / 128, by omega⟩, Finset.mem_univ _, ?_⟩, fun _ => Finset.mem_univ _⟩
  exact mem_idxChunk i (128 * ((i 0).val / 128)) (by omega) (by omega) (by omega)

end Cert.ProofB.ScSplit

end
-- ==== Proof.B.ScSplitRows.lean ====
/-
  The 128 rows of the second-order result that one task writes are the disjoint union of 26 blocks of 128 columns:
  holding the rows at some contents is holding the 26 blocks, each at the same contents; and 26 blocks held at
  contents that agree, block by block, with one function are the rows held at that function.
-/
import proofs.«207592_g65111704207794_cont_9to1_m_407_36_alg».proof.Proof.B.ScViews

noncomputable section

namespace Cert.ProofB.ScSplit

open Cert.Kernel Cert.Kernel.Gen
open Cert.ProofB.ScSpec Cert.ProofB.ScViews
open Cert.ProofB.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## A product over 26 indices, written out -/

theorem univ26 : (Finset.univ : Finset (Fin 26)) = {0, 1, 2, 3, 4, 5, 6, 7, 8, 9, 10, 11, 12, 13, 14, 15, 16, 17, 18, 19, 20, 21, 22, 23, 24, 25} := by decide

theorem bigSep_fin26 (Φ : Fin 26 → sProp 𝕄) :
    bigSep (Finset.univ : Finset (Fin 26)) Φ
      = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) := by
  rw [univ26]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [SparseCore.bigSep_insert' (by decide)]
  rw [bigSep_singleton]

/-! ## The task's rows of the second-order result in 26 blocks of 128 columns -/

abbrev e2Blk0 (L : grid0.Coords) : Memref sig .scVector .hbm S128x128 .f32 :=
  (e2V).slice (Rect.unit (s := S4096x3328) (k0_off13 L) S128x128.size (k0_off13_inb L)) (fun _ => rfl)
abbrev e2Blk1 (L : grid0.Coords) : Memref sig .scVector .hbm S128x128 .f32 :=
  (e2V).slice (Rect.unit (s := S4096x3328) (k0_off22 L) S128x128.size (k0_off22_inb L)) (fun _ => rfl)
abbrev e2Blk2 (L : grid0.Coords) : Memref sig .scVector .hbm S128x128 .f32 :=
  (e2V).slice (Rect.unit (s := S4096x3328) (k0_off31 L) S128x128.size (k0_off31_inb L)) (fun _ => rfl)
abbrev e2Blk3 (L : grid0.Coords) : Memref sig .scVector .hbm S128x128 .f32 :=
  (e2V).slice (Rect.unit (s := S4096x3328) (k0_off40 L) S128x128.size (k0_off40_inb L)) (fun _ => rfl)
abbrev e2Blk4 (L : grid0.Coords) : Memref sig .scVector .hbm S128x128 .f32 :=
  (e2V).slice (Rect.unit (s := S4096x3328) (k0_off49 L) S128x128.size (k0_off49_inb L)) (fun _ => rfl)
abbrev e2Blk5 (L : grid0.Coords) : Memref sig .scVector .hbm S128x128 .f32 :=
  (e2V).slice (Rect.unit (s := S4096x3328) (k0_off58 L) S128x128.size (k0_off58_inb L)) (fun _ => rfl)
abbrev e2Blk6 (L : grid0.Coords) : Memref sig .scVector .hbm S128x128 .f32 :=
  (e2V).slice (Rect.unit (s := S4096x3328) (k0_off67 L) S128x128.size (k0_off67_inb L)) (fun _ => rfl)
abbrev e2Blk7 (L : grid0.Coords) : Memref sig .scVector .hbm S128x128 .f32 :=
  (e2V).slice (Rect.unit (s := S4096x3328) (k0_off76 L) S128x128.size (k0_off76_inb L)) (fun _ => rfl)
abbrev e2Blk8 (L : grid0.Coords) : Memref sig .scVector .hbm S128x128 .f32 :=
  (e2V).slice (Rect.unit (s := S4096x3328) (k0_off85 L) S128x128.size (k0_off85_inb L)) (fun _ => rfl)
abbrev e2Blk9 (L : grid0.Coords) : Memref sig .scVector .hbm S128x128 .f32 :=
  (e2V).slice (Rect.unit (s := S4096x3328) (k0_off94 L) S128x128.size (k0_off94_inb L)) (fun _ => rfl)
abbrev e2Blk10 (L : grid0.Coords) : Memref sig .scVector .hbm S128x128 .f32 :=
  (e2V).slice (Rect.unit (s := S4096x3328) (k0_off103 L) S128x128.size (k0_off103_inb L)) (fun _ => rfl)
abbrev e2Blk11 (L : grid0.Coords) : Memref sig .scVector .hbm S128x128 .f32 :=
  (e2V).slice (Rect.unit (s := S4096x3328) (k0_off112 L) S128x128.size (k0_off112_inb L)) (fun _ => rfl)
abbrev e2Blk12 (L : grid0.Coords) : Memref sig .scVector .hbm S128x128 .f32 :=
  (e2V).slice (Rect.unit (s := S4096x3328) (k0_off121 L) S128x128.size (k0_off121_inb L)) (fun _ => rfl)
abbrev e2Blk13 (L : grid0.Coords) : Memref sig .scVector .hbm S128x128 .f32 :=
  (e2V).slice (Rect.unit (s := S4096x3328) (k0_off130 L) S128x128.size (k0_off130_inb L)) (fun _ => rfl)
abbrev e2Blk14 (L : grid0.Coords) : Memref sig .scVector .hbm S128x128 .f32 :=
  (e2V).slice (Rect.unit (s := S4096x3328) (k0_off139 L) S128x128.size (k0_off139_inb L)) (fun _ => rfl)
abbrev e2Blk15 (L : grid0.Coords) : Memref sig .scVector .hbm S128x128 .f32 :=
  (e2V).slice (Rect.unit (s := S4096x3328) (k0_off148 L) S128x128.size (k0_off148_inb L)) (fun _ => rfl)
abbrev e2Blk16 (L : grid0.Coords) : Memref sig .scVector .hbm S128x128 .f32 :=
  (e2V).slice (Rect.unit (s := S4096x3328) (k0_off157 L) S128x128.size (k0_off157_inb L)) (fun _ => rfl)
abbrev e2Blk17 (L : grid0.Coords) : Memref sig .scVector .hbm S128x128 .f32 :=
  (e2V).slice (Rect.unit (s := S4096x3328) (k0_off166 L) S128x128.size (k0_off166_inb L)) (fun _ => rfl)
abbrev e2Blk18 (L : grid0.Coords) : Memref sig .scVector .hbm S128x128 .f32 :=
  (e2V).slice (Rect.unit (s := S4096x3328) (k0_off175 L) S128x128.size (k0_off175_inb L)) (fun _ => rfl)
abbrev e2Blk19 (L : grid0.Coords) : Memref sig .scVector .hbm S128x128 .f32 :=
  (e2V).slice (Rect.unit (s := S4096x3328) (k0_off184 L) S128x128.size (k0_off184_inb L)) (fun _ => rfl)
abbrev e2Blk20 (L : grid0.Coords) : Memref sig .scVector .hbm S128x128 .f32 :=
  (e2V).slice (Rect.unit (s := S4096x3328) (k0_off193 L) S128x128.size (k0_off193_inb L)) (fun _ => rfl)
abbrev e2Blk21 (L : grid0.Coords) : Memref sig .scVector .hbm S128x128 .f32 :=
  (e2V).slice (Rect.unit (s := S4096x3328) (k0_off202 L) S128x128.size (k0_off202_inb L)) (fun _ => rfl)
abbrev e2Blk22 (L : grid0.Coords) : Memref sig .scVector .hbm S128x128 .f32 :=
  (e2V).slice (Rect.unit (s := S4096x3328) (k0_off211 L) S128x128.size (k0_off211_inb L)) (fun _ => rfl)
abbrev e2Blk23 (L : grid0.Coords) : Memref sig .scVector .hbm S128x128 .f32 :=
  (e2V).slice (Rect.unit (s := S4096x3328) (k0_off220 L) S128x128.size (k0_off220_inb L)) (fun _ => rfl)
abbrev e2Blk24 (L : grid0.Coords) : Memref sig .scVector .hbm S128x128 .f32 :=
  (e2V).slice (Rect.unit (s := S4096x3328) (k0_off229 L) S128x128.size (k0_off229_inb L)) (fun _ => rfl)
abbrev e2Blk25 (L : grid0.Coords) : Memref sig .scVector .hbm S128x128 .f32 :=
  (e2V).slice (Rect.unit (s := S4096x3328) (k0_off238 L) S128x128.size (k0_off238_inb L)) (fun _ => rfl)

theorem col_inb (L : grid0.Coords) (c : Fin 26) :
    ∀ a, (![e2Row0 L, 128 * c.val] : Fin 2 → ℕ) a + (![128, 128] : Fin 2 → ℕ) a ≤ S4096x3328.size a := by
  have h1 : (L 1).val < 16 := (L 1).isLt
  have h0 : (L 0).val < 2 := (L 0).isLt
  have hc := c.isLt
  refine Rect.inb₂ ?_ ?_
  · show 256 * (L 1).val + 128 * (L 0).val + 128 ≤ 4096; omega
  · show 128 * c.val + 128 ≤ 3328; omega

/-- Columns 128 c … 128 c + 127 of the task's 128 rows. -/
def colBlock (L : grid0.Coords) (c : Fin 26) : Finset S4096x3328.Idx :=
  (Rect.unit (s := S4096x3328) ![e2Row0 L, 128 * c.val] ![128, 128] (col_inb L c)).set

theorem blk_set (L : grid0.Coords) (c : Fin 26) (off : Fin 2 → ℕ)
    (inb : ∀ a, off a + S128x128.size a ≤ S4096x3328.size a) (h : off = ![e2Row0 L, 128 * c.val]) :
    ((((e2V).slice (Rect.unit (s := S4096x3328) off S128x128.size inb) (fun _ => rfl)).view.set : Finset S4096x3328.Idx))
      = colBlock L c := by
  subst h
  exact View.set_slice_whole _ _

theorem e2Blk0_set (L : grid0.Coords) : ((e2Blk0 L).view.set : Finset S4096x3328.Idx) = colBlock L 0 :=
  blk_set L 0 _ _ (k0_off13_eq L)
theorem e2Blk1_set (L : grid0.Coords) : ((e2Blk1 L).view.set : Finset S4096x3328.Idx) = colBlock L 1 :=
  blk_set L 1 _ _ (k0_off22_eq L)
theorem e2Blk2_set (L : grid0.Coords) : ((e2Blk2 L).view.set : Finset S4096x3328.Idx) = colBlock L 2 :=
  blk_set L 2 _ _ (k0_off31_eq L)
theorem e2Blk3_set (L : grid0.Coords) : ((e2Blk3 L).view.set : Finset S4096x3328.Idx) = colBlock L 3 :=
  blk_set L 3 _ _ (k0_off40_eq L)
theorem e2Blk4_set (L : grid0.Coords) : ((e2Blk4 L).view.set : Finset S4096x3328.Idx) = colBlock L 4 :=
  blk_set L 4 _ _ (k0_off49_eq L)
theorem e2Blk5_set (L : grid0.Coords) : ((e2Blk5 L).view.set : Finset S4096x3328.Idx) = colBlock L 5 :=
  blk_set L 5 _ _ (k0_off58_eq L)
theorem e2Blk6_set (L : grid0.Coords) : ((e2Blk6 L).view.set : Finset S4096x3328.Idx) = colBlock L 6 :=
  blk_set L 6 _ _ (k0_off67_eq L)
theorem e2Blk7_set (L : grid0.Coords) : ((e2Blk7 L).view.set : Finset S4096x3328.Idx) = colBlock L 7 :=
  blk_set L 7 _ _ (k0_off76_eq L)
theorem e2Blk8_set (L : grid0.Coords) : ((e2Blk8 L).view.set : Finset S4096x3328.Idx) = colBlock L 8 :=
  blk_set L 8 _ _ (k0_off85_eq L)
theorem e2Blk9_set (L : grid0.Coords) : ((e2Blk9 L).view.set : Finset S4096x3328.Idx) = colBlock L 9 :=
  blk_set L 9 _ _ (k0_off94_eq L)
theorem e2Blk10_set (L : grid0.Coords) : ((e2Blk10 L).view.set : Finset S4096x3328.Idx) = colBlock L 10 :=
  blk_set L 10 _ _ (k0_off103_eq L)
theorem e2Blk11_set (L : grid0.Coords) : ((e2Blk11 L).view.set : Finset S4096x3328.Idx) = colBlock L 11 :=
  blk_set L 11 _ _ (k0_off112_eq L)
theorem e2Blk12_set (L : grid0.Coords) : ((e2Blk12 L).view.set : Finset S4096x3328.Idx) = colBlock L 12 :=
  blk_set L 12 _ _ (k0_off121_eq L)
theorem e2Blk13_set (L : grid0.Coords) : ((e2Blk13 L).view.set : Finset S4096x3328.Idx) = colBlock L 13 :=
  blk_set L 13 _ _ (k0_off130_eq L)
theorem e2Blk14_set (L : grid0.Coords) : ((e2Blk14 L).view.set : Finset S4096x3328.Idx) = colBlock L 14 :=
  blk_set L 14 _ _ (k0_off139_eq L)
theorem e2Blk15_set (L : grid0.Coords) : ((e2Blk15 L).view.set : Finset S4096x3328.Idx) = colBlock L 15 :=
  blk_set L 15 _ _ (k0_off148_eq L)
theorem e2Blk16_set (L : grid0.Coords) : ((e2Blk16 L).view.set : Finset S4096x3328.Idx) = colBlock L 16 :=
  blk_set L 16 _ _ (k0_off157_eq L)
theorem e2Blk17_set (L : grid0.Coords) : ((e2Blk17 L).view.set : Finset S4096x3328.Idx) = colBlock L 17 :=
  blk_set L 17 _ _ (k0_off166_eq L)
theorem e2Blk18_set (L : grid0.Coords) : ((e2Blk18 L).view.set : Finset S4096x3328.Idx) = colBlock L 18 :=
  blk_set L 18 _ _ (k0_off175_eq L)
theorem e2Blk19_set (L : grid0.Coords) : ((e2Blk19 L).view.set : Finset S4096x3328.Idx) = colBlock L 19 :=
  blk_set L 19 _ _ (k0_off184_eq L)
theorem e2Blk20_set (L : grid0.Coords) : ((e2Blk20 L).view.set : Finset S4096x3328.Idx) = colBlock L 20 :=
  blk_set L 20 _ _ (k0_off193_eq L)
theorem e2Blk21_set (L : grid0.Coords) : ((e2Blk21 L).view.set : Finset S4096x3328.Idx) = colBlock L 21 :=
  blk_set L 21 _ _ (k0_off202_eq L)
theorem e2Blk22_set (L : grid0.Coords) : ((e2Blk22 L).view.set : Finset S4096x3328.Idx) = colBlock L 22 :=
  blk_set L 22 _ _ (k0_off211_eq L)
theorem e2Blk23_set (L : grid0.Coords) : ((e2Blk23 L).view.set : Finset S4096x3328.Idx) = colBlock L 23 :=
  blk_set L 23 _ _ (k0_off220_eq L)
theorem e2Blk24_set (L : grid0.Coords) : ((e2Blk24 L).view.set : Finset S4096x3328.Idx) = colBlock L 24 :=
  blk_set L 24 _ _ (k0_off229_eq L)
theorem e2Blk25_set (L : grid0.Coords) : ((e2Blk25 L).view.set : Finset S4096x3328.Idx) = colBlock L 25 :=
  blk_set L 25 _ _ (k0_off238_eq L)

theorem blk_pts0 (f : Buf (Elt F) (e2Loc d)) :
    (((e2Blk0 L).view.loc (V d (cV L) (jV L)) ↦[(e2Blk0 L).view.set]{fullShare} f) : sProp 𝕄) = (e2Loc d ↦[colBlock L 0]{fullShare} f) := by
  rw [e2Blk0_set]
theorem blk_pts1 (f : Buf (Elt F) (e2Loc d)) :
    (((e2Blk1 L).view.loc (V d (cV L) (jV L)) ↦[(e2Blk1 L).view.set]{fullShare} f) : sProp 𝕄) = (e2Loc d ↦[colBlock L 1]{fullShare} f) := by
  rw [e2Blk1_set]
theorem blk_pts2 (f : Buf (Elt F) (e2Loc d)) :
    (((e2Blk2 L).view.loc (V d (cV L) (jV L)) ↦[(e2Blk2 L).view.set]{fullShare} f) : sProp 𝕄) = (e2Loc d ↦[colBlock L 2]{fullShare} f) := by
  rw [e2Blk2_set]
theorem blk_pts3 (f : Buf (Elt F) (e2Loc d)) :
    (((e2Blk3 L).view.loc (V d (cV L) (jV L)) ↦[(e2Blk3 L).view.set]{fullShare} f) : sProp 𝕄) = (e2Loc d ↦[colBlock L 3]{fullShare} f) := by
  rw [e2Blk3_set]
theorem blk_pts4 (f : Buf (Elt F) (e2Loc d)) :
    (((e2Blk4 L).view.loc (V d (cV L) (jV L)) ↦[(e2Blk4 L).view.set]{fullShare} f) : sProp 𝕄) = (e2Loc d ↦[colBlock L 4]{fullShare} f) := by
  rw [e2Blk4_set]
theorem blk_pts5 (f : Buf (Elt F) (e2Loc d)) :
    (((e2Blk5 L).view.loc (V d (cV L) (jV L)) ↦[(e2Blk5 L).view.set]{fullShare} f) : sProp 𝕄) = (e2Loc d ↦[colBlock L 5]{fullShare} f) := by
  rw [e2Blk5_set]
theorem blk_pts6 (f : Buf (Elt F) (e2Loc d)) :
    (((e2Blk6 L).view.loc (V d (cV L) (jV L)) ↦[(e2Blk6 L).view.set]{fullShare} f) : sProp 𝕄) = (e2Loc d ↦[colBlock L 6]{fullShare} f) := by
  rw [e2Blk6_set]
theorem blk_pts7 (f : Buf (Elt F) (e2Loc d)) :
    (((e2Blk7 L).view.loc (V d (cV L) (jV L)) ↦[(e2Blk7 L).view.set]{fullShare} f) : sProp 𝕄) = (e2Loc d ↦[colBlock L 7]{fullShare} f) := by
  rw [e2Blk7_set]
theorem blk_pts8 (f : Buf (Elt F) (e2Loc d)) :
    (((e2Blk8 L).view.loc (V d (cV L) (jV L)) ↦[(e2Blk8 L).view.set]{fullShare} f) : sProp 𝕄) = (e2Loc d ↦[colBlock L 8]{fullShare} f) := by
  rw [e2Blk8_set]
theorem blk_pts9 (f : Buf (Elt F) (e2Loc d)) :
    (((e2Blk9 L).view.loc (V d (cV L) (jV L)) ↦[(e2Blk9 L).view.set]{fullShare} f) : sProp 𝕄) = (e2Loc d ↦[colBlock L 9]{fullShare} f) := by
  rw [e2Blk9_set]
theorem blk_pts10 (f : Buf (Elt F) (e2Loc d)) :
    (((e2Blk10 L).view.loc (V d (cV L) (jV L)) ↦[(e2Blk10 L).view.set]{fullShare} f) : sProp 𝕄) = (e2Loc d ↦[colBlock L 10]{fullShare} f) := by
  rw [e2Blk10_set]
theorem blk_pts11 (f : Buf (Elt F) (e2Loc d)) :
    (((e2Blk11 L).view.loc (V d (cV L) (jV L)) ↦[(e2Blk11 L).view.set]{fullShare} f) : sProp 𝕄) = (e2Loc d ↦[colBlock L 11]{fullShare} f) := by
  rw [e2Blk11_set]
theorem blk_pts12 (f : Buf (Elt F) (e2Loc d)) :
    (((e2Blk12 L).view.loc (V d (cV L) (jV L)) ↦[(e2Blk12 L).view.set]{fullShare} f) : sProp 𝕄) = (e2Loc d ↦[colBlock L 12]{fullShare} f) := by
  rw [e2Blk12_set]
theorem blk_pts13 (f : Buf (Elt F) (e2Loc d)) :
    (((e2Blk13 L).view.loc (V d (cV L) (jV L)) ↦[(e2Blk13 L).view.set]{fullShare} f) : sProp 𝕄) = (e2Loc d ↦[colBlock L 13]{fullShare} f) := by
  rw [e2Blk13_set]
theorem blk_pts14 (f : Buf (Elt F) (e2Loc d)) :
    (((e2Blk14 L).view.loc (V d (cV L) (jV L)) ↦[(e2Blk14 L).view.set]{fullShare} f) : sProp 𝕄) = (e2Loc d ↦[colBlock L 14]{fullShare} f) := by
  rw [e2Blk14_set]
theorem blk_pts15 (f : Buf (Elt F) (e2Loc d)) :
    (((e2Blk15 L).view.loc (V d (cV L) (jV L)) ↦[(e2Blk15 L).view.set]{fullShare} f) : sProp 𝕄) = (e2Loc d ↦[colBlock L 15]{fullShare} f) := by
  rw [e2Blk15_set]
theorem blk_pts16 (f : Buf (Elt F) (e2Loc d)) :
    (((e2Blk16 L).view.loc (V d (cV L) (jV L)) ↦[(e2Blk16 L).view.set]{fullShare} f) : sProp 𝕄) = (e2Loc d ↦[colBlock L 16]{fullShare} f) := by
  rw [e2Blk16_set]
theorem blk_pts17 (f : Buf (Elt F) (e2Loc d)) :
    (((e2Blk17 L).view.loc (V d (cV L) (jV L)) ↦[(e2Blk17 L).view.set]{fullShare} f) : sProp 𝕄) = (e2Loc d ↦[colBlock L 17]{fullShare} f) := by
  rw [e2Blk17_set]
theorem blk_pts18 (f : Buf (Elt F) (e2Loc d)) :
    (((e2Blk18 L).view.loc (V d (cV L) (jV L)) ↦[(e2Blk18 L).view.set]{fullShare} f) : sProp 𝕄) = (e2Loc d ↦[colBlock L 18]{fullShare} f) := by
  rw [e2Blk18_set]
theorem blk_pts19 (f : Buf (Elt F) (e2Loc d)) :
    (((e2Blk19 L).view.loc (V d (cV L) (jV L)) ↦[(e2Blk19 L).view.set]{fullShare} f) : sProp 𝕄) = (e2Loc d ↦[colBlock L 19]{fullShare} f) := by
  rw [e2Blk19_set]
theorem blk_pts20 (f : Buf (Elt F) (e2Loc d)) :
    (((e2Blk20 L).view.loc (V d (cV L) (jV L)) ↦[(e2Blk20 L).view.set]{fullShare} f) : sProp 𝕄) = (e2Loc d ↦[colBlock L 20]{fullShare} f) := by
  rw [e2Blk20_set]
theorem blk_pts21 (f : Buf (Elt F) (e2Loc d)) :
    (((e2Blk21 L).view.loc (V d (cV L) (jV L)) ↦[(e2Blk21 L).view.set]{fullShare} f) : sProp 𝕄) = (e2Loc d ↦[colBlock L 21]{fullShare} f) := by
  rw [e2Blk21_set]
theorem blk_pts22 (f : Buf (Elt F) (e2Loc d)) :
    (((e2Blk22 L).view.loc (V d (cV L) (jV L)) ↦[(e2Blk22 L).view.set]{fullShare} f) : sProp 𝕄) = (e2Loc d ↦[colBlock L 22]{fullShare} f) := by
  rw [e2Blk22_set]
theorem blk_pts23 (f : Buf (Elt F) (e2Loc d)) :
    (((e2Blk23 L).view.loc (V d (cV L) (jV L)) ↦[(e2Blk23 L).view.set]{fullShare} f) : sProp 𝕄) = (e2Loc d ↦[colBlock L 23]{fullShare} f) := by
  rw [e2Blk23_set]
theorem blk_pts24 (f : Buf (Elt F) (e2Loc d)) :
    (((e2Blk24 L).view.loc (V d (cV L) (jV L)) ↦[(e2Blk24 L).view.set]{fullShare} f) : sProp 𝕄) = (e2Loc d ↦[colBlock L 24]{fullShare} f) := by
  rw [e2Blk24_set]
theorem blk_pts25 (f : Buf (Elt F) (e2Loc d)) :
    (((e2Blk25 L).view.loc (V d (cV L) (jV L)) ↦[(e2Blk25 L).view.set]{fullShare} f) : sProp 𝕄) = (e2Loc d ↦[colBlock L 25]{fullShare} f) := by
  rw [e2Blk25_set]

theorem colBlock_disjoint (L : grid0.Coords) (c c' : Fin 26) (h : c ≠ c') : Disjoint (colBlock L c) (colBlock L c') := by
  unfold colBlock
  refine Rect.unit_disjoint (1 : Fin 2) ?_
  have h1 := c.isLt
  have h2 := c'.isLt
  have h3 : c.val ≠ c'.val := fun e => h (Fin.ext e)
  show 128 * c.val + 128 ≤ 128 * c'.val ∨ 128 * c'.val + 128 ≤ 128 * c.val
  omega

theorem mem_e2Rows_iff (L : grid0.Coords) (i : S4096x3328.Idx) :
    i ∈ (e2Rows L : Finset S4096x3328.Idx) ↔ ∃ c : Fin 26, i ∈ colBlock L c := by
  have e : (e2Rows L : Finset S4096x3328.Idx) = (e2Rect L).set := View.set_slice_whole _ _
  rw [e]
  have hi1 : (i 1).val < 3328 := (i 1).isLt
  simp only [colBlock, Rect.mem_set_unit, Fin.forall_fin_two]
  constructor
  · rintro ⟨⟨r1, r2⟩, -, -⟩
    refine ⟨⟨(i 1).val / 128, by omega⟩, ⟨r1, r2⟩, ?_, ?_⟩
    · show 128 * ((i 1).val / 128) ≤ (i 1).val; omega
    · show (i 1).val < 128 * ((i 1).val / 128) + 128; omega
  · rintro ⟨c, ⟨r1, r2⟩, c1, c2⟩
    have hc := c.isLt
    refine ⟨⟨r1, r2⟩, ?_, ?_⟩
    · show 0 ≤ (i 1).val; omega
    · have c2' : (i 1).val < 128 * c.val + 128 := c2
      show (i 1).val < 0 + 3328; omega

set_option maxHeartbeats 2000000 in
/-- THE ROWS IN BLOCKS: the task's 128 rows at contents f are their 26 column blocks at f. -/
theorem e2_split (f : Buf (Elt F) (e2Loc d)) :
    (e2Loc d ↦[e2Rows L]{fullShare} f : sProp 𝕄)
      = iprop(((e2Blk0 L).view.loc (V d (cV L) (jV L)) ↦[(e2Blk0 L).view.set]{fullShare} f)
          ∗ ((e2Blk1 L).view.loc (V d (cV L) (jV L)) ↦[(e2Blk1 L).view.set]{fullShare} f)
          ∗ ((e2Blk2 L).view.loc (V d (cV L) (jV L)) ↦[(e2Blk2 L).view.set]{fullShare} f)
          ∗ ((e2Blk3 L).view.loc (V d (cV L) (jV L)) ↦[(e2Blk3 L).view.set]{fullShare} f)
          ∗ ((e2Blk4 L).view.loc (V d (cV L) (jV L)) ↦[(e2Blk4 L).view.set]{fullShare} f)
          ∗ ((e2Blk5 L).view.loc (V d (cV L) (jV L)) ↦[(e2Blk5 L).view.set]{fullShare} f)
          ∗ ((e2Blk6 L).view.loc (V d (cV L) (jV L)) ↦[(e2Blk6 L).view.set]{fullShare} f)
          ∗ ((e2Blk7 L).view.loc (V d (cV L) (jV L)) ↦[(e2Blk7 L).view.set]{fullShare} f)
          ∗ ((e2Blk8 L).view.loc (V d (cV L) (jV L)) ↦[(e2Blk8 L).view.set]{fullShare} f)
          ∗ ((e2Blk9 L).view.loc (V d (cV L) (jV L)) ↦[(e2Blk9 L).view.set]{fullShare} f)
          ∗ ((e2Blk10 L).view.loc (V d (cV L) (jV L)) ↦[(e2Blk10 L).view.set]{fullShare} f)
          ∗ ((e2Blk11 L).view.loc (V d (cV L) (jV L)) ↦[(e2Blk11 L).view.set]{fullShare} f)
          ∗ ((e2Blk12 L).view.loc (V d (cV L) (jV L)) ↦[(e2Blk12 L).view.set]{fullShare} f)
          ∗ ((e2Blk13 L).view.loc (V d (cV L) (jV L)) ↦[(e2Blk13 L).view.set]{fullShare} f)
          ∗ ((e2Blk14 L).view.loc (V d (cV L) (jV L)) ↦[(e2Blk14 L).view.set]{fullShare} f)
          ∗ ((e2Blk15 L).view.loc (V d (cV L) (jV L)) ↦[(e2Blk15 L).view.set]{fullShare} f)
          ∗ ((e2Blk16 L).view.loc (V d (cV L) (jV L)) ↦[(e2Blk16 L).view.set]{fullShare} f)
          ∗ ((e2Blk17 L).view.loc (V d (cV L) (jV L)) ↦[(e2Blk17 L).view.set]{fullShare} f)
          ∗ ((e2Blk18 L).view.loc (V d (cV L) (jV L)) ↦[(e2Blk18 L).view.set]{fullShare} f)
          ∗ ((e2Blk19 L).view.loc (V d (cV L) (jV L)) ↦[(e2Blk19 L).view.set]{fullShare} f)
          ∗ ((e2Blk20 L).view.loc (V d (cV L) (jV L)) ↦[(e2Blk20 L).view.set]{fullShare} f)
          ∗ ((e2Blk21 L).view.loc (V d (cV L) (jV L)) ↦[(e2Blk21 L).view.set]{fullShare} f)
          ∗ ((e2Blk22 L).view.loc (V d (cV L) (jV L)) ↦[(e2Blk22 L).view.set]{fullShare} f)
          ∗ ((e2Blk23 L).view.loc (V d (cV L) (jV L)) ↦[(e2Blk23 L).view.set]{fullShare} f)
          ∗ ((e2Blk24 L).view.loc (V d (cV L) (jV L)) ↦[(e2Blk24 L).view.set]{fullShare} f)
          ∗ ((e2Blk25 L).view.loc (V d (cV L) (jV L)) ↦[(e2Blk25 L).view.set]{fullShare} f)) := by
  rw [blk_pts0 d L f, blk_pts1 d L f, blk_pts2 d L f, blk_pts3 d L f, blk_pts4 d L f, blk_pts5 d L f, blk_pts6 d L f, blk_pts7 d L f, blk_pts8 d L f, blk_pts9 d L f, blk_pts10 d L f, blk_pts11 d L f, blk_pts12 d L f, blk_pts13 d L f, blk_pts14 d L f, blk_pts15 d L f, blk_pts16 d L f, blk_pts17 d L f, blk_pts18 d L f, blk_pts19 d L f, blk_pts20 d L f, blk_pts21 d L f, blk_pts22 d L f, blk_pts23 d L f, blk_pts24 d L f, blk_pts25 d L f]
  have hsplit := pointsTo_biUnion (Ix := HIx 1) (Name := ℕ) (U := UU) (Lvl := ℕ) (ℓ := e2Loc d)
    (q := fullShare) (f := f) (Finset.univ : Finset (Fin 26)) (colBlock L)
    (fun t _ t' _ hne => colBlock_disjoint L t t' hne)
  refine Eq.trans (congrArg (fun I => (e2Loc d ↦[I]{fullShare} f : sProp 𝕄))
    (?_ : (e2Rows L : Finset (Idx (e2Loc d))) = _)) (hsplit.trans (bigSep_fin26 _))
  ext i
  rw [Finset.mem_biUnion]
  exact (mem_e2Rows_iff L i).trans ⟨fun ⟨c, hc⟩ => ⟨c, Finset.mem_univ c, hc⟩, fun ⟨c, _, hc⟩ => ⟨c, hc⟩⟩

set_option maxHeartbeats 4000000 in
/-- THE BLOCKS JOINED: 26 blocks, each at contents agreeing with G on the block, are the task's rows at G. -/
theorem e2_join (g : Fin 26 → Buf (Elt F) (e2Loc d)) (G : Buf (Elt F) (e2Loc d))
    (h0 : ∀ i ∈ ((e2Blk0 L).view.set : Finset S4096x3328.Idx), g 0 i = G i)
    (h1 : ∀ i ∈ ((e2Blk1 L).view.set : Finset S4096x3328.Idx), g 1 i = G i)
    (h2 : ∀ i ∈ ((e2Blk2 L).view.set : Finset S4096x3328.Idx), g 2 i = G i)
    (h3 : ∀ i ∈ ((e2Blk3 L).view.set : Finset S4096x3328.Idx), g 3 i = G i)
    (h4 : ∀ i ∈ ((e2Blk4 L).view.set : Finset S4096x3328.Idx), g 4 i = G i)
    (h5 : ∀ i ∈ ((e2Blk5 L).view.set : Finset S4096x3328.Idx), g 5 i = G i)
    (h6 : ∀ i ∈ ((e2Blk6 L).view.set : Finset S4096x3328.Idx), g 6 i = G i)
    (h7 : ∀ i ∈ ((e2Blk7 L).view.set : Finset S4096x3328.Idx), g 7 i = G i)
    (h8 : ∀ i ∈ ((e2Blk8 L).view.set : Finset S4096x3328.Idx), g 8 i = G i)
    (h9 : ∀ i ∈ ((e2Blk9 L).view.set : Finset S4096x3328.Idx), g 9 i = G i)
    (h10 : ∀ i ∈ ((e2Blk10 L).view.set : Finset S4096x3328.Idx), g 10 i = G i)
    (h11 : ∀ i ∈ ((e2Blk11 L).view.set : Finset S4096x3328.Idx), g 11 i = G i)
    (h12 : ∀ i ∈ ((e2Blk12 L).view.set : Finset S4096x3328.Idx), g 12 i = G i)
    (h13 : ∀ i ∈ ((e2Blk13 L).view.set : Finset S4096x3328.Idx), g 13 i = G i)
    (h14 : ∀ i ∈ ((e2Blk14 L).view.set : Finset S4096x3328.Idx), g 14 i = G i)
    (h15 : ∀ i ∈ ((e2Blk15 L).view.set : Finset S4096x3328.Idx), g 15 i = G i)
    (h16 : ∀ i ∈ ((e2Blk16 L).view.set : Finset S4096x3328.Idx), g 16 i = G i)
    (h17 : ∀ i ∈ ((e2Blk17 L).view.set : Finset S4096x3328.Idx), g 17 i = G i)
    (h18 : ∀ i ∈ ((e2Blk18 L).view.set : Finset S4096x3328.Idx), g 18 i = G i)
    (h19 : ∀ i ∈ ((e2Blk19 L).view.set : Finset S4096x3328.Idx), g 19 i = G i)
    (h20 : ∀ i ∈ ((e2Blk20 L).view.set : Finset S4096x3328.Idx), g 20 i = G i)
    (h21 : ∀ i ∈ ((e2Blk21 L).view.set : Finset S4096x3328.Idx), g 21 i = G i)
    (h22 : ∀ i ∈ ((e2Blk22 L).view.set : Finset S4096x3328.Idx), g 22 i = G i)
    (h23 : ∀ i ∈ ((e2Blk23 L).view.set : Finset S4096x3328.Idx), g 23 i = G i)
    (h24 : ∀ i ∈ ((e2Blk24 L).view.set : Finset S4096x3328.Idx), g 24 i = G i)
    (h25 : ∀ i ∈ ((e2Blk25 L).view.set : Finset S4096x3328.Idx), g 25 i = G i) :
    (iprop(((e2Blk0 L).view.loc (V d (cV L) (jV L)) ↦[(e2Blk0 L).view.set]{fullShare} g 0)
          ∗ ((e2Blk1 L).view.loc (V d (cV L) (jV L)) ↦[(e2Blk1 L).view.set]{fullShare} g 1)
          ∗ ((e2Blk2 L).view.loc (V d (cV L) (jV L)) ↦[(e2Blk2 L).view.set]{fullShare} g 2)
          ∗ ((e2Blk3 L).view.loc (V d (cV L) (jV L)) ↦[(e2Blk3 L).view.set]{fullShare} g 3)
          ∗ ((e2Blk4 L).view.loc (V d (cV L) (jV L)) ↦[(e2Blk4 L).view.set]{fullShare} g 4)
          ∗ ((e2Blk5 L).view.loc (V d (cV L) (jV L)) ↦[(e2Blk5 L).view.set]{fullShare} g 5)
          ∗ ((e2Blk6 L).view.loc (V d (cV L) (jV L)) ↦[(e2Blk6 L).view.set]{fullShare} g 6)
          ∗ ((e2Blk7 L).view.loc (V d (cV L) (jV L)) ↦[(e2Blk7 L).view.set]{fullShare} g 7)
          ∗ ((e2Blk8 L).view.loc (V d (cV L) (jV L)) ↦[(e2Blk8 L).view.set]{fullShare} g 8)
          ∗ ((e2Blk9 L).view.loc (V d (cV L) (jV L)) ↦[(e2Blk9 L).view.set]{fullShare} g 9)
          ∗ ((e2Blk10 L).view.loc (V d (cV L) (jV L)) ↦[(e2Blk10 L).view.set]{fullShare} g 10)
          ∗ ((e2Blk11 L).view.loc (V d (cV L) (jV L)) ↦[(e2Blk11 L).view.set]{fullShare} g 11)
          ∗ ((e2Blk12 L).view.loc (V d (cV L) (jV L)) ↦[(e2Blk12 L).view.set]{fullShare} g 12)
          ∗ ((e2Blk13 L).view.loc (V d (cV L) (jV L)) ↦[(e2Blk13 L).view.set]{fullShare} g 13)
          ∗ ((e2Blk14 L).view.loc (V d (cV L) (jV L)) ↦[(e2Blk14 L).view.set]{fullShare} g 14)
          ∗ ((e2Blk15 L).view.loc (V d (cV L) (jV L)) ↦[(e2Blk15 L).view.set]{fullShare} g 15)
          ∗ ((e2Blk16 L).view.loc (V d (cV L) (jV L)) ↦[(e2Blk16 L).view.set]{fullShare} g 16)
          ∗ ((e2Blk17 L).view.loc (V d (cV L) (jV L)) ↦[(e2Blk17 L).view.set]{fullShare} g 17)
          ∗ ((e2Blk18 L).view.loc (V d (cV L) (jV L)) ↦[(e2Blk18 L).view.set]{fullShare} g 18)
          ∗ ((e2Blk19 L).view.loc (V d (cV L) (jV L)) ↦[(e2Blk19 L).view.set]{fullShare} g 19)
          ∗ ((e2Blk20 L).view.loc (V d (cV L) (jV L)) ↦[(e2Blk20 L).view.set]{fullShare} g 20)
          ∗ ((e2Blk21 L).view.loc (V d (cV L) (jV L)) ↦[(e2Blk21 L).view.set]{fullShare} g 21)
          ∗ ((e2Blk22 L).view.loc (V d (cV L) (jV L)) ↦[(e2Blk22 L).view.set]{fullShare} g 22)
          ∗ ((e2Blk23 L).view.loc (V d (cV L) (jV L)) ↦[(e2Blk23 L).view.set]{fullShare} g 23)
          ∗ ((e2Blk24 L).view.loc (V d (cV L) (jV L)) ↦[(e2Blk24 L).view.set]{fullShare} g 24)
          ∗ ((e2Blk25 L).view.loc (V d (cV L) (jV L)) ↦[(e2Blk25 L).view.set]{fullShare} g 25)) : sProp 𝕄)
      ⊢ (e2Loc d ↦[e2Rows L]{fullShare} G) := by
  rw [pointsTo_congr (ℓ := (e2Blk0 L).view.loc (V d (cV L) (jV L))) (q := fullShare) h0,
    pointsTo_congr (ℓ := (e2Blk1 L).view.loc (V d (cV L) (jV L))) (q := fullShare) h1,
    pointsTo_congr (ℓ := (e2Blk2 L).view.loc (V d (cV L) (jV L))) (q := fullShare) h2,
    pointsTo_congr (ℓ := (e2Blk3 L).view.loc (V d (cV L) (jV L))) (q := fullShare) h3,
    pointsTo_congr (ℓ := (e2Blk4 L).view.loc (V d (cV L) (jV L))) (q := fullShare) h4,
    pointsTo_congr (ℓ := (e2Blk5 L).view.loc (V d (cV L) (jV L))) (q := fullShare) h5,
    pointsTo_congr (ℓ := (e2Blk6 L).view.loc (V d (cV L) (jV L))) (q := fullShare) h6,
    pointsTo_congr (ℓ := (e2Blk7 L).view.loc (V d (cV L) (jV L))) (q := fullShare) h7,
    pointsTo_congr (ℓ := (e2Blk8 L).view.loc (V d (cV L) (jV L))) (q := fullShare) h8,
    pointsTo_congr (ℓ := (e2Blk9 L).view.loc (V d (cV L) (jV L))) (q := fullShare) h9,
    pointsTo_congr (ℓ := (e2Blk10 L).view.loc (V d (cV L) (jV L))) (q := fullShare) h10,
    pointsTo_congr (ℓ := (e2Blk11 L).view.loc (V d (cV L) (jV L))) (q := fullShare) h11,
    pointsTo_congr (ℓ := (e2Blk12 L).view.loc (V d (cV L) (jV L))) (q := fullShare) h12,
    pointsTo_congr (ℓ := (e2Blk13 L).view.loc (V d (cV L) (jV L))) (q := fullShare) h13,
    pointsTo_congr (ℓ := (e2Blk14 L).view.loc (V d (cV L) (jV L))) (q := fullShare) h14,
    pointsTo_congr (ℓ := (e2Blk15 L).view.loc (V d (cV L) (jV L))) (q := fullShare) h15,
    pointsTo_congr (ℓ := (e2Blk16 L).view.loc (V d (cV L) (jV L))) (q := fullShare) h16,
    pointsTo_congr (ℓ := (e2Blk17 L).view.loc (V d (cV L) (jV L))) (q := fullShare) h17,
    pointsTo_congr (ℓ := (e2Blk18 L).view.loc (V d (cV L) (jV L))) (q := fullShare) h18,
    pointsTo_congr (ℓ := (e2Blk19 L).view.loc (V d (cV L) (jV L))) (q := fullShare) h19,
    pointsTo_congr (ℓ := (e2Blk20 L).view.loc (V d (cV L) (jV L))) (q := fullShare) h20,
    pointsTo_congr (ℓ := (e2Blk21 L).view.loc (V d (cV L) (jV L))) (q := fullShare) h21,
    pointsTo_congr (ℓ := (e2Blk22 L).view.loc (V d (cV L) (jV L))) (q := fullShare) h22,
    pointsTo_congr (ℓ := (e2Blk23 L).view.loc (V d (cV L) (jV L))) (q := fullShare) h23,
    pointsTo_congr (ℓ := (e2Blk24 L).view.loc (V d (cV L) (jV L))) (q := fullShare) h24,
    pointsTo_congr (ℓ := (e2Blk25 L).view.loc (V d (cV L) (jV L))) (q := fullShare) h25]
  exact Entails.of_eq (e2_split d L G).symm

end Cert.ProofB.ScSplit

end
-- ==== Proof.B.ScSplit.lean ====
/-
  Two partitions of what a vector-subcore task holds: the index scratch in 26 chunks of 128 words, and the task's
  128 rows of the second-order result in 26 blocks of 128 columns.
-/
import proofs.«207592_g65111704207794_cont_9to1_m_407_36_alg».proof.Proof.B.ScSplitIdx
import proofs.«207592_g65111704207794_cont_9to1_m_407_36_alg».proof.Proof.B.ScSplitRows
-- ==== Proof.B.ScFin.lean ====
/-
  A buffer written through a view with a payload that is some function G read through the same view holds G on the
  view's elements, whatever it held before.
-/
import proofs.«207592_g65111704207794_cont_9to1_m_407_36_alg».proof.Proof.B.ScViews

noncomputable section

namespace Cert.ProofB.ScSplit

open Cert.Kernel Cert.Kernel.Gen
open Cert.ProofB.ScSpec Cert.ProofB.ScViews
open Cert.ProofB.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- Written whole through the view with the payload "G read through the view": the view's elements hold G. -/
theorem pointsTo_write_congr {sp : Space} {s : Shape} {e : EltTy} (m : Memref sig .scVector sp s e) (q : PosShare TreeShare)
    (fe G : Buf (Elt F) (m.view.loc (V d (cV L) (jV L)))) (w : s.Idx → Elt F e)
    (h : ∀ x, w x = m.view.read (Elt F) G x) :
    ((m.view.loc (V d (cV L) (jV L)) ↦[m.view.set]{q} m.view.write (Elt F) fe w Finset.univ : sProp 𝕄))
      = (m.view.loc (V d (cV L) (jV L)) ↦[m.view.set]{q} G) := by
  refine pointsTo_congr fun i hi => ?_
  obtain ⟨x, -, rfl⟩ := Finset.mem_map.mp hi
  rw [View.write_emb_of_mem _ _ (Finset.mem_univ x), h x, View.read_apply, cast_cast, cast_eq]

/-- The same with the write recorded as a one-piece list over the whole rectangle. -/
theorem pointsTo_writes_congr {sp : Space} {s : Shape} {e : EltTy} (m : Memref sig .scVector sp s e) (q : PosShare TreeShare)
    (fe G : Buf (Elt F) (m.view.loc (V d (cV L) (jV L)))) (w : (Rect.whole s).shape.Idx → Elt F e)
    (h : ∀ x, w x = m.view.read (Elt F) G x) :
    ((m.view.loc (V d (cV L) (jV L)) ↦[m.view.set]{q} m.view.writes (Elt F) fe [⟨Rect.whole s, w⟩] : sProp 𝕄))
      = (m.view.loc (V d (cV L) (jV L)) ↦[m.view.set]{q} G) := by
  refine pointsTo_congr fun i hi => ?_
  obtain ⟨x, -, rfl⟩ := Finset.mem_map.mp hi
  rw [View.writes_singleton]
  have hx : m.view.emb x = (m.view.slice (Rect.whole s)).emb x := by
    rw [View.emb_slice, Function.Embedding.trans_apply, Rect.emb_whole_apply]
  rw [hx, View.write_emb_of_mem _ _ (Finset.mem_univ x), h x, View.read_apply, cast_cast, cast_eq]
  exact congrArg G hx

end Cert.ProofB.ScSplit

end
-- ==== Proof.B.ScGather.lean ====
/-
  The indirect gather of one chunk of 128 table rows into a row buffer: its issue, holding a share of the table, the
  row buffer, the chunk of the index scratch and the buffer's gather semaphore at zero; and what the buffer holds
  once the gather has landed, entry by entry.
-/
import proofs.«207592_g65111704207794_cont_9to1_m_407_36_alg».proof.Proof.B.ScViews
import proofs.«207592_g65111704207794_cont_9to1_m_407_36_alg».proof.Proof.B.ScSplit

noncomputable section

namespace Cert.ProofB.ScGather

open Cert.Kernel Cert.Kernel.Gen
open Cert.ProofB.ScSpec Cert.ProofB.ScViews Cert.ProofB.ScSplit
open Cert.ProofB.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-- The contents of row buffer 0 after the gather of the chunk whose indices sit at `n` in the index scratch. -/
def gath0 (n : ℕ) (hn : n + 128 ≤ 3328) (Tb : Buf (Elt F) (tLoc d)) (g : Buf (Elt F) (sloc d L cc0_scratch5))
    (c0 : Buf (Elt F) (sloc d L cc0_scratch0)) (hin : ∀ j, (c0 j).toNat < 26000) : Buf (Elt F) (sloc d L cc0_scratch5) :=
  (r0V).view.write (Elt F) g
    (SparseCore.gatherPayload gathers_S26000x128_S128x128
      (((tV).slice (Rect.unit (s := S26000x128) ![0, 0] S26000x128.size inb_S26000x128_S26000x128_0_0) (fun _ => rfl)).view.read (Elt F) Tb)
      (SparseCore.rows ((idxChunk n hn).view.read (Elt F) c0) rfl (fun x => hin _))) Finset.univ

set_option maxHeartbeats 4000000 in
theorem gather0 (n : ℕ) (hn : n + 128 ≤ 3328) (q : PosShare TreeShare) (Tb : Buf (Elt F) (tLoc d)) (g : Buf (Elt F) (sloc d L cc0_scratch5))
    (c0 : Buf (Elt F) (sloc d L cc0_scratch0)) (hin : ∀ j, (c0 j).toNat < 26000)
    {α : Type} {kk : PUnit → Prog (TpuEff nD τ sig (Elt F) Λ₀ (.scVector (cV L) (jV L))) α} {Q : α → sProp 𝕄}
    {hp hsrc he hsp hr} :
    iprop(((tV).view.loc (V d (cV L) (jV L)) ↦{q} Tb) ∗ ((r0V).view.loc (V d (cV L) (jV L)) ↦{fullShare} g)
        ∗ ((idxChunk n hn).view.loc (V d (cV L) (jV L)) ↦[(idxChunk n hn).view.set]{fullShare} c0) ∗ semVal (cell d L cc0_scratch9) 0)
      ⊢ iprop((Transfers.Flight countersEmb (V d (cV L) (jV L)) (.dma cc0_scratch9.sem) (default : HIx 1) (r0V).view.dmaCredit
                iprop(((r0V).view.loc (V d (cV L) (jV L)) ↦{fullShare} gath0 d L n hn Tb g c0 hin) ∗ ((tV).view.loc (V d (cV L) (jV L)) ↦{q} Tb)
                  ∗ ((idxChunk n hn).view.loc (V d (cV L) (jV L)) ↦[(idxChunk n hn).view.set]{fullShare} c0))
              -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather hp ((tV).slice (Rect.unit (s := S26000x128) ![0, 0] S26000x128.size inb_S26000x128_S26000x128_0_0) (fun _ => rfl))
                (r0V) gathers_S26000x128_S128x128 (idxChunk n hn) rfl cc0_scratch9.sem hsrc he hsp hr >>= kk) Q) := by
  have hrs : (r0V).view.set = Finset.univ := View.set_whole _
  have hts : ((tV).slice (Rect.unit (s := S26000x128) ![0, 0] S26000x128.size inb_S26000x128_S26000x128_0_0) (fun _ => rfl)).view.set = Finset.univ := by
    rw [show ((tV).slice (Rect.unit (s := S26000x128) ![0, 0] S26000x128.size inb_S26000x128_S26000x128_0_0) (fun _ => rfl)).view.set
      = (Rect.unit (s := S26000x128) ![0, 0] S26000x128.size inb_S26000x128_S26000x128_0_0).set from View.set_slice_whole _ _]
    ext i
    simp only [Rect.mem_set_unit, Finset.mem_univ, iff_true]
    intro a
    match a with
    | 0 => exact ⟨Nat.zero_le _, by have h : (i 0).val < 26000 := (i 0).isLt; show (i 0).val < 0 + 26000; omega⟩
    | 1 => exact ⟨Nat.zero_le _, by have h : (i 1).val < 128 := (i 1).isLt; show (i 1).val < 0 + 128; omega⟩
  iintro ⟨HT, Hr, Hc, Hsem⟩ Hk
  ihave Hr' := (Entails.of_eq (show (((r0V).view.loc (V d (cV L) (jV L)) ↦{fullShare} g : sProp 𝕄))
      = ((r0V).view.loc (V d (cV L) (jV L)) ↦[(r0V).view.set]{fullShare} g) by rw [hrs])) $$ Hr
  ihave HT' := (Entails.of_eq (show (((tV).view.loc (V d (cV L) (jV L)) ↦{q} Tb : sProp 𝕄))
      = (((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb) by rw [hts])) $$ HT
  iapply (SparseCore.wp_indirectGatherLocal countersEmb 𝒱₀ (V d (cV L) (jV L)) none (hg := gathers_S26000x128_S128x128)
      (src := (tV).slice (Rect.unit (s := S26000x128) ![0, 0] S26000x128.size inb_S26000x128_S26000x128_0_0) (fun _ => rfl)) (dst := r0V)
      (offs := idxChunk n hn) (fo := c0) (fs := Tb) (fd := g) (q := q) (qo := fullShare) (sem := cc0_scratch9.sem) (default : HIx 1)
      (r0V).view.dmaCredit (SparseCore.sum_rowCredit_eq_dmaCredit (r0V) _ (fun _ => rfl)) (by decide) (fun x => hin _)) $$ [HT' Hr' Hc Hsem]
  · isplitl [HT']; · iexact HT'
    isplitl [Hr']; · iexact Hr'
    isplitl [Hc]; · iexact Hc
    iexact Hsem
  iintro Hfl
  iapply Hk
  iapply (Transfers.Flight_mono countersEmb (V d (cV L) (jV L)) (by
    iintro ⟨Hd, Hs, Ho⟩
    isplitl [Hd]
    · iapply (Entails.of_eq (show (((r0V).view.loc (V d (cV L) (jV L)) ↦[(r0V).view.set]{fullShare} gath0 d L n hn Tb g c0 hin : sProp 𝕄))
        = ((r0V).view.loc (V d (cV L) (jV L)) ↦{fullShare} gath0 d L n hn Tb g c0 hin) by rw [hrs])); iexact Hd
    isplitl [Hs]
    · iapply (Entails.of_eq (show ((((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb : sProp 𝕄))
        = ((tV).view.loc (V d (cV L) (jV L)) ↦{q} Tb) by rw [hts])); iexact Hs
    iexact Ho)) $$ Hfl

theorem gath0_apply (n : ℕ) (hn : n + 128 ≤ 3328) (Tb : Buf (Elt F) (tLoc d)) (g : Buf (Elt F) (sloc d L cc0_scratch5))
    (c0 : Buf (Elt F) (sloc d L cc0_scratch0)) (hin : ∀ j, (c0 j).toNat < 26000) (x : S128x128.Idx) :
    gath0 d L n hn Tb g c0 hin x
      = Tb (ix2 26000 128 (by decide) (by decide) (c0 (ix1 3328 (by decide) (n + (x 0).val))).toNat (x 1).val) := by
  unfold gath0
  rw [View.write_whole_univ]
  unfold SparseCore.gatherPayload
  refine congrArg Tb (funext fun a => ?_)
  have hx0 : (x 0).val < 128 := (x 0).isLt
  have hx1 : (x 1).val < 128 := (x 1).isLt
  match a with
  | 0 =>
    apply Fin.ext
    have h1 := Shape.Gathers.idx_axis gathers_S26000x128_S128x128
      (SparseCore.rows ((idxChunk n hn).view.read (Elt F) c0) rfl (fun x => hin _)) x
    have hz : (idxChunk n hn).view.emb (S128.rowMajor.symm (Fin.cast (rfl : S128x128.size gathers_S26000x128_S128x128.axis' = S128.numel) (x 0)))
        = ix1 3328 (by decide) (n + (x 0).val) := by
      funext b
      match b with
      | 0 =>
        apply Fin.ext
        have hv := Shape.rowMajor_val_one (d := ![128]) (S128.rowMajor.symm (Fin.cast (rfl : S128x128.size gathers_S26000x128_S128x128.axis' = S128.numel) (x 0)))
        rw [Equiv.apply_symm_apply] at hv
        show n + 1 * ((S128.rowMajor.symm (Fin.cast (rfl : S128x128.size gathers_S26000x128_S128x128.axis' = S128.numel) (x 0))) 0).val = (n + (x 0).val) % 3328
        rw [← hv, Nat.one_mul, Nat.mod_eq_of_lt (by show n + (x 0).val < 3328; omega)]
        rfl
    show 0 + 1 * (gathers_S26000x128_S128x128.idx (SparseCore.rows ((idxChunk n hn).view.read (Elt F) c0) rfl (fun x => hin _)) x 0).val
      = (c0 (ix1 3328 (by decide) (n + (x 0).val))).toNat % 26000
    rw [Nat.zero_add, Nat.one_mul, Nat.mod_eq_of_lt (hin _)]
    refine (congrArg Fin.val h1).trans ?_
    show (c0 ((idxChunk n hn).view.emb (S128.rowMajor.symm (Fin.cast _ (x 0))))).toNat = _
    rw [hz]
  | 1 =>
    apply Fin.ext
    have h2 := Shape.Gathers.idx_of_ne gathers_S26000x128_S128x128
      (SparseCore.rows ((idxChunk n hn).view.read (Elt F) c0) rfl (fun x => hin _)) x 1 (by decide)
    show 0 + 1 * (gathers_S26000x128_S128x128.idx (SparseCore.rows ((idxChunk n hn).view.read (Elt F) c0) rfl (fun x => hin _)) x 1).val
      = (x 1).val % 128
    rw [Nat.zero_add, Nat.one_mul, h2, Nat.mod_eq_of_lt hx1]
    rfl

/-- The contents of row buffer 1 after the gather of the chunk whose indices sit at `n` in the index scratch. -/
def gath1 (n : ℕ) (hn : n + 128 ≤ 3328) (Tb : Buf (Elt F) (tLoc d)) (g : Buf (Elt F) (sloc d L cc0_scratch6))
    (c0 : Buf (Elt F) (sloc d L cc0_scratch0)) (hin : ∀ j, (c0 j).toNat < 26000) : Buf (Elt F) (sloc d L cc0_scratch6) :=
  (r1V).view.write (Elt F) g
    (SparseCore.gatherPayload gathers_S26000x128_S128x128
      (((tV).slice (Rect.unit (s := S26000x128) ![0, 0] S26000x128.size inb_S26000x128_S26000x128_0_0) (fun _ => rfl)).view.read (Elt F) Tb)
      (SparseCore.rows ((idxChunk n hn).view.read (Elt F) c0) rfl (fun x => hin _))) Finset.univ

set_option maxHeartbeats 4000000 in
theorem gather1 (n : ℕ) (hn : n + 128 ≤ 3328) (q : PosShare TreeShare) (Tb : Buf (Elt F) (tLoc d)) (g : Buf (Elt F) (sloc d L cc0_scratch6))
    (c0 : Buf (Elt F) (sloc d L cc0_scratch0)) (hin : ∀ j, (c0 j).toNat < 26000)
    {α : Type} {kk : PUnit → Prog (TpuEff nD τ sig (Elt F) Λ₀ (.scVector (cV L) (jV L))) α} {Q : α → sProp 𝕄}
    {hp hsrc he hsp hr} :
    iprop(((tV).view.loc (V d (cV L) (jV L)) ↦{q} Tb) ∗ ((r1V).view.loc (V d (cV L) (jV L)) ↦{fullShare} g)
        ∗ ((idxChunk n hn).view.loc (V d (cV L) (jV L)) ↦[(idxChunk n hn).view.set]{fullShare} c0) ∗ semVal (cell d L cc0_scratch10) 0)
      ⊢ iprop((Transfers.Flight countersEmb (V d (cV L) (jV L)) (.dma cc0_scratch10.sem) (default : HIx 1) (r1V).view.dmaCredit
                iprop(((r1V).view.loc (V d (cV L) (jV L)) ↦{fullShare} gath1 d L n hn Tb g c0 hin) ∗ ((tV).view.loc (V d (cV L) (jV L)) ↦{q} Tb)
                  ∗ ((idxChunk n hn).view.loc (V d (cV L) (jV L)) ↦[(idxChunk n hn).view.set]{fullShare} c0))
              -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather hp ((tV).slice (Rect.unit (s := S26000x128) ![0, 0] S26000x128.size inb_S26000x128_S26000x128_0_0) (fun _ => rfl))
                (r1V) gathers_S26000x128_S128x128 (idxChunk n hn) rfl cc0_scratch10.sem hsrc he hsp hr >>= kk) Q) := by
  have hrs : (r1V).view.set = Finset.univ := View.set_whole _
  have hts : ((tV).slice (Rect.unit (s := S26000x128) ![0, 0] S26000x128.size inb_S26000x128_S26000x128_0_0) (fun _ => rfl)).view.set = Finset.univ := by
    rw [show ((tV).slice (Rect.unit (s := S26000x128) ![0, 0] S26000x128.size inb_S26000x128_S26000x128_0_0) (fun _ => rfl)).view.set
      = (Rect.unit (s := S26000x128) ![0, 0] S26000x128.size inb_S26000x128_S26000x128_0_0).set from View.set_slice_whole _ _]
    ext i
    simp only [Rect.mem_set_unit, Finset.mem_univ, iff_true]
    intro a
    match a with
    | 0 => exact ⟨Nat.zero_le _, by have h : (i 0).val < 26000 := (i 0).isLt; show (i 0).val < 0 + 26000; omega⟩
    | 1 => exact ⟨Nat.zero_le _, by have h : (i 1).val < 128 := (i 1).isLt; show (i 1).val < 0 + 128; omega⟩
  iintro ⟨HT, Hr, Hc, Hsem⟩ Hk
  ihave Hr' := (Entails.of_eq (show (((r1V).view.loc (V d (cV L) (jV L)) ↦{fullShare} g : sProp 𝕄))
      = ((r1V).view.loc (V d (cV L) (jV L)) ↦[(r1V).view.set]{fullShare} g) by rw [hrs])) $$ Hr
  ihave HT' := (Entails.of_eq (show (((tV).view.loc (V d (cV L) (jV L)) ↦{q} Tb : sProp 𝕄))
      = (((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb) by rw [hts])) $$ HT
  iapply (SparseCore.wp_indirectGatherLocal countersEmb 𝒱₀ (V d (cV L) (jV L)) none (hg := gathers_S26000x128_S128x128)
      (src := (tV).slice (Rect.unit (s := S26000x128) ![0, 0] S26000x128.size inb_S26000x128_S26000x128_0_0) (fun _ => rfl)) (dst := r1V)
      (offs := idxChunk n hn) (fo := c0) (fs := Tb) (fd := g) (q := q) (qo := fullShare) (sem := cc0_scratch10.sem) (default : HIx 1)
      (r1V).view.dmaCredit (SparseCore.sum_rowCredit_eq_dmaCredit (r1V) _ (fun _ => rfl)) (by decide) (fun x => hin _)) $$ [HT' Hr' Hc Hsem]
  · isplitl [HT']; · iexact HT'
    isplitl [Hr']; · iexact Hr'
    isplitl [Hc]; · iexact Hc
    iexact Hsem
  iintro Hfl
  iapply Hk
  iapply (Transfers.Flight_mono countersEmb (V d (cV L) (jV L)) (by
    iintro ⟨Hd, Hs, Ho⟩
    isplitl [Hd]
    · iapply (Entails.of_eq (show (((r1V).view.loc (V d (cV L) (jV L)) ↦[(r1V).view.set]{fullShare} gath1 d L n hn Tb g c0 hin : sProp 𝕄))
        = ((r1V).view.loc (V d (cV L) (jV L)) ↦{fullShare} gath1 d L n hn Tb g c0 hin) by rw [hrs])); iexact Hd
    isplitl [Hs]
    · iapply (Entails.of_eq (show ((((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb : sProp 𝕄))
        = ((tV).view.loc (V d (cV L) (jV L)) ↦{q} Tb) by rw [hts])); iexact Hs
    iexact Ho)) $$ Hfl

theorem gath1_apply (n : ℕ) (hn : n + 128 ≤ 3328) (Tb : Buf (Elt F) (tLoc d)) (g : Buf (Elt F) (sloc d L cc0_scratch6))
    (c0 : Buf (Elt F) (sloc d L cc0_scratch0)) (hin : ∀ j, (c0 j).toNat < 26000) (x : S128x128.Idx) :
    gath1 d L n hn Tb g c0 hin x
      = Tb (ix2 26000 128 (by decide) (by decide) (c0 (ix1 3328 (by decide) (n + (x 0).val))).toNat (x 1).val) := by
  unfold gath1
  rw [View.write_whole_univ]
  unfold SparseCore.gatherPayload
  refine congrArg Tb (funext fun a => ?_)
  have hx0 : (x 0).val < 128 := (x 0).isLt
  have hx1 : (x 1).val < 128 := (x 1).isLt
  match a with
  | 0 =>
    apply Fin.ext
    have h1 := Shape.Gathers.idx_axis gathers_S26000x128_S128x128
      (SparseCore.rows ((idxChunk n hn).view.read (Elt F) c0) rfl (fun x => hin _)) x
    have hz : (idxChunk n hn).view.emb (S128.rowMajor.symm (Fin.cast (rfl : S128x128.size gathers_S26000x128_S128x128.axis' = S128.numel) (x 0)))
        = ix1 3328 (by decide) (n + (x 0).val) := by
      funext b
      match b with
      | 0 =>
        apply Fin.ext
        have hv := Shape.rowMajor_val_one (d := ![128]) (S128.rowMajor.symm (Fin.cast (rfl : S128x128.size gathers_S26000x128_S128x128.axis' = S128.numel) (x 0)))
        rw [Equiv.apply_symm_apply] at hv
        show n + 1 * ((S128.rowMajor.symm (Fin.cast (rfl : S128x128.size gathers_S26000x128_S128x128.axis' = S128.numel) (x 0))) 0).val = (n + (x 0).val) % 3328
        rw [← hv, Nat.one_mul, Nat.mod_eq_of_lt (by show n + (x 0).val < 3328; omega)]
        rfl
    show 0 + 1 * (gathers_S26000x128_S128x128.idx (SparseCore.rows ((idxChunk n hn).view.read (Elt F) c0) rfl (fun x => hin _)) x 0).val
      = (c0 (ix1 3328 (by decide) (n + (x 0).val))).toNat % 26000
    rw [Nat.zero_add, Nat.one_mul, Nat.mod_eq_of_lt (hin _)]
    refine (congrArg Fin.val h1).trans ?_
    show (c0 ((idxChunk n hn).view.emb (S128.rowMajor.symm (Fin.cast _ (x 0))))).toNat = _
    rw [hz]
  | 1 =>
    apply Fin.ext
    have h2 := Shape.Gathers.idx_of_ne gathers_S26000x128_S128x128
      (SparseCore.rows ((idxChunk n hn).view.read (Elt F) c0) rfl (fun x => hin _)) x 1 (by decide)
    show 0 + 1 * (gathers_S26000x128_S128x128.idx (SparseCore.rows ((idxChunk n hn).view.read (Elt F) c0) rfl (fun x => hin _)) x 1).val
      = (x 1).val % 128
    rw [Nat.zero_add, Nat.one_mul, h2, Nat.mod_eq_of_lt hx1]
    rfl

/-- The contents of row buffer 2 after the gather of the chunk whose indices sit at `n` in the index scratch. -/
def gath2 (n : ℕ) (hn : n + 128 ≤ 3328) (Tb : Buf (Elt F) (tLoc d)) (g : Buf (Elt F) (sloc d L cc0_scratch7))
    (c0 : Buf (Elt F) (sloc d L cc0_scratch0)) (hin : ∀ j, (c0 j).toNat < 26000) : Buf (Elt F) (sloc d L cc0_scratch7) :=
  (r2V).view.write (Elt F) g
    (SparseCore.gatherPayload gathers_S26000x128_S128x128
      (((tV).slice (Rect.unit (s := S26000x128) ![0, 0] S26000x128.size inb_S26000x128_S26000x128_0_0) (fun _ => rfl)).view.read (Elt F) Tb)
      (SparseCore.rows ((idxChunk n hn).view.read (Elt F) c0) rfl (fun x => hin _))) Finset.univ

set_option maxHeartbeats 4000000 in
theorem gather2 (n : ℕ) (hn : n + 128 ≤ 3328) (q : PosShare TreeShare) (Tb : Buf (Elt F) (tLoc d)) (g : Buf (Elt F) (sloc d L cc0_scratch7))
    (c0 : Buf (Elt F) (sloc d L cc0_scratch0)) (hin : ∀ j, (c0 j).toNat < 26000)
    {α : Type} {kk : PUnit → Prog (TpuEff nD τ sig (Elt F) Λ₀ (.scVector (cV L) (jV L))) α} {Q : α → sProp 𝕄}
    {hp hsrc he hsp hr} :
    iprop(((tV).view.loc (V d (cV L) (jV L)) ↦{q} Tb) ∗ ((r2V).view.loc (V d (cV L) (jV L)) ↦{fullShare} g)
        ∗ ((idxChunk n hn).view.loc (V d (cV L) (jV L)) ↦[(idxChunk n hn).view.set]{fullShare} c0) ∗ semVal (cell d L cc0_scratch11) 0)
      ⊢ iprop((Transfers.Flight countersEmb (V d (cV L) (jV L)) (.dma cc0_scratch11.sem) (default : HIx 1) (r2V).view.dmaCredit
                iprop(((r2V).view.loc (V d (cV L) (jV L)) ↦{fullShare} gath2 d L n hn Tb g c0 hin) ∗ ((tV).view.loc (V d (cV L) (jV L)) ↦{q} Tb)
                  ∗ ((idxChunk n hn).view.loc (V d (cV L) (jV L)) ↦[(idxChunk n hn).view.set]{fullShare} c0))
              -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather hp ((tV).slice (Rect.unit (s := S26000x128) ![0, 0] S26000x128.size inb_S26000x128_S26000x128_0_0) (fun _ => rfl))
                (r2V) gathers_S26000x128_S128x128 (idxChunk n hn) rfl cc0_scratch11.sem hsrc he hsp hr >>= kk) Q) := by
  have hrs : (r2V).view.set = Finset.univ := View.set_whole _
  have hts : ((tV).slice (Rect.unit (s := S26000x128) ![0, 0] S26000x128.size inb_S26000x128_S26000x128_0_0) (fun _ => rfl)).view.set = Finset.univ := by
    rw [show ((tV).slice (Rect.unit (s := S26000x128) ![0, 0] S26000x128.size inb_S26000x128_S26000x128_0_0) (fun _ => rfl)).view.set
      = (Rect.unit (s := S26000x128) ![0, 0] S26000x128.size inb_S26000x128_S26000x128_0_0).set from View.set_slice_whole _ _]
    ext i
    simp only [Rect.mem_set_unit, Finset.mem_univ, iff_true]
    intro a
    match a with
    | 0 => exact ⟨Nat.zero_le _, by have h : (i 0).val < 26000 := (i 0).isLt; show (i 0).val < 0 + 26000; omega⟩
    | 1 => exact ⟨Nat.zero_le _, by have h : (i 1).val < 128 := (i 1).isLt; show (i 1).val < 0 + 128; omega⟩
  iintro ⟨HT, Hr, Hc, Hsem⟩ Hk
  ihave Hr' := (Entails.of_eq (show (((r2V).view.loc (V d (cV L) (jV L)) ↦{fullShare} g : sProp 𝕄))
      = ((r2V).view.loc (V d (cV L) (jV L)) ↦[(r2V).view.set]{fullShare} g) by rw [hrs])) $$ Hr
  ihave HT' := (Entails.of_eq (show (((tV).view.loc (V d (cV L) (jV L)) ↦{q} Tb : sProp 𝕄))
      = (((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb) by rw [hts])) $$ HT
  iapply (SparseCore.wp_indirectGatherLocal countersEmb 𝒱₀ (V d (cV L) (jV L)) none (hg := gathers_S26000x128_S128x128)
      (src := (tV).slice (Rect.unit (s := S26000x128) ![0, 0] S26000x128.size inb_S26000x128_S26000x128_0_0) (fun _ => rfl)) (dst := r2V)
      (offs := idxChunk n hn) (fo := c0) (fs := Tb) (fd := g) (q := q) (qo := fullShare) (sem := cc0_scratch11.sem) (default : HIx 1)
      (r2V).view.dmaCredit (SparseCore.sum_rowCredit_eq_dmaCredit (r2V) _ (fun _ => rfl)) (by decide) (fun x => hin _)) $$ [HT' Hr' Hc Hsem]
  · isplitl [HT']; · iexact HT'
    isplitl [Hr']; · iexact Hr'
    isplitl [Hc]; · iexact Hc
    iexact Hsem
  iintro Hfl
  iapply Hk
  iapply (Transfers.Flight_mono countersEmb (V d (cV L) (jV L)) (by
    iintro ⟨Hd, Hs, Ho⟩
    isplitl [Hd]
    · iapply (Entails.of_eq (show (((r2V).view.loc (V d (cV L) (jV L)) ↦[(r2V).view.set]{fullShare} gath2 d L n hn Tb g c0 hin : sProp 𝕄))
        = ((r2V).view.loc (V d (cV L) (jV L)) ↦{fullShare} gath2 d L n hn Tb g c0 hin) by rw [hrs])); iexact Hd
    isplitl [Hs]
    · iapply (Entails.of_eq (show ((((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb : sProp 𝕄))
        = ((tV).view.loc (V d (cV L) (jV L)) ↦{q} Tb) by rw [hts])); iexact Hs
    iexact Ho)) $$ Hfl

theorem gath2_apply (n : ℕ) (hn : n + 128 ≤ 3328) (Tb : Buf (Elt F) (tLoc d)) (g : Buf (Elt F) (sloc d L cc0_scratch7))
    (c0 : Buf (Elt F) (sloc d L cc0_scratch0)) (hin : ∀ j, (c0 j).toNat < 26000) (x : S128x128.Idx) :
    gath2 d L n hn Tb g c0 hin x
      = Tb (ix2 26000 128 (by decide) (by decide) (c0 (ix1 3328 (by decide) (n + (x 0).val))).toNat (x 1).val) := by
  unfold gath2
  rw [View.write_whole_univ]
  unfold SparseCore.gatherPayload
  refine congrArg Tb (funext fun a => ?_)
  have hx0 : (x 0).val < 128 := (x 0).isLt
  have hx1 : (x 1).val < 128 := (x 1).isLt
  match a with
  | 0 =>
    apply Fin.ext
    have h1 := Shape.Gathers.idx_axis gathers_S26000x128_S128x128
      (SparseCore.rows ((idxChunk n hn).view.read (Elt F) c0) rfl (fun x => hin _)) x
    have hz : (idxChunk n hn).view.emb (S128.rowMajor.symm (Fin.cast (rfl : S128x128.size gathers_S26000x128_S128x128.axis' = S128.numel) (x 0)))
        = ix1 3328 (by decide) (n + (x 0).val) := by
      funext b
      match b with
      | 0 =>
        apply Fin.ext
        have hv := Shape.rowMajor_val_one (d := ![128]) (S128.rowMajor.symm (Fin.cast (rfl : S128x128.size gathers_S26000x128_S128x128.axis' = S128.numel) (x 0)))
        rw [Equiv.apply_symm_apply] at hv
        show n + 1 * ((S128.rowMajor.symm (Fin.cast (rfl : S128x128.size gathers_S26000x128_S128x128.axis' = S128.numel) (x 0))) 0).val = (n + (x 0).val) % 3328
        rw [← hv, Nat.one_mul, Nat.mod_eq_of_lt (by show n + (x 0).val < 3328; omega)]
        rfl
    show 0 + 1 * (gathers_S26000x128_S128x128.idx (SparseCore.rows ((idxChunk n hn).view.read (Elt F) c0) rfl (fun x => hin _)) x 0).val
      = (c0 (ix1 3328 (by decide) (n + (x 0).val))).toNat % 26000
    rw [Nat.zero_add, Nat.one_mul, Nat.mod_eq_of_lt (hin _)]
    refine (congrArg Fin.val h1).trans ?_
    show (c0 ((idxChunk n hn).view.emb (S128.rowMajor.symm (Fin.cast _ (x 0))))).toNat = _
    rw [hz]
  | 1 =>
    apply Fin.ext
    have h2 := Shape.Gathers.idx_of_ne gathers_S26000x128_S128x128
      (SparseCore.rows ((idxChunk n hn).view.read (Elt F) c0) rfl (fun x => hin _)) x 1 (by decide)
    show 0 + 1 * (gathers_S26000x128_S128x128.idx (SparseCore.rows ((idxChunk n hn).view.read (Elt F) c0) rfl (fun x => hin _)) x 1).val
      = (x 1).val % 128
    rw [Nat.zero_add, Nat.one_mul, h2, Nat.mod_eq_of_lt hx1]
    rfl

/-- The contents of row buffer 3 after the gather of the chunk whose indices sit at `n` in the index scratch. -/
def gath3 (n : ℕ) (hn : n + 128 ≤ 3328) (Tb : Buf (Elt F) (tLoc d)) (g : Buf (Elt F) (sloc d L cc0_scratch8))
    (c0 : Buf (Elt F) (sloc d L cc0_scratch0)) (hin : ∀ j, (c0 j).toNat < 26000) : Buf (Elt F) (sloc d L cc0_scratch8) :=
  (r3V).view.write (Elt F) g
    (SparseCore.gatherPayload gathers_S26000x128_S128x128
      (((tV).slice (Rect.unit (s := S26000x128) ![0, 0] S26000x128.size inb_S26000x128_S26000x128_0_0) (fun _ => rfl)).view.read (Elt F) Tb)
      (SparseCore.rows ((idxChunk n hn).view.read (Elt F) c0) rfl (fun x => hin _))) Finset.univ

set_option maxHeartbeats 4000000 in
theorem gather3 (n : ℕ) (hn : n + 128 ≤ 3328) (q : PosShare TreeShare) (Tb : Buf (Elt F) (tLoc d)) (g : Buf (Elt F) (sloc d L cc0_scratch8))
    (c0 : Buf (Elt F) (sloc d L cc0_scratch0)) (hin : ∀ j, (c0 j).toNat < 26000)
    {α : Type} {kk : PUnit → Prog (TpuEff nD τ sig (Elt F) Λ₀ (.scVector (cV L) (jV L))) α} {Q : α → sProp 𝕄}
    {hp hsrc he hsp hr} :
    iprop(((tV).view.loc (V d (cV L) (jV L)) ↦{q} Tb) ∗ ((r3V).view.loc (V d (cV L) (jV L)) ↦{fullShare} g)
        ∗ ((idxChunk n hn).view.loc (V d (cV L) (jV L)) ↦[(idxChunk n hn).view.set]{fullShare} c0) ∗ semVal (cell d L cc0_scratch12) 0)
      ⊢ iprop((Transfers.Flight countersEmb (V d (cV L) (jV L)) (.dma cc0_scratch12.sem) (default : HIx 1) (r3V).view.dmaCredit
                iprop(((r3V).view.loc (V d (cV L) (jV L)) ↦{fullShare} gath3 d L n hn Tb g c0 hin) ∗ ((tV).view.loc (V d (cV L) (jV L)) ↦{q} Tb)
                  ∗ ((idxChunk n hn).view.loc (V d (cV L) (jV L)) ↦[(idxChunk n hn).view.set]{fullShare} c0))
              -∗ wp frame (wpE (defs₀ (F := F)) 𝒱₀ (V d (cV L) (jV L)) none) Set.univ (kk ⟨⟩) Q)
          -∗ wp frame (wpE (defs₀ (F := F)) 𝒱₀ (V d (cV L) (jV L)) none) Set.univ
              (SparseCore.enqueueIndirectGather hp ((tV).slice (Rect.unit (s := S26000x128) ![0, 0] S26000x128.size inb_S26000x128_S26000x128_0_0) (fun _ => rfl))
                (r3V) gathers_S26000x128_S128x128 (idxChunk n hn) rfl cc0_scratch12.sem hsrc he hsp hr >>= kk) Q) := by
  have hrs : (r3V).view.set = Finset.univ := View.set_whole _
  have hts : ((tV).slice (Rect.unit (s := S26000x128) ![0, 0] S26000x128.size inb_S26000x128_S26000x128_0_0) (fun _ => rfl)).view.set = Finset.univ := by
    rw [show ((tV).slice (Rect.unit (s := S26000x128) ![0, 0] S26000x128.size inb_S26000x128_S26000x128_0_0) (fun _ => rfl)).view.set
      = (Rect.unit (s := S26000x128) ![0, 0] S26000x128.size inb_S26000x128_S26000x128_0_0).set from View.set_slice_whole _ _]
    ext i
    simp only [Rect.mem_set_unit, Finset.mem_univ, iff_true]
    intro a
    match a with
    | 0 => exact ⟨Nat.zero_le _, by have h : (i 0).val < 26000 := (i 0).isLt; show (i 0).val < 0 + 26000; omega⟩
    | 1 => exact ⟨Nat.zero_le _, by have h : (i 1).val < 128 := (i 1).isLt; show (i 1).val < 0 + 128; omega⟩
  iintro ⟨HT, Hr, Hc, Hsem⟩ Hk
  ihave Hr' := (Entails.of_eq (show (((r3V).view.loc (V d (cV L) (jV L)) ↦{fullShare} g : sProp 𝕄))
      = ((r3V).view.loc (V d (cV L) (jV L)) ↦[(r3V).view.set]{fullShare} g) by rw [hrs])) $$ Hr
  ihave HT' := (Entails.of_eq (show (((tV).view.loc (V d (cV L) (jV L)) ↦{q} Tb : sProp 𝕄))
      = (((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb) by rw [hts])) $$ HT
  iapply (SparseCore.wp_indirectGatherLocal countersEmb 𝒱₀ (V d (cV L) (jV L)) none (hg := gathers_S26000x128_S128x128)
      (src := (tV).slice (Rect.unit (s := S26000x128) ![0, 0] S26000x128.size inb_S26000x128_S26000x128_0_0) (fun _ => rfl)) (dst := r3V)
      (offs := idxChunk n hn) (fo := c0) (fs := Tb) (fd := g) (q := q) (qo := fullShare) (sem := cc0_scratch12.sem) (default : HIx 1)
      (r3V).view.dmaCredit (SparseCore.sum_rowCredit_eq_dmaCredit (r3V) _ (fun _ => rfl)) (by decide) (fun x => hin _)) $$ [HT' Hr' Hc Hsem]
  · isplitl [HT']; · iexact HT'
    isplitl [Hr']; · iexact Hr'
    isplitl [Hc]; · iexact Hc
    iexact Hsem
  iintro Hfl
  iapply Hk
  iapply (Transfers.Flight_mono countersEmb (V d (cV L) (jV L)) (by
    iintro ⟨Hd, Hs, Ho⟩
    isplitl [Hd]
    · iapply (Entails.of_eq (show (((r3V).view.loc (V d (cV L) (jV L)) ↦[(r3V).view.set]{fullShare} gath3 d L n hn Tb g c0 hin : sProp 𝕄))
        = ((r3V).view.loc (V d (cV L) (jV L)) ↦{fullShare} gath3 d L n hn Tb g c0 hin) by rw [hrs])); iexact Hd
    isplitl [Hs]
    · iapply (Entails.of_eq (show ((((tV).slice (Rect.unit (s := S26000x128) ![0, 0] S26000x128.size inb_S26000x128_S26000x128_0_0) (fun _ => rfl)).view.loc (V d (cV L) (jV L))
          ↦[((tV).slice (Rect.unit (s := S26000x128) ![0, 0] S26000x128.size inb_S26000x128_S26000x128_0_0) (fun _ => rfl)).view.set]{q} Tb : sProp 𝕄))
        = ((tV).view.loc (V d (cV L) (jV L)) ↦{q} Tb) by rw [hts])); iexact Hs
    iexact Ho)) $$ Hfl

theorem gath3_apply (n : ℕ) (hn : n + 128 ≤ 3328) (Tb : Buf (Elt F) (tLoc d)) (g : Buf (Elt F) (sloc d L cc0_scratch8))
    (c0 : Buf (Elt F) (sloc d L cc0_scratch0)) (hin : ∀ j, (c0 j).toNat < 26000) (x : S128x128.Idx) :
    gath3 d L n hn Tb g c0 hin x
      = Tb (ix2 26000 128 (by decide) (by decide) (c0 (ix1 3328 (by decide) (n + (x 0).val))).toNat (x 1).val) := by
  unfold gath3
  rw [View.write_whole_univ]
  unfold SparseCore.gatherPayload
  refine congrArg Tb (funext fun a => ?_)
  have hx0 : (x 0).val < 128 := (x 0).isLt
  have hx1 : (x 1).val < 128 := (x 1).isLt
  match a with
  | 0 =>
    apply Fin.ext
    have h1 := Shape.Gathers.idx_axis gathers_S26000x128_S128x128
      (SparseCore.rows ((idxChunk n hn).view.read (Elt F) c0) rfl (fun x => hin _)) x
    have hz : (idxChunk n hn).view.emb (S128.rowMajor.symm (Fin.cast (rfl : S128x128.size gathers_S26000x128_S128x128.axis' = S128.numel) (x 0)))
        = ix1 3328 (by decide) (n + (x 0).val) := by
      funext b
      match b with
      | 0 =>
        apply Fin.ext
        have hv := Shape.rowMajor_val_one (d := ![128]) (S128.rowMajor.symm (Fin.cast (rfl : S128x128.size gathers_S26000x128_S128x128.axis' = S128.numel) (x 0)))
        rw [Equiv.apply_symm_apply] at hv
        show n + 1 * ((S128.rowMajor.symm (Fin.cast (rfl : S128x128.size gathers_S26000x128_S128x128.axis' = S128.numel) (x 0))) 0).val = (n + (x 0).val) % 3328
        rw [← hv, Nat.one_mul, Nat.mod_eq_of_lt (by show n + (x 0).val < 3328; omega)]
        rfl
    show 0 + 1 * (gathers_S26000x128_S128x128.idx (SparseCore.rows ((idxChunk n hn).view.read (Elt F) c0) rfl (fun x => hin _)) x 0).val
      = (c0 (ix1 3328 (by decide) (n + (x 0).val))).toNat % 26000
    rw [Nat.zero_add, Nat.one_mul, Nat.mod_eq_of_lt (hin _)]
    refine (congrArg Fin.val h1).trans ?_
    show (c0 ((idxChunk n hn).view.emb (S128.rowMajor.symm (Fin.cast _ (x 0))))).toNat = _
    rw [hz]
  | 1 =>
    apply Fin.ext
    have h2 := Shape.Gathers.idx_of_ne gathers_S26000x128_S128x128
      (SparseCore.rows ((idxChunk n hn).view.read (Elt F) c0) rfl (fun x => hin _)) x 1 (by decide)
    show 0 + 1 * (gathers_S26000x128_S128x128.idx (SparseCore.rows ((idxChunk n hn).view.read (Elt F) c0) rfl (fun x => hin _)) x 1).val
      = (x 1).val % 128
    rw [Nat.zero_add, Nat.one_mul, h2, Nat.mod_eq_of_lt hx1]
    rfl

/-- A pair recorded at no level added to recorded pairs that are old or at no level. -/
theorem waits_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact Or.inr rfl
  · exact h p hp

end Cert.ProofB.ScGather
-- ==== Proof.B.ScVal.lean ====
/-
  The values the vector-subcore task stores, read against the two results' index-by-index values.

  A chunk's 128 x 128 block of scaled rows, stored at the task's rows and the chunk's columns of the second-order
  result, holds that result's value at every element it covers: the block's row `r` and column `e` are the result's row
  `row0 + r` and column `128 c + e`, whose value names the task's position `128 c + r` of the transposed lists. The
  first-order weights the task gathers are the first-order result's values on the task's slice.
-/
import proofs.«207592_g65111704207794_cont_9to1_m_407_36_alg».proof.Proof.B.ScViews
import proofs.«207592_g65111704207794_cont_9to1_m_407_36_alg».proof.Proof.B.ScRows

noncomputable section

namespace Cert.ProofB.ScVal

open Cert.Kernel Cert.Kernel.Gen
open Cert.ProofB.ScSpec Cert.ProofB.ScViews Cert.ProofB.ScRows
open Cert.ProofB.TcAlg (K 𝒱₀ UH UU)

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (d : Dev nD) (L : grid0.Coords)

/-- Position `m` of the task's slice of a transposed list is position `offset + m` of the list. -/
theorem i2Sl_emb (m : ℕ) (hm : m < 3328) :
    (i2Sl L).view.emb (ix1 3328 (by decide) m) = ix1 106496 (by decide) (6656 * (L 1).val + 3328 * (L 0).val + m) := by
  have h1 : (L 1).val < 16 := (L 1).isLt
  have h0 : (L 0).val < 2 := (L 0).isLt
  have hoff : k0_off1 L 0 = 6656 * (L 1).val + 3328 * (L 0).val := by rw [k0_off1_eq L]; rfl
  funext a
  match a with
  | ⟨0, _⟩ =>
    apply Fin.ext
    show k0_off1 L 0 + 1 * (m % 3328) = (6656 * (L 1).val + 3328 * (L 0).val + m) % 106496
    rw [hoff]; omega

theorem xvSl_emb (m : ℕ) (hm : m < 3328) :
    (xvSl L).view.emb (ix1 3328 (by decide) m) = ix1 106496 (by decide) (6656 * (L 1).val + 3328 * (L 0).val + m) :=
  i2Sl_emb L m hm

/-- A chunk's block of scaled rows holds the second-order result's values on the elements it is stored at. -/
theorem e2_block_val (Tb : Buf (Elt F) (tLoc d)) (I2 : Buf (Elt F) (i2Loc d)) (XV : Buf (Elt F) (xvLoc d))
    (c0 : S3328.Idx → BitVec 32) (X4 : S3328.Idx → F .f32)
    (hc0 : ∀ j, c0 j = I2 ((i2Sl L).view.emb j)) (hX4 : ∀ j, X4 j = XV ((xvSl L).view.emb j))
    (c : ℕ) (hc : c < 26) (G fc : S128x128.Idx → F .f32)
    (hG : ∀ x, G x = Tb (ix2 26000 128 (by decide) (by decide) (c0 (ix1 3328 (by decide) (128 * c + (x 0).val))).toNat (x 1).val))
    (hfc : rowsDone c G X4 128 fc)
    (o : Fin 2 → ℕ) (ho : o = ![256 * (L 1).val + 128 * (L 0).val, 128 * c])
    (inb : ∀ a, o a + S128x128.size a ≤ S4096x3328.size a) :
    ∀ x : S128x128.Idx, fc x = E2 Tb I2 XV (((e2V).slice (Rect.unit (s := S4096x3328) o S128x128.size inb) (fun _ => rfl)).view.emb x) := by
  intro x
  have h1 : (L 1).val < 16 := (L 1).isLt
  have h0 : (L 0).val < 2 := (L 0).isLt
  have hx0 : (x 0).val < 128 := (x 0).isLt
  have hx1 : (x 1).val < 128 := (x 1).isLt
  subst ho
  have hy0 : ((((e2V).slice (Rect.unit (s := S4096x3328) ![256 * (L 1).val + 128 * (L 0).val, 128 * c] S128x128.size inb) (fun _ => rfl)).view.emb x) 0).val
      = 256 * (L 1).val + 128 * (L 0).val + 1 * (x 0).val := rfl
  have hy1 : ((((e2V).slice (Rect.unit (s := S4096x3328) ![256 * (L 1).val + 128 * (L 0).val, 128 * c] S128x128.size inb) (fun _ => rfl)).view.emb x) 1).val
      = 128 * c + 1 * (x 1).val := rfl
  have hm : 128 * c + (x 0).val < 3328 := by omega
  rw [hfc x, if_pos hx0, hG x, hX4, hc0, show c * 128 + (x 0).val = 128 * c + (x 0).val from by omega, i2Sl_emb L _ hm, xvSl_emb L _ hm]
  unfold E2
  rw [hy0, hy1]
  have hpos : pos (256 * (L 1).val + 128 * (L 0).val + 1 * (x 0).val) ((128 * c + 1 * (x 1).val) / 128)
      = 6656 * (L 1).val + 3328 * (L 0).val + (128 * c + (x 0).val) := by
    unfold pos; omega
  have hcol : ix2 26000 128 (by decide) (by decide)
        (I2 (ix1 106496 (by decide) (6656 * (L 1).val + 3328 * (L 0).val + (128 * c + (x 0).val)))).toNat (x 1).val
      = ix2 26000 128 (by decide) (by decide)
        (I2 (ix1 106496 (by decide) (6656 * (L 1).val + 3328 * (L 0).val + (128 * c + (x 0).val)))).toNat ((128 * c + 1 * (x 1).val) % 128) := by
    funext a
    match a with
    | ⟨0, _⟩ => rfl
    | ⟨1, _⟩ => apply Fin.ext; show (x 1).val % 128 = (128 * c + 1 * (x 1).val) % 128 % 128; omega
  rw [hpos, hcol]

/-- The first-order weights the task gathers are the first-order result's values on its slice. -/
theorem so_val (IS : Buf (Elt F) (isLoc d)) (WF : Buf (Elt F) (wfLoc d)) (c1 : S4096.Idx → BitVec 32) (c2 : S26008.Idx → F .f32)
    (hc1 : ∀ j, c1 j = IS ((isSl L).view.emb j)) (hc2 : ∀ j, c2 j = WF j)
    (f3 : S4096.Idx → F .f32) (hf3 : ∀ j : S4096.Idx, (j 0).val < 16 * 256 → f3 j = c2 (ix1 26008 (by decide) (c1 j).toNat)) :
    ∀ x : S4096.Idx, f3 x = SS IS WF ((soSl L).view.emb x) := by
  intro x
  rw [hf3 x (x 0).isLt, hc2, hc1]
  rfl

end Cert.ProofB.ScVal

end
-- ==== Proof.B.ScBody.lean ====
/-
  One vector-subcore task, run from what it holds of the arrays to what it hands back: the index list fetched, two
  gathers started, the feature values, the padded indices and the weights fetched, the first-order weights gathered
  and copied out, and then, chunk by chunk, the next-but-one gather started (once the row buffer's last copy-out has
  landed), the chunk's gather awaited, its rows scaled and the buffer copied out to its column block; at the end the
  outstanding copy-outs awaited. Every row buffer, index chunk and column block is held by exactly one transfer at a
  time; the values are carried along.
-/
import proofs.«207592_g65111704207794_cont_9to1_m_407_36_alg».proof.Proof.B.ScViews
import proofs.«207592_g65111704207794_cont_9to1_m_407_36_alg».proof.Proof.B.ScLoops
import proofs.«207592_g65111704207794_cont_9to1_m_407_36_alg».proof.Proof.B.ScSplit
import proofs.«207592_g65111704207794_cont_9to1_m_407_36_alg».proof.Proof.B.ScFin
import proofs.«207592_g65111704207794_cont_9to1_m_407_36_alg».proof.Proof.B.ScGather
import proofs.«207592_g65111704207794_cont_9to1_m_407_36_alg».proof.Proof.B.ScVal

noncomputable section

namespace Cert.ProofB.ScBody

open Cert.Kernel Cert.Kernel.Gen
open Cert.ProofB.ScSpec Cert.ProofB.ScViews Cert.ProofB.ScRows Cert.ProofB.ScLoops Cert.ProofB.ScSplit Cert.ProofB.ScGather Cert.ProofB.ScVal
open Cert.ProofB.TcAlg (K 𝒱₀ UH UU)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

set_option maxHeartbeats 40000000 in
theorem tile_body (hF : (K (F := F)).Facts) (qT qW : PosShare TreeShare)
    (Tb : Buf (Elt F) (tLoc d)) (I2 : Buf (Elt F) (i2Loc d)) (IS : Buf (Elt F) (isLoc d)) (WF : Buf (Elt F) (wfLoc d)) (XV : Buf (Elt F) (xvLoc d))
    (hI2 : ∀ k, (I2 k).toNat < 26000) (hIS : ∀ k, (IS k).toNat < 26008)
    (O : CellTallies nD τ sig (HIx 1)) (W : Waits sig (HIx 1)) (hO : ∀ g, O g none = 0) :
    iprop(levAts (K (F := F)).L (K (F := F)).lev ∗ emp ∗ GO d L qT qW Tb I2 IS WF XV
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (task (F := F) L)
          fun _ => iprop(TD d L qT qW Tb I2 IS WF XV ∗ scopedBufs (V d (cV L) (jV L)) ∗ scopedSems0 (V d (cV L) (jV L))
            ∗ ∃ W', ⌜∀ p ∈ W', p ∈ W ∨ p.2 = none⌝ ∗ owes (V d (cV L) (jV L)) O W') := by
  unfold task
  simp only [cc0__sc_gather_eq_skeleton]; unfold cc0__sc_gather_skel
  rw [(K (F := F)).scopedBufs_V hF d (cV L) (jV L), SparseCore.Cfg.scopedSems0_V (Val := Elt F) d (cV L) (jV L), ownSems0_V, ownBufs_V]
  iintro ⟨#Hlv, -, ⟨HT, HWF, HI2, HXV, HIS, ⟨%fe, HE2⟩, ⟨%fo, HSO⟩⟩, ⟨⟨⟨%f0, Hs0⟩, ⟨%f1, Hs1⟩, ⟨%f2, Hs2⟩, ⟨%f3, Hs3⟩, ⟨%f4, Hs4⟩, ⟨%g0, Hr0⟩, ⟨%g1, Hr1⟩, ⟨%g2, Hr2⟩, ⟨%g3, Hr3⟩⟩, Hbufs⟩, ⟨⟨Hsem0, Hsem1, Hsem2, Hsem3, Hsem4, Hsem5, Hsem6, Hsem7, Hsem8, Hsem9, Hsem10, Hsem11, Hsem12⟩, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave HT' := (Entails.of_eq (show (tLoc d ↦{qT} Tb : sProp 𝕄) = ((tV).view.loc (V d (cV L) (jV L)) ↦{qT} Tb) from rfl)) $$ HT
  ihave HWF' := (Entails.of_eq (show (wfLoc d ↦{qW} WF : sProp 𝕄) = ((wfV).view.loc (V d (cV L) (jV L)) ↦{qW} WF) from rfl)) $$ HWF
  ihave HI2' := (Entails.of_eq (show (i2Loc d ↦[i2Set L]{fullShare} I2 : sProp 𝕄) = ((i2Sl L).view.loc (V d (cV L) (jV L)) ↦[(i2Sl L).view.set]{fullShare} I2) from rfl)) $$ HI2
  ihave HXV' := (Entails.of_eq (show (xvLoc d ↦[xvSet L]{fullShare} XV : sProp 𝕄) = ((xvSl L).view.loc (V d (cV L) (jV L)) ↦[(xvSl L).view.set]{fullShare} XV) from rfl)) $$ HXV
  ihave HIS' := (Entails.of_eq (show (isLoc d ↦[isSet L]{fullShare} IS : sProp 𝕄) = ((isSl L).view.loc (V d (cV L) (jV L)) ↦[(isSl L).view.set]{fullShare} IS) from rfl)) $$ HIS
  ihave HSO' := (Entails.of_eq (show (soLoc d ↦[soSet L]{fullShare} fo : sProp 𝕄) = ((soSl L).view.loc (V d (cV L) (jV L)) ↦[(soSl L).view.set]{fullShare} fo) from rfl)) $$ HSO
  ihave Hs0' := (Entails.of_eq (show (sloc d L cc0_scratch0 ↦{fullShare} f0 : sProp 𝕄) = ((s0V).view.loc (V d (cV L) (jV L)) ↦{fullShare} f0) from rfl)) $$ Hs0
  ihave Hs1' := (Entails.of_eq (show (sloc d L cc0_scratch1 ↦{fullShare} f1 : sProp 𝕄) = ((s1V).view.loc (V d (cV L) (jV L)) ↦{fullShare} f1) from rfl)) $$ Hs1
  ihave Hs2' := (Entails.of_eq (show (sloc d L cc0_scratch2 ↦{fullShare} f2 : sProp 𝕄) = ((s2V).view.loc (V d (cV L) (jV L)) ↦{fullShare} f2) from rfl)) $$ Hs2
  ihave Hs3' := (Entails.of_eq (show (sloc d L cc0_scratch3 ↦{fullShare} f3 : sProp 𝕄) = ((s3V).view.loc (V d (cV L) (jV L)) ↦{fullShare} f3) from rfl)) $$ Hs3
  ihave Hs4' := (Entails.of_eq (show (sloc d L cc0_scratch4 ↦{fullShare} f4 : sProp 𝕄) = ((s4V).view.loc (V d (cV L) (jV L)) ↦{fullShare} f4) from rfl)) $$ Hs4
  ihave Hr0' := (Entails.of_eq (show (sloc d L cc0_scratch5 ↦{fullShare} g0 : sProp 𝕄) = ((r0V).view.loc (V d (cV L) (jV L)) ↦{fullShare} g0) from rfl)) $$ Hr0
  ihave Hr1' := (Entails.of_eq (show (sloc d L cc0_scratch6 ↦{fullShare} g1 : sProp 𝕄) = ((r1V).view.loc (V d (cV L) (jV L)) ↦{fullShare} g1) from rfl)) $$ Hr1
  ihave Hr2' := (Entails.of_eq (show (sloc d L cc0_scratch7 ↦{fullShare} g2 : sProp 𝕄) = ((r2V).view.loc (V d (cV L) (jV L)) ↦{fullShare} g2) from rfl)) $$ Hr2
  ihave Hr3' := (Entails.of_eq (show (sloc d L cc0_scratch8 ↦{fullShare} g3 : sProp 𝕄) = ((r3V).view.loc (V d (cV L) (jV L)) ↦{fullShare} g3) from rfl)) $$ Hr3

  -- the table's share in four
  ihave HTs := (pointsTo_share (PosShare.mem_left_op_right qT)).1 $$ HT'
  icases HTs with ⟨HTl, HTr⟩
  ihave HTs := (pointsTo_share (PosShare.mem_left_op_right qT.left)).1 $$ HTl
  icases HTs with ⟨HT0, HT1⟩
  ihave HTs := (pointsTo_share (PosShare.mem_left_op_right qT.right)).1 $$ HTr
  icases HTs with ⟨HT2, HT3⟩
  -- the task's rows of the second-order result in their 26 column blocks
  ihave HE := (Entails.of_eq (e2_split d L fe)) $$ HE2
  icases HE with ⟨He0, He1, He2, He3, He4, He5, He6, He7, He8, He9, He10, He11, He12, He13, He14, He15, He16, He17, He18, He19, He20, He21, He22, He23, He24, He25⟩
  sl_exec
  generalize hc0 : View.write (Elt F) (s0V).view f0 _ Finset.univ = c0
  have hin : ∀ j, (c0 j).toNat < 26000 := by
    subst hc0; intro j; rw [View.write_whole_univ]; exact hI2 _
  ihave Hs0s := (Entails.of_eq (s0_split d L c0)) $$ Hs0'
  icases Hs0s with ⟨Hc0, Hc1, Hc2, Hc3, Hc4, Hc5, Hc6, Hc7, Hc8, Hc9, Hc10, Hc11, Hc12, Hc13, Hc14, Hc15, Hc16, Hc17, Hc18, Hc19, Hc20, Hc21, Hc22, Hc23, Hc24, Hc25⟩

  -- the gather of chunk 0 into row buffer 0
  iapply (gather0 d L 0 (Nat.le_of_ble_eq_true rfl) _ Tb _ c0 hin) $$ [HT0 Hr0' Hc0 Hsem0]
  · isplitl [HT0]; · iexact HT0
    isplitl [Hr0']; · iexact Hr0'
    isplitl [Hc0]; · iexact Hc0
    iexact Hsem0
  iintro Hfl0
  sl_exec

  -- the gather of chunk 1 into row buffer 1
  iapply (gather1 d L 128 (Nat.le_of_ble_eq_true rfl) _ Tb _ c0 hin) $$ [HT1 Hr1' Hc1 Hsem1]
  · isplitl [HT1]; · iexact HT1
    isplitl [Hr1']; · iexact Hr1'
    isplitl [Hc1]; · iexact Hc1
    iexact Hsem1
  iintro Hfl1
  sl_exec

  -- the landed lists and values, under names; the checked range of the padded index list
  generalize hX4 : View.write (Elt F) (s4V).view f4 _ Finset.univ = X4
  generalize hc1 : View.write (Elt F) (s1V).view f1 _ Finset.univ = c1
  generalize hc2 : View.write (Elt F) (s2V).view f2 _ Finset.univ = c2
  have hc1b : ∀ j, (c1 j).toNat < 26008 := by
    subst hc1; intro j; rw [View.write_whole_univ]; exact hIS _
  have hc0v : ∀ j, c0 j = I2 ((i2Sl L).view.emb j) := by
    subst hc0; intro j; rw [View.write_whole_univ]; rfl
  have hX4v : ∀ j, X4 j = XV ((xvSl L).view.emb j) := by
    subst hX4; intro j; rw [View.write_whole_univ]; rfl
  have hc1v : ∀ j, c1 j = IS ((isSl L).view.emb j) := by
    subst hc1; intro j; rw [View.write_whole_univ]; rfl
  have hc2v : ∀ j, c2 j = WF j := by
    subst hc2; intro j; rw [View.write_whole_univ]; rfl
  -- the first-order loop
  sl_for (invS d L c1 c2) $$ [Hs1' Hs2' Hs3']
  case region => intro k _; exact trip_s d L c1 c2 hc1b k
  · unfold invS
    isplitl [Hs1']; · iexact Hs1'
    isplitl [Hs2']; · iexact Hs2'
    iexists _; isplitl [Hs3']; · iexact Hs3'
    ipureintro; intro j hj; exact absurd hj (Nat.not_lt_zero _)
  iintro %_ HI
  unfold invS
  icases HI with ⟨Hs1', Hs2', %f3', Hs3', %hf3⟩
  sl_exec
  -- the gather of chunk 2 into row buffer 2
  iapply (gather2 d L 256 (Nat.le_of_ble_eq_true rfl) _ Tb _ c0 hin) $$ [HT2 Hr2' Hc2 Hsem2]
  · isplitl [HT2]; · iexact HT2
    isplitl [Hr2']; · iexact Hr2'
    isplitl [Hc2]; · iexact Hc2
    iexact Hsem2
  iintro Hfl2
  sl_exec
  -- the wait for the gather of chunk 0
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc0⟩, Hsem0, HO⟩
  sl_exec
  -- the scaling loop of chunk 0
  sl_for (invR_0 d L (gath0 d L 0 (Nat.le_of_ble_eq_true rfl) Tb _ c0 hin) X4) $$ [Hs4' Hr0']
  case region => intro k _; exact trip_r_0 d L _ X4 k
  · unfold invR_0
    isplitl [Hs4']; · iexact Hs4'
    iexists _; isplitl [Hr0']; · iexact Hr0'
    ipureintro; intro x; rw [if_neg (Nat.not_lt_zero _)]
  iintro %_ HI
  unfold invR_0
  icases HI with ⟨Hs4', %fc0, Hr0', %hfc0⟩
  sl_exec
  -- the gather of chunk 3 into row buffer 3
  iapply (gather3 d L 384 (Nat.le_of_ble_eq_true rfl) _ Tb _ c0 hin) $$ [HT3 Hr3' Hc3 Hsem3]
  · isplitl [HT3]; · iexact HT3
    isplitl [Hr3']; · iexact Hr3'
    isplitl [Hc3]; · iexact Hc3
    iexact Hsem3
  iintro Hfl3
  sl_exec
  -- the wait for the gather of chunk 1
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc1⟩, Hsem1, HO⟩
  sl_exec
  -- the scaling loop of chunk 1
  sl_for (invR_1 d L (gath1 d L 128 (Nat.le_of_ble_eq_true rfl) Tb _ c0 hin) X4) $$ [Hs4' Hr1']
  case region => intro k _; exact trip_r_1 d L _ X4 k
  · unfold invR_1
    isplitl [Hs4']; · iexact Hs4'
    iexists _; isplitl [Hr1']; · iexact Hr1'
    ipureintro; intro x; rw [if_neg (Nat.not_lt_zero _)]
  iintro %_ HI
  unfold invR_1
  icases HI with ⟨Hs4', %fc1, Hr1', %hfc1⟩
  sl_exec
  -- the gather of chunk 4 into row buffer 0
  iapply (gather0 d L 512 (Nat.le_of_ble_eq_true rfl) _ Tb _ c0 hin) $$ [HT0 Hr0' Hc4 Hsem0]
  · isplitl [HT0]; · iexact HT0
    isplitl [Hr0']; · iexact Hr0'
    isplitl [Hc4]; · iexact Hc4
    iexact Hsem0
  iintro Hfl0
  sl_exec
  -- the wait for the gather of chunk 2
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc2⟩, Hsem2, HO⟩
  sl_exec
  -- the scaling loop of chunk 2
  sl_for (invR_2 d L (gath2 d L 256 (Nat.le_of_ble_eq_true rfl) Tb _ c0 hin) X4) $$ [Hs4' Hr2']
  case region => intro k _; exact trip_r_2 d L _ X4 k
  · unfold invR_2
    isplitl [Hs4']; · iexact Hs4'
    iexists _; isplitl [Hr2']; · iexact Hr2'
    ipureintro; intro x; rw [if_neg (Nat.not_lt_zero _)]
  iintro %_ HI
  unfold invR_2
  icases HI with ⟨Hs4', %fc2, Hr2', %hfc2⟩
  sl_exec
  -- the gather of chunk 5 into row buffer 1
  iapply (gather1 d L 640 (Nat.le_of_ble_eq_true rfl) _ Tb _ c0 hin) $$ [HT1 Hr1' Hc5 Hsem1]
  · isplitl [HT1]; · iexact HT1
    isplitl [Hr1']; · iexact Hr1'
    isplitl [Hc5]; · iexact Hc5
    iexact Hsem1
  iintro Hfl1
  sl_exec
  -- the wait for the gather of chunk 3
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc3⟩, Hsem3, HO⟩
  sl_exec
  -- the scaling loop of chunk 3
  sl_for (invR_3 d L (gath3 d L 384 (Nat.le_of_ble_eq_true rfl) Tb _ c0 hin) X4) $$ [Hs4' Hr3']
  case region => intro k _; exact trip_r_3 d L _ X4 k
  · unfold invR_3
    isplitl [Hs4']; · iexact Hs4'
    iexists _; isplitl [Hr3']; · iexact Hr3'
    ipureintro; intro x; rw [if_neg (Nat.not_lt_zero _)]
  iintro %_ HI
  unfold invR_3
  icases HI with ⟨Hs4', %fc3, Hr3', %hfc3⟩
  sl_exec
  -- the gather of chunk 6 into row buffer 2
  iapply (gather2 d L 768 (Nat.le_of_ble_eq_true rfl) _ Tb _ c0 hin) $$ [HT2 Hr2' Hc6 Hsem2]
  · isplitl [HT2]; · iexact HT2
    isplitl [Hr2']; · iexact Hr2'
    isplitl [Hc6]; · iexact Hc6
    iexact Hsem2
  iintro Hfl2
  sl_exec
  -- the wait for the gather of chunk 4
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc4⟩, Hsem0, HO⟩
  sl_exec
  -- the scaling loop of chunk 4
  sl_for (invR_4 d L (gath0 d L 512 (Nat.le_of_ble_eq_true rfl) Tb _ c0 hin) X4) $$ [Hs4' Hr0']
  case region => intro k _; exact trip_r_4 d L _ X4 k
  · unfold invR_4
    isplitl [Hs4']; · iexact Hs4'
    iexists _; isplitl [Hr0']; · iexact Hr0'
    ipureintro; intro x; rw [if_neg (Nat.not_lt_zero _)]
  iintro %_ HI
  unfold invR_4
  icases HI with ⟨Hs4', %fc4, Hr0', %hfc4⟩
  sl_exec
  -- the gather of chunk 7 into row buffer 3
  iapply (gather3 d L 896 (Nat.le_of_ble_eq_true rfl) _ Tb _ c0 hin) $$ [HT3 Hr3' Hc7 Hsem3]
  · isplitl [HT3]; · iexact HT3
    isplitl [Hr3']; · iexact Hr3'
    isplitl [Hc7]; · iexact Hc7
    iexact Hsem3
  iintro Hfl3
  sl_exec
  -- the wait for the gather of chunk 5
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc5⟩, Hsem1, HO⟩
  sl_exec
  -- the scaling loop of chunk 5
  sl_for (invR_5 d L (gath1 d L 640 (Nat.le_of_ble_eq_true rfl) Tb _ c0 hin) X4) $$ [Hs4' Hr1']
  case region => intro k _; exact trip_r_5 d L _ X4 k
  · unfold invR_5
    isplitl [Hs4']; · iexact Hs4'
    iexists _; isplitl [Hr1']; · iexact Hr1'
    ipureintro; intro x; rw [if_neg (Nat.not_lt_zero _)]
  iintro %_ HI
  unfold invR_5
  icases HI with ⟨Hs4', %fc5, Hr1', %hfc5⟩
  sl_exec
  -- the gather of chunk 8 into row buffer 0
  iapply (gather0 d L 1024 (Nat.le_of_ble_eq_true rfl) _ Tb _ c0 hin) $$ [HT0 Hr0' Hc8 Hsem0]
  · isplitl [HT0]; · iexact HT0
    isplitl [Hr0']; · iexact Hr0'
    isplitl [Hc8]; · iexact Hc8
    iexact Hsem0
  iintro Hfl0
  sl_exec
  -- the wait for the gather of chunk 6
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc6⟩, Hsem2, HO⟩
  sl_exec
  -- the scaling loop of chunk 6
  sl_for (invR_6 d L (gath2 d L 768 (Nat.le_of_ble_eq_true rfl) Tb _ c0 hin) X4) $$ [Hs4' Hr2']
  case region => intro k _; exact trip_r_6 d L _ X4 k
  · unfold invR_6
    isplitl [Hs4']; · iexact Hs4'
    iexists _; isplitl [Hr2']; · iexact Hr2'
    ipureintro; intro x; rw [if_neg (Nat.not_lt_zero _)]
  iintro %_ HI
  unfold invR_6
  icases HI with ⟨Hs4', %fc6, Hr2', %hfc6⟩
  sl_exec
  -- the gather of chunk 9 into row buffer 1
  iapply (gather1 d L 1152 (Nat.le_of_ble_eq_true rfl) _ Tb _ c0 hin) $$ [HT1 Hr1' Hc9 Hsem1]
  · isplitl [HT1]; · iexact HT1
    isplitl [Hr1']; · iexact Hr1'
    isplitl [Hc9]; · iexact Hc9
    iexact Hsem1
  iintro Hfl1
  sl_exec
  -- the wait for the gather of chunk 7
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc7⟩, Hsem3, HO⟩
  sl_exec
  -- the scaling loop of chunk 7
  sl_for (invR_7 d L (gath3 d L 896 (Nat.le_of_ble_eq_true rfl) Tb _ c0 hin) X4) $$ [Hs4' Hr3']
  case region => intro k _; exact trip_r_7 d L _ X4 k
  · unfold invR_7
    isplitl [Hs4']; · iexact Hs4'
    iexists _; isplitl [Hr3']; · iexact Hr3'
    ipureintro; intro x; rw [if_neg (Nat.not_lt_zero _)]
  iintro %_ HI
  unfold invR_7
  icases HI with ⟨Hs4', %fc7, Hr3', %hfc7⟩
  sl_exec
  -- the gather of chunk 10 into row buffer 2
  iapply (gather2 d L 1280 (Nat.le_of_ble_eq_true rfl) _ Tb _ c0 hin) $$ [HT2 Hr2' Hc10 Hsem2]
  · isplitl [HT2]; · iexact HT2
    isplitl [Hr2']; · iexact Hr2'
    isplitl [Hc10]; · iexact Hc10
    iexact Hsem2
  iintro Hfl2
  sl_exec
  -- the wait for the gather of chunk 8
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc8⟩, Hsem0, HO⟩
  sl_exec
  -- the scaling loop of chunk 8
  sl_for (invR_8 d L (gath0 d L 1024 (Nat.le_of_ble_eq_true rfl) Tb _ c0 hin) X4) $$ [Hs4' Hr0']
  case region => intro k _; exact trip_r_8 d L _ X4 k
  · unfold invR_8
    isplitl [Hs4']; · iexact Hs4'
    iexists _; isplitl [Hr0']; · iexact Hr0'
    ipureintro; intro x; rw [if_neg (Nat.not_lt_zero _)]
  iintro %_ HI
  unfold invR_8
  icases HI with ⟨Hs4', %fc8, Hr0', %hfc8⟩
  sl_exec
  -- the gather of chunk 11 into row buffer 3
  iapply (gather3 d L 1408 (Nat.le_of_ble_eq_true rfl) _ Tb _ c0 hin) $$ [HT3 Hr3' Hc11 Hsem3]
  · isplitl [HT3]; · iexact HT3
    isplitl [Hr3']; · iexact Hr3'
    isplitl [Hc11]; · iexact Hc11
    iexact Hsem3
  iintro Hfl3
  sl_exec
  -- the wait for the gather of chunk 9
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc9⟩, Hsem1, HO⟩
  sl_exec
  -- the scaling loop of chunk 9
  sl_for (invR_9 d L (gath1 d L 1152 (Nat.le_of_ble_eq_true rfl) Tb _ c0 hin) X4) $$ [Hs4' Hr1']
  case region => intro k _; exact trip_r_9 d L _ X4 k
  · unfold invR_9
    isplitl [Hs4']; · iexact Hs4'
    iexists _; isplitl [Hr1']; · iexact Hr1'
    ipureintro; intro x; rw [if_neg (Nat.not_lt_zero _)]
  iintro %_ HI
  unfold invR_9
  icases HI with ⟨Hs4', %fc9, Hr1', %hfc9⟩
  sl_exec
  -- the gather of chunk 12 into row buffer 0
  iapply (gather0 d L 1536 (Nat.le_of_ble_eq_true rfl) _ Tb _ c0 hin) $$ [HT0 Hr0' Hc12 Hsem0]
  · isplitl [HT0]; · iexact HT0
    isplitl [Hr0']; · iexact Hr0'
    isplitl [Hc12]; · iexact Hc12
    iexact Hsem0
  iintro Hfl0
  sl_exec
  -- the wait for the gather of chunk 10
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc10⟩, Hsem2, HO⟩
  sl_exec
  -- the scaling loop of chunk 10
  sl_for (invR_10 d L (gath2 d L 1280 (Nat.le_of_ble_eq_true rfl) Tb _ c0 hin) X4) $$ [Hs4' Hr2']
  case region => intro k _; exact trip_r_10 d L _ X4 k
  · unfold invR_10
    isplitl [Hs4']; · iexact Hs4'
    iexists _; isplitl [Hr2']; · iexact Hr2'
    ipureintro; intro x; rw [if_neg (Nat.not_lt_zero _)]
  iintro %_ HI
  unfold invR_10
  icases HI with ⟨Hs4', %fc10, Hr2', %hfc10⟩
  sl_exec
  -- the gather of chunk 13 into row buffer 1
  iapply (gather1 d L 1664 (Nat.le_of_ble_eq_true rfl) _ Tb _ c0 hin) $$ [HT1 Hr1' Hc13 Hsem1]
  · isplitl [HT1]; · iexact HT1
    isplitl [Hr1']; · iexact Hr1'
    isplitl [Hc13]; · iexact Hc13
    iexact Hsem1
  iintro Hfl1
  sl_exec
  -- the wait for the gather of chunk 11
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc11⟩, Hsem3, HO⟩
  sl_exec
  -- the scaling loop of chunk 11
  sl_for (invR_11 d L (gath3 d L 1408 (Nat.le_of_ble_eq_true rfl) Tb _ c0 hin) X4) $$ [Hs4' Hr3']
  case region => intro k _; exact trip_r_11 d L _ X4 k
  · unfold invR_11
    isplitl [Hs4']; · iexact Hs4'
    iexists _; isplitl [Hr3']; · iexact Hr3'
    ipureintro; intro x; rw [if_neg (Nat.not_lt_zero _)]
  iintro %_ HI
  unfold invR_11
  icases HI with ⟨Hs4', %fc11, Hr3', %hfc11⟩
  sl_exec
  -- the gather of chunk 14 into row buffer 2
  iapply (gather2 d L 1792 (Nat.le_of_ble_eq_true rfl) _ Tb _ c0 hin) $$ [HT2 Hr2' Hc14 Hsem2]
  · isplitl [HT2]; · iexact HT2
    isplitl [Hr2']; · iexact Hr2'
    isplitl [Hc14]; · iexact Hc14
    iexact Hsem2
  iintro Hfl2
  sl_exec
  -- the wait for the gather of chunk 12
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc12⟩, Hsem0, HO⟩
  sl_exec
  -- the scaling loop of chunk 12
  sl_for (invR_12 d L (gath0 d L 1536 (Nat.le_of_ble_eq_true rfl) Tb _ c0 hin) X4) $$ [Hs4' Hr0']
  case region => intro k _; exact trip_r_12 d L _ X4 k
  · unfold invR_12
    isplitl [Hs4']; · iexact Hs4'
    iexists _; isplitl [Hr0']; · iexact Hr0'
    ipureintro; intro x; rw [if_neg (Nat.not_lt_zero _)]
  iintro %_ HI
  unfold invR_12
  icases HI with ⟨Hs4', %fc12, Hr0', %hfc12⟩
  sl_exec
  -- the gather of chunk 15 into row buffer 3
  iapply (gather3 d L 1920 (Nat.le_of_ble_eq_true rfl) _ Tb _ c0 hin) $$ [HT3 Hr3' Hc15 Hsem3]
  · isplitl [HT3]; · iexact HT3
    isplitl [Hr3']; · iexact Hr3'
    isplitl [Hc15]; · iexact Hc15
    iexact Hsem3
  iintro Hfl3
  sl_exec
  -- the wait for the gather of chunk 13
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc13⟩, Hsem1, HO⟩
  sl_exec
  -- the scaling loop of chunk 13
  sl_for (invR_13 d L (gath1 d L 1664 (Nat.le_of_ble_eq_true rfl) Tb _ c0 hin) X4) $$ [Hs4' Hr1']
  case region => intro k _; exact trip_r_13 d L _ X4 k
  · unfold invR_13
    isplitl [Hs4']; · iexact Hs4'
    iexists _; isplitl [Hr1']; · iexact Hr1'
    ipureintro; intro x; rw [if_neg (Nat.not_lt_zero _)]
  iintro %_ HI
  unfold invR_13
  icases HI with ⟨Hs4', %fc13, Hr1', %hfc13⟩
  sl_exec
  -- the gather of chunk 16 into row buffer 0
  iapply (gather0 d L 2048 (Nat.le_of_ble_eq_true rfl) _ Tb _ c0 hin) $$ [HT0 Hr0' Hc16 Hsem0]
  · isplitl [HT0]; · iexact HT0
    isplitl [Hr0']; · iexact Hr0'
    isplitl [Hc16]; · iexact Hc16
    iexact Hsem0
  iintro Hfl0
  sl_exec
  -- the wait for the gather of chunk 14
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc14⟩, Hsem2, HO⟩
  sl_exec
  -- the scaling loop of chunk 14
  sl_for (invR_14 d L (gath2 d L 1792 (Nat.le_of_ble_eq_true rfl) Tb _ c0 hin) X4) $$ [Hs4' Hr2']
  case region => intro k _; exact trip_r_14 d L _ X4 k
  · unfold invR_14
    isplitl [Hs4']; · iexact Hs4'
    iexists _; isplitl [Hr2']; · iexact Hr2'
    ipureintro; intro x; rw [if_neg (Nat.not_lt_zero _)]
  iintro %_ HI
  unfold invR_14
  icases HI with ⟨Hs4', %fc14, Hr2', %hfc14⟩
  sl_exec
  -- the gather of chunk 17 into row buffer 1
  iapply (gather1 d L 2176 (Nat.le_of_ble_eq_true rfl) _ Tb _ c0 hin) $$ [HT1 Hr1' Hc17 Hsem1]
  · isplitl [HT1]; · iexact HT1
    isplitl [Hr1']; · iexact Hr1'
    isplitl [Hc17]; · iexact Hc17
    iexact Hsem1
  iintro Hfl1
  sl_exec
  -- the wait for the gather of chunk 15
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc15⟩, Hsem3, HO⟩
  sl_exec
  -- the scaling loop of chunk 15
  sl_for (invR_15 d L (gath3 d L 1920 (Nat.le_of_ble_eq_true rfl) Tb _ c0 hin) X4) $$ [Hs4' Hr3']
  case region => intro k _; exact trip_r_15 d L _ X4 k
  · unfold invR_15
    isplitl [Hs4']; · iexact Hs4'
    iexists _; isplitl [Hr3']; · iexact Hr3'
    ipureintro; intro x; rw [if_neg (Nat.not_lt_zero _)]
  iintro %_ HI
  unfold invR_15
  icases HI with ⟨Hs4', %fc15, Hr3', %hfc15⟩
  sl_exec
  -- the gather of chunk 18 into row buffer 2
  iapply (gather2 d L 2304 (Nat.le_of_ble_eq_true rfl) _ Tb _ c0 hin) $$ [HT2 Hr2' Hc18 Hsem2]
  · isplitl [HT2]; · iexact HT2
    isplitl [Hr2']; · iexact Hr2'
    isplitl [Hc18]; · iexact Hc18
    iexact Hsem2
  iintro Hfl2
  sl_exec
  -- the wait for the gather of chunk 16
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc16⟩, Hsem0, HO⟩
  sl_exec
  -- the scaling loop of chunk 16
  sl_for (invR_16 d L (gath0 d L 2048 (Nat.le_of_ble_eq_true rfl) Tb _ c0 hin) X4) $$ [Hs4' Hr0']
  case region => intro k _; exact trip_r_16 d L _ X4 k
  · unfold invR_16
    isplitl [Hs4']; · iexact Hs4'
    iexists _; isplitl [Hr0']; · iexact Hr0'
    ipureintro; intro x; rw [if_neg (Nat.not_lt_zero _)]
  iintro %_ HI
  unfold invR_16
  icases HI with ⟨Hs4', %fc16, Hr0', %hfc16⟩
  sl_exec
  -- the gather of chunk 19 into row buffer 3
  iapply (gather3 d L 2432 (Nat.le_of_ble_eq_true rfl) _ Tb _ c0 hin) $$ [HT3 Hr3' Hc19 Hsem3]
  · isplitl [HT3]; · iexact HT3
    isplitl [Hr3']; · iexact Hr3'
    isplitl [Hc19]; · iexact Hc19
    iexact Hsem3
  iintro Hfl3
  sl_exec
  -- the wait for the gather of chunk 17
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc17⟩, Hsem1, HO⟩
  sl_exec
  -- the scaling loop of chunk 17
  sl_for (invR_17 d L (gath1 d L 2176 (Nat.le_of_ble_eq_true rfl) Tb _ c0 hin) X4) $$ [Hs4' Hr1']
  case region => intro k _; exact trip_r_17 d L _ X4 k
  · unfold invR_17
    isplitl [Hs4']; · iexact Hs4'
    iexists _; isplitl [Hr1']; · iexact Hr1'
    ipureintro; intro x; rw [if_neg (Nat.not_lt_zero _)]
  iintro %_ HI
  unfold invR_17
  icases HI with ⟨Hs4', %fc17, Hr1', %hfc17⟩
  sl_exec
  -- the gather of chunk 20 into row buffer 0
  iapply (gather0 d L 2560 (Nat.le_of_ble_eq_true rfl) _ Tb _ c0 hin) $$ [HT0 Hr0' Hc20 Hsem0]
  · isplitl [HT0]; · iexact HT0
    isplitl [Hr0']; · iexact Hr0'
    isplitl [Hc20]; · iexact Hc20
    iexact Hsem0
  iintro Hfl0
  sl_exec
  -- the wait for the gather of chunk 18
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc18⟩, Hsem2, HO⟩
  sl_exec
  -- the scaling loop of chunk 18
  sl_for (invR_18 d L (gath2 d L 2304 (Nat.le_of_ble_eq_true rfl) Tb _ c0 hin) X4) $$ [Hs4' Hr2']
  case region => intro k _; exact trip_r_18 d L _ X4 k
  · unfold invR_18
    isplitl [Hs4']; · iexact Hs4'
    iexists _; isplitl [Hr2']; · iexact Hr2'
    ipureintro; intro x; rw [if_neg (Nat.not_lt_zero _)]
  iintro %_ HI
  unfold invR_18
  icases HI with ⟨Hs4', %fc18, Hr2', %hfc18⟩
  sl_exec
  -- the gather of chunk 21 into row buffer 1
  iapply (gather1 d L 2688 (Nat.le_of_ble_eq_true rfl) _ Tb _ c0 hin) $$ [HT1 Hr1' Hc21 Hsem1]
  · isplitl [HT1]; · iexact HT1
    isplitl [Hr1']; · iexact Hr1'
    isplitl [Hc21]; · iexact Hc21
    iexact Hsem1
  iintro Hfl1
  sl_exec
  -- the wait for the gather of chunk 19
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc19⟩, Hsem3, HO⟩
  sl_exec
  -- the scaling loop of chunk 19
  sl_for (invR_19 d L (gath3 d L 2432 (Nat.le_of_ble_eq_true rfl) Tb _ c0 hin) X4) $$ [Hs4' Hr3']
  case region => intro k _; exact trip_r_19 d L _ X4 k
  · unfold invR_19
    isplitl [Hs4']; · iexact Hs4'
    iexists _; isplitl [Hr3']; · iexact Hr3'
    ipureintro; intro x; rw [if_neg (Nat.not_lt_zero _)]
  iintro %_ HI
  unfold invR_19
  icases HI with ⟨Hs4', %fc19, Hr3', %hfc19⟩
  sl_exec
  -- the gather of chunk 22 into row buffer 2
  iapply (gather2 d L 2816 (Nat.le_of_ble_eq_true rfl) _ Tb _ c0 hin) $$ [HT2 Hr2' Hc22 Hsem2]
  · isplitl [HT2]; · iexact HT2
    isplitl [Hr2']; · iexact Hr2'
    isplitl [Hc22]; · iexact Hc22
    iexact Hsem2
  iintro Hfl2
  sl_exec
  -- the wait for the gather of chunk 20
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc20⟩, Hsem0, HO⟩
  sl_exec
  -- the scaling loop of chunk 20
  sl_for (invR_20 d L (gath0 d L 2560 (Nat.le_of_ble_eq_true rfl) Tb _ c0 hin) X4) $$ [Hs4' Hr0']
  case region => intro k _; exact trip_r_20 d L _ X4 k
  · unfold invR_20
    isplitl [Hs4']; · iexact Hs4'
    iexists _; isplitl [Hr0']; · iexact Hr0'
    ipureintro; intro x; rw [if_neg (Nat.not_lt_zero _)]
  iintro %_ HI
  unfold invR_20
  icases HI with ⟨Hs4', %fc20, Hr0', %hfc20⟩
  sl_exec
  -- the gather of chunk 23 into row buffer 3
  iapply (gather3 d L 2944 (Nat.le_of_ble_eq_true rfl) _ Tb _ c0 hin) $$ [HT3 Hr3' Hc23 Hsem3]
  · isplitl [HT3]; · iexact HT3
    isplitl [Hr3']; · iexact Hr3'
    isplitl [Hc23]; · iexact Hc23
    iexact Hsem3
  iintro Hfl3
  sl_exec
  -- the wait for the gather of chunk 21
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc21⟩, Hsem1, HO⟩
  sl_exec
  -- the scaling loop of chunk 21
  sl_for (invR_21 d L (gath1 d L 2688 (Nat.le_of_ble_eq_true rfl) Tb _ c0 hin) X4) $$ [Hs4' Hr1']
  case region => intro k _; exact trip_r_21 d L _ X4 k
  · unfold invR_21
    isplitl [Hs4']; · iexact Hs4'
    iexists _; isplitl [Hr1']; · iexact Hr1'
    ipureintro; intro x; rw [if_neg (Nat.not_lt_zero _)]
  iintro %_ HI
  unfold invR_21
  icases HI with ⟨Hs4', %fc21, Hr1', %hfc21⟩
  sl_exec
  -- the gather of chunk 24 into row buffer 0
  iapply (gather0 d L 3072 (Nat.le_of_ble_eq_true rfl) _ Tb _ c0 hin) $$ [HT0 Hr0' Hc24 Hsem0]
  · isplitl [HT0]; · iexact HT0
    isplitl [Hr0']; · iexact Hr0'
    isplitl [Hc24]; · iexact Hc24
    iexact Hsem0
  iintro Hfl0
  sl_exec
  -- the wait for the gather of chunk 22
  iapply (Transfers.wp_waitLocalO countersEmb 𝒱₀ (V d (cV L) (jV L)) none (default : HIx 1) (rfl : (r2V).view.dmaCredit = _)) $$ [Hfl2 HO]
  · isplitl [Hfl2]; · iexact Hfl2
    isplitl [HO]; · iexact HO
    iapply (Transfers.MayWaits.elim (SemLoc.dma cc0_scratch11.sem)) $$ Hmw
  iintro ⟨⟨Hr2', HT2, Hc22⟩, Hsem2, HO⟩
  sl_exec
  -- the scaling loop of chunk 22
  sl_for (invR_22 d L (gath2 d L 2816 (Nat.le_of_ble_eq_true rfl) Tb _ c0 hin) X4) $$ [Hs4' Hr2']
  case region => intro k _; exact trip_r_22 d L _ X4 k
  · unfold invR_22
    isplitl [Hs4']; · iexact Hs4'
    iexists _; isplitl [Hr2']; · iexact Hr2'
    ipureintro; intro x; rw [if_neg (Nat.not_lt_zero _)]
  iintro %_ HI
  unfold invR_22
  icases HI with ⟨Hs4', %fc22, Hr2', %hfc22⟩
  sl_exec
  -- the gather of chunk 25 into row buffer 1
  iapply (gather1 d L 3200 (Nat.le_of_ble_eq_true rfl) _ Tb _ c0 hin) $$ [HT1 Hr1' Hc25 Hsem1]
  · isplitl [HT1]; · iexact HT1
    isplitl [Hr1']; · iexact Hr1'
    isplitl [Hc25]; · iexact Hc25
    iexact Hsem1
  iintro Hfl1
  sl_exec
  -- the wait for the gather of chunk 23
  iapply (Transfers.wp_waitLocalO countersEmb 𝒱₀ (V d (cV L) (jV L)) none (default : HIx 1) (rfl : (r3V).view.dmaCredit = _)) $$ [Hfl3 HO]
  · isplitl [Hfl3]; · iexact Hfl3
    isplitl [HO]; · iexact HO
    iapply (Transfers.MayWaits.elim (SemLoc.dma cc0_scratch12.sem)) $$ Hmw
  iintro ⟨⟨Hr3', HT3, Hc23⟩, Hsem3, HO⟩
  sl_exec
  -- the scaling loop of chunk 23
  sl_for (invR_23 d L (gath3 d L 2944 (Nat.le_of_ble_eq_true rfl) Tb _ c0 hin) X4) $$ [Hs4' Hr3']
  case region => intro k _; exact trip_r_23 d L _ X4 k
  · unfold invR_23
    isplitl [Hs4']; · iexact Hs4'
    iexists _; isplitl [Hr3']; · iexact Hr3'
    ipureintro; intro x; rw [if_neg (Nat.not_lt_zero _)]
  iintro %_ HI
  unfold invR_23
  icases HI with ⟨Hs4', %fc23, Hr3', %hfc23⟩
  sl_exec
  -- the wait for the gather of chunk 24
  iapply (Transfers.wp_waitLocalO countersEmb 𝒱₀ (V d (cV L) (jV L)) none (default : HIx 1) (rfl : (r0V).view.dmaCredit = _)) $$ [Hfl0 HO]
  · isplitl [Hfl0]; · iexact Hfl0
    isplitl [HO]; · iexact HO
    iapply (Transfers.MayWaits.elim (SemLoc.dma cc0_scratch9.sem)) $$ Hmw
  iintro ⟨⟨Hr0', HT0, Hc24⟩, Hsem0, HO⟩
  sl_exec
  -- the scaling loop of chunk 24
  sl_for (invR_24 d L (gath0 d L 3072 (Nat.le_of_ble_eq_true rfl) Tb _ c0 hin) X4) $$ [Hs4' Hr0']
  case region => intro k _; exact trip_r_24 d L _ X4 k
  · unfold invR_24
    isplitl [Hs4']; · iexact Hs4'
    iexists _; isplitl [Hr0']; · iexact Hr0'
    ipureintro; intro x; rw [if_neg (Nat.not_lt_zero _)]
  iintro %_ HI
  unfold invR_24
  icases HI with ⟨Hs4', %fc24, Hr0', %hfc24⟩
  sl_exec
  -- the wait for the gather of chunk 25
  iapply (Transfers.wp_waitLocalO countersEmb 𝒱₀ (V d (cV L) (jV L)) none (default : HIx 1) (rfl : (r1V).view.dmaCredit = _)) $$ [Hfl1 HO]
  · isplitl [Hfl1]; · iexact Hfl1
    isplitl [HO]; · iexact HO
    iapply (Transfers.MayWaits.elim (SemLoc.dma cc0_scratch10.sem)) $$ Hmw
  iintro ⟨⟨Hr1', HT1, Hc25⟩, Hsem1, HO⟩
  sl_exec
  -- the scaling loop of chunk 25
  sl_for (invR_25 d L (gath1 d L 3200 (Nat.le_of_ble_eq_true rfl) Tb _ c0 hin) X4) $$ [Hs4' Hr1']
  case region => intro k _; exact trip_r_25 d L _ X4 k
  · unfold invR_25
    isplitl [Hs4']; · iexact Hs4'
    iexists _; isplitl [Hr1']; · iexact Hr1'
    ipureintro; intro x; rw [if_neg (Nat.not_lt_zero _)]
  iintro %_ HI
  unfold invR_25
  icases HI with ⟨Hs4', %fc25, Hr1', %hfc25⟩
  sl_exec
  sl_step
  -- the table's share whole again
  ihave HTl := (pointsTo_share (PosShare.mem_left_op_right qT.left)).2 $$ [HT0 HT1]
  · isplitl [HT0]; · iexact HT0
    iexact HT1
  ihave HTr := (pointsTo_share (PosShare.mem_left_op_right qT.right)).2 $$ [HT2 HT3]
  · isplitl [HT2]; · iexact HT2
    iexact HT3
  ihave HT := (pointsTo_share (PosShare.mem_left_op_right qT)).2 $$ [HTl HTr]
  · isplitl [HTl]; · iexact HTl
    iexact HTr
  -- each column block holds the second-order result's values
  ihave He0 := (Entails.of_eq (pointsTo_writes_congr d L (e2Blk0 L) fullShare _ (E2 Tb I2 XV) (tile_body.sl.dma0_5 d L fc0)
      (fun x => e2_block_val d L Tb I2 XV c0 X4 hc0v hX4v 0 (by decide) _ fc0 (gath0_apply d L 0 (Nat.le_of_ble_eq_true rfl) Tb _ c0 hin) hfc0 _ (k0_off13_eq L) _ x))) $$ He0
  ihave He1 := (Entails.of_eq (pointsTo_writes_congr d L (e2Blk1 L) fullShare _ (E2 Tb I2 XV) (tile_body.sl.dma0_6 d L fc1)
      (fun x => e2_block_val d L Tb I2 XV c0 X4 hc0v hX4v 1 (by decide) _ fc1 (gath1_apply d L 128 (Nat.le_of_ble_eq_true rfl) Tb _ c0 hin) hfc1 _ (k0_off22_eq L) _ x))) $$ He1
  ihave He2 := (Entails.of_eq (pointsTo_writes_congr d L (e2Blk2 L) fullShare _ (E2 Tb I2 XV) (tile_body.sl.dma0_7 d L fc2)
      (fun x => e2_block_val d L Tb I2 XV c0 X4 hc0v hX4v 2 (by decide) _ fc2 (gath2_apply d L 256 (Nat.le_of_ble_eq_true rfl) Tb _ c0 hin) hfc2 _ (k0_off31_eq L) _ x))) $$ He2
  ihave He3 := (Entails.of_eq (pointsTo_writes_congr d L (e2Blk3 L) fullShare _ (E2 Tb I2 XV) (tile_body.sl.dma0_8 d L fc3)
      (fun x => e2_block_val d L Tb I2 XV c0 X4 hc0v hX4v 3 (by decide) _ fc3 (gath3_apply d L 384 (Nat.le_of_ble_eq_true rfl) Tb _ c0 hin) hfc3 _ (k0_off40_eq L) _ x))) $$ He3
  ihave He4 := (Entails.of_eq (pointsTo_writes_congr d L (e2Blk4 L) fullShare _ (E2 Tb I2 XV) (tile_body.sl.dma0_9 d L fc4)
      (fun x => e2_block_val d L Tb I2 XV c0 X4 hc0v hX4v 4 (by decide) _ fc4 (gath0_apply d L 512 (Nat.le_of_ble_eq_true rfl) Tb _ c0 hin) hfc4 _ (k0_off49_eq L) _ x))) $$ He4
  ihave He5 := (Entails.of_eq (pointsTo_writes_congr d L (e2Blk5 L) fullShare _ (E2 Tb I2 XV) (tile_body.sl.dma0_10 d L fc5)
      (fun x => e2_block_val d L Tb I2 XV c0 X4 hc0v hX4v 5 (by decide) _ fc5 (gath1_apply d L 640 (Nat.le_of_ble_eq_true rfl) Tb _ c0 hin) hfc5 _ (k0_off58_eq L) _ x))) $$ He5
  ihave He6 := (Entails.of_eq (pointsTo_writes_congr d L (e2Blk6 L) fullShare _ (E2 Tb I2 XV) (tile_body.sl.dma0_11 d L fc6)
      (fun x => e2_block_val d L Tb I2 XV c0 X4 hc0v hX4v 6 (by decide) _ fc6 (gath2_apply d L 768 (Nat.le_of_ble_eq_true rfl) Tb _ c0 hin) hfc6 _ (k0_off67_eq L) _ x))) $$ He6
  ihave He7 := (Entails.of_eq (pointsTo_writes_congr d L (e2Blk7 L) fullShare _ (E2 Tb I2 XV) (tile_body.sl.dma0_12 d L fc7)
      (fun x => e2_block_val d L Tb I2 XV c0 X4 hc0v hX4v 7 (by decide) _ fc7 (gath3_apply d L 896 (Nat.le_of_ble_eq_true rfl) Tb _ c0 hin) hfc7 _ (k0_off76_eq L) _ x))) $$ He7
  ihave He8 := (Entails.of_eq (pointsTo_writes_congr d L (e2Blk8 L) fullShare _ (E2 Tb I2 XV) (tile_body.sl.dma0_13 d L fc8)
      (fun x => e2_block_val d L Tb I2 XV c0 X4 hc0v hX4v 8 (by decide) _ fc8 (gath0_apply d L 1024 (Nat.le_of_ble_eq_true rfl) Tb _ c0 hin) hfc8 _ (k0_off85_eq L) _ x))) $$ He8
  ihave He9 := (Entails.of_eq (pointsTo_writes_congr d L (e2Blk9 L) fullShare _ (E2 Tb I2 XV) (tile_body.sl.dma0_14 d L fc9)
      (fun x => e2_block_val d L Tb I2 XV c0 X4 hc0v hX4v 9 (by decide) _ fc9 (gath1_apply d L 1152 (Nat.le_of_ble_eq_true rfl) Tb _ c0 hin) hfc9 _ (k0_off94_eq L) _ x))) $$ He9
  ihave He10 := (Entails.of_eq (pointsTo_writes_congr d L (e2Blk10 L) fullShare _ (E2 Tb I2 XV) (tile_body.sl.dma0_15 d L fc10)
      (fun x => e2_block_val d L Tb I2 XV c0 X4 hc0v hX4v 10 (by decide) _ fc10 (gath2_apply d L 1280 (Nat.le_of_ble_eq_true rfl) Tb _ c0 hin) hfc10 _ (k0_off103_eq L) _ x))) $$ He10
  ihave He11 := (Entails.of_eq (pointsTo_writes_congr d L (e2Blk11 L) fullShare _ (E2 Tb I2 XV) (tile_body.sl.dma0_16 d L fc11)
      (fun x => e2_block_val d L Tb I2 XV c0 X4 hc0v hX4v 11 (by decide) _ fc11 (gath3_apply d L 1408 (Nat.le_of_ble_eq_true rfl) Tb _ c0 hin) hfc11 _ (k0_off112_eq L) _ x))) $$ He11
  ihave He12 := (Entails.of_eq (pointsTo_writes_congr d L (e2Blk12 L) fullShare _ (E2 Tb I2 XV) (tile_body.sl.dma0_17 d L fc12)
      (fun x => e2_block_val d L Tb I2 XV c0 X4 hc0v hX4v 12 (by decide) _ fc12 (gath0_apply d L 1536 (Nat.le_of_ble_eq_true rfl) Tb _ c0 hin) hfc12 _ (k0_off121_eq L) _ x))) $$ He12
  ihave He13 := (Entails.of_eq (pointsTo_writes_congr d L (e2Blk13 L) fullShare _ (E2 Tb I2 XV) (tile_body.sl.dma0_18 d L fc13)
      (fun x => e2_block_val d L Tb I2 XV c0 X4 hc0v hX4v 13 (by decide) _ fc13 (gath1_apply d L 1664 (Nat.le_of_ble_eq_true rfl) Tb _ c0 hin) hfc13 _ (k0_off130_eq L) _ x))) $$ He13
  ihave He14 := (Entails.of_eq (pointsTo_writes_congr d L (e2Blk14 L) fullShare _ (E2 Tb I2 XV) (tile_body.sl.dma0_19 d L fc14)
      (fun x => e2_block_val d L Tb I2 XV c0 X4 hc0v hX4v 14 (by decide) _ fc14 (gath2_apply d L 1792 (Nat.le_of_ble_eq_true rfl) Tb _ c0 hin) hfc14 _ (k0_off139_eq L) _ x))) $$ He14
  ihave He15 := (Entails.of_eq (pointsTo_writes_congr d L (e2Blk15 L) fullShare _ (E2 Tb I2 XV) (tile_body.sl.dma0_20 d L fc15)
      (fun x => e2_block_val d L Tb I2 XV c0 X4 hc0v hX4v 15 (by decide) _ fc15 (gath3_apply d L 1920 (Nat.le_of_ble_eq_true rfl) Tb _ c0 hin) hfc15 _ (k0_off148_eq L) _ x))) $$ He15
  ihave He16 := (Entails.of_eq (pointsTo_writes_congr d L (e2Blk16 L) fullShare _ (E2 Tb I2 XV) (tile_body.sl.dma0_21 d L fc16)
      (fun x => e2_block_val d L Tb I2 XV c0 X4 hc0v hX4v 16 (by decide) _ fc16 (gath0_apply d L 2048 (Nat.le_of_ble_eq_true rfl) Tb _ c0 hin) hfc16 _ (k0_off157_eq L) _ x))) $$ He16
  ihave He17 := (Entails.of_eq (pointsTo_writes_congr d L (e2Blk17 L) fullShare _ (E2 Tb I2 XV) (tile_body.sl.dma0_22 d L fc17)
      (fun x => e2_block_val d L Tb I2 XV c0 X4 hc0v hX4v 17 (by decide) _ fc17 (gath1_apply d L 2176 (Nat.le_of_ble_eq_true rfl) Tb _ c0 hin) hfc17 _ (k0_off166_eq L) _ x))) $$ He17
  ihave He18 := (Entails.of_eq (pointsTo_writes_congr d L (e2Blk18 L) fullShare _ (E2 Tb I2 XV) (tile_body.sl.dma0_23 d L fc18)
      (fun x => e2_block_val d L Tb I2 XV c0 X4 hc0v hX4v 18 (by decide) _ fc18 (gath2_apply d L 2304 (Nat.le_of_ble_eq_true rfl) Tb _ c0 hin) hfc18 _ (k0_off175_eq L) _ x))) $$ He18
  ihave He19 := (Entails.of_eq (pointsTo_writes_congr d L (e2Blk19 L) fullShare _ (E2 Tb I2 XV) (tile_body.sl.dma0_24 d L fc19)
      (fun x => e2_block_val d L Tb I2 XV c0 X4 hc0v hX4v 19 (by decide) _ fc19 (gath3_apply d L 2432 (Nat.le_of_ble_eq_true rfl) Tb _ c0 hin) hfc19 _ (k0_off184_eq L) _ x))) $$ He19
  ihave He20 := (Entails.of_eq (pointsTo_writes_congr d L (e2Blk20 L) fullShare _ (E2 Tb I2 XV) (tile_body.sl.dma0_25 d L fc20)
      (fun x => e2_block_val d L Tb I2 XV c0 X4 hc0v hX4v 20 (by decide) _ fc20 (gath0_apply d L 2560 (Nat.le_of_ble_eq_true rfl) Tb _ c0 hin) hfc20 _ (k0_off193_eq L) _ x))) $$ He20
  ihave He21 := (Entails.of_eq (pointsTo_writes_congr d L (e2Blk21 L) fullShare _ (E2 Tb I2 XV) (tile_body.sl.dma0_26 d L fc21)
      (fun x => e2_block_val d L Tb I2 XV c0 X4 hc0v hX4v 21 (by decide) _ fc21 (gath1_apply d L 2688 (Nat.le_of_ble_eq_true rfl) Tb _ c0 hin) hfc21 _ (k0_off202_eq L) _ x))) $$ He21
  ihave He22 := (Entails.of_eq (pointsTo_writes_congr d L (e2Blk22 L) fullShare _ (E2 Tb I2 XV) (tile_body.sl.dma0_27 d L fc22)
      (fun x => e2_block_val d L Tb I2 XV c0 X4 hc0v hX4v 22 (by decide) _ fc22 (gath2_apply d L 2816 (Nat.le_of_ble_eq_true rfl) Tb _ c0 hin) hfc22 _ (k0_off211_eq L) _ x))) $$ He22
  ihave He23 := (Entails.of_eq (pointsTo_writes_congr d L (e2Blk23 L) fullShare _ (E2 Tb I2 XV) (tile_body.sl.dma0_28 d L fc23)
      (fun x => e2_block_val d L Tb I2 XV c0 X4 hc0v hX4v 23 (by decide) _ fc23 (gath3_apply d L 2944 (Nat.le_of_ble_eq_true rfl) Tb _ c0 hin) hfc23 _ (k0_off220_eq L) _ x))) $$ He23
  ihave He24 := (Entails.of_eq (pointsTo_writes_congr d L (e2Blk24 L) fullShare _ (E2 Tb I2 XV) (tile_body.sl.dma0_29 d L fc24)
      (fun x => e2_block_val d L Tb I2 XV c0 X4 hc0v hX4v 24 (by decide) _ fc24 (gath0_apply d L 3072 (Nat.le_of_ble_eq_true rfl) Tb _ c0 hin) hfc24 _ (k0_off229_eq L) _ x))) $$ He24
  ihave He25 := (Entails.of_eq (pointsTo_writes_congr d L (e2Blk25 L) fullShare _ (E2 Tb I2 XV) (tile_body.sl.dma0_30 d L fc25)
      (fun x => e2_block_val d L Tb I2 XV c0 X4 hc0v hX4v 25 (by decide) _ fc25 (gath1_apply d L 3200 (Nat.le_of_ble_eq_true rfl) Tb _ c0 hin) hfc25 _ (k0_off238_eq L) _ x))) $$ He25
  ihave HE2 := (Entails.of_eq (e2_split d L (E2 Tb I2 XV)).symm) $$ [He0 He1 He2 He3 He4 He5 He6 He7 He8 He9 He10 He11 He12 He13 He14 He15 He16 He17 He18 He19 He20 He21 He22 He23 He24 He25]
  · isplitl [He0]; · iexact He0
    isplitl [He1]; · iexact He1
    isplitl [He2]; · iexact He2
    isplitl [He3]; · iexact He3
    isplitl [He4]; · iexact He4
    isplitl [He5]; · iexact He5
    isplitl [He6]; · iexact He6
    isplitl [He7]; · iexact He7
    isplitl [He8]; · iexact He8
    isplitl [He9]; · iexact He9
    isplitl [He10]; · iexact He10
    isplitl [He11]; · iexact He11
    isplitl [He12]; · iexact He12
    isplitl [He13]; · iexact He13
    isplitl [He14]; · iexact He14
    isplitl [He15]; · iexact He15
    isplitl [He16]; · iexact He16
    isplitl [He17]; · iexact He17
    isplitl [He18]; · iexact He18
    isplitl [He19]; · iexact He19
    isplitl [He20]; · iexact He20
    isplitl [He21]; · iexact He21
    isplitl [He22]; · iexact He22
    isplitl [He23]; · iexact He23
    isplitl [He24]; · iexact He24
    iexact He25
  -- the first-order result's slice holds its values
  ihave HSO := (Entails.of_eq (pointsTo_writes_congr d L (soSl L) fullShare _ (SS IS WF) (tile_body.sl.dma0_4 d L f3')
      (fun x => so_val d L IS WF c1 c2 hc1v hc2v f3' hf3 x))) $$ HSO'
  -- the index scratch whole again
  ihave Hs0 := (Entails.of_eq (s0_split d L c0).symm) $$ [Hc0 Hc1 Hc2 Hc3 Hc4 Hc5 Hc6 Hc7 Hc8 Hc9 Hc10 Hc11 Hc12 Hc13 Hc14 Hc15 Hc16 Hc17 Hc18 Hc19 Hc20 Hc21 Hc22 Hc23 Hc24 Hc25]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    isplitl [Hc15]; · iexact Hc15
    isplitl [Hc16]; · iexact Hc16
    isplitl [Hc17]; · iexact Hc17
    isplitl [Hc18]; · iexact Hc18
    isplitl [Hc19]; · iexact Hc19
    isplitl [Hc20]; · iexact Hc20
    isplitl [Hc21]; · iexact Hc21
    isplitl [Hc22]; · iexact Hc22
    isplitl [Hc23]; · iexact Hc23
    isplitl [Hc24]; · iexact Hc24
    iexact Hc25
  -- what the task hands back
  isplitl [HT HWF' HI2' HXV' HIS' HE2 HSO]
  · unfold TD
    isplitl [HT]; · iexact HT
    isplitl [HWF']; · iexact HWF'
    isplitl [HI2']; · iexact HI2'
    isplitl [HXV']; · iexact HXV'
    isplitl [HIS']; · iexact HIS'
    isplitl [HE2]; · iexact HE2
    iexact HSO
  isplitl [Hs0 Hs1' Hs2' Hs3' Hs4' Hr0' Hr1' Hr2' Hr3' Hbufs]
  · isplitl [Hs0 Hs1' Hs2' Hs3' Hs4' Hr0' Hr1' Hr2' Hr3']
    · isplitl [Hs0]; · iexists _; iexact Hs0
      isplitl [Hs1']; · iexists _; iexact Hs1'
      isplitl [Hs2']; · iexists _; iexact Hs2'
      isplitl [Hs3']; · iexists _; iexact Hs3'
      isplitl [Hs4']; · iexists _; iexact Hs4'
      isplitl [Hr0']; · iexists _; iexact Hr0'
      isplitl [Hr1']; · iexists _; iexact Hr1'
      isplitl [Hr2']; · iexists _; iexact Hr2'
      iexists _; iexact Hr3'
    iexact Hbufs
  isplitl [Hsem0 Hsem1 Hsem2 Hsem3 Hsem4 Hsem5 Hsem6 Hsem7 Hsem8 Hsem9 Hsem10 Hsem11 Hsem12 Hsems]
  · isplitl [Hsem0 Hsem1 Hsem2 Hsem3 Hsem4 Hsem5 Hsem6 Hsem7 Hsem8 Hsem9 Hsem10 Hsem11 Hsem12]
    · isplitl [Hsem0]; · iexact Hsem0
      isplitl [Hsem1]; · iexact Hsem1
      isplitl [Hsem2]; · iexact Hsem2
      isplitl [Hsem3]; · iexact Hsem3
      isplitl [Hsem4]; · iexact Hsem4
      isplitl [Hsem5]; · iexact Hsem5
      isplitl [Hsem6]; · iexact Hsem6
      isplitl [Hsem7]; · iexact Hsem7
      isplitl [Hsem8]; · iexact Hsem8
      isplitl [Hsem9]; · iexact Hsem9
      isplitl [Hsem10]; · iexact Hsem10
      isplitl [Hsem11]; · iexact Hsem11
      iexact Hsem12
    iexact Hsems
  iexists _; isplitr
  swap; · iexact HO
  ipureintro
  repeat (first | exact fun p hp => Or.inl hp | apply waits_insert)

end Cert.ProofB.ScBody
-- ==== Proof.MlpBody.lean ====
/-
  The dense body's arithmetic read at an index, on the extended reals.

  What the body stores at row p of its output block is the three-layer row formula over the blocks it loads:
  a change of float format is the identity, a matrix product into a zero accumulator is the plain finite sum over
  the contracted axis, a row vector broadcast over the rows reads its one row, and a reshape to the same shape
  is the identity.
-/
import proofs.«207592_g65111704207794_cont_9to1_m_407_36_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Proof.MlpBody

open Cert.KernelIdeal Cert.KernelIdeal.Gen Idealize.ShloMosaic Idealize.ShloMosaic.ValueIdx

/-! ### The product [512, 3328] × [3328, 1024] -/

theorem lhs0_e2 (i : S512x1024.Idx) (q : dot_S512x3328_S3328x1024_S512x1024_1_0_0_1_n_n.contr.Idx) : (dot_S512x3328_S3328x1024_S512x1024_1_0_0_1_n_n.lhsIdx i q 0).val = (i 0).val := by
  unfold DotDims.lhsIdx
  rw [dif_neg (show ¬(0 : Fin S512x3328.rank) ∈ dot_S512x3328_S3328x1024_S512x1024_1_0_0_1_n_n.lhsBatch by decide),
    dif_pos (show (0 : Fin S512x3328.rank) ∈ dot_S512x3328_S3328x1024_S512x1024_1_0_0_1_n_n.lhsNonContracting by decide)]
  rfl

theorem rhs1_e2 (i : S512x1024.Idx) (q : dot_S512x3328_S3328x1024_S512x1024_1_0_0_1_n_n.contr.Idx) : (dot_S512x3328_S3328x1024_S512x1024_1_0_0_1_n_n.rhsIdx i q 1).val = (i 1).val := by
  unfold DotDims.rhsIdx
  rw [dif_neg (show ¬(1 : Fin S3328x1024.rank) ∈ dot_S512x3328_S3328x1024_S512x1024_1_0_0_1_n_n.rhsBatch by decide),
    dif_pos (show (1 : Fin S3328x1024.rank) ∈ dot_S512x3328_S3328x1024_S512x1024_1_0_0_1_n_n.rhsNonContracting by decide)]
  rfl

/-- Into a zero accumulator, at (p, i): the sum over the 3328 contracted positions. -/
theorem matmul_e2 {φ₁ φ₂ : FTy} (l : FVec Ideal S512x3328 φ₁) (r : FVec Ideal S3328x1024 φ₂) (p : Fin 512) (i : Fin 1024) :
    matmul (F := Ideal) dot_S512x3328_S3328x1024_S512x1024_1_0_0_1_n_n none l r (constant (F := Ideal) S512x1024 .f32 0x00000000#32) (ix2 p i)
      = ∑ k : Fin 3328, l (ix2 p k) * r (ix2 k i) := by
  simp only [matmul]
  rw [Ideal.matmul_constant_zero_apply, ← Equiv.sum_comp (contrEquiv1 dot_S512x3328_S3328x1024_S512x1024_1_0_0_1_n_n 3328 rfl rfl).symm]
  refine Finset.sum_congr rfl fun k _ => ?_
  have hk := contrEquiv1_symm_val dot_S512x3328_S3328x1024_S512x1024_1_0_0_1_n_n 3328 rfl rfl k
  have el : dot_S512x3328_S3328x1024_S512x1024_1_0_0_1_n_n.lhsIdx (ix2 p i) ((contrEquiv1 dot_S512x3328_S3328x1024_S512x1024_1_0_0_1_n_n 3328 rfl rfl).symm k) = ix2 p k := funext fun a => Fin.ext (by
    match a with
    | ⟨0, _⟩ => exact lhs0_e2 _ _
    | ⟨1, _⟩ => exact (dot_S512x3328_S3328x1024_S512x1024_1_0_0_1_n_n.lhsIdx_val_of_single rfl _ _).trans hk)
  have er : dot_S512x3328_S3328x1024_S512x1024_1_0_0_1_n_n.rhsIdx (ix2 p i) ((contrEquiv1 dot_S512x3328_S3328x1024_S512x1024_1_0_0_1_n_n 3328 rfl rfl).symm k) = ix2 k i := funext fun a => Fin.ext (by
    match a with
    | ⟨0, _⟩ => exact (dot_S512x3328_S3328x1024_S512x1024_1_0_0_1_n_n.rhsIdx_val_of_single rfl _ _).trans hk
    | ⟨1, _⟩ => exact rhs1_e2 _ _)
  rw [el, er]

/-! ### The product [512, 32] × [32, 1024] -/

theorem lhs0_sx (i : S512x1024.Idx) (q : dot_S512x32_S32x1024_S512x1024_1_0_0_1_n_n.contr.Idx) : (dot_S512x32_S32x1024_S512x1024_1_0_0_1_n_n.lhsIdx i q 0).val = (i 0).val := by
  unfold DotDims.lhsIdx
  rw [dif_neg (show ¬(0 : Fin S512x32.rank) ∈ dot_S512x32_S32x1024_S512x1024_1_0_0_1_n_n.lhsBatch by decide),
    dif_pos (show (0 : Fin S512x32.rank) ∈ dot_S512x32_S32x1024_S512x1024_1_0_0_1_n_n.lhsNonContracting by decide)]
  rfl

theorem rhs1_sx (i : S512x1024.Idx) (q : dot_S512x32_S32x1024_S512x1024_1_0_0_1_n_n.contr.Idx) : (dot_S512x32_S32x1024_S512x1024_1_0_0_1_n_n.rhsIdx i q 1).val = (i 1).val := by
  unfold DotDims.rhsIdx
  rw [dif_neg (show ¬(1 : Fin S32x1024.rank) ∈ dot_S512x32_S32x1024_S512x1024_1_0_0_1_n_n.rhsBatch by decide),
    dif_pos (show (1 : Fin S32x1024.rank) ∈ dot_S512x32_S32x1024_S512x1024_1_0_0_1_n_n.rhsNonContracting by decide)]
  rfl

/-- Into a zero accumulator, at (p, i): the sum over the 32 contracted positions. -/
theorem matmul_sx {φ₁ φ₂ : FTy} (l : FVec Ideal S512x32 φ₁) (r : FVec Ideal S32x1024 φ₂) (p : Fin 512) (i : Fin 1024) :
    matmul (F := Ideal) dot_S512x32_S32x1024_S512x1024_1_0_0_1_n_n none l r (constant (F := Ideal) S512x1024 .f32 0x00000000#32) (ix2 p i)
      = ∑ k : Fin 32, l (ix2 p k) * r (ix2 k i) := by
  simp only [matmul]
  rw [Ideal.matmul_constant_zero_apply, ← Equiv.sum_comp (contrEquiv1 dot_S512x32_S32x1024_S512x1024_1_0_0_1_n_n 32 rfl rfl).symm]
  refine Finset.sum_congr rfl fun k _ => ?_
  have hk := contrEquiv1_symm_val dot_S512x32_S32x1024_S512x1024_1_0_0_1_n_n 32 rfl rfl k
  have el : dot_S512x32_S32x1024_S512x1024_1_0_0_1_n_n.lhsIdx (ix2 p i) ((contrEquiv1 dot_S512x32_S32x1024_S512x1024_1_0_0_1_n_n 32 rfl rfl).symm k) = ix2 p k := funext fun a => Fin.ext (by
    match a with
    | ⟨0, _⟩ => exact lhs0_sx _ _
    | ⟨1, _⟩ => exact (dot_S512x32_S32x1024_S512x1024_1_0_0_1_n_n.lhsIdx_val_of_single rfl _ _).trans hk)
  have er : dot_S512x32_S32x1024_S512x1024_1_0_0_1_n_n.rhsIdx (ix2 p i) ((contrEquiv1 dot_S512x32_S32x1024_S512x1024_1_0_0_1_n_n 32 rfl rfl).symm k) = ix2 k i := funext fun a => Fin.ext (by
    match a with
    | ⟨0, _⟩ => exact (dot_S512x32_S32x1024_S512x1024_1_0_0_1_n_n.rhsIdx_val_of_single rfl _ _).trans hk
    | ⟨1, _⟩ => exact rhs1_sx _ _)
  rw [el, er]

/-! ### The product [512, 1024] × [1024, 512] -/

theorem lhs0_h1 (i : S512x512.Idx) (q : dot_S512x1024_S1024x512_S512x512_1_0_0_1_n_n.contr.Idx) : (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl

theorem rhs1_h1 (i : S512x512.Idx) (q : dot_S512x1024_S1024x512_S512x512_1_0_0_1_n_n.contr.Idx) : (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- Into a zero accumulator, at (p, i): the sum over the 1024 contracted positions. -/
theorem matmul_h1 {φ₁ φ₂ : FTy} (l : FVec Ideal S512x1024 φ₁) (r : FVec Ideal S1024x512 φ₂) (p : Fin 512) (i : Fin 512) :
    matmul (F := Ideal) dot_S512x1024_S1024x512_S512x512_1_0_0_1_n_n none l r (constant (F := Ideal) S512x512 .f32 0x00000000#32) (ix2 p i)
      = ∑ k : Fin 1024, l (ix2 p k) * r (ix2 k i) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p i) ((contrEquiv1 dot_S512x1024_S1024x512_S512x512_1_0_0_1_n_n 1024 rfl rfl).symm k) = ix2 p k := funext fun a => Fin.ext (by
    match a with
    | ⟨0, _⟩ => exact lhs0_h1 _ _
    | ⟨1, _⟩ => exact (dot_S512x1024_S1024x512_S512x512_1_0_0_1_n_n.lhsIdx_val_of_single rfl _ _).trans hk)
  have er : dot_S512x1024_S1024x512_S512x512_1_0_0_1_n_n.rhsIdx (ix2 p i) ((contrEquiv1 dot_S512x1024_S1024x512_S512x512_1_0_0_1_n_n 1024 rfl rfl).symm k) = ix2 k i := funext fun a => Fin.ext (by
    match a with
    | ⟨0, _⟩ => exact (dot_S512x1024_S1024x512_S512x512_1_0_0_1_n_n.rhsIdx_val_of_single rfl _ _).trans hk
    | ⟨1, _⟩ => exact rhs1_h1 _ _)
  rw [el, er]

/-! ### The product [512, 512] × [512, 1] -/

theorem lhs0_h2 (i : S512x1.Idx) (q : dot_S512x512_S512x1_S512x1_1_0_0_1_n_n.contr.Idx) : (dot_S512x512_S512x1_S512x1_1_0_0_1_n_n.lhsIdx i q 0).val = (i 0).val := by
  unfold DotDims.lhsIdx
  rw [dif_neg (show ¬(0 : Fin S512x512.rank) ∈ dot_S512x512_S512x1_S512x1_1_0_0_1_n_n.lhsBatch by decide),
    dif_pos (show (0 : Fin S512x512.rank) ∈ dot_S512x512_S512x1_S512x1_1_0_0_1_n_n.lhsNonContracting by decide)]
  rfl

theorem rhs1_h2 (i : S512x1.Idx) (q : dot_S512x512_S512x1_S512x1_1_0_0_1_n_n.contr.Idx) : (dot_S512x512_S512x1_S512x1_1_0_0_1_n_n.rhsIdx i q 1).val = (i 1).val := by
  unfold DotDims.rhsIdx
  rw [dif_neg (show ¬(1 : Fin S512x1.rank) ∈ dot_S512x512_S512x1_S512x1_1_0_0_1_n_n.rhsBatch by decide),
    dif_pos (show (1 : Fin S512x1.rank) ∈ dot_S512x512_S512x1_S512x1_1_0_0_1_n_n.rhsNonContracting by decide)]
  rfl

/-- Into a zero accumulator, at (p, i): the sum over the 512 contracted positions. -/
theorem matmul_h2 {φ₁ φ₂ : FTy} (l : FVec Ideal S512x512 φ₁) (r : FVec Ideal S512x1 φ₂) (p : Fin 512) (i : Fin 1) :
    matmul (F := Ideal) dot_S512x512_S512x1_S512x1_1_0_0_1_n_n none l r (constant (F := Ideal) S512x1 .f32 0x00000000#32) (ix2 p i)
      = ∑ k : Fin 512, l (ix2 p k) * r (ix2 k i) := by
  simp only [matmul]
  rw [Ideal.matmul_constant_zero_apply, ← Equiv.sum_comp (contrEquiv1 dot_S512x512_S512x1_S512x1_1_0_0_1_n_n 512 rfl rfl).symm]
  refine Finset.sum_congr rfl fun k _ => ?_
  have hk := contrEquiv1_symm_val dot_S512x512_S512x1_S512x1_1_0_0_1_n_n 512 rfl rfl k
  have el : dot_S512x512_S512x1_S512x1_1_0_0_1_n_n.lhsIdx (ix2 p i) ((contrEquiv1 dot_S512x512_S512x1_S512x1_1_0_0_1_n_n 512 rfl rfl).symm k) = ix2 p k := funext fun a => Fin.ext (by
    match a with
    | ⟨0, _⟩ => exact lhs0_h2 _ _
    | ⟨1, _⟩ => exact (dot_S512x512_S512x1_S512x1_1_0_0_1_n_n.lhsIdx_val_of_single rfl _ _).trans hk)
  have er : dot_S512x512_S512x1_S512x1_1_0_0_1_n_n.rhsIdx (ix2 p i) ((contrEquiv1 dot_S512x512_S512x1_S512x1_1_0_0_1_n_n 512 rfl rfl).symm k) = ix2 k i := funext fun a => Fin.ext (by
    match a with
    | ⟨0, _⟩ => exact (dot_S512x512_S512x1_S512x1_1_0_0_1_n_n.rhsIdx_val_of_single rfl _ _).trans hk
    | ⟨1, _⟩ => exact rhs1_h2 _ _)
  rw [el, er]

/-! ### The pointwise hyperbolic tangent at an index -/

theorem tanh_at {s : Shape} {φ : FTy} (x : FVec Ideal s φ) (i : s.Idx) : tanh x i = Ideal.tanh (x i) := rfl

/-! ### The stored row -/

/-- THE BODY AT ROW p: what is stored at (p, 0) is the three-layer row formula over the loaded blocks. -/
theorem stored_at (v0 : Vec Ideal S512x3328 .f32) (v3 : Vec Ideal S3328x1024 .bf16) (v6 : Vec Ideal S512x32 .f32)
    (v8 : Vec Ideal S512x32 .f32) (v12 : Vec Ideal S32x1024 .bf16) (v16 : Vec Ideal S1x1024 .f32)
    (v22 : Vec Ideal S1024x512 .bf16) (v25 : Vec Ideal S1x512 .f32) (v31 : Vec Ideal S512x1 .bf16)
    (v34 : Elt Ideal .f32) (p : Fin 512) (z : Fin 1) :
    k1_pay1 (F := Ideal) (k1_pay2 (F := Ideal) v0 v3 v6 v8 v12 v16 v22 v25 v31) v34 (ix2 p z)
      = (∑ j : Fin 512, Ideal.tanh ((∑ i : Fin 1024, Ideal.tanh (((∑ q : Fin 3328, v0 (ix2 p q) * v3 (ix2 q i))
          + ∑ f : Fin 32, (v6 (ix2 p f) * v8 (ix2 p f)) * v12 (ix2 f i)) + v16 (ix2 (0 : Fin 1) i)) * v22 (ix2 i j))
          + v25 (ix2 (0 : Fin 1) j)) * v31 (ix2 j (0 : Fin 1))) + v34 := by
  have hz : z = 0 := Subsingleton.elim _ _
  subst hz
  unfold k1_pay1 k1_pay2
  simp only [shapeCast_self, addf_apply, mulf_apply, truncf_apply, broadcast_apply, tanh_at, matmul_e2, matmul_sx,
    matmul_h1, matmul_h2, broadcastTo_1b_ab_apply]

end Cert.Proof.MlpBody

end
-- ==== Proof.MlpAlgebra.lean ====
/-
  The first layer as the kernel arranges it, against the specification's.

  The kernel adds three pieces: the second-order block times the last 3328 rows of W1, the 32 padded first-order products
  times the 26 rows of W1 after the first (padded with six zero rows), and the bias row b1 + fm_bias · W1[0].
  The specification sums deep b k · W1[k, i] over all 3355 columns and adds b1. The two differ by how one finite sum is
  split and in which order the pieces are added: commutativity and associativity of + on the extended reals, and
  x · 0 = 0 for the six padded columns. No finiteness is used.
-/
import proofs.«207592_g65111704207794_cont_9to1_m_407_36_alg».proof.Proof.Spec

noncomputable section

namespace Cert.Proof.MlpAlgebra

open Idealize.ShloMosaic Idealize.ShloMosaic.ValueIdx Cert.Proof.Spec

/-- A sum over m + n indices is the sum over the first m plus the sum over the last n. -/
theorem sum_split (m n N : Nat) (hN : m + n = N) (g : Fin N → EReal) :
    ∑ k : Fin N, g k = (∑ i : Fin m, g ⟨i.val, by omega⟩) + ∑ j : Fin n, g ⟨m + j.val, by omega⟩ := by
  subst hN
  rw [Fin.sum_univ_add]
  rfl

section
variable (Xi : IVec ⟨3, ![4096, 26, 1]⟩ 32) (Xv : FVec Ideal ⟨2, ![4096, 26]⟩ .f32)
  (fmb : FVec Ideal ⟨1, ![1]⟩ .f32)
  (Wf : FVec Ideal ⟨3, ![26, 1000, 1]⟩ .f32) (Ws : FVec Ideal ⟨3, ![26, 1000, 128]⟩ .f32)
  (W1 : FVec Ideal ⟨2, ![3355, 1024]⟩ .f32) (b1 : FVec Ideal ⟨1, ![1024]⟩ .f32)
  (W2 : FVec Ideal ⟨2, ![1024, 512]⟩ .f32) (b2 : FVec Ideal ⟨1, ![512]⟩ .f32)
  (W3 : FVec Ideal ⟨2, ![512, 1]⟩ .f32) (b3 : FVec Ideal ⟨1, ![1]⟩ .f32)

/-- Column 27 + q of the deep input is the second-order term of field q / 128, component q % 128. -/
theorem deep_tail (b : Fin 4096) (q : Fin 3328) :
    deep Xi Xv fmb Wf Ws b ⟨27 + q.val, by omega⟩
      = second Xi Xv Ws b ⟨q.val / 128, by omega⟩ ⟨q.val % 128, by omega⟩ := by
  unfold deep
  rw [dif_neg (by show ¬(27 + q.val < 1); omega), dif_neg (by show ¬(27 + q.val < 27); omega)]
  congr 1
  · exact Fin.ext (by show (27 + q.val - 27) / 128 = q.val / 128; omega)
  · exact Fin.ext (by show (27 + q.val - 27) % 128 = q.val % 128; omega)

/-- The specification's first-layer sum, split into the bias column, the first-order and the second-order columns. -/
theorem deep_sum_split (b : Fin 4096) (i : Fin 1024) :
    ∑ k : Fin 3355, deep Xi Xv fmb Wf Ws b k * W1 (ix2 k i)
      = (fmb (ix1 0) * W1 (ix2 (⟨0, by omega⟩ : Fin 3355) i)
          + ∑ f : Fin 26, first Xi Xv Wf b f * W1 (ix2 (⟨1 + f.val, by omega⟩ : Fin 3355) i))
        + ∑ q : Fin 3328, second Xi Xv Ws b ⟨q.val / 128, by omega⟩ ⟨q.val % 128, by omega⟩
            * W1 (ix2 (⟨27 + q.val, by omega⟩ : Fin 3355) i) := by
  rw [sum_split 27 3328 3355 rfl, sum_split 1 26 27 rfl, Fin.sum_univ_one]
  refine congrArg₂ (· + ·) (congrArg₂ (· + ·) ?_ ?_) ?_
  · show deep Xi Xv fmb Wf Ws b ⟨0, by omega⟩ * W1 (ix2 (⟨0, by omega⟩ : Fin 3355) i) = _
    rw [deep_zero]
  · refine Finset.sum_congr rfl fun f _ => ?_
    show deep Xi Xv fmb Wf Ws b ⟨1 + f.val, by omega⟩ * W1 (ix2 (⟨1 + f.val, by omega⟩ : Fin 3355) i) = _
    rw [deep_first]
  · refine Finset.sum_congr rfl fun q _ => ?_
    show deep Xi Xv fmb Wf Ws b ⟨27 + q.val, by omega⟩ * W1 (ix2 (⟨27 + q.val, by omega⟩ : Fin 3355) i) = _
    rw [deep_tail]

/-- THE FIRST LAYER: the kernel's three pieces add up to the specification's pre-activation at (b, i). -/
theorem first_layer (b : Fin 4096) (i : Fin 1024)
    (e2 : Fin 3328 → EReal) (s xvp : Fin 32 → EReal) (w1s : Fin 3328 → EReal) (w1m : Fin 32 → EReal) (beff : EReal)
    (he2 : ∀ (f : Fin 26) (e : Fin 128), e2 ⟨f.val * 128 + e.val, by omega⟩ = second Xi Xv Ws b f e)
    (hw1s : ∀ q : Fin 3328, w1s q = W1 (ix2 (⟨27 + q.val, by omega⟩ : Fin 3355) i))
    (hs : ∀ f : Fin 26, s ⟨f.val, by omega⟩ = Wf (ix3 f (row (Xi (ix3 b f 0))) 0))
    (hxv : ∀ f : Fin 26, xvp ⟨f.val, by omega⟩ = Xv (ix2 b f))
    (hw1m : ∀ f : Fin 26, w1m ⟨f.val, by omega⟩ = W1 (ix2 (⟨1 + f.val, by omega⟩ : Fin 3355) i))
    (hw1m0 : ∀ f : Fin 32, 26 ≤ f.val → w1m f = 0)
    (hbeff : beff = b1 (ix1 i) + fmb (ix1 0) * W1 (ix2 (⟨0, by omega⟩ : Fin 3355) i)) :
    ((∑ q : Fin 3328, e2 q * w1s q) + ∑ f : Fin 32, (s f * xvp f) * w1m f) + beff
      = pre1 Xi Xv fmb Wf Ws W1 b1 b i := by
  have hA : ∑ q : Fin 3328, e2 q * w1s q
      = ∑ q : Fin 3328, second Xi Xv Ws b ⟨q.val / 128, by omega⟩ ⟨q.val % 128, by omega⟩
          * W1 (ix2 (⟨27 + q.val, by omega⟩ : Fin 3355) i) :=
    Finset.sum_congr rfl fun q _ => by
      rw [hw1s q, ← he2 ⟨q.val / 128, by omega⟩ ⟨q.val % 128, by omega⟩]
      refine congrArg (fun t => e2 t * _) (Fin.ext ?_)
      show q.val = q.val / 128 * 128 + q.val % 128
      omega
  have hB : ∑ f : Fin 32, (s f * xvp f) * w1m f
      = ∑ f : Fin 26, first Xi Xv Wf b f * W1 (ix2 (⟨1 + f.val, by omega⟩ : Fin 3355) i) := by
    rw [sum_split 26 6 32 rfl]
    have hz : ∑ j : Fin 6, (s ⟨26 + j.val, by omega⟩ * xvp ⟨26 + j.val, by omega⟩) * w1m ⟨26 + j.val, by omega⟩ = 0 :=
      Finset.sum_eq_zero fun j _ => by
        rw [hw1m0 ⟨26 + j.val, by omega⟩ (by show 26 ≤ 26 + j.val; omega), mul_zero]
    rw [hz, add_zero]
    refine Finset.sum_congr rfl fun f _ => ?_
    rw [hs f, hxv f, hw1m f]
    rfl
  rw [hA, hB, hbeff]
  unfold pre1
  rw [deep_sum_split]
  ac_rfl

/-- THE ROW: the kernel's three layers over one row's pieces are the specification's output of that row. -/
theorem mlp_row (b : Fin 4096)
    (e2 : Fin 3328 → EReal) (s xvp : Fin 32 → EReal)
    (w1s : Fin 3328 → Fin 1024 → EReal) (w1m : Fin 32 → Fin 1024 → EReal) (beff : Fin 1024 → EReal)
    (w2 : Fin 1024 → Fin 512 → EReal) (c2 : Fin 512 → EReal) (w3 : Fin 512 → EReal) (c3 : EReal)
    (he2 : ∀ (f : Fin 26) (e : Fin 128), e2 ⟨f.val * 128 + e.val, by omega⟩ = second Xi Xv Ws b f e)
    (hw1s : ∀ (q : Fin 3328) (i : Fin 1024), w1s q i = W1 (ix2 (⟨27 + q.val, by omega⟩ : Fin 3355) i))
    (hs : ∀ f : Fin 26, s ⟨f.val, by omega⟩ = Wf (ix3 f (row (Xi (ix3 b f 0))) 0))
    (hxv : ∀ f : Fin 26, xvp ⟨f.val, by omega⟩ = Xv (ix2 b f))
    (hw1m : ∀ (f : Fin 26) (i : Fin 1024), w1m ⟨f.val, by omega⟩ i = W1 (ix2 (⟨1 + f.val, by omega⟩ : Fin 3355) i))
    (hw1m0 : ∀ (f : Fin 32) (i : Fin 1024), 26 ≤ f.val → w1m f i = 0)
    (hbeff : ∀ i : Fin 1024, beff i = b1 (ix1 i) + fmb (ix1 0) * W1 (ix2 (⟨0, by omega⟩ : Fin 3355) i))
    (hw2 : ∀ (i : Fin 1024) (j : Fin 512), w2 i j = W2 (ix2 i j)) (hc2 : ∀ j : Fin 512, c2 j = b2 (ix1 j))
    (hw3 : ∀ j : Fin 512, w3 j = W3 (ix2 j 0)) (hc3 : c3 = b3 (ix1 0)) :
    (∑ j : Fin 512, Ideal.tanh ((∑ i : Fin 1024, Ideal.tanh (((∑ q : Fin 3328, e2 q * w1s q i)
        + ∑ f : Fin 32, (s f * xvp f) * w1m f i) + beff i) * w2 i j) + c2 j) * w3 j) + c3
      = out Xi Xv fmb Wf Ws W1 b1 W2 b2 W3 b3 b := by
  unfold out pre2
  rw [hc3]
  refine congrArg (· + b3 (ix1 0)) (Finset.sum_congr rfl fun j _ => ?_)
  rw [hw3 j, hc2 j]
  refine congrArg (fun t => Ideal.tanh (t + b2 (ix1 j)) * W3 (ix2 j 0)) (Finset.sum_congr rfl fun i _ => ?_)
  rw [hw2 i j, first_layer Xi Xv fmb Wf Ws W1 b1 b i e2 s xvp (fun q => w1s q i) (fun f => w1m f i) (beff i) he2
    (fun q => hw1s q i) hs hxv (fun f => hw1m f i) (fun f hf => hw1m0 f i hf) (hbeff i)]

end

end Cert.Proof.MlpAlgebra

end
-- ==== Proof.MlpJoin.lean ====
/-
  The dense body against the specification: if the blocks the body loads hold, at row p, the pieces of batch row b
  (the scaled second-order embeddings, the first-order weights and the values padded to 32, the rows of W1 in the
  kernel's three groups, the other layers' weights), then what the body stores at (p, 0) is the specification's
  output of row b.
-/
import proofs.«207592_g65111704207794_cont_9to1_m_407_36_alg».proof.Proof.MlpBody
import proofs.«207592_g65111704207794_cont_9to1_m_407_36_alg».proof.Proof.MlpAlgebra

noncomputable section

namespace Cert.Proof.MlpJoin

open Cert.KernelIdeal Cert.KernelIdeal.Gen Idealize.ShloMosaic Idealize.ShloMosaic.ValueIdx
open Cert.Proof.Spec

theorem stored_eq_out
    (Xi : IVec ⟨3, ![4096, 26, 1]⟩ 32) (Xv : FVec Ideal ⟨2, ![4096, 26]⟩ .f32) (fmb : FVec Ideal ⟨1, ![1]⟩ .f32)
    (Wf : FVec Ideal ⟨3, ![26, 1000, 1]⟩ .f32) (Ws : FVec Ideal ⟨3, ![26, 1000, 128]⟩ .f32)
    (W1 : FVec Ideal ⟨2, ![3355, 1024]⟩ .f32) (b1 : FVec Ideal ⟨1, ![1024]⟩ .f32)
    (W2 : FVec Ideal ⟨2, ![1024, 512]⟩ .f32) (b2 : FVec Ideal ⟨1, ![512]⟩ .f32)
    (W3 : FVec Ideal ⟨2, ![512, 1]⟩ .f32) (b3 : FVec Ideal ⟨1, ![1]⟩ .f32)
    (b : Fin 4096)
    (v0 : Vec Ideal S512x3328 .f32) (v3 : Vec Ideal S3328x1024 .bf16) (v6 : Vec Ideal S512x32 .f32)
    (v8 : Vec Ideal S512x32 .f32) (v12 : Vec Ideal S32x1024 .bf16) (v16 : Vec Ideal S1x1024 .f32)
    (v22 : Vec Ideal S1024x512 .bf16) (v25 : Vec Ideal S1x512 .f32) (v31 : Vec Ideal S512x1 .bf16)
    (v34 : Elt Ideal .f32) (p : Fin 512) (z : Fin 1)
    (he2 : ∀ (f : Fin 26) (e : Fin 128), v0 (ix2 p (⟨f.val * 128 + e.val, by omega⟩ : Fin 3328)) = second Xi Xv Ws b f e)
    (hw1s : ∀ (q : Fin 3328) (i : Fin 1024), v3 (ix2 q i) = W1 (ix2 (⟨27 + q.val, by omega⟩ : Fin 3355) i))
    (hs : ∀ f : Fin 26, v6 (ix2 p (⟨f.val, by omega⟩ : Fin 32)) = Wf (ix3 f (row (Xi (ix3 b f 0))) 0))
    (hxv : ∀ f : Fin 26, v8 (ix2 p (⟨f.val, by omega⟩ : Fin 32)) = Xv (ix2 b f))
    (hw1m : ∀ (f : Fin 26) (i : Fin 1024),
      v12 (ix2 (⟨f.val, by omega⟩ : Fin 32) i) = W1 (ix2 (⟨1 + f.val, by omega⟩ : Fin 3355) i))
    (hw1m0 : ∀ (f : Fin 32) (i : Fin 1024), 26 ≤ f.val → v12 (ix2 f i) = 0)
    (hbeff : ∀ i : Fin 1024,
      v16 (ix2 (0 : Fin 1) i) = b1 (ix1 i) + fmb (ix1 0) * W1 (ix2 (⟨0, by omega⟩ : Fin 3355) i))
    (hw2 : ∀ (i : Fin 1024) (j : Fin 512), v22 (ix2 i j) = W2 (ix2 i j))
    (hb2 : ∀ j : Fin 512, v25 (ix2 (0 : Fin 1) j) = b2 (ix1 j))
    (hw3 : ∀ j : Fin 512, v31 (ix2 j (0 : Fin 1)) = W3 (ix2 j 0))
    (hb3 : v34 = b3 (ix1 0)) :
    k1_pay1 (F := Ideal) (k1_pay2 (F := Ideal) v0 v3 v6 v8 v12 v16 v22 v25 v31) v34 (ix2 p z)
      = out Xi Xv fmb Wf Ws W1 b1 W2 b2 W3 b3 b := by
  rw [Cert.Proof.MlpBody.stored_at]
  exact Cert.Proof.MlpAlgebra.mlp_row Xi Xv fmb Wf Ws W1 b1 W2 b2 W3 b3 b
    (fun q => v0 (ix2 p q)) (fun f => v6 (ix2 p f)) (fun f => v8 (ix2 p f))
    (fun q i => v3 (ix2 q i)) (fun f i => v12 (ix2 f i)) (fun i => v16 (ix2 (0 : Fin 1) i))
    (fun i j => v22 (ix2 i j)) (fun j => v25 (ix2 (0 : Fin 1) j)) (fun j => v31 (ix2 j (0 : Fin 1))) v34
    he2 hw1s hs hxv hw1m hw1m0 hbeff hw2 hb2 hw3 hb3

end Cert.Proof.MlpJoin

end
-- ==== Proof.HostIdeal.lean ====
/-
  The host terms at the extended reals: narrowing to the 16-bit format and widening back are the identity there, the
  zero word is the number 0, product and sum are the extended reals' own.
-/
import proofs.«207592_g65111704207794_cont_9to1_m_407_36_alg».proof.Proof.HostTerms
import Idealize.ShloMosaic.PureOps.Ideal

noncomputable section

namespace Cert.Proof.HostIdeal

open Cert.KernelIdeal Cert.KernelIdeal.Gen Idealize.ShloMosaic
open Idealize.ShloMosaic.ValueIdx Idealize.ShloMosaic.Pipeline
open Cert.Proof.HostTerms

/-- The zero word is the number 0. -/
theorem zero_bits : Ideal.ofBits .f32 0x00000000#32 = (0 : EReal) := by
  simp [Ideal.ofBits, Ideal.ieee]

theorem v21T_ideal_ge (wf : FVec Ideal S26x1000x1 .f32) (j : S26008.Idx) (hj : 26000 ≤ (j 0).val) :
    v21T (F := Ideal) wf j = (0 : EReal) := (v21T_apply_ge wf j hj).trans zero_bits

theorem v23T_ideal_ge (xv : FVec Ideal S4096x26 .f32) (b : Fin 4096) (f : Fin 32) (hf : 26 ≤ f.val) :
    v23T (F := Ideal) xv (ix2 b f) = (0 : EReal) := (v23T_apply_ge xv b f hf).trans zero_bits

theorem v27T_ideal_lt (w1 : FVec Ideal S3355x1024 .f32) (f : Fin 32) (i : Fin 1024) (hf : f.val < 26) :
    v27T (F := Ideal) w1 (ix2 f i) = w1 (ix2 ⟨1 + f.val, by omega⟩ i) := v27T_apply_lt w1 f i hf

theorem v27T_ideal_ge (w1 : FVec Ideal S3355x1024 .f32) (f : Fin 32) (i : Fin 1024) (hf : 26 ≤ f.val) :
    v27T (F := Ideal) w1 (ix2 f i) = (0 : EReal) := (v27T_apply_ge w1 f i hf).trans zero_bits

theorem v29T_ideal (w1 : FVec Ideal S3355x1024 .f32) (j : Fin 3328) (i : Fin 1024) :
    v29T (F := Ideal) w1 (ix2 j i) = w1 (ix2 ⟨27 + j.val, by omega⟩ i) := v29T_apply w1 j i

theorem v39T_ideal (b1 : FVec Ideal S1024 .f32) (fm : FVec Ideal S1 .f32) (w1 : FVec Ideal S3355x1024 .f32) (u : Fin 1) (i : Fin 1024) :
    v39T (F := Ideal) b1 fm w1 (ix2 u i) = (b1 (ix1 i) + fm (ix1 u0) * w1 (ix2 ⟨0, by omega⟩ i) : EReal) :=
  v39T_apply b1 fm w1 u i

theorem v40T_ideal (w2 : FVec Ideal S1024x512 .f32) (j : S1024x512.Idx) : v40T (F := Ideal) w2 j = w2 j := rfl
theorem v41T_ideal (w3 : FVec Ideal S512x1 .f32) (j : S512x1.Idx) : v41T (F := Ideal) w3 j = w3 j := rfl

end Cert.Proof.HostIdeal

end
-- ==== Proof.BridgeSc.lean ====
/-
  The SparseCore call's two results against the specification, on the extended reals.
  The second-order result at row b, column f*128 + e: the table row the index list names at the position of (b, f) is
  row f*1000 + Xi[b, f] of the merged table, which is row Xi[b, f] of field f's table; its element e times the scale
  list's entry there, which is Xv[b, f]: the specification's second-order term.
  The first-order result at position b*32 + f, f < 26: the padded index list's entry there is f*1000 + Xi[b, f], which
  names field f's first-order weight at Xi[b, f].
  An index word at most 999 is its own table row.
-/
import proofs.«207592_g65111704207794_cont_9to1_m_407_36_alg».proof.Proof.ScSpec
import proofs.«207592_g65111704207794_cont_9to1_m_407_36_alg».proof.Proof.Spec
import proofs.«207592_g65111704207794_cont_9to1_m_407_36_alg».proof.Proof.HostTerms
import proofs.«207592_g65111704207794_cont_9to1_m_407_36_alg».proof.Proof.HostBounds

noncomputable section

namespace Cert.Proof.BridgeSc

open Cert.KernelIdeal Cert.KernelIdeal.Gen Idealize.ShloMosaic
open Idealize.ShloMosaic.ValueIdx
open Cert.Proof.HostTerms Cert.Proof.HostBounds
open Cert.Proof.ScSpec (E2 SS pos)

variable (Xi : IVec S4096x26x1 32) (hxi : ∀ i, (Xi i).toNat ≤ 999)

/-- A word at most 999, as a row of a 1000-row table, is the specification's row. -/
theorem row_eq (w : BitVec 32) (h : w.toNat ≤ 999) : (⟨w.toNat, by omega⟩ : Fin 1000) = Cert.Proof.Spec.row w :=
  Fin.ext (Cert.Proof.Spec.row_val h).symm

include hxi in
/-- The second-order result is the specification's second-order term. -/
theorem E2_second (Xv : FVec Ideal S4096x26 .f32) (Ws : FVec Ideal S26x1000x128 .f32)
    (b : Fin 4096) (f : Fin 26) (e : Fin 128) (x : S4096x3328.Idx) (hx0 : (x 0).val = b.val) (hx1 : (x 1).val = f.val * 128 + e.val) :
    E2 (F := Ideal) (v18T (F := Ideal) Ws) (v42T Xi) (v44T (F := Ideal) Xv) x = Cert.Proof.Spec.second Xi Xv Ws b f e := by
  have hb := b.isLt; have hf := f.isLt; have he := e.isLt
  have hc : (x 1).val / 128 = f.val := by omega
  have hm : (x 1).val % 128 = e.val := by omega
  -- the position of (b, f) in the lists
  have hpos : pos (x 0).val ((x 1).val / 128) % 106496 = (⟨b.val / 128, by omega⟩ : Fin 32).val * 3328 + f.val * 128 + (⟨b.val % 128, by omega⟩ : Fin 128).val := by
    rw [hx0, hc]
    show (b.val / 128 * 3328 + f.val * 128 + b.val % 128) % 106496 = b.val / 128 * 3328 + f.val * 128 + b.val % 128
    omega
  have hbb : (⟨(⟨b.val / 128, by omega⟩ : Fin 32).val * 128 + (⟨b.val % 128, by omega⟩ : Fin 128).val, by
      show b.val / 128 * 128 + b.val % 128 < 4096; omega⟩ : Fin 4096) = b := Fin.ext (by show b.val / 128 * 128 + b.val % 128 = b.val; omega)
  -- the index list's entry there, and the scale list's
  have hI := v42T_toNat Xi hxi ⟨b.val / 128, by omega⟩ f ⟨b.val % 128, by omega⟩
    (Cert.Proof.ScSpec.ix1 106496 (by decide) (pos (x 0).val ((x 1).val / 128))) hpos
  have hX := v44T_apply (F := Ideal) Xv ⟨b.val / 128, by omega⟩ f ⟨b.val % 128, by omega⟩
    (Cert.Proof.ScSpec.ix1 106496 (by decide) (pos (x 0).val ((x 1).val / 128))) hpos
  rw [hbb] at hI hX
  have hle := hxi (ix3 b f u0)
  -- the table row it names
  have hT := v18T_apply (F := Ideal) Ws f ⟨(Xi (ix3 b f u0)).toNat, by omega⟩ e
    (Cert.Proof.ScSpec.ix2 26000 128 (by decide) (by decide)
      (v42T Xi (Cert.Proof.ScSpec.ix1 106496 (by decide) (pos (x 0).val ((x 1).val / 128)))).toNat ((x 1).val % 128))
    (by
      show (v42T Xi _).toNat % 26000 = f.val * 1000 + (Xi (ix3 b f u0)).toNat
      rw [hI]; omega)
    (by show (x 1).val % 128 % 128 = e.val; omega)
  show (v18T (F := Ideal) Ws _ : EReal) * v44T (F := Ideal) Xv _ = _
  rw [hT, hX, row_eq _ hle]
  rfl

include hxi in
/-- The first-order result is the first-order weight the specification names. -/
theorem SS_first (Wf : FVec Ideal S26x1000x1 .f32) (b : Fin 4096) (f : Fin 26) (k : S131072.Idx)
    (hk : (k 0).val = b.val * 32 + f.val) :
    SS (F := Ideal) (v43T Xi) (v21T (F := Ideal) Wf) k = Wf (ix3 f (Cert.Proof.Spec.row (Xi (ix3 b f 0))) 0) := by
  have hf := f.isLt
  have hI := v43T_toNat_lt Xi hxi b ⟨f.val, by omega⟩ hf k hk
  have hle := hxi (ix3 b f u0)
  have hW := v21T_apply_lt (F := Ideal) Wf f ⟨(Xi (ix3 b f u0)).toNat, by omega⟩
    (Cert.Proof.ScSpec.ix1 26008 (by decide) (v43T Xi k).toNat)
    (by
      show (v43T Xi k).toNat % 26008 = f.val * 1000 + (Xi (ix3 b f u0)).toNat
      rw [hI]
      show ((Xi (ix3 b f u0)).toNat + f.val * 1000) % 26008 = _
      omega)
  show v21T (F := Ideal) Wf _ = _
  rw [hW, row_eq _ hle]
  rfl

end Cert.Proof.BridgeSc

end
-- ==== Proof.BridgeAll.lean ====
/-
  The program's result against the specification, on the extended reals.
  The result's row b is the dense body's value on the blocks of the grid point b / 512, read at row b % 512 of the
  block. Those blocks, read off the arrays as the TensorCore call finds them, hold at that row the pieces of batch row b:
  the SparseCore call's second-order result there is the specification's second-order terms of row b, its first-order
  result the first-order weights of row b, the padded values the values of row b; the weight operands are the rows of the
  first layer's matrix in the kernel's three groups (the padding rows zero), the effective bias row, and the other
  layers' matrices and biases. So the stored value is the specification's output of row b.
-/
import proofs.«207592_g65111704207794_cont_9to1_m_407_36_alg».proof.Proof.TcHeld
import proofs.«207592_g65111704207794_cont_9to1_m_407_36_alg».proof.Proof.MlpJoin
import proofs.«207592_g65111704207794_cont_9to1_m_407_36_alg».proof.Proof.HostGlue
import proofs.«207592_g65111704207794_cont_9to1_m_407_36_alg».proof.Proof.HostIdeal
import proofs.«207592_g65111704207794_cont_9to1_m_407_36_alg».proof.Proof.BridgeSc

set_option maxRecDepth 16384

noncomputable section

namespace Cert.Proof.BridgeAll

open Cert.KernelIdeal Cert.KernelIdeal.Gen Idealize.ShloMosaic
open Idealize.ShloMosaic.ValueIdx
open Idealize.ShloMosaic.StableHlo (after)
open Cert.Proof.HostOps (hostOps0 hostOps1 V0)
open Cert.Proof.HostTerms Cert.Proof.HostGlue Cert.Proof.HostIdeal
open Cert.Proof.ScSpec (E2 SS)
open Cert.Proof.TcBody (iblk out1 word1)
open Cert.Proof.TcHeld (OutAll ptOf rowOf Wb out1_eq)

variable [∀ e, Nonempty (Elt Ideal e)]

/-! ## The blocks read at an index -/

/-- The three row-blocked windows' block index at point t is (t, 0). -/
theorem idxRows : ∀ t : Fin cfg1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0) :=
  (by decide +kernel : ∀ t : Fin grid1.N, (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0))

/-- The seven whole windows' block index is (0, 0) at every point. -/
theorem idxWhole : ∀ t : Fin cfg1.N, (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0) :=
  (by decide +kernel : ∀ t : Fin grid1.N, (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0))

section Blocks

variable (Wv : Valuation τ sig (Elt Ideal)) (b : Fin 4096) (z : Fin 1)

/-- The row of b inside its block. -/
abbrev pOf : Fin 512 := ⟨b.val % 512, Nat.mod_lt _ (by decide)⟩

theorem ptOf_val : (ptOf (ix2 b z)).val = b.val / 512 := rfl

theorem blk0_at (q : Fin 3328) :
    (iblk (F := Ideal) (0 : Dev nD) (Wb Wv 0) 0 (ptOf (ix2 b z)) : Vec Ideal S512x3328 .f32) (ix2 (pOf b) q)
      = (Wv (Proc.devRef .tc main_v45_0) : S4096x3328.Idx → EReal) (ix2 b q) := by
  obtain ⟨e0, e1⟩ := (idxRows (ptOf (ix2 b z))).1
  have hv := ptOf_val b z
  show (Wv (Proc.devRef .tc main_v45_0) : S4096x3328.Idx → EReal) (((cfg1.win 0).blk (ptOf (ix2 b z))).view.emb (ix2 (pOf b) q)) = _
  congr 1
  funext a
  match a with
  | ⟨0, _⟩ =>
    apply Fin.ext
    show win1_0.index (ptOf (ix2 b z)) (0 : Fin 2) * 512 + 1 * (b.val % 512) = b.val
    omega
  | ⟨1, _⟩ =>
    apply Fin.ext
    show win1_0.index (ptOf (ix2 b z)) (1 : Fin 2) * 3328 + 1 * q.val = q.val
    omega

theorem blk1_at (q : Fin 32) :
    (iblk (F := Ideal) (0 : Dev nD) (Wb Wv 0) 1 (ptOf (ix2 b z)) : Vec Ideal S512x32 .f32) (ix2 (pOf b) q)
      = (Wv (Proc.devRef .tc main_v23) : S4096x32.Idx → EReal) (ix2 b q) := by
  obtain ⟨e0, e1⟩ := (idxRows (ptOf (ix2 b z))).2.1
  have hv := ptOf_val b z
  show (Wv (Proc.devRef .tc main_v23) : S4096x32.Idx → EReal) (((cfg1.win 1).blk (ptOf (ix2 b z))).view.emb (ix2 (pOf b) q)) = _
  congr 1
  funext a
  match a with
  | ⟨0, _⟩ =>
    apply Fin.ext
    show win1_1.index (ptOf (ix2 b z)) (0 : Fin 2) * 512 + 1 * (b.val % 512) = b.val
    omega
  | ⟨1, _⟩ =>
    apply Fin.ext
    show win1_1.index (ptOf (ix2 b z)) (1 : Fin 2) * 32 + 1 * q.val = q.val
    omega

theorem blk2_at (q : Fin 32) :
    (iblk (F := Ideal) (0 : Dev nD) (Wb Wv 0) 2 (ptOf (ix2 b z)) : Vec Ideal S512x32 .f32) (ix2 (pOf b) q)
      = (Wv (Proc.devRef .tc main_v46) : S4096x32.Idx → EReal) (ix2 b q) := by
  obtain ⟨e0, e1⟩ := (idxRows (ptOf (ix2 b z))).2.2
  have hv := ptOf_val b z
  show (Wv (Proc.devRef .tc main_v46) : S4096x32.Idx → EReal) (((cfg1.win 2).blk (ptOf (ix2 b z))).view.emb (ix2 (pOf b) q)) = _
  congr 1
  funext a
  match a with
  | ⟨0, _⟩ =>
    apply Fin.ext
    show win1_2.index (ptOf (ix2 b z)) (0 : Fin 2) * 512 + 1 * (b.val % 512) = b.val
    omega
  | ⟨1, _⟩ =>
    apply Fin.ext
    show win1_2.index (ptOf (ix2 b z)) (1 : Fin 2) * 32 + 1 * q.val = q.val
    omega

variable (t : Fin cfg1.N)

theorem blk3 (p : Fin 3328) (q : Fin 1024) :
    (iblk (F := Ideal) (0 : Dev nD) (Wb Wv 0) 3 t : Vec Ideal S3328x1024 .bf16) (ix2 p q)
      = (Wv (Proc.devRef .tc main_v29) : S3328x1024.Idx → EReal) (ix2 p q) := by
  obtain ⟨e0, e1⟩ := (idxWhole t).1
  show (Wv (Proc.devRef .tc main_v29) : S3328x1024.Idx → EReal) (((cfg1.win 3).blk t).view.emb (ix2 p q)) = _
  congr 1
  funext a
  match a with
  | ⟨0, _⟩ =>
    apply Fin.ext
    show win1_3.index t (0 : Fin 2) * 3328 + 1 * p.val = p.val
    omega
  | ⟨1, _⟩ =>
    apply Fin.ext
    show win1_3.index t (1 : Fin 2) * 1024 + 1 * q.val = q.val
    omega

theorem blk4 (p : Fin 32) (q : Fin 1024) :
    (iblk (F := Ideal) (0 : Dev nD) (Wb Wv 0) 4 t : Vec Ideal S32x1024 .bf16) (ix2 p q)
      = (Wv (Proc.devRef .tc main_v27) : S32x1024.Idx → EReal) (ix2 p q) := by
  obtain ⟨e0, e1⟩ := (idxWhole t).2.1
  show (Wv (Proc.devRef .tc main_v27) : S32x1024.Idx → EReal) (((cfg1.win 4).blk t).view.emb (ix2 p q)) = _
  congr 1
  funext a
  match a with
  | ⟨0, _⟩ =>
    apply Fin.ext
    show win1_4.index t (0 : Fin 2) * 32 + 1 * p.val = p.val
    omega
  | ⟨1, _⟩ =>
    apply Fin.ext
    show win1_4.index t (1 : Fin 2) * 1024 + 1 * q.val = q.val
    omega

theorem blk5 (p : Fin 1) (q : Fin 1024) :
    (iblk (F := Ideal) (0 : Dev nD) (Wb Wv 0) 5 t : Vec Ideal S1x1024 .f32) (ix2 p q)
      = (Wv (Proc.devRef .tc main_v39) : S1x1024.Idx → EReal) (ix2 p q) := by
  obtain ⟨e0, e1⟩ := (idxWhole t).2.2.1
  show (Wv (Proc.devRef .tc main_v39) : S1x1024.Idx → EReal) (((cfg1.win 5).blk t).view.emb (ix2 p q)) = _
  congr 1
  funext a
  match a with
  | ⟨0, _⟩ =>
    apply Fin.ext
    show win1_5.index t (0 : Fin 2) * 1 + 1 * p.val = p.val
    omega
  | ⟨1, _⟩ =>
    apply Fin.ext
    show win1_5.index t (1 : Fin 2) * 1024 + 1 * q.val = q.val
    omega

theorem blk6 (p : Fin 1024) (q : Fin 512) :
    (iblk (F := Ideal) (0 : Dev nD) (Wb Wv 0) 6 t : Vec Ideal S1024x512 .bf16) (ix2 p q)
      = (Wv (Proc.devRef .tc main_v40) : S1024x512.Idx → EReal) (ix2 p q) := by
  obtain ⟨e0, e1⟩ := (idxWhole t).2.2.2.1
  show (Wv (Proc.devRef .tc main_v40) : S1024x512.Idx → EReal) (((cfg1.win 6).blk t).view.emb (ix2 p q)) = _
  congr 1
  funext a
  match a with
  | ⟨0, _⟩ =>
    apply Fin.ext
    show win1_6.index t (0 : Fin 2) * 1024 + 1 * p.val = p.val
    omega
  | ⟨1, _⟩ =>
    apply Fin.ext
    show win1_6.index t (1 : Fin 2) * 512 + 1 * q.val = q.val
    omega

theorem blk7 (p : Fin 1) (q : Fin 512) :
    (iblk (F := Ideal) (0 : Dev nD) (Wb Wv 0) 7 t : Vec Ideal S1x512 .f32) (ix2 p q)
      = (Wv (Proc.devRef .tc main_v47) : S1x512.Idx → EReal) (ix2 p q) := by
  obtain ⟨e0, e1⟩ := (idxWhole t).2.2.2.2.1
  show (Wv (Proc.devRef .tc main_v47) : S1x512.Idx → EReal) (((cfg1.win 7).blk t).view.emb (ix2 p q)) = _
  congr 1
  funext a
  match a with
  | ⟨0, _⟩ =>
    apply Fin.ext
    show win1_7.index t (0 : Fin 2) * 1 + 1 * p.val = p.val
    omega
  | ⟨1, _⟩ =>
    apply Fin.ext
    show win1_7.index t (1 : Fin 2) * 512 + 1 * q.val = q.val
    omega

theorem blk8 (p : Fin 512) (q : Fin 1) :
    (iblk (F := Ideal) (0 : Dev nD) (Wb Wv 0) 8 t : Vec Ideal S512x1 .bf16) (ix2 p q)
      = (Wv (Proc.devRef .tc main_v41) : S512x1.Idx → EReal) (ix2 p q) := by
  obtain ⟨e0, e1⟩ := (idxWhole t).2.2.2.2.2.1
  show (Wv (Proc.devRef .tc main_v41) : S512x1.Idx → EReal) (((cfg1.win 8).blk t).view.emb (ix2 p q)) = _
  congr 1
  funext a
  match a with
  | ⟨0, _⟩ =>
    apply Fin.ext
    show win1_8.index t (0 : Fin 2) * 512 + 1 * p.val = p.val
    omega
  | ⟨1, _⟩ =>
    apply Fin.ext
    show win1_8.index t (1 : Fin 2) * 1 + 1 * q.val = q.val
    omega

theorem blk9 (p : Fin 1) (q : Fin 1) :
    (iblk (F := Ideal) (0 : Dev nD) (Wb Wv 0) 9 t : Vec Ideal S1x1 .f32) (ix2 p q)
      = (Wv (Proc.devRef .tc main_v48) : S1x1.Idx → EReal) (ix2 p q) := by
  obtain ⟨e0, e1⟩ := (idxWhole t).2.2.2.2.2.2
  show (Wv (Proc.devRef .tc main_v48) : S1x1.Idx → EReal) (((cfg1.win 9).blk t).view.emb (ix2 p q)) = _
  congr 1
  funext a
  match a with
  | ⟨0, _⟩ =>
    apply Fin.ext
    show win1_9.index t (0 : Fin 2) * 1 + 1 * p.val = p.val
    omega
  | ⟨1, _⟩ =>
    apply Fin.ext
    show win1_9.index t (1 : Fin 2) * 1 + 1 * q.val = q.val
    omega

end Blocks

/-! ## The result -/

section Result

variable (m : (ℓ : Loc nD τ sig) → Buf (Elt Ideal) ℓ) (c : Dev nD)

/-- The arrays after the host operations before the SparseCore call. -/
abbrev Wa : Valuation τ sig (Elt Ideal) := after hostOps0 (V0 m c)
/-- The SparseCore call's two results. -/
abbrev e2v : r450.ty.Contents (Elt Ideal) :=
  E2 (F := Ideal) (Wa m c (Proc.devRef .tc main_v18)) (Wa m c (Proc.devRef .tc main_v42)) (Wa m c (Proc.devRef .tc main_v44))
abbrev sov : r451.ty.Contents (Elt Ideal) :=
  SS (F := Ideal) (Wa m c (Proc.devRef .tc main_v43)) (Wa m c (Proc.devRef .tc main_v21))
/-- The arrays as the TensorCore call finds them. -/
abbrev Wt : Valuation τ sig (Elt Ideal) := Wc m c (e2v m c) (sov m c)

section WtAt
theorem Wt_v45_0 : Wt m c (Proc.devRef .tc main_v45_0) = e2v m c := Wc_v45_0 m c _ _
theorem Wt_v23 : Wt m c (Proc.devRef .tc main_v23) = v23T (F := Ideal) (m ((SparseCore.T c).loc main_arg1)) := Wc_v23 m c _ _
theorem Wt_v46 : Wt m c (Proc.devRef .tc main_v46) = shapeCast S4096x32 (sov m c) shapeCasts_S131072_S4096x32 := Wc_v46 m c _ _
theorem Wt_v29 : Wt m c (Proc.devRef .tc main_v29) = v29T (F := Ideal) (m ((SparseCore.T c).loc main_arg5)) := Wc_v29 m c _ _
theorem Wt_v27 : Wt m c (Proc.devRef .tc main_v27) = v27T (F := Ideal) (m ((SparseCore.T c).loc main_arg5)) := Wc_v27 m c _ _
theorem Wt_v39 : Wt m c (Proc.devRef .tc main_v39)
    = v39T (F := Ideal) (m ((SparseCore.T c).loc main_arg6)) (m ((SparseCore.T c).loc main_arg2)) (m ((SparseCore.T c).loc main_arg5)) := Wc_v39 m c _ _
theorem Wt_v40 : Wt m c (Proc.devRef .tc main_v40) = v40T (F := Ideal) (m ((SparseCore.T c).loc main_arg7)) := Wc_v40 m c _ _
theorem Wt_v41 : Wt m c (Proc.devRef .tc main_v41) = v41T (F := Ideal) (m ((SparseCore.T c).loc main_arg9)) := Wc_v41 m c _ _
theorem Wt_v47 : Wt m c (Proc.devRef .tc main_v47) = shapeCast S1x512 (m ((SparseCore.T c).loc main_arg8)) shapeCasts_S512_S1x512 := Wc_v47 m c _ _
theorem Wt_v48 : Wt m c (Proc.devRef .tc main_v48) = shapeCast S1x1 (m ((SparseCore.T c).loc main_arg10)) shapeCasts_S1_S1x1 := Wc_v48 m c _ _
theorem Wa_v18 : Wa m c (Proc.devRef .tc main_v18) = v18T (F := Ideal) (m ((SparseCore.T c).loc main_arg4)) := W0_v18 m c
theorem Wa_v21 : Wa m c (Proc.devRef .tc main_v21) = v21T (F := Ideal) (m ((SparseCore.T c).loc main_arg3)) := W0_v21 m c
theorem Wa_v42 : Wa m c (Proc.devRef .tc main_v42) = v42T (m ((SparseCore.T c).loc main_arg0)) := W0_v42 m c
theorem Wa_v43 : Wa m c (Proc.devRef .tc main_v43) = v43T (m ((SparseCore.T c).loc main_arg0)) := W0_v43 m c
theorem Wa_v44 : Wa m c (Proc.devRef .tc main_v44) = v44T (F := Ideal) (m ((SparseCore.T c).loc main_arg1)) := W0_v44 m c
end WtAt

variable (hxi : ∀ i, ((m ((SparseCore.T c).loc main_arg0) : IVec S4096x26x1 32) i).toNat ≤ 999)

include hxi in
/-- THE RESULT: what the TensorCore call leaves in the result's array is the specification's result array. -/
theorem outAll_eq :
    OutAll (F := Ideal) (Wt m c)
      = Cert.Proof.Spec.G (m ((SparseCore.T c).loc main_arg0)) (m ((SparseCore.T c).loc main_arg1)) (m ((SparseCore.T c).loc main_arg2)) (m ((SparseCore.T c).loc main_arg3)) (m ((SparseCore.T c).loc main_arg4)) (m ((SparseCore.T c).loc main_arg5)) (m ((SparseCore.T c).loc main_arg6)) (m ((SparseCore.T c).loc main_arg7)) (m ((SparseCore.T c).loc main_arg8)) (m ((SparseCore.T c).loc main_arg9)) (m ((SparseCore.T c).loc main_arg10)) := by
  funext i
  obtain ⟨b, z, rfl⟩ : ∃ b z, i = ix2 b z := ⟨i 0, i 1, eq_ix2 i⟩
  rw [Cert.Proof.Spec.G_apply]
  have hrow : rowOf (ix2 b z) = ix2 (pOf b) z := by
    funext a
    match a with
    | ⟨0, _⟩ => rfl
    | ⟨1, _⟩ => rfl
  show out1 (F := Ideal) (iblk (0 : Dev nD) (Wb (Wt m c) 0) 0 (ptOf (ix2 b z))) (iblk (0 : Dev nD) (Wb (Wt m c) 0) 1 (ptOf (ix2 b z)))
      (iblk (0 : Dev nD) (Wb (Wt m c) 0) 2 (ptOf (ix2 b z))) (iblk (0 : Dev nD) (Wb (Wt m c) 0) 3 (ptOf (ix2 b z)))
      (iblk (0 : Dev nD) (Wb (Wt m c) 0) 4 (ptOf (ix2 b z))) (iblk (0 : Dev nD) (Wb (Wt m c) 0) 5 (ptOf (ix2 b z)))
      (iblk (0 : Dev nD) (Wb (Wt m c) 0) 6 (ptOf (ix2 b z))) (iblk (0 : Dev nD) (Wb (Wt m c) 0) 7 (ptOf (ix2 b z)))
      (iblk (0 : Dev nD) (Wb (Wt m c) 0) 8 (ptOf (ix2 b z))) (iblk (0 : Dev nD) (Wb (Wt m c) 0) 9 (ptOf (ix2 b z))) (rowOf (ix2 b z)) = _
  rw [out1_eq, hrow]
  refine Cert.Proof.MlpJoin.stored_eq_out _ _ _ _ _ _ _ _ _ _ _ b _ _ _ _ _ _ _ _ _ _ (pOf b) z ?he2 ?hw1s ?hs ?hxv ?hw1m ?hw1m0 ?hbeff ?hw2 ?hb2 ?hw3 ?hb3
  case he2 =>
    intro f e
    rw [blk0_at, Wt_v45_0]
    show E2 (F := Ideal) (Wa m c (Proc.devRef .tc main_v18)) (Wa m c (Proc.devRef .tc main_v42)) (Wa m c (Proc.devRef .tc main_v44)) _ = _
    rw [Wa_v18, Wa_v42, Wa_v44]
    exact Cert.Proof.BridgeSc.E2_second _ hxi _ _ b f e _ rfl rfl
  case hw1s =>
    intro q i
    rw [blk3, Wt_v29]
    exact v29T_ideal _ q i
  case hs =>
    intro f
    rw [blk2_at, Wt_v46, reshape46_apply]
    show SS (F := Ideal) (Wa m c (Proc.devRef .tc main_v43)) (Wa m c (Proc.devRef .tc main_v21)) _ = _
    rw [Wa_v43, Wa_v21]
    exact Cert.Proof.BridgeSc.SS_first _ hxi _ b f _ rfl
  case hxv =>
    intro f
    rw [blk1_at, Wt_v23]
    exact v23T_apply_lt _ b ⟨f.val, by omega⟩ f.isLt
  case hw1m =>
    intro f i
    rw [blk4, Wt_v27]
    exact v27T_ideal_lt _ ⟨f.val, by omega⟩ i f.isLt
  case hw1m0 =>
    intro f i hf
    rw [blk4, Wt_v27]
    exact v27T_ideal_ge _ f i hf
  case hbeff =>
    intro i
    rw [blk5, Wt_v39]
    exact v39T_ideal _ _ _ 0 i
  case hw2 =>
    intro i j
    rw [blk6, Wt_v40]
    rfl
  case hb2 =>
    intro j
    rw [blk7, Wt_v47]
    exact reshape47_apply _ 0 j
  case hw3 =>
    intro j
    rw [blk8, Wt_v41]
    rfl
  case hb3 =>
    show (iblk (F := Ideal) (0 : Dev nD) (Wb (Wt m c) 0) 9 (ptOf (ix2 b z)) : Vec Ideal S1x1 .f32) (ix2 (0 : Fin 1) (0 : Fin 1)) = _
    rw [blk9, Wt_v48]
    exact reshape48_apply _ 0 0

end Result

end Cert.Proof.BridgeAll

end
-- ==== Proof.BridgeKI.lean ====
/-
  The program's result against the specification, stated over the arrays as the launch names them: under the
  precondition, what the TensorCore call leaves in the result's array is the specification's result array of the
  eleven arguments.
-/
import proofs.«207592_g65111704207794_cont_9to1_m_407_36_alg».proof.Proof.BridgeAll
import proofs.«207592_g65111704207794_cont_9to1_m_407_36_alg».proof.Proof.LaunchMain

noncomputable section

namespace Cert.Proof.BridgeAll

open Cert.KernelIdeal Cert.KernelIdeal.Gen Idealize.ShloMosaic

theorem outAll_spec [∀ e, Nonempty (Elt Ideal e)] [Cert.Pre_input_domain.Facts]
    (m : (ℓ : Loc nD τ sig) → Buf (Elt Ideal) ℓ) (hpre : Cert.Proof.KI.PreM m) (c : Dev nD) :
    Cert.Proof.TcHeld.OutAll (F := Ideal) (Cert.Proof.KI.W3 m c)
      = Cert.Proof.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  outAll_eq m c (Cert.Proof.KI.xi_le m hpre c)

end Cert.Proof.BridgeAll

end
-- ==== Proof.lean ====
/-
  The certificate's claim. The kernel builds index lists on the host, gathers and scales the second-order embedding
  rows and looks up the first-order weights on the SparseCores' thirty-two vector subcores, and runs the three-layer
  network on the TensorCore; the reference computes the same network on one concatenated feature row. At the extended
  reals both are the function `G` of the eleven arguments (the kernel's sum over the 3355 features is the reference's,
  split into the bias column, the 26 first-order terms — padded by six zero terms — and the 3328 second-order terms).
  The two kernel frames are one proof, read at the two float instances; the reference's frame is its run.
-/
import proofs.«207592_g65111704207794_cont_9to1_m_407_36_alg».proof.Defs
import proofs.«207592_g65111704207794_cont_9to1_m_407_36_alg».proof.Proof.Gen.Kernel
import proofs.«207592_g65111704207794_cont_9to1_m_407_36_alg».proof.Proof.Gen.KernelIdeal
import proofs.«207592_g65111704207794_cont_9to1_m_407_36_alg».proof.Proof.Gen.ReferenceIdeal
import proofs.«207592_g65111704207794_cont_9to1_m_407_36_alg».proof.Proof.Gen.Pre_input_domain
import proofs.«207592_g65111704207794_cont_9to1_m_407_36_alg».proof.Proof.KIClaims
import proofs.«207592_g65111704207794_cont_9to1_m_407_36_alg».proof.Proof.KBClaims
import proofs.«207592_g65111704207794_cont_9to1_m_407_36_alg».proof.Proof.ScBody
import proofs.«207592_g65111704207794_cont_9to1_m_407_36_alg».proof.Proof.B.ScBody
import proofs.«207592_g65111704207794_cont_9to1_m_407_36_alg».proof.Proof.BridgeKI

noncomputable section

namespace Cert.Proof

open Idealize.ShloMosaic Idealize.SL.Sem

/-- One task of the idealized kernel, at every memory the precondition admits. -/
theorem bodyI : Cert.Proof.KIClaims.BodyAll := fun m hP d L O W hO =>
  Cert.Proof.ScBody.tile_body d L Cert.Proof.KI.facts (Cert.Proof.KI.qOf L) (Cert.Proof.KI.qOf L)
    (Cert.Proof.KI.cTb m d) (Cert.Proof.KI.cI2 m d) (Cert.Proof.KI.cIS m d) (Cert.Proof.KI.cWF m d) (Cert.Proof.KI.cXV m d)
    (Cert.Proof.KI.cI2_lt m hP d) (Cert.Proof.KI.cIS_lt m hP d) O W hO

/-- One task of the word-level kernel. -/
theorem bodyB : Cert.Proof.KBClaims.BodyAll := fun m hP d L O W hO =>
  Cert.ProofB.ScBody.tile_body d L Cert.ProofB.KI.facts (Cert.ProofB.KI.qOf L) (Cert.ProofB.KI.qOf L)
    (Cert.ProofB.KI.cTb m d) (Cert.ProofB.KI.cI2 m d) (Cert.ProofB.KI.cIS m d) (Cert.ProofB.KI.cWF m d) (Cert.ProofB.KI.cXV m d)
    (Cert.ProofB.KI.cI2_lt m hP d) (Cert.ProofB.KI.cIS_lt m hP d) O W hO

/-- The idealized kernel's result is the specification's function of the arguments. -/
theorem bridge : Cert.Proof.KIClaims.BridgeAllP := fun m hP c => Cert.Proof.BridgeAll.outAll_spec m hP c

theorem claim : Cert.Claim :=
  ⟨Cert.Kernel.Gen.facts, Cert.KernelIdeal.Gen.facts, Cert.ReferenceIdeal.Gen.facts, Cert.Pre_input_domain.Gen.facts,
    Cert.Proof.KBClaims.frame bodyB, Cert.Proof.KIClaims.frame bodyI, Cert.Proof.RefFrame.frame, trivial,
    Cert.Proof.KIClaims.algebraic bodyI bridge⟩

end Cert.Proof

end
